-- ==== Defs.lean ====
def Pre_Kernel [hPre_finite_inputs_Kernel : Cert.Pre_finite_inputs_Kernel.Facts] (m : (ℓ : Loc Cert.Kernel.nD Cert.Kernel.τ Cert.Kernel.sig) → Buf (Elt Bits) ℓ) : Prop :=
  ∀ c : Dev Cert.Kernel.nD,
    (Cert.Pre_finite_inputs_Kernel.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs_Kernel : Cert.Pre_finite_inputs_Kernel.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs_Kernel.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs_ReferenceIdeal : Cert.Pre_finite_inputs_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs_Kernel : Cert.Pre_finite_inputs_Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs_ReferenceIdeal : Cert.Pre_finite_inputs_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs_Kernel : Cert.Pre_finite_inputs_Kernel.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) →
    ∃ (v0 : Buf (Elt Ideal) (((0 : Dev Cert.ReferenceIdeal.nD).tc : Thread Cert.ReferenceIdeal.nD Cert.ReferenceIdeal.τ).loc Cert.ReferenceIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.blockN ⟨4, ![2, 512, 8, 64]⟩ ⟨4, ![2, 2048, 8, 64]⟩ (Layout.meshBlock [2, 4, 4] ![[], [2], [], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v13) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs_Kernel : Cert.Pre_finite_inputs_Kernel.Facts) (hPre_finite_inputs_ReferenceIdeal : Cert.Pre_finite_inputs_ReferenceIdeal.Facts),
    frame_Kernel (hKernel := hKernel) (hPre_finite_inputs_Kernel := hPre_finite_inputs_Kernel)
    ∧ frame_KernelIdeal (hKernelIdeal := hKernelIdeal) (hPre_finite_inputs_Kernel := hPre_finite_inputs_Kernel)
    ∧ frame_ReferenceIdeal (hReferenceIdeal := hReferenceIdeal) (hPre_finite_inputs_ReferenceIdeal := hPre_finite_inputs_ReferenceIdeal)
    ∧ preserves_Kernel_KernelIdeal
    ∧ algebraic_KernelIdeal_ReferenceIdeal (hKernelIdeal := hKernelIdeal) (hReferenceIdeal := hReferenceIdeal) (hPre_finite_inputs_Kernel := hPre_finite_inputs_Kernel)
-- ==== Pre_finite_inputs_Kernel.lean ====
abbrev S2x512x8x64 : Shape := ⟨4, ![2, 512, 8, 64]⟩
abbrev S_ : Shape := ⟨0, ![]⟩

class Facts : Prop where
  bcast_S_S2x512x8x64 : S_.BroadcastsInDim S2x512x8x64 (![] : Fin 0 → Fin S2x512x8x64.rank)
  reducesTo_S2x512x8x64_S_d0_1_2_3 : S2x512x8x64.ReducesTo [0, 1, 2, 3] S_
  h_S_ : 0 < S_.numel

variable [Facts]

def fn {F : FTy → Type} [FloatOps F] (main_arg0 : FVec F S2x512x8x64 .f32) (main_arg1 : FVec F S2x512x8x64 .f32) (main_arg2 : FVec F S2x512x8x64 .f32) : IVec S_ 1 :=
  let main_v0 : FVec F S2x512x8x64 .f32 := Host.absf main_arg0
  let main_cst : FVec F S_ .f32 := constant S_ .f32 0x7F800000#32
  let main_v1 : FVec F S2x512x8x64 .f32 := broadcastInDim S2x512x8x64 ![] bcast_S_S2x512x8x64 main_cst
  let main_v2 : IVec S2x512x8x64 1 := cmpf .olt main_v0 main_v1
  let main_c : IVec S_ 1 := constantI S_ 1 1#1
  let main_v3 : IVec S_ 1 := (fun x v => Host.reduce IntOp.andi x v reducesTo_S2x512x8x64_S_d0_1_2_3 h_S_) main_v2 main_c
  let main_v4 : FVec F S2x512x8x64 .f32 := Host.absf main_arg1
  let main_cst_0 : FVec F S_ .f32 := constant S_ .f32 0x7F800000#32
  let main_v5 : FVec F S2x512x8x64 .f32 := broadcastInDim S2x512x8x64 ![] bcast_S_S2x512x8x64 main_cst_0
  let main_v6 : IVec S2x512x8x64 1 := cmpf .olt main_v4 main_v5
  let main_c_1 : IVec S_ 1 := constantI S_ 1 1#1
  let main_v7 : IVec S_ 1 := (fun x v => Host.reduce IntOp.andi x v reducesTo_S2x512x8x64_S_d0_1_2_3 h_S_) main_v6 main_c_1
  let main_v8 : IVec S_ 1 := andi main_v3 main_v7
  let main_v9 : FVec F S2x512x8x64 .f32 := Host.absf main_arg2
  let main_cst_2 : FVec F S_ .f32 := constant S_ .f32 0x7F800000#32
  let main_v10 : FVec F S2x512x8x64 .f32 := broadcastInDim S2x512x8x64 ![] bcast_S_S2x512x8x64 main_cst_2
  let main_v11 : IVec S2x512x8x64 1 := cmpf .olt main_v9 main_v10
  let main_c_3 : IVec S_ 1 := constantI S_ 1 1#1
  let main_v12 : IVec S_ 1 := (fun x v => Host.reduce IntOp.andi x v reducesTo_S2x512x8x64_S_d0_1_2_3 h_S_) main_v11 main_c_3
  let main_v13 : IVec S_ 1 := andi main_v8 main_v12
  main_v13
-- ==== Pre_finite_inputs_ReferenceIdeal.lean ====
abbrev S2x2048x8x64 : Shape := ⟨4, ![2, 2048, 8, 64]⟩
abbrev S_ : Shape := ⟨0, ![]⟩

class Facts : Prop where
  bcast_S_S2x2048x8x64 : S_.BroadcastsInDim S2x2048x8x64 (![] : Fin 0 → Fin S2x2048x8x64.rank)
  reducesTo_S2x2048x8x64_S_d0_1_2_3 : S2x2048x8x64.ReducesTo [0, 1, 2, 3] S_
  h_S_ : 0 < S_.numel

variable [Facts]

def fn {F : FTy → Type} [FloatOps F] (main_arg0 : FVec F S2x2048x8x64 .f32) (main_arg1 : FVec F S2x2048x8x64 .f32) (main_arg2 : FVec F S2x2048x8x64 .f32) : IVec S_ 1 :=
  let main_v0 : FVec F S2x2048x8x64 .f32 := Host.absf main_arg0
  let main_cst : FVec F S_ .f32 := constant S_ .f32 0x7F800000#32
  let main_v1 : FVec F S2x2048x8x64 .f32 := broadcastInDim S2x2048x8x64 ![] bcast_S_S2x2048x8x64 main_cst
  let main_v2 : IVec S2x2048x8x64 1 := cmpf .olt main_v0 main_v1
  let main_c : IVec S_ 1 := constantI S_ 1 1#1
  let main_v3 : IVec S_ 1 := (fun x v => Host.reduce IntOp.andi x v reducesTo_S2x2048x8x64_S_d0_1_2_3 h_S_) main_v2 main_c
  let main_v4 : FVec F S2x2048x8x64 .f32 := Host.absf main_arg1
  let main_cst_0 : FVec F S_ .f32 := constant S_ .f32 0x7F800000#32
  let main_v5 : FVec F S2x2048x8x64 .f32 := broadcastInDim S2x2048x8x64 ![] bcast_S_S2x2048x8x64 main_cst_0
  let main_v6 : IVec S2x2048x8x64 1 := cmpf .olt main_v4 main_v5
  let main_c_1 : IVec S_ 1 := constantI S_ 1 1#1
  let main_v7 : IVec S_ 1 := (fun x v => Host.reduce IntOp.andi x v reducesTo_S2x2048x8x64_S_d0_1_2_3 h_S_) main_v6 main_c_1
  let main_v8 : IVec S_ 1 := andi main_v3 main_v7
  let main_v9 : FVec F S2x2048x8x64 .f32 := Host.absf main_arg2
  let main_cst_2 : FVec F S_ .f32 := constant S_ .f32 0x7F800000#32
  let main_v10 : FVec F S2x2048x8x64 .f32 := broadcastInDim S2x2048x8x64 ![] bcast_S_S2x2048x8x64 main_cst_2
  let main_v11 : IVec S2x2048x8x64 1 := cmpf .olt main_v9 main_v10
  let main_c_3 : IVec S_ 1 := constantI S_ 1 1#1
  let main_v12 : IVec S_ 1 := (fun x v => Host.reduce IntOp.andi x v reducesTo_S2x2048x8x64_S_d0_1_2_3 h_S_) main_v11 main_c_3
  let main_v13 : IVec S_ 1 := andi main_v8 main_v12
  main_v13
-- ==== Kernel.lean ====
abbrev S2x512x8x64 : Shape := ⟨4, ![2, 512, 8, 64]⟩
abbrev S2x8x512x64 : Shape := ⟨4, ![2, 8, 512, 64]⟩
abbrev S2x8x64x512 : Shape := ⟨4, ![2, 8, 64, 512]⟩
abbrev S3x2x8x64x512 : Shape := ⟨5, ![3, 2, 8, 64, 512]⟩
abbrev S3 : Shape := ⟨1, ![3]⟩
abbrev S_ : Shape := ⟨0, ![]⟩
abbrev S1x512x1x64 : Shape := ⟨4, ![1, 512, 1, 64]⟩
abbrev S512x64 : Shape := ⟨2, ![512, 64]⟩
abbrev S64x512 : Shape := ⟨2, ![64, 512]⟩
abbrev S1x1x64x512 : Shape := ⟨4, ![1, 1, 64, 512]⟩
abbrev S1 : Shape := ⟨1, ![1]⟩
abbrev S1x2x8x64x512 : Shape := ⟨5, ![1, 2, 8, 64, 512]⟩
abbrev S1x1x512x64 : Shape := ⟨4, ![1, 1, 512, 64]⟩
abbrev S512x512 : Shape := ⟨2, ![512, 512]⟩
abbrev S512 : Shape := ⟨1, ![512]⟩
abbrev S512x1 : Shape := ⟨2, ![512, 1]⟩
abbrev S1x1x1x64x512 : Shape := ⟨5, ![1, 1, 1, 64, 512]⟩

abbrev nBuf : Space → Nat
  | .hbm => 4
  | .vmem => 11
  | .smem => 0
  | _ => 0

abbrev bufTy : (tb : Table) → Fin (tcTables nBuf tb) → BufTy
  | .hbm, ⟨0, _⟩ => ⟨S2x512x8x64, .f32⟩
  | .hbm, ⟨1, _⟩ => ⟨S2x512x8x64, .f32⟩
  | .hbm, ⟨2, _⟩ => ⟨S2x512x8x64, .f32⟩
  | .hbm, ⟨3, _⟩ => ⟨S2x512x8x64, .f32⟩
  | .local _ .vmem, ⟨0, _⟩ => ⟨S2x512x8x64, .f32⟩
  | .local _ .vmem, ⟨1, _⟩ => ⟨S2x512x8x64, .f32⟩
  | .local _ .vmem, ⟨2, _⟩ => ⟨S2x512x8x64, .f32⟩
  | .local _ .vmem, ⟨3, _⟩ => ⟨S2x512x8x64, .f32⟩
  | .local _ .vmem, ⟨4, _⟩ => ⟨S2x8x512x64, .bf16⟩
  | .local _ .vmem, ⟨5, _⟩ => ⟨S2x8x64x512, .bf16⟩
  | .local _ .vmem, ⟨6, _⟩ => ⟨S2x8x64x512, .bf16⟩
  | .local _ .vmem, ⟨7, _⟩ => ⟨S3x2x8x64x512, .bf16⟩
  | .local _ .vmem, ⟨8, _⟩ => ⟨S3x2x8x64x512, .bf16⟩
  | .local _ .vmem, ⟨9, _⟩ => ⟨S2x8x512x64, .f32⟩
  | .local _ .vmem, ⟨10, _⟩ => ⟨S2x8x512x64, .f32⟩
  | _, _ => ⟨S2x512x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 1 → Bool
  | ⟨0, _⟩ => false
  | _ => false

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  { ofTc nBuf bufTy 1 16 bufScoped semScoped dmaSemScoped tileCredit tileCredit_eq_zero tileCredit_pos with
    barrierSem := RefSig.barrierTable [(0, 0)]
    barrierSem_unscoped := RefSig.barrierTable_unscoped [(0, 0)] semScoped rfl }

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch6 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 32
abbrev τ : Topo := Topo.v7x

variable {F : FTy → Type} [FloatOps F]

abbrev grid0 : Pipeline.Grid := .none

def k0_dev1 (d0 : Dev nD) : Nat :=
  let c0_i32_11 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_10 : BitVec 32 := 16#32
  let v22 : BitVec 32 := Scalar.muli v2 c16_i32_10
  let v23 : BitVec 32 := Scalar.addi c0_i32_11 v22
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_12 : BitVec 32 := 4#32
  let v24 : BitVec 32 := Scalar.muli v5 c4_i32_12
  let v25 : BitVec 32 := Scalar.addi v23 v24
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_2 : BitVec 32 := 1#32
  let v10 : BitVec 32 := Scalar.addi v8 c1_i32_2
  let c0_i32 : BitVec 32 := 0#32
  let v11 : BitVec 32 := Scalar.addi v10 c0_i32
  let c4_i32_3 : BitVec 32 := 4#32
  let c0_i32_4 : BitVec 32 := 0#32
  let v12 : BitVec 1 := Scalar.cmpi .eq c4_i32_3 c0_i32_4
  let c1_i32_5 : BitVec 32 := 1#32
  let v13 : BitVec 32 := Scalar.select v12 c1_i32_5 c4_i32_3
  let v14 : BitVec 32 := Scalar.remsi v11 v13
  let c0_i32_7 : BitVec 32 := 0#32
  let v16 : BitVec 1 := Scalar.cmpi .slt v14 c0_i32_7
  let c0_i32_8 : BitVec 32 := 0#32
  let v17 : BitVec 1 := Scalar.cmpi .slt v13 c0_i32_8
  let v18 : BitVec 1 := Scalar.xori v16 v17
  let c0_i32_6 : BitVec 32 := 0#32
  let v15 : BitVec 1 := Scalar.cmpi .ne v14 c0_i32_6
  let v19 : BitVec 1 := Scalar.andi v18 v15
  let v20 : BitVec 32 := Scalar.addi v14 v13
  let v21 : BitVec 32 := Scalar.select v19 v20 v14
  let c1_i32_13 : BitVec 32 := 1#32
  let v26 : BitVec 32 := Scalar.muli v21 c1_i32_13
  let v27 : BitVec 32 := Scalar.addi v25 v26
  v27.toNat
def k0_dev2 (d0 : Dev nD) : Nat :=
  let c0_i32_24 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_23 : BitVec 32 := 16#32
  let v40 : BitVec 32 := Scalar.muli v2 c16_i32_23
  let v41 : BitVec 32 := Scalar.addi c0_i32_24 v40
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_25 : BitVec 32 := 4#32
  let v42 : BitVec 32 := Scalar.muli v5 c4_i32_25
  let v43 : BitVec 32 := Scalar.addi v41 v42
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_14 : BitVec 32 := 1#32
  let v28 : BitVec 32 := Scalar.addi v8 c1_i32_14
  let c1_i32_15 : BitVec 32 := 1#32
  let v29 : BitVec 32 := Scalar.addi v28 c1_i32_15
  let c4_i32_16 : BitVec 32 := 4#32
  let c0_i32_17 : BitVec 32 := 0#32
  let v30 : BitVec 1 := Scalar.cmpi .eq c4_i32_16 c0_i32_17
  let c1_i32_18 : BitVec 32 := 1#32
  let v31 : BitVec 32 := Scalar.select v30 c1_i32_18 c4_i32_16
  let v32 : BitVec 32 := Scalar.remsi v29 v31
  let c0_i32_20 : BitVec 32 := 0#32
  let v34 : BitVec 1 := Scalar.cmpi .slt v32 c0_i32_20
  let c0_i32_21 : BitVec 32 := 0#32
  let v35 : BitVec 1 := Scalar.cmpi .slt v31 c0_i32_21
  let v36 : BitVec 1 := Scalar.xori v34 v35
  let c0_i32_19 : BitVec 32 := 0#32
  let v33 : BitVec 1 := Scalar.cmpi .ne v32 c0_i32_19
  let v37 : BitVec 1 := Scalar.andi v36 v33
  let v38 : BitVec 32 := Scalar.addi v32 v31
  let v39 : BitVec 32 := Scalar.select v37 v38 v32
  let c1_i32_26 : BitVec 32 := 1#32
  let v44 : BitVec 32 := Scalar.muli v39 c1_i32_26
  let v45 : BitVec 32 := Scalar.addi v43 v44
  v45.toNat
def k0_dev3 (d0 : Dev nD) : Nat :=
  let c0_i32_37 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_36 : BitVec 32 := 16#32
  let v58 : BitVec 32 := Scalar.muli v2 c16_i32_36
  let v59 : BitVec 32 := Scalar.addi c0_i32_37 v58
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_38 : BitVec 32 := 4#32
  let v60 : BitVec 32 := Scalar.muli v5 c4_i32_38
  let v61 : BitVec 32 := Scalar.addi v59 v60
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_27 : BitVec 32 := 1#32
  let v46 : BitVec 32 := Scalar.addi v8 c1_i32_27
  let c2_i32_28 : BitVec 32 := 2#32
  let v47 : BitVec 32 := Scalar.addi v46 c2_i32_28
  let c4_i32_29 : BitVec 32 := 4#32
  let c0_i32_30 : BitVec 32 := 0#32
  let v48 : BitVec 1 := Scalar.cmpi .eq c4_i32_29 c0_i32_30
  let c1_i32_31 : BitVec 32 := 1#32
  let v49 : BitVec 32 := Scalar.select v48 c1_i32_31 c4_i32_29
  let v50 : BitVec 32 := Scalar.remsi v47 v49
  let c0_i32_33 : BitVec 32 := 0#32
  let v52 : BitVec 1 := Scalar.cmpi .slt v50 c0_i32_33
  let c0_i32_34 : BitVec 32 := 0#32
  let v53 : BitVec 1 := Scalar.cmpi .slt v49 c0_i32_34
  let v54 : BitVec 1 := Scalar.xori v52 v53
  let c0_i32_32 : BitVec 32 := 0#32
  let v51 : BitVec 1 := Scalar.cmpi .ne v50 c0_i32_32
  let v55 : BitVec 1 := Scalar.andi v54 v51
  let v56 : BitVec 32 := Scalar.addi v50 v49
  let v57 : BitVec 32 := Scalar.select v55 v56 v50
  let c1_i32_39 : BitVec 32 := 1#32
  let v62 : BitVec 32 := Scalar.muli v57 c1_i32_39
  let v63 : BitVec 32 := Scalar.addi v61 v62
  v63.toNat
@[reducible] def k0_t1_loop : Scf.Loop 32 :=
  let c0_i32_40 : BitVec 32 := 0#32
  let c16_i32_41 : BitVec 32 := 16#32
  let v64 : BitVec 32 := Scalar.addi c0_i32_40 c16_i32_41
  let c1_i32_42 : BitVec 32 := 1#32
  ⟨c0_i32_40, v64, c1_i32_42⟩
def k0_off1 (k0_t1 : Fin k0_t1_loop.trips) : Fin 4 → Nat :=
  let c0_i32_40 : BitVec 32 := 0#32
  let c1_i32_42 : BitVec 32 := 1#32
  let arg15 : BitVec 32 := Scf.iv c0_i32_40 c1_i32_42 k0_t1
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v289 : Index := Scalar.indexCast v278
  let c0 : Index := 0#32
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v290 : Index := Scalar.indexCast v288
  let c0_280 : Index := 0#32
  ![v289.toNat, 0, v290.toNat, 0]
def k0_off2 (k0_t1 : Fin k0_t1_loop.trips) : Fin 4 → Nat :=
  let c0_i32_40 : BitVec 32 := 0#32
  let c1_i32_42 : BitVec 32 := 1#32
  let arg15 : BitVec 32 := Scf.iv c0_i32_40 c1_i32_42 k0_t1
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v295 : Index := Scalar.indexCast v278
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v296 : Index := Scalar.indexCast v288
  let c0_281 : Index := 0#32
  let c0_282 : Index := 0#32
  ![v295.toNat, v296.toNat, 0, 0]
def k0_dev4 (d0 : Dev nD) : Nat :=
  let c0_i32_56 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_55 : BitVec 32 := 16#32
  let v77 : BitVec 32 := Scalar.muli v2 c16_i32_55
  let v78 : BitVec 32 := Scalar.addi c0_i32_56 v77
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_57 : BitVec 32 := 4#32
  let v79 : BitVec 32 := Scalar.muli v5 c4_i32_57
  let v80 : BitVec 32 := Scalar.addi v78 v79
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v65 : BitVec 32 := Scalar.addi v8 c1_i32_44
  let c0_i32_45 : BitVec 32 := 0#32
  let v66 : BitVec 32 := Scalar.addi v65 c0_i32_45
  let c4_i32_46 : BitVec 32 := 4#32
  let c0_i32_47 : BitVec 32 := 0#32
  let v67 : BitVec 1 := Scalar.cmpi .eq c4_i32_46 c0_i32_47
  let c1_i32_48 : BitVec 32 := 1#32
  let v68 : BitVec 32 := Scalar.select v67 c1_i32_48 c4_i32_46
  let v69 : BitVec 32 := Scalar.remsi v66 v68
  let c0_i32_50 : BitVec 32 := 0#32
  let v71 : BitVec 1 := Scalar.cmpi .slt v69 c0_i32_50
  let c0_i32_51 : BitVec 32 := 0#32
  let v72 : BitVec 1 := Scalar.cmpi .slt v68 c0_i32_51
  let v73 : BitVec 1 := Scalar.xori v71 v72
  let c0_i32_49 : BitVec 32 := 0#32
  let v70 : BitVec 1 := Scalar.cmpi .ne v69 c0_i32_49
  let v74 : BitVec 1 := Scalar.andi v73 v70
  let v75 : BitVec 32 := Scalar.addi v69 v68
  let v76 : BitVec 32 := Scalar.select v74 v75 v69
  let c1_i32_58 : BitVec 32 := 1#32
  let v81 : BitVec 32 := Scalar.muli v76 c1_i32_58
  let v82 : BitVec 32 := Scalar.addi v80 v81
  v82.toNat
def k0_dev5 (d0 : Dev nD) : Nat :=
  let c0_i32_67 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_66 : BitVec 32 := 16#32
  let v89 : BitVec 32 := Scalar.muli v2 c16_i32_66
  let v90 : BitVec 32 := Scalar.addi c0_i32_67 v89
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_68 : BitVec 32 := 4#32
  let v91 : BitVec 32 := Scalar.muli v5 c4_i32_68
  let v92 : BitVec 32 := Scalar.addi v90 v91
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_44 : BitVec 32 := 1#32
  let v65 : BitVec 32 := Scalar.addi v8 c1_i32_44
  let c0_i32_45 : BitVec 32 := 0#32
  let v66 : BitVec 32 := Scalar.addi v65 c0_i32_45
  let c4_i32_46 : BitVec 32 := 4#32
  let c0_i32_47 : BitVec 32 := 0#32
  let v67 : BitVec 1 := Scalar.cmpi .eq c4_i32_46 c0_i32_47
  let c1_i32_48 : BitVec 32 := 1#32
  let v68 : BitVec 32 := Scalar.select v67 c1_i32_48 c4_i32_46
  let v69 : BitVec 32 := Scalar.remsi v66 v68
  let c0_i32_50 : BitVec 32 := 0#32
  let v71 : BitVec 1 := Scalar.cmpi .slt v69 c0_i32_50
  let c0_i32_51 : BitVec 32 := 0#32
  let v72 : BitVec 1 := Scalar.cmpi .slt v68 c0_i32_51
  let v73 : BitVec 1 := Scalar.xori v71 v72
  let c0_i32_49 : BitVec 32 := 0#32
  let v70 : BitVec 1 := Scalar.cmpi .ne v69 c0_i32_49
  let v74 : BitVec 1 := Scalar.andi v73 v70
  let v75 : BitVec 32 := Scalar.addi v69 v68
  let v76 : BitVec 32 := Scalar.select v74 v75 v69
  let c1_i32_69 : BitVec 32 := 1#32
  let v93 : BitVec 32 := Scalar.muli v76 c1_i32_69
  let v94 : BitVec 32 := Scalar.addi v92 v93
  v94.toNat
def k0_dev6 (d0 : Dev nD) : Nat :=
  let c0_i32_86 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_85 : BitVec 32 := 16#32
  let v113 : BitVec 32 := Scalar.muli v2 c16_i32_85
  let v114 : BitVec 32 := Scalar.addi c0_i32_86 v113
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_87 : BitVec 32 := 4#32
  let v115 : BitVec 32 := Scalar.muli v5 c4_i32_87
  let v116 : BitVec 32 := Scalar.addi v114 v115
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v101 : BitVec 32 := Scalar.addi v8 c1_i32_74
  let c1_i32_75 : BitVec 32 := 1#32
  let v102 : BitVec 32 := Scalar.addi v101 c1_i32_75
  let c4_i32_76 : BitVec 32 := 4#32
  let c0_i32_77 : BitVec 32 := 0#32
  let v103 : BitVec 1 := Scalar.cmpi .eq c4_i32_76 c0_i32_77
  let c1_i32_78 : BitVec 32 := 1#32
  let v104 : BitVec 32 := Scalar.select v103 c1_i32_78 c4_i32_76
  let v105 : BitVec 32 := Scalar.remsi v102 v104
  let c0_i32_80 : BitVec 32 := 0#32
  let v107 : BitVec 1 := Scalar.cmpi .slt v105 c0_i32_80
  let c0_i32_81 : BitVec 32 := 0#32
  let v108 : BitVec 1 := Scalar.cmpi .slt v104 c0_i32_81
  let v109 : BitVec 1 := Scalar.xori v107 v108
  let c0_i32_79 : BitVec 32 := 0#32
  let v106 : BitVec 1 := Scalar.cmpi .ne v105 c0_i32_79
  let v110 : BitVec 1 := Scalar.andi v109 v106
  let v111 : BitVec 32 := Scalar.addi v105 v104
  let v112 : BitVec 32 := Scalar.select v110 v111 v105
  let c1_i32_88 : BitVec 32 := 1#32
  let v117 : BitVec 32 := Scalar.muli v112 c1_i32_88
  let v118 : BitVec 32 := Scalar.addi v116 v117
  v118.toNat
def k0_dev7 (d0 : Dev nD) : Nat :=
  let c0_i32_97 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_96 : BitVec 32 := 16#32
  let v125 : BitVec 32 := Scalar.muli v2 c16_i32_96
  let v126 : BitVec 32 := Scalar.addi c0_i32_97 v125
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_98 : BitVec 32 := 4#32
  let v127 : BitVec 32 := Scalar.muli v5 c4_i32_98
  let v128 : BitVec 32 := Scalar.addi v126 v127
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_74 : BitVec 32 := 1#32
  let v101 : BitVec 32 := Scalar.addi v8 c1_i32_74
  let c1_i32_75 : BitVec 32 := 1#32
  let v102 : BitVec 32 := Scalar.addi v101 c1_i32_75
  let c4_i32_76 : BitVec 32 := 4#32
  let c0_i32_77 : BitVec 32 := 0#32
  let v103 : BitVec 1 := Scalar.cmpi .eq c4_i32_76 c0_i32_77
  let c1_i32_78 : BitVec 32 := 1#32
  let v104 : BitVec 32 := Scalar.select v103 c1_i32_78 c4_i32_76
  let v105 : BitVec 32 := Scalar.remsi v102 v104
  let c0_i32_80 : BitVec 32 := 0#32
  let v107 : BitVec 1 := Scalar.cmpi .slt v105 c0_i32_80
  let c0_i32_81 : BitVec 32 := 0#32
  let v108 : BitVec 1 := Scalar.cmpi .slt v104 c0_i32_81
  let v109 : BitVec 1 := Scalar.xori v107 v108
  let c0_i32_79 : BitVec 32 := 0#32
  let v106 : BitVec 1 := Scalar.cmpi .ne v105 c0_i32_79
  let v110 : BitVec 1 := Scalar.andi v109 v106
  let v111 : BitVec 32 := Scalar.addi v105 v104
  let v112 : BitVec 32 := Scalar.select v110 v111 v105
  let c1_i32_99 : BitVec 32 := 1#32
  let v129 : BitVec 32 := Scalar.muli v112 c1_i32_99
  let v130 : BitVec 32 := Scalar.addi v128 v129
  v130.toNat
def k0_dev8 (d0 : Dev nD) : Nat :=
  let c0_i32_116 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_115 : BitVec 32 := 16#32
  let v149 : BitVec 32 := Scalar.muli v2 c16_i32_115
  let v150 : BitVec 32 := Scalar.addi c0_i32_116 v149
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_117 : BitVec 32 := 4#32
  let v151 : BitVec 32 := Scalar.muli v5 c4_i32_117
  let v152 : BitVec 32 := Scalar.addi v150 v151
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v137 : BitVec 32 := Scalar.addi v8 c1_i32_104
  let c2_i32_105 : BitVec 32 := 2#32
  let v138 : BitVec 32 := Scalar.addi v137 c2_i32_105
  let c4_i32_106 : BitVec 32 := 4#32
  let c0_i32_107 : BitVec 32 := 0#32
  let v139 : BitVec 1 := Scalar.cmpi .eq c4_i32_106 c0_i32_107
  let c1_i32_108 : BitVec 32 := 1#32
  let v140 : BitVec 32 := Scalar.select v139 c1_i32_108 c4_i32_106
  let v141 : BitVec 32 := Scalar.remsi v138 v140
  let c0_i32_110 : BitVec 32 := 0#32
  let v143 : BitVec 1 := Scalar.cmpi .slt v141 c0_i32_110
  let c0_i32_111 : BitVec 32 := 0#32
  let v144 : BitVec 1 := Scalar.cmpi .slt v140 c0_i32_111
  let v145 : BitVec 1 := Scalar.xori v143 v144
  let c0_i32_109 : BitVec 32 := 0#32
  let v142 : BitVec 1 := Scalar.cmpi .ne v141 c0_i32_109
  let v146 : BitVec 1 := Scalar.andi v145 v142
  let v147 : BitVec 32 := Scalar.addi v141 v140
  let v148 : BitVec 32 := Scalar.select v146 v147 v141
  let c1_i32_118 : BitVec 32 := 1#32
  let v153 : BitVec 32 := Scalar.muli v148 c1_i32_118
  let v154 : BitVec 32 := Scalar.addi v152 v153
  v154.toNat
def k0_dev9 (d0 : Dev nD) : Nat :=
  let c0_i32_127 : BitVec 32 := 0#32
  let v0 : BitVec 32 := Dev.word d0
  let c16_i32 : BitVec 32 := 16#32
  let v1 : BitVec 32 := Scalar.divsi v0 c16_i32
  let c2_i32 : BitVec 32 := 2#32
  let v2 : BitVec 32 := Scalar.remsi v1 c2_i32
  let c16_i32_126 : BitVec 32 := 16#32
  let v161 : BitVec 32 := Scalar.muli v2 c16_i32_126
  let v162 : BitVec 32 := Scalar.addi c0_i32_127 v161
  let v3 : BitVec 32 := Dev.word d0
  let c4_i32_0 : BitVec 32 := 4#32
  let v4 : BitVec 32 := Scalar.divsi v3 c4_i32_0
  let c4_i32 : BitVec 32 := 4#32
  let v5 : BitVec 32 := Scalar.remsi v4 c4_i32
  let c4_i32_128 : BitVec 32 := 4#32
  let v163 : BitVec 32 := Scalar.muli v5 c4_i32_128
  let v164 : BitVec 32 := Scalar.addi v162 v163
  let v6 : BitVec 32 := Dev.word d0
  let c1_i32 : BitVec 32 := 1#32
  let v7 : BitVec 32 := Scalar.divsi v6 c1_i32
  let c4_i32_1 : BitVec 32 := 4#32
  let v8 : BitVec 32 := Scalar.remsi v7 c4_i32_1
  let c1_i32_104 : BitVec 32 := 1#32
  let v137 : BitVec 32 := Scalar.addi v8 c1_i32_104
  let c2_i32_105 : BitVec 32 := 2#32
  let v138 : BitVec 32 := Scalar.addi v137 c2_i32_105
  let c4_i32_106 : BitVec 32 := 4#32
  let c0_i32_107 : BitVec 32 := 0#32
  let v139 : BitVec 1 := Scalar.cmpi .eq c4_i32_106 c0_i32_107
  let c1_i32_108 : BitVec 32 := 1#32
  let v140 : BitVec 32 := Scalar.select v139 c1_i32_108 c4_i32_106
  let v141 : BitVec 32 := Scalar.remsi v138 v140
  let c0_i32_110 : BitVec 32 := 0#32
  let v143 : BitVec 1 := Scalar.cmpi .slt v141 c0_i32_110
  let c0_i32_111 : BitVec 32 := 0#32
  let v144 : BitVec 1 := Scalar.cmpi .slt v140 c0_i32_111
  let v145 : BitVec 1 := Scalar.xori v143 v144
  let c0_i32_109 : BitVec 32 := 0#32
  let v142 : BitVec 1 := Scalar.cmpi .ne v141 c0_i32_109
  let v146 : BitVec 1 := Scalar.andi v145 v142
  let v147 : BitVec 32 := Scalar.addi v141 v140
  let v148 : BitVec 32 := Scalar.select v146 v147 v141
  let c1_i32_129 : BitVec 32 := 1#32
  let v165 : BitVec 32 := Scalar.muli v148 c1_i32_129
  let v166 : BitVec 32 := Scalar.addi v164 v165
  v166.toNat
@[reducible] def k0_t2_loop : Scf.Loop 32 :=
  let c0_i32_134 : BitVec 32 := 0#32
  let c16_i32_135 : BitVec 32 := 16#32
  let v173 : BitVec 32 := Scalar.addi c0_i32_134 c16_i32_135
  let c1_i32_136 : BitVec 32 := 1#32
  ⟨c0_i32_134, v173, c1_i32_136⟩
def k0_off3 (k0_t2 : Fin k0_t2_loop.trips) : Fin 4 → Nat :=
  let c0_i32_134 : BitVec 32 := 0#32
  let c1_i32_136 : BitVec 32 := 1#32
  let arg15 : BitVec 32 := Scf.iv c0_i32_134 c1_i32_136 k0_t2
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v289 : Index := Scalar.indexCast v278
  let c0 : Index := 0#32
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v290 : Index := Scalar.indexCast v288
  let c0_280 : Index := 0#32
  ![v289.toNat, 0, v290.toNat, 0]
def k0_off4 (k0_t2 : Fin k0_t2_loop.trips) : Fin 4 → Nat :=
  let c0_i32_134 : BitVec 32 := 0#32
  let c1_i32_136 : BitVec 32 := 1#32
  let arg15 : BitVec 32 := Scf.iv c0_i32_134 c1_i32_136 k0_t2
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v296 : Index := Scalar.indexCast v278
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v297 : Index := Scalar.indexCast v288
  let c0_281 : Index := 0#32
  let c0_282 : Index := 0#32
  ![v296.toNat, v297.toNat, 0, 0]
@[reducible] def k0_t3_loop : Scf.Loop 32 :=
  let c0_i32_138 : BitVec 32 := 0#32
  let c16_i32_139 : BitVec 32 := 16#32
  let v174 : BitVec 32 := Scalar.addi c0_i32_138 c16_i32_139
  let c1_i32_140 : BitVec 32 := 1#32
  ⟨c0_i32_138, v174, c1_i32_140⟩
def k0_off5 (k0_t3 : Fin k0_t3_loop.trips) : Fin 4 → Nat :=
  let c0_i32_138 : BitVec 32 := 0#32
  let c1_i32_140 : BitVec 32 := 1#32
  let arg15 : BitVec 32 := Scf.iv c0_i32_138 c1_i32_140 k0_t3
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v289 : Index := Scalar.indexCast v278
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v290 : Index := Scalar.indexCast v288
  let c0 : Index := 0#32
  let c0_280 : Index := 0#32
  ![v289.toNat, v290.toNat, 0, 0]
def k0_off6 (k0_t3 : Fin k0_t3_loop.trips) : Fin 4 → Nat :=
  let c0_i32_138 : BitVec 32 := 0#32
  let c1_i32_140 : BitVec 32 := 1#32
  let arg15 : BitVec 32 := Scf.iv c0_i32_138 c1_i32_140 k0_t3
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v293 : Index := Scalar.indexCast v278
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v294 : Index := Scalar.indexCast v288
  let c0_281 : Index := 0#32
  let c0_282 : Index := 0#32
  ![v293.toNat, v294.toNat, 0, 0]
@[reducible] def k0_t4_loop : Scf.Loop 32 :=
  let c0_i32_164 : BitVec 32 := 0#32
  let c16_i32_165 : BitVec 32 := 16#32
  let v195 : BitVec 32 := Scalar.addi c0_i32_164 c16_i32_165
  let c1_i32_166 : BitVec 32 := 1#32
  ⟨c0_i32_164, v195, c1_i32_166⟩
def k0_off7 (k0_t4 : Fin k0_t4_loop.trips) : Fin 4 → Nat :=
  let c0_i32_164 : BitVec 32 := 0#32
  let c1_i32_166 : BitVec 32 := 1#32
  let arg15 : BitVec 32 := Scf.iv c0_i32_164 c1_i32_166 k0_t4
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v289 : Index := Scalar.indexCast v278
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v290 : Index := Scalar.indexCast v288
  let c0 : Index := 0#32
  let c0_280 : Index := 0#32
  ![v289.toNat, v290.toNat, 0, 0]
def k0_off8 (k0_t4 : Fin k0_t4_loop.trips) : Fin 5 → Nat :=
  let c0_281 : Index := 0#32
  let c0_i32_164 : BitVec 32 := 0#32
  let c1_i32_166 : BitVec 32 := 1#32
  let arg15 : BitVec 32 := Scf.iv c0_i32_164 c1_i32_166 k0_t4
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v293 : Index := Scalar.indexCast v278
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v294 : Index := Scalar.indexCast v288
  let c0_282 : Index := 0#32
  let c0_283 : Index := 0#32
  ![0, v293.toNat, v294.toNat, 0, 0]
@[reducible] def k0_t5_loop : Scf.Loop 32 :=
  let c0_i32_190 : BitVec 32 := 0#32
  let c16_i32_191 : BitVec 32 := 16#32
  let v216 : BitVec 32 := Scalar.addi c0_i32_190 c16_i32_191
  let c1_i32_192 : BitVec 32 := 1#32
  ⟨c0_i32_190, v216, c1_i32_192⟩
def k0_off9 (k0_t5 : Fin k0_t5_loop.trips) : Fin 4 → Nat :=
  let c0_i32_190 : BitVec 32 := 0#32
  let c1_i32_192 : BitVec 32 := 1#32
  let arg15 : BitVec 32 := Scf.iv c0_i32_190 c1_i32_192 k0_t5
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v289 : Index := Scalar.indexCast v278
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v290 : Index := Scalar.indexCast v288
  let c0 : Index := 0#32
  let c0_280 : Index := 0#32
  ![v289.toNat, v290.toNat, 0, 0]
def k0_off10 (k0_t5 : Fin k0_t5_loop.trips) : Fin 5 → Nat :=
  let c1 : Index := 1#32
  let c0_i32_190 : BitVec 32 := 0#32
  let c1_i32_192 : BitVec 32 := 1#32
  let arg15 : BitVec 32 := Scf.iv c0_i32_190 c1_i32_192 k0_t5
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v293 : Index := Scalar.indexCast v278
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v294 : Index := Scalar.indexCast v288
  let c0_281 : Index := 0#32
  let c0_282 : Index := 0#32
  ![1, v293.toNat, v294.toNat, 0, 0]
@[reducible] def k0_t6_loop : Scf.Loop 32 :=
  let c0_i32_216 : BitVec 32 := 0#32
  let c16_i32_217 : BitVec 32 := 16#32
  let v237 : BitVec 32 := Scalar.addi c0_i32_216 c16_i32_217
  let c1_i32_218 : BitVec 32 := 1#32
  ⟨c0_i32_216, v237, c1_i32_218⟩
def k0_off11 (k0_t6 : Fin k0_t6_loop.trips) : Fin 4 → Nat :=
  let c0_i32_216 : BitVec 32 := 0#32
  let c1_i32_218 : BitVec 32 := 1#32
  let arg15 : BitVec 32 := Scf.iv c0_i32_216 c1_i32_218 k0_t6
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v289 : Index := Scalar.indexCast v278
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v290 : Index := Scalar.indexCast v288
  let c0 : Index := 0#32
  let c0_280 : Index := 0#32
  ![v289.toNat, v290.toNat, 0, 0]
def k0_off12 (k0_t6 : Fin k0_t6_loop.trips) : Fin 5 → Nat :=
  let c2 : Index := 2#32
  let c0_i32_216 : BitVec 32 := 0#32
  let c1_i32_218 : BitVec 32 := 1#32
  let arg15 : BitVec 32 := Scf.iv c0_i32_216 c1_i32_218 k0_t6
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v293 : Index := Scalar.indexCast v278
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v294 : Index := Scalar.indexCast v288
  let c0_281 : Index := 0#32
  let c0_282 : Index := 0#32
  ![2, v293.toNat, v294.toNat, 0, 0]
def k0_off13 (k0_t6 : Fin k0_t6_loop.trips) : Fin 4 → Nat :=
  let c0_i32_216 : BitVec 32 := 0#32
  let c1_i32_218 : BitVec 32 := 1#32
  let arg15 : BitVec 32 := Scf.iv c0_i32_216 c1_i32_218 k0_t6
  let c0_i32_268 : BitVec 32 := 0#32
  let v263 : BitVec 1 := Scalar.cmpi .sgt arg15 c0_i32_268
  let v264 : BitVec 32 := Scalar.extui v263
  let c0_i32_269 : BitVec 32 := 0#32
  let v265 : BitVec 1 := Scalar.cmpi .slt arg15 c0_i32_269
  let v266 : BitVec 32 := Scalar.extui v265
  let v267 : BitVec 32 := Scalar.subi v264 v266
  let c8_i32 : BitVec 32 := 8#32
  let c0_i32_270 : BitVec 32 := 0#32
  let v268 : BitVec 1 := Scalar.cmpi .sgt c8_i32 c0_i32_270
  let v269 : BitVec 32 := Scalar.extui v268
  let c0_i32_271 : BitVec 32 := 0#32
  let v270 : BitVec 1 := Scalar.cmpi .slt c8_i32 c0_i32_271
  let v271 : BitVec 32 := Scalar.extui v270
  let v272 : BitVec 32 := Scalar.subi v269 v271
  let v273 : BitVec 1 := Scalar.cmpi .ne v267 v272
  let v274 : BitVec 32 := Scalar.remsi arg15 c8_i32
  let c0_i32_272 : BitVec 32 := 0#32
  let v275 : BitVec 1 := Scalar.cmpi .ne v274 c0_i32_272
  let v276 : BitVec 1 := Scalar.andi v273 v275
  let v262 : BitVec 32 := Scalar.divsi arg15 c8_i32
  let c1_i32_273 : BitVec 32 := 1#32
  let v277 : BitVec 32 := Scalar.subi v262 c1_i32_273
  let v278 : BitVec 32 := Scalar.select v276 v277 v262
  let v320 : Index := Scalar.indexCast v278
  let c0_292 : Index := 0#32
  let c8_i32_274 : BitVec 32 := 8#32
  let c0_i32_275 : BitVec 32 := 0#32
  let v279 : BitVec 1 := Scalar.cmpi .eq c8_i32_274 c0_i32_275
  let c1_i32_276 : BitVec 32 := 1#32
  let v280 : BitVec 32 := Scalar.select v279 c1_i32_276 c8_i32_274
  let v281 : BitVec 32 := Scalar.remsi arg15 v280
  let c0_i32_278 : BitVec 32 := 0#32
  let v283 : BitVec 1 := Scalar.cmpi .slt v281 c0_i32_278
  let c0_i32_279 : BitVec 32 := 0#32
  let v284 : BitVec 1 := Scalar.cmpi .slt v280 c0_i32_279
  let v285 : BitVec 1 := Scalar.xori v283 v284
  let c0_i32_277 : BitVec 32 := 0#32
  let v282 : BitVec 1 := Scalar.cmpi .ne v281 c0_i32_277
  let v286 : BitVec 1 := Scalar.andi v285 v282
  let v287 : BitVec 32 := Scalar.addi v281 v280
  let v288 : BitVec 32 := Scalar.select v286 v287 v281
  let v321 : Index := Scalar.indexCast v288
  let c0_293 : Index := 0#32
  ![v320.toNat, 0, v321.toNat, 0]
abbrev stage0_0 : Fin 1 → Memref sig .tc .vmem S2x512x8x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x512x8x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x512x8x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x512x8x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

class Facts₀ : Prop where
  hamt_1 : (1#32 : BitVec 32).msb = false
  hamt_3 : (3#32 : BitVec 32).msb = false
  h_S1x512x1x64 : 0 < S1x512x1x64.numel
  shapeCasts_S1x512x1x64_S512x64 : S1x512x1x64.ShapeCasts S512x64
  transposes_S512x64_p1_0_S64x512 : S512x64.Transposes [1, 0] S64x512
  bitsLt_bf16_f32 : FTy.bits .bf16 < FTy.bits .f32
  h_S1x1x64x512 : 0 < S1x1x64x512.numel
  shapeCasts_S1x1x64x512_S64x512 : S1x1x64x512.ShapeCasts S64x512
  shapeCasts_S64x512_S1x1x64x512 : S64x512.ShapeCasts S1x1x64x512
  inb_S3_S1_0 : ∀ a, (![0] : Fin 1 → Nat) a + S1.size a ≤ S3.size a
  squeezes_S1_S_ : S1.Squeezes S_
  inb_S3_S1_2 : ∀ a, (![2] : Fin 1 → Nat) a + S1.size a ≤ S3.size a
  inb_S3x2x8x64x512_S1x2x8x64x512_2_0_0_0_0 : ∀ a, (![2, 0, 0, 0, 0] : Fin 5 → Nat) a + S1x2x8x64x512.size a ≤ S3x2x8x64x512.size a
  squeezes_S1x2x8x64x512_S2x8x64x512 : S1x2x8x64x512.Squeezes S2x8x64x512
  wordsbf16_S3x2x8x64x512_S1x2x8x64x512_2_0_0_0_0 : (Rect.unit (s := S3x2x8x64x512) ![2, 0, 0, 0, 0] S1x2x8x64x512.size inb_S3x2x8x64x512_S1x2x8x64x512_2_0_0_0_0).WholeWords (EltTy.packing .bf16)
  inb_S3_S1_1 : ∀ a, (![1] : Fin 1 → Nat) a + S1.size a ≤ S3.size a
  inb_S3x2x8x64x512_S1x2x8x64x512_1_0_0_0_0 : ∀ a, (![1, 0, 0, 0, 0] : Fin 5 → Nat) a + S1x2x8x64x512.size a ≤ S3x2x8x64x512.size a
  wordsbf16_S3x2x8x64x512_S1x2x8x64x512_1_0_0_0_0 : (Rect.unit (s := S3x2x8x64x512) ![1, 0, 0, 0, 0] S1x2x8x64x512.size inb_S3x2x8x64x512_S1x2x8x64x512_1_0_0_0_0).WholeWords (EltTy.packing .bf16)
  inb_S3x2x8x64x512_S1x2x8x64x512_0_0_0_0_0 : ∀ a, (![0, 0, 0, 0, 0] : Fin 5 → Nat) a + S1x2x8x64x512.size a ≤ S3x2x8x64x512.size a
  wordsbf16_S3x2x8x64x512_S1x2x8x64x512_0_0_0_0_0 : (Rect.unit (s := S3x2x8x64x512) ![0, 0, 0, 0, 0] S1x2x8x64x512.size inb_S3x2x8x64x512_S1x2x8x64x512_0_0_0_0_0).WholeWords (EltTy.packing .bf16)
  h_S1x1x512x64 : 0 < S1x1x512x64.numel
  shapeCasts_S1x1x512x64_S512x64 : S1x1x512x64.ShapeCasts S512x64
  shapeCasts_S512x64_S1x1x512x64 : S512x64.ShapeCasts S1x1x512x64
  reduces_S512x512_S512 : S512x512.Reduces [1] S512
  shapeCasts_S512_S512x1 : S512.ShapeCasts S512x1
  shapeCasts_S512x1_S512x1 : S512x1.ShapeCasts S512x1
  broadcasts_S512x1_S512x64 : S512x1.Broadcasts S512x64
  h_S1x1x1x64x512 : 0 < S1x1x1x64x512.numel
  shapeCasts_S1x1x1x64x512_S64x512 : S1x1x1x64x512.ShapeCasts S64x512
  shapeCasts_S512x64_S1x512x1x64 : S512x64.ShapeCasts S1x512x1x64
  dot_S512x64_S64x512_S512x512_1_0_0_1_n_n_wf : DotDims.WF S512x64 S64x512 S512x512 [1] [0] [0] [1] [] []
  dot_S512x512_S64x512_S512x64_1_1_0_0_n_n_wf : DotDims.WF S512x512 S64x512 S512x64 [1] [1] [0] [0] [] []
  hcc0_scratch7 : 4 + S3.numel ≤ 16
  hcc0_scratch8 : 7 + S3.numel ≤ 16
  hcc0_scratch9 : 10 + S3.numel ≤ 16
  hcc0_scratch10 : 13 + S3.numel ≤ 16
  k0_dev1_lt : ∀ d0 : Dev nD, (k0_dev1 d0) < nD
  k0_dev2_lt : ∀ d0 : Dev nD, (k0_dev2 d0) < nD
  k0_dev3_lt : ∀ d0 : Dev nD, (k0_dev3 d0) < nD
  k0_t1_ok : k0_t1_loop.OK
  k0_off1_inb : ∀ k0_t1 : Fin k0_t1_loop.trips, ∀ a, (k0_off1 k0_t1) a + S1x512x1x64.size a ≤ S2x512x8x64.size a
  k0_off2_inb : ∀ k0_t1 : Fin k0_t1_loop.trips, ∀ a, (k0_off2 k0_t1) a + S1x1x64x512.size a ≤ S2x8x64x512.size a
  k0_off2_packedbf16 : ∀ k0_t1 : Fin k0_t1_loop.trips, (Rect.unit (s := S2x8x64x512) (k0_off2 k0_t1) S1x1x64x512.size (k0_off2_inb k0_t1)).PackedRows (EltTy.packing .bf16)
  k0_dev4_lt : ∀ d0 : Dev nD, (k0_dev4 d0) < nD
  k0_dev5_lt : ∀ d0 : Dev nD, (k0_dev5 d0) < nD
  k0_dev6_lt : ∀ d0 : Dev nD, (k0_dev6 d0) < nD
  k0_dev7_lt : ∀ d0 : Dev nD, (k0_dev7 d0) < nD
  k0_dev8_lt : ∀ d0 : Dev nD, (k0_dev8 d0) < nD
  k0_dev9_lt : ∀ d0 : Dev nD, (k0_dev9 d0) < nD
  k0_t2_ok : k0_t2_loop.OK
  k0_off3_inb : ∀ k0_t2 : Fin k0_t2_loop.trips, ∀ a, (k0_off3 k0_t2) a + S1x512x1x64.size a ≤ S2x512x8x64.size a
  k0_off4_inb : ∀ k0_t2 : Fin k0_t2_loop.trips, ∀ a, (k0_off4 k0_t2) a + S1x1x512x64.size a ≤ S2x8x512x64.size a
  k0_off4_packedbf16 : ∀ k0_t2 : Fin k0_t2_loop.trips, (Rect.unit (s := S2x8x512x64) (k0_off4 k0_t2) S1x1x512x64.size (k0_off4_inb k0_t2)).PackedRows (EltTy.packing .bf16)
  k0_t3_ok : k0_t3_loop.OK
  k0_off5_inb : ∀ k0_t3 : Fin k0_t3_loop.trips, ∀ a, (k0_off5 k0_t3) a + S1x1x512x64.size a ≤ S2x8x512x64.size a
  k0_off6_inb : ∀ k0_t3 : Fin k0_t3_loop.trips, ∀ a, (k0_off6 k0_t3) a + S1x1x64x512.size a ≤ S2x8x64x512.size a
  k0_t4_ok : k0_t4_loop.OK
  k0_off7_inb : ∀ k0_t4 : Fin k0_t4_loop.trips, ∀ a, (k0_off7 k0_t4) a + S1x1x512x64.size a ≤ S2x8x512x64.size a
  k0_off8_inb : ∀ k0_t4 : Fin k0_t4_loop.trips, ∀ a, (k0_off8 k0_t4) a + S1x1x1x64x512.size a ≤ S3x2x8x64x512.size a
  k0_t5_ok : k0_t5_loop.OK
  k0_off9_inb : ∀ k0_t5 : Fin k0_t5_loop.trips, ∀ a, (k0_off9 k0_t5) a + S1x1x512x64.size a ≤ S2x8x512x64.size a
  k0_off10_inb : ∀ k0_t5 : Fin k0_t5_loop.trips, ∀ a, (k0_off10 k0_t5) a + S1x1x1x64x512.size a ≤ S3x2x8x64x512.size a
  k0_t6_ok : k0_t6_loop.OK
  k0_off11_inb : ∀ k0_t6 : Fin k0_t6_loop.trips, ∀ a, (k0_off11 k0_t6) a + S1x1x512x64.size a ≤ S2x8x512x64.size a
  k0_off12_inb : ∀ k0_t6 : Fin k0_t6_loop.trips, ∀ a, (k0_off12 k0_t6) a + S1x1x1x64x512.size a ≤ S3x2x8x64x512.size a
  k0_off13_inb : ∀ k0_t6 : Fin k0_t6_loop.trips, ∀ a, (k0_off13 k0_t6) a + S1x512x1x64.size a ≤ S2x512x8x64.size a
  hstage0_0 : ∀ j, (stage0_0 j).IsWhole
  hstage0_1 : ∀ j, (stage0_1 j).IsWhole
  hstage0_2 : ∀ j, (stage0_2 j).IsWhole
  hstage0_3 : ∀ j, (stage0_3 j).IsWhole

variable [Facts₀]

abbrev cc0_scratch7 : DmaSems sig S3 := SemArray.consecutive 4 S3 hcc0_scratch7
abbrev cc0_scratch8 : DmaSems sig S3 := SemArray.consecutive 7 S3 hcc0_scratch8
abbrev cc0_scratch9 : DmaSems sig S3 := SemArray.consecutive 10 S3 hcc0_scratch9
abbrev cc0_scratch10 : DmaSems sig S3 := SemArray.consecutive 13 S3 hcc0_scratch10
def dot_S512x64_S64x512_S512x512_1_0_0_1_n_n : DotDims S512x64 S64x512 S512x512 where
  lhsContracting := [1]
  rhsContracting := [0]
  lhsNonContracting := [0]
  rhsNonContracting := [1]
  lhsBatch := []
  rhsBatch := []
  wf := dot_S512x64_S64x512_S512x512_1_0_0_1_n_n_wf
def dot_S512x512_S64x512_S512x64_1_1_0_0_n_n : DotDims S512x512 S64x512 S512x64 where
  lhsContracting := [1]
  rhsContracting := [1]
  lhsNonContracting := [0]
  rhsNonContracting := [0]
  lhsBatch := []
  rhsBatch := []
  wf := dot_S512x512_S64x512_S512x64_1_1_0_0_n_n_wf

abbrev win0_0 : Pipeline.Window sig grid0 :=
  Pipeline.Window.whole (Memref.whole main_arg0) false false (stage0_0 0) (sem0_0 0) (Memref.isWhole_whole _) (hstage0_0 0)

abbrev win0_1 : Pipeline.Window sig grid0 :=
  Pipeline.Window.whole (Memref.whole main_arg1) false false (stage0_1 0) (sem0_1 0) (Memref.isWhole_whole _) (hstage0_1 0)

abbrev win0_2 : Pipeline.Window sig grid0 :=
  Pipeline.Window.whole (Memref.whole main_arg2) false false (stage0_2 0) (sem0_2 0) (Memref.isWhole_whole _) (hstage0_2 0)

abbrev win0_3 : Pipeline.Window sig grid0 :=
  Pipeline.Window.whole (Memref.whole main_v1) true false (stage0_3 0) (sem0_3 0) (Memref.isWhole_whole _) (hstage0_3 0)

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S2x2048x8x64 : Shape := ⟨4, ![2, 2048, 8, 64]⟩
abbrev S2x8x2048x2048 : Shape := ⟨4, ![2, 8, 2048, 2048]⟩
abbrev S_ : Shape := ⟨0, ![]⟩
abbrev S2x8x2048 : Shape := ⟨3, ![2, 8, 2048]⟩
abbrev S2x8x2048x1 : Shape := ⟨4, ![2, 8, 2048, 1]⟩
abbrev S2x8x64x2048 : Shape := ⟨4, ![2, 8, 64, 2048]⟩

abbrev nBuf : Space → Nat
  | .hbm => 20
  | .vmem => 0
  | .smem => 0
  | _ => 0

abbrev bufTy : (tb : Table) → Fin (tcTables nBuf tb) → BufTy
  | .hbm, ⟨0, _⟩ => ⟨S2x2048x8x64, .f32⟩
  | .hbm, ⟨1, _⟩ => ⟨S2x2048x8x64, .f32⟩
  | .hbm, ⟨2, _⟩ => ⟨S2x2048x8x64, .f32⟩
  | .hbm, ⟨3, _⟩ => ⟨S2x8x2048x2048, .f32⟩
  | .hbm, ⟨4, _⟩ => ⟨S_, .f32⟩
  | .hbm, ⟨5, _⟩ => ⟨S2x8x2048x2048, .f32⟩
  | .hbm, ⟨6, _⟩ => ⟨S2x8x2048x2048, .f32⟩
  | .hbm, ⟨7, _⟩ => ⟨S_, .f32⟩
  | .hbm, ⟨8, _⟩ => ⟨S2x8x2048, .f32⟩
  | .hbm, ⟨9, _⟩ => ⟨S2x8x2048x1, .f32⟩
  | .hbm, ⟨10, _⟩ => ⟨S2x8x2048x2048, .f32⟩
  | .hbm, ⟨11, _⟩ => ⟨S2x8x2048x2048, .f32⟩
  | .hbm, ⟨12, _⟩ => ⟨S2x8x2048x2048, .f32⟩
  | .hbm, ⟨13, _⟩ => ⟨S_, .f32⟩
  | .hbm, ⟨14, _⟩ => ⟨S2x8x2048, .f32⟩
  | .hbm, ⟨15, _⟩ => ⟨S2x8x2048x1, .f32⟩
  | .hbm, ⟨16, _⟩ => ⟨S2x8x2048x2048, .f32⟩
  | .hbm, ⟨17, _⟩ => ⟨S2x8x2048x2048, .f32⟩
  | .hbm, ⟨18, _⟩ => ⟨S2x8x64x2048, .f32⟩
  | .hbm, ⟨19, _⟩ => ⟨S2x2048x8x64, .f32⟩
  | _, _ => ⟨S2x2048x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst_1 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]

class Facts₀ : Prop where
  bcast_S_S2x8x2048x2048 : S_.BroadcastsInDim S2x8x2048x2048 (![] : Fin 0 → Fin S2x8x2048x2048.rank)
  reducesTo_S2x8x2048x2048_S2x8x2048_d3 : S2x8x2048x2048.ReducesTo [3] S2x8x2048
  h_S_ : 0 < S_.numel
  bcast_S2x8x2048_S2x8x2048x1_0_1_2 : S2x8x2048.BroadcastsInDim S2x8x2048x1 (![0, 1, 2] : Fin 3 → Fin S2x8x2048x1.rank)
  bcast_S2x8x2048x1_S2x8x2048x2048_0_1_2_3 : S2x8x2048x1.BroadcastsInDim S2x8x2048x2048 (![0, 1, 2, 3] : Fin 4 → Fin S2x8x2048x2048.rank)
  transposes_S2x8x64x2048_S2x2048x8x64_0_3_1_2 : S2x8x64x2048.Transposes [0, 3, 1, 2] S2x2048x8x64
  dot_S2x2048x8x64_S2x2048x8x64_S2x8x2048x2048_3_3_1_1_02_02_wf : DotDims.WF S2x2048x8x64 S2x2048x8x64 S2x8x2048x2048 [3] [3] [1] [1] [0, 2] [0, 2]
  dot_S2x2048x8x64_S2x8x2048x2048_S2x8x64x2048_1_3_3_2_02_01_wf : DotDims.WF S2x2048x8x64 S2x8x2048x2048 S2x8x64x2048 [1] [3] [3] [2] [0, 2] [0, 1]

variable [Facts₀]

def dot_S2x2048x8x64_S2x2048x8x64_S2x8x2048x2048_3_3_1_1_02_02 : DotDims S2x2048x8x64 S2x2048x8x64 S2x8x2048x2048 where
  lhsContracting := [3]
  rhsContracting := [3]
  lhsNonContracting := [1]
  rhsNonContracting := [1]
  lhsBatch := [0, 2]
  rhsBatch := [0, 2]
  wf := dot_S2x2048x8x64_S2x2048x8x64_S2x8x2048x2048_3_3_1_1_02_02_wf
def dot_S2x2048x8x64_S2x8x2048x2048_S2x8x64x2048_1_3_3_2_02_01 : DotDims S2x2048x8x64 S2x8x2048x2048 S2x8x64x2048 where
  lhsContracting := [1]
  rhsContracting := [3]
  lhsNonContracting := [3]
  rhsNonContracting := [2]
  lhsBatch := [0, 2]
  rhsBatch := [0, 1]
  wf := dot_S2x2048x8x64_S2x8x2048x2048_S2x8x64x2048_1_3_3_2_02_01_wf

class Facts : Prop extends Facts₀ where

variable [Facts]
-- ==== Proof.RefFrame.lean ====
/-
  The one-device reference: every fair execution of its seventeen host operations ends, faults nowhere and
  leaves the three argument arrays as they were. This is the reference's run, read back operation by
  operation, with the statement about the result array dropped.

  The idealization rewrote no operation of the kernel, so the kernel's idealized text is the kernel's own
  text read over the extended reals, and the "sanctioned idealization" conjunct has no entry to discharge.
-/
import proofs.«900413_g7700000000000414_dist_agattn_v7x_xyz2x4x4_z_b2_s512_h8_d64_bf16_1_alg».proof.Defs
import proofs.«900413_g7700000000000414_dist_agattn_v7x_xyz2x4x4_z_b2_s512_h8_d64_bf16_1_alg».proof.Proof.Gen.ReferenceIdeal
import proofs.«900413_g7700000000000414_dist_agattn_v7x_xyz2x4x4_z_b2_s512_h8_d64_bf16_1_alg».proof.Proof.Gen.ReferenceIdeal.Run
import proofs.«900413_g7700000000000414_dist_agattn_v7x_xyz2x4x4_z_b2_s512_h8_d64_bf16_1_alg».proof.Proof.Gen.Pre_finite_inputs_ReferenceIdeal

noncomputable section

namespace Cert.Proof.Ref

open Idealize.ShloMosaic Idealize.SL.Sem

/-- The reference terminates without a fault and its arguments end unchanged: the second to fourth
    clauses of its run's post. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten: nothing to state. -/
theorem preserves : Cert.preserves_Kernel_KernelIdeal := trivial

end Cert.Proof.Ref

end
-- ==== Proof.Mesh.lean ====
/-
  The mesh is 2 x 4 x 4 and a device's linear id is 16 x + 4 y + z. The kernel talks only along z: its
  j-th peer (j = 0, 1, 2) keeps x and y and has z-coordinate (z + 1 + j) mod 4. The three peers of a device
  are exactly the other three devices of its z-line, and "peer j" is undone by "peer (2 - j)".
  The printed device-id chains of the three barrier signals and of the six remote copies are these peers.
-/
import proofs.«900413_g7700000000000414_dist_agattn_v7x_xyz2x4x4_z_b2_s512_h8_d64_bf16_1_alg».proof.Proof.Gen.KernelIdeal

namespace Cert.KernelIdeal.Mesh

open Cert.KernelIdeal Cert.KernelIdeal.Gen
open Idealize.ShloMosaic

/-- The device on the same z-line whose z-coordinate is `j + 1` further round. -/
def peer (j : Fin 3) (c : Dev nD) : Dev nD :=
  ⟨c.val - c.val % 4 + (c.val % 4 + 1 + j.val) % 4, by have := c.isLt; have h : nD = 32 := rfl; omega⟩

/-- The index that undoes `j`: going `j + 1` round and then `(2 - j) + 1` round is a full turn. -/
def back (j : Fin 3) : Fin 3 := ⟨2 - j.val, by omega⟩

theorem back_back (j : Fin 3) : back (back j) = j := by revert j; decide

theorem peer_back_peer : ∀ (j : Fin 3) (c : Dev nD), peer (back j) (peer j c) = c := by decide +kernel
theorem peer_peer_back : ∀ (j : Fin 3) (c : Dev nD), peer j (peer (back j) c) = c := by decide +kernel
theorem peer_ne_self : ∀ (j : Fin 3) (c : Dev nD), peer j c ≠ c := by decide +kernel
theorem peer_inj_idx : ∀ (j j' : Fin 3) (c : Dev nD), peer j c = peer j' c → j = j' := by decide +kernel

/-- Going to the j-th peer is a permutation of the devices. -/
def peerEquiv (j : Fin 3) : Dev nD ≃ Dev nD := ⟨peer j, peer (back j), peer_back_peer j, peer_peer_back j⟩

/-- The three barrier signals go to peers 0, 1, 2 ... -/
theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
/-- ... and the copies of the key block and of the value block go pairwise to peers 0, 1, 2. -/
theorem dev4_eq : ∀ c : Dev nD, (⟨k0_dev4 c, k0_dev4_lt c⟩ : Dev nD) = peer 0 c := by decide +kernel
theorem dev5_eq : ∀ c : Dev nD, (⟨k0_dev5 c, k0_dev5_lt c⟩ : Dev nD) = peer 0 c := by decide +kernel
theorem dev6_eq : ∀ c : Dev nD, (⟨k0_dev6 c, k0_dev6_lt c⟩ : Dev nD) = peer 1 c := by decide +kernel
theorem dev7_eq : ∀ c : Dev nD, (⟨k0_dev7 c, k0_dev7_lt c⟩ : Dev nD) = peer 1 c := by decide +kernel
theorem dev8_eq : ∀ c : Dev nD, (⟨k0_dev8 c, k0_dev8_lt c⟩ : Dev nD) = peer 2 c := by decide +kernel
theorem dev9_eq : ∀ c : Dev nD, (⟨k0_dev9 c, k0_dev9_lt c⟩ : Dev nD) = peer 2 c := by decide +kernel

end Cert.KernelIdeal.Mesh
-- ==== Proof.Cells.lean ====
/-
  The semaphores of the exchange, and the pieces of memory that change hands.

  Each device has thirteen semaphores in play: the runtime's barrier semaphore, and four triples of DMA
  semaphores -- for j = 0, 1, 2: the send semaphore of its j-th copy of the transposed key block, the
  receive semaphore of slot j of its key landing buffer, and the same two for the value block.
  A landing buffer has three slots, one per peer: slot r of a device is written by that device's r-th peer
  and by nobody else. The slots are the three unit-thick slabs of the buffer along its first axis, so they
  are pairwise disjoint and together they are the whole buffer.
-/
import proofs.«900413_g7700000000000414_dist_agattn_v7x_xyz2x4x4_z_b2_s512_h8_d64_bf16_1_alg».proof.Proof.Mesh
import proofs.«900413_g7700000000000414_dist_agattn_v7x_xyz2x4x4_z_b2_s512_h8_d64_bf16_1_alg».proof.Proof.Gen.KernelIdeal
import proofs.«900413_g7700000000000414_dist_agattn_v7x_xyz2x4x4_z_b2_s512_h8_d64_bf16_1_alg».proof.Proof.Gen.KernelIdeal.Skeleton
import proofs.«900413_g7700000000000414_dist_agattn_v7x_xyz2x4x4_z_b2_s512_h8_d64_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Cells

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two resource algebras side by side: the pipeline's own cells (one duty each) and the exchange's (three) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The runtime's barrier semaphore. -/
abbrev barS : Sem sig := (SemArray.scalar (sig.barrier 0 rfl) : Sems sig S_).sem

/-- DMA semaphore `j` of triple `t`: t = 0 key send, 1 key receive, 2 value send, 3 value receive. -/
abbrev dsem (t : Fin 4) (j : Fin 3) : DmaSem sig := ⟨4 + 3 * t.val + j.val, by have := t.isLt; have := j.isLt; show _ < 16; omega⟩

abbrev barCell (c : Dev nD) : GSem nD τ sig := ((c : Thread nD τ), .reg barS)
abbrev dCell (t : Fin 4) (j : Fin 3) (c : Dev nD) : GSem nD τ sig := ((c : Thread nD τ), .dma (dsem t j))

/-- The printed slices of the four semaphore triples are these. -/
theorem ksend_sem0 : ((cc0_scratch7.slice (Rect.unit (s := S3) ![0] S1.size inb_S3_S1_0)).squeeze S_ squeezes_S1_S_).sem = dsem 0 0 := rfl
theorem ksend_sem1 : ((cc0_scratch7.slice (Rect.unit (s := S3) ![1] S1.size inb_S3_S1_1)).squeeze S_ squeezes_S1_S_).sem = dsem 0 1 := rfl
theorem ksend_sem2 : ((cc0_scratch7.slice (Rect.unit (s := S3) ![2] S1.size inb_S3_S1_2)).squeeze S_ squeezes_S1_S_).sem = dsem 0 2 := rfl
theorem krecv_sem0 : ((cc0_scratch8.slice (Rect.unit (s := S3) ![0] S1.size inb_S3_S1_0)).squeeze S_ squeezes_S1_S_).sem = dsem 1 0 := rfl
theorem krecv_sem1 : ((cc0_scratch8.slice (Rect.unit (s := S3) ![1] S1.size inb_S3_S1_1)).squeeze S_ squeezes_S1_S_).sem = dsem 1 1 := rfl
theorem krecv_sem2 : ((cc0_scratch8.slice (Rect.unit (s := S3) ![2] S1.size inb_S3_S1_2)).squeeze S_ squeezes_S1_S_).sem = dsem 1 2 := rfl
theorem vsend_sem0 : ((cc0_scratch9.slice (Rect.unit (s := S3) ![0] S1.size inb_S3_S1_0)).squeeze S_ squeezes_S1_S_).sem = dsem 2 0 := rfl
theorem vsend_sem1 : ((cc0_scratch9.slice (Rect.unit (s := S3) ![1] S1.size inb_S3_S1_1)).squeeze S_ squeezes_S1_S_).sem = dsem 2 1 := rfl
theorem vsend_sem2 : ((cc0_scratch9.slice (Rect.unit (s := S3) ![2] S1.size inb_S3_S1_2)).squeeze S_ squeezes_S1_S_).sem = dsem 2 2 := rfl
theorem vrecv_sem0 : ((cc0_scratch10.slice (Rect.unit (s := S3) ![0] S1.size inb_S3_S1_0)).squeeze S_ squeezes_S1_S_).sem = dsem 3 0 := rfl
theorem vrecv_sem1 : ((cc0_scratch10.slice (Rect.unit (s := S3) ![1] S1.size inb_S3_S1_1)).squeeze S_ squeezes_S1_S_).sem = dsem 3 1 := rfl
theorem vrecv_sem2 : ((cc0_scratch10.slice (Rect.unit (s := S3) ![2] S1.size inb_S3_S1_2)).squeeze S_ squeezes_S1_S_).sem = dsem 3 2 := rfl

/-- A device's thirteen cells: `none` the barrier, `some (t, j)` DMA semaphore `j` of triple `t`. -/
abbrev CK : Type := Option (Fin 4 × Fin 3)
abbrev csem : CK → SemLoc sig
  | none => .reg barS
  | some (t, j) => .dma (dsem t j)
abbrev kcell (ck : Dev nD × CK) : GSem nD τ sig := ((ck.1 : Thread nD τ), csem ck.2)
/-- The twelve that are the kernel's own (scoped). -/
abbrev osem : Fin 4 × Fin 3 → SemLoc sig := fun tj => .dma (dsem tj.1 tj.2)

theorem dsem_inj : ∀ (t t' : Fin 4) (j j' : Fin 3), dsem t j = dsem t' j' → t = t' ∧ j = j' := by decide
theorem csem_injective : Function.Injective csem := by
  intro a b h
  match a, b with
  | none, none => rfl
  | none, some (t, j) => exact absurd h (fun h => by cases h)
  | some (t, j), none => exact absurd h (fun h => by cases h)
  | some (t, j), some (t', j') =>
    have h' : dsem t j = dsem t' j' := by injection h
    obtain ⟨rfl, rfl⟩ := dsem_inj t t' j j' h'
    rfl
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## The buffers -/

abbrev qM : Memref sig .tc .vmem S2x512x8x64 .f32 := Memref.whole cc0_stg0_0
abbrev kM : Memref sig .tc .vmem S2x512x8x64 .f32 := Memref.whole cc0_stg1_0
abbrev vM : Memref sig .tc .vmem S2x512x8x64 .f32 := Memref.whole cc0_stg2_0
abbrev oM : Memref sig .tc .vmem S2x512x8x64 .f32 := Memref.whole cc0_stg3_0
abbrev qtM : Memref sig .tc .vmem S2x8x512x64 .bf16 := Memref.whole cc0_scratch0
abbrev klocM : Memref sig .tc .vmem S2x8x64x512 .bf16 := Memref.whole cc0_scratch1
abbrev vlocM : Memref sig .tc .vmem S2x8x64x512 .bf16 := Memref.whole cc0_scratch2
abbrev kcomM : Memref sig .tc .vmem S3x2x8x64x512 .bf16 := Memref.whole cc0_scratch3
abbrev vcomM : Memref sig .tc .vmem S3x2x8x64x512 .bf16 := Memref.whole cc0_scratch4
abbrev accM : Memref sig .tc .vmem S2x8x512x64 .f32 := Memref.whole cc0_scratch5
abbrev lsumM : Memref sig .tc .vmem S2x8x512x64 .f32 := Memref.whole cc0_scratch6

/-- Every transfer moves one transposed block: this many units on a DMA semaphore. -/
abbrev N : ℕ := (klocM : Memref sig .tc .vmem S2x8x64x512 .bf16).view.dmaCredit
theorem N_pos : 0 < N := View.dmaCredit_pos _ (by decide)

/-- Slot `r` of the key landing buffer and of the value landing buffer, as the program slices them. -/
abbrev kslot0 : Memref sig .tc .vmem S2x8x64x512 .bf16 :=
  ((kcomM : Memref sig .tc .vmem S3x2x8x64x512 .bf16).slice (Rect.unit (s := S3x2x8x64x512) ![0, 0, 0, 0, 0] S1x2x8x64x512.size inb_S3x2x8x64x512_S1x2x8x64x512_0_0_0_0_0) (fun _ => rfl)).squeeze S2x8x64x512 squeezes_S1x2x8x64x512_S2x8x64x512
abbrev kslot1 : Memref sig .tc .vmem S2x8x64x512 .bf16 :=
  ((kcomM : Memref sig .tc .vmem S3x2x8x64x512 .bf16).slice (Rect.unit (s := S3x2x8x64x512) ![1, 0, 0, 0, 0] S1x2x8x64x512.size inb_S3x2x8x64x512_S1x2x8x64x512_1_0_0_0_0) (fun _ => rfl)).squeeze S2x8x64x512 squeezes_S1x2x8x64x512_S2x8x64x512
abbrev kslot2 : Memref sig .tc .vmem S2x8x64x512 .bf16 :=
  ((kcomM : Memref sig .tc .vmem S3x2x8x64x512 .bf16).slice (Rect.unit (s := S3x2x8x64x512) ![2, 0, 0, 0, 0] S1x2x8x64x512.size inb_S3x2x8x64x512_S1x2x8x64x512_2_0_0_0_0) (fun _ => rfl)).squeeze S2x8x64x512 squeezes_S1x2x8x64x512_S2x8x64x512
abbrev vslot0 : Memref sig .tc .vmem S2x8x64x512 .bf16 :=
  ((vcomM : Memref sig .tc .vmem S3x2x8x64x512 .bf16).slice (Rect.unit (s := S3x2x8x64x512) ![0, 0, 0, 0, 0] S1x2x8x64x512.size inb_S3x2x8x64x512_S1x2x8x64x512_0_0_0_0_0) (fun _ => rfl)).squeeze S2x8x64x512 squeezes_S1x2x8x64x512_S2x8x64x512
abbrev vslot1 : Memref sig .tc .vmem S2x8x64x512 .bf16 :=
  ((vcomM : Memref sig .tc .vmem S3x2x8x64x512 .bf16).slice (Rect.unit (s := S3x2x8x64x512) ![1, 0, 0, 0, 0] S1x2x8x64x512.size inb_S3x2x8x64x512_S1x2x8x64x512_1_0_0_0_0) (fun _ => rfl)).squeeze S2x8x64x512 squeezes_S1x2x8x64x512_S2x8x64x512
abbrev vslot2 : Memref sig .tc .vmem S2x8x64x512 .bf16 :=
  ((vcomM : Memref sig .tc .vmem S3x2x8x64x512 .bf16).slice (Rect.unit (s := S3x2x8x64x512) ![2, 0, 0, 0, 0] S1x2x8x64x512.size inb_S3x2x8x64x512_S1x2x8x64x512_2_0_0_0_0) (fun _ => rfl)).squeeze S2x8x64x512 squeezes_S1x2x8x64x512_S2x8x64x512

abbrev kslot : Fin 3 → Memref sig .tc .vmem S2x8x64x512 .bf16 := fun | 0 => kslot0 | 1 => kslot1 | 2 => kslot2
abbrev vslot : Fin 3 → Memref sig .tc .vmem S2x8x64x512 .bf16 := fun | 0 => vslot0 | 1 => vslot1 | 2 => vslot2

/-- A slot takes as many units as the block that lands in it. -/
theorem kslot_amount (r : Fin 3) : (kslot r).view.dmaCredit = N := by fin_cases r <;> rfl
theorem vslot_amount (r : Fin 3) : (vslot r).view.dmaCredit = N := by fin_cases r <;> rfl

end Cert.KernelIdeal.Cells

end
-- ==== Proof.Sched.lean ====
/-
  The protocol, as one round per semaphore.

  Barrier semaphore of device c: three duties of one unit each. Duty j is paid by the device p whose j-th
  peer is c (p = peer (2 - j) c). With its signal p says "I am inside the kernel", and hands c what c needs in
  order to copy into p: slot j of p's key landing buffer and of p's value landing buffer (whatever they
  hold), and the fact that p stands at the start of the two receive semaphores of that slot. Slot j is the
  right one: c reaches p with its copy number 2 - j, which the kernel aims at slot 2 - (2 - j) = j.

  Send semaphore j (key or value): one duty, paid by the device's own j-th copy; it hands back the share of
  the transposed block that the copy was reading.  Three copies read the same block at once, so the block is
  held in four shares: one per copy and one kept for the device's own first pass.

  Receive semaphore r (key or value): one duty, paid by the r-th peer's copy; it hands over slot r, holding on its
  elements what the landing buffer is to hold in the end (that peer's transposed block).
-/
import proofs.«900413_g7700000000000414_dist_agattn_v7x_xyz2x4x4_z_b2_s512_h8_d64_bf16_1_alg».proof.Proof.Cells

noncomputable section

namespace Cert.KernelIdeal.Sched

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells

variable {F : FTy → Type} [FloatOps F]

local notation "𝕄" => MT nD τ sig Unit (Elt F) ℕ UU ℕ

-- What each device's transposed key block and value block hold once its fill loop is over.
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
-- What each device's two landing buffers hold once all three slots have landed (slot r: the r-th peer's block).
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))

/-! ## Shares of a block that three copies read at once -/

abbrev sendShare : Fin 3 → PosShare TreeShare := fun | 0 => fullShare.left | 1 => fullShare.right.left | 2 => fullShare.right.right.left
abbrev keptShare : PosShare TreeShare := fullShare.right.right.right

/-! ## Payloads -/

/-- A landing slot, at any contents. -/
def slotAny (M : Memref sig .tc .vmem S2x8x64x512 .bf16) (c : Dev nD) : sProp 𝕄 :=
  iprop(∃ f : Buf (Elt F) (M.view.loc (c : Thread nD τ)), M.view.loc (c : Thread nD τ) ↦[M.view.set]{fullShare} f)

/-- Slot `j` of the key landing buffer holding, on its elements, what the whole-buffer contents `g` say. -/
def kslotHolds (j : Fin 3) (c : Dev nD) (g : Buf (Elt F) ((kcomM : Memref sig .tc .vmem S3x2x8x64x512 .bf16).view.loc (c : Thread nD τ))) : sProp 𝕄 :=
  match j with
  | 0 => (kslot0 : Memref sig .tc .vmem S2x8x64x512 .bf16).view.loc (c : Thread nD τ) ↦[(kslot0 : Memref sig .tc .vmem S2x8x64x512 .bf16).view.set]{fullShare} g
  | 1 => (kslot1 : Memref sig .tc .vmem S2x8x64x512 .bf16).view.loc (c : Thread nD τ) ↦[(kslot1 : Memref sig .tc .vmem S2x8x64x512 .bf16).view.set]{fullShare} g
  | 2 => (kslot2 : Memref sig .tc .vmem S2x8x64x512 .bf16).view.loc (c : Thread nD τ) ↦[(kslot2 : Memref sig .tc .vmem S2x8x64x512 .bf16).view.set]{fullShare} g
/-- The same for the value landing buffer. -/
def vslotHolds (j : Fin 3) (c : Dev nD) (g : Buf (Elt F) ((vcomM : Memref sig .tc .vmem S3x2x8x64x512 .bf16).view.loc (c : Thread nD τ))) : sProp 𝕄 :=
  match j with
  | 0 => (vslot0 : Memref sig .tc .vmem S2x8x64x512 .bf16).view.loc (c : Thread nD τ) ↦[(vslot0 : Memref sig .tc .vmem S2x8x64x512 .bf16).view.set]{fullShare} g
  | 1 => (vslot1 : Memref sig .tc .vmem S2x8x64x512 .bf16).view.loc (c : Thread nD τ) ↦[(vslot1 : Memref sig .tc .vmem S2x8x64x512 .bf16).view.set]{fullShare} g
  | 2 => (vslot2 : Memref sig .tc .vmem S2x8x64x512 .bf16).view.loc (c : Thread nD τ) ↦[(vslot2 : Memref sig .tc .vmem S2x8x64x512 .bf16).view.set]{fullShare} g

/-- Duty `j` of `c`'s barrier: the payer `p = peer (back j) c` hands over its slot `j` of both landing buffers and
    that it stands at round 0 of the two receive semaphores of that slot. -/
def barPay (c : Dev nD) (j : Fin 3) : sProp 𝕄 :=
  iprop(slotAny (kslot j) (peer (back j) c) ∗ slotAny (vslot j) (peer (back j) c)
    ∗ reached ER (dCell 1 j (peer (back j) c)) 0 ∗ reached ER (dCell 3 j (peer (back j) c)) 0)

/-- The one duty of DMA semaphore `j` of triple `t` of device `c`. -/
def dPay (t : Fin 4) (j : Fin 3) (c : Dev nD) : sProp 𝕄 :=
  match t with
  | 0 => (klocM : Memref sig .tc .vmem S2x8x64x512 .bf16).view.loc (c : Thread nD τ) ↦[(klocM : Memref sig .tc .vmem S2x8x64x512 .bf16).view.set]{sendShare j} kT c
  | 1 => kslotHolds j c (kC c)
  | 2 => (vlocM : Memref sig .tc .vmem S2x8x64x512 .bf16).view.loc (c : Thread nD τ) ↦[(vlocM : Memref sig .tc .vmem S2x8x64x512 .bf16).view.set]{sendShare j} vT c
  | 3 => vslotHolds j c (vC c)

omit [FloatOps F] in
instance slotAny_storable (M : Memref sig .tc .vmem S2x8x64x512 .bf16) (c : Dev nD) : BI.Storable (upEmb : UEmb _ 𝕄) (slotAny (F := F) M c) := by
  unfold slotAny; infer_instance
omit [FloatOps F] in
instance kslotHolds_storable (j : Fin 3) (c : Dev nD) (g) : BI.Storable (upEmb : UEmb _ 𝕄) (kslotHolds (F := F) j c g) := by
  unfold kslotHolds; split <;> infer_instance
omit [FloatOps F] in
instance vslotHolds_storable (j : Fin 3) (c : Dev nD) (g) : BI.Storable (upEmb : UEmb _ 𝕄) (vslotHolds (F := F) j c g) := by
  unfold vslotHolds; split <;> infer_instance
omit [FloatOps F] in
instance barPay_storable (c : Dev nD) (j : Fin 3) : BI.Storable (upEmb : UEmb _ 𝕄) (barPay (F := F) c j) := by
  unfold barPay; infer_instance
omit [FloatOps F] in
instance dPay_storable (t : Fin 4) (j : Fin 3) (c : Dev nD) : BI.Storable (upEmb : UEmb _ 𝕄) (dPay kT vT kC vC t j c) := by
  unfold dPay; split <;> infer_instance

/-! ## The schedule -/

/-- Which DMA semaphore of the exchange a semaphore is, if any. -/
def dkind : SemLoc sig → Option (Fin 4 × Fin 3)
  | .reg _ => none
  | .dma q => if h : 4 ≤ q.val then some (⟨(q.val - 4) / 3, by have := q.isLt; have h16 : sig.nDmaSem = 16 := rfl; omega⟩, ⟨(q.val - 4) % 3, Nat.mod_lt _ (by decide)⟩) else none

theorem dkind_dsem : ∀ (t : Fin 4) (j : Fin 3), dkind (.dma (dsem t j)) = some (t, j) := by decide
theorem dkind_bar : dkind (.reg barS) = none := rfl

def sched : Rounds.Schedule (GSem nD τ sig) (Fin 3) 𝕄 where
  duties g r := if r = 0 ∧ g.1.2 = .tc then (if g.2 = .reg barS then Finset.univ else if (dkind g.2).isSome then {0} else ∅) else ∅
  unitless _ := False
  amount g _ _ := if g.2 = .reg barS then 1 else N
  payload g _ d :=
    if g.2 = .reg barS then barPay g.1.1 d
    else match dkind g.2 with
      | some (t, j) => dPay kT vT kC vC t j g.1.1
      | none => iprop(emp)
  amount_pos g _ _ _ := by
    by_cases h : g.2 = .reg barS
    · rw [if_pos h]; exact Nat.one_pos
    · rw [if_neg h]; exact N_pos

omit [FloatOps F] in
instance sched_payload_storable (g : GSem nD τ sig) (r : ℕ) (d : Fin 3) :
    BI.Storable (upEmb : UEmb _ 𝕄) ((sched kT vT kC vC).payload g r d) := by
  show BI.Storable upEmb (if g.2 = .reg barS then barPay g.1.1 d else match dkind g.2 with
      | some (t, j) => dPay kT vT kC vC t j g.1.1
      | none => iprop(emp))
  (repeat' split) <;> infer_instance

section Tables
variable (c : Dev nD)

theorem d_ne_bar (t : Fin 4) (j : Fin 3) : (SemLoc.dma (dsem t j) : SemLoc sig) ≠ .reg barS := fun h => by cases h

omit [FloatOps F] in
theorem duties_bar : (sched kT vT kC vC).duties (barCell c) 0 = Finset.univ := by
  dsimp only [sched]; rw [if_pos ⟨rfl, rfl⟩, if_pos rfl]
omit [FloatOps F] in
theorem duties_d (t : Fin 4) (j : Fin 3) : (sched kT vT kC vC).duties (dCell t j c) 0 = {0} := by
  dsimp only [sched]; rw [if_pos ⟨rfl, rfl⟩, if_neg (d_ne_bar t j), dkind_dsem]; rfl
omit [FloatOps F] in
theorem duties_later (g : GSem nD τ sig) : ∀ r, 1 ≤ r → (sched kT vT kC vC).duties g r = ∅ :=
  fun r hr => by dsimp only [sched]; rw [if_neg fun h => by omega]

omit [FloatOps F] in
theorem amount_bar (d : Fin 3) : (sched kT vT kC vC).amount (barCell c) 0 d = 1 := by dsimp only [sched]; exact if_pos rfl
omit [FloatOps F] in
theorem amount_d (t : Fin 4) (j : Fin 3) (d : Fin 3) : (sched kT vT kC vC).amount (dCell t j c) 0 d = N := by
  dsimp only [sched]; exact if_neg (d_ne_bar t j)

omit [FloatOps F] in
theorem expect_bar : (sched kT vT kC vC).expect (barCell c) 0 = 3 := by
  unfold Schedule.expect Schedule.amountOf
  rw [duties_bar, Finset.sum_congr rfl fun d _ => amount_bar kT vT kC vC c d, Finset.sum_const, Finset.card_univ, Fintype.card_fin, smul_eq_mul]
omit [FloatOps F] in
theorem expect_d (t : Fin 4) (j : Fin 3) : (sched kT vT kC vC).expect (dCell t j c) 0 = N := by
  unfold Schedule.expect Schedule.amountOf; rw [duties_d, Finset.sum_singleton, amount_d]

omit [FloatOps F] in
theorem payload_bar (d : Fin 3) : (sched kT vT kC vC).payload (barCell c) 0 d = barPay c d := by
  dsimp only [sched]; rw [if_pos rfl]
omit [FloatOps F] in
theorem payload_d (t : Fin 4) (j : Fin 3) (d : Fin 3) : (sched kT vT kC vC).payload (dCell t j c) 0 d = dPay kT vT kC vC t j c := by
  dsimp only [sched]; rw [if_neg (d_ne_bar t j), dkind_dsem]

omit [FloatOps F] in
/-- All of the barrier's round, no duty taken: the three peers' payloads. -/
theorem rest_bar : bigSep ((sched kT vT kC vC).duties (barCell c) 0 \ ∅) (fun d => (sched kT vT kC vC).payload (barCell c) 0 d)
    = iprop(barPay c 0 ∗ barPay c 1 ∗ barPay c 2) := by
  rw [Finset.sdiff_empty, duties_bar, bigSep_univ_eq_bigSepL [(0 : Fin 3), 1, 2] (by decide) (by decide),
    bigSepL_cons_cons, bigSepL_cons_cons, bigSepL_singleton, payload_bar, payload_bar, payload_bar]
  rfl
omit [FloatOps F] in
theorem rest_d (t : Fin 4) (j : Fin 3) : bigSep ((sched kT vT kC vC).duties (dCell t j c) 0 \ ∅) (fun d => (sched kT vT kC vC).payload (dCell t j c) 0 d)
    = dPay kT vT kC vC t j c := by
  rw [Finset.sdiff_empty, duties_d, bigSep_singleton, payload_d]

end Tables

end Cert.KernelIdeal.Sched

end
-- ==== Proof.Levels.lean ====
/-
  Why nobody waits for ever.

  At launch a device owes nine things: one unit to the barrier semaphore of each of its three peers, and one
  block's credit to a key-receive and a value-receive semaphore of each peer (copy j lands in slot 2 - j of
  peer j). It pays them in program order: the three signals first, then key copy 0, value copy 0, key copy 1,
  ... The sum below is bracketed so that each payment removes the last summand.

  Levels: a barrier semaphore sits at 1, a receive semaphore at 2, every other semaphore (the pipeline's
  staging semaphores, the send semaphores) at 0. A device waits on its barrier while it still owes the six
  receive credits (level 2, above 1); on everything else it waits owing nothing, except the pipeline's own
  staging waits (level 0, below every semaphore it owes). So every wait is on a semaphore strictly below all
  that the waiter still owes, which is the whole argument against deadlock.

  The credit the launch deals a device is what the others owe it: three units on its barrier (one from each
  device of its z-line, since "peer j" is a permutation of the devices), and one block's credit on each of its
  six receive semaphores.
-/
import proofs.«900413_g7700000000000414_dist_agattn_v7x_xyz2x4x4_z_b2_s512_h8_d64_bf16_1_alg».proof.Proof.Sched

noncomputable section

namespace Cert.KernelIdeal.Levels

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched

variable {F : FTy → Type} [FloatOps F]

local notation "𝕄" => MT nD τ sig Unit (Elt F) ℕ UU ℕ

/-! ## What a device owes at launch -/

abbrev tBar (c : Dev nD) (j : Fin 3) : CellTallies nD τ sig Unit := tallyAt (barCell (peer j c)) () 1
abbrev tK (c : Dev nD) (j : Fin 3) : CellTallies nD τ sig Unit := tallyAt (dCell 1 (back j) (peer j c)) () N
abbrev tV (c : Dev nD) (j : Fin 3) : CellTallies nD τ sig Unit := tallyAt (dCell 3 (back j) (peer j c)) () N

/-- After the three signals: the six copies, the first to be issued last in the sum. -/
def Osend (c : Dev nD) : CellTallies nD τ sig Unit := tV c 2 + tK c 2 + tV c 1 + tK c 1 + tV c 0 + tK c 0
/-- At launch: those and the three signals, the first signal last in the sum. -/
def O₀ (c : Dev nD) : CellTallies nD τ sig Unit := Osend c + tBar c 2 + tBar c 1 + tBar c 0

theorem Osend_pos {c : Dev nD} {g : GSem nD τ sig} {u : Unit} (h : 0 < Osend c g u) :
    ∃ j : Fin 3, g = dCell 1 (back j) (peer j c) ∨ g = dCell 3 (back j) (peer j c) := by
  unfold Osend at h
  rcases Pipeline.add_pos_cases h with h | h
  · rcases Pipeline.add_pos_cases h with h | h
    · rcases Pipeline.add_pos_cases h with h | h
      · rcases Pipeline.add_pos_cases h with h | h
        · rcases Pipeline.add_pos_cases h with h | h
          · exact ⟨2, .inr (Pipeline.tallyAt_pos h).1⟩
          · exact ⟨2, .inl (Pipeline.tallyAt_pos h).1⟩
        · exact ⟨1, .inr (Pipeline.tallyAt_pos h).1⟩
      · exact ⟨1, .inl (Pipeline.tallyAt_pos h).1⟩
    · exact ⟨0, .inr (Pipeline.tallyAt_pos h).1⟩
  · exact ⟨0, .inl (Pipeline.tallyAt_pos h).1⟩

theorem O₀_pos {c : Dev nD} {g : GSem nD τ sig} {u : Unit} (h : 0 < O₀ c g u) :
    (∃ j : Fin 3, g = barCell (peer j c)) ∨ ∃ j : Fin 3, g = dCell 1 (back j) (peer j c) ∨ g = dCell 3 (back j) (peer j c) := by
  unfold O₀ at h
  rcases Pipeline.add_pos_cases h with h | h
  · rcases Pipeline.add_pos_cases h with h | h
    · rcases Pipeline.add_pos_cases h with h | h
      · exact .inr (Osend_pos h)
      · exact .inl ⟨2, (Pipeline.tallyAt_pos h).1⟩
    · exact .inl ⟨1, (Pipeline.tallyAt_pos h).1⟩
  · exact .inl ⟨0, (Pipeline.tallyAt_pos h).1⟩

/-! ## Levels -/

/-- A receive semaphore of the exchange. -/
def recvLike (sm : SemLoc sig) : Bool := match dkind sm with
  | some (t, _) => t == 1 || t == 3
  | none => false

theorem recvLike_k : ∀ j : Fin 3, recvLike (.dma (dsem 1 j)) = true := by decide
theorem recvLike_v : ∀ j : Fin 3, recvLike (.dma (dsem 3 j)) = true := by decide
theorem recvLike_ks : ∀ j : Fin 3, recvLike (.dma (dsem 0 j)) = false := by decide
theorem recvLike_vs : ∀ j : Fin 3, recvLike (.dma (dsem 2 j)) = false := by decide
theorem recvLike_stage : ∀ q : DmaSem sig, q.val < 4 → recvLike (.dma q) = false := by decide

def L (g : GSem nD τ sig) : Finset Unit := if g.1.2 = .tc then {()} else ∅
def lv (g : GSem nD τ sig) (_ : Unit) : ℕ := if g.2 = .reg barS then 1 else if recvLike g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_krecv (c : Dev nD) (j : Fin 3) (u : Unit) : lv (dCell 1 j c) u = 2 := by
  dsimp only [lv]; rw [if_neg (d_ne_bar 1 j), recvLike_k]; rfl
theorem lv_vrecv (c : Dev nD) (j : Fin 3) (u : Unit) : lv (dCell 3 j c) u = 2 := by
  dsimp only [lv]; rw [if_neg (d_ne_bar 3 j), recvLike_v]; rfl
theorem lv_ksend (c : Dev nD) (j : Fin 3) (u : Unit) : lv (dCell 0 j c) u = 0 := by
  dsimp only [lv]; rw [if_neg (d_ne_bar 0 j), recvLike_ks]; rfl
theorem lv_vsend (c : Dev nD) (j : Fin 3) (u : Unit) : lv (dCell 2 j c) u = 0 := by
  dsimp only [lv]; rw [if_neg (d_ne_bar 2 j), recvLike_vs]; rfl
theorem lv_stage (c : Dev nD) (q : DmaSem sig) (hq : q.val < 4) (u : Unit) : lv ((c : Thread nD τ), .dma q) u = 0 := by
  dsimp only [lv]; rw [if_neg (fun h => by cases h), recvLike_stage q hq]; rfl

/-! ## Permission to wait -/

omit [FloatOps F] in
/-- The barrier wait: the device still owes the six receive credits, all above its barrier. -/
theorem mayWait_bar (c : Dev nD) : (levAts L lv : sProp 𝕄) ⊢ MayWait (c : Thread nD τ) (.reg barS) () (Osend c) :=
  Pipeline.mayWait_of_levAts (by rw [L_tc]; exact Finset.mem_singleton_self _) fun g u hg => by
    obtain ⟨j, rfl | rfl⟩ := Osend_pos hg
    · exact ⟨by rw [L_tc]; exact Finset.mem_singleton_self _, by rw [lv_bar c, lv_krecv]; decide⟩
    · exact ⟨by rw [L_tc]; exact Finset.mem_singleton_self _, by rw [lv_bar c, lv_vrecv]; decide⟩

omit [FloatOps F] in
/-- The pipeline's staging waits: on a semaphore at level 0, owing either the launch dues or nothing. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rcases O₀_pos hg with ⟨j, rfl⟩ | ⟨j, rfl | rfl⟩
    · exact ⟨by rw [L_tc]; exact Finset.mem_singleton_self _, by rw [lv_stage c q hq, lv_bar]; decide⟩
    · exact ⟨by rw [L_tc]; exact Finset.mem_singleton_self _, by rw [lv_stage c q hq, lv_krecv]; decide⟩
    · exact ⟨by rw [L_tc]; exact Finset.mem_singleton_self _, by rw [lv_stage c q hq, lv_vrecv]; decide⟩
  · rw [MayWait_zero]; iintro -; iempintro

/-! ## The credit the launch deals -/

omit [FloatOps F] in
/-- A device's launch credit: three units on its barrier, a block's credit on each receive semaphore. -/
theorem creds (c : Dev nD) :
    (Pipeline.launchCred O₀ c : sProp 𝕄) ⊢ iprop(cred (tallyAt (barCell c) () 3)
      ∗ (cred (tallyAt (dCell 1 0 c) () N) ∗ cred (tallyAt (dCell 1 1 c) () N) ∗ cred (tallyAt (dCell 1 2 c) () N))
      ∗ (cred (tallyAt (dCell 3 0 c) () N) ∗ cred (tallyAt (dCell 3 1 c) () N) ∗ cred (tallyAt (dCell 3 2 c) () N))) := by
  have hb (j : Fin 3) := Pipeline.launchCred_tallyAt (Ix := Unit) (Name := ℕ) (U := UU) (Lvl := ℕ) (Val := Elt F) (τ := τ) (.reg barS)
    (peer j) (peer (back j)) (peer_peer_back j) (peer_back_peer j) () 1 c
  have hk (j : Fin 3) := Pipeline.launchCred_tallyAt (Ix := Unit) (Name := ℕ) (U := UU) (Lvl := ℕ) (Val := Elt F) (τ := τ) (.dma (dsem 1 (back j)))
    (peer j) (peer (back j)) (peer_peer_back j) (peer_back_peer j) () N c
  have hv (j : Fin 3) := Pipeline.launchCred_tallyAt (Ix := Unit) (Name := ℕ) (U := UU) (Lvl := ℕ) (Val := Elt F) (τ := τ) (.dma (dsem 3 (back j)))
    (peer j) (peer (back j)) (peer_peer_back j) (peer_back_peer j) () N c
  unfold O₀ Osend
  rw [Pipeline.launchCred_add, Pipeline.launchCred_add, Pipeline.launchCred_add, Pipeline.launchCred_add, Pipeline.launchCred_add,
    Pipeline.launchCred_add, Pipeline.launchCred_add, Pipeline.launchCred_add]
  iintro ⟨⟨⟨⟨⟨⟨⟨⟨Hv2, Hk2⟩, Hv1⟩, Hk1⟩, Hv0⟩, Hk0⟩, Hb2⟩, Hb1⟩, Hb0⟩
  ihave Hb0 := (hb 0) $$ Hb0
  ihave Hb1 := (hb 1) $$ Hb1
  ihave Hb2 := (hb 2) $$ Hb2
  ihave Hk0 := (hk 0) $$ Hk0
  ihave Hk1 := (hk 1) $$ Hk1
  ihave Hk2 := (hk 2) $$ Hk2
  ihave Hv0 := (hv 0) $$ Hv0
  ihave Hv1 := (hv 1) $$ Hv1
  ihave Hv2 := (hv 2) $$ Hv2
  isplitl [Hb0 Hb1 Hb2]
  · have h3 : (tallyAt (barCell c) () 3 : CellTallies nD τ sig Unit) = tallyAt (barCell c) () 1 + tallyAt (barCell c) () 1 + tallyAt (barCell c) () 1 := by
      rw [tallyAt_add, tallyAt_add]
    rw [h3]
    iapply (cred_add _ _).2
    isplitl [Hb0 Hb1]
    · iapply (cred_add _ _).2
      isplitl [Hb0] <;> iassumption
    · iexact Hb2
  isplitl [Hk0 Hk1 Hk2]
  · isplitl [Hk2]; · iexact Hk2
    isplitl [Hk1]; · iexact Hk1
    iexact Hk0
  · isplitl [Hv2]; · iexact Hv2
    isplitl [Hv1]; · iexact Hv1
    iexact Hv0

end Cert.KernelIdeal.Levels

end
-- ==== Proof.State.lean ====
/-
  What each device holds, before and after its one grid point.

  Shared by every device and never consumed: the thirteen semaphore invariants of every device, and the fact
  that every semaphore of the exchange has been reached at round 0 (`records`).
  Held by device c alone (`linear`): its position (round 0, nothing taken) on each of its own thirteen
  semaphores, and the one-shot tokens of the fifteen duties it pays -- duty j of its j-th peer's barrier, the
  duty of the key-receive and value-receive semaphore (slot 2 - j) of that peer, and the duties of its own six
  send semaphores.
  With that a device starts from the credit the launch dealt it (three units on its barrier, one block on each
  receive semaphore), the level facts, and its seven scratch buffers at whatever they hold. It ends with the
  scratch buffers back whole and its twelve own DMA semaphores closed at zero.
-/
import proofs.«900413_g7700000000000414_dist_agattn_v7x_xyz2x4x4_z_b2_s512_h8_d64_bf16_1_alg».proof.Proof.Levels

noncomputable section

namespace Cert.KernelIdeal.State

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched Cert.KernelIdeal.Levels

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- A device's blocks of the three inputs, as the pipeline stages them. -/
def Qst (c : Dev nD) : (cc0_stg0_0 : Ref sig .tc).ty.Contents (Elt F) :=
  (win0_0.blk (0 : Fin 1)).view.read (Elt F) ((s₀ m ρ).mem ((c : Thread nD τ).loc main_arg0))
def Kst (c : Dev nD) : (cc0_stg1_0 : Ref sig .tc).ty.Contents (Elt F) :=
  (win0_1.blk (0 : Fin 1)).view.read (Elt F) ((s₀ m ρ).mem ((c : Thread nD τ).loc main_arg1))
def Vst (c : Dev nD) : (cc0_stg2_0 : Ref sig .tc).ty.Contents (Elt F) :=
  (win0_2.blk (0 : Fin 1)).view.read (Elt F) ((s₀ m ρ).mem ((c : Thread nD τ).loc main_arg2))

-- The named contents: each device's transposed key and value block, its two landing buffers once full, and its result block.
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))

/-! ## Ghost state -/

def records (K : Dev nD × CK → ℕ) : sProp 𝕄 :=
  iprop((bigSep Finset.univ fun ck : Dev nD × CK => cellInv ER (sched kT vT kC vC) (K ck) (kcell ck))
    ∗ bigSep Finset.univ fun ck : Dev nD × CK => reached ER (kcell ck) 0)

instance records_persistent (K : Dev nD × CK → ℕ) : BI.Persistent (records kT vT kC vC K) := by unfold records; infer_instance

/-- The tokens of the duties device `c` pays. -/
def payToks (c : Dev nD) : sProp 𝕄 :=
  bigSep Finset.univ fun j : Fin 3 =>
    iprop(dutyTok ER (barCell (peer j c)) 0 j ∗ dutyTok ER (dCell 1 (back j) (peer j c)) 0 0 ∗ dutyTok ER (dCell 3 (back j) (peer j c)) 0 0
      ∗ dutyTok ER (dCell 0 j c) 0 0 ∗ dutyTok ER (dCell 2 j c) 0 0)

/-- The tokens of device `c`'s own semaphores, as they are minted. -/
def toks (c : Dev nD) : sProp 𝕄 :=
  iprop((bigSep Finset.univ fun j : Fin 3 => dutyTok ER (barCell c) 0 j)
    ∗ bigSep Finset.univ fun tj : Fin 4 × Fin 3 => dutyTok ER (dCell tj.1 tj.2 c) 0 0)

def linear (c : Dev nD) : sProp 𝕄 :=
  iprop((bigSep Finset.univ fun k : CK => atPos ER (kcell (c, k)) 0 ∅ 0) ∗ payToks c)

def ghost (K : Dev nD × CK → ℕ) (c : Dev nD) : sProp 𝕄 := iprop(records kT vT kC vC K ∗ linear c)

/-- The credit the launch deals device `c`. -/
def credits (c : Dev nD) : sProp 𝕄 :=
  iprop(cred (tallyAt (barCell c) () 3)
    ∗ (cred (tallyAt (dCell 1 0 c) () N) ∗ cred (tallyAt (dCell 1 1 c) () N) ∗ cred (tallyAt (dCell 1 2 c) () N))
    ∗ (cred (tallyAt (dCell 3 0 c) () N) ∗ cred (tallyAt (dCell 3 1 c) () N) ∗ cred (tallyAt (dCell 3 2 c) () N)))

def start (c : Dev nD) : sProp 𝕄 := iprop((∃ K, ghost kT vT kC vC K c) ∗ credits c ∗ levAts L lv)

/-- Before the point: that, and the seven scratch buffers at whatever they hold. -/
def Φ₀ (c : Dev nD) : sProp 𝕄 := iprop(start kT vT kC vC c ∗ Pipeline.scopedRest cfg0.spec c)
/-- After the point: the scratch buffers again, and the twelve own DMA semaphores at zero. -/
def Φ₁ (c : Dev nD) : sProp 𝕄 := iprop(Pipeline.scopedRest cfg0.spec c ∗ Pipeline.ownSems0 osem c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Qst m ρ c
    | ⟨1, _⟩ => Kst m ρ c
    | ⟨2, _⟩ => Vst m ρ c
    | ⟨3, _⟩ => outV c
  Φ t := match t with
    | ⟨0, _⟩ => Φ₀ kT vT kC vC c
    | ⟨_ + 1, _⟩ => Φ₁ c
  q _ := fullShare
  owed t := match t with
    | ⟨0, _⟩ => O₀ c
    | ⟨_ + 1, _⟩ => 0

abbrev 𝒱₀ : Variants := Variants.none

end Cert.KernelIdeal.State

end
-- ==== Proof.BodyPre.lean ====
/-
  What one device's body starts from and ends with, spelt out item by item.

  Of the shared records it needs twenty-two semaphore invariants -- its own thirteen and, for each peer j, that
  peer's barrier and the key-receive and value-receive semaphore of slot 2 - j there -- and the round-0 marks of
  the semaphores it pays into or hands on. Then its thirteen positions, its fifteen tokens, its credit, the level
  facts, its seven scratch buffers, what it owes, and the four staging buffers: the three inputs at this device's
  blocks and the output at anything. It ends with the scratch buffers and its closed semaphores, owing nothing, the
  inputs as they were and the output staging buffer at the device's result.
-/
import proofs.«900413_g7700000000000414_dist_agattn_v7x_xyz2x4x4_z_b2_s512_h8_d64_bf16_1_alg».proof.Proof.State

noncomputable section

namespace Cert.KernelIdeal.BodyPre

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched Cert.KernelIdeal.Levels Cert.KernelIdeal.State

variable {F : FTy → Type} [FloatOps F]

local notation "𝕄" => MT nD τ sig Unit (Elt F) ℕ UU ℕ

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The semaphore invariants device `c`'s body opens. -/
def invs (K : Dev nD × CK → ℕ) (c : Dev nD) : sProp 𝕄 :=
  iprop(cellInv ER (sched kT vT kC vC) (K (c, none)) (barCell c)
    ∗ cellInv ER (sched kT vT kC vC) (K (c, some (0, 0))) (dCell 0 0 c)
    ∗ cellInv ER (sched kT vT kC vC) (K (c, some (0, 1))) (dCell 0 1 c)
    ∗ cellInv ER (sched kT vT kC vC) (K (c, some (0, 2))) (dCell 0 2 c)
    ∗ cellInv ER (sched kT vT kC vC) (K (c, some (1, 0))) (dCell 1 0 c)
    ∗ cellInv ER (sched kT vT kC vC) (K (c, some (1, 1))) (dCell 1 1 c)
    ∗ cellInv ER (sched kT vT kC vC) (K (c, some (1, 2))) (dCell 1 2 c)
    ∗ cellInv ER (sched kT vT kC vC) (K (c, some (2, 0))) (dCell 2 0 c)
    ∗ cellInv ER (sched kT vT kC vC) (K (c, some (2, 1))) (dCell 2 1 c)
    ∗ cellInv ER (sched kT vT kC vC) (K (c, some (2, 2))) (dCell 2 2 c)
    ∗ cellInv ER (sched kT vT kC vC) (K (c, some (3, 0))) (dCell 3 0 c)
    ∗ cellInv ER (sched kT vT kC vC) (K (c, some (3, 1))) (dCell 3 1 c)
    ∗ cellInv ER (sched kT vT kC vC) (K (c, some (3, 2))) (dCell 3 2 c)
    ∗ cellInv ER (sched kT vT kC vC) (K (peer 0 c, none)) (barCell (peer 0 c))
    ∗ cellInv ER (sched kT vT kC vC) (K (peer 0 c, some (1, 2))) (dCell 1 2 (peer 0 c))
    ∗ cellInv ER (sched kT vT kC vC) (K (peer 0 c, some (3, 2))) (dCell 3 2 (peer 0 c))
    ∗ cellInv ER (sched kT vT kC vC) (K (peer 1 c, none)) (barCell (peer 1 c))
    ∗ cellInv ER (sched kT vT kC vC) (K (peer 1 c, some (1, 1))) (dCell 1 1 (peer 1 c))
    ∗ cellInv ER (sched kT vT kC vC) (K (peer 1 c, some (3, 1))) (dCell 3 1 (peer 1 c))
    ∗ cellInv ER (sched kT vT kC vC) (K (peer 2 c, none)) (barCell (peer 2 c))
    ∗ cellInv ER (sched kT vT kC vC) (K (peer 2 c, some (1, 0))) (dCell 1 0 (peer 2 c))
    ∗ cellInv ER (sched kT vT kC vC) (K (peer 2 c, some (3, 0))) (dCell 3 0 (peer 2 c)))

instance invs_persistent (K : Dev nD × CK → ℕ) (c : Dev nD) : BI.Persistent (invs kT vT kC vC K c) := by unfold invs; infer_instance

/-- The round-0 marks it presents. -/
def reach (c : Dev nD) : sProp 𝕄 :=
  iprop(reached ER (barCell (peer 0 c)) 0
    ∗ reached ER (dCell 1 2 (peer 0 c)) 0
    ∗ reached ER (dCell 3 2 (peer 0 c)) 0
    ∗ reached ER (barCell (peer 1 c)) 0
    ∗ reached ER (dCell 1 1 (peer 1 c)) 0
    ∗ reached ER (dCell 3 1 (peer 1 c)) 0
    ∗ reached ER (barCell (peer 2 c)) 0
    ∗ reached ER (dCell 1 0 (peer 2 c)) 0
    ∗ reached ER (dCell 3 0 (peer 2 c)) 0
    ∗ reached ER (dCell 0 0 c) 0
    ∗ reached ER (dCell 0 1 c) 0
    ∗ reached ER (dCell 0 2 c) 0
    ∗ reached ER (dCell 1 0 c) 0
    ∗ reached ER (dCell 1 1 c) 0
    ∗ reached ER (dCell 1 2 c) 0
    ∗ reached ER (dCell 2 0 c) 0
    ∗ reached ER (dCell 2 1 c) 0
    ∗ reached ER (dCell 2 2 c) 0
    ∗ reached ER (dCell 3 0 c) 0
    ∗ reached ER (dCell 3 1 c) 0
    ∗ reached ER (dCell 3 2 c) 0)

omit [FloatOps F] in
instance reach_persistent (c : Dev nD) : BI.Persistent (reach (F := F) c) := by unfold reach; infer_instance

/-- Its positions. -/
def ats (c : Dev nD) : sProp 𝕄 :=
  iprop(atPos ER (barCell c) 0 ∅ 0
    ∗ atPos ER (dCell 0 0 c) 0 ∅ 0
    ∗ atPos ER (dCell 0 1 c) 0 ∅ 0
    ∗ atPos ER (dCell 0 2 c) 0 ∅ 0
    ∗ atPos ER (dCell 1 0 c) 0 ∅ 0
    ∗ atPos ER (dCell 1 1 c) 0 ∅ 0
    ∗ atPos ER (dCell 1 2 c) 0 ∅ 0
    ∗ atPos ER (dCell 2 0 c) 0 ∅ 0
    ∗ atPos ER (dCell 2 1 c) 0 ∅ 0
    ∗ atPos ER (dCell 2 2 c) 0 ∅ 0
    ∗ atPos ER (dCell 3 0 c) 0 ∅ 0
    ∗ atPos ER (dCell 3 1 c) 0 ∅ 0
    ∗ atPos ER (dCell 3 2 c) 0 ∅ 0)

/-- The tokens of the duties it pays. -/
def ptoks (c : Dev nD) : sProp 𝕄 :=
  iprop(dutyTok ER (barCell (peer 0 c)) 0 (0 : Fin 3)
    ∗ dutyTok ER (dCell 1 2 (peer 0 c)) 0 (0 : Fin 3)
    ∗ dutyTok ER (dCell 3 2 (peer 0 c)) 0 (0 : Fin 3)
    ∗ dutyTok ER (dCell 0 0 c) 0 (0 : Fin 3)
    ∗ dutyTok ER (dCell 2 0 c) 0 (0 : Fin 3)
    ∗ dutyTok ER (barCell (peer 1 c)) 0 (1 : Fin 3)
    ∗ dutyTok ER (dCell 1 1 (peer 1 c)) 0 (0 : Fin 3)
    ∗ dutyTok ER (dCell 3 1 (peer 1 c)) 0 (0 : Fin 3)
    ∗ dutyTok ER (dCell 0 1 c) 0 (0 : Fin 3)
    ∗ dutyTok ER (dCell 2 1 c) 0 (0 : Fin 3)
    ∗ dutyTok ER (barCell (peer 2 c)) 0 (2 : Fin 3)
    ∗ dutyTok ER (dCell 1 0 (peer 2 c)) 0 (0 : Fin 3)
    ∗ dutyTok ER (dCell 3 0 (peer 2 c)) 0 (0 : Fin 3)
    ∗ dutyTok ER (dCell 0 2 c) 0 (0 : Fin 3)
    ∗ dutyTok ER (dCell 2 2 c) 0 (0 : Fin 3))

/-- Its scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((invs kT vT kC vC K c ∗ reach c ∗ levAts L lv)
    ∗ ats c ∗ ptoks c ∗ credits c ∗ scr c
    ∗ (dats m ρ kT vT kC vC outV 0 c).owesAt () t₀.castSucc
    ∗ (∃ d, stg c cc0_stg0_0 ((dats m ρ kT vT kC vC outV 0 c).before (0 : Fin 4) t₀ d))
    ∗ (∃ d, stg c cc0_stg1_0 ((dats m ρ kT vT kC vC outV 0 c).before (1 : Fin 4) t₀ d))
    ∗ (∃ d, stg c cc0_stg2_0 ((dats m ρ kT vT kC vC outV 0 c).before (2 : Fin 4) t₀ d))
    ∗ (∃ d, stg c cc0_stg3_0 ((dats m ρ kT vT kC vC outV 0 c).before (3 : Fin 4) t₀ d)))

def bodyPost (c : Dev nD) : sProp 𝕄 :=
  iprop(Φ₁ c ∗ (dats m ρ kT vT kC vC outV 0 c).owesAt () t₀.succ
    ∗ stg c cc0_stg0_0 (Qst m ρ c) ∗ stg c cc0_stg1_0 (Kst m ρ c) ∗ stg c cc0_stg2_0 (Vst m ρ c) ∗ stg c cc0_stg3_0 (outV c))

end Cert.KernelIdeal.BodyPre

end
-- ==== Proof.Slots.lean ====
/-
  A landing buffer is its three slots.

  Slot r is the slab of the buffer whose first coordinate is r. The three slabs are pairwise disjoint (they
  differ in the first coordinate) and every index lies in one of them (its first coordinate is 0, 1 or 2), so
  owning the whole buffer at contents f is owning the three slots at f, and conversely.
-/
import proofs.«900413_g7700000000000414_dist_agattn_v7x_xyz2x4x4_z_b2_s512_h8_d64_bf16_1_alg».proof.Proof.Sched
import Idealize.ShloMosaic.Rules.PointsTo

noncomputable section

namespace Cert.KernelIdeal.Slots

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched

variable {F : FTy → Type} [FloatOps F]

local notation "𝕄" => MT nD τ sig Unit (Elt F) ℕ UU ℕ

abbrev R0 : Rect S3x2x8x64x512 := Rect.unit (s := S3x2x8x64x512) ![0, 0, 0, 0, 0] S1x2x8x64x512.size inb_S3x2x8x64x512_S1x2x8x64x512_0_0_0_0_0
abbrev R1 : Rect S3x2x8x64x512 := Rect.unit (s := S3x2x8x64x512) ![1, 0, 0, 0, 0] S1x2x8x64x512.size inb_S3x2x8x64x512_S1x2x8x64x512_1_0_0_0_0
abbrev R2 : Rect S3x2x8x64x512 := Rect.unit (s := S3x2x8x64x512) ![2, 0, 0, 0, 0] S1x2x8x64x512.size inb_S3x2x8x64x512_S1x2x8x64x512_2_0_0_0_0

theorem d01 : Disjoint R0.set R1.set := Rect.unit_disjoint (0 : Fin 5) (.inl (by decide))
theorem d02 : Disjoint R0.set R2.set := Rect.unit_disjoint (0 : Fin 5) (.inl (by decide))
theorem d12 : Disjoint R1.set R2.set := Rect.unit_disjoint (0 : Fin 5) (.inl (by decide))
theorem d0_12 : Disjoint R0.set (R1.set ∪ R2.set) := Finset.disjoint_union_right.mpr ⟨d01, d02⟩

theorem cover : R0.set ∪ (R1.set ∪ R2.set) = Finset.univ := by
  ext i
  simp only [Finset.mem_union, Rect.mem_set_unit, Finset.mem_univ, iff_true]
  have h0 : (i 0 : Nat) < 3 := (i 0).isLt
  have h1 : (i 1 : Nat) < 2 := (i 1).isLt
  have h2 : (i 2 : Nat) < 8 := (i 2).isLt
  have h3 : (i 3 : Nat) < 64 := (i 3).isLt
  have h4 : (i 4 : Nat) < 512 := (i 4).isLt
  have hc : (i 0 : Nat) = 0 ∨ (i 0 : Nat) = 1 ∨ (i 0 : Nat) = 2 := by omega
  rcases hc with hc | hc | hc
  · exact .inl fun a => by fin_cases a <;> simp <;> omega
  · exact .inr (.inl fun a => by fin_cases a <;> simp <;> omega)
  · exact .inr (.inr fun a => by fin_cases a <;> simp <;> omega)

section kcom

theorem k0set : (kslot0 : Memref sig .tc .vmem S2x8x64x512 .bf16).view.set = R0.set := by
  simp only [Memref.view_squeeze, Memref.view_slice, View.set_reshape, Memref.view_whole, View.set_slice_whole]
theorem k1set : (kslot1 : Memref sig .tc .vmem S2x8x64x512 .bf16).view.set = R1.set := by
  simp only [Memref.view_squeeze, Memref.view_slice, View.set_reshape, Memref.view_whole, View.set_slice_whole]
theorem k2set : (kslot2 : Memref sig .tc .vmem S2x8x64x512 .bf16).view.set = R2.set := by
  simp only [Memref.view_squeeze, Memref.view_slice, View.set_reshape, Memref.view_whole, View.set_slice_whole]

omit [FloatOps F] in
/-- The whole landing buffer is its three slots, at the same contents. -/
theorem kcom_split (c : Dev nD) (f : Buf (Elt F) ((kcomM : Memref sig .tc .vmem S3x2x8x64x512 .bf16).view.loc (c : Thread nD τ))) :
    ((((c : Thread nD τ).loc cc0_scratch3) ↦{fullShare} f) : sProp 𝕄) ⊢ iprop((((c : Thread nD τ).loc cc0_scratch3) ↦[(kslot0 : Memref sig .tc .vmem S2x8x64x512 .bf16).view.set]{fullShare} f)
      ∗ (((c : Thread nD τ).loc cc0_scratch3) ↦[(kslot1 : Memref sig .tc .vmem S2x8x64x512 .bf16).view.set]{fullShare} f)
      ∗ (((c : Thread nD τ).loc cc0_scratch3) ↦[(kslot2 : Memref sig .tc .vmem S2x8x64x512 .bf16).view.set]{fullShare} f)) := by
  show ((((c : Thread nD τ).loc cc0_scratch3) ↦[Finset.univ]{fullShare} f) : sProp 𝕄) ⊢
    iprop((((c : Thread nD τ).loc cc0_scratch3) ↦[(kslot0 : Memref sig .tc .vmem S2x8x64x512 .bf16).view.set]{fullShare} f)
      ∗ (((c : Thread nD τ).loc cc0_scratch3) ↦[(kslot1 : Memref sig .tc .vmem S2x8x64x512 .bf16).view.set]{fullShare} f)
      ∗ (((c : Thread nD τ).loc cc0_scratch3) ↦[(kslot2 : Memref sig .tc .vmem S2x8x64x512 .bf16).view.set]{fullShare} f))
  rw [k0set, k1set, k2set, ← cover]
  iintro H
  ihave H := (pointsTo_union d0_12).1 $$ H
  icases H with ⟨H0, H12⟩
  ihave H12 := (pointsTo_union d12).1 $$ H12
  icases H12 with ⟨H1, H2⟩
  isplitl [H0]; · iexact H0
  isplitl [H1]; · iexact H1
  iexact H2

omit [FloatOps F] in
/-- and back. -/
theorem kcom_join (c : Dev nD) (f : Buf (Elt F) ((kcomM : Memref sig .tc .vmem S3x2x8x64x512 .bf16).view.loc (c : Thread nD τ))) :
    iprop((((c : Thread nD τ).loc cc0_scratch3) ↦[(kslot0 : Memref sig .tc .vmem S2x8x64x512 .bf16).view.set]{fullShare} f)
      ∗ (((c : Thread nD τ).loc cc0_scratch3) ↦[(kslot1 : Memref sig .tc .vmem S2x8x64x512 .bf16).view.set]{fullShare} f)
      ∗ (((c : Thread nD τ).loc cc0_scratch3) ↦[(kslot2 : Memref sig .tc .vmem S2x8x64x512 .bf16).view.set]{fullShare} f)) ⊢ ((((c : Thread nD τ).loc cc0_scratch3) ↦{fullShare} f) : sProp 𝕄) := by
  show iprop((((c : Thread nD τ).loc cc0_scratch3) ↦[(kslot0 : Memref sig .tc .vmem S2x8x64x512 .bf16).view.set]{fullShare} f)
      ∗ (((c : Thread nD τ).loc cc0_scratch3) ↦[(kslot1 : Memref sig .tc .vmem S2x8x64x512 .bf16).view.set]{fullShare} f)
      ∗ (((c : Thread nD τ).loc cc0_scratch3) ↦[(kslot2 : Memref sig .tc .vmem S2x8x64x512 .bf16).view.set]{fullShare} f))
    ⊢ ((((c : Thread nD τ).loc cc0_scratch3) ↦[Finset.univ]{fullShare} f) : sProp 𝕄)
  rw [k0set, k1set, k2set, ← cover]
  iintro ⟨H0, H1, H2⟩
  iapply (pointsTo_union d0_12).2
  isplitl [H0]; · iexact H0
  iapply (pointsTo_union d12).2
  isplitl [H1]; · iexact H1
  iexact H2

end kcom

section vcom

theorem v0set : (vslot0 : Memref sig .tc .vmem S2x8x64x512 .bf16).view.set = R0.set := by
  simp only [Memref.view_squeeze, Memref.view_slice, View.set_reshape, Memref.view_whole, View.set_slice_whole]
theorem v1set : (vslot1 : Memref sig .tc .vmem S2x8x64x512 .bf16).view.set = R1.set := by
  simp only [Memref.view_squeeze, Memref.view_slice, View.set_reshape, Memref.view_whole, View.set_slice_whole]
theorem v2set : (vslot2 : Memref sig .tc .vmem S2x8x64x512 .bf16).view.set = R2.set := by
  simp only [Memref.view_squeeze, Memref.view_slice, View.set_reshape, Memref.view_whole, View.set_slice_whole]

omit [FloatOps F] in
/-- The whole landing buffer is its three slots, at the same contents. -/
theorem vcom_split (c : Dev nD) (f : Buf (Elt F) ((vcomM : Memref sig .tc .vmem S3x2x8x64x512 .bf16).view.loc (c : Thread nD τ))) :
    ((((c : Thread nD τ).loc cc0_scratch4) ↦{fullShare} f) : sProp 𝕄) ⊢ iprop((((c : Thread nD τ).loc cc0_scratch4) ↦[(vslot0 : Memref sig .tc .vmem S2x8x64x512 .bf16).view.set]{fullShare} f)
      ∗ (((c : Thread nD τ).loc cc0_scratch4) ↦[(vslot1 : Memref sig .tc .vmem S2x8x64x512 .bf16).view.set]{fullShare} f)
      ∗ (((c : Thread nD τ).loc cc0_scratch4) ↦[(vslot2 : Memref sig .tc .vmem S2x8x64x512 .bf16).view.set]{fullShare} f)) := by
  show ((((c : Thread nD τ).loc cc0_scratch4) ↦[Finset.univ]{fullShare} f) : sProp 𝕄) ⊢
    iprop((((c : Thread nD τ).loc cc0_scratch4) ↦[(vslot0 : Memref sig .tc .vmem S2x8x64x512 .bf16).view.set]{fullShare} f)
      ∗ (((c : Thread nD τ).loc cc0_scratch4) ↦[(vslot1 : Memref sig .tc .vmem S2x8x64x512 .bf16).view.set]{fullShare} f)
      ∗ (((c : Thread nD τ).loc cc0_scratch4) ↦[(vslot2 : Memref sig .tc .vmem S2x8x64x512 .bf16).view.set]{fullShare} f))
  rw [v0set, v1set, v2set, ← cover]
  iintro H
  ihave H := (pointsTo_union d0_12).1 $$ H
  icases H with ⟨H0, H12⟩
  ihave H12 := (pointsTo_union d12).1 $$ H12
  icases H12 with ⟨H1, H2⟩
  isplitl [H0]; · iexact H0
  isplitl [H1]; · iexact H1
  iexact H2

omit [FloatOps F] in
/-- and back. -/
theorem vcom_join (c : Dev nD) (f : Buf (Elt F) ((vcomM : Memref sig .tc .vmem S3x2x8x64x512 .bf16).view.loc (c : Thread nD τ))) :
    iprop((((c : Thread nD τ).loc cc0_scratch4) ↦[(vslot0 : Memref sig .tc .vmem S2x8x64x512 .bf16).view.set]{fullShare} f)
      ∗ (((c : Thread nD τ).loc cc0_scratch4) ↦[(vslot1 : Memref sig .tc .vmem S2x8x64x512 .bf16).view.set]{fullShare} f)
      ∗ (((c : Thread nD τ).loc cc0_scratch4) ↦[(vslot2 : Memref sig .tc .vmem S2x8x64x512 .bf16).view.set]{fullShare} f)) ⊢ ((((c : Thread nD τ).loc cc0_scratch4) ↦{fullShare} f) : sProp 𝕄) := by
  show iprop((((c : Thread nD τ).loc cc0_scratch4) ↦[(vslot0 : Memref sig .tc .vmem S2x8x64x512 .bf16).view.set]{fullShare} f)
      ∗ (((c : Thread nD τ).loc cc0_scratch4) ↦[(vslot1 : Memref sig .tc .vmem S2x8x64x512 .bf16).view.set]{fullShare} f)
      ∗ (((c : Thread nD τ).loc cc0_scratch4) ↦[(vslot2 : Memref sig .tc .vmem S2x8x64x512 .bf16).view.set]{fullShare} f))
    ⊢ ((((c : Thread nD τ).loc cc0_scratch4) ↦[Finset.univ]{fullShare} f) : sProp 𝕄)
  rw [v0set, v1set, v2set, ← cover]
  iintro ⟨H0, H1, H2⟩
  iapply (pointsTo_union d0_12).2
  isplitl [H0]; · iexact H0
  iapply (pointsTo_union d12).2
  isplitl [H1]; · iexact H1
  iexact H2

end vcom

end Cert.KernelIdeal.Slots

end
-- ==== Proof.Shares.lean ====
/-
  Three copies read a device's transposed block at the same time, and the device's own first pass reads it
  too. So the block's ownership is cut into four shares of the same contents: the whole is a left half and a
  right half, the right half again, and once more.
-/
import proofs.«900413_g7700000000000414_dist_agattn_v7x_xyz2x4x4_z_b2_s512_h8_d64_bf16_1_alg».proof.Proof.Sched
import Idealize.ShloMosaic.Rules.PointsTo

noncomputable section

namespace Cert.KernelIdeal.Shares

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched

variable {F : FTy → Type} [FloatOps F]

local notation "𝕄" => MT nD τ sig Unit (Elt F) ℕ UU ℕ

omit [FloatOps F] in
/-- The block held whole is the three shares its copies read through and the one the device keeps. -/
theorem kloc_split (c : Dev nD) (f : Buf (Elt F) ((c : Thread nD τ).loc cc0_scratch1)) :
    ((((c : Thread nD τ).loc cc0_scratch1) ↦{fullShare} f) : sProp 𝕄)
      ⊢ iprop(((klocM : Memref sig .tc .vmem S2x8x64x512 .bf16).view.loc (c : Thread nD τ) ↦[(klocM : Memref sig .tc .vmem S2x8x64x512 .bf16).view.set]{sendShare 0} f)
        ∗ ((klocM : Memref sig .tc .vmem S2x8x64x512 .bf16).view.loc (c : Thread nD τ) ↦[(klocM : Memref sig .tc .vmem S2x8x64x512 .bf16).view.set]{sendShare 1} f)
        ∗ ((klocM : Memref sig .tc .vmem S2x8x64x512 .bf16).view.loc (c : Thread nD τ) ↦[(klocM : Memref sig .tc .vmem S2x8x64x512 .bf16).view.set]{sendShare 2} f)
        ∗ (((c : Thread nD τ).loc cc0_scratch1) ↦{keptShare} f)) := by
  rw [show (klocM : Memref sig .tc .vmem S2x8x64x512 .bf16).view.set = Finset.univ from View.set_whole _]
  iintro H
  ihave H := (pointsTo_share (PosShare.mem_left_op_right fullShare)).1 $$ H
  icases H with ⟨H0, H⟩
  ihave H := (pointsTo_share (PosShare.mem_left_op_right fullShare.right)).1 $$ H
  icases H with ⟨H1, H⟩
  ihave H := (pointsTo_share (PosShare.mem_left_op_right fullShare.right.right)).1 $$ H
  icases H with ⟨H2, H3⟩
  isplitl [H0]; · iexact H0
  isplitl [H1]; · iexact H1
  isplitl [H2]; · iexact H2
  iexact H3

omit [FloatOps F] in
/-- and back. -/
theorem kloc_join (c : Dev nD) (f : Buf (Elt F) ((c : Thread nD τ).loc cc0_scratch1)) :
    iprop(((klocM : Memref sig .tc .vmem S2x8x64x512 .bf16).view.loc (c : Thread nD τ) ↦[(klocM : Memref sig .tc .vmem S2x8x64x512 .bf16).view.set]{sendShare 0} f)
        ∗ ((klocM : Memref sig .tc .vmem S2x8x64x512 .bf16).view.loc (c : Thread nD τ) ↦[(klocM : Memref sig .tc .vmem S2x8x64x512 .bf16).view.set]{sendShare 1} f)
        ∗ ((klocM : Memref sig .tc .vmem S2x8x64x512 .bf16).view.loc (c : Thread nD τ) ↦[(klocM : Memref sig .tc .vmem S2x8x64x512 .bf16).view.set]{sendShare 2} f)
        ∗ (((c : Thread nD τ).loc cc0_scratch1) ↦{keptShare} f))
      ⊢ ((((c : Thread nD τ).loc cc0_scratch1) ↦{fullShare} f) : sProp 𝕄) := by
  rw [show (klocM : Memref sig .tc .vmem S2x8x64x512 .bf16).view.set = Finset.univ from View.set_whole _]
  iintro ⟨H0, H1, H2, H3⟩
  iapply (pointsTo_share (PosShare.mem_left_op_right fullShare)).2
  isplitl [H0]; · iexact H0
  iapply (pointsTo_share (PosShare.mem_left_op_right fullShare.right)).2
  isplitl [H1]; · iexact H1
  iapply (pointsTo_share (PosShare.mem_left_op_right fullShare.right.right)).2
  isplitl [H2]; · iexact H2
  iexact H3

omit [FloatOps F] in
/-- The block held whole is the three shares its copies read through and the one the device keeps. -/
theorem vloc_split (c : Dev nD) (f : Buf (Elt F) ((c : Thread nD τ).loc cc0_scratch2)) :
    ((((c : Thread nD τ).loc cc0_scratch2) ↦{fullShare} f) : sProp 𝕄)
      ⊢ iprop(((vlocM : Memref sig .tc .vmem S2x8x64x512 .bf16).view.loc (c : Thread nD τ) ↦[(vlocM : Memref sig .tc .vmem S2x8x64x512 .bf16).view.set]{sendShare 0} f)
        ∗ ((vlocM : Memref sig .tc .vmem S2x8x64x512 .bf16).view.loc (c : Thread nD τ) ↦[(vlocM : Memref sig .tc .vmem S2x8x64x512 .bf16).view.set]{sendShare 1} f)
        ∗ ((vlocM : Memref sig .tc .vmem S2x8x64x512 .bf16).view.loc (c : Thread nD τ) ↦[(vlocM : Memref sig .tc .vmem S2x8x64x512 .bf16).view.set]{sendShare 2} f)
        ∗ (((c : Thread nD τ).loc cc0_scratch2) ↦{keptShare} f)) := by
  rw [show (vlocM : Memref sig .tc .vmem S2x8x64x512 .bf16).view.set = Finset.univ from View.set_whole _]
  iintro H
  ihave H := (pointsTo_share (PosShare.mem_left_op_right fullShare)).1 $$ H
  icases H with ⟨H0, H⟩
  ihave H := (pointsTo_share (PosShare.mem_left_op_right fullShare.right)).1 $$ H
  icases H with ⟨H1, H⟩
  ihave H := (pointsTo_share (PosShare.mem_left_op_right fullShare.right.right)).1 $$ H
  icases H with ⟨H2, H3⟩
  isplitl [H0]; · iexact H0
  isplitl [H1]; · iexact H1
  isplitl [H2]; · iexact H2
  iexact H3

omit [FloatOps F] in
/-- and back. -/
theorem vloc_join (c : Dev nD) (f : Buf (Elt F) ((c : Thread nD τ).loc cc0_scratch2)) :
    iprop(((vlocM : Memref sig .tc .vmem S2x8x64x512 .bf16).view.loc (c : Thread nD τ) ↦[(vlocM : Memref sig .tc .vmem S2x8x64x512 .bf16).view.set]{sendShare 0} f)
        ∗ ((vlocM : Memref sig .tc .vmem S2x8x64x512 .bf16).view.loc (c : Thread nD τ) ↦[(vlocM : Memref sig .tc .vmem S2x8x64x512 .bf16).view.set]{sendShare 1} f)
        ∗ ((vlocM : Memref sig .tc .vmem S2x8x64x512 .bf16).view.loc (c : Thread nD τ) ↦[(vlocM : Memref sig .tc .vmem S2x8x64x512 .bf16).view.set]{sendShare 2} f)
        ∗ (((c : Thread nD τ).loc cc0_scratch2) ↦{keptShare} f))
      ⊢ ((((c : Thread nD τ).loc cc0_scratch2) ↦{fullShare} f) : sProp 𝕄) := by
  rw [show (vlocM : Memref sig .tc .vmem S2x8x64x512 .bf16).view.set = Finset.univ from View.set_whole _]
  iintro ⟨H0, H1, H2, H3⟩
  iapply (pointsTo_share (PosShare.mem_left_op_right fullShare)).2
  isplitl [H0]; · iexact H0
  iapply (pointsTo_share (PosShare.mem_left_op_right fullShare.right)).2
  isplitl [H1]; · iexact H1
  iapply (pointsTo_share (PosShare.mem_left_op_right fullShare.right.right)).2
  isplitl [H2]; · iexact H2
  iexact H3

end Cert.KernelIdeal.Shares

end
-- ==== Proof.Sends.lean ====
/-
  The six remote copies, one lemma each.

  Copy j of a block goes to peer j and lands in that peer's slot 2 - j. The issuer reads its own transposed
  block through one of its shares and writes the peer's slot, which the peer handed over with its barrier
  signal. Two duties are paid at once: the issuer's own send semaphore j (its payload: the lent share, back
  when the copy has read everything) and the peer's receive semaphore of that slot (its payload: the slot,
  holding what landed). The printed device id is a chain of integer operations on the device's own id; the
  lemma is stated for any device n together with the proof that n is the peer.
-/
import proofs.«900413_g7700000000000414_dist_agattn_v7x_xyz2x4x4_z_b2_s512_h8_d64_bf16_1_alg».proof.Proof.BodyPre
import Idealize.ShloMosaic.Rules.PointsTo

noncomputable section

namespace Cert.KernelIdeal.Sends

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched Cert.KernelIdeal.Levels Cert.KernelIdeal.State

variable {F : FTy → Type} [FloatOps F]

local notation "𝕄" => MT nD τ sig Unit (Elt F) ℕ UU ℕ

variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (K : Dev nD × CK → ℕ)

/-- Copy 0 of the key block: to peer 0, into its slot 2. The issuer lends one share of its block (back with the
    send semaphore) and owns the peer's slot outright; what lands makes the slot hold what the peer's landing buffer is
    to hold there (`hland`). -/
theorem wp_send_k0 (c n : Dev nD) (hn : n = peer 0 c)
    (hland : ∀ fd : Buf (Elt F) ((kslot2 : Memref sig .tc .vmem S2x8x64x512 .bf16).view.loc (peer 0 c : Thread nD τ)), ∀ i ∈ (kslot2 : Memref sig .tc .vmem S2x8x64x512 .bf16).view.set,
      (kslot2 : Memref sig .tc .vmem S2x8x64x512 .bf16).view.write (Elt F) fd ((klocM : Memref sig .tc .vmem S2x8x64x512 .bf16).view.read (Elt F) (kT c)) Finset.univ i = kC (peer 0 c) i)
    {hsc : (kslot2 : Memref sig (Dev.tc n : Thread nD τ).2.kind .vmem S2x8x64x512 .bf16).view.ref.isScScratch = false}
    {hsrc : (klocM : Memref sig .tc .vmem S2x8x64x512 .bf16).view.WordExact} {hdst : (kslot2 : Memref sig .tc .vmem S2x8x64x512 .bf16).view.WordExact}
    {hsem : DmaTarget.Typed .vmem (.dma (dsem 1 2)) (.remote (Dev.tc n : Thread nD τ) (kslot2 : Memref sig .tc .vmem S2x8x64x512 .bf16) (.dma (dsem 0 0)) hsc)}
    {α : Type} {Q : α → sProp 𝕄} {k : PUnit → Prog (TpuEff nD τ sig (Elt F) Λ₀ .tc) α}
    (fd : Buf (Elt F) ((kslot2 : Memref sig .tc .vmem S2x8x64x512 .bf16).view.loc (peer 0 c : Thread nD τ))) (O : CellTallies nD τ sig Unit) (W : Waits sig Unit) :
    iprop(cellInv ER (sched kT vT kC vC) (K (c, some (0, 0))) (dCell 0 0 c) ∗ cellInv ER (sched kT vT kC vC) (K (peer 0 c, some (1, 2))) (dCell 1 2 (peer 0 c))
        ∗ ((klocM : Memref sig .tc .vmem S2x8x64x512 .bf16).view.loc (c : Thread nD τ) ↦[(klocM : Memref sig .tc .vmem S2x8x64x512 .bf16).view.set]{sendShare 0} kT c)
        ∗ ((kslot2 : Memref sig .tc .vmem S2x8x64x512 .bf16).view.loc (peer 0 c : Thread nD τ) ↦[(kslot2 : Memref sig .tc .vmem S2x8x64x512 .bf16).view.set]{fullShare} fd)
        ∗ owes (c : Thread nD τ) (O + tallyAt (dCell 1 2 (peer 0 c)) () N) W
        ∗ dutyTok ER (dCell 0 0 c) 0 (0 : Fin 3) ∗ reached ER (dCell 0 0 c) 0
        ∗ dutyTok ER (dCell 1 2 (peer 0 c)) 0 (0 : Fin 3) ∗ reached ER (dCell 1 2 (peer 0 c)) 0)
      ⊢ iprop(((cred (tallyAt (dCell 0 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (klocM : Memref sig .tc .vmem S2x8x64x512 .bf16) (.remote (Dev.tc n : Thread nD τ) (kslot2 : Memref sig .tc .vmem S2x8x64x512 .bf16) (.dma (dsem 0 0)) hsc) (.dma (dsem 1 2)) hsrc hdst hsem) k) Q) := by
  subst hn
  exact Rounds.wp_send_pointsTo 𝒱₀ ER (sched kT vT kC vC) (c : Thread nD τ) none (κ₁ := K (c, some (0, 0))) (κ₂ := K (peer 0 c, some (1, 2)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 0 0 0) (amount_d kT vT kC vC (peer 0 c) 1 2 0) O rfl (W := W)
    (by rw [payload_d]; exact BI.Entails.refl _)
    (by rw [payload_d]; exact Entails.of_eq (pointsTo_congr (hland fd)))

/-- Copy 0 of the value block: to peer 0, into its slot 2. The issuer lends one share of its block (back with the
    send semaphore) and owns the peer's slot outright; what lands makes the slot hold what the peer's landing buffer is
    to hold there (`hland`). -/
theorem wp_send_v0 (c n : Dev nD) (hn : n = peer 0 c)
    (hland : ∀ fd : Buf (Elt F) ((vslot2 : Memref sig .tc .vmem S2x8x64x512 .bf16).view.loc (peer 0 c : Thread nD τ)), ∀ i ∈ (vslot2 : Memref sig .tc .vmem S2x8x64x512 .bf16).view.set,
      (vslot2 : Memref sig .tc .vmem S2x8x64x512 .bf16).view.write (Elt F) fd ((vlocM : Memref sig .tc .vmem S2x8x64x512 .bf16).view.read (Elt F) (vT c)) Finset.univ i = vC (peer 0 c) i)
    {hsc : (vslot2 : Memref sig (Dev.tc n : Thread nD τ).2.kind .vmem S2x8x64x512 .bf16).view.ref.isScScratch = false}
    {hsrc : (vlocM : Memref sig .tc .vmem S2x8x64x512 .bf16).view.WordExact} {hdst : (vslot2 : Memref sig .tc .vmem S2x8x64x512 .bf16).view.WordExact}
    {hsem : DmaTarget.Typed .vmem (.dma (dsem 3 2)) (.remote (Dev.tc n : Thread nD τ) (vslot2 : Memref sig .tc .vmem S2x8x64x512 .bf16) (.dma (dsem 2 0)) hsc)}
    {α : Type} {Q : α → sProp 𝕄} {k : PUnit → Prog (TpuEff nD τ sig (Elt F) Λ₀ .tc) α}
    (fd : Buf (Elt F) ((vslot2 : Memref sig .tc .vmem S2x8x64x512 .bf16).view.loc (peer 0 c : Thread nD τ))) (O : CellTallies nD τ sig Unit) (W : Waits sig Unit) :
    iprop(cellInv ER (sched kT vT kC vC) (K (c, some (2, 0))) (dCell 2 0 c) ∗ cellInv ER (sched kT vT kC vC) (K (peer 0 c, some (3, 2))) (dCell 3 2 (peer 0 c))
        ∗ ((vlocM : Memref sig .tc .vmem S2x8x64x512 .bf16).view.loc (c : Thread nD τ) ↦[(vlocM : Memref sig .tc .vmem S2x8x64x512 .bf16).view.set]{sendShare 0} vT c)
        ∗ ((vslot2 : Memref sig .tc .vmem S2x8x64x512 .bf16).view.loc (peer 0 c : Thread nD τ) ↦[(vslot2 : Memref sig .tc .vmem S2x8x64x512 .bf16).view.set]{fullShare} fd)
        ∗ owes (c : Thread nD τ) (O + tallyAt (dCell 3 2 (peer 0 c)) () N) W
        ∗ dutyTok ER (dCell 2 0 c) 0 (0 : Fin 3) ∗ reached ER (dCell 2 0 c) 0
        ∗ dutyTok ER (dCell 3 2 (peer 0 c)) 0 (0 : Fin 3) ∗ reached ER (dCell 3 2 (peer 0 c)) 0)
      ⊢ iprop(((cred (tallyAt (dCell 2 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vlocM : Memref sig .tc .vmem S2x8x64x512 .bf16) (.remote (Dev.tc n : Thread nD τ) (vslot2 : Memref sig .tc .vmem S2x8x64x512 .bf16) (.dma (dsem 2 0)) hsc) (.dma (dsem 3 2)) hsrc hdst hsem) k) Q) := by
  subst hn
  exact Rounds.wp_send_pointsTo 𝒱₀ ER (sched kT vT kC vC) (c : Thread nD τ) none (κ₁ := K (c, some (2, 0))) (κ₂ := K (peer 0 c, some (3, 2)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 2 0 0) (amount_d kT vT kC vC (peer 0 c) 3 2 0) O rfl (W := W)
    (by rw [payload_d]; exact BI.Entails.refl _)
    (by rw [payload_d]; exact Entails.of_eq (pointsTo_congr (hland fd)))

/-- Copy 1 of the key block: to peer 1, into its slot 1. The issuer lends one share of its block (back with the
    send semaphore) and owns the peer's slot outright; what lands makes the slot hold what the peer's landing buffer is
    to hold there (`hland`). -/
theorem wp_send_k1 (c n : Dev nD) (hn : n = peer 1 c)
    (hland : ∀ fd : Buf (Elt F) ((kslot1 : Memref sig .tc .vmem S2x8x64x512 .bf16).view.loc (peer 1 c : Thread nD τ)), ∀ i ∈ (kslot1 : Memref sig .tc .vmem S2x8x64x512 .bf16).view.set,
      (kslot1 : Memref sig .tc .vmem S2x8x64x512 .bf16).view.write (Elt F) fd ((klocM : Memref sig .tc .vmem S2x8x64x512 .bf16).view.read (Elt F) (kT c)) Finset.univ i = kC (peer 1 c) i)
    {hsc : (kslot1 : Memref sig (Dev.tc n : Thread nD τ).2.kind .vmem S2x8x64x512 .bf16).view.ref.isScScratch = false}
    {hsrc : (klocM : Memref sig .tc .vmem S2x8x64x512 .bf16).view.WordExact} {hdst : (kslot1 : Memref sig .tc .vmem S2x8x64x512 .bf16).view.WordExact}
    {hsem : DmaTarget.Typed .vmem (.dma (dsem 1 1)) (.remote (Dev.tc n : Thread nD τ) (kslot1 : Memref sig .tc .vmem S2x8x64x512 .bf16) (.dma (dsem 0 1)) hsc)}
    {α : Type} {Q : α → sProp 𝕄} {k : PUnit → Prog (TpuEff nD τ sig (Elt F) Λ₀ .tc) α}
    (fd : Buf (Elt F) ((kslot1 : Memref sig .tc .vmem S2x8x64x512 .bf16).view.loc (peer 1 c : Thread nD τ))) (O : CellTallies nD τ sig Unit) (W : Waits sig Unit) :
    iprop(cellInv ER (sched kT vT kC vC) (K (c, some (0, 1))) (dCell 0 1 c) ∗ cellInv ER (sched kT vT kC vC) (K (peer 1 c, some (1, 1))) (dCell 1 1 (peer 1 c))
        ∗ ((klocM : Memref sig .tc .vmem S2x8x64x512 .bf16).view.loc (c : Thread nD τ) ↦[(klocM : Memref sig .tc .vmem S2x8x64x512 .bf16).view.set]{sendShare 1} kT c)
        ∗ ((kslot1 : Memref sig .tc .vmem S2x8x64x512 .bf16).view.loc (peer 1 c : Thread nD τ) ↦[(kslot1 : Memref sig .tc .vmem S2x8x64x512 .bf16).view.set]{fullShare} fd)
        ∗ owes (c : Thread nD τ) (O + tallyAt (dCell 1 1 (peer 1 c)) () N) W
        ∗ dutyTok ER (dCell 0 1 c) 0 (0 : Fin 3) ∗ reached ER (dCell 0 1 c) 0
        ∗ dutyTok ER (dCell 1 1 (peer 1 c)) 0 (0 : Fin 3) ∗ reached ER (dCell 1 1 (peer 1 c)) 0)
      ⊢ iprop(((cred (tallyAt (dCell 0 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (klocM : Memref sig .tc .vmem S2x8x64x512 .bf16) (.remote (Dev.tc n : Thread nD τ) (kslot1 : Memref sig .tc .vmem S2x8x64x512 .bf16) (.dma (dsem 0 1)) hsc) (.dma (dsem 1 1)) hsrc hdst hsem) k) Q) := by
  subst hn
  exact Rounds.wp_send_pointsTo 𝒱₀ ER (sched kT vT kC vC) (c : Thread nD τ) none (κ₁ := K (c, some (0, 1))) (κ₂ := K (peer 1 c, some (1, 1)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 0 1 0) (amount_d kT vT kC vC (peer 1 c) 1 1 0) O rfl (W := W)
    (by rw [payload_d]; exact BI.Entails.refl _)
    (by rw [payload_d]; exact Entails.of_eq (pointsTo_congr (hland fd)))

/-- Copy 1 of the value block: to peer 1, into its slot 1. The issuer lends one share of its block (back with the
    send semaphore) and owns the peer's slot outright; what lands makes the slot hold what the peer's landing buffer is
    to hold there (`hland`). -/
theorem wp_send_v1 (c n : Dev nD) (hn : n = peer 1 c)
    (hland : ∀ fd : Buf (Elt F) ((vslot1 : Memref sig .tc .vmem S2x8x64x512 .bf16).view.loc (peer 1 c : Thread nD τ)), ∀ i ∈ (vslot1 : Memref sig .tc .vmem S2x8x64x512 .bf16).view.set,
      (vslot1 : Memref sig .tc .vmem S2x8x64x512 .bf16).view.write (Elt F) fd ((vlocM : Memref sig .tc .vmem S2x8x64x512 .bf16).view.read (Elt F) (vT c)) Finset.univ i = vC (peer 1 c) i)
    {hsc : (vslot1 : Memref sig (Dev.tc n : Thread nD τ).2.kind .vmem S2x8x64x512 .bf16).view.ref.isScScratch = false}
    {hsrc : (vlocM : Memref sig .tc .vmem S2x8x64x512 .bf16).view.WordExact} {hdst : (vslot1 : Memref sig .tc .vmem S2x8x64x512 .bf16).view.WordExact}
    {hsem : DmaTarget.Typed .vmem (.dma (dsem 3 1)) (.remote (Dev.tc n : Thread nD τ) (vslot1 : Memref sig .tc .vmem S2x8x64x512 .bf16) (.dma (dsem 2 1)) hsc)}
    {α : Type} {Q : α → sProp 𝕄} {k : PUnit → Prog (TpuEff nD τ sig (Elt F) Λ₀ .tc) α}
    (fd : Buf (Elt F) ((vslot1 : Memref sig .tc .vmem S2x8x64x512 .bf16).view.loc (peer 1 c : Thread nD τ))) (O : CellTallies nD τ sig Unit) (W : Waits sig Unit) :
    iprop(cellInv ER (sched kT vT kC vC) (K (c, some (2, 1))) (dCell 2 1 c) ∗ cellInv ER (sched kT vT kC vC) (K (peer 1 c, some (3, 1))) (dCell 3 1 (peer 1 c))
        ∗ ((vlocM : Memref sig .tc .vmem S2x8x64x512 .bf16).view.loc (c : Thread nD τ) ↦[(vlocM : Memref sig .tc .vmem S2x8x64x512 .bf16).view.set]{sendShare 1} vT c)
        ∗ ((vslot1 : Memref sig .tc .vmem S2x8x64x512 .bf16).view.loc (peer 1 c : Thread nD τ) ↦[(vslot1 : Memref sig .tc .vmem S2x8x64x512 .bf16).view.set]{fullShare} fd)
        ∗ owes (c : Thread nD τ) (O + tallyAt (dCell 3 1 (peer 1 c)) () N) W
        ∗ dutyTok ER (dCell 2 1 c) 0 (0 : Fin 3) ∗ reached ER (dCell 2 1 c) 0
        ∗ dutyTok ER (dCell 3 1 (peer 1 c)) 0 (0 : Fin 3) ∗ reached ER (dCell 3 1 (peer 1 c)) 0)
      ⊢ iprop(((cred (tallyAt (dCell 2 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vlocM : Memref sig .tc .vmem S2x8x64x512 .bf16) (.remote (Dev.tc n : Thread nD τ) (vslot1 : Memref sig .tc .vmem S2x8x64x512 .bf16) (.dma (dsem 2 1)) hsc) (.dma (dsem 3 1)) hsrc hdst hsem) k) Q) := by
  subst hn
  exact Rounds.wp_send_pointsTo 𝒱₀ ER (sched kT vT kC vC) (c : Thread nD τ) none (κ₁ := K (c, some (2, 1))) (κ₂ := K (peer 1 c, some (3, 1)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 2 1 0) (amount_d kT vT kC vC (peer 1 c) 3 1 0) O rfl (W := W)
    (by rw [payload_d]; exact BI.Entails.refl _)
    (by rw [payload_d]; exact Entails.of_eq (pointsTo_congr (hland fd)))

/-- Copy 2 of the key block: to peer 2, into its slot 0. The issuer lends one share of its block (back with the
    send semaphore) and owns the peer's slot outright; what lands makes the slot hold what the peer's landing buffer is
    to hold there (`hland`). -/
theorem wp_send_k2 (c n : Dev nD) (hn : n = peer 2 c)
    (hland : ∀ fd : Buf (Elt F) ((kslot0 : Memref sig .tc .vmem S2x8x64x512 .bf16).view.loc (peer 2 c : Thread nD τ)), ∀ i ∈ (kslot0 : Memref sig .tc .vmem S2x8x64x512 .bf16).view.set,
      (kslot0 : Memref sig .tc .vmem S2x8x64x512 .bf16).view.write (Elt F) fd ((klocM : Memref sig .tc .vmem S2x8x64x512 .bf16).view.read (Elt F) (kT c)) Finset.univ i = kC (peer 2 c) i)
    {hsc : (kslot0 : Memref sig (Dev.tc n : Thread nD τ).2.kind .vmem S2x8x64x512 .bf16).view.ref.isScScratch = false}
    {hsrc : (klocM : Memref sig .tc .vmem S2x8x64x512 .bf16).view.WordExact} {hdst : (kslot0 : Memref sig .tc .vmem S2x8x64x512 .bf16).view.WordExact}
    {hsem : DmaTarget.Typed .vmem (.dma (dsem 1 0)) (.remote (Dev.tc n : Thread nD τ) (kslot0 : Memref sig .tc .vmem S2x8x64x512 .bf16) (.dma (dsem 0 2)) hsc)}
    {α : Type} {Q : α → sProp 𝕄} {k : PUnit → Prog (TpuEff nD τ sig (Elt F) Λ₀ .tc) α}
    (fd : Buf (Elt F) ((kslot0 : Memref sig .tc .vmem S2x8x64x512 .bf16).view.loc (peer 2 c : Thread nD τ))) (O : CellTallies nD τ sig Unit) (W : Waits sig Unit) :
    iprop(cellInv ER (sched kT vT kC vC) (K (c, some (0, 2))) (dCell 0 2 c) ∗ cellInv ER (sched kT vT kC vC) (K (peer 2 c, some (1, 0))) (dCell 1 0 (peer 2 c))
        ∗ ((klocM : Memref sig .tc .vmem S2x8x64x512 .bf16).view.loc (c : Thread nD τ) ↦[(klocM : Memref sig .tc .vmem S2x8x64x512 .bf16).view.set]{sendShare 2} kT c)
        ∗ ((kslot0 : Memref sig .tc .vmem S2x8x64x512 .bf16).view.loc (peer 2 c : Thread nD τ) ↦[(kslot0 : Memref sig .tc .vmem S2x8x64x512 .bf16).view.set]{fullShare} fd)
        ∗ owes (c : Thread nD τ) (O + tallyAt (dCell 1 0 (peer 2 c)) () N) W
        ∗ dutyTok ER (dCell 0 2 c) 0 (0 : Fin 3) ∗ reached ER (dCell 0 2 c) 0
        ∗ dutyTok ER (dCell 1 0 (peer 2 c)) 0 (0 : Fin 3) ∗ reached ER (dCell 1 0 (peer 2 c)) 0)
      ⊢ iprop(((cred (tallyAt (dCell 0 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (klocM : Memref sig .tc .vmem S2x8x64x512 .bf16) (.remote (Dev.tc n : Thread nD τ) (kslot0 : Memref sig .tc .vmem S2x8x64x512 .bf16) (.dma (dsem 0 2)) hsc) (.dma (dsem 1 0)) hsrc hdst hsem) k) Q) := by
  subst hn
  exact Rounds.wp_send_pointsTo 𝒱₀ ER (sched kT vT kC vC) (c : Thread nD τ) none (κ₁ := K (c, some (0, 2))) (κ₂ := K (peer 2 c, some (1, 0)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 0 2 0) (amount_d kT vT kC vC (peer 2 c) 1 0 0) O rfl (W := W)
    (by rw [payload_d]; exact BI.Entails.refl _)
    (by rw [payload_d]; exact Entails.of_eq (pointsTo_congr (hland fd)))

/-- Copy 2 of the value block: to peer 2, into its slot 0. The issuer lends one share of its block (back with the
    send semaphore) and owns the peer's slot outright; what lands makes the slot hold what the peer's landing buffer is
    to hold there (`hland`). -/
theorem wp_send_v2 (c n : Dev nD) (hn : n = peer 2 c)
    (hland : ∀ fd : Buf (Elt F) ((vslot0 : Memref sig .tc .vmem S2x8x64x512 .bf16).view.loc (peer 2 c : Thread nD τ)), ∀ i ∈ (vslot0 : Memref sig .tc .vmem S2x8x64x512 .bf16).view.set,
      (vslot0 : Memref sig .tc .vmem S2x8x64x512 .bf16).view.write (Elt F) fd ((vlocM : Memref sig .tc .vmem S2x8x64x512 .bf16).view.read (Elt F) (vT c)) Finset.univ i = vC (peer 2 c) i)
    {hsc : (vslot0 : Memref sig (Dev.tc n : Thread nD τ).2.kind .vmem S2x8x64x512 .bf16).view.ref.isScScratch = false}
    {hsrc : (vlocM : Memref sig .tc .vmem S2x8x64x512 .bf16).view.WordExact} {hdst : (vslot0 : Memref sig .tc .vmem S2x8x64x512 .bf16).view.WordExact}
    {hsem : DmaTarget.Typed .vmem (.dma (dsem 3 0)) (.remote (Dev.tc n : Thread nD τ) (vslot0 : Memref sig .tc .vmem S2x8x64x512 .bf16) (.dma (dsem 2 2)) hsc)}
    {α : Type} {Q : α → sProp 𝕄} {k : PUnit → Prog (TpuEff nD τ sig (Elt F) Λ₀ .tc) α}
    (fd : Buf (Elt F) ((vslot0 : Memref sig .tc .vmem S2x8x64x512 .bf16).view.loc (peer 2 c : Thread nD τ))) (O : CellTallies nD τ sig Unit) (W : Waits sig Unit) :
    iprop(cellInv ER (sched kT vT kC vC) (K (c, some (2, 2))) (dCell 2 2 c) ∗ cellInv ER (sched kT vT kC vC) (K (peer 2 c, some (3, 0))) (dCell 3 0 (peer 2 c))
        ∗ ((vlocM : Memref sig .tc .vmem S2x8x64x512 .bf16).view.loc (c : Thread nD τ) ↦[(vlocM : Memref sig .tc .vmem S2x8x64x512 .bf16).view.set]{sendShare 2} vT c)
        ∗ ((vslot0 : Memref sig .tc .vmem S2x8x64x512 .bf16).view.loc (peer 2 c : Thread nD τ) ↦[(vslot0 : Memref sig .tc .vmem S2x8x64x512 .bf16).view.set]{fullShare} fd)
        ∗ owes (c : Thread nD τ) (O + tallyAt (dCell 3 0 (peer 2 c)) () N) W
        ∗ dutyTok ER (dCell 2 2 c) 0 (0 : Fin 3) ∗ reached ER (dCell 2 2 c) 0
        ∗ dutyTok ER (dCell 3 0 (peer 2 c)) 0 (0 : Fin 3) ∗ reached ER (dCell 3 0 (peer 2 c)) 0)
      ⊢ iprop(((cred (tallyAt (dCell 2 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vlocM : Memref sig .tc .vmem S2x8x64x512 .bf16) (.remote (Dev.tc n : Thread nD τ) (vslot0 : Memref sig .tc .vmem S2x8x64x512 .bf16) (.dma (dsem 2 2)) hsc) (.dma (dsem 3 0)) hsrc hdst hsem) k) Q) := by
  subst hn
  exact Rounds.wp_send_pointsTo 𝒱₀ ER (sched kT vT kC vC) (c : Thread nD τ) none (κ₁ := K (c, some (2, 2))) (κ₂ := K (peer 2 c, some (3, 0)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 2 2 0) (amount_d kT vT kC vC (peer 2 c) 3 0 0) O rfl (W := W)
    (by rw [payload_d]; exact BI.Entails.refl _)
    (by rw [payload_d]; exact Entails.of_eq (pointsTo_congr (hland fd)))

end Cert.KernelIdeal.Sends

end
-- ==== Proof.LoopFacts.lean ====
/-
  What the protocol needs to know of the six counted loops, and of the landings.

  Each loop runs sixteen trips, one per (batch, head) tile, and only loads and stores: it touches no semaphore.
  So for the protocol a loop is a step from "these buffers hold this" to "these buffers hold that":
    loop 1 fills the transposed key and value blocks from the staged key and value blocks;
    loop 2 fills the scaled query block from the staged query block;
    loop 3 (the device's own keys) writes the two accumulators, reading the device's own transposed blocks
           through the share it kept while three copies read them;
    loops 4 and 5 add the contribution of slot 0 and of slot 1 of the landing buffers, of which the device then
           holds exactly that slot;
    loop 6 adds slot 2's, the landing buffers whole again, divides, and writes the staged result.
  The contents are named per device: kT, vT (transposed blocks), kC, vC (landing buffers once full), qT,
  a0 l0, a1 l1, a2 l2 (accumulators after passes 0, 1, 2) and outV (the result block).
  A landing writes a slot of the peer's buffer: on the slot's elements the buffer then holds what it is to hold in
  the end (six facts, one per copy).
-/
import proofs.«900413_g7700000000000414_dist_agattn_v7x_xyz2x4x4_z_b2_s512_h8_d64_bf16_1_alg».proof.Proof.BodyPre
import proofs.«900413_g7700000000000414_dist_agattn_v7x_xyz2x4x4_z_b2_s512_h8_d64_bf16_1_alg».proof.Proof.Gen.KernelIdeal.Loops

noncomputable section

namespace Cert.KernelIdeal.LoopFacts

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched Cert.KernelIdeal.Levels Cert.KernelIdeal.State

variable {F : FTy → Type} [FloatOps F]

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))

/-- The six landings: copy j of device `c` makes slot 2 - j of peer j hold, on its elements, that peer's final contents. -/
structure Landings : Prop where
  k0 : ∀ (c : Dev nD) (fd : Buf (Elt F) ((kslot2 : Memref sig .tc .vmem S2x8x64x512 .bf16).view.loc (peer 0 c : Thread nD τ))), ∀ i ∈ (kslot2 : Memref sig .tc .vmem S2x8x64x512 .bf16).view.set,
      (kslot2 : Memref sig .tc .vmem S2x8x64x512 .bf16).view.write (Elt F) fd ((klocM : Memref sig .tc .vmem S2x8x64x512 .bf16).view.read (Elt F) (kT c)) Finset.univ i = kC (peer 0 c) i
  v0 : ∀ (c : Dev nD) (fd : Buf (Elt F) ((vslot2 : Memref sig .tc .vmem S2x8x64x512 .bf16).view.loc (peer 0 c : Thread nD τ))), ∀ i ∈ (vslot2 : Memref sig .tc .vmem S2x8x64x512 .bf16).view.set,
      (vslot2 : Memref sig .tc .vmem S2x8x64x512 .bf16).view.write (Elt F) fd ((vlocM : Memref sig .tc .vmem S2x8x64x512 .bf16).view.read (Elt F) (vT c)) Finset.univ i = vC (peer 0 c) i
  k1 : ∀ (c : Dev nD) (fd : Buf (Elt F) ((kslot1 : Memref sig .tc .vmem S2x8x64x512 .bf16).view.loc (peer 1 c : Thread nD τ))), ∀ i ∈ (kslot1 : Memref sig .tc .vmem S2x8x64x512 .bf16).view.set,
      (kslot1 : Memref sig .tc .vmem S2x8x64x512 .bf16).view.write (Elt F) fd ((klocM : Memref sig .tc .vmem S2x8x64x512 .bf16).view.read (Elt F) (kT c)) Finset.univ i = kC (peer 1 c) i
  v1 : ∀ (c : Dev nD) (fd : Buf (Elt F) ((vslot1 : Memref sig .tc .vmem S2x8x64x512 .bf16).view.loc (peer 1 c : Thread nD τ))), ∀ i ∈ (vslot1 : Memref sig .tc .vmem S2x8x64x512 .bf16).view.set,
      (vslot1 : Memref sig .tc .vmem S2x8x64x512 .bf16).view.write (Elt F) fd ((vlocM : Memref sig .tc .vmem S2x8x64x512 .bf16).view.read (Elt F) (vT c)) Finset.univ i = vC (peer 1 c) i
  k2 : ∀ (c : Dev nD) (fd : Buf (Elt F) ((kslot0 : Memref sig .tc .vmem S2x8x64x512 .bf16).view.loc (peer 2 c : Thread nD τ))), ∀ i ∈ (kslot0 : Memref sig .tc .vmem S2x8x64x512 .bf16).view.set,
      (kslot0 : Memref sig .tc .vmem S2x8x64x512 .bf16).view.write (Elt F) fd ((klocM : Memref sig .tc .vmem S2x8x64x512 .bf16).view.read (Elt F) (kT c)) Finset.univ i = kC (peer 2 c) i
  v2 : ∀ (c : Dev nD) (fd : Buf (Elt F) ((vslot0 : Memref sig .tc .vmem S2x8x64x512 .bf16).view.loc (peer 2 c : Thread nD τ))), ∀ i ∈ (vslot0 : Memref sig .tc .vmem S2x8x64x512 .bf16).view.set,
      (vslot0 : Memref sig .tc .vmem S2x8x64x512 .bf16).view.write (Elt F) fd ((vlocM : Memref sig .tc .vmem S2x8x64x512 .bf16).view.read (Elt F) (vT c)) Finset.univ i = vC (peer 2 c) i

/-- The six loops, each as an invariant instance with its entry and exit. -/
structure Loops
    (qT : (c : Dev nD) → Buf (Elt F) ((c : Thread nD τ).loc cc0_scratch0))
    (a0 a1 a2 : (c : Dev nD) → Buf (Elt F) ((c : Thread nD τ).loc cc0_scratch5))
    (l0 l1 l2 : (c : Dev nD) → Buf (Elt F) ((c : Thread nD τ).loc cc0_scratch6)) where
  /-- Loop 1: its invariant instance (at the contents the written buffers hold on entry), that the resources at
      its entry are the invariant before trip 0, and what the invariant after the last trip gives back. -/
  L1 : ∀ (c : Dev nD) (d0 : Dev nD) (v2 v5 v8 c0 c1 : BitVec 32) (fk : Buf (Elt F) ((c : Thread nD τ).loc cc0_scratch1)) (fv : Buf (Elt F) ((c : Thread nD τ).loc cc0_scratch2)), Gen.LoopInvTy_k0_t1 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 c0 c1
  in1 : ∀ (c : Dev nD) (d0 : Dev nD) (v2 v5 v8 c0 c1 : BitVec 32) (fk : Buf (Elt F) ((c : Thread nD τ).loc cc0_scratch1)) (fv : Buf (Elt F) ((c : Thread nD τ).loc cc0_scratch2)),
    (iprop((((c : Thread nD τ).loc cc0_stg1_0) ↦{fullShare} Kst m ρ c)
        ∗ (((c : Thread nD τ).loc cc0_stg2_0) ↦{fullShare} Vst m ρ c)
        ∗ (((c : Thread nD τ).loc cc0_scratch1) ↦{fullShare} fk)
        ∗ (((c : Thread nD τ).loc cc0_scratch2) ↦{fullShare} fv)) : sProp (MT nD τ sig Unit (Elt F) ℕ UU ℕ))
      ⊢ (L1 c d0 v2 v5 v8 c0 c1 fk fv).inv 0 ()
  out1 : ∀ (c : Dev nD) (d0 : Dev nD) (v2 v5 v8 c0 c1 : BitVec 32) (fk : Buf (Elt F) ((c : Thread nD τ).loc cc0_scratch1)) (fv : Buf (Elt F) ((c : Thread nD τ).loc cc0_scratch2)),
    (L1 c d0 v2 v5 v8 c0 c1 fk fv).inv (Scf.trips k0_t1_loop.lb k0_t1_loop.ub k0_t1_loop.st) ()
      ⊢ (iprop((((c : Thread nD τ).loc cc0_stg1_0) ↦{fullShare} Kst m ρ c)
        ∗ (((c : Thread nD τ).loc cc0_stg2_0) ↦{fullShare} Vst m ρ c)
        ∗ (((c : Thread nD τ).loc cc0_scratch1) ↦{fullShare} kT c)
        ∗ (((c : Thread nD τ).loc cc0_scratch2) ↦{fullShare} vT c)) : sProp (MT nD τ sig Unit (Elt F) ℕ UU ℕ))
  /-- Loop 2: its invariant instance (at the contents the written buffers hold on entry), that the resources at
      its entry are the invariant before trip 0, and what the invariant after the last trip gives back. -/
  L2 : ∀ (c : Dev nD) (d0 : Dev nD) (v2 v5 v8 v148 : BitVec 32) (fq : Buf (Elt F) ((c : Thread nD τ).loc cc0_scratch0)), Gen.LoopInvTy_k0_t2 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v148
  in2 : ∀ (c : Dev nD) (d0 : Dev nD) (v2 v5 v8 v148 : BitVec 32) (fq : Buf (Elt F) ((c : Thread nD τ).loc cc0_scratch0)),
    (iprop((((c : Thread nD τ).loc cc0_stg0_0) ↦{fullShare} Qst m ρ c)
        ∗ (((c : Thread nD τ).loc cc0_scratch0) ↦{fullShare} fq)) : sProp (MT nD τ sig Unit (Elt F) ℕ UU ℕ))
      ⊢ (L2 c d0 v2 v5 v8 v148 fq).inv 0 ()
  out2 : ∀ (c : Dev nD) (d0 : Dev nD) (v2 v5 v8 v148 : BitVec 32) (fq : Buf (Elt F) ((c : Thread nD τ).loc cc0_scratch0)),
    (L2 c d0 v2 v5 v8 v148 fq).inv (Scf.trips k0_t2_loop.lb k0_t2_loop.ub k0_t2_loop.st) ()
      ⊢ (iprop((((c : Thread nD τ).loc cc0_stg0_0) ↦{fullShare} Qst m ρ c)
        ∗ (((c : Thread nD τ).loc cc0_scratch0) ↦{fullShare} qT c)) : sProp (MT nD τ sig Unit (Elt F) ℕ UU ℕ))
  /-- Loop 3: its invariant instance (at the contents the written buffers hold on entry), that the resources at
      its entry are the invariant before trip 0, and what the invariant after the last trip gives back. -/
  L3 : ∀ (c : Dev nD) (d0 : Dev nD) (v2 v5 v8 v148 : BitVec 32) (fa : Buf (Elt F) ((c : Thread nD τ).loc cc0_scratch5)) (fl : Buf (Elt F) ((c : Thread nD τ).loc cc0_scratch6)), Gen.LoopInvTy_k0_t3 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v148
  in3 : ∀ (c : Dev nD) (d0 : Dev nD) (v2 v5 v8 v148 : BitVec 32) (fa : Buf (Elt F) ((c : Thread nD τ).loc cc0_scratch5)) (fl : Buf (Elt F) ((c : Thread nD τ).loc cc0_scratch6)),
    (iprop((((c : Thread nD τ).loc cc0_scratch0) ↦{fullShare} qT c)
        ∗ (((c : Thread nD τ).loc cc0_scratch1) ↦{keptShare} kT c)
        ∗ (((c : Thread nD τ).loc cc0_scratch2) ↦{keptShare} vT c)
        ∗ (((c : Thread nD τ).loc cc0_scratch5) ↦{fullShare} fa)
        ∗ (((c : Thread nD τ).loc cc0_scratch6) ↦{fullShare} fl)) : sProp (MT nD τ sig Unit (Elt F) ℕ UU ℕ))
      ⊢ (L3 c d0 v2 v5 v8 v148 fa fl).inv 0 ()
  out3 : ∀ (c : Dev nD) (d0 : Dev nD) (v2 v5 v8 v148 : BitVec 32) (fa : Buf (Elt F) ((c : Thread nD τ).loc cc0_scratch5)) (fl : Buf (Elt F) ((c : Thread nD τ).loc cc0_scratch6)),
    (L3 c d0 v2 v5 v8 v148 fa fl).inv (Scf.trips k0_t3_loop.lb k0_t3_loop.ub k0_t3_loop.st) ()
      ⊢ (iprop((((c : Thread nD τ).loc cc0_scratch0) ↦{fullShare} qT c)
        ∗ (((c : Thread nD τ).loc cc0_scratch1) ↦{keptShare} kT c)
        ∗ (((c : Thread nD τ).loc cc0_scratch2) ↦{keptShare} vT c)
        ∗ (((c : Thread nD τ).loc cc0_scratch5) ↦{fullShare} a0 c)
        ∗ (((c : Thread nD τ).loc cc0_scratch6) ↦{fullShare} l0 c)) : sProp (MT nD τ sig Unit (Elt F) ℕ UU ℕ))
  /-- Loop 4: its invariant instance (at the contents the written buffers hold on entry), that the resources at
      its entry are the invariant before trip 0, and what the invariant after the last trip gives back. -/
  L4 : ∀ (c : Dev nD) (v2 v5 v8 : BitVec 32) , Gen.LoopInvTy_k0_t4 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8
  in4 : ∀ (c : Dev nD) (v2 v5 v8 : BitVec 32) ,
    (iprop((((c : Thread nD τ).loc cc0_scratch0) ↦{fullShare} qT c)
        ∗ (((c : Thread nD τ).loc cc0_scratch3) ↦[(kslot0 : Memref sig .tc .vmem S2x8x64x512 .bf16).view.set]{fullShare} kC c)
        ∗ (((c : Thread nD τ).loc cc0_scratch4) ↦[(vslot0 : Memref sig .tc .vmem S2x8x64x512 .bf16).view.set]{fullShare} vC c)
        ∗ (((c : Thread nD τ).loc cc0_scratch5) ↦{fullShare} a0 c)
        ∗ (((c : Thread nD τ).loc cc0_scratch6) ↦{fullShare} l0 c)) : sProp (MT nD τ sig Unit (Elt F) ℕ UU ℕ))
      ⊢ (L4 c v2 v5 v8 ).inv 0 ()
  out4 : ∀ (c : Dev nD) (v2 v5 v8 : BitVec 32) ,
    (L4 c v2 v5 v8 ).inv (Scf.trips k0_t4_loop.lb k0_t4_loop.ub k0_t4_loop.st) ()
      ⊢ (iprop((((c : Thread nD τ).loc cc0_scratch0) ↦{fullShare} qT c)
        ∗ (((c : Thread nD τ).loc cc0_scratch3) ↦[(kslot0 : Memref sig .tc .vmem S2x8x64x512 .bf16).view.set]{fullShare} kC c)
        ∗ (((c : Thread nD τ).loc cc0_scratch4) ↦[(vslot0 : Memref sig .tc .vmem S2x8x64x512 .bf16).view.set]{fullShare} vC c)
        ∗ (((c : Thread nD τ).loc cc0_scratch5) ↦{fullShare} a1 c)
        ∗ (((c : Thread nD τ).loc cc0_scratch6) ↦{fullShare} l1 c)) : sProp (MT nD τ sig Unit (Elt F) ℕ UU ℕ))
  /-- Loop 5: its invariant instance (at the contents the written buffers hold on entry), that the resources at
      its entry are the invariant before trip 0, and what the invariant after the last trip gives back. -/
  L5 : ∀ (c : Dev nD) (v2 v5 v8 v209 : BitVec 32) , Gen.LoopInvTy_k0_t5 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 v209
  in5 : ∀ (c : Dev nD) (v2 v5 v8 v209 : BitVec 32) ,
    (iprop((((c : Thread nD τ).loc cc0_scratch0) ↦{fullShare} qT c)
        ∗ (((c : Thread nD τ).loc cc0_scratch3) ↦[(kslot1 : Memref sig .tc .vmem S2x8x64x512 .bf16).view.set]{fullShare} kC c)
        ∗ (((c : Thread nD τ).loc cc0_scratch4) ↦[(vslot1 : Memref sig .tc .vmem S2x8x64x512 .bf16).view.set]{fullShare} vC c)
        ∗ (((c : Thread nD τ).loc cc0_scratch5) ↦{fullShare} a1 c)
        ∗ (((c : Thread nD τ).loc cc0_scratch6) ↦{fullShare} l1 c)) : sProp (MT nD τ sig Unit (Elt F) ℕ UU ℕ))
      ⊢ (L5 c v2 v5 v8 v209 ).inv 0 ()
  out5 : ∀ (c : Dev nD) (v2 v5 v8 v209 : BitVec 32) ,
    (L5 c v2 v5 v8 v209 ).inv (Scf.trips k0_t5_loop.lb k0_t5_loop.ub k0_t5_loop.st) ()
      ⊢ (iprop((((c : Thread nD τ).loc cc0_scratch0) ↦{fullShare} qT c)
        ∗ (((c : Thread nD τ).loc cc0_scratch3) ↦[(kslot1 : Memref sig .tc .vmem S2x8x64x512 .bf16).view.set]{fullShare} kC c)
        ∗ (((c : Thread nD τ).loc cc0_scratch4) ↦[(vslot1 : Memref sig .tc .vmem S2x8x64x512 .bf16).view.set]{fullShare} vC c)
        ∗ (((c : Thread nD τ).loc cc0_scratch5) ↦{fullShare} a2 c)
        ∗ (((c : Thread nD τ).loc cc0_scratch6) ↦{fullShare} l2 c)) : sProp (MT nD τ sig Unit (Elt F) ℕ UU ℕ))
  /-- Loop 6: its invariant instance (at the contents the written buffers hold on entry), that the resources at
      its entry are the invariant before trip 0, and what the invariant after the last trip gives back. -/
  L6 : ∀ (c : Dev nD)  (fo : Buf (Elt F) ((c : Thread nD τ).loc cc0_stg3_0)), Gen.LoopInvTy_k0_t6 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10
  in6 : ∀ (c : Dev nD)  (fo : Buf (Elt F) ((c : Thread nD τ).loc cc0_stg3_0)),
    (iprop((((c : Thread nD τ).loc cc0_scratch0) ↦{fullShare} qT c)
        ∗ (((c : Thread nD τ).loc cc0_scratch3) ↦{fullShare} kC c)
        ∗ (((c : Thread nD τ).loc cc0_scratch4) ↦{fullShare} vC c)
        ∗ (((c : Thread nD τ).loc cc0_scratch5) ↦{fullShare} a2 c)
        ∗ (((c : Thread nD τ).loc cc0_scratch6) ↦{fullShare} l2 c)
        ∗ (((c : Thread nD τ).loc cc0_stg3_0) ↦{fullShare} fo)) : sProp (MT nD τ sig Unit (Elt F) ℕ UU ℕ))
      ⊢ (L6 c  fo).inv 0 ()
  out6 : ∀ (c : Dev nD)  (fo : Buf (Elt F) ((c : Thread nD τ).loc cc0_stg3_0)),
    (L6 c  fo).inv (Scf.trips k0_t6_loop.lb k0_t6_loop.ub k0_t6_loop.st) ()
      ⊢ (iprop((((c : Thread nD τ).loc cc0_scratch0) ↦{fullShare} qT c)
        ∗ (((c : Thread nD τ).loc cc0_scratch3) ↦{fullShare} kC c)
        ∗ (((c : Thread nD τ).loc cc0_scratch4) ↦{fullShare} vC c)
        ∗ (((c : Thread nD τ).loc cc0_scratch5) ↦{fullShare} a2 c)
        ∗ (((c : Thread nD τ).loc cc0_scratch6) ↦{fullShare} l2 c)
        ∗ (((c : Thread nD τ).loc cc0_stg3_0) ↦{fullShare} outV c)) : sProp (MT nD τ sig Unit (Elt F) ℕ UU ℕ))

end Cert.KernelIdeal.LoopFacts

end
-- ==== Proof.Body.lean ====
/-
  One device's body, step by step.

  The device signals the barrier semaphore of its three peers, handing each the matching slot of its two landing
  buffers, and waits for three units on its own barrier while it still owes the six copies (allowed: a barrier
  sits below every receive semaphore). With the wait come the three slots its peers handed it. It fills its
  transposed key and value blocks (loop 1), cuts each into four shares, and issues the six copies, each lending
  one share and writing a peer's slot; after the last it owes nothing. It fills the scaled query block (loop 2)
  and runs the pass over its own keys through the shares it kept (loop 3). Each landing wait returns a slot
  holding what that peer sent; the passes over slots 0, 1 and 2 follow (loops 4, 5, 6), the last with the landing
  buffers whole again, storing the result. The six send waits return the lent shares; the two blocks are whole
  again, the twelve semaphores of the exchange close at zero, and the device hands back its scratch buffers, its
  inputs as they were and the result in the output staging buffer.
-/
import proofs.«900413_g7700000000000414_dist_agattn_v7x_xyz2x4x4_z_b2_s512_h8_d64_bf16_1_alg».proof.Proof.BodyPre
import proofs.«900413_g7700000000000414_dist_agattn_v7x_xyz2x4x4_z_b2_s512_h8_d64_bf16_1_alg».proof.Proof.Slots
import proofs.«900413_g7700000000000414_dist_agattn_v7x_xyz2x4x4_z_b2_s512_h8_d64_bf16_1_alg».proof.Proof.Shares
import proofs.«900413_g7700000000000414_dist_agattn_v7x_xyz2x4x4_z_b2_s512_h8_d64_bf16_1_alg».proof.Proof.Sends
import proofs.«900413_g7700000000000414_dist_agattn_v7x_xyz2x4x4_z_b2_s512_h8_d64_bf16_1_alg».proof.Proof.LoopFacts
import proofs.«900413_g7700000000000414_dist_agattn_v7x_xyz2x4x4_z_b2_s512_h8_d64_bf16_1_alg».proof.Proof.Gen.KernelIdeal.Points
import Idealize.ShloMosaic.Lib.Exec
import proofs.«900413_g7700000000000414_dist_agattn_v7x_xyz2x4x4_z_b2_s512_h8_d64_bf16_1_alg».proof.Proof.Gen.KernelIdeal.Skeleton
import Idealize.ShloMosaic.Lib.Pipeline.Launch
import Idealize.ShloMosaic.Lib.Pipeline.Kit
import Idealize.ShloMosaic.Lib.Tactic

noncomputable section

namespace Cert.KernelIdeal.Body

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched Cert.KernelIdeal.Levels Cert.KernelIdeal.State Cert.KernelIdeal.BodyPre Cert.KernelIdeal.Slots Cert.KernelIdeal.Shares Cert.KernelIdeal.Sends

variable {F : FTy → Type} [FloatOps F]

local notation "𝕄" => MT nD τ sig Unit (Elt F) ℕ UU ℕ

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))
variable (K : Dev nD × CK → ℕ)
variable (qT : (c : Dev nD) → Buf (Elt F) ((c : Thread nD τ).loc cc0_scratch0))
variable (a0 a1 a2 : (c : Dev nD) → Buf (Elt F) ((c : Thread nD τ).loc cc0_scratch5))
variable (l0 l1 l2 : (c : Dev nD) → Buf (Elt F) ((c : Thread nD τ).loc cc0_scratch6))

theorem back0 : back 0 = 2 := rfl
theorem back1 : back 1 = 1 := rfl
theorem back2 : back 2 = 0 := rfl

omit [FloatOps F] in
/-- The kernel's own twelve semaphores at zero, one by one. -/
theorem ownSems_chain (c : Dev nD) :
    (Pipeline.ownSems0 (Ix := Unit) (Name := ℕ) (U := UU) (Lvl := ℕ) (Val := Elt F) (τ := τ) osem c : sProp 𝕄)
      = iprop(semVal (dCell 0 0 c) 0 ∗ semVal (dCell 0 1 c) 0 ∗ semVal (dCell 0 2 c) 0 ∗ semVal (dCell 1 0 c) 0 ∗ semVal (dCell 1 1 c) 0 ∗ semVal (dCell 1 2 c) 0 ∗ semVal (dCell 2 0 c) 0 ∗ semVal (dCell 2 1 c) 0 ∗ semVal (dCell 2 2 c) 0 ∗ semVal (dCell 3 0 c) 0 ∗ semVal (dCell 3 1 c) 0 ∗ semVal (dCell 3 2 c) 0) := by
  rw [Pipeline.ownSems0_eq_of_list c osem [((0 : Fin 4), (0 : Fin 3)), ((0 : Fin 4), (1 : Fin 3)), ((0 : Fin 4), (2 : Fin 3)), ((1 : Fin 4), (0 : Fin 3)), ((1 : Fin 4), (1 : Fin 3)), ((1 : Fin 4), (2 : Fin 3)), ((2 : Fin 4), (0 : Fin 3)), ((2 : Fin 4), (1 : Fin 3)), ((2 : Fin 4), (2 : Fin 3)), ((3 : Fin 4), (0 : Fin 3)), ((3 : Fin 4), (1 : Fin 3)), ((3 : Fin 4), (2 : Fin 3))] (by decide) (by decide)]
  simp only [bigSepL_cons_cons, bigSepL_singleton]
  rfl

set_option maxHeartbeats 3200000 in
theorem sound_body (hland : LoopFacts.Landings kT vT kC vC) (LF : LoopFacts.Loops m ρ kT vT kC vC outV qT a0 a1 a2 l0 l1 l2) (c : Dev nD) (Kt : PUnit → sProp 𝕄) :
    iprop(bodyPre m ρ kT vT kC vC outV K c ∗ (bodyPost m ρ kT vT kC vC outV c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Kt := by
  simp only [cc0_body_eq_skeleton]; unfold cc0_body_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part6_skel k0_part7_skel k0_part8_skel k0_part9_skel k0_part10_skel k0_part11_skel k0_part12_skel k0_part13_skel k0_part14_skel
  simp only [semSignalWord, semWaitWord, Prog.lift, Prog.bind_op, Prog.bind_ret, Prog.pure_eq_ret, wp_deviceId, bind_assoc]
  unfold bodyPre BodyPre.invs BodyPre.reach BodyPre.ats BodyPre.ptoks State.credits BodyPre.scr
  iintro ⟨⟨⟨⟨#HIbar, #HI00, #HI01, #HI02, #HI10, #HI11, #HI12, #HI20, #HI21, #HI22, #HI30, #HI31, #HI32, #HIbP0, #HIkP0, #HIvP0, #HIbP1, #HIkP1, #HIvP1, #HIbP2, #HIkP2, #HIvP2⟩, ⟨#HrbP0, #HrkP0, #HrvP0, #HrbP1, #HrkP1, #HrvP1, #HrbP2, #HrkP2, #HrvP2, #Hr00, #Hr01, #Hr02, #Hr10, #Hr11, #Hr12, #Hr20, #Hr21, #Hr22, #Hr30, #Hr31, #Hr32⟩, #Hlev⟩,
    ⟨Hatbar, Hat00, Hat01, Hat02, Hat10, Hat11, Hat12, Hat20, Hat21, Hat22, Hat30, Hat31, Hat32⟩, ⟨HtbP0, HtkP0, HtvP0, Htks0, Htvs0, HtbP1, HtkP1, HtvP1, Htks1, Htvs1, HtbP2, HtkP2, HtvP2, Htks2, Htvs2⟩,
    ⟨Hcbar, ⟨Hck0, Hck1, Hck2⟩, ⟨Hcv0, Hcv1, Hcv2⟩⟩,
    ⟨⟨%fqt, Hqt⟩, ⟨%fkl, Hkl⟩, ⟨%fvl, Hvl⟩, ⟨%fk, Hkc⟩, ⟨%fv, Hvc⟩, ⟨%fac, Hac⟩, ⟨%fls, Hls⟩⟩,
    Ho, ⟨%dq, %gq, %hgq, Hq⟩, ⟨%dk, %gk, %hgk, Hkst⟩, ⟨%dv, %gv, %hgv, Hvst⟩, ⟨%do_, %go, %hgo, Hout⟩⟩, Hk⟩
  unfold Dat.owesAt Pipeline.owesWithin
  icases Ho with ⟨%W, %hW, HO⟩
  rw [show (dats m ρ kT vT kC vC outV 0 c).owed t₀.castSucc = O₀ c from rfl]
  unfold O₀
  simp only [dev1_eq c, dev2_eq c, dev3_eq c]
  -- the two landing buffers, slot by slot
  ihave Hks := (kcom_split c fk) $$ Hkc
  icases Hks with ⟨Hk0, Hk1, Hk2⟩
  ihave Hvs := (vcom_split c fv) $$ Hvc
  icases Hvs with ⟨Hv0, Hv1, Hv2⟩
  -- signal 0: to peer 0; hands it slot 0 of both landing buffers
  iapply (Rounds.wp_signal 𝒱₀ ER (sched kT vT kC vC) (c : Thread nD τ) none (dst := (peer 0 c : Thread nD τ)) (κ := K (peer 0 c, none))
      (d := (0 : Fin 3)) (by rw [duties_bar]; exact Finset.mem_univ _) ((amount_bar kT vT kC vC (peer 0 c) 0).trans (by decide)) () _ rfl)
    $$ [HO HtbP0 Hk0 Hv0]
  · isplitr; · iexact HIbP0
    isplitl [HO]; · iexact HO
    isplitl [HtbP0]; · iexact HtbP0
    isplitl [Hk0 Hv0]
    · rw [payload_bar]; unfold barPay slotAny; rw [peer_back_peer]
      isplitl [Hk0]; · iexists fk; iexact Hk0
      isplitl [Hv0]; · iexists fv; iexact Hv0
      isplitr; · iexact Hr10
      iexact Hr30
    · iexact HrbP0
  iintro HO
  -- signal 1: to peer 1; hands it slot 1 of both landing buffers
  iapply (Rounds.wp_signal 𝒱₀ ER (sched kT vT kC vC) (c : Thread nD τ) none (dst := (peer 1 c : Thread nD τ)) (κ := K (peer 1 c, none))
      (d := (1 : Fin 3)) (by rw [duties_bar]; exact Finset.mem_univ _) ((amount_bar kT vT kC vC (peer 1 c) 1).trans (by decide)) () _ rfl)
    $$ [HO HtbP1 Hk1 Hv1]
  · isplitr; · iexact HIbP1
    isplitl [HO]; · iexact HO
    isplitl [HtbP1]; · iexact HtbP1
    isplitl [Hk1 Hv1]
    · rw [payload_bar]; unfold barPay slotAny; rw [peer_back_peer]
      isplitl [Hk1]; · iexists fk; iexact Hk1
      isplitl [Hv1]; · iexists fv; iexact Hv1
      isplitr; · iexact Hr11
      iexact Hr31
    · iexact HrbP1
  iintro HO
  -- signal 2: to peer 2; hands it slot 2 of both landing buffers
  iapply (Rounds.wp_signal 𝒱₀ ER (sched kT vT kC vC) (c : Thread nD τ) none (dst := (peer 2 c : Thread nD τ)) (κ := K (peer 2 c, none))
      (d := (2 : Fin 3)) (by rw [duties_bar]; exact Finset.mem_univ _) ((amount_bar kT vT kC vC (peer 2 c) 2).trans (by decide)) () _ rfl)
    $$ [HO HtbP2 Hk2 Hv2]
  · isplitr; · iexact HIbP2
    isplitl [HO]; · iexact HO
    isplitl [HtbP2]; · iexact HtbP2
    isplitl [Hk2 Hv2]
    · rw [payload_bar]; unfold barPay slotAny; rw [peer_back_peer]
      isplitl [Hk2]; · iexists fk; iexact Hk2
      isplitl [Hv2]; · iexists fv; iexact Hv2
      isplitr; · iexact Hr12
      iexact Hr32
    · iexact HrbP2
  iintro HO
  -- the wait for three units on its own barrier, still owing the six copies: the peers' slots come with it
  iapply (Rounds.wp_wait_rest_token 𝒱₀ ER (sched kT vT kC vC) (c : Thread nD τ) none (κ := K (c, none))
      (wpE_semWait_eq 𝒱₀ (c : Thread nD τ) none Set.univ) (Set.mem_univ _) () (O := Osend c) (W := W) (R := 0) (m := 0) (T := ∅)
      (by rw [expect_bar]; decide)) $$ [Hcbar HO Hatbar]
  · isplitr; · iexact HIbar
    isplitl [Hcbar]; · iexact Hcbar
    isplitl [HO]; · iexact HO
    isplitr; · iapply (mayWait_bar c); iexact Hlev
    iexact Hatbar
  iintro ⟨HO, Hatbar, -, Hpay⟩
  ihave Hp := (Entails.of_eq (rest_bar kT vT kC vC c)) $$ Hpay
  unfold barPay slotAny
  icases Hp with ⟨⟨⟨%fkp2, HkP2⟩, ⟨%fvp2, HvP2⟩, #HrkP2', #HrvP2'⟩, ⟨⟨%fkp1, HkP1⟩, ⟨%fvp1, HvP1⟩, #HrkP1', #HrvP1'⟩, ⟨%fkp0, HkP0⟩, ⟨%fvp0, HvP0⟩, #HrkP0', #HrvP0'⟩
  -- what the three staged inputs hold: this device's blocks
  have hq : gq = Qst m ρ c := by rw [hgq]; unfold Dat.before; rw [if_pos (fetch0_0 t₀)]; rfl
  have hk : gk = Kst m ρ c := by rw [hgk]; unfold Dat.before; rw [if_pos (fetch0_1 t₀)]; rfl
  have hv : gv = Vst m ρ c := by rw [hgv]; unfold Dat.before; rw [if_pos (fetch0_2 t₀)]; rfl
  subst hq; subst hk; subst hv
  unfold Osend
  simp only [back0, back1, back2, kslot, vslot]
  -- loop 1: the transposed key and value blocks
  iapply (exec_loop Idealize.ShloMosaic.frame (wpE (defs₀ (F := F)) 𝒱₀ (c : Thread nD τ) none) Set.univ _ _ _ k0_t1_ok () _ (LF.L1 c _ _ _ _ _ _ fkl fvl)) $$ [Hkst Hvst Hkl Hvl]
  · iapply (LF.in1 c _ _ _ _ _ _ fkl fvl)
    isplitl [Hkst]; · iexact Hkst
    isplitl [Hvst]; · iexact Hvst
    isplitl [Hkl]; · iexact Hkl
    iexact Hvl
  iintro %acc1 Hinv
  ihave Hp := (LF.out1 c _ _ _ _ _ _ fkl fvl) $$ Hinv
  icases Hp with ⟨Hkst, Hvst, Hkl, Hvl⟩
  -- each block in four shares
  ihave Hs := (kloc_split c (kT c)) $$ Hkl
  icases Hs with ⟨Hkl0, Hkl1, Hkl2, Hklk⟩
  ihave Hs := (vloc_split c (vT c)) $$ Hvl
  icases Hs with ⟨Hvl0, Hvl1, Hvl2, Hvlk⟩
  -- copy 0 of the key block, to peer 0's slot 2
  iapply (wp_send_k0 kT vT kC vC K c _ (dev4_eq c) (hland.k0 c) fkp0 _ _) $$ [HkP0 Hkl0 HO Htks0 HtkP0]
  · isplitr; · iexact HI00
    isplitr; · iexact HIkP0
    isplitl [Hkl0]; · iexact Hkl0
    isplitl [HkP0]; · iexact HkP0
    isplitl [HO]; · iexact HO
    isplitl [Htks0]; · iexact Htks0
    isplitr; · iexact Hr00
    isplitl [HtkP0]; · iexact HtkP0
    iexact HrkP0
  iintro ⟨Hcks0, HO⟩
  -- copy 0 of the value block, to peer 0's slot 2
  iapply (wp_send_v0 kT vT kC vC K c _ (dev5_eq c) (hland.v0 c) fvp0 _ _) $$ [HvP0 Hvl0 HO Htvs0 HtvP0]
  · isplitr; · iexact HI20
    isplitr; · iexact HIvP0
    isplitl [Hvl0]; · iexact Hvl0
    isplitl [HvP0]; · iexact HvP0
    isplitl [HO]; · iexact HO
    isplitl [Htvs0]; · iexact Htvs0
    isplitr; · iexact Hr20
    isplitl [HtvP0]; · iexact HtvP0
    iexact HrvP0
  iintro ⟨Hcvs0, HO⟩
  -- copy 1 of the key block, to peer 1's slot 1
  iapply (wp_send_k1 kT vT kC vC K c _ (dev6_eq c) (hland.k1 c) fkp1 _ _) $$ [HkP1 Hkl1 HO Htks1 HtkP1]
  · isplitr; · iexact HI01
    isplitr; · iexact HIkP1
    isplitl [Hkl1]; · iexact Hkl1
    isplitl [HkP1]; · iexact HkP1
    isplitl [HO]; · iexact HO
    isplitl [Htks1]; · iexact Htks1
    isplitr; · iexact Hr01
    isplitl [HtkP1]; · iexact HtkP1
    iexact HrkP1
  iintro ⟨Hcks1, HO⟩
  -- copy 1 of the value block, to peer 1's slot 1
  iapply (wp_send_v1 kT vT kC vC K c _ (dev7_eq c) (hland.v1 c) fvp1 _ _) $$ [HvP1 Hvl1 HO Htvs1 HtvP1]
  · isplitr; · iexact HI21
    isplitr; · iexact HIvP1
    isplitl [Hvl1]; · iexact Hvl1
    isplitl [HvP1]; · iexact HvP1
    isplitl [HO]; · iexact HO
    isplitl [Htvs1]; · iexact Htvs1
    isplitr; · iexact Hr21
    isplitl [HtvP1]; · iexact HtvP1
    iexact HrvP1
  iintro ⟨Hcvs1, HO⟩
  -- copy 2 of the key block, to peer 2's slot 0
  iapply (wp_send_k2 kT vT kC vC K c _ (dev8_eq c) (hland.k2 c) fkp2 _ _) $$ [HkP2 Hkl2 HO Htks2 HtkP2]
  · isplitr; · iexact HI02
    isplitr; · iexact HIkP2
    isplitl [Hkl2]; · iexact Hkl2
    isplitl [HkP2]; · iexact HkP2
    isplitl [HO]; · iexact HO
    isplitl [Htks2]; · iexact Htks2
    isplitr; · iexact Hr02
    isplitl [HtkP2]; · iexact HtkP2
    iexact HrkP2
  iintro ⟨Hcks2, HO⟩
  -- copy 2 of the value block, to peer 2's slot 0
  rw [← zero_add (tV c 2)]
  iapply (wp_send_v2 kT vT kC vC K c _ (dev9_eq c) (hland.v2 c) fvp2 0 _) $$ [HvP2 Hvl2 HO Htvs2 HtvP2]
  · isplitr; · iexact HI22
    isplitr; · iexact HIvP2
    isplitl [Hvl2]; · iexact Hvl2
    isplitl [HvP2]; · iexact HvP2
    isplitl [HO]; · iexact HO
    isplitl [Htvs2]; · iexact Htvs2
    isplitr; · iexact Hr22
    isplitl [HtvP2]; · iexact HtvP2
    iexact HrvP2
  iintro ⟨Hcvs2, HO⟩
  -- loop 2
  iapply (exec_loop Idealize.ShloMosaic.frame (wpE (defs₀ (F := F)) 𝒱₀ (c : Thread nD τ) none) Set.univ _ _ _ k0_t2_ok () _ (LF.L2 c _ _ _ _ _ fqt)) $$ [Hq Hqt]
  · iapply (LF.in2 c _ _ _ _ _ fqt)
    isplitl [Hq]; · iexact Hq
    iexact Hqt
  iintro %acc2 Hinv
  ihave Hp := (LF.out2 c _ _ _ _ _ fqt) $$ Hinv
  icases Hp with ⟨Hq, Hqt⟩
  -- loop 3
  iapply (exec_loop Idealize.ShloMosaic.frame (wpE (defs₀ (F := F)) 𝒱₀ (c : Thread nD τ) none) Set.univ _ _ _ k0_t3_ok () _ (LF.L3 c _ _ _ _ _ fac fls)) $$ [Hqt Hklk Hvlk Hac Hls]
  · iapply (LF.in3 c _ _ _ _ _ fac fls)
    isplitl [Hqt]; · iexact Hqt
    isplitl [Hklk]; · iexact Hklk
    isplitl [Hvlk]; · iexact Hvlk
    isplitl [Hac]; · iexact Hac
    iexact Hls
  iintro %acc3 Hinv
  ihave Hp := (LF.out3 c _ _ _ _ _ fac fls) $$ Hinv
  icases Hp with ⟨Hqt, Hklk, Hvlk, Hac, Hls⟩
  -- wait: slot 0 of the key landing buffer has landed
  iapply (Rounds.wp_wait_rest_token 𝒱₀ ER (sched kT vT kC vC) (c : Thread nD τ) none (sm := .dma (dsem 1 0)) (κ := K (c, some (1, 0)))
      (wpE_waitDma2_eq 𝒱₀ (c : Thread nD τ) none Set.univ) (Set.mem_univ _) () (O := 0) (R := 0) (m := 0) (T := ∅)
      (by rw [Nat.zero_add, expect_d] <;> rfl)) $$ [Hck0 HO Hat10]
  · isplitr; · iexact HI10
    isplitl [Hck0]; · iexact Hck0
    isplitl [HO]; · iexact HO
    isplitr; · rw [MayWait_zero]; iempintro
    iexact Hat10
  iintro ⟨HO, Hat10, -, Hpay⟩
  ihave Hks0 := (Entails.of_eq (show _ = (((c : Thread nD τ).loc cc0_scratch3) ↦[(kslot0 : Memref sig .tc .vmem S2x8x64x512 .bf16).view.set]{fullShare} kC c : sProp 𝕄) from rest_d kT vT kC vC c 1 0)) $$ Hpay
  -- wait: slot 0 of the value landing buffer has landed
  iapply (Rounds.wp_wait_rest_token 𝒱₀ ER (sched kT vT kC vC) (c : Thread nD τ) none (sm := .dma (dsem 3 0)) (κ := K (c, some (3, 0)))
      (wpE_waitDma2_eq 𝒱₀ (c : Thread nD τ) none Set.univ) (Set.mem_univ _) () (O := 0) (R := 0) (m := 0) (T := ∅)
      (by rw [Nat.zero_add, expect_d] <;> rfl)) $$ [Hcv0 HO Hat30]
  · isplitr; · iexact HI30
    isplitl [Hcv0]; · iexact Hcv0
    isplitl [HO]; · iexact HO
    isplitr; · rw [MayWait_zero]; iempintro
    iexact Hat30
  iintro ⟨HO, Hat30, -, Hpay⟩
  ihave Hvs0 := (Entails.of_eq (show _ = (((c : Thread nD τ).loc cc0_scratch4) ↦[(vslot0 : Memref sig .tc .vmem S2x8x64x512 .bf16).view.set]{fullShare} vC c : sProp 𝕄) from rest_d kT vT kC vC c 3 0)) $$ Hpay
  -- loop 4
  iapply (exec_loop Idealize.ShloMosaic.frame (wpE (defs₀ (F := F)) 𝒱₀ (c : Thread nD τ) none) Set.univ _ _ _ k0_t4_ok () _ (LF.L4 c _ _ _)) $$ [Hqt Hks0 Hvs0 Hac Hls]
  · iapply (LF.in4 c _ _ _)
    isplitl [Hqt]; · iexact Hqt
    isplitl [Hks0]; · iexact Hks0
    isplitl [Hvs0]; · iexact Hvs0
    isplitl [Hac]; · iexact Hac
    iexact Hls
  iintro %acc4 Hinv
  ihave Hp := (LF.out4 c _ _ _) $$ Hinv
  icases Hp with ⟨Hqt, Hks0, Hvs0, Hac, Hls⟩
  -- wait: slot 1 of the key landing buffer
  iapply (Rounds.wp_wait_rest_token 𝒱₀ ER (sched kT vT kC vC) (c : Thread nD τ) none (sm := .dma (dsem 1 1)) (κ := K (c, some (1, 1)))
      (wpE_waitDma2_eq 𝒱₀ (c : Thread nD τ) none Set.univ) (Set.mem_univ _) () (O := 0) (R := 0) (m := 0) (T := ∅)
      (by rw [Nat.zero_add, expect_d] <;> rfl)) $$ [Hck1 HO Hat11]
  · isplitr; · iexact HI11
    isplitl [Hck1]; · iexact Hck1
    isplitl [HO]; · iexact HO
    isplitr; · rw [MayWait_zero]; iempintro
    iexact Hat11
  iintro ⟨HO, Hat11, -, Hpay⟩
  ihave Hks1 := (Entails.of_eq (show _ = (((c : Thread nD τ).loc cc0_scratch3) ↦[(kslot1 : Memref sig .tc .vmem S2x8x64x512 .bf16).view.set]{fullShare} kC c : sProp 𝕄) from rest_d kT vT kC vC c 1 1)) $$ Hpay
  -- wait: slot 1 of the value landing buffer
  iapply (Rounds.wp_wait_rest_token 𝒱₀ ER (sched kT vT kC vC) (c : Thread nD τ) none (sm := .dma (dsem 3 1)) (κ := K (c, some (3, 1)))
      (wpE_waitDma2_eq 𝒱₀ (c : Thread nD τ) none Set.univ) (Set.mem_univ _) () (O := 0) (R := 0) (m := 0) (T := ∅)
      (by rw [Nat.zero_add, expect_d] <;> rfl)) $$ [Hcv1 HO Hat31]
  · isplitr; · iexact HI31
    isplitl [Hcv1]; · iexact Hcv1
    isplitl [HO]; · iexact HO
    isplitr; · rw [MayWait_zero]; iempintro
    iexact Hat31
  iintro ⟨HO, Hat31, -, Hpay⟩
  ihave Hvs1 := (Entails.of_eq (show _ = (((c : Thread nD τ).loc cc0_scratch4) ↦[(vslot1 : Memref sig .tc .vmem S2x8x64x512 .bf16).view.set]{fullShare} vC c : sProp 𝕄) from rest_d kT vT kC vC c 3 1)) $$ Hpay
  -- loop 5
  iapply (exec_loop Idealize.ShloMosaic.frame (wpE (defs₀ (F := F)) 𝒱₀ (c : Thread nD τ) none) Set.univ _ _ _ k0_t5_ok () _ (LF.L5 c _ _ _ _)) $$ [Hqt Hks1 Hvs1 Hac Hls]
  · iapply (LF.in5 c _ _ _ _)
    isplitl [Hqt]; · iexact Hqt
    isplitl [Hks1]; · iexact Hks1
    isplitl [Hvs1]; · iexact Hvs1
    isplitl [Hac]; · iexact Hac
    iexact Hls
  iintro %acc5 Hinv
  ihave Hp := (LF.out5 c _ _ _ _) $$ Hinv
  icases Hp with ⟨Hqt, Hks1, Hvs1, Hac, Hls⟩
  -- wait: slot 2 of the key landing buffer
  iapply (Rounds.wp_wait_rest_token 𝒱₀ ER (sched kT vT kC vC) (c : Thread nD τ) none (sm := .dma (dsem 1 2)) (κ := K (c, some (1, 2)))
      (wpE_waitDma2_eq 𝒱₀ (c : Thread nD τ) none Set.univ) (Set.mem_univ _) () (O := 0) (R := 0) (m := 0) (T := ∅)
      (by rw [Nat.zero_add, expect_d] <;> rfl)) $$ [Hck2 HO Hat12]
  · isplitr; · iexact HI12
    isplitl [Hck2]; · iexact Hck2
    isplitl [HO]; · iexact HO
    isplitr; · rw [MayWait_zero]; iempintro
    iexact Hat12
  iintro ⟨HO, Hat12, -, Hpay⟩
  ihave Hks2 := (Entails.of_eq (show _ = (((c : Thread nD τ).loc cc0_scratch3) ↦[(kslot2 : Memref sig .tc .vmem S2x8x64x512 .bf16).view.set]{fullShare} kC c : sProp 𝕄) from rest_d kT vT kC vC c 1 2)) $$ Hpay
  -- wait: slot 2 of the value landing buffer
  iapply (Rounds.wp_wait_rest_token 𝒱₀ ER (sched kT vT kC vC) (c : Thread nD τ) none (sm := .dma (dsem 3 2)) (κ := K (c, some (3, 2)))
      (wpE_waitDma2_eq 𝒱₀ (c : Thread nD τ) none Set.univ) (Set.mem_univ _) () (O := 0) (R := 0) (m := 0) (T := ∅)
      (by rw [Nat.zero_add, expect_d] <;> rfl)) $$ [Hcv2 HO Hat32]
  · isplitr; · iexact HI32
    isplitl [Hcv2]; · iexact Hcv2
    isplitl [HO]; · iexact HO
    isplitr; · rw [MayWait_zero]; iempintro
    iexact Hat32
  iintro ⟨HO, Hat32, -, Hpay⟩
  ihave Hvs2 := (Entails.of_eq (show _ = (((c : Thread nD τ).loc cc0_scratch4) ↦[(vslot2 : Memref sig .tc .vmem S2x8x64x512 .bf16).view.set]{fullShare} vC c : sProp 𝕄) from rest_d kT vT kC vC c 3 2)) $$ Hpay
  -- the landing buffers whole again
  ihave Hkc := (kcom_join c (kC c)) $$ [Hks0 Hks1 Hks2]
  · isplitl [Hks0]; · iexact Hks0
    isplitl [Hks1]; · iexact Hks1
    iexact Hks2
  ihave Hvc := (vcom_join c (vC c)) $$ [Hvs0 Hvs1 Hvs2]
  · isplitl [Hvs0]; · iexact Hvs0
    isplitl [Hvs1]; · iexact Hvs1
    iexact Hvs2
  -- loop 6
  iapply (exec_loop Idealize.ShloMosaic.frame (wpE (defs₀ (F := F)) 𝒱₀ (c : Thread nD τ) none) Set.univ _ _ _ k0_t6_ok () _ (LF.L6 c go)) $$ [Hqt Hkc Hvc Hac Hls Hout]
  · iapply (LF.in6 c go)
    isplitl [Hqt]; · iexact Hqt
    isplitl [Hkc]; · iexact Hkc
    isplitl [Hvc]; · iexact Hvc
    isplitl [Hac]; · iexact Hac
    isplitl [Hls]; · iexact Hls
    iexact Hout
  iintro %acc6 Hinv
  ihave Hp := (LF.out6 c go) $$ Hinv
  icases Hp with ⟨Hqt, Hkc, Hvc, Hac, Hls, Hout⟩
  -- wait: copy 0 of the key block has been read
  iapply (Rounds.wp_wait_rest_token 𝒱₀ ER (sched kT vT kC vC) (c : Thread nD τ) none (sm := .dma (dsem 0 0)) (κ := K (c, some (0, 0)))
      (wpE_waitDma2_eq 𝒱₀ (c : Thread nD τ) none Set.univ) (Set.mem_univ _) () (O := 0) (R := 0) (m := 0) (T := ∅)
      (by rw [Nat.zero_add, expect_d] <;> rfl)) $$ [Hcks0 HO Hat00]
  · isplitr; · iexact HI00
    isplitl [Hcks0]; · iexact Hcks0
    isplitl [HO]; · iexact HO
    isplitr; · rw [MayWait_zero]; iempintro
    iexact Hat00
  iintro ⟨HO, Hat00, -, Hpay⟩
  ihave Hkl0 := (Entails.of_eq (show _ = (((klocM : Memref sig .tc .vmem S2x8x64x512 .bf16).view.loc (c : Thread nD τ)) ↦[(klocM : Memref sig .tc .vmem S2x8x64x512 .bf16).view.set]{sendShare 0} kT c : sProp 𝕄) from rest_d kT vT kC vC c 0 0)) $$ Hpay
  -- wait: copy 0 of the value block has been read
  iapply (Rounds.wp_wait_rest_token 𝒱₀ ER (sched kT vT kC vC) (c : Thread nD τ) none (sm := .dma (dsem 2 0)) (κ := K (c, some (2, 0)))
      (wpE_waitDma2_eq 𝒱₀ (c : Thread nD τ) none Set.univ) (Set.mem_univ _) () (O := 0) (R := 0) (m := 0) (T := ∅)
      (by rw [Nat.zero_add, expect_d] <;> rfl)) $$ [Hcvs0 HO Hat20]
  · isplitr; · iexact HI20
    isplitl [Hcvs0]; · iexact Hcvs0
    isplitl [HO]; · iexact HO
    isplitr; · rw [MayWait_zero]; iempintro
    iexact Hat20
  iintro ⟨HO, Hat20, -, Hpay⟩
  ihave Hvl0 := (Entails.of_eq (show _ = (((vlocM : Memref sig .tc .vmem S2x8x64x512 .bf16).view.loc (c : Thread nD τ)) ↦[(vlocM : Memref sig .tc .vmem S2x8x64x512 .bf16).view.set]{sendShare 0} vT c : sProp 𝕄) from rest_d kT vT kC vC c 2 0)) $$ Hpay
  -- wait: copy 1 of the key block
  iapply (Rounds.wp_wait_rest_token 𝒱₀ ER (sched kT vT kC vC) (c : Thread nD τ) none (sm := .dma (dsem 0 1)) (κ := K (c, some (0, 1)))
      (wpE_waitDma2_eq 𝒱₀ (c : Thread nD τ) none Set.univ) (Set.mem_univ _) () (O := 0) (R := 0) (m := 0) (T := ∅)
      (by rw [Nat.zero_add, expect_d] <;> rfl)) $$ [Hcks1 HO Hat01]
  · isplitr; · iexact HI01
    isplitl [Hcks1]; · iexact Hcks1
    isplitl [HO]; · iexact HO
    isplitr; · rw [MayWait_zero]; iempintro
    iexact Hat01
  iintro ⟨HO, Hat01, -, Hpay⟩
  ihave Hkl1 := (Entails.of_eq (show _ = (((klocM : Memref sig .tc .vmem S2x8x64x512 .bf16).view.loc (c : Thread nD τ)) ↦[(klocM : Memref sig .tc .vmem S2x8x64x512 .bf16).view.set]{sendShare 1} kT c : sProp 𝕄) from rest_d kT vT kC vC c 0 1)) $$ Hpay
  -- wait: copy 1 of the value block
  iapply (Rounds.wp_wait_rest_token 𝒱₀ ER (sched kT vT kC vC) (c : Thread nD τ) none (sm := .dma (dsem 2 1)) (κ := K (c, some (2, 1)))
      (wpE_waitDma2_eq 𝒱₀ (c : Thread nD τ) none Set.univ) (Set.mem_univ _) () (O := 0) (R := 0) (m := 0) (T := ∅)
      (by rw [Nat.zero_add, expect_d] <;> rfl)) $$ [Hcvs1 HO Hat21]
  · isplitr; · iexact HI21
    isplitl [Hcvs1]; · iexact Hcvs1
    isplitl [HO]; · iexact HO
    isplitr; · rw [MayWait_zero]; iempintro
    iexact Hat21
  iintro ⟨HO, Hat21, -, Hpay⟩
  ihave Hvl1 := (Entails.of_eq (show _ = (((vlocM : Memref sig .tc .vmem S2x8x64x512 .bf16).view.loc (c : Thread nD τ)) ↦[(vlocM : Memref sig .tc .vmem S2x8x64x512 .bf16).view.set]{sendShare 1} vT c : sProp 𝕄) from rest_d kT vT kC vC c 2 1)) $$ Hpay
  -- wait: copy 2 of the key block
  iapply (Rounds.wp_wait_rest_token 𝒱₀ ER (sched kT vT kC vC) (c : Thread nD τ) none (sm := .dma (dsem 0 2)) (κ := K (c, some (0, 2)))
      (wpE_waitDma2_eq 𝒱₀ (c : Thread nD τ) none Set.univ) (Set.mem_univ _) () (O := 0) (R := 0) (m := 0) (T := ∅)
      (by rw [Nat.zero_add, expect_d] <;> rfl)) $$ [Hcks2 HO Hat02]
  · isplitr; · iexact HI02
    isplitl [Hcks2]; · iexact Hcks2
    isplitl [HO]; · iexact HO
    isplitr; · rw [MayWait_zero]; iempintro
    iexact Hat02
  iintro ⟨HO, Hat02, -, Hpay⟩
  ihave Hkl2 := (Entails.of_eq (show _ = (((klocM : Memref sig .tc .vmem S2x8x64x512 .bf16).view.loc (c : Thread nD τ)) ↦[(klocM : Memref sig .tc .vmem S2x8x64x512 .bf16).view.set]{sendShare 2} kT c : sProp 𝕄) from rest_d kT vT kC vC c 0 2)) $$ Hpay
  -- wait: copy 2 of the value block
  iapply (Rounds.wp_wait_rest_token 𝒱₀ ER (sched kT vT kC vC) (c : Thread nD τ) none (sm := .dma (dsem 2 2)) (κ := K (c, some (2, 2)))
      (wpE_waitDma2_eq 𝒱₀ (c : Thread nD τ) none Set.univ) (Set.mem_univ _) () (O := 0) (R := 0) (m := 0) (T := ∅)
      (by rw [Nat.zero_add, expect_d] <;> rfl)) $$ [Hcvs2 HO Hat22]
  · isplitr; · iexact HI22
    isplitl [Hcvs2]; · iexact Hcvs2
    isplitl [HO]; · iexact HO
    isplitr; · rw [MayWait_zero]; iempintro
    iexact Hat22
  iintro ⟨HO, Hat22, -, Hpay⟩
  ihave Hvl2 := (Entails.of_eq (show _ = (((vlocM : Memref sig .tc .vmem S2x8x64x512 .bf16).view.loc (c : Thread nD τ)) ↦[(vlocM : Memref sig .tc .vmem S2x8x64x512 .bf16).view.set]{sendShare 2} vT c : sProp 𝕄) from rest_d kT vT kC vC c 2 2)) $$ Hpay
  -- the two transposed blocks whole again
  ihave Hkl := (kloc_join c (kT c)) $$ [Hkl0 Hkl1 Hkl2 Hklk]
  · isplitl [Hkl0]; · iexact Hkl0
    isplitl [Hkl1]; · iexact Hkl1
    isplitl [Hkl2]; · iexact Hkl2
    iexact Hklk
  ihave Hvl := (vloc_join c (vT c)) $$ [Hvl0 Hvl1 Hvl2 Hvlk]
  · isplitl [Hvl0]; · iexact Hvl0
    isplitl [Hvl1]; · iexact Hvl1
    isplitl [Hvl2]; · iexact Hvl2
    iexact Hvlk
  -- the twelve own semaphores close at zero
  imod (Rounds.cell_close ER (sched kT vT kC vC) (Set.mem_univ (K (c, some (0, 0)))) (fun h => h) (R := 0 + 1) (duties_later kT vT kC vC (dCell 0 0 c))) $$ [Hat00] with Hz00
  · isplitr; · iexact HI00
    iexact Hat00
  imod (Rounds.cell_close ER (sched kT vT kC vC) (Set.mem_univ (K (c, some (0, 1)))) (fun h => h) (R := 0 + 1) (duties_later kT vT kC vC (dCell 0 1 c))) $$ [Hat01] with Hz01
  · isplitr; · iexact HI01
    iexact Hat01
  imod (Rounds.cell_close ER (sched kT vT kC vC) (Set.mem_univ (K (c, some (0, 2)))) (fun h => h) (R := 0 + 1) (duties_later kT vT kC vC (dCell 0 2 c))) $$ [Hat02] with Hz02
  · isplitr; · iexact HI02
    iexact Hat02
  imod (Rounds.cell_close ER (sched kT vT kC vC) (Set.mem_univ (K (c, some (1, 0)))) (fun h => h) (R := 0 + 1) (duties_later kT vT kC vC (dCell 1 0 c))) $$ [Hat10] with Hz10
  · isplitr; · iexact HI10
    iexact Hat10
  imod (Rounds.cell_close ER (sched kT vT kC vC) (Set.mem_univ (K (c, some (1, 1)))) (fun h => h) (R := 0 + 1) (duties_later kT vT kC vC (dCell 1 1 c))) $$ [Hat11] with Hz11
  · isplitr; · iexact HI11
    iexact Hat11
  imod (Rounds.cell_close ER (sched kT vT kC vC) (Set.mem_univ (K (c, some (1, 2)))) (fun h => h) (R := 0 + 1) (duties_later kT vT kC vC (dCell 1 2 c))) $$ [Hat12] with Hz12
  · isplitr; · iexact HI12
    iexact Hat12
  imod (Rounds.cell_close ER (sched kT vT kC vC) (Set.mem_univ (K (c, some (2, 0)))) (fun h => h) (R := 0 + 1) (duties_later kT vT kC vC (dCell 2 0 c))) $$ [Hat20] with Hz20
  · isplitr; · iexact HI20
    iexact Hat20
  imod (Rounds.cell_close ER (sched kT vT kC vC) (Set.mem_univ (K (c, some (2, 1)))) (fun h => h) (R := 0 + 1) (duties_later kT vT kC vC (dCell 2 1 c))) $$ [Hat21] with Hz21
  · isplitr; · iexact HI21
    iexact Hat21
  imod (Rounds.cell_close ER (sched kT vT kC vC) (Set.mem_univ (K (c, some (2, 2)))) (fun h => h) (R := 0 + 1) (duties_later kT vT kC vC (dCell 2 2 c))) $$ [Hat22] with Hz22
  · isplitr; · iexact HI22
    iexact Hat22
  imod (Rounds.cell_close ER (sched kT vT kC vC) (Set.mem_univ (K (c, some (3, 0)))) (fun h => h) (R := 0 + 1) (duties_later kT vT kC vC (dCell 3 0 c))) $$ [Hat30] with Hz30
  · isplitr; · iexact HI30
    iexact Hat30
  imod (Rounds.cell_close ER (sched kT vT kC vC) (Set.mem_univ (K (c, some (3, 1)))) (fun h => h) (R := 0 + 1) (duties_later kT vT kC vC (dCell 3 1 c))) $$ [Hat31] with Hz31
  · isplitr; · iexact HI31
    iexact Hat31
  imod (Rounds.cell_close ER (sched kT vT kC vC) (Set.mem_univ (K (c, some (3, 2)))) (fun h => h) (R := 0 + 1) (duties_later kT vT kC vC (dCell 3 2 c))) $$ [Hat32] with Hz32
  · isplitr; · iexact HI32
    iexact Hat32
  -- done: the continuation gets what it was promised
  rw [wp_ret]; imodintro
  iapply Hk
  unfold bodyPost Φ₁ Dat.owesAt Pipeline.owesWithin
  rw [show (dats m ρ kT vT kC vC outV 0 c).owed t₀.succ = 0 from rfl, scopedRest0_eq, ownSems_chain]
  isplitl [Hqt Hkl Hvl Hkc Hvc Hac Hls Hz00 Hz01 Hz02 Hz10 Hz11 Hz12 Hz20 Hz21 Hz22 Hz30 Hz31 Hz32]
  · isplitl [Hqt Hkl Hvl Hkc Hvc Hac Hls]
    · isplitl [Hqt]; · iexists _; iexact Hqt
      isplitl [Hkl]; · iexists _; iexact Hkl
      isplitl [Hvl]; · iexists _; iexact Hvl
      isplitl [Hkc]; · iexists _; iexact Hkc
      isplitl [Hvc]; · iexists _; iexact Hvc
      isplitl [Hac]; · iexists _; iexact Hac
      iexists _; iexact Hls
    isplitl [Hz00]; · iexact Hz00
    isplitl [Hz01]; · iexact Hz01
    isplitl [Hz02]; · iexact Hz02
    isplitl [Hz10]; · iexact Hz10
    isplitl [Hz11]; · iexact Hz11
    isplitl [Hz12]; · iexact Hz12
    isplitl [Hz20]; · iexact Hz20
    isplitl [Hz21]; · iexact Hz21
    isplitl [Hz22]; · iexact Hz22
    isplitl [Hz30]; · iexact Hz30
    isplitl [Hz31]; · iexact Hz31
    iexact Hz32
  isplitl [HO]
  · iexists (insert (SemLoc.dma (dsem 2 2), ()) (insert (SemLoc.dma (dsem 0 2), ()) (insert (SemLoc.dma (dsem 2 1), ()) (insert (SemLoc.dma (dsem 0 1), ()) (insert (SemLoc.dma (dsem 2 0), ()) (insert (SemLoc.dma (dsem 0 0), ()) (insert (SemLoc.dma (dsem 3 2), ()) (insert (SemLoc.dma (dsem 1 2), ()) (insert (SemLoc.dma (dsem 3 1), ()) (insert (SemLoc.dma (dsem 1 1), ()) (insert (SemLoc.dma (dsem 3 0), ()) (insert (SemLoc.dma (dsem 1 0), ()) (insert (SemLoc.reg barS, ()) W)))))))))))))
    isplitr; · ipureintro; exact fun _ _ => Or.inl trivial
    iexact HO
  isplitl [Hq]
  · iexists _; isplitr; · (ipureintro; rfl)
    iexact Hq
  isplitl [Hkst]
  · iexists _; isplitr; · (ipureintro; rfl)
    iexact Hkst
  isplitl [Hvst]
  · iexists _; isplitr; · (ipureintro; rfl)
    iexact Hvst
  iexists _; isplitr; · (ipureintro; rfl)
  iexact Hout

end Cert.KernelIdeal.Body

end
-- ==== Proof.Launch.lean ====
/-
  The launch: from "every device's one grid point is proved" to the run of the whole mesh.

  The ghost state of the exchange is one element of the rounds algebra: every device's thirteen cells at
  round 0, and the one-shot tokens of all their duties. At launch it is dealt out, the thirteen invariants of
  every device are allocated from its semaphores at zero (the twelve scoped ones and the barrier semaphore,
  which is not scoped to the kernel), and the tokens change hands once: a duty's token goes from the device
  that owns the semaphore to the device that pays the duty. Since "peer j" is a permutation of the devices,
  this is a reindexing of a product over all devices.
-/
import proofs.«900413_g7700000000000414_dist_agattn_v7x_xyz2x4x4_z_b2_s512_h8_d64_bf16_1_alg».proof.Proof.State
import proofs.«900413_g7700000000000414_dist_agattn_v7x_xyz2x4x4_z_b2_s512_h8_d64_bf16_1_alg».proof.Proof.Gen.KernelIdeal.Launch
import Idealize.ShloMosaic.Lib.Pipeline.Launch
import Idealize.ShloMosaic.Lib.Pipeline.Kit
import Idealize.ShloMosaic.Lib.Tactic

noncomputable section

namespace Cert.KernelIdeal.Launch

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched Cert.KernelIdeal.Levels

variable {F : FTy → Type} [FloatOps F]

local notation "𝕄" => MT nD τ sig Unit (Elt F) ℕ UU ℕ

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))

/-! ## The layout facts the launch asks of the twelve own semaphores, and of the proof data -/

theorem ownSemFacts : Pipeline.OwnSemFacts cfg0.spec osem := by decide

theorem share_eq (c : Dev nD) (w : Fin cfg0.W) : (State.dats m ρ kT vT kC vC outV 0 c).share w = fullShare := by
  unfold Dat.share; split <;> rfl

/-! ## The launch element: all cells, all tokens -/

def ringCells : Finset (GSem nD τ sig) := Finset.univ.map ⟨kcell, kcell_injective⟩

/-- A device's tokens as minted: the barrier's three duties, and the one duty of each of the twelve DMA semaphores. -/
abbrev TK : Type := Fin 3 ⊕ (Fin 4 × Fin 3)
abbrev tokOf (cj : Dev nD × TK) : GSem nD τ sig × ℕ × Fin 3 := match cj.2 with
  | .inl j => (barCell cj.1, 0, j)
  | .inr tj => (dCell tj.1 tj.2 cj.1, 0, 0)

theorem tokOf_injective : Function.Injective (tokOf : Dev nD × TK → GSem nD τ sig × ℕ × Fin 3) := by
  rintro ⟨c, k⟩ ⟨c', k'⟩ h
  have h1 : c = c' := by
    have := congrArg (fun x : GSem nD τ sig × ℕ × Fin 3 => x.1.1.1) h
    rcases k with j | tj <;> rcases k' with j' | tj' <;> exact this
  subst h1
  rcases k with j | ⟨t, j⟩ <;> rcases k' with j' | ⟨t', j'⟩
  · have h2 : j = j' := congrArg (fun x : GSem nD τ sig × ℕ × Fin 3 => x.2.2) h
    rw [h2]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : (SemLoc.dma (dsem t j) : SemLoc sig) = .dma (dsem t' j') := congrArg (fun x : GSem nD τ sig × ℕ × Fin 3 => x.1.2) h
    have h3 : dsem t j = dsem t' j' := by injection h2
    obtain ⟨rfl, rfl⟩ := dsem_inj t t' j j' h3
    rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- What the launch element deals device `c`: its thirteen cells at round 0, its positions, and its tokens as minted. -/
def G (c : Dev nD) : sProp 𝕄 :=
  iprop((bigSep Finset.univ fun k : CK => roundState ER (sched kT vT kC vC) (kcell (c, k)) 0)
    ∗ (bigSep Finset.univ fun k : CK => iprop(atPos ER (kcell (c, k)) 0 ∅ 0 ∗ reached ER (kcell (c, k)) 0)) ∗ State.toks c)

/-- What the global step makes of it. -/
def G' (c : Dev nD) : sProp 𝕄 := iprop(∃ K, State.ghost kT vT kC vC K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A product over a device's thirteen cells: the barrier's factor and the twelve others. -/
theorem bigSep_CK (Φ : CK → sProp 𝕄) : bigSep Finset.univ Φ = iprop(Φ none ∗ bigSep Finset.univ fun tj : Fin 4 × Fin 3 => Φ (some tj)) := by
  have h : (Finset.univ : Finset CK) = insert none (Finset.univ.map ⟨some, Option.some_injective _⟩) := by decide
  rw [h, bigSep_insert (by decide), bigSep_map]
  rfl

omit [FloatOps F] in
theorem fund_ring : BI.own (ER (initOf ringCells ringToks)) ⊢ (|==> bigSep Finset.univ (G kT vT kC vC) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => State.toks c := by
    unfold ringToks; rw [bigSep_map, bigSep_univ_prod]
    exact bigSep_congr fun c _ => by unfold State.toks; rw [bigSep_univ_sum]; rfl
  iintro HX
  imod (Rounds.fund ER (sched kT vT kC vC) ringCells ringToks) $$ HX with ⟨Hst, Hr, Hat, Htok⟩
  imodintro
  ihave Hst' := (Entails.of_eq (hX fun g => roundState ER (sched kT vT kC vC) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating a device's thirteen invariants -/

omit [FloatOps F] in
/-- The barrier semaphore is the one semaphore that is not scoped to the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  iintro ⟨HO, HB⟩
  isplitl [HB]; · iexact HB
  unfold Pipeline.ownSems0; iexact HO

omit [FloatOps F] in
theorem core_alloc (c : Dev nD) :
    iprop(Pipeline.ownSems0 (Ix := Unit) (Name := ℕ) (U := UU) (Lvl := ℕ) (Val := Elt F) (τ := τ) osem c ∗ unscopedSems0 c ∗ G kT vT kC vC c)
      ⊢ |={Set.univ}=> iprop((bigSep Finset.univ fun k : CK => iprop(∃ κ : ℕ, cellInv ER (sched kT vT kC vC) κ (kcell (c, k))))
          ∗ (bigSep Finset.univ fun k : CK => iprop(atPos ER (kcell (c, k)) 0 ∅ 0 ∗ reached ER (kcell (c, k)) 0)) ∗ State.toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched kT vT kC vC) (kcell (c, k)) 0)
      ⊢ (|={Set.univ}=> bigSep Finset.univ fun k : CK => iprop(∃ κ : ℕ, cellInv ER (sched kT vT kC vC) κ (kcell (c, k))) : sProp 𝕄) from by
        rw [← bigSep_sep']
        exact (bigSep_mono fun k _ => (Rounds.body_intro ER (sched kT vT kC vC) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens change hands -/

omit [FloatOps F] in
/-- A double product may be taken in either order. -/
theorem bigSep_swap {α β : Type} [Fintype α] [Fintype β] (Φ : α → β → sProp 𝕄) :
    bigSep Finset.univ (fun a => bigSep Finset.univ fun b => Φ a b) = bigSep Finset.univ (fun b => bigSep Finset.univ fun a => Φ a b) := by
  have h1 : bigSep Finset.univ (fun a => bigSep Finset.univ fun b => Φ a b) = bigSep Finset.univ (fun ab : α × β => Φ ab.1 ab.2) :=
    (bigSep_univ_prod (fun ab : α × β => Φ ab.1 ab.2)).symm
  have h2 : bigSep Finset.univ (fun b => bigSep Finset.univ fun a => Φ a b) = bigSep Finset.univ (fun ba : β × α => Φ ba.2 ba.1) :=
    (bigSep_univ_prod (fun ba : β × α => Φ ba.2 ba.1)).symm
  rw [h1, h2, bigSep_univ_equiv (Equiv.prodComm β α) (fun ab : α × β => Φ ab.1 ab.2)]
  rfl

/-- Undoing a peer index is a permutation of the three indices. -/
def backEquiv : Fin 3 ≃ Fin 3 := ⟨back, back, back_back, back_back⟩

omit [FloatOps F] in
/-- A family of tokens indexed by (owner, slot) is the same family indexed by (payer, copy): the payer `c`'s copy `j`
    pays slot `back j` of the owner `peer j c`. -/
theorem toks_recv (X : Fin 3 → Dev nD → sProp 𝕄) :
    (bigSep Finset.univ fun c : Dev nD => bigSep Finset.univ fun j : Fin 3 => X j c)
      = bigSep Finset.univ fun c : Dev nD => bigSep Finset.univ fun j : Fin 3 => X (back j) (peer j c) := by
  rw [bigSep_swap (fun c j => X j c), bigSep_swap (fun c j => X (back j) (peer j c)),
    bigSep_univ_equiv backEquiv (fun j : Fin 3 => bigSep Finset.univ fun c : Dev nD => X j c)]
  exact bigSep_congr fun j _ => bigSep_univ_equiv (peerEquiv j) (fun c : Dev nD => X (back j) c)

omit [FloatOps F] in
/-- The barrier's duty `j` of the owner `peer j c` is paid by `c`. -/
theorem toks_bar (X : Fin 3 → Dev nD → sProp 𝕄) :
    (bigSep Finset.univ fun c : Dev nD => bigSep Finset.univ fun j : Fin 3 => X j c)
      = bigSep Finset.univ fun c : Dev nD => bigSep Finset.univ fun j : Fin 3 => X j (peer j c) := by
  rw [bigSep_swap (fun c j => X j c), bigSep_swap (fun c j => X j (peer j c))]
  exact bigSep_congr fun j _ => bigSep_univ_equiv (peerEquiv j) (fun c : Dev nD => X j c)

omit [FloatOps F] in
/-- The twelve DMA tokens of a device, triple by triple. -/
theorem bigSep_triples (Φ : Fin 4 × Fin 3 → sProp 𝕄) :
    bigSep Finset.univ Φ = iprop((bigSep Finset.univ fun j : Fin 3 => Φ (0, j)) ∗ (bigSep Finset.univ fun j : Fin 3 => Φ (1, j))
      ∗ (bigSep Finset.univ fun j : Fin 3 => Φ (2, j)) ∗ (bigSep Finset.univ fun j : Fin 3 => Φ (3, j))) := by
  rw [bigSep_univ_prod, bigSep_fin4]

omit [FloatOps F] in
/-- Every token goes from the owner of its semaphore to the payer of its duty. -/
theorem toks_around : (bigSep Finset.univ fun c : Dev nD => (State.toks c : sProp 𝕄)) ⊢ bigSep Finset.univ fun c : Dev nD => State.payToks c := by
  have hL : (bigSep Finset.univ fun c : Dev nD => (State.toks c : sProp 𝕄))
      = iprop((bigSep Finset.univ fun c : Dev nD => bigSep Finset.univ fun j : Fin 3 => dutyTok ER (barCell c) 0 j)
        ∗ (bigSep Finset.univ fun c : Dev nD => bigSep Finset.univ fun j : Fin 3 => dutyTok ER (dCell 0 j c) 0 0)
        ∗ (bigSep Finset.univ fun c : Dev nD => bigSep Finset.univ fun j : Fin 3 => dutyTok ER (dCell 1 j c) 0 0)
        ∗ (bigSep Finset.univ fun c : Dev nD => bigSep Finset.univ fun j : Fin 3 => dutyTok ER (dCell 2 j c) 0 0)
        ∗ (bigSep Finset.univ fun c : Dev nD => bigSep Finset.univ fun j : Fin 3 => dutyTok ER (dCell 3 j c) 0 0)) := by
    unfold State.toks
    rw [bigSep_congr (s := Finset.univ) fun (c : Dev nD) _ => congrArg (fun X => iprop((bigSep Finset.univ fun j : Fin 3 => dutyTok ER (barCell c) 0 j) ∗ X))
      (bigSep_triples fun tj : Fin 4 × Fin 3 => (dutyTok ER (dCell tj.1 tj.2 c) 0 0 : sProp 𝕄))]
    rw [bigSep_sep', bigSep_sep', bigSep_sep', bigSep_sep']
  have hR : (bigSep Finset.univ fun c : Dev nD => (State.payToks c : sProp 𝕄))
      = iprop((bigSep Finset.univ fun c : Dev nD => bigSep Finset.univ fun j : Fin 3 => dutyTok ER (barCell (peer j c)) 0 j)
        ∗ (bigSep Finset.univ fun c : Dev nD => bigSep Finset.univ fun j : Fin 3 => dutyTok ER (dCell 1 (back j) (peer j c)) 0 0)
        ∗ (bigSep Finset.univ fun c : Dev nD => bigSep Finset.univ fun j : Fin 3 => dutyTok ER (dCell 3 (back j) (peer j c)) 0 0)
        ∗ (bigSep Finset.univ fun c : Dev nD => bigSep Finset.univ fun j : Fin 3 => dutyTok ER (dCell 0 j c) 0 0)
        ∗ (bigSep Finset.univ fun c : Dev nD => bigSep Finset.univ fun j : Fin 3 => dutyTok ER (dCell 2 j c) 0 0)) := by
    unfold State.payToks
    simp only [bigSep_sep']
  rw [hL, hR, toks_bar (fun j c => (dutyTok ER (barCell c) 0 j : sProp 𝕄)),
    toks_recv (fun j c => (dutyTok ER (dCell 1 j c) 0 0 : sProp 𝕄)), toks_recv (fun j c => (dutyTok ER (dCell 3 j c) 0 0 : sProp 𝕄))]
  iintro ⟨HB, H0, H1, H2, H3⟩
  isplitl [HB]; · iexact HB
  isplitl [H1]; · iexact H1
  isplitl [H3]; · iexact H3
  isplitl [H0]; · iexact H0
  iexact H2

/-! ## From what is minted to what each device starts from -/

omit [FloatOps F] in
theorem ghost_intro (K : Dev nD × CK → ℕ) (c : Dev nD) : iprop(State.records kT vT kC vC K ∗ State.linear c) ⊢ G' kT vT kC vC c := by
  unfold G' State.ghost
  iintro H
  iexists K
  iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k : CK => iprop(∃ κ : ℕ, cellInv ER (sched kT vT kC vC) κ (kcell (c, k))))
          ∗ (bigSep Finset.univ fun k : CK => iprop(atPos ER (kcell (c, k)) 0 ∅ 0 ∗ reached ER (kcell (c, k)) 0)) ∗ State.toks c) : sProp 𝕄)
      ⊢ bigSep Finset.univ (G' kT vT kC vC) := by
  rw [bigSep_sep', bigSep_sep', ← bigSep_univ_prod (fun ck : Dev nD × CK => iprop(∃ κ : ℕ, cellInv ER (sched kT vT kC vC) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched kT vT kC vC) κ (kcell ck) : sProp 𝕄))) $$ HI
  icases HK with ⟨%K, #HI⟩
  ihave Htk := (toks_around (F := F)) $$ Htok
  iapply (bigSep_with_persistent (R := State.records kT vT kC vC K) fun c _ => ghost_intro kT vT kC vC K c)
  isplitr
  · unfold State.records; isplitl; · iexact HI
    iexact HR
  · iapply ((Entails.of_eq (bigSep_sep' Finset.univ (fun c : Dev nD => bigSep Finset.univ fun k : CK => (atPos ER (kcell (c, k)) 0 ∅ 0 : sProp 𝕄)) State.payToks).symm).trans
      (bigSep_mono fun c _ => show _ ⊢ State.linear c from Entails.of_eq (by unfold State.linear; rfl)))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G kT vT kC vC c) : sProp 𝕄)
    ⊢ |={Set.univ}=> bigSep Finset.univ (G' kT vT kC vC) :=
  ((bigSep_mono fun c _ => core_alloc kT vT kC vC c).trans (bigSep_fupd _ _)).trans (BI.fupd_mono (regroup kT vT kC vC))

/-! ## The side conditions of the launch -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' kT vT kC vC c)
      ⊢ |={Set.univ}=> iprop(State.start kT vT kC vC c ∗ emp) := by
  iintro ⟨-, Hlev, Hcr, -, HG⟩
  ihave Hc := (creds (F := F) c) $$ Hcr
  imodintro
  unfold State.start State.credits G'
  isplitl
  · isplitl [HG]; · iexact HG
    isplitl [Hc]; · iexact Hc
    iexact Hlev
  · iempintro

theorem phi0_intro (c : Dev nD) :
    iprop(State.start kT vT kC vC c ∗ Pipeline.prefHeld Pipeline.Prefetch.none c (fun _ => fullShare.right) (fun k => k.elim0) ∗ Pipeline.scopedRest cfg0.spec c)
      ⊢ (State.dats m ρ kT vT kC vC outV 0 c).Φ 0 := by
  rw [show (State.dats m ρ kT vT kC vC outV 0 c).Φ 0 = State.Φ₀ kT vT kC vC c from rfl]
  unfold State.Φ₀
  iintro ⟨Hs, -, Hr⟩
  isplitl [Hs]; · iexact Hs
  iexact Hr

theorem phi1_exit (c : Dev nD) :
    (State.dats m ρ kT vT kC vC outV 0 c).Φ (Fin.last cfg0.N) ⊢ iprop(emp ∗ Pipeline.ownSems0 osem c ∗ Pipeline.scopedRest cfg0.spec c) := by
  rw [show (State.dats m ρ kT vT kC vC outV 0 c).Φ (Fin.last cfg0.N) = State.Φ₁ c from rfl]
  unfold State.Φ₁
  iintro ⟨Hr, Hz⟩
  isplitr; · iempintro
  isplitl [Hz]; · iexact Hz
  iexact Hr

theorem waits (c : Dev nD) : (levAts L lv : sProp 𝕄) ⊢ Pipeline.cellsWaits cfgs (State.dats m ρ kT vT kC vC outV) () 0 c :=
  Pipeline.cellsWaits_intro cfgs (State.dats m ρ kT vT kC vC outV) () 0 c fun w s t =>
    mayWait_stage c _ (by fin_cases w <;> fin_cases s <;> decide) _ (by
      rcases t with ⟨_ | _, ht⟩
      · exact Or.inl rfl
      · exact Or.inr rfl)

/-! ## The run -/

/-- What each array of device `c` holds after the run, as the pipeline's proof data name it. -/
def finalA (c : Dev nD) (w : Fin cfg0.W) : Buf (Elt F) ((cfg0.win w).arr.view.loc (c : Thread nD τ)) :=
  (State.dats m ρ kT vT kC vC outV 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ kT vT kC vC outV c w

set_option maxRecDepth 8000 in
/-- At the compiled mesh of thirty-two devices, for any float values, from any memory with every semaphore at zero:
    if every device's one grid point meets its obligation, every weakly fair execution of the whole mesh terminates
    and every final state has each device's four arrays at the contents the proof data name. -/
theorem run_main
    (hbody : ∀ c : Dev nD, BodyObligation (State.dats (F := F) m ρ kT vT kC vC outV 0 c) (defs₀ (F := F)) State.𝒱₀ () Set.univ) :
    θ_run defs (onTc (τ := τ) (main (F := F))) (State.s₀ m ρ) (QC m ρ kT vT kC vC outV) :=
  Pipeline.θ_run_region_owing_glob_pf (fun p => (cfgs p).toPCfg) (fun p => (cfgs p).toPCfg_adm) (State.dats m ρ kT vT kC vC outV) () cellOf_inj (0 : Fin 1)
    winFacts0.to₀ ownSemFacts (Pipeline.PreFacts.none _) EP defs₀ State.𝒱₀ m ρ main
    (hmain := fun _ => rfl)
    (hbody := hbody) (hne := fun w => by fin_cases w <;> exact Nat.succ_pos _) (harr := arr_whole0) (hstage := stage_whole0)
    (hshare := share_eq m ρ kT vT kC vC outV)
    (hdistinct := winFacts0.arr_inj)
    (O₀ := O₀) (howed₀ := fun _ => rfl) (howedN := fun _ => rfl)
    (L := L) (lv := lv) (hL := L_of_ne) (hwaits := waits m ρ kT vT kC vC outV)
    (G := G kT vT kC vC) (G' := G' kT vT kC vC) (u₀ := u₀)
    (hu₀ := by
      unfold u₀
      iintro Hu
      ihave H := (ownU_pair _ _) $$ Hu
      icases H with ⟨HP, HX⟩
      imod (fund_ring kT vT kC vC) $$ HX with HG
      imodintro
      isplitl [HP] <;> iassumption)
    (hglob := glob kT vT kC vC)
    (hA := fun _ _ => rfl) (hpf := fun _ k => k.elim0)
    (X := State.start kT vT kC vC) (Y := fun _ => iprop(emp)) (Z := fun _ => iprop(emp))
    (hX := start_intro m ρ kT vT kC vC) (hin := phi0_intro m ρ kT vT kC vC outV) (hout := phi1_exit m ρ kT vT kC vC outV)
    (QY := fun _ _ => True)
    (hY := fun c s' => by
      iintro ⟨-, -, HSI⟩
      imodintro
      isplitr; · ipureintro; trivial
      iexact HSI)
    (hQ := fun _ h c w => (h c).1 w)

/-- info: 'Cert.KernelIdeal.Launch.run_main' depends on axioms: [propext, Classical.choice, Quot.sound] -/
#guard_msgs in #print axioms run_main

end Cert.KernelIdeal.Launch

end
-- ==== Proof.BodyOb.lean ====
/-
  The body obligation of the pipeline's one grid point, from the step-by-step body.

  The launch hands a device the shared records (every device's semaphore invariants and round-0 marks) and its own
  linear state as products over index sets; the body wants them item by item. The records are persistent, so each
  item is read off the product; the device's positions and tokens are taken apart along the thirteen semaphores
  and the three peers.
-/
import proofs.«900413_g7700000000000414_dist_agattn_v7x_xyz2x4x4_z_b2_s512_h8_d64_bf16_1_alg».proof.Proof.Body
import proofs.«900413_g7700000000000414_dist_agattn_v7x_xyz2x4x4_z_b2_s512_h8_d64_bf16_1_alg».proof.Proof.Launch

noncomputable section

namespace Cert.KernelIdeal.BodyOb

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched Cert.KernelIdeal.Levels Cert.KernelIdeal.State Cert.KernelIdeal.BodyPre

variable {F : FTy → Type} [FloatOps F]

local notation "𝕄" => MT nD τ sig Unit (Elt F) ℕ UU ℕ

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))
variable (qT : (c : Dev nD) → Buf (Elt F) ((c : Thread nD τ).loc cc0_scratch0))
variable (a0 a1 a2 : (c : Dev nD) → Buf (Elt F) ((c : Thread nD τ).loc cc0_scratch5))
variable (l0 l1 l2 : (c : Dev nD) → Buf (Elt F) ((c : Thread nD τ).loc cc0_scratch6))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem inv_at (K : Dev nD × CK → ℕ) (ck : Dev nD × CK) :
    (bigSep Finset.univ fun ck : Dev nD × CK => (cellInv ER (sched kT vT kC vC) (K ck) (kcell ck) : sProp 𝕄)) ⊢ cellInv ER (sched kT vT kC vC) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

omit [FloatOps F] in
/-- Of the shared records, the invariants and marks device `c`'s body uses. -/
theorem records_open (K : Dev nD × CK → ℕ) (c : Dev nD) :
    records kT vT kC vC K ⊢ iprop(BodyPre.invs kT vT kC vC K c ∗ BodyPre.reach c) := by
  unfold records BodyPre.invs BodyPre.reach
  iintro ⟨#HI, #HR⟩
  isplitr
  · isplitr; · iapply (inv_at kT vT kC vC K (c, none)); iexact HI
    isplitr; · iapply (inv_at kT vT kC vC K (c, some (0, 0))); iexact HI
    isplitr; · iapply (inv_at kT vT kC vC K (c, some (0, 1))); iexact HI
    isplitr; · iapply (inv_at kT vT kC vC K (c, some (0, 2))); iexact HI
    isplitr; · iapply (inv_at kT vT kC vC K (c, some (1, 0))); iexact HI
    isplitr; · iapply (inv_at kT vT kC vC K (c, some (1, 1))); iexact HI
    isplitr; · iapply (inv_at kT vT kC vC K (c, some (1, 2))); iexact HI
    isplitr; · iapply (inv_at kT vT kC vC K (c, some (2, 0))); iexact HI
    isplitr; · iapply (inv_at kT vT kC vC K (c, some (2, 1))); iexact HI
    isplitr; · iapply (inv_at kT vT kC vC K (c, some (2, 2))); iexact HI
    isplitr; · iapply (inv_at kT vT kC vC K (c, some (3, 0))); iexact HI
    isplitr; · iapply (inv_at kT vT kC vC K (c, some (3, 1))); iexact HI
    isplitr; · iapply (inv_at kT vT kC vC K (c, some (3, 2))); iexact HI
    isplitr; · iapply (inv_at kT vT kC vC K (peer 0 c, none)); iexact HI
    isplitr; · iapply (inv_at kT vT kC vC K (peer 0 c, some (1, 2))); iexact HI
    isplitr; · iapply (inv_at kT vT kC vC K (peer 0 c, some (3, 2))); iexact HI
    isplitr; · iapply (inv_at kT vT kC vC K (peer 1 c, none)); iexact HI
    isplitr; · iapply (inv_at kT vT kC vC K (peer 1 c, some (1, 1))); iexact HI
    isplitr; · iapply (inv_at kT vT kC vC K (peer 1 c, some (3, 1))); iexact HI
    isplitr; · iapply (inv_at kT vT kC vC K (peer 2 c, none)); iexact HI
    isplitr; · iapply (inv_at kT vT kC vC K (peer 2 c, some (1, 0))); iexact HI
    iapply (inv_at kT vT kC vC K (peer 2 c, some (3, 0))); iexact HI
  isplitr; · iapply (reached_at (F := F) (peer 0 c, none)); iexact HR
  isplitr; · iapply (reached_at (F := F) (peer 0 c, some (1, 2))); iexact HR
  isplitr; · iapply (reached_at (F := F) (peer 0 c, some (3, 2))); iexact HR
  isplitr; · iapply (reached_at (F := F) (peer 1 c, none)); iexact HR
  isplitr; · iapply (reached_at (F := F) (peer 1 c, some (1, 1))); iexact HR
  isplitr; · iapply (reached_at (F := F) (peer 1 c, some (3, 1))); iexact HR
  isplitr; · iapply (reached_at (F := F) (peer 2 c, none)); iexact HR
  isplitr; · iapply (reached_at (F := F) (peer 2 c, some (1, 0))); iexact HR
  isplitr; · iapply (reached_at (F := F) (peer 2 c, some (3, 0))); iexact HR
  isplitr; · iapply (reached_at (F := F) (c, some (0, 0))); iexact HR
  isplitr; · iapply (reached_at (F := F) (c, some (0, 1))); iexact HR
  isplitr; · iapply (reached_at (F := F) (c, some (0, 2))); iexact HR
  isplitr; · iapply (reached_at (F := F) (c, some (1, 0))); iexact HR
  isplitr; · iapply (reached_at (F := F) (c, some (1, 1))); iexact HR
  isplitr; · iapply (reached_at (F := F) (c, some (1, 2))); iexact HR
  isplitr; · iapply (reached_at (F := F) (c, some (2, 0))); iexact HR
  isplitr; · iapply (reached_at (F := F) (c, some (2, 1))); iexact HR
  isplitr; · iapply (reached_at (F := F) (c, some (2, 2))); iexact HR
  isplitr; · iapply (reached_at (F := F) (c, some (3, 0))); iexact HR
  isplitr; · iapply (reached_at (F := F) (c, some (3, 1))); iexact HR
  iapply (reached_at (F := F) (c, some (3, 2))); iexact HR

omit [FloatOps F] in
/-- The device's own state, item by item: thirteen positions, fifteen tokens. -/
theorem linear_open (c : Dev nD) : linear (F := F) c ⊢ iprop(BodyPre.ats c ∗ BodyPre.ptoks c) := by
  unfold linear payToks BodyPre.ats BodyPre.ptoks
  simp only [Launch.bigSep_CK, Launch.bigSep_triples, Launch.bigSep_fin3, Body.back0, Body.back1, Body.back2]
  iintro ⟨⟨Hab, ⟨H00, H01, H02⟩, ⟨H10, H11, H12⟩, ⟨H20, H21, H22⟩, H30, H31, H32⟩, ⟨⟨Ta0, Tb0, Tc0, Td0, Te0⟩, ⟨Ta1, Tb1, Tc1, Td1, Te1⟩, Ta2, Tb2, Tc2, Td2, Te2⟩⟩
  isplitl [Hab H00 H01 H02 H10 H11 H12 H20 H21 H22 H30 H31 H32]
  · isplitl [Hab]; · iexact Hab
    isplitl [H00]; · iexact H00
    isplitl [H01]; · iexact H01
    isplitl [H02]; · iexact H02
    isplitl [H10]; · iexact H10
    isplitl [H11]; · iexact H11
    isplitl [H12]; · iexact H12
    isplitl [H20]; · iexact H20
    isplitl [H21]; · iexact H21
    isplitl [H22]; · iexact H22
    isplitl [H30]; · iexact H30
    isplitl [H31]; · iexact H31
    iexact H32
  isplitl [Ta0]; · iexact Ta0
  isplitl [Tb0]; · iexact Tb0
  isplitl [Tc0]; · iexact Tc0
  isplitl [Td0]; · iexact Td0
  isplitl [Te0]; · iexact Te0
  isplitl [Ta1]; · iexact Ta1
  isplitl [Tb1]; · iexact Tb1
  isplitl [Tc1]; · iexact Tc1
  isplitl [Td1]; · iexact Td1
  isplitl [Te1]; · iexact Te1
  isplitl [Ta2]; · iexact Ta2
  isplitl [Tb2]; · iexact Tb2
  isplitl [Tc2]; · iexact Tc2
  isplitl [Td2]; · iexact Td2
  iexact Te2

def bodyPre' (c : Dev nD) : sProp 𝕄 :=
  iprop(Φ₀ kT vT kC vC c ∗ (dats m ρ kT vT kC vC outV 0 c).owesAt () t₀.castSucc
    ∗ (∃ d, stg c cc0_stg0_0 ((dats m ρ kT vT kC vC outV 0 c).before (0 : Fin 4) t₀ d))
    ∗ (∃ d, stg c cc0_stg1_0 ((dats m ρ kT vT kC vC outV 0 c).before (1 : Fin 4) t₀ d))
    ∗ (∃ d, stg c cc0_stg2_0 ((dats m ρ kT vT kC vC outV 0 c).before (2 : Fin 4) t₀ d))
    ∗ (∃ d, stg c cc0_stg3_0 ((dats m ρ kT vT kC vC outV 0 c).before (3 : Fin 4) t₀ d)))

set_option maxRecDepth 8000 in
/-- The library's body obligation on device `c`. -/
theorem body_obligation (hland : LoopFacts.Landings kT vT kC vC) (LF : LoopFacts.Loops m ρ kT vT kC vC outV qT a0 a1 a2 l0 l1 l2) (c : Dev nD) :
    BodyObligation (dats (F := F) m ρ kT vT kC vC outV 0 c) (defs₀ (F := F)) 𝒱₀ () Set.univ := fun t => by
  rw [fin_N t]
  rw [bigSep_W0, bigSep_W0]
  simp only [owns_whole_eq]
  show bodyPre' m ρ kT vT kC vC outV c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) (fun _ => bodyPost m ρ kT vT kC vC outV c)
  unfold bodyPre' Φ₀ start ghost
  rw [scopedRest0_eq]
  iintro ⟨⟨⟨⟨%K, Hrec, Hlin⟩, Hcred, #Hlev⟩, Hscr⟩, Ho, Hx0, Hx1, Hx2, Hx3⟩
  iapply (Body.sound_body m ρ kT vT kC vC outV K qT a0 a1 a2 l0 l1 l2 hland LF c fun _ => bodyPost m ρ kT vT kC vC outV c)
  ihave Hop := (records_open kT vT kC vC K c) $$ Hrec
  icases Hop with ⟨#Hinvs, #Hreach⟩
  ihave Hl := (linear_open c) $$ Hlin
  icases Hl with ⟨Hats, Hptoks⟩
  unfold bodyPre BodyPre.scr
  isplitr []
  · isplitr
    · isplitr; · iexact Hinvs
      isplitr; · iexact Hreach
      iexact Hlev
    isplitl [Hats]; · iexact Hats
    isplitl [Hptoks]; · iexact Hptoks
    isplitl [Hcred]; · iexact Hcred
    isplitl [Hscr]; · iexact Hscr
    isplitl [Ho]; · iexact Ho
    isplitl [Hx0]; · iexact Hx0
    isplitl [Hx1]; · iexact Hx1
    isplitl [Hx2]; · iexact Hx2
    iexact Hx3
  · iintro H; iexact H

end Cert.KernelIdeal.BodyOb

end
-- ==== Proof.Frames.lean ====
/-
  The run of the whole mesh, read.

  Every window of the kernel is a whole array staged whole, at the one grid point. The three input arrays are
  never written back, so they end as they began. The output array is written back once, whole: its one block
  is the whole array, so after the run it holds exactly what the body left in the output staging buffer, the
  device's result block.
-/
import proofs.«900413_g7700000000000414_dist_agattn_v7x_xyz2x4x4_z_b2_s512_h8_d64_bf16_1_alg».proof.Proof.BodyOb
import Idealize.ShloMosaic.Lib.Pipeline.Value

noncomputable section

namespace Cert.KernelIdeal.Frames

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.Sched Cert.KernelIdeal.Levels Cert.KernelIdeal.State Cert.KernelIdeal.BodyPre

variable {F : FTy → Type} [FloatOps F]

local notation "𝕄" => MT nD τ sig Unit (Elt F) ℕ UU ℕ

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))
variable (qT : (c : Dev nD) → Buf (Elt F) ((c : Thread nD τ).loc cc0_scratch0))
variable (a0 a1 a2 : (c : Dev nD) → Buf (Elt F) ((c : Thread nD τ).loc cc0_scratch5))
variable (l0 l1 l2 : (c : Dev nD) → Buf (Elt F) ((c : Thread nD τ).loc cc0_scratch6))

/-- What the one point writes back to the output array is the result block, read through the window's block. -/
theorem flushed3_eq (c : Dev nD) (t : Fin cfg0.N) :
    (dats m ρ kT vT kC vC outV 0 c).flushed 3 t = ((cfg0.win 3).blk t).view.read (Elt F) (outV c) := by
  show (cfg0.win 3).cut (grid0.coords t) (outV c) = _
  funext j
  show outV c ((cfg0.win 3).xinj (grid0.coords t) j) = outV c (((cfg0.win 3).blk t).view.emb j)
  congr 1
  funext a; apply Fin.ext
  show (j a).val = win0_3.index t a * S2x512x8x64.size a + 1 * (j a).val
  have h : win0_3.index t a = 0 := rfl
  rw [h]; omega

/-- An index of the output array is in the one block iff each coordinate is in range: always. -/
theorem mem_blk3 (t : Fin cfg0.N) (i : S2x512x8x64.Idx) :
    i ∈ ((cfg0.win 3).blk t).view.set ↔ ∀ a : Fin 4, win0_3.index t a * S2x512x8x64.size a ≤ (i a).val ∧ (i a).val < win0_3.index t a * S2x512x8x64.size a + S2x512x8x64.size a := by
  show i ∈ ((View.whole main_v1).slice (win0_3.rect t)).set ↔ _
  rw [View.set_slice_whole, Rect.mem_set_unit]
  exact Iff.rfl

/-- The output array after the run: the device's result block. -/
theorem final_out (c : Dev nD) : (dats m ρ kT vT kC vC outV 0 c).arrAt 3 cfg0.N = outV c :=
  (dats m ρ kT vT kC vC outV 0 c).arrAt_eq_of_cover 3 _ (fun t _ => flushed3_eq m ρ kT vT kC vC outV c t)
    (fun i => ⟨t₀, flush0_3 t₀, (mem_blk3 t₀ i).2 fun a => by
      have h : win0_3.index t₀ a = 0 := rfl
      have hi : (i a).val < S2x512x8x64.size a := (i a).isLt
      rw [h]; exact ⟨by omega, by omega⟩⟩)

/-- The run with every device's result named and its three inputs unchanged. -/
theorem run (hland : LoopFacts.Landings kT vT kC vC) (LF : LoopFacts.Loops m ρ kT vT kC vC outV qT a0 a1 a2 l0 l1 l2) :
    θ_run defs (onTc (τ := τ) (main (F := F))) ⟨m, fun _ => 0, ρ⟩ (fun r => ∀ c : Dev nD,
      r.2.mem ((c.tc : Thread nD τ).loc main_v1) = outV c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c 3).trans (final_out m ρ kT vT kC vC outV c),
       (h c 0).trans ((dats m ρ kT vT kC vC outV 0 c).arrAt_in 0 rfl _),
       (h c 1).trans ((dats m ρ kT vT kC vC outV 0 c).arrAt_in 1 rfl _),
       (h c 2).trans ((dats m ρ kT vT kC vC outV 0 c).arrAt_in 2 rfl _)⟩)
    (Launch.run_main m ρ kT vT kC vC outV (BodyOb.body_obligation m ρ kT vT kC vC outV qT a0 a1 a2 l0 l1 l2 hland LF))

/-- info: 'Cert.KernelIdeal.Frames.run' depends on axioms: [propext, Classical.choice, Quot.sound] -/
#guard_msgs in #print axioms run

end Cert.KernelIdeal.Frames

end
-- ==== Proof.LoopPieces.lean ====
/-
  What one trip of each of the six counted loops writes.

  Each loop runs sixteen trips, one per (batch, head) pair. A trip stores one tile into each buffer the loop
  writes: a unit-stride box at the trip's offset, holding a fixed function (a payload of the printed program)
  of the tiles the trip loaded. For the three accumulating passes one of those loads is the tile about to be
  overwritten. The lists of stored pieces are the witnesses of the trips' runs; here they are read off once,
  at the buffers the kernel is launched with, so that everything after can cite them as equations.
-/
import proofs.«900413_g7700000000000414_dist_agattn_v7x_xyz2x4x4_z_b2_s512_h8_d64_bf16_1_alg».proof.Proof.LoopsU

set_option maxRecDepth 8192

noncomputable section

namespace Cert.KernelIdeal.LoopPieces

open Cert.KernelIdeal Cert.KernelIdeal.Gen Cert.KernelIdeal.Cells Cert.KernelIdeal.LoopsU
open Idealize.ShloMosaic Idealize.ShloMosaic.TcCoe
open Idealize.SL Idealize.SL.RA Idealize.SL.BI
open scoped Idealize.SL.BI
open Idealize.SL.Sem

variable {F : FTy → Type} [FloatOps F]
variable (𝒱 : Variants) (c : Dev nD) (bd : Option 𝒱.V)

unseal trip_k0_t1U in
/-- A trip of the first loop transposes one (batch, head) tile of the key block and of the value block: it writes tile `k0_off2 k` of the two transposed blocks from rows `k0_off1 k` of the staged key and value blocks. -/
theorem pieces_t1 (d0 : Dev nD) (v2 : BitVec 32) (v5 : BitVec 32) (v8 : BitVec 32) (c0_i32_40 : BitVec 32) (c1_i32_42 : BitVec 32) (X_arg1 : BufTy.Contents (Elt F) kM.view.ty) (X_arg2 : BufTy.Contents (Elt F) vM.view.ty) (k : Fin k0_t1_loop.trips) (f_arg5 : BufTy.Contents (Elt F) klocM.view.ty) (f_arg6 : BufTy.Contents (Elt F) vlocM.view.ty) :
    tripL_k0_t1U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0_i32_40 c1_i32_42 X_arg1 X_arg2 k f_arg5 f_arg6
      = ([⟨Rect.unit (s := S2x8x64x512) (k0_off2 k) S1x1x64x512.size (k0_off2_inb k), k0_pay1 (kM.view.readAt (Elt F) (Rect.unit (s := S2x512x8x64) (k0_off1 k) S1x512x1x64.size (k0_off1_inb k)).toLoadRect X_arg1)⟩],
       [⟨Rect.unit (s := S2x8x64x512) (k0_off2 k) S1x1x64x512.size (k0_off2_inb k), k0_pay11 (vM.view.readAt (Elt F) (Rect.unit (s := S2x512x8x64) (k0_off1 k) S1x512x1x64.size (k0_off1_inb k)).toLoadRect X_arg2)⟩]) := by
  delta tripL_k0_t1U trip_k0_t1U
  rfl

unseal trip_k0_t2U in
/-- A trip of the second loop writes tile `k0_off4 k` of the transposed query block from rows `k0_off3 k` of the staged query block. -/
theorem pieces_t2 (d0 : Dev nD) (v2 : BitVec 32) (v5 : BitVec 32) (v8 : BitVec 32) (v148 : BitVec 32) (X_arg0 : BufTy.Contents (Elt F) qM.view.ty) (k : Fin k0_t2_loop.trips) :
    tripL_k0_t2U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 X_arg0 k
      = [⟨Rect.unit (s := S2x8x512x64) (k0_off4 k) S1x1x512x64.size (k0_off4_inb k), k0_pay12 (qM.view.readAt (Elt F) (Rect.unit (s := S2x512x8x64) (k0_off3 k) S1x512x1x64.size (k0_off3_inb k)).toLoadRect X_arg0)⟩] := by
  delta tripL_k0_t2U trip_k0_t2U
  rfl

unseal trip_k0_t3U in
/-- A trip of the first pass writes tile `k0_off5 k` of the accumulator and of the running sum, from the query tile there and the device's own key and value tiles `k0_off6 k`; the scores start from the zero matrix. -/
theorem pieces_t3 (d0 : Dev nD) (v2 : BitVec 32) (v5 : BitVec 32) (v8 : BitVec 32) (v148 : BitVec 32) (q5 q6 : PosShare TreeShare) (X_arg4 : BufTy.Contents (Elt F) qtM.view.ty) (X_arg5 : BufTy.Contents (Elt F) klocM.view.ty) (X_arg6 : BufTy.Contents (Elt F) vlocM.view.ty) (k : Fin k0_t3_loop.trips) :
    tripL_k0_t3U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 q5 q6 X_arg4 X_arg5 X_arg6 k
      = ([⟨Rect.unit (s := S2x8x512x64) (k0_off5 k) S1x1x512x64.size (k0_off5_inb k), k0_pay14 (k0_pay2 (qtM.view.readAt (Elt F) (Rect.unit (s := S2x8x512x64) (k0_off5 k) S1x1x512x64.size (k0_off5_inb k)).toLoadRect X_arg4)) (k0_pay3 (klocM.view.readAt (Elt F) (Rect.unit (s := S2x8x64x512) (k0_off6 k) S1x1x64x512.size (k0_off6_inb k)).toLoadRect X_arg5)) (k0_pay4 (vlocM.view.readAt (Elt F) (Rect.unit (s := S2x8x64x512) (k0_off6 k) S1x1x64x512.size (k0_off6_inb k)).toLoadRect X_arg6)) (constant S512x512 .f32 0#32)⟩],
       [⟨Rect.unit (s := S2x8x512x64) (k0_off5 k) S1x1x512x64.size (k0_off5_inb k), k0_pay15 (k0_pay2 (qtM.view.readAt (Elt F) (Rect.unit (s := S2x8x512x64) (k0_off5 k) S1x1x512x64.size (k0_off5_inb k)).toLoadRect X_arg4)) (k0_pay3 (klocM.view.readAt (Elt F) (Rect.unit (s := S2x8x64x512) (k0_off6 k) S1x1x64x512.size (k0_off6_inb k)).toLoadRect X_arg5)) (constant S512x512 .f32 0#32)⟩]) := by
  delta tripL_k0_t3U trip_k0_t3U
  rfl

unseal trip_k0_t4U in
/-- A trip of the second pass adds to tile `k0_off7 k` of the accumulator and of the running sum what the query tile there gives against tile `k0_off8 k` of the two landing buffers; the tile it overwrites is the one it reads. -/
theorem pieces_t4 (v2 : BitVec 32) (v5 : BitVec 32) (v8 : BitVec 32) (S7 : Finset (Idx (kcomM.view.loc (c : Thread nD τ)))) (S8 : Finset (Idx (vcomM.view.loc (c : Thread nD τ)))) (h7 : ∀ k : Fin k0_t4_loop.trips, kcomM.view.setOn (Rect.unit (s := S3x2x8x64x512) (k0_off8 k) S1x1x1x64x512.size (k0_off8_inb k)).toLoadRect.set ⊆ S7) (h8 : ∀ k : Fin k0_t4_loop.trips, vcomM.view.setOn (Rect.unit (s := S3x2x8x64x512) (k0_off8 k) S1x1x1x64x512.size (k0_off8_inb k)).toLoadRect.set ⊆ S8) (X_arg4 : BufTy.Contents (Elt F) qtM.view.ty) (X_arg7 : BufTy.Contents (Elt F) kcomM.view.ty) (X_arg8 : BufTy.Contents (Elt F) vcomM.view.ty) (k : Fin k0_t4_loop.trips) (f_arg9 : BufTy.Contents (Elt F) accM.view.ty) (f_arg10 : BufTy.Contents (Elt F) lsumM.view.ty) :
    tripL_k0_t4U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 S7 S8 h7 h8 X_arg4 X_arg7 X_arg8 k f_arg9 f_arg10
      = ([⟨Rect.unit (s := S2x8x512x64) (k0_off7 k) S1x1x512x64.size (k0_off7_inb k), k0_pay17 (k0_pay5 (qtM.view.readAt (Elt F) (Rect.unit (s := S2x8x512x64) (k0_off7 k) S1x1x512x64.size (k0_off7_inb k)).toLoadRect X_arg4)) (k0_pay6 (kcomM.view.readAt (Elt F) (Rect.unit (s := S3x2x8x64x512) (k0_off8 k) S1x1x1x64x512.size (k0_off8_inb k)).toLoadRect X_arg7)) (vcomM.view.readAt (Elt F) (Rect.unit (s := S3x2x8x64x512) (k0_off8 k) S1x1x1x64x512.size (k0_off8_inb k)).toLoadRect X_arg8) (accM.view.readAt (Elt F) (Rect.unit (s := S2x8x512x64) (k0_off7 k) S1x1x512x64.size (k0_off7_inb k)).toLoadRect f_arg9)⟩],
       [⟨Rect.unit (s := S2x8x512x64) (k0_off7 k) S1x1x512x64.size (k0_off7_inb k), k0_pay18 (k0_pay5 (qtM.view.readAt (Elt F) (Rect.unit (s := S2x8x512x64) (k0_off7 k) S1x1x512x64.size (k0_off7_inb k)).toLoadRect X_arg4)) (k0_pay6 (kcomM.view.readAt (Elt F) (Rect.unit (s := S3x2x8x64x512) (k0_off8 k) S1x1x1x64x512.size (k0_off8_inb k)).toLoadRect X_arg7)) (lsumM.view.readAt (Elt F) (Rect.unit (s := S2x8x512x64) (k0_off7 k) S1x1x512x64.size (k0_off7_inb k)).toLoadRect f_arg10)⟩]) := by
  delta tripL_k0_t4U trip_k0_t4U
  rfl

unseal trip_k0_t5U in
/-- A trip of the third pass: the same, at tiles `k0_off9 k` and `k0_off10 k`. -/
theorem pieces_t5 (v2 : BitVec 32) (v5 : BitVec 32) (v8 : BitVec 32) (v209 : BitVec 32) (S7 : Finset (Idx (kcomM.view.loc (c : Thread nD τ)))) (S8 : Finset (Idx (vcomM.view.loc (c : Thread nD τ)))) (h7 : ∀ k : Fin k0_t5_loop.trips, kcomM.view.setOn (Rect.unit (s := S3x2x8x64x512) (k0_off10 k) S1x1x1x64x512.size (k0_off10_inb k)).toLoadRect.set ⊆ S7) (h8 : ∀ k : Fin k0_t5_loop.trips, vcomM.view.setOn (Rect.unit (s := S3x2x8x64x512) (k0_off10 k) S1x1x1x64x512.size (k0_off10_inb k)).toLoadRect.set ⊆ S8) (X_arg4 : BufTy.Contents (Elt F) qtM.view.ty) (X_arg7 : BufTy.Contents (Elt F) kcomM.view.ty) (X_arg8 : BufTy.Contents (Elt F) vcomM.view.ty) (k : Fin k0_t5_loop.trips) (f_arg9 : BufTy.Contents (Elt F) accM.view.ty) (f_arg10 : BufTy.Contents (Elt F) lsumM.view.ty) :
    tripL_k0_t5U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 S7 S8 h7 h8 X_arg4 X_arg7 X_arg8 k f_arg9 f_arg10
      = ([⟨Rect.unit (s := S2x8x512x64) (k0_off9 k) S1x1x512x64.size (k0_off9_inb k), k0_pay20 (k0_pay7 (qtM.view.readAt (Elt F) (Rect.unit (s := S2x8x512x64) (k0_off9 k) S1x1x512x64.size (k0_off9_inb k)).toLoadRect X_arg4)) (k0_pay8 (kcomM.view.readAt (Elt F) (Rect.unit (s := S3x2x8x64x512) (k0_off10 k) S1x1x1x64x512.size (k0_off10_inb k)).toLoadRect X_arg7)) (vcomM.view.readAt (Elt F) (Rect.unit (s := S3x2x8x64x512) (k0_off10 k) S1x1x1x64x512.size (k0_off10_inb k)).toLoadRect X_arg8) (accM.view.readAt (Elt F) (Rect.unit (s := S2x8x512x64) (k0_off9 k) S1x1x512x64.size (k0_off9_inb k)).toLoadRect f_arg9)⟩],
       [⟨Rect.unit (s := S2x8x512x64) (k0_off9 k) S1x1x512x64.size (k0_off9_inb k), k0_pay21 (k0_pay7 (qtM.view.readAt (Elt F) (Rect.unit (s := S2x8x512x64) (k0_off9 k) S1x1x512x64.size (k0_off9_inb k)).toLoadRect X_arg4)) (k0_pay8 (kcomM.view.readAt (Elt F) (Rect.unit (s := S3x2x8x64x512) (k0_off10 k) S1x1x1x64x512.size (k0_off10_inb k)).toLoadRect X_arg7)) (lsumM.view.readAt (Elt F) (Rect.unit (s := S2x8x512x64) (k0_off9 k) S1x1x512x64.size (k0_off9_inb k)).toLoadRect f_arg10)⟩]) := by
  delta tripL_k0_t5U trip_k0_t5U
  rfl

unseal trip_k0_t6U in
/-- A trip of the last pass writes rows `k0_off13 k` of the staged result from the query tile, the accumulator tile and the running-sum tile at `k0_off11 k` and tile `k0_off12 k` of the two landing buffers. -/
theorem pieces_t6 (X_arg4 : BufTy.Contents (Elt F) qtM.view.ty) (X_arg7 : BufTy.Contents (Elt F) kcomM.view.ty) (X_arg8 : BufTy.Contents (Elt F) vcomM.view.ty) (X_arg9 : BufTy.Contents (Elt F) accM.view.ty) (X_arg10 : BufTy.Contents (Elt F) lsumM.view.ty) (k : Fin k0_t6_loop.trips) :
    tripL_k0_t6U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 X_arg4 X_arg7 X_arg8 X_arg9 X_arg10 k
      = [⟨Rect.unit (s := S2x512x8x64) (k0_off13 k) S1x512x1x64.size (k0_off13_inb k), k0_pay22 (k0_pay9 (qtM.view.readAt (Elt F) (Rect.unit (s := S2x8x512x64) (k0_off11 k) S1x1x512x64.size (k0_off11_inb k)).toLoadRect X_arg4)) (k0_pay10 (kcomM.view.readAt (Elt F) (Rect.unit (s := S3x2x8x64x512) (k0_off12 k) S1x1x1x64x512.size (k0_off12_inb k)).toLoadRect X_arg7)) (vcomM.view.readAt (Elt F) (Rect.unit (s := S3x2x8x64x512) (k0_off12 k) S1x1x1x64x512.size (k0_off12_inb k)).toLoadRect X_arg8) (accM.view.readAt (Elt F) (Rect.unit (s := S2x8x512x64) (k0_off11 k) S1x1x512x64.size (k0_off11_inb k)).toLoadRect X_arg9) (lsumM.view.readAt (Elt F) (Rect.unit (s := S2x8x512x64) (k0_off11 k) S1x1x512x64.size (k0_off11_inb k)).toLoadRect X_arg10)⟩] := by
  delta tripL_k0_t6U trip_k0_t6U
  rfl

/-- info: 'Cert.KernelIdeal.LoopPieces.pieces_t1' depends on axioms: [propext, Classical.choice, Quot.sound] -/
#guard_msgs in #print axioms pieces_t1
/-- info: 'Cert.KernelIdeal.LoopPieces.pieces_t2' depends on axioms: [propext, Classical.choice, Quot.sound] -/
#guard_msgs in #print axioms pieces_t2
/-- info: 'Cert.KernelIdeal.LoopPieces.pieces_t3' depends on axioms: [propext, Classical.choice, Quot.sound] -/
#guard_msgs in #print axioms pieces_t3
/-- info: 'Cert.KernelIdeal.LoopPieces.pieces_t4' depends on axioms: [propext, Classical.choice, Quot.sound] -/
#guard_msgs in #print axioms pieces_t4
/-- info: 'Cert.KernelIdeal.LoopPieces.pieces_t5' depends on axioms: [propext, Classical.choice, Quot.sound] -/
#guard_msgs in #print axioms pieces_t5
/-- info: 'Cert.KernelIdeal.LoopPieces.pieces_t6' depends on axioms: [propext, Classical.choice, Quot.sound] -/
#guard_msgs in #print axioms pieces_t6

end Cert.KernelIdeal.LoopPieces

end
-- ==== Proof.Values.lean ====
/-
  The contents by name.

  Every buffer the kernel fills is filled tile by tile, one tile per trip of a sixteen-trip loop, so what a
  loop leaves in a buffer is the overlay of its sixteen tiles: tile k sits at the offset the program gives
  trip k and holds the program's own function of the tiles the trip loaded. The definitions below name, for
  each device, in the order the kernel computes them: the transposed key and value blocks; the scaled query
  block; the accumulator and the running sum after the pass over the device's own keys; the two landing
  buffers once the three peers' blocks have arrived (slot r holds the r-th peer's transposed block); the
  accumulator and the running sum after the passes over slot 0 and over slot 1; and the result block, which
  the last pass, over slot 2, divides out.
  Then: each loop, run from the named contents before it, leaves the named contents after it; and each
  landing puts on its slot what the landing buffer is named to hold there.
-/
import proofs.«900413_g7700000000000414_dist_agattn_v7x_xyz2x4x4_z_b2_s512_h8_d64_bf16_1_alg».proof.Proof.LoopFacts
import proofs.«900413_g7700000000000414_dist_agattn_v7x_xyz2x4x4_z_b2_s512_h8_d64_bf16_1_alg».proof.Proof.LoopPieces
import proofs.«900413_g7700000000000414_dist_agattn_v7x_xyz2x4x4_z_b2_s512_h8_d64_bf16_1_alg».proof.Proof.Slots
import Idealize.ShloMosaic.Lib.Pipeline.FrameBody
import Idealize.ShloMosaic.Lib.Pipeline.Value

set_option maxRecDepth 8192

noncomputable section

namespace Cert.KernelIdeal.Values

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Cells Cert.KernelIdeal.Sched Cert.KernelIdeal.State Cert.KernelIdeal.LoopsU

variable {F : FTy → Type} [FloatOps F]

local notation "𝕄" => MT nD τ sig Unit (Elt F) ℕ UU ℕ

variable (m : (ℓ : Loc nD τ sig) → Buf (Elt F) ℓ) (ρ : Dev nD → PrngReg)

/-! ## The tiles of a loop, last trip first -/

/-- The first `j` of `n` things, the last of them first. -/
def upTo {α : Type} {n : ℕ} (p : Fin n → α) : (j : ℕ) → j ≤ n → List α
  | 0, _ => []
  | j + 1, h => p ⟨j, h⟩ :: upTo p j (Nat.le_of_succ_le h)

/-- All `n` of them. -/
def tiles {α : Type} {n : ℕ} (p : Fin n → α) : List α := upTo p n (Nat.le_refl n)

theorem mem_upTo {α : Type} {n : ℕ} (p : Fin n → α) (x : α) : ∀ (j : ℕ) (h : j ≤ n), x ∈ upTo p j h ↔ ∃ k : Fin n, k.val < j ∧ x = p k
  | 0, _ => by simp [upTo]
  | j + 1, h => by
    rw [upTo, List.mem_cons, mem_upTo p x j (Nat.le_of_succ_le h)]
    constructor
    · rintro (rfl | ⟨k, hk, rfl⟩)
      · exact ⟨⟨j, h⟩, Nat.lt_succ_self j, rfl⟩
      · exact ⟨k, Nat.lt_succ_of_lt hk, rfl⟩
    · rintro ⟨k, hk, rfl⟩
      rcases Nat.lt_succ_iff_lt_or_eq.mp hk with hk' | hk'
      · exact .inr ⟨k, hk', rfl⟩
      · exact .inl (congrArg p (Fin.ext hk'))

theorem mem_tiles {α : Type} {n : ℕ} (p : Fin n → α) (x : α) : x ∈ tiles p ↔ ∃ k : Fin n, x = p k := by
  unfold tiles; rw [mem_upTo]
  exact ⟨fun ⟨k, _, h⟩ => ⟨k, h⟩, fun ⟨k, h⟩ => ⟨k, k.isLt, h⟩⟩

/-! ## Loop 1: the transposed key and value blocks -/

def kPiece (c : Dev nD) (k : Fin k0_t1_loop.trips) : View.Piece (Elt F) S2x8x64x512 .bf16 :=
  ⟨Rect.unit (s := S2x8x64x512) (k0_off2 k) S1x1x64x512.size (k0_off2_inb k), k0_pay1 (kM.view.readAt (Elt F) (Rect.unit (s := S2x512x8x64) (k0_off1 k) S1x512x1x64.size (k0_off1_inb k)).toLoadRect (Kst m ρ c))⟩
def vPiece (c : Dev nD) (k : Fin k0_t1_loop.trips) : View.Piece (Elt F) S2x8x64x512 .bf16 :=
  ⟨Rect.unit (s := S2x8x64x512) (k0_off2 k) S1x1x64x512.size (k0_off2_inb k), k0_pay11 (vM.view.readAt (Elt F) (Rect.unit (s := S2x512x8x64) (k0_off1 k) S1x512x1x64.size (k0_off1_inb k)).toLoadRect (Vst m ρ c))⟩

def kT (c : Dev nD) : Buf (Elt F) ((klocM : Memref sig .tc .vmem S2x8x64x512 .bf16).view.loc (c : Thread nD τ)) := View.canon (tiles (kPiece m ρ c))
def vT (c : Dev nD) : Buf (Elt F) ((vlocM : Memref sig .tc .vmem S2x8x64x512 .bf16).view.loc (c : Thread nD τ)) := View.canon (tiles (vPiece m ρ c))

/-! ## Loop 2: the scaled query block -/

def qPiece (c : Dev nD) (k : Fin k0_t2_loop.trips) : View.Piece (Elt F) S2x8x512x64 .bf16 :=
  ⟨Rect.unit (s := S2x8x512x64) (k0_off4 k) S1x1x512x64.size (k0_off4_inb k), k0_pay12 (qM.view.readAt (Elt F) (Rect.unit (s := S2x512x8x64) (k0_off3 k) S1x512x1x64.size (k0_off3_inb k)).toLoadRect (Qst m ρ c))⟩

def qT (c : Dev nD) : Buf (Elt F) ((c : Thread nD τ).loc cc0_scratch0) := View.canon (tiles (qPiece m ρ c))

/-! ## Loop 3: the pass over the device's own keys -/

def a0Piece (c : Dev nD) (k : Fin k0_t3_loop.trips) : View.Piece (Elt F) S2x8x512x64 .f32 :=
  ⟨Rect.unit (s := S2x8x512x64) (k0_off5 k) S1x1x512x64.size (k0_off5_inb k), k0_pay14 (k0_pay2 (qtM.view.readAt (Elt F) (Rect.unit (s := S2x8x512x64) (k0_off5 k) S1x1x512x64.size (k0_off5_inb k)).toLoadRect (qT m ρ c))) (k0_pay3 (klocM.view.readAt (Elt F) (Rect.unit (s := S2x8x64x512) (k0_off6 k) S1x1x64x512.size (k0_off6_inb k)).toLoadRect (kT m ρ c))) (k0_pay4 (vlocM.view.readAt (Elt F) (Rect.unit (s := S2x8x64x512) (k0_off6 k) S1x1x64x512.size (k0_off6_inb k)).toLoadRect (vT m ρ c))) (constant S512x512 .f32 0#32)⟩
def l0Piece (c : Dev nD) (k : Fin k0_t3_loop.trips) : View.Piece (Elt F) S2x8x512x64 .f32 :=
  ⟨Rect.unit (s := S2x8x512x64) (k0_off5 k) S1x1x512x64.size (k0_off5_inb k), k0_pay15 (k0_pay2 (qtM.view.readAt (Elt F) (Rect.unit (s := S2x8x512x64) (k0_off5 k) S1x1x512x64.size (k0_off5_inb k)).toLoadRect (qT m ρ c))) (k0_pay3 (klocM.view.readAt (Elt F) (Rect.unit (s := S2x8x64x512) (k0_off6 k) S1x1x64x512.size (k0_off6_inb k)).toLoadRect (kT m ρ c))) (constant S512x512 .f32 0#32)⟩

def a0 (c : Dev nD) : Buf (Elt F) ((c : Thread nD τ).loc cc0_scratch5) := View.canon (tiles (a0Piece m ρ c))
def l0 (c : Dev nD) : Buf (Elt F) ((c : Thread nD τ).loc cc0_scratch6) := View.canon (tiles (l0Piece m ρ c))

/-! ## The landing buffers once full: slot r holds the r-th peer's transposed block -/

def kC (c : Dev nD) : Buf (Elt F) ((kcomM : Memref sig .tc .vmem S3x2x8x64x512 .bf16).view.loc (c : Thread nD τ)) :=
  (kslot0 : Memref sig .tc .vmem S2x8x64x512 .bf16).view.write (Elt F)
    ((kslot1 : Memref sig .tc .vmem S2x8x64x512 .bf16).view.write (Elt F)
      ((kslot2 : Memref sig .tc .vmem S2x8x64x512 .bf16).view.write (Elt F) (fun _ => Classical.arbitrary _)
        ((klocM : Memref sig .tc .vmem S2x8x64x512 .bf16).view.read (Elt F) (kT m ρ (peer 2 c))) Finset.univ)
      ((klocM : Memref sig .tc .vmem S2x8x64x512 .bf16).view.read (Elt F) (kT m ρ (peer 1 c))) Finset.univ)
    ((klocM : Memref sig .tc .vmem S2x8x64x512 .bf16).view.read (Elt F) (kT m ρ (peer 0 c))) Finset.univ
def vC (c : Dev nD) : Buf (Elt F) ((vcomM : Memref sig .tc .vmem S3x2x8x64x512 .bf16).view.loc (c : Thread nD τ)) :=
  (vslot0 : Memref sig .tc .vmem S2x8x64x512 .bf16).view.write (Elt F)
    ((vslot1 : Memref sig .tc .vmem S2x8x64x512 .bf16).view.write (Elt F)
      ((vslot2 : Memref sig .tc .vmem S2x8x64x512 .bf16).view.write (Elt F) (fun _ => Classical.arbitrary _)
        ((vlocM : Memref sig .tc .vmem S2x8x64x512 .bf16).view.read (Elt F) (vT m ρ (peer 2 c))) Finset.univ)
      ((vlocM : Memref sig .tc .vmem S2x8x64x512 .bf16).view.read (Elt F) (vT m ρ (peer 1 c))) Finset.univ)
    ((vlocM : Memref sig .tc .vmem S2x8x64x512 .bf16).view.read (Elt F) (vT m ρ (peer 0 c))) Finset.univ

/-! ## Loops 4 and 5: the passes over slot 0 and over slot 1 -/

def a1Piece (c : Dev nD) (k : Fin k0_t4_loop.trips) : View.Piece (Elt F) S2x8x512x64 .f32 :=
  ⟨Rect.unit (s := S2x8x512x64) (k0_off7 k) S1x1x512x64.size (k0_off7_inb k), k0_pay17 (k0_pay5 (qtM.view.readAt (Elt F) (Rect.unit (s := S2x8x512x64) (k0_off7 k) S1x1x512x64.size (k0_off7_inb k)).toLoadRect (qT m ρ c))) (k0_pay6 (kcomM.view.readAt (Elt F) (Rect.unit (s := S3x2x8x64x512) (k0_off8 k) S1x1x1x64x512.size (k0_off8_inb k)).toLoadRect (kC m ρ c))) (vcomM.view.readAt (Elt F) (Rect.unit (s := S3x2x8x64x512) (k0_off8 k) S1x1x1x64x512.size (k0_off8_inb k)).toLoadRect (vC m ρ c)) (accM.view.readAt (Elt F) (Rect.unit (s := S2x8x512x64) (k0_off7 k) S1x1x512x64.size (k0_off7_inb k)).toLoadRect (a0 m ρ c))⟩
def l1Piece (c : Dev nD) (k : Fin k0_t4_loop.trips) : View.Piece (Elt F) S2x8x512x64 .f32 :=
  ⟨Rect.unit (s := S2x8x512x64) (k0_off7 k) S1x1x512x64.size (k0_off7_inb k), k0_pay18 (k0_pay5 (qtM.view.readAt (Elt F) (Rect.unit (s := S2x8x512x64) (k0_off7 k) S1x1x512x64.size (k0_off7_inb k)).toLoadRect (qT m ρ c))) (k0_pay6 (kcomM.view.readAt (Elt F) (Rect.unit (s := S3x2x8x64x512) (k0_off8 k) S1x1x1x64x512.size (k0_off8_inb k)).toLoadRect (kC m ρ c))) (lsumM.view.readAt (Elt F) (Rect.unit (s := S2x8x512x64) (k0_off7 k) S1x1x512x64.size (k0_off7_inb k)).toLoadRect (l0 m ρ c))⟩

def a1 (c : Dev nD) : Buf (Elt F) ((c : Thread nD τ).loc cc0_scratch5) := View.canon (tiles (a1Piece m ρ c))
def l1 (c : Dev nD) : Buf (Elt F) ((c : Thread nD τ).loc cc0_scratch6) := View.canon (tiles (l1Piece m ρ c))

def a2Piece (c : Dev nD) (k : Fin k0_t5_loop.trips) : View.Piece (Elt F) S2x8x512x64 .f32 :=
  ⟨Rect.unit (s := S2x8x512x64) (k0_off9 k) S1x1x512x64.size (k0_off9_inb k), k0_pay20 (k0_pay7 (qtM.view.readAt (Elt F) (Rect.unit (s := S2x8x512x64) (k0_off9 k) S1x1x512x64.size (k0_off9_inb k)).toLoadRect (qT m ρ c))) (k0_pay8 (kcomM.view.readAt (Elt F) (Rect.unit (s := S3x2x8x64x512) (k0_off10 k) S1x1x1x64x512.size (k0_off10_inb k)).toLoadRect (kC m ρ c))) (vcomM.view.readAt (Elt F) (Rect.unit (s := S3x2x8x64x512) (k0_off10 k) S1x1x1x64x512.size (k0_off10_inb k)).toLoadRect (vC m ρ c)) (accM.view.readAt (Elt F) (Rect.unit (s := S2x8x512x64) (k0_off9 k) S1x1x512x64.size (k0_off9_inb k)).toLoadRect (a1 m ρ c))⟩
def l2Piece (c : Dev nD) (k : Fin k0_t5_loop.trips) : View.Piece (Elt F) S2x8x512x64 .f32 :=
  ⟨Rect.unit (s := S2x8x512x64) (k0_off9 k) S1x1x512x64.size (k0_off9_inb k), k0_pay21 (k0_pay7 (qtM.view.readAt (Elt F) (Rect.unit (s := S2x8x512x64) (k0_off9 k) S1x1x512x64.size (k0_off9_inb k)).toLoadRect (qT m ρ c))) (k0_pay8 (kcomM.view.readAt (Elt F) (Rect.unit (s := S3x2x8x64x512) (k0_off10 k) S1x1x1x64x512.size (k0_off10_inb k)).toLoadRect (kC m ρ c))) (lsumM.view.readAt (Elt F) (Rect.unit (s := S2x8x512x64) (k0_off9 k) S1x1x512x64.size (k0_off9_inb k)).toLoadRect (l1 m ρ c))⟩

def a2 (c : Dev nD) : Buf (Elt F) ((c : Thread nD τ).loc cc0_scratch5) := View.canon (tiles (a2Piece m ρ c))
def l2 (c : Dev nD) : Buf (Elt F) ((c : Thread nD τ).loc cc0_scratch6) := View.canon (tiles (l2Piece m ρ c))

/-! ## Loop 6: the pass over slot 2, and the quotient -/

def oPiece (c : Dev nD) (k : Fin k0_t6_loop.trips) : View.Piece (Elt F) S2x512x8x64 .f32 :=
  ⟨Rect.unit (s := S2x512x8x64) (k0_off13 k) S1x512x1x64.size (k0_off13_inb k), k0_pay22 (k0_pay9 (qtM.view.readAt (Elt F) (Rect.unit (s := S2x8x512x64) (k0_off11 k) S1x1x512x64.size (k0_off11_inb k)).toLoadRect (qT m ρ c))) (k0_pay10 (kcomM.view.readAt (Elt F) (Rect.unit (s := S3x2x8x64x512) (k0_off12 k) S1x1x1x64x512.size (k0_off12_inb k)).toLoadRect (kC m ρ c))) (vcomM.view.readAt (Elt F) (Rect.unit (s := S3x2x8x64x512) (k0_off12 k) S1x1x1x64x512.size (k0_off12_inb k)).toLoadRect (vC m ρ c)) (accM.view.readAt (Elt F) (Rect.unit (s := S2x8x512x64) (k0_off11 k) S1x1x512x64.size (k0_off11_inb k)).toLoadRect (a2 m ρ c)) (lsumM.view.readAt (Elt F) (Rect.unit (s := S2x8x512x64) (k0_off11 k) S1x1x512x64.size (k0_off11_inb k)).toLoadRect (l2 m ρ c))⟩

def outV (c : Dev nD) : (cc0_stg3_0 : Ref sig .tc).ty.Contents (Elt F) := View.canon (tiles (oPiece m ρ c))

end Cert.KernelIdeal.Values

end
-- ==== Proof.ValLandings.lean ====
/-
  The landings.

  A landing buffer is named, slot by slot, as the three peers' transposed blocks written over arbitrary
  contents. The slots are disjoint, so on slot r's elements the buffer holds the r-th peer's block whatever
  the other two writes did; and copy j of a device lands in slot 2 - j of its j-th peer, whose (2 - j)-th
  peer is the device itself.
-/
import proofs.«900413_g7700000000000414_dist_agattn_v7x_xyz2x4x4_z_b2_s512_h8_d64_bf16_1_alg».proof.Proof.Values
import proofs.«900413_g7700000000000414_dist_agattn_v7x_xyz2x4x4_z_b2_s512_h8_d64_bf16_1_alg».proof.Proof.LoopFacts
import proofs.«900413_g7700000000000414_dist_agattn_v7x_xyz2x4x4_z_b2_s512_h8_d64_bf16_1_alg».proof.Proof.Slots

set_option maxRecDepth 8192

noncomputable section

namespace Cert.KernelIdeal.ValLandings

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Cells Cert.KernelIdeal.Sched Cert.KernelIdeal.State Cert.KernelIdeal.LoopsU Cert.KernelIdeal.Values

variable {F : FTy → Type} [FloatOps F]

local notation "𝕄" => MT nD τ sig Unit (Elt F) ℕ UU ℕ

variable (m : (ℓ : Loc nD τ sig) → Buf (Elt F) ℓ) (ρ : Dev nD → PrngReg)

theorem kC_on0 (c : Dev nD) (fd : Buf (Elt F) ((kslot0 : Memref sig .tc .vmem S2x8x64x512 .bf16).view.loc (c : Thread nD τ))) (i) (hi : i ∈ (kslot0 : Memref sig .tc .vmem S2x8x64x512 .bf16).view.set) :
    kC m ρ c i = (kslot0 : Memref sig .tc .vmem S2x8x64x512 .bf16).view.write (Elt F) fd ((klocM : Memref sig .tc .vmem S2x8x64x512 .bf16).view.read (Elt F) (kT m ρ (peer 0 c))) Finset.univ i := by
  obtain ⟨y, rfl⟩ := View.exists_emb_of_mem_set _ hi
  unfold kC
  rw [View.write_emb_of_mem _ _ (Finset.mem_univ y), View.write_emb_of_mem _ _ (Finset.mem_univ y)]

theorem kC_on1 (c : Dev nD) (fd : Buf (Elt F) ((kslot1 : Memref sig .tc .vmem S2x8x64x512 .bf16).view.loc (c : Thread nD τ))) (i) (hi : i ∈ (kslot1 : Memref sig .tc .vmem S2x8x64x512 .bf16).view.set) :
    kC m ρ c i = (kslot1 : Memref sig .tc .vmem S2x8x64x512 .bf16).view.write (Elt F) fd ((klocM : Memref sig .tc .vmem S2x8x64x512 .bf16).view.read (Elt F) (kT m ρ (peer 1 c))) Finset.univ i := by
  have h0 : i ∉ (kslot0 : Memref sig .tc .vmem S2x8x64x512 .bf16).view.setOn Finset.univ := by
    rw [View.setOn_univ, Slots.k0set]; rw [Slots.k1set] at hi; exact Finset.disjoint_right.mp Slots.d01 hi
  unfold kC
  rw [View.write_of_not_mem _ _ _ h0]
  obtain ⟨y, rfl⟩ := View.exists_emb_of_mem_set _ hi
  rw [View.write_emb_of_mem _ _ (Finset.mem_univ y), View.write_emb_of_mem _ _ (Finset.mem_univ y)]

theorem kC_on2 (c : Dev nD) (fd : Buf (Elt F) ((kslot2 : Memref sig .tc .vmem S2x8x64x512 .bf16).view.loc (c : Thread nD τ))) (i) (hi : i ∈ (kslot2 : Memref sig .tc .vmem S2x8x64x512 .bf16).view.set) :
    kC m ρ c i = (kslot2 : Memref sig .tc .vmem S2x8x64x512 .bf16).view.write (Elt F) fd ((klocM : Memref sig .tc .vmem S2x8x64x512 .bf16).view.read (Elt F) (kT m ρ (peer 2 c))) Finset.univ i := by
  have h0 : i ∉ (kslot0 : Memref sig .tc .vmem S2x8x64x512 .bf16).view.setOn Finset.univ := by
    rw [View.setOn_univ, Slots.k0set]; rw [Slots.k2set] at hi; exact Finset.disjoint_right.mp Slots.d02 hi
  have h1 : i ∉ (kslot1 : Memref sig .tc .vmem S2x8x64x512 .bf16).view.setOn Finset.univ := by
    rw [View.setOn_univ, Slots.k1set]; rw [Slots.k2set] at hi; exact Finset.disjoint_right.mp Slots.d12 hi
  unfold kC
  rw [View.write_of_not_mem _ _ _ h0, View.write_of_not_mem _ _ _ h1]
  obtain ⟨y, rfl⟩ := View.exists_emb_of_mem_set _ hi
  rw [View.write_emb_of_mem _ _ (Finset.mem_univ y), View.write_emb_of_mem _ _ (Finset.mem_univ y)]

theorem vC_on0 (c : Dev nD) (fd : Buf (Elt F) ((vslot0 : Memref sig .tc .vmem S2x8x64x512 .bf16).view.loc (c : Thread nD τ))) (i) (hi : i ∈ (vslot0 : Memref sig .tc .vmem S2x8x64x512 .bf16).view.set) :
    vC m ρ c i = (vslot0 : Memref sig .tc .vmem S2x8x64x512 .bf16).view.write (Elt F) fd ((vlocM : Memref sig .tc .vmem S2x8x64x512 .bf16).view.read (Elt F) (vT m ρ (peer 0 c))) Finset.univ i := by
  obtain ⟨y, rfl⟩ := View.exists_emb_of_mem_set _ hi
  unfold vC
  rw [View.write_emb_of_mem _ _ (Finset.mem_univ y), View.write_emb_of_mem _ _ (Finset.mem_univ y)]

theorem vC_on1 (c : Dev nD) (fd : Buf (Elt F) ((vslot1 : Memref sig .tc .vmem S2x8x64x512 .bf16).view.loc (c : Thread nD τ))) (i) (hi : i ∈ (vslot1 : Memref sig .tc .vmem S2x8x64x512 .bf16).view.set) :
    vC m ρ c i = (vslot1 : Memref sig .tc .vmem S2x8x64x512 .bf16).view.write (Elt F) fd ((vlocM : Memref sig .tc .vmem S2x8x64x512 .bf16).view.read (Elt F) (vT m ρ (peer 1 c))) Finset.univ i := by
  have h0 : i ∉ (vslot0 : Memref sig .tc .vmem S2x8x64x512 .bf16).view.setOn Finset.univ := by
    rw [View.setOn_univ, Slots.v0set]; rw [Slots.v1set] at hi; exact Finset.disjoint_right.mp Slots.d01 hi
  unfold vC
  rw [View.write_of_not_mem _ _ _ h0]
  obtain ⟨y, rfl⟩ := View.exists_emb_of_mem_set _ hi
  rw [View.write_emb_of_mem _ _ (Finset.mem_univ y), View.write_emb_of_mem _ _ (Finset.mem_univ y)]

theorem vC_on2 (c : Dev nD) (fd : Buf (Elt F) ((vslot2 : Memref sig .tc .vmem S2x8x64x512 .bf16).view.loc (c : Thread nD τ))) (i) (hi : i ∈ (vslot2 : Memref sig .tc .vmem S2x8x64x512 .bf16).view.set) :
    vC m ρ c i = (vslot2 : Memref sig .tc .vmem S2x8x64x512 .bf16).view.write (Elt F) fd ((vlocM : Memref sig .tc .vmem S2x8x64x512 .bf16).view.read (Elt F) (vT m ρ (peer 2 c))) Finset.univ i := by
  have h0 : i ∉ (vslot0 : Memref sig .tc .vmem S2x8x64x512 .bf16).view.setOn Finset.univ := by
    rw [View.setOn_univ, Slots.v0set]; rw [Slots.v2set] at hi; exact Finset.disjoint_right.mp Slots.d02 hi
  have h1 : i ∉ (vslot1 : Memref sig .tc .vmem S2x8x64x512 .bf16).view.setOn Finset.univ := by
    rw [View.setOn_univ, Slots.v1set]; rw [Slots.v2set] at hi; exact Finset.disjoint_right.mp Slots.d12 hi
  unfold vC
  rw [View.write_of_not_mem _ _ _ h0, View.write_of_not_mem _ _ _ h1]
  obtain ⟨y, rfl⟩ := View.exists_emb_of_mem_set _ hi
  rw [View.write_emb_of_mem _ _ (Finset.mem_univ y), View.write_emb_of_mem _ _ (Finset.mem_univ y)]

/-- Copy j of device `c` lands in slot 2 - j of its j-th peer, whose (2 - j)-th peer is `c`. -/
theorem landings : LoopFacts.Landings (kT m ρ) (vT m ρ) (kC m ρ) (vC m ρ) where
  k0 c fd i hi := by rw [kC_on2 m ρ (peer 0 c) fd i hi, show peer 2 (peer 0 c) = c from peer_back_peer 0 c]
  v0 c fd i hi := by rw [vC_on2 m ρ (peer 0 c) fd i hi, show peer 2 (peer 0 c) = c from peer_back_peer 0 c]
  k1 c fd i hi := by rw [kC_on1 m ρ (peer 1 c) fd i hi, show peer 1 (peer 1 c) = c from peer_back_peer 1 c]
  v1 c fd i hi := by rw [vC_on1 m ρ (peer 1 c) fd i hi, show peer 1 (peer 1 c) = c from peer_back_peer 1 c]
  k2 c fd i hi := by rw [kC_on0 m ρ (peer 2 c) fd i hi, show peer 0 (peer 2 c) = c from peer_back_peer 2 c]
  v2 c fd i hi := by rw [vC_on0 m ρ (peer 2 c) fd i hi, show peer 0 (peer 2 c) = c from peer_back_peer 2 c]

/-- info: 'Cert.KernelIdeal.ValLandings.landings' depends on axioms: [propext, Classical.choice, Quot.sound] -/
#guard_msgs in #print axioms landings

end Cert.KernelIdeal.ValLandings

end
-- ==== Proof.ValCommon.lean ====
/-
  Tools for the loops' value facts.

  A loop's sixteen tiles tile the buffer it fills: they cover it, and tiles of different trips are disjoint
  (trip k's tile is the unit-thick box at batch k / 8 and head k % 8). So a whole buffer written tile by tile
  holds the overlay of the tiles whatever it held before, and a trip that reads the tile it is about to
  overwrite reads what the buffer held before the loop.
-/
import proofs.«900413_g7700000000000414_dist_agattn_v7x_xyz2x4x4_z_b2_s512_h8_d64_bf16_1_alg».proof.Proof.Values
import Idealize.ShloMosaic.Lib.Ring
import Idealize.ShloMosaic.Lib.Tactic

set_option maxRecDepth 8192

noncomputable section

namespace Cert.KernelIdeal.ValCommon

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.Sem
open Cert.KernelIdeal.Cells Cert.KernelIdeal.Values

variable {F : FTy → Type} [FloatOps F]

/-! ## The tiles the loops store, by loop -/

abbrev R2 (k : Fin k0_t1_loop.trips) : Rect S2x8x64x512 := Rect.unit (s := S2x8x64x512) (k0_off2 k) S1x1x64x512.size (k0_off2_inb k)
abbrev R4 (k : Fin k0_t2_loop.trips) : Rect S2x8x512x64 := Rect.unit (s := S2x8x512x64) (k0_off4 k) S1x1x512x64.size (k0_off4_inb k)
abbrev R5 (k : Fin k0_t3_loop.trips) : Rect S2x8x512x64 := Rect.unit (s := S2x8x512x64) (k0_off5 k) S1x1x512x64.size (k0_off5_inb k)
abbrev R7 (k : Fin k0_t4_loop.trips) : Rect S2x8x512x64 := Rect.unit (s := S2x8x512x64) (k0_off7 k) S1x1x512x64.size (k0_off7_inb k)
abbrev R9 (k : Fin k0_t5_loop.trips) : Rect S2x8x512x64 := Rect.unit (s := S2x8x512x64) (k0_off9 k) S1x1x512x64.size (k0_off9_inb k)
abbrev R13 (k : Fin k0_t6_loop.trips) : Rect S2x512x8x64 := Rect.unit (s := S2x512x8x64) (k0_off13 k) S1x512x1x64.size (k0_off13_inb k)

/-! ## They cover -/

theorem cover2 {e : EltTy} (w : (k : Fin k0_t1_loop.trips) → (R2 k).shape.Idx → Elt F e) :
    ∀ y, ∃ q ∈ tiles (fun k => (⟨R2 k, w k⟩ : View.Piece (Elt F) S2x8x64x512 e)), y ∈ q.1.set :=
  View.cover_of_tiledL _ S1x1x64x512.size (by sl_kernel_rfl)
theorem cover4 {e : EltTy} (w : (k : Fin k0_t2_loop.trips) → (R4 k).shape.Idx → Elt F e) :
    ∀ y, ∃ q ∈ tiles (fun k => (⟨R4 k, w k⟩ : View.Piece (Elt F) S2x8x512x64 e)), y ∈ q.1.set :=
  View.cover_of_tiledL _ S1x1x512x64.size (by sl_kernel_rfl)
theorem cover5 {e : EltTy} (w : (k : Fin k0_t3_loop.trips) → (R5 k).shape.Idx → Elt F e) :
    ∀ y, ∃ q ∈ tiles (fun k => (⟨R5 k, w k⟩ : View.Piece (Elt F) S2x8x512x64 e)), y ∈ q.1.set :=
  View.cover_of_tiledL _ S1x1x512x64.size (by sl_kernel_rfl)
theorem cover7 {e : EltTy} (w : (k : Fin k0_t4_loop.trips) → (R7 k).shape.Idx → Elt F e) :
    ∀ y, ∃ q ∈ tiles (fun k => (⟨R7 k, w k⟩ : View.Piece (Elt F) S2x8x512x64 e)), y ∈ q.1.set :=
  View.cover_of_tiledL _ S1x1x512x64.size (by sl_kernel_rfl)
theorem cover9 {e : EltTy} (w : (k : Fin k0_t5_loop.trips) → (R9 k).shape.Idx → Elt F e) :
    ∀ y, ∃ q ∈ tiles (fun k => (⟨R9 k, w k⟩ : View.Piece (Elt F) S2x8x512x64 e)), y ∈ q.1.set :=
  View.cover_of_tiledL _ S1x1x512x64.size (by sl_kernel_rfl)
theorem cover13 {e : EltTy} (w : (k : Fin k0_t6_loop.trips) → (R13 k).shape.Idx → Elt F e) :
    ∀ y, ∃ q ∈ tiles (fun k => (⟨R13 k, w k⟩ : View.Piece (Elt F) S2x512x8x64 e)), y ∈ q.1.set :=
  View.cover_of_tiledL _ S1x512x1x64.size (by sl_kernel_rfl)

/-! ## Tiles of different trips are disjoint (the two passes that read what they overwrite) -/

theorem sep7 : ∀ k k' : Fin k0_t4_loop.trips, k ≠ k' →
    (k0_off7 k ⟨0, by decide⟩ + S1x1x512x64.size ⟨0, by decide⟩ ≤ k0_off7 k' ⟨0, by decide⟩ ∨ k0_off7 k' ⟨0, by decide⟩ + S1x1x512x64.size ⟨0, by decide⟩ ≤ k0_off7 k ⟨0, by decide⟩)
    ∨ (k0_off7 k ⟨1, by decide⟩ + S1x1x512x64.size ⟨1, by decide⟩ ≤ k0_off7 k' ⟨1, by decide⟩ ∨ k0_off7 k' ⟨1, by decide⟩ + S1x1x512x64.size ⟨1, by decide⟩ ≤ k0_off7 k ⟨1, by decide⟩) := by
  decide +kernel
theorem sep9 : ∀ k k' : Fin k0_t5_loop.trips, k ≠ k' →
    (k0_off9 k ⟨0, by decide⟩ + S1x1x512x64.size ⟨0, by decide⟩ ≤ k0_off9 k' ⟨0, by decide⟩ ∨ k0_off9 k' ⟨0, by decide⟩ + S1x1x512x64.size ⟨0, by decide⟩ ≤ k0_off9 k ⟨0, by decide⟩)
    ∨ (k0_off9 k ⟨1, by decide⟩ + S1x1x512x64.size ⟨1, by decide⟩ ≤ k0_off9 k' ⟨1, by decide⟩ ∨ k0_off9 k' ⟨1, by decide⟩ + S1x1x512x64.size ⟨1, by decide⟩ ≤ k0_off9 k ⟨1, by decide⟩) := by
  decide +kernel

theorem disjoint7 {k k' : Fin k0_t4_loop.trips} (h : k ≠ k') : Disjoint (R7 k).set (R7 k').set := by
  rcases sep7 k k' h with h0 | h1
  · exact Rect.unit_disjoint ⟨0, by decide⟩ h0
  · exact Rect.unit_disjoint ⟨1, by decide⟩ h1
theorem disjoint9 {k k' : Fin k0_t5_loop.trips} (h : k ≠ k') : Disjoint (R9 k).set (R9 k').set := by
  rcases sep9 k k' h with h0 | h1
  · exact Rect.unit_disjoint ⟨0, by decide⟩ h0
  · exact Rect.unit_disjoint ⟨1, by decide⟩ h1

/-! ## A whole buffer written over a cover holds the overlay -/

/-- For a whole buffer the contents are what a read of them gives, so the writes of a covering list of pieces
    over ANY contents are the overlay of the pieces. -/
theorem whole_writes_eq_canon (b : Ref sig .tc) (G : b.ty.Contents (Elt F)) (L : List (View.Piece (Elt F) b.ty.shape b.ty.elt))
    (h : ∀ y, ∃ q ∈ L, y ∈ q.1.set) : (View.whole b).writes (Elt F) G L = View.canon L :=
  View.read_writes_eq_canon (View.whole b) G L h

/-- The contents a list of pieces leaves at an index none of them holds are the contents before. -/
theorem whole_writes_apply_of_not_mem (b : Ref sig .tc) (G : b.ty.Contents (Elt F)) (L : List (View.Piece (Elt F) b.ty.shape b.ty.elt))
    (y : b.ty.shape.Idx) (h : ∀ q ∈ L, y ∉ q.1.set) : (View.whole b).writes (Elt F) G L y = G y :=
  View.read_writes_apply_of_forall_not_mem (View.whole b) G y L h

/-- info: 'Cert.KernelIdeal.ValCommon.cover2' depends on axioms: [propext, Classical.choice, Quot.sound] -/
#guard_msgs in #print axioms cover2
/-- info: 'Cert.KernelIdeal.ValCommon.disjoint7' depends on axioms: [propext, Classical.choice, Quot.sound] -/
#guard_msgs in #print axioms disjoint7

end Cert.KernelIdeal.ValCommon

end
-- ==== Proof.ValLoop1.lean ====
/-
  Loop 1: the transposed key and value blocks.

  Trip k writes tile k of the two transposed blocks from rows of the staged key and value blocks, which the
  loop does not change; so after j trips the pieces written are the first j tiles, and after all sixteen the
  two buffers hold the overlay of their sixteen tiles, whatever they held on entry.
-/
import proofs.«900413_g7700000000000414_dist_agattn_v7x_xyz2x4x4_z_b2_s512_h8_d64_bf16_1_alg».proof.Proof.Values
import proofs.«900413_g7700000000000414_dist_agattn_v7x_xyz2x4x4_z_b2_s512_h8_d64_bf16_1_alg».proof.Proof.ValCommon
import proofs.«900413_g7700000000000414_dist_agattn_v7x_xyz2x4x4_z_b2_s512_h8_d64_bf16_1_alg».proof.Proof.LoopPieces
import proofs.«900413_g7700000000000414_dist_agattn_v7x_xyz2x4x4_z_b2_s512_h8_d64_bf16_1_alg».proof.Proof.LoopFacts

set_option maxRecDepth 8192

noncomputable section

namespace Cert.KernelIdeal.ValLoop1

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Cells Cert.KernelIdeal.Sched Cert.KernelIdeal.State Cert.KernelIdeal.LoopsU Cert.KernelIdeal.Values Cert.KernelIdeal.ValCommon

variable {F : FTy → Type} [FloatOps F]

local notation "𝕄" => MT nD τ sig Unit (Elt F) ℕ UU ℕ

variable (m : (ℓ : Loc nD τ sig) → Buf (Elt F) ℓ) (ρ : Dev nD → PrngReg)

set_option warn.classDefReducibility false in
/-- The loop's invariant instance at the staged inputs and at the contents the two buffers hold on entry. -/
def L1 (c d0 : Dev nD) (v2 v5 v8 c0 c1 : BitVec 32) (fk : Buf (Elt F) ((c : Thread nD τ).loc cc0_scratch1)) (fv : Buf (Elt F) ((c : Thread nD τ).loc cc0_scratch2)) :
    Gen.LoopInvTy_k0_t1 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 c0 c1 :=
  loopInv_k0_t1U (F := F) 𝒱₀ c none Set.univ qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0 c1 (Kst m ρ c) (Vst m ρ c) fk fv

/-- After j trips the pieces written are the first j tiles. -/
theorem pb_upTo (c d0 : Dev nD) (v2 v5 v8 c0 c1 : BitVec 32) (fk : Buf (Elt F) ((c : Thread nD τ).loc cc0_scratch1)) (fv : Buf (Elt F) ((c : Thread nD τ).loc cc0_scratch2)) :
    ∀ (j : ℕ) (h : j ≤ k0_t1_loop.trips),
      pb_k0_t1U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0 c1 (Kst m ρ c) (Vst m ρ c) fk fv j
        = (upTo (kPiece m ρ c) j h, upTo (vPiece m ρ c) j h)
  | 0, _ => rfl
  | j + 1, h => by
    refine (pb_k0_t1U_succ (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0 c1 (Kst m ρ c) (Vst m ρ c) fk fv ⟨j, h⟩).trans ?_
    rw [LoopPieces.pieces_t1, pb_upTo c d0 v2 v5 v8 c0 c1 fk fv j (Nat.le_of_succ_le h)]
    rfl

theorem in1 (c d0 : Dev nD) (v2 v5 v8 c0 c1 : BitVec 32) (fk : Buf (Elt F) ((c : Thread nD τ).loc cc0_scratch1)) (fv : Buf (Elt F) ((c : Thread nD τ).loc cc0_scratch2)) :
    (iprop((((c : Thread nD τ).loc cc0_stg1_0) ↦{fullShare} Kst m ρ c)
        ∗ (((c : Thread nD τ).loc cc0_stg2_0) ↦{fullShare} Vst m ρ c)
        ∗ (((c : Thread nD τ).loc cc0_scratch1) ↦{fullShare} fk)
        ∗ (((c : Thread nD τ).loc cc0_scratch2) ↦{fullShare} fv)) : sProp 𝕄)
      ⊢ (L1 m ρ c d0 v2 v5 v8 c0 c1 fk fv).inv 0 () := by
  show _ ⊢ inv_k0_t1U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0 c1 (Kst m ρ c) (Vst m ρ c) fk fv 0 ()
  dsimp only [inv_k0_t1U]
  simp only [Memref.view_whole, View.set_whole]
  iintro ⟨HK, HV, Hk, Hv⟩
  isplitl [HK]; · iexact HK
  isplitl [HV]; · iexact HV
  isplitl [Hk]
  · iexists fk; isplitl [Hk]; · iexact Hk
    ipureintro; rfl
  iexists fv; isplitl [Hv]; · iexact Hv
  ipureintro; rfl

theorem out1 (c d0 : Dev nD) (v2 v5 v8 c0 c1 : BitVec 32) (fk : Buf (Elt F) ((c : Thread nD τ).loc cc0_scratch1)) (fv : Buf (Elt F) ((c : Thread nD τ).loc cc0_scratch2)) :
    (L1 m ρ c d0 v2 v5 v8 c0 c1 fk fv).inv (Scf.trips k0_t1_loop.lb k0_t1_loop.ub k0_t1_loop.st) ()
      ⊢ (iprop((((c : Thread nD τ).loc cc0_stg1_0) ↦{fullShare} Kst m ρ c)
        ∗ (((c : Thread nD τ).loc cc0_stg2_0) ↦{fullShare} Vst m ρ c)
        ∗ (((c : Thread nD τ).loc cc0_scratch1) ↦{fullShare} kT m ρ c)
        ∗ (((c : Thread nD τ).loc cc0_scratch2) ↦{fullShare} vT m ρ c)) : sProp 𝕄) := by
  show inv_k0_t1U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0 c1 (Kst m ρ c) (Vst m ρ c) fk fv k0_t1_loop.trips () ⊢ _
  dsimp only [inv_k0_t1U]
  rw [pb_upTo m ρ c d0 v2 v5 v8 c0 c1 fk fv k0_t1_loop.trips (Nat.le_refl _)]
  simp only [Memref.view_whole, View.set_whole]
  iintro ⟨HK, HV, ⟨%f5, Hk, %h5⟩, ⟨%f6, Hv, %h6⟩⟩
  have e5 : f5 = kT m ρ c := h5.trans (whole_writes_eq_canon cc0_scratch1 fk _ (cover2 fun k => (kPiece m ρ c k).2))
  have e6 : f6 = vT m ρ c := h6.trans (whole_writes_eq_canon cc0_scratch2 fv _ (cover2 fun k => (vPiece m ρ c k).2))
  subst e5 e6
  isplitl [HK]; · iexact HK
  isplitl [HV]; · iexact HV
  isplitl [Hk]; · iexact Hk
  iexact Hv

/-- info: 'Cert.KernelIdeal.ValLoop1.out1' depends on axioms: [propext, Classical.choice, Quot.sound] -/
#guard_msgs in #print axioms out1
/-- info: 'Cert.KernelIdeal.ValLoop1.in1' depends on axioms: [propext, Classical.choice, Quot.sound] -/
#guard_msgs in #print axioms in1

end Cert.KernelIdeal.ValLoop1

end
-- ==== Proof.ValLoop2.lean ====
/-
  Loop 2: the scaled query block.

  Trip k writes tile k of the query block, head-major, from rows of the staged query block, which the loop does
  not change; after the sixteen trips the buffer holds the overlay of the sixteen tiles, whatever it held on entry.
-/
import proofs.«900413_g7700000000000414_dist_agattn_v7x_xyz2x4x4_z_b2_s512_h8_d64_bf16_1_alg».proof.Proof.Values
import proofs.«900413_g7700000000000414_dist_agattn_v7x_xyz2x4x4_z_b2_s512_h8_d64_bf16_1_alg».proof.Proof.ValCommon
import proofs.«900413_g7700000000000414_dist_agattn_v7x_xyz2x4x4_z_b2_s512_h8_d64_bf16_1_alg».proof.Proof.LoopPieces
import proofs.«900413_g7700000000000414_dist_agattn_v7x_xyz2x4x4_z_b2_s512_h8_d64_bf16_1_alg».proof.Proof.LoopFacts

set_option maxRecDepth 8192

noncomputable section

namespace Cert.KernelIdeal.ValLoop2

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Cells Cert.KernelIdeal.Sched Cert.KernelIdeal.State Cert.KernelIdeal.LoopsU Cert.KernelIdeal.Values Cert.KernelIdeal.ValCommon

variable {F : FTy → Type} [FloatOps F]

local notation "𝕄" => MT nD τ sig Unit (Elt F) ℕ UU ℕ

variable (m : (ℓ : Loc nD τ sig) → Buf (Elt F) ℓ) (ρ : Dev nD → PrngReg)

set_option warn.classDefReducibility false in
/-- The loop's invariant instance at the named contents it reads and at the contents the written buffers hold on entry. -/
def L2 (c d0 : Dev nD) (v2 v5 v8 v148 : BitVec 32) (fq : Buf (Elt F) ((c : Thread nD τ).loc cc0_scratch0)) :
    Gen.LoopInvTy_k0_t2 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v148 :=
  loopInv_k0_t2U (F := F) 𝒱₀ c none Set.univ qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 (Qst m ρ c) fq

/-- After j trips the pieces written are the first j tiles. -/
theorem pb_upTo (c d0 : Dev nD) (v2 v5 v8 v148 : BitVec 32) :
    ∀ (j : ℕ) (h : j ≤ k0_t2_loop.trips),
      pb_k0_t2U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 (Qst m ρ c) j
        = upTo (qPiece m ρ c) j h
  | 0, _ => rfl
  | j + 1, h => by
    refine (pb_k0_t2U_succ (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 (Qst m ρ c) ⟨j, h⟩).trans ?_
    rw [LoopPieces.pieces_t2, pb_upTo c d0 v2 v5 v8 v148 j (Nat.le_of_succ_le h)]
    rfl

theorem in2 (c d0 : Dev nD) (v2 v5 v8 v148 : BitVec 32) (fq : Buf (Elt F) ((c : Thread nD τ).loc cc0_scratch0)) :
    (iprop((((c : Thread nD τ).loc cc0_stg0_0) ↦{fullShare} Qst m ρ c)
        ∗ (((c : Thread nD τ).loc cc0_scratch0) ↦{fullShare} fq)) : sProp 𝕄)
      ⊢ (L2 m ρ c d0 v2 v5 v8 v148 fq).inv 0 () := by
  show _ ⊢ inv_k0_t2U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 (Qst m ρ c) fq 0 ()
  dsimp only [inv_k0_t2U]
  simp only [Memref.view_whole, View.set_whole]
  iintro ⟨HR0, HW0⟩
  isplitl [HR0]; · iexact HR0
  iexists fq; isplitl [HW0]; · iexact HW0
  ipureintro; rfl

theorem out2 (c d0 : Dev nD) (v2 v5 v8 v148 : BitVec 32) (fq : Buf (Elt F) ((c : Thread nD τ).loc cc0_scratch0)) :
    (L2 m ρ c d0 v2 v5 v8 v148 fq).inv (Scf.trips k0_t2_loop.lb k0_t2_loop.ub k0_t2_loop.st) ()
      ⊢ (iprop((((c : Thread nD τ).loc cc0_stg0_0) ↦{fullShare} Qst m ρ c)
        ∗ (((c : Thread nD τ).loc cc0_scratch0) ↦{fullShare} qT m ρ c)) : sProp 𝕄) := by
  show inv_k0_t2U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 (Qst m ρ c) fq k0_t2_loop.trips () ⊢ _
  dsimp only [inv_k0_t2U]
  rw [pb_upTo m ρ c d0 v2 v5 v8 v148 k0_t2_loop.trips (Nat.le_refl _)]
  simp only [Memref.view_whole, View.set_whole]
  iintro ⟨HR0, ⟨%g0, HW0, %h0⟩⟩
  have e0 : g0 = qT m ρ c := h0.trans (whole_writes_eq_canon cc0_scratch0 fq _ (cover4 fun k => (qPiece m ρ c k).2))
  subst e0
  isplitl [HR0]; · iexact HR0
  iexact HW0

/-- info: 'Cert.KernelIdeal.ValLoop2.out2' depends on axioms: [propext, Classical.choice, Quot.sound] -/
#guard_msgs in #print axioms out2
/-- info: 'Cert.KernelIdeal.ValLoop2.in2' depends on axioms: [propext, Classical.choice, Quot.sound] -/
#guard_msgs in #print axioms in2

end Cert.KernelIdeal.ValLoop2

end
-- ==== Proof.ValLoop3.lean ====
/-
  Loop 3: the pass over the device's own keys.

  Trip k writes tile k of the accumulator and of the running sum from the query tile and the device's own
  transposed key and value tiles, all three only read (the last two through the share the device kept while
  three copies read them); the scores start from zero, so nothing of what the two buffers held on entry is read,
  and after the sixteen trips they hold the overlay of their sixteen tiles.
-/
import proofs.«900413_g7700000000000414_dist_agattn_v7x_xyz2x4x4_z_b2_s512_h8_d64_bf16_1_alg».proof.Proof.Values
import proofs.«900413_g7700000000000414_dist_agattn_v7x_xyz2x4x4_z_b2_s512_h8_d64_bf16_1_alg».proof.Proof.ValCommon
import proofs.«900413_g7700000000000414_dist_agattn_v7x_xyz2x4x4_z_b2_s512_h8_d64_bf16_1_alg».proof.Proof.LoopPieces
import proofs.«900413_g7700000000000414_dist_agattn_v7x_xyz2x4x4_z_b2_s512_h8_d64_bf16_1_alg».proof.Proof.LoopFacts

set_option maxRecDepth 8192

noncomputable section

namespace Cert.KernelIdeal.ValLoop3

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Cells Cert.KernelIdeal.Sched Cert.KernelIdeal.State Cert.KernelIdeal.LoopsU Cert.KernelIdeal.Values Cert.KernelIdeal.ValCommon

variable {F : FTy → Type} [FloatOps F]

local notation "𝕄" => MT nD τ sig Unit (Elt F) ℕ UU ℕ

variable (m : (ℓ : Loc nD τ sig) → Buf (Elt F) ℓ) (ρ : Dev nD → PrngReg)

set_option warn.classDefReducibility false in
/-- The loop's invariant instance at the named contents it reads and at the contents the written buffers hold on entry. -/
def L3 (c d0 : Dev nD) (v2 v5 v8 v148 : BitVec 32) (fa : Buf (Elt F) ((c : Thread nD τ).loc cc0_scratch5)) (fl : Buf (Elt F) ((c : Thread nD τ).loc cc0_scratch6)) :
    Gen.LoopInvTy_k0_t3 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v148 :=
  loopInv_k0_t3U (F := F) 𝒱₀ c none Set.univ qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 keptShare keptShare (qT m ρ c) (kT m ρ c) (vT m ρ c) fa fl

/-- After j trips the pieces written are the first j tiles. -/
theorem pb_upTo (c d0 : Dev nD) (v2 v5 v8 v148 : BitVec 32) :
    ∀ (j : ℕ) (h : j ≤ k0_t3_loop.trips),
      pb_k0_t3U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 keptShare keptShare (qT m ρ c) (kT m ρ c) (vT m ρ c) j
        = (upTo (a0Piece m ρ c) j h, upTo (l0Piece m ρ c) j h)
  | 0, _ => rfl
  | j + 1, h => by
    refine (pb_k0_t3U_succ (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 keptShare keptShare (qT m ρ c) (kT m ρ c) (vT m ρ c) ⟨j, h⟩).trans ?_
    rw [LoopPieces.pieces_t3, pb_upTo c d0 v2 v5 v8 v148 j (Nat.le_of_succ_le h)]
    rfl

theorem in3 (c d0 : Dev nD) (v2 v5 v8 v148 : BitVec 32) (fa : Buf (Elt F) ((c : Thread nD τ).loc cc0_scratch5)) (fl : Buf (Elt F) ((c : Thread nD τ).loc cc0_scratch6)) :
    (iprop((((c : Thread nD τ).loc cc0_scratch0) ↦{fullShare} qT m ρ c)
        ∗ (((c : Thread nD τ).loc cc0_scratch1) ↦{keptShare} kT m ρ c)
        ∗ (((c : Thread nD τ).loc cc0_scratch2) ↦{keptShare} vT m ρ c)
        ∗ (((c : Thread nD τ).loc cc0_scratch5) ↦{fullShare} fa)
        ∗ (((c : Thread nD τ).loc cc0_scratch6) ↦{fullShare} fl)) : sProp 𝕄)
      ⊢ (L3 m ρ c d0 v2 v5 v8 v148 fa fl).inv 0 () := by
  show _ ⊢ inv_k0_t3U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 keptShare keptShare (qT m ρ c) (kT m ρ c) (vT m ρ c) fa fl 0 ()
  dsimp only [inv_k0_t3U]
  simp only [Memref.view_whole, View.set_whole]
  iintro ⟨HR0, HR1, HR2, HW0, HW1⟩
  isplitl [HR0]; · iexact HR0
  isplitl [HR1]; · iexact HR1
  isplitl [HR2]; · iexact HR2
  isplitl [HW0]
  · iexists fa; isplitl [HW0]; · iexact HW0
    ipureintro; rfl
  iexists fl; isplitl [HW1]; · iexact HW1
  ipureintro; rfl

theorem out3 (c d0 : Dev nD) (v2 v5 v8 v148 : BitVec 32) (fa : Buf (Elt F) ((c : Thread nD τ).loc cc0_scratch5)) (fl : Buf (Elt F) ((c : Thread nD τ).loc cc0_scratch6)) :
    (L3 m ρ c d0 v2 v5 v8 v148 fa fl).inv (Scf.trips k0_t3_loop.lb k0_t3_loop.ub k0_t3_loop.st) ()
      ⊢ (iprop((((c : Thread nD τ).loc cc0_scratch0) ↦{fullShare} qT m ρ c)
        ∗ (((c : Thread nD τ).loc cc0_scratch1) ↦{keptShare} kT m ρ c)
        ∗ (((c : Thread nD τ).loc cc0_scratch2) ↦{keptShare} vT m ρ c)
        ∗ (((c : Thread nD τ).loc cc0_scratch5) ↦{fullShare} a0 m ρ c)
        ∗ (((c : Thread nD τ).loc cc0_scratch6) ↦{fullShare} l0 m ρ c)) : sProp 𝕄) := by
  show inv_k0_t3U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 keptShare keptShare (qT m ρ c) (kT m ρ c) (vT m ρ c) fa fl k0_t3_loop.trips () ⊢ _
  dsimp only [inv_k0_t3U]
  rw [pb_upTo m ρ c d0 v2 v5 v8 v148 k0_t3_loop.trips (Nat.le_refl _)]
  simp only [Memref.view_whole, View.set_whole]
  iintro ⟨HR0, HR1, HR2, ⟨%g0, HW0, %h0⟩, ⟨%g1, HW1, %h1⟩⟩
  have e0 : g0 = a0 m ρ c := h0.trans (whole_writes_eq_canon cc0_scratch5 fa _ (cover5 fun k => (a0Piece m ρ c k).2))
  have e1 : g1 = l0 m ρ c := h1.trans (whole_writes_eq_canon cc0_scratch6 fl _ (cover5 fun k => (l0Piece m ρ c k).2))
  subst e0 e1
  isplitl [HR0]; · iexact HR0
  isplitl [HR1]; · iexact HR1
  isplitl [HR2]; · iexact HR2
  isplitl [HW0]; · iexact HW0
  iexact HW1

/-- info: 'Cert.KernelIdeal.ValLoop3.out3' depends on axioms: [propext, Classical.choice, Quot.sound] -/
#guard_msgs in #print axioms out3
/-- info: 'Cert.KernelIdeal.ValLoop3.in3' depends on axioms: [propext, Classical.choice, Quot.sound] -/
#guard_msgs in #print axioms in3

end Cert.KernelIdeal.ValLoop3

end
-- ==== Proof.Offsets.lean ====
/-
  Where each trip works. Every counted loop runs sixteen trips; trip k is the (batch, head) tile (k / 8, k % 8).
  In the staged arrays, laid out (batch, position, head, feature), its tile starts at (k / 8, 0, k % 8, 0); in the
  head-major scratch buffers at (k / 8, k % 8, 0, 0); in a landing buffer, inside slot r, at (r, k / 8, k % 8, 0, 0).
  The printed offsets are chains of integer operations on the trip; over the sixteen trips they are these.
-/
import proofs.«900413_g7700000000000414_dist_agattn_v7x_xyz2x4x4_z_b2_s512_h8_d64_bf16_1_alg».proof.Proof.Gen.KernelIdeal

namespace Cert.KernelIdeal.Offsets

open Cert.KernelIdeal Cert.KernelIdeal.Gen
open Idealize.ShloMosaic

theorem trips1 : k0_t1_loop.trips = 16 := by decide +kernel
theorem trips2 : k0_t2_loop.trips = 16 := by decide +kernel
theorem trips3 : k0_t3_loop.trips = 16 := by decide +kernel
theorem trips4 : k0_t4_loop.trips = 16 := by decide +kernel
theorem trips5 : k0_t5_loop.trips = 16 := by decide +kernel
theorem trips6 : k0_t6_loop.trips = 16 := by decide +kernel

theorem off1_eq : ∀ k : Fin k0_t1_loop.trips, k0_off1 k = (![k.val / 8, 0, k.val % 8, 0] : Fin 4 → Nat) := by decide +kernel
theorem off2_eq : ∀ k : Fin k0_t1_loop.trips, k0_off2 k = (![k.val / 8, k.val % 8, 0, 0] : Fin 4 → Nat) := by decide +kernel
theorem off3_eq : ∀ k : Fin k0_t2_loop.trips, k0_off3 k = (![k.val / 8, 0, k.val % 8, 0] : Fin 4 → Nat) := by decide +kernel
theorem off4_eq : ∀ k : Fin k0_t2_loop.trips, k0_off4 k = (![k.val / 8, k.val % 8, 0, 0] : Fin 4 → Nat) := by decide +kernel
theorem off5_eq : ∀ k : Fin k0_t3_loop.trips, k0_off5 k = (![k.val / 8, k.val % 8, 0, 0] : Fin 4 → Nat) := by decide +kernel
theorem off6_eq : ∀ k : Fin k0_t3_loop.trips, k0_off6 k = (![k.val / 8, k.val % 8, 0, 0] : Fin 4 → Nat) := by decide +kernel
theorem off7_eq : ∀ k : Fin k0_t4_loop.trips, k0_off7 k = (![k.val / 8, k.val % 8, 0, 0] : Fin 4 → Nat) := by decide +kernel
theorem off8_eq : ∀ k : Fin k0_t4_loop.trips, k0_off8 k = (![0, k.val / 8, k.val % 8, 0, 0] : Fin 5 → Nat) := by decide +kernel
theorem off9_eq : ∀ k : Fin k0_t5_loop.trips, k0_off9 k = (![k.val / 8, k.val % 8, 0, 0] : Fin 4 → Nat) := by decide +kernel
theorem off10_eq : ∀ k : Fin k0_t5_loop.trips, k0_off10 k = (![1, k.val / 8, k.val % 8, 0, 0] : Fin 5 → Nat) := by decide +kernel
theorem off11_eq : ∀ k : Fin k0_t6_loop.trips, k0_off11 k = (![k.val / 8, k.val % 8, 0, 0] : Fin 4 → Nat) := by decide +kernel
theorem off12_eq : ∀ k : Fin k0_t6_loop.trips, k0_off12 k = (![2, k.val / 8, k.val % 8, 0, 0] : Fin 5 → Nat) := by decide +kernel
theorem off13_eq : ∀ k : Fin k0_t6_loop.trips, k0_off13 k = (![k.val / 8, 0, k.val % 8, 0] : Fin 4 → Nat) := by decide +kernel

end Cert.KernelIdeal.Offsets
-- ==== Proof.ValLoop4.lean ====
/-
  The second accumulating pass: the pass over slot 0 of the landing buffers.

  The pass runs sixteen trips; trip k works on the (batch, head) tile (k / 8, k % 8). It loads the query tile, the
  key tile and the value tile of slot 0 of the two landing buffers, and the tile of the accumulator and of the
  running sum it is about to overwrite, and it stores the two updated tiles. The windows it loads from the landing
  buffers have first coordinate 0, so they lie in slot 0, which is all of those buffers the device holds during
  the pass. Tiles of different trips are disjoint, so the tile a trip reads back is still the one the first pass
  left: trip k's stored tiles are functions of the contents at entry alone. The sixteen tiles cover the buffers,
  so after the pass the accumulator and the running sum are the overlay of those sixteen tiles.
-/
import proofs.«900413_g7700000000000414_dist_agattn_v7x_xyz2x4x4_z_b2_s512_h8_d64_bf16_1_alg».proof.Proof.Values
import proofs.«900413_g7700000000000414_dist_agattn_v7x_xyz2x4x4_z_b2_s512_h8_d64_bf16_1_alg».proof.Proof.LoopPieces
import proofs.«900413_g7700000000000414_dist_agattn_v7x_xyz2x4x4_z_b2_s512_h8_d64_bf16_1_alg».proof.Proof.LoopFacts
import proofs.«900413_g7700000000000414_dist_agattn_v7x_xyz2x4x4_z_b2_s512_h8_d64_bf16_1_alg».proof.Proof.Slots
import proofs.«900413_g7700000000000414_dist_agattn_v7x_xyz2x4x4_z_b2_s512_h8_d64_bf16_1_alg».proof.Proof.Offsets
import proofs.«900413_g7700000000000414_dist_agattn_v7x_xyz2x4x4_z_b2_s512_h8_d64_bf16_1_alg».proof.Proof.ValCommon

set_option maxRecDepth 8192
set_option maxHeartbeats 1000000

noncomputable section

namespace Cert.KernelIdeal.ValLoop4

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Cells Cert.KernelIdeal.Sched Cert.KernelIdeal.State Cert.KernelIdeal.LoopsU
open Cert.KernelIdeal.Values Cert.KernelIdeal.Slots Cert.KernelIdeal.ValCommon

variable {F : FTy → Type} [FloatOps F]

local notation "𝕄" => MT nD τ sig Unit (Elt F) ℕ UU ℕ

variable (m : (ℓ : Loc nD τ sig) → Buf (Elt F) ℓ) (ρ : Dev nD → PrngReg)

/-! ## The windows of the landing buffers lie in slot 0 -/

/-- Trip k loads tile (k / 8, k % 8) of slot 0: an index of that window has first coordinate 0. -/
theorem win_sub_R0 (k : Fin k0_t4_loop.trips) (x : S3x2x8x64x512.Idx)
    (hx : x ∈ (Rect.unit (s := S3x2x8x64x512) (k0_off8 k) S1x1x1x64x512.size (k0_off8_inb k)).toLoadRect.set) : x ∈ R0.set := by
  have hx' := Rect.mem_set_unit.mp hx
  rw [Offsets.off8_eq k] at hx'
  have hk : k.val < 16 := lt_of_lt_of_eq k.isLt Offsets.trips4
  refine Rect.mem_set_unit.mpr fun a => ?_
  have h := hx' a
  fin_cases a <;> simp at h ⊢ <;> omega

theorem h7 : ∀ k : Fin k0_t4_loop.trips, (kcomM : Memref sig .tc .vmem S3x2x8x64x512 .bf16).view.setOn (Rect.unit (s := S3x2x8x64x512) (k0_off8 k) S1x1x1x64x512.size (k0_off8_inb k)).toLoadRect.set ⊆ (kslot0 : Memref sig .tc .vmem S2x8x64x512 .bf16).view.set := by
  intro k i hi
  rw [k0set]
  obtain ⟨x, hx, rfl⟩ := Finset.mem_map.mp hi
  exact win_sub_R0 k x hx

theorem h8 : ∀ k : Fin k0_t4_loop.trips, (vcomM : Memref sig .tc .vmem S3x2x8x64x512 .bf16).view.setOn (Rect.unit (s := S3x2x8x64x512) (k0_off8 k) S1x1x1x64x512.size (k0_off8_inb k)).toLoadRect.set ⊆ (vslot0 : Memref sig .tc .vmem S2x8x64x512 .bf16).view.set := by
  intro k i hi
  rw [v0set]
  obtain ⟨x, hx, rfl⟩ := Finset.mem_map.mp hi
  exact win_sub_R0 k x hx

/-! ## The loop's invariant instance -/

set_option warn.classDefReducibility false in
/-- The second pass, at the contents it finds: the query block, the landing buffers on slot 0, and the
    accumulator and running sum the first pass left. -/
def L4 (c : Dev nD) (v2 v5 v8 : BitVec 32) : Gen.LoopInvTy_k0_t4 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 :=
  loopInv_k0_t4U (F := F) 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c)

/-! ## What the trips leave -/

/-- A trip reads back the tile it is about to overwrite. After the first j trips, j at most k, the buffer has been
    written only on the tiles of those trips, all different from tile k: so on tile k it still holds what it held
    at entry. -/
theorem readAt_tile_of_earlier {sg : RefSig} {κ : Kind} {sp : Space} {e : EltTy} (v : View sg κ sp S2x8x512x64 e) (G : v.ty.Contents (Elt F))
    (p : Fin k0_t4_loop.trips → View.Piece (Elt F) S2x8x512x64 e) (hp : ∀ k', (p k').1 = R7 k')
    (k : Fin k0_t4_loop.trips) (j : ℕ) (hj : j ≤ k0_t4_loop.trips) (hjk : j ≤ k.val) :
    v.readAt (Elt F) (R7 k).toLoadRect (v.writes (Elt F) G (upTo p j hj)) = v.readAt (Elt F) (R7 k).toLoadRect G := by
  funext x
  show v.read (Elt F) (v.writes (Elt F) G (upTo p j hj)) ((R7 k).idx x) = v.read (Elt F) G ((R7 k).idx x)
  refine View.read_writes_apply_of_forall_not_mem v G _ _ fun q hq hmem => ?_
  obtain ⟨k', hk', rfl⟩ := (mem_upTo p q j hj).mp hq
  rw [hp k'] at hmem
  have hne : k ≠ k' := by rintro rfl; omega
  exact Finset.disjoint_left.mp (disjoint7 hne) ((R7 k).idx_mem x) hmem

/-- Before trip j the pieces the invariant carries are the first j tiles of the pass, the last first: each trip
    computes its tile from the tile of the contents at entry, since no earlier trip wrote there. -/
theorem pb4_eq (c : Dev nD) (v2 v5 v8 : BitVec 32) : ∀ (j : ℕ) (h : j ≤ k0_t4_loop.trips),
    pb_k0_t4U (F := F) 𝒱₀ c none (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c) j = (upTo (a1Piece m ρ c) j h, upTo (l1Piece m ρ c) j h)
  | 0, _ => rfl
  | j + 1, h => by
    have ih : pb_k0_t4U (F := F) 𝒱₀ c none (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c) ((⟨j, h⟩ : Fin k0_t4_loop.trips).val) = (upTo (a1Piece m ρ c) j (Nat.le_of_succ_le h), upTo (l1Piece m ρ c) j (Nat.le_of_succ_le h)) := pb4_eq c v2 v5 v8 j (Nat.le_of_succ_le h)
    have hs := pb_k0_t4U_succ (F := F) 𝒱₀ c none (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c) ⟨j, h⟩
    refine hs.trans ?_
    rw [ih, LoopPieces.pieces_t4]
    have ea := readAt_tile_of_earlier (F := F) (accM : Memref sig .tc .vmem S2x8x512x64 .f32).view (a0 m ρ c) (a1Piece m ρ c) (fun _ => rfl) ⟨j, h⟩ j (Nat.le_of_succ_le h) (Nat.le_refl j)
    have el := readAt_tile_of_earlier (F := F) (lsumM : Memref sig .tc .vmem S2x8x512x64 .f32).view (l0 m ρ c) (l1Piece m ρ c) (fun _ => rfl) ⟨j, h⟩ j (Nat.le_of_succ_le h) (Nat.le_refl j)
    dsimp only
    rw [ea, el]
    rfl

/-! ## Entry and exit -/

/-- The query block, the accumulator and the running sum are whole buffers: every element is under the view. -/
theorem set_q : ((Memref.whole cc0_scratch0 : Memref sig .tc .vmem S2x8x512x64 .bf16)).view.set = Finset.univ := View.set_whole _
theorem set_a : ((Memref.whole cc0_scratch5 : Memref sig .tc .vmem S2x8x512x64 .f32)).view.set = Finset.univ := View.set_whole _
theorem set_l : ((Memref.whole cc0_scratch6 : Memref sig .tc .vmem S2x8x512x64 .f32)).view.set = Finset.univ := View.set_whole _

/-- At entry no trip has run: the accumulator and the running sum hold what the first pass left. -/
theorem in4 (c : Dev nD) (v2 v5 v8 : BitVec 32) :
    (iprop((((c : Thread nD τ).loc cc0_scratch0) ↦{fullShare} qT m ρ c)
        ∗ (((c : Thread nD τ).loc cc0_scratch3) ↦[(kslot0 : Memref sig .tc .vmem S2x8x64x512 .bf16).view.set]{fullShare} kC m ρ c)
        ∗ (((c : Thread nD τ).loc cc0_scratch4) ↦[(vslot0 : Memref sig .tc .vmem S2x8x64x512 .bf16).view.set]{fullShare} vC m ρ c)
        ∗ (((c : Thread nD τ).loc cc0_scratch5) ↦{fullShare} a0 m ρ c)
        ∗ (((c : Thread nD τ).loc cc0_scratch6) ↦{fullShare} l0 m ρ c)) : sProp (MT nD τ sig Unit (Elt F) ℕ UU ℕ))
      ⊢ (L4 m ρ c v2 v5 v8).inv 0 () := by
  show _ ⊢ inv_k0_t4U (F := F) 𝒱₀ c none (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c) 0 ()
  unfold inv_k0_t4U
  rw [set_q, set_a, set_l]
  iintro ⟨Hq, Hk, Hv, Ha, Hl⟩
  isplitl [Hq]; · iexact Hq
  isplitl [Hk]; · iexact Hk
  isplitl [Hv]; · iexact Hv
  isplitl [Ha]
  · iexists (a0 m ρ c); isplitl [Ha]; · iexact Ha
    ipureintro; rfl
  iexists (l0 m ρ c); isplitl [Hl]; · iexact Hl
  ipureintro; rfl

/-- After the sixteen trips the accumulator and the running sum hold the overlay of the sixteen tiles of the pass:
    the tiles cover the buffers. -/
theorem out4 (c : Dev nD) (v2 v5 v8 : BitVec 32) :
    (L4 m ρ c v2 v5 v8).inv (Scf.trips k0_t4_loop.lb k0_t4_loop.ub k0_t4_loop.st) ()
      ⊢ (iprop((((c : Thread nD τ).loc cc0_scratch0) ↦{fullShare} qT m ρ c)
        ∗ (((c : Thread nD τ).loc cc0_scratch3) ↦[(kslot0 : Memref sig .tc .vmem S2x8x64x512 .bf16).view.set]{fullShare} kC m ρ c)
        ∗ (((c : Thread nD τ).loc cc0_scratch4) ↦[(vslot0 : Memref sig .tc .vmem S2x8x64x512 .bf16).view.set]{fullShare} vC m ρ c)
        ∗ (((c : Thread nD τ).loc cc0_scratch5) ↦{fullShare} a1 m ρ c)
        ∗ (((c : Thread nD τ).loc cc0_scratch6) ↦{fullShare} l1 m ρ c)) : sProp (MT nD τ sig Unit (Elt F) ℕ UU ℕ)) := by
  show inv_k0_t4U (F := F) 𝒱₀ c none (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c) k0_t4_loop.trips () ⊢ _
  unfold inv_k0_t4U
  rw [set_q, set_a, set_l]
  iintro ⟨Hq, Hk, Hv, ⟨%fa, Ha, %ha⟩, ⟨%fl, Hl, %hl⟩⟩
  rw [pb4_eq m ρ c v2 v5 v8 k0_t4_loop.trips (Nat.le_refl _)] at ha hl
  have ea : fa = a1 m ρ c := ha.trans (whole_writes_eq_canon cc0_scratch5 (a0 m ρ c) (tiles (a1Piece m ρ c)) (cover7 _))
  have el : fl = l1 m ρ c := hl.trans (whole_writes_eq_canon cc0_scratch6 (l0 m ρ c) (tiles (l1Piece m ρ c)) (cover7 _))
  subst ea el
  isplitl [Hq]; · iexact Hq
  isplitl [Hk]; · iexact Hk
  isplitl [Hv]; · iexact Hv
  isplitl [Ha]; · iexact Ha
  iexact Hl

/-- info: 'Cert.KernelIdeal.ValLoop4.in4' depends on axioms: [propext, Classical.choice, Quot.sound] -/
#guard_msgs in #print axioms in4
/-- info: 'Cert.KernelIdeal.ValLoop4.out4' depends on axioms: [propext, Classical.choice, Quot.sound] -/
#guard_msgs in #print axioms out4

end Cert.KernelIdeal.ValLoop4

end
-- ==== Proof.ValLoop5.lean ====
/-
  Loop 5: the pass over slot 1 of the landing buffers.

  Trip k adds to tile k of the accumulator and of the running sum the contribution of tile k of slot 1 of the two
  landing buffers, of which the device holds exactly that slot: every trip's load box lies inside it. The tile a
  trip overwrites is the one it reads, and it reads it as the pass before left it, because the earlier trips of
  this pass wrote other tiles. After the sixteen trips the two buffers hold the overlay of their sixteen tiles.
-/
import proofs.«900413_g7700000000000414_dist_agattn_v7x_xyz2x4x4_z_b2_s512_h8_d64_bf16_1_alg».proof.Proof.Values
import proofs.«900413_g7700000000000414_dist_agattn_v7x_xyz2x4x4_z_b2_s512_h8_d64_bf16_1_alg».proof.Proof.ValCommon
import proofs.«900413_g7700000000000414_dist_agattn_v7x_xyz2x4x4_z_b2_s512_h8_d64_bf16_1_alg».proof.Proof.LoopPieces
import proofs.«900413_g7700000000000414_dist_agattn_v7x_xyz2x4x4_z_b2_s512_h8_d64_bf16_1_alg».proof.Proof.LoopFacts
import proofs.«900413_g7700000000000414_dist_agattn_v7x_xyz2x4x4_z_b2_s512_h8_d64_bf16_1_alg».proof.Proof.Slots
import proofs.«900413_g7700000000000414_dist_agattn_v7x_xyz2x4x4_z_b2_s512_h8_d64_bf16_1_alg».proof.Proof.Offsets

set_option maxRecDepth 8192

noncomputable section

namespace Cert.KernelIdeal.ValLoop5

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Cells Cert.KernelIdeal.Sched Cert.KernelIdeal.State Cert.KernelIdeal.LoopsU Cert.KernelIdeal.Values Cert.KernelIdeal.ValCommon

variable {F : FTy → Type} [FloatOps F]

local notation "𝕄" => MT nD τ sig Unit (Elt F) ℕ UU ℕ

variable (m : (ℓ : Loc nD τ sig) → Buf (Elt F) ℓ) (ρ : Dev nD → PrngReg)

/-- Every trip's load box in the key landing buffer lies in slot 1. -/
theorem h7 (c : Dev nD) : ∀ k : Fin k0_t5_loop.trips,
    (kcomM : Memref sig .tc .vmem S3x2x8x64x512 .bf16).view.setOn (Rect.unit (s := S3x2x8x64x512) (k0_off10 k) S1x1x1x64x512.size (k0_off10_inb k)).toLoadRect.set ⊆ ((kslot1 : Memref sig .tc .vmem S2x8x64x512 .bf16).view.set : Finset (Idx ((kcomM : Memref sig .tc .vmem S3x2x8x64x512 .bf16).view.loc (c : Thread nD τ)))) := by
  intro k i hi
  rw [Slots.k1set]
  have hi' : i ∈ (Rect.unit (s := S3x2x8x64x512) (k0_off10 k) S1x1x1x64x512.size (k0_off10_inb k)).toLoadRect.set := by
    obtain ⟨x, hx, rfl⟩ := Finset.mem_map.mp hi
    exact hx
  rw [Rect.mem_set_unit] at hi' ⊢
  intro a
  have hk := hi' a
  rw [Offsets.off10_eq k] at hk
  have hlt := (i a).isLt
  fin_cases a <;> simp at hk hlt ⊢ <;> omega
/-- Every trip's load box in the value landing buffer lies in slot 1. -/
theorem h8 (c : Dev nD) : ∀ k : Fin k0_t5_loop.trips,
    (vcomM : Memref sig .tc .vmem S3x2x8x64x512 .bf16).view.setOn (Rect.unit (s := S3x2x8x64x512) (k0_off10 k) S1x1x1x64x512.size (k0_off10_inb k)).toLoadRect.set ⊆ ((vslot1 : Memref sig .tc .vmem S2x8x64x512 .bf16).view.set : Finset (Idx ((vcomM : Memref sig .tc .vmem S3x2x8x64x512 .bf16).view.loc (c : Thread nD τ)))) := by
  intro k i hi
  rw [Slots.v1set]
  have hi' : i ∈ (Rect.unit (s := S3x2x8x64x512) (k0_off10 k) S1x1x1x64x512.size (k0_off10_inb k)).toLoadRect.set := by
    obtain ⟨x, hx, rfl⟩ := Finset.mem_map.mp hi
    exact hx
  rw [Rect.mem_set_unit] at hi' ⊢
  intro a
  have hk := hi' a
  rw [Offsets.off10_eq k] at hk
  have hlt := (i a).isLt
  fin_cases a <;> simp at hk hlt ⊢ <;> omega

set_option warn.classDefReducibility false in
/-- The loop's invariant instance: the two landing buffers held on slot 1, the accumulator and the running sum entered at what the pass before left. -/
def L5 (c : Dev nD) (v2 v5 v8 v209 : BitVec 32) :
    Gen.LoopInvTy_k0_t5 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 v209 :=
  loopInv_k0_t5U (F := F) 𝒱₀ c none Set.univ qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 (kslot1 : Memref sig .tc .vmem S2x8x64x512 .bf16).view.set (vslot1 : Memref sig .tc .vmem S2x8x64x512 .bf16).view.set (h7 c) (h8 c) (qT m ρ c) (kC m ρ c) (vC m ρ c) (a1 m ρ c) (l1 m ρ c)

/-- After j trips the pieces written are the first j tiles. -/
theorem pb_upTo (c : Dev nD) (v2 v5 v8 v209 : BitVec 32) :
    ∀ (j : ℕ) (h : j ≤ k0_t5_loop.trips),
      pb_k0_t5U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 (kslot1 : Memref sig .tc .vmem S2x8x64x512 .bf16).view.set (vslot1 : Memref sig .tc .vmem S2x8x64x512 .bf16).view.set (h7 c) (h8 c) (qT m ρ c) (kC m ρ c) (vC m ρ c) (a1 m ρ c) (l1 m ρ c) j
        = (upTo (a2Piece m ρ c) j h, upTo (l2Piece m ρ c) j h)
  | 0, _ => rfl
  | j + 1, h => by
    refine (pb_k0_t5U_succ (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 (kslot1 : Memref sig .tc .vmem S2x8x64x512 .bf16).view.set (vslot1 : Memref sig .tc .vmem S2x8x64x512 .bf16).view.set (h7 c) (h8 c) (qT m ρ c) (kC m ρ c) (vC m ρ c) (a1 m ρ c) (l1 m ρ c) ⟨j, h⟩).trans ?_
    rw [LoopPieces.pieces_t5, pb_upTo c v2 v5 v8 v209 j (Nat.le_of_succ_le h)]
    have hout : ∀ (P : Fin k0_t5_loop.trips → View.Piece (Elt F) S2x8x512x64 .f32), (∀ k, (P k).1 = R9 k) →
        ∀ q ∈ upTo P j (Nat.le_of_succ_le h), ∀ x, (R9 ⟨j, h⟩).toLoadRect.idx x ∉ q.1.set := by
      intro P hP q hq x hx
      obtain ⟨k', hk', rfl⟩ := (mem_upTo P q j _).mp hq
      rw [hP k'] at hx
      have hne : k' ≠ ⟨j, h⟩ := fun e => by rw [e] at hk'; exact Nat.lt_irrefl _ hk'
      exact Finset.disjoint_left.mp (disjoint9 hne) hx ((R9 ⟨j, h⟩).toLoadRect.idx_mem x)
    have eA : (accM : Memref sig .tc .vmem S2x8x512x64 .f32).view.readAt (Elt F) (R9 ⟨j, h⟩).toLoadRect ((accM : Memref sig .tc .vmem S2x8x512x64 .f32).view.writes (Elt F) (a1 m ρ c) (upTo (a2Piece m ρ c) j (Nat.le_of_succ_le h)))
        = (accM : Memref sig .tc .vmem S2x8x512x64 .f32).view.readAt (Elt F) (R9 ⟨j, h⟩).toLoadRect (a1 m ρ c) := by
      funext x
      rw [View.readAt_apply, View.readAt_apply]
      exact View.read_writes_apply_of_forall_not_mem _ _ _ _ fun q hq => hout (a2Piece m ρ c) (fun _ => rfl) q hq x
    have eL : (lsumM : Memref sig .tc .vmem S2x8x512x64 .f32).view.readAt (Elt F) (R9 ⟨j, h⟩).toLoadRect ((lsumM : Memref sig .tc .vmem S2x8x512x64 .f32).view.writes (Elt F) (l1 m ρ c) (upTo (l2Piece m ρ c) j (Nat.le_of_succ_le h)))
        = (lsumM : Memref sig .tc .vmem S2x8x512x64 .f32).view.readAt (Elt F) (R9 ⟨j, h⟩).toLoadRect (l1 m ρ c) := by
      funext x
      rw [View.readAt_apply, View.readAt_apply]
      exact View.read_writes_apply_of_forall_not_mem _ _ _ _ fun q hq => hout (l2Piece m ρ c) (fun _ => rfl) q hq x
    show (([_] ++ _, [_] ++ _) : List _ × List _) = _
    dsimp only
    rw [eA, eL]
    rfl

theorem in5 (c : Dev nD) (v2 v5 v8 v209 : BitVec 32) :
    (iprop((((c : Thread nD τ).loc cc0_scratch0) ↦{fullShare} qT m ρ c)
        ∗ (((c : Thread nD τ).loc cc0_scratch3) ↦[(kslot1 : Memref sig .tc .vmem S2x8x64x512 .bf16).view.set]{fullShare} kC m ρ c)
        ∗ (((c : Thread nD τ).loc cc0_scratch4) ↦[(vslot1 : Memref sig .tc .vmem S2x8x64x512 .bf16).view.set]{fullShare} vC m ρ c)
        ∗ (((c : Thread nD τ).loc cc0_scratch5) ↦{fullShare} a1 m ρ c)
        ∗ (((c : Thread nD τ).loc cc0_scratch6) ↦{fullShare} l1 m ρ c)) : sProp 𝕄)
      ⊢ (L5 m ρ c v2 v5 v8 v209).inv 0 () := by
  show _ ⊢ inv_k0_t5U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 (kslot1 : Memref sig .tc .vmem S2x8x64x512 .bf16).view.set (vslot1 : Memref sig .tc .vmem S2x8x64x512 .bf16).view.set (h7 c) (h8 c) (qT m ρ c) (kC m ρ c) (vC m ρ c) (a1 m ρ c) (l1 m ρ c) 0 ()
  dsimp only [inv_k0_t5U]
  simp only [Memref.view_whole, View.set_whole]
  iintro ⟨HQ, HK, HV, HA, HL⟩
  isplitl [HQ]; · iexact HQ
  isplitl [HK]; · iexact HK
  isplitl [HV]; · iexact HV
  isplitl [HA]
  · iexists _; isplitl [HA]; · iexact HA
    ipureintro; rfl
  iexists _; isplitl [HL]; · iexact HL
  ipureintro; rfl

theorem out5 (c : Dev nD) (v2 v5 v8 v209 : BitVec 32) :
    (L5 m ρ c v2 v5 v8 v209).inv (Scf.trips k0_t5_loop.lb k0_t5_loop.ub k0_t5_loop.st) ()
      ⊢ (iprop((((c : Thread nD τ).loc cc0_scratch0) ↦{fullShare} qT m ρ c)
        ∗ (((c : Thread nD τ).loc cc0_scratch3) ↦[(kslot1 : Memref sig .tc .vmem S2x8x64x512 .bf16).view.set]{fullShare} kC m ρ c)
        ∗ (((c : Thread nD τ).loc cc0_scratch4) ↦[(vslot1 : Memref sig .tc .vmem S2x8x64x512 .bf16).view.set]{fullShare} vC m ρ c)
        ∗ (((c : Thread nD τ).loc cc0_scratch5) ↦{fullShare} a2 m ρ c)
        ∗ (((c : Thread nD τ).loc cc0_scratch6) ↦{fullShare} l2 m ρ c)) : sProp 𝕄) := by
  show inv_k0_t5U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 (kslot1 : Memref sig .tc .vmem S2x8x64x512 .bf16).view.set (vslot1 : Memref sig .tc .vmem S2x8x64x512 .bf16).view.set (h7 c) (h8 c) (qT m ρ c) (kC m ρ c) (vC m ρ c) (a1 m ρ c) (l1 m ρ c) k0_t5_loop.trips () ⊢ _
  dsimp only [inv_k0_t5U]
  rw [pb_upTo m ρ c v2 v5 v8 v209 k0_t5_loop.trips (Nat.le_refl _)]
  simp only [Memref.view_whole, View.set_whole]
  iintro ⟨HQ, HK, HV, ⟨%g0, HA, %h0⟩, ⟨%g1, HL, %h1⟩⟩
  have e0 : g0 = a2 m ρ c := h0.trans (whole_writes_eq_canon cc0_scratch5 _ _ (cover9 fun k => (a2Piece m ρ c k).2))
  have e1 : g1 = l2 m ρ c := h1.trans (whole_writes_eq_canon cc0_scratch6 _ _ (cover9 fun k => (l2Piece m ρ c k).2))
  subst e0 e1
  isplitl [HQ]; · iexact HQ
  isplitl [HK]; · iexact HK
  isplitl [HV]; · iexact HV
  isplitl [HA]; · iexact HA
  iexact HL

/-- info: 'Cert.KernelIdeal.ValLoop5.out5' depends on axioms: [propext, Classical.choice, Quot.sound] -/
#guard_msgs in #print axioms out5
/-- info: 'Cert.KernelIdeal.ValLoop5.in5' depends on axioms: [propext, Classical.choice, Quot.sound] -/
#guard_msgs in #print axioms in5

end Cert.KernelIdeal.ValLoop5

end
-- ==== Proof.ValLoop6.lean ====
/-
  Loop 6: the pass over slot 2, and the quotient.

  Trip k writes rows k of the staged result from the query tile, tile k of slot 2 of the two landing buffers and
  tile k of the accumulator and of the running sum as the first two passes left them; all five are only read.
  After the sixteen trips the staged result holds the overlay of its sixteen tiles, whatever it held on entry.
-/
import proofs.«900413_g7700000000000414_dist_agattn_v7x_xyz2x4x4_z_b2_s512_h8_d64_bf16_1_alg».proof.Proof.Values
import proofs.«900413_g7700000000000414_dist_agattn_v7x_xyz2x4x4_z_b2_s512_h8_d64_bf16_1_alg».proof.Proof.ValCommon
import proofs.«900413_g7700000000000414_dist_agattn_v7x_xyz2x4x4_z_b2_s512_h8_d64_bf16_1_alg».proof.Proof.LoopPieces
import proofs.«900413_g7700000000000414_dist_agattn_v7x_xyz2x4x4_z_b2_s512_h8_d64_bf16_1_alg».proof.Proof.LoopFacts

set_option maxRecDepth 8192

noncomputable section

namespace Cert.KernelIdeal.ValLoop6

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.KernelIdeal.Cells Cert.KernelIdeal.Sched Cert.KernelIdeal.State Cert.KernelIdeal.LoopsU Cert.KernelIdeal.Values Cert.KernelIdeal.ValCommon

variable {F : FTy → Type} [FloatOps F]

local notation "𝕄" => MT nD τ sig Unit (Elt F) ℕ UU ℕ

variable (m : (ℓ : Loc nD τ sig) → Buf (Elt F) ℓ) (ρ : Dev nD → PrngReg)

set_option warn.classDefReducibility false in
/-- The loop's invariant instance at the named contents it reads and at the contents the written buffers hold on entry. -/
def L6 (c : Dev nD) (fo : Buf (Elt F) ((c : Thread nD τ).loc cc0_stg3_0)) :
    Gen.LoopInvTy_k0_t6 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 :=
  loopInv_k0_t6U (F := F) 𝒱₀ c none Set.univ qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 (qT m ρ c) (kC m ρ c) (vC m ρ c) (a2 m ρ c) (l2 m ρ c) fo

/-- After j trips the pieces written are the first j tiles. -/
theorem pb_upTo (c : Dev nD) :
    ∀ (j : ℕ) (h : j ≤ k0_t6_loop.trips),
      pb_k0_t6U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 (qT m ρ c) (kC m ρ c) (vC m ρ c) (a2 m ρ c) (l2 m ρ c) j
        = upTo (oPiece m ρ c) j h
  | 0, _ => rfl
  | j + 1, h => by
    refine (pb_k0_t6U_succ (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 (qT m ρ c) (kC m ρ c) (vC m ρ c) (a2 m ρ c) (l2 m ρ c) ⟨j, h⟩).trans ?_
    rw [LoopPieces.pieces_t6, pb_upTo c j (Nat.le_of_succ_le h)]
    rfl

theorem in6 (c : Dev nD) (fo : Buf (Elt F) ((c : Thread nD τ).loc cc0_stg3_0)) :
    (iprop((((c : Thread nD τ).loc cc0_scratch0) ↦{fullShare} qT m ρ c)
        ∗ (((c : Thread nD τ).loc cc0_scratch3) ↦{fullShare} kC m ρ c)
        ∗ (((c : Thread nD τ).loc cc0_scratch4) ↦{fullShare} vC m ρ c)
        ∗ (((c : Thread nD τ).loc cc0_scratch5) ↦{fullShare} a2 m ρ c)
        ∗ (((c : Thread nD τ).loc cc0_scratch6) ↦{fullShare} l2 m ρ c)
        ∗ (((c : Thread nD τ).loc cc0_stg3_0) ↦{fullShare} fo)) : sProp 𝕄)
      ⊢ (L6 m ρ c fo).inv 0 () := by
  show _ ⊢ inv_k0_t6U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 (qT m ρ c) (kC m ρ c) (vC m ρ c) (a2 m ρ c) (l2 m ρ c) fo 0 ()
  dsimp only [inv_k0_t6U]
  simp only [Memref.view_whole, View.set_whole]
  iintro ⟨HR0, HR1, HR2, HR3, HR4, HW0⟩
  isplitl [HR0]; · iexact HR0
  isplitl [HR1]; · iexact HR1
  isplitl [HR2]; · iexact HR2
  isplitl [HR3]; · iexact HR3
  isplitl [HR4]; · iexact HR4
  iexists fo; isplitl [HW0]; · iexact HW0
  ipureintro; rfl

theorem out6 (c : Dev nD) (fo : Buf (Elt F) ((c : Thread nD τ).loc cc0_stg3_0)) :
    (L6 m ρ c fo).inv (Scf.trips k0_t6_loop.lb k0_t6_loop.ub k0_t6_loop.st) ()
      ⊢ (iprop((((c : Thread nD τ).loc cc0_scratch0) ↦{fullShare} qT m ρ c)
        ∗ (((c : Thread nD τ).loc cc0_scratch3) ↦{fullShare} kC m ρ c)
        ∗ (((c : Thread nD τ).loc cc0_scratch4) ↦{fullShare} vC m ρ c)
        ∗ (((c : Thread nD τ).loc cc0_scratch5) ↦{fullShare} a2 m ρ c)
        ∗ (((c : Thread nD τ).loc cc0_scratch6) ↦{fullShare} l2 m ρ c)
        ∗ (((c : Thread nD τ).loc cc0_stg3_0) ↦{fullShare} outV m ρ c)) : sProp 𝕄) := by
  show inv_k0_t6U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 (qT m ρ c) (kC m ρ c) (vC m ρ c) (a2 m ρ c) (l2 m ρ c) fo k0_t6_loop.trips () ⊢ _
  dsimp only [inv_k0_t6U]
  rw [pb_upTo m ρ c k0_t6_loop.trips (Nat.le_refl _)]
  simp only [Memref.view_whole, View.set_whole]
  iintro ⟨HR0, HR1, HR2, HR3, HR4, ⟨%g0, HW0, %h0⟩⟩
  have e0 : g0 = outV m ρ c := h0.trans (whole_writes_eq_canon cc0_stg3_0 fo _ (cover13 fun k => (oPiece m ρ c k).2))
  subst e0
  isplitl [HR0]; · iexact HR0
  isplitl [HR1]; · iexact HR1
  isplitl [HR2]; · iexact HR2
  isplitl [HR3]; · iexact HR3
  isplitl [HR4]; · iexact HR4
  iexact HW0

/-- info: 'Cert.KernelIdeal.ValLoop6.out6' depends on axioms: [propext, Classical.choice, Quot.sound] -/
#guard_msgs in #print axioms out6
/-- info: 'Cert.KernelIdeal.ValLoop6.in6' depends on axioms: [propext, Classical.choice, Quot.sound] -/
#guard_msgs in #print axioms in6

end Cert.KernelIdeal.ValLoop6

end
-- ==== Proof.LoopsAll.lean ====
/-
  The six loops and the six landings, put together: the run of the whole mesh ends with every device's result
  array holding its named result block and its three input arrays unchanged.
-/
import proofs.«900413_g7700000000000414_dist_agattn_v7x_xyz2x4x4_z_b2_s512_h8_d64_bf16_1_alg».proof.Proof.Frames
import proofs.«900413_g7700000000000414_dist_agattn_v7x_xyz2x4x4_z_b2_s512_h8_d64_bf16_1_alg».proof.Proof.ValLandings
import proofs.«900413_g7700000000000414_dist_agattn_v7x_xyz2x4x4_z_b2_s512_h8_d64_bf16_1_alg».proof.Proof.ValLoop1
import proofs.«900413_g7700000000000414_dist_agattn_v7x_xyz2x4x4_z_b2_s512_h8_d64_bf16_1_alg».proof.Proof.ValLoop2
import proofs.«900413_g7700000000000414_dist_agattn_v7x_xyz2x4x4_z_b2_s512_h8_d64_bf16_1_alg».proof.Proof.ValLoop3
import proofs.«900413_g7700000000000414_dist_agattn_v7x_xyz2x4x4_z_b2_s512_h8_d64_bf16_1_alg».proof.Proof.ValLoop4
import proofs.«900413_g7700000000000414_dist_agattn_v7x_xyz2x4x4_z_b2_s512_h8_d64_bf16_1_alg».proof.Proof.ValLoop5
import proofs.«900413_g7700000000000414_dist_agattn_v7x_xyz2x4x4_z_b2_s512_h8_d64_bf16_1_alg».proof.Proof.ValLoop6

noncomputable section

namespace Cert.KernelIdeal.LoopsAll

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.State

variable {F : FTy → Type} [FloatOps F]

variable (m : (ℓ : Loc nD τ sig) → Buf (Elt F) ℓ) (ρ : Dev nD → PrngReg)

/-- The six loops at the named contents. -/
def loops : LoopFacts.Loops m ρ (Values.kT m ρ) (Values.vT m ρ) (Values.kC m ρ) (Values.vC m ρ) (Values.outV m ρ)
    (Values.qT m ρ) (Values.a0 m ρ) (Values.a1 m ρ) (Values.a2 m ρ) (Values.l0 m ρ) (Values.l1 m ρ) (Values.l2 m ρ) where
  L1 := ValLoop1.L1 m ρ
  in1 := ValLoop1.in1 m ρ
  out1 := ValLoop1.out1 m ρ
  L2 := ValLoop2.L2 m ρ
  in2 := ValLoop2.in2 m ρ
  out2 := ValLoop2.out2 m ρ
  L3 := ValLoop3.L3 m ρ
  in3 := ValLoop3.in3 m ρ
  out3 := ValLoop3.out3 m ρ
  L4 := ValLoop4.L4 m ρ
  in4 := ValLoop4.in4 m ρ
  out4 := ValLoop4.out4 m ρ
  L5 := ValLoop5.L5 m ρ
  in5 := ValLoop5.in5 m ρ
  out5 := ValLoop5.out5 m ρ
  L6 := ValLoop6.L6 m ρ
  in6 := ValLoop6.in6 m ρ
  out6 := ValLoop6.out6 m ρ

/-- Every fair execution of the kernel on the thirty-two devices ends, faults nowhere, leaves each device's three
    input arrays as they were, and leaves in each device's result array its named result block. -/
theorem run : θ_run defs (onTc (τ := τ) (main (F := F))) ⟨m, fun _ => 0, ρ⟩ (fun r => ∀ c : Dev nD,
      r.2.mem ((c.tc : Thread nD τ).loc main_v1) = Values.outV m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Frames.run m ρ (Values.kT m ρ) (Values.vT m ρ) (Values.kC m ρ) (Values.vC m ρ) (Values.outV m ρ)
    (Values.qT m ρ) (Values.a0 m ρ) (Values.a1 m ρ) (Values.a2 m ρ) (Values.l0 m ρ) (Values.l1 m ρ) (Values.l2 m ρ)
    (ValLandings.landings m ρ) (loops m ρ)

/-- info: 'Cert.KernelIdeal.LoopsAll.run' depends on axioms: [propext, Classical.choice, Quot.sound] -/
#guard_msgs in #print axioms run

end Cert.KernelIdeal.LoopsAll

end
-- ==== Proof.Bits.Mesh.lean ====
/-
  The mesh is 2 x 4 x 4 and a device's linear id is 16 x + 4 y + z. The kernel talks only along z: its
  j-th peer (j = 0, 1, 2) keeps x and y and has z-coordinate (z + 1 + j) mod 4. The three peers of a device
  are exactly the other three devices of its z-line, and "peer j" is undone by "peer (2 - j)".
  The printed device-id chains of the three barrier signals and of the six remote copies are these peers.
-/
import proofs.«900413_g7700000000000414_dist_agattn_v7x_xyz2x4x4_z_b2_s512_h8_d64_bf16_1_alg».proof.Proof.Gen.Kernel

namespace Cert.Kernel.Mesh

open Cert.Kernel Cert.Kernel.Gen
open Idealize.ShloMosaic

/-- The device on the same z-line whose z-coordinate is `j + 1` further round. -/
def peer (j : Fin 3) (c : Dev nD) : Dev nD :=
  ⟨c.val - c.val % 4 + (c.val % 4 + 1 + j.val) % 4, by have := c.isLt; have h : nD = 32 := rfl; omega⟩

/-- The index that undoes `j`: going `j + 1` round and then `(2 - j) + 1` round is a full turn. -/
def back (j : Fin 3) : Fin 3 := ⟨2 - j.val, by omega⟩

theorem back_back (j : Fin 3) : back (back j) = j := by revert j; decide

theorem peer_back_peer : ∀ (j : Fin 3) (c : Dev nD), peer (back j) (peer j c) = c := by decide +kernel
theorem peer_peer_back : ∀ (j : Fin 3) (c : Dev nD), peer j (peer (back j) c) = c := by decide +kernel
theorem peer_ne_self : ∀ (j : Fin 3) (c : Dev nD), peer j c ≠ c := by decide +kernel
theorem peer_inj_idx : ∀ (j j' : Fin 3) (c : Dev nD), peer j c = peer j' c → j = j' := by decide +kernel

/-- Going to the j-th peer is a permutation of the devices. -/
def peerEquiv (j : Fin 3) : Dev nD ≃ Dev nD := ⟨peer j, peer (back j), peer_back_peer j, peer_peer_back j⟩

/-- The three barrier signals go to peers 0, 1, 2 ... -/
theorem dev1_eq : ∀ c : Dev nD, (⟨k0_dev1 c, k0_dev1_lt c⟩ : Dev nD) = peer 0 c := by decide +kernel
theorem dev2_eq : ∀ c : Dev nD, (⟨k0_dev2 c, k0_dev2_lt c⟩ : Dev nD) = peer 1 c := by decide +kernel
theorem dev3_eq : ∀ c : Dev nD, (⟨k0_dev3 c, k0_dev3_lt c⟩ : Dev nD) = peer 2 c := by decide +kernel
/-- ... and the copies of the key block and of the value block go pairwise to peers 0, 1, 2. -/
theorem dev4_eq : ∀ c : Dev nD, (⟨k0_dev4 c, k0_dev4_lt c⟩ : Dev nD) = peer 0 c := by decide +kernel
theorem dev5_eq : ∀ c : Dev nD, (⟨k0_dev5 c, k0_dev5_lt c⟩ : Dev nD) = peer 0 c := by decide +kernel
theorem dev6_eq : ∀ c : Dev nD, (⟨k0_dev6 c, k0_dev6_lt c⟩ : Dev nD) = peer 1 c := by decide +kernel
theorem dev7_eq : ∀ c : Dev nD, (⟨k0_dev7 c, k0_dev7_lt c⟩ : Dev nD) = peer 1 c := by decide +kernel
theorem dev8_eq : ∀ c : Dev nD, (⟨k0_dev8 c, k0_dev8_lt c⟩ : Dev nD) = peer 2 c := by decide +kernel
theorem dev9_eq : ∀ c : Dev nD, (⟨k0_dev9 c, k0_dev9_lt c⟩ : Dev nD) = peer 2 c := by decide +kernel

end Cert.Kernel.Mesh
-- ==== Proof.Bits.Cells.lean ====
/-
  The semaphores of the exchange, and the pieces of memory that change hands.

  Each device has thirteen semaphores in play: the runtime's barrier semaphore, and four triples of DMA
  semaphores -- for j = 0, 1, 2: the send semaphore of its j-th copy of the transposed key block, the
  receive semaphore of slot j of its key landing buffer, and the same two for the value block.
  A landing buffer has three slots, one per peer: slot r of a device is written by that device's r-th peer
  and by nobody else. The slots are the three unit-thick slabs of the buffer along its first axis, so they
  are pairwise disjoint and together they are the whole buffer.
-/
import proofs.«900413_g7700000000000414_dist_agattn_v7x_xyz2x4x4_z_b2_s512_h8_d64_bf16_1_alg».proof.Proof.Bits.Mesh
import proofs.«900413_g7700000000000414_dist_agattn_v7x_xyz2x4x4_z_b2_s512_h8_d64_bf16_1_alg».proof.Proof.Gen.Kernel
import proofs.«900413_g7700000000000414_dist_agattn_v7x_xyz2x4x4_z_b2_s512_h8_d64_bf16_1_alg».proof.Proof.Gen.Kernel.Skeleton
import proofs.«900413_g7700000000000414_dist_agattn_v7x_xyz2x4x4_z_b2_s512_h8_d64_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Cells

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Two resource algebras side by side: the pipeline's own cells (one duty each) and the exchange's (three) -/

abbrev UB : Type := URounds (GSem nD τ sig) (Fin 3)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

/-! ## The semaphores -/

/-- The runtime's barrier semaphore. -/
abbrev barS : Sem sig := (SemArray.scalar (sig.barrier 0 rfl) : Sems sig S_).sem

/-- DMA semaphore `j` of triple `t`: t = 0 key send, 1 key receive, 2 value send, 3 value receive. -/
abbrev dsem (t : Fin 4) (j : Fin 3) : DmaSem sig := ⟨4 + 3 * t.val + j.val, by have := t.isLt; have := j.isLt; show _ < 16; omega⟩

abbrev barCell (c : Dev nD) : GSem nD τ sig := ((c : Thread nD τ), .reg barS)
abbrev dCell (t : Fin 4) (j : Fin 3) (c : Dev nD) : GSem nD τ sig := ((c : Thread nD τ), .dma (dsem t j))

/-- The printed slices of the four semaphore triples are these. -/
theorem ksend_sem0 : ((cc0_scratch7.slice (Rect.unit (s := S3) ![0] S1.size inb_S3_S1_0)).squeeze S_ squeezes_S1_S_).sem = dsem 0 0 := rfl
theorem ksend_sem1 : ((cc0_scratch7.slice (Rect.unit (s := S3) ![1] S1.size inb_S3_S1_1)).squeeze S_ squeezes_S1_S_).sem = dsem 0 1 := rfl
theorem ksend_sem2 : ((cc0_scratch7.slice (Rect.unit (s := S3) ![2] S1.size inb_S3_S1_2)).squeeze S_ squeezes_S1_S_).sem = dsem 0 2 := rfl
theorem krecv_sem0 : ((cc0_scratch8.slice (Rect.unit (s := S3) ![0] S1.size inb_S3_S1_0)).squeeze S_ squeezes_S1_S_).sem = dsem 1 0 := rfl
theorem krecv_sem1 : ((cc0_scratch8.slice (Rect.unit (s := S3) ![1] S1.size inb_S3_S1_1)).squeeze S_ squeezes_S1_S_).sem = dsem 1 1 := rfl
theorem krecv_sem2 : ((cc0_scratch8.slice (Rect.unit (s := S3) ![2] S1.size inb_S3_S1_2)).squeeze S_ squeezes_S1_S_).sem = dsem 1 2 := rfl
theorem vsend_sem0 : ((cc0_scratch9.slice (Rect.unit (s := S3) ![0] S1.size inb_S3_S1_0)).squeeze S_ squeezes_S1_S_).sem = dsem 2 0 := rfl
theorem vsend_sem1 : ((cc0_scratch9.slice (Rect.unit (s := S3) ![1] S1.size inb_S3_S1_1)).squeeze S_ squeezes_S1_S_).sem = dsem 2 1 := rfl
theorem vsend_sem2 : ((cc0_scratch9.slice (Rect.unit (s := S3) ![2] S1.size inb_S3_S1_2)).squeeze S_ squeezes_S1_S_).sem = dsem 2 2 := rfl
theorem vrecv_sem0 : ((cc0_scratch10.slice (Rect.unit (s := S3) ![0] S1.size inb_S3_S1_0)).squeeze S_ squeezes_S1_S_).sem = dsem 3 0 := rfl
theorem vrecv_sem1 : ((cc0_scratch10.slice (Rect.unit (s := S3) ![1] S1.size inb_S3_S1_1)).squeeze S_ squeezes_S1_S_).sem = dsem 3 1 := rfl
theorem vrecv_sem2 : ((cc0_scratch10.slice (Rect.unit (s := S3) ![2] S1.size inb_S3_S1_2)).squeeze S_ squeezes_S1_S_).sem = dsem 3 2 := rfl

/-- A device's thirteen cells: `none` the barrier, `some (t, j)` DMA semaphore `j` of triple `t`. -/
abbrev CK : Type := Option (Fin 4 × Fin 3)
abbrev csem : CK → SemLoc sig
  | none => .reg barS
  | some (t, j) => .dma (dsem t j)
abbrev kcell (ck : Dev nD × CK) : GSem nD τ sig := ((ck.1 : Thread nD τ), csem ck.2)
/-- The twelve that are the kernel's own (scoped). -/
abbrev osem : Fin 4 × Fin 3 → SemLoc sig := fun tj => .dma (dsem tj.1 tj.2)

theorem dsem_inj : ∀ (t t' : Fin 4) (j j' : Fin 3), dsem t j = dsem t' j' → t = t' ∧ j = j' := by decide
theorem csem_injective : Function.Injective csem := by
  intro a b h
  match a, b with
  | none, none => rfl
  | none, some (t, j) => exact absurd h (fun h => by cases h)
  | some (t, j), none => exact absurd h (fun h => by cases h)
  | some (t, j), some (t', j') =>
    have h' : dsem t j = dsem t' j' := by injection h
    obtain ⟨rfl, rfl⟩ := dsem_inj t t' j j' h'
    rfl
theorem kcell_injective : Function.Injective (kcell : Dev nD × CK → GSem nD τ sig) := by
  rintro ⟨c, k⟩ ⟨c', k'⟩ h
  have h1 : c = c' := by have := congrArg (fun g : GSem nD τ sig => g.1.1) h; exact this
  subst h1
  have h2 : csem k = csem k' := congrArg Prod.snd h
  rw [csem_injective h2]

/-! ## The buffers -/

abbrev qM : Memref sig .tc .vmem S2x512x8x64 .f32 := Memref.whole cc0_stg0_0
abbrev kM : Memref sig .tc .vmem S2x512x8x64 .f32 := Memref.whole cc0_stg1_0
abbrev vM : Memref sig .tc .vmem S2x512x8x64 .f32 := Memref.whole cc0_stg2_0
abbrev oM : Memref sig .tc .vmem S2x512x8x64 .f32 := Memref.whole cc0_stg3_0
abbrev qtM : Memref sig .tc .vmem S2x8x512x64 .bf16 := Memref.whole cc0_scratch0
abbrev klocM : Memref sig .tc .vmem S2x8x64x512 .bf16 := Memref.whole cc0_scratch1
abbrev vlocM : Memref sig .tc .vmem S2x8x64x512 .bf16 := Memref.whole cc0_scratch2
abbrev kcomM : Memref sig .tc .vmem S3x2x8x64x512 .bf16 := Memref.whole cc0_scratch3
abbrev vcomM : Memref sig .tc .vmem S3x2x8x64x512 .bf16 := Memref.whole cc0_scratch4
abbrev accM : Memref sig .tc .vmem S2x8x512x64 .f32 := Memref.whole cc0_scratch5
abbrev lsumM : Memref sig .tc .vmem S2x8x512x64 .f32 := Memref.whole cc0_scratch6

/-- Every transfer moves one transposed block: this many units on a DMA semaphore. -/
abbrev N : ℕ := (klocM : Memref sig .tc .vmem S2x8x64x512 .bf16).view.dmaCredit
theorem N_pos : 0 < N := View.dmaCredit_pos _ (by decide)

/-- Slot `r` of the key landing buffer and of the value landing buffer, as the program slices them. -/
abbrev kslot0 : Memref sig .tc .vmem S2x8x64x512 .bf16 :=
  ((kcomM : Memref sig .tc .vmem S3x2x8x64x512 .bf16).slice (Rect.unit (s := S3x2x8x64x512) ![0, 0, 0, 0, 0] S1x2x8x64x512.size inb_S3x2x8x64x512_S1x2x8x64x512_0_0_0_0_0) (fun _ => rfl)).squeeze S2x8x64x512 squeezes_S1x2x8x64x512_S2x8x64x512
abbrev kslot1 : Memref sig .tc .vmem S2x8x64x512 .bf16 :=
  ((kcomM : Memref sig .tc .vmem S3x2x8x64x512 .bf16).slice (Rect.unit (s := S3x2x8x64x512) ![1, 0, 0, 0, 0] S1x2x8x64x512.size inb_S3x2x8x64x512_S1x2x8x64x512_1_0_0_0_0) (fun _ => rfl)).squeeze S2x8x64x512 squeezes_S1x2x8x64x512_S2x8x64x512
abbrev kslot2 : Memref sig .tc .vmem S2x8x64x512 .bf16 :=
  ((kcomM : Memref sig .tc .vmem S3x2x8x64x512 .bf16).slice (Rect.unit (s := S3x2x8x64x512) ![2, 0, 0, 0, 0] S1x2x8x64x512.size inb_S3x2x8x64x512_S1x2x8x64x512_2_0_0_0_0) (fun _ => rfl)).squeeze S2x8x64x512 squeezes_S1x2x8x64x512_S2x8x64x512
abbrev vslot0 : Memref sig .tc .vmem S2x8x64x512 .bf16 :=
  ((vcomM : Memref sig .tc .vmem S3x2x8x64x512 .bf16).slice (Rect.unit (s := S3x2x8x64x512) ![0, 0, 0, 0, 0] S1x2x8x64x512.size inb_S3x2x8x64x512_S1x2x8x64x512_0_0_0_0_0) (fun _ => rfl)).squeeze S2x8x64x512 squeezes_S1x2x8x64x512_S2x8x64x512
abbrev vslot1 : Memref sig .tc .vmem S2x8x64x512 .bf16 :=
  ((vcomM : Memref sig .tc .vmem S3x2x8x64x512 .bf16).slice (Rect.unit (s := S3x2x8x64x512) ![1, 0, 0, 0, 0] S1x2x8x64x512.size inb_S3x2x8x64x512_S1x2x8x64x512_1_0_0_0_0) (fun _ => rfl)).squeeze S2x8x64x512 squeezes_S1x2x8x64x512_S2x8x64x512
abbrev vslot2 : Memref sig .tc .vmem S2x8x64x512 .bf16 :=
  ((vcomM : Memref sig .tc .vmem S3x2x8x64x512 .bf16).slice (Rect.unit (s := S3x2x8x64x512) ![2, 0, 0, 0, 0] S1x2x8x64x512.size inb_S3x2x8x64x512_S1x2x8x64x512_2_0_0_0_0) (fun _ => rfl)).squeeze S2x8x64x512 squeezes_S1x2x8x64x512_S2x8x64x512

abbrev kslot : Fin 3 → Memref sig .tc .vmem S2x8x64x512 .bf16 := fun | 0 => kslot0 | 1 => kslot1 | 2 => kslot2
abbrev vslot : Fin 3 → Memref sig .tc .vmem S2x8x64x512 .bf16 := fun | 0 => vslot0 | 1 => vslot1 | 2 => vslot2

/-- A slot takes as many units as the block that lands in it. -/
theorem kslot_amount (r : Fin 3) : (kslot r).view.dmaCredit = N := by fin_cases r <;> rfl
theorem vslot_amount (r : Fin 3) : (vslot r).view.dmaCredit = N := by fin_cases r <;> rfl

end Cert.Kernel.Cells

end
-- ==== Proof.Bits.Sched.lean ====
/-
  The protocol, as one round per semaphore.

  Barrier semaphore of device c: three duties of one unit each. Duty j is paid by the device p whose j-th
  peer is c (p = peer (2 - j) c). With its signal p says "I am inside the kernel", and hands c what c needs in
  order to copy into p: slot j of p's key landing buffer and of p's value landing buffer (whatever they
  hold), and the fact that p stands at the start of the two receive semaphores of that slot. Slot j is the
  right one: c reaches p with its copy number 2 - j, which the kernel aims at slot 2 - (2 - j) = j.

  Send semaphore j (key or value): one duty, paid by the device's own j-th copy; it hands back the share of
  the transposed block that the copy was reading.  Three copies read the same block at once, so the block is
  held in four shares: one per copy and one kept for the device's own first pass.

  Receive semaphore r (key or value): one duty, paid by the r-th peer's copy; it hands over slot r, holding on its
  elements what the landing buffer is to hold in the end (that peer's transposed block).
-/
import proofs.«900413_g7700000000000414_dist_agattn_v7x_xyz2x4x4_z_b2_s512_h8_d64_bf16_1_alg».proof.Proof.Bits.Cells

noncomputable section

namespace Cert.Kernel.Sched

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells

variable {F : FTy → Type} [FloatOps F]

local notation "𝕄" => MT nD τ sig Unit (Elt F) ℕ UU ℕ

-- What each device's transposed key block and value block hold once its fill loop is over.
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
-- What each device's two landing buffers hold once all three slots have landed (slot r: the r-th peer's block).
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))

/-! ## Shares of a block that three copies read at once -/

abbrev sendShare : Fin 3 → PosShare TreeShare := fun | 0 => fullShare.left | 1 => fullShare.right.left | 2 => fullShare.right.right.left
abbrev keptShare : PosShare TreeShare := fullShare.right.right.right

/-! ## Payloads -/

/-- A landing slot, at any contents. -/
def slotAny (M : Memref sig .tc .vmem S2x8x64x512 .bf16) (c : Dev nD) : sProp 𝕄 :=
  iprop(∃ f : Buf (Elt F) (M.view.loc (c : Thread nD τ)), M.view.loc (c : Thread nD τ) ↦[M.view.set]{fullShare} f)

/-- Slot `j` of the key landing buffer holding, on its elements, what the whole-buffer contents `g` say. -/
def kslotHolds (j : Fin 3) (c : Dev nD) (g : Buf (Elt F) ((kcomM : Memref sig .tc .vmem S3x2x8x64x512 .bf16).view.loc (c : Thread nD τ))) : sProp 𝕄 :=
  match j with
  | 0 => (kslot0 : Memref sig .tc .vmem S2x8x64x512 .bf16).view.loc (c : Thread nD τ) ↦[(kslot0 : Memref sig .tc .vmem S2x8x64x512 .bf16).view.set]{fullShare} g
  | 1 => (kslot1 : Memref sig .tc .vmem S2x8x64x512 .bf16).view.loc (c : Thread nD τ) ↦[(kslot1 : Memref sig .tc .vmem S2x8x64x512 .bf16).view.set]{fullShare} g
  | 2 => (kslot2 : Memref sig .tc .vmem S2x8x64x512 .bf16).view.loc (c : Thread nD τ) ↦[(kslot2 : Memref sig .tc .vmem S2x8x64x512 .bf16).view.set]{fullShare} g
/-- The same for the value landing buffer. -/
def vslotHolds (j : Fin 3) (c : Dev nD) (g : Buf (Elt F) ((vcomM : Memref sig .tc .vmem S3x2x8x64x512 .bf16).view.loc (c : Thread nD τ))) : sProp 𝕄 :=
  match j with
  | 0 => (vslot0 : Memref sig .tc .vmem S2x8x64x512 .bf16).view.loc (c : Thread nD τ) ↦[(vslot0 : Memref sig .tc .vmem S2x8x64x512 .bf16).view.set]{fullShare} g
  | 1 => (vslot1 : Memref sig .tc .vmem S2x8x64x512 .bf16).view.loc (c : Thread nD τ) ↦[(vslot1 : Memref sig .tc .vmem S2x8x64x512 .bf16).view.set]{fullShare} g
  | 2 => (vslot2 : Memref sig .tc .vmem S2x8x64x512 .bf16).view.loc (c : Thread nD τ) ↦[(vslot2 : Memref sig .tc .vmem S2x8x64x512 .bf16).view.set]{fullShare} g

/-- Duty `j` of `c`'s barrier: the payer `p = peer (back j) c` hands over its slot `j` of both landing buffers and
    that it stands at round 0 of the two receive semaphores of that slot. -/
def barPay (c : Dev nD) (j : Fin 3) : sProp 𝕄 :=
  iprop(slotAny (kslot j) (peer (back j) c) ∗ slotAny (vslot j) (peer (back j) c)
    ∗ reached ER (dCell 1 j (peer (back j) c)) 0 ∗ reached ER (dCell 3 j (peer (back j) c)) 0)

/-- The one duty of DMA semaphore `j` of triple `t` of device `c`. -/
def dPay (t : Fin 4) (j : Fin 3) (c : Dev nD) : sProp 𝕄 :=
  match t with
  | 0 => (klocM : Memref sig .tc .vmem S2x8x64x512 .bf16).view.loc (c : Thread nD τ) ↦[(klocM : Memref sig .tc .vmem S2x8x64x512 .bf16).view.set]{sendShare j} kT c
  | 1 => kslotHolds j c (kC c)
  | 2 => (vlocM : Memref sig .tc .vmem S2x8x64x512 .bf16).view.loc (c : Thread nD τ) ↦[(vlocM : Memref sig .tc .vmem S2x8x64x512 .bf16).view.set]{sendShare j} vT c
  | 3 => vslotHolds j c (vC c)

omit [FloatOps F] in
instance slotAny_storable (M : Memref sig .tc .vmem S2x8x64x512 .bf16) (c : Dev nD) : BI.Storable (upEmb : UEmb _ 𝕄) (slotAny (F := F) M c) := by
  unfold slotAny; infer_instance
omit [FloatOps F] in
instance kslotHolds_storable (j : Fin 3) (c : Dev nD) (g) : BI.Storable (upEmb : UEmb _ 𝕄) (kslotHolds (F := F) j c g) := by
  unfold kslotHolds; split <;> infer_instance
omit [FloatOps F] in
instance vslotHolds_storable (j : Fin 3) (c : Dev nD) (g) : BI.Storable (upEmb : UEmb _ 𝕄) (vslotHolds (F := F) j c g) := by
  unfold vslotHolds; split <;> infer_instance
omit [FloatOps F] in
instance barPay_storable (c : Dev nD) (j : Fin 3) : BI.Storable (upEmb : UEmb _ 𝕄) (barPay (F := F) c j) := by
  unfold barPay; infer_instance
omit [FloatOps F] in
instance dPay_storable (t : Fin 4) (j : Fin 3) (c : Dev nD) : BI.Storable (upEmb : UEmb _ 𝕄) (dPay kT vT kC vC t j c) := by
  unfold dPay; split <;> infer_instance

/-! ## The schedule -/

/-- Which DMA semaphore of the exchange a semaphore is, if any. -/
def dkind : SemLoc sig → Option (Fin 4 × Fin 3)
  | .reg _ => none
  | .dma q => if h : 4 ≤ q.val then some (⟨(q.val - 4) / 3, by have := q.isLt; have h16 : sig.nDmaSem = 16 := rfl; omega⟩, ⟨(q.val - 4) % 3, Nat.mod_lt _ (by decide)⟩) else none

theorem dkind_dsem : ∀ (t : Fin 4) (j : Fin 3), dkind (.dma (dsem t j)) = some (t, j) := by decide
theorem dkind_bar : dkind (.reg barS) = none := rfl

def sched : Rounds.Schedule (GSem nD τ sig) (Fin 3) 𝕄 where
  duties g r := if r = 0 ∧ g.1.2 = .tc then (if g.2 = .reg barS then Finset.univ else if (dkind g.2).isSome then {0} else ∅) else ∅
  unitless _ := False
  amount g _ _ := if g.2 = .reg barS then 1 else N
  payload g _ d :=
    if g.2 = .reg barS then barPay g.1.1 d
    else match dkind g.2 with
      | some (t, j) => dPay kT vT kC vC t j g.1.1
      | none => iprop(emp)
  amount_pos g _ _ _ := by
    by_cases h : g.2 = .reg barS
    · rw [if_pos h]; exact Nat.one_pos
    · rw [if_neg h]; exact N_pos

omit [FloatOps F] in
instance sched_payload_storable (g : GSem nD τ sig) (r : ℕ) (d : Fin 3) :
    BI.Storable (upEmb : UEmb _ 𝕄) ((sched kT vT kC vC).payload g r d) := by
  show BI.Storable upEmb (if g.2 = .reg barS then barPay g.1.1 d else match dkind g.2 with
      | some (t, j) => dPay kT vT kC vC t j g.1.1
      | none => iprop(emp))
  (repeat' split) <;> infer_instance

section Tables
variable (c : Dev nD)

theorem d_ne_bar (t : Fin 4) (j : Fin 3) : (SemLoc.dma (dsem t j) : SemLoc sig) ≠ .reg barS := fun h => by cases h

omit [FloatOps F] in
theorem duties_bar : (sched kT vT kC vC).duties (barCell c) 0 = Finset.univ := by
  dsimp only [sched]; rw [if_pos ⟨rfl, rfl⟩, if_pos rfl]
omit [FloatOps F] in
theorem duties_d (t : Fin 4) (j : Fin 3) : (sched kT vT kC vC).duties (dCell t j c) 0 = {0} := by
  dsimp only [sched]; rw [if_pos ⟨rfl, rfl⟩, if_neg (d_ne_bar t j), dkind_dsem]; rfl
omit [FloatOps F] in
theorem duties_later (g : GSem nD τ sig) : ∀ r, 1 ≤ r → (sched kT vT kC vC).duties g r = ∅ :=
  fun r hr => by dsimp only [sched]; rw [if_neg fun h => by omega]

omit [FloatOps F] in
theorem amount_bar (d : Fin 3) : (sched kT vT kC vC).amount (barCell c) 0 d = 1 := by dsimp only [sched]; exact if_pos rfl
omit [FloatOps F] in
theorem amount_d (t : Fin 4) (j : Fin 3) (d : Fin 3) : (sched kT vT kC vC).amount (dCell t j c) 0 d = N := by
  dsimp only [sched]; exact if_neg (d_ne_bar t j)

omit [FloatOps F] in
theorem expect_bar : (sched kT vT kC vC).expect (barCell c) 0 = 3 := by
  unfold Schedule.expect Schedule.amountOf
  rw [duties_bar, Finset.sum_congr rfl fun d _ => amount_bar kT vT kC vC c d, Finset.sum_const, Finset.card_univ, Fintype.card_fin, smul_eq_mul]
omit [FloatOps F] in
theorem expect_d (t : Fin 4) (j : Fin 3) : (sched kT vT kC vC).expect (dCell t j c) 0 = N := by
  unfold Schedule.expect Schedule.amountOf; rw [duties_d, Finset.sum_singleton, amount_d]

omit [FloatOps F] in
theorem payload_bar (d : Fin 3) : (sched kT vT kC vC).payload (barCell c) 0 d = barPay c d := by
  dsimp only [sched]; rw [if_pos rfl]
omit [FloatOps F] in
theorem payload_d (t : Fin 4) (j : Fin 3) (d : Fin 3) : (sched kT vT kC vC).payload (dCell t j c) 0 d = dPay kT vT kC vC t j c := by
  dsimp only [sched]; rw [if_neg (d_ne_bar t j), dkind_dsem]

omit [FloatOps F] in
/-- All of the barrier's round, no duty taken: the three peers' payloads. -/
theorem rest_bar : bigSep ((sched kT vT kC vC).duties (barCell c) 0 \ ∅) (fun d => (sched kT vT kC vC).payload (barCell c) 0 d)
    = iprop(barPay c 0 ∗ barPay c 1 ∗ barPay c 2) := by
  rw [Finset.sdiff_empty, duties_bar, bigSep_univ_eq_bigSepL [(0 : Fin 3), 1, 2] (by decide) (by decide),
    bigSepL_cons_cons, bigSepL_cons_cons, bigSepL_singleton, payload_bar, payload_bar, payload_bar]
  rfl
omit [FloatOps F] in
theorem rest_d (t : Fin 4) (j : Fin 3) : bigSep ((sched kT vT kC vC).duties (dCell t j c) 0 \ ∅) (fun d => (sched kT vT kC vC).payload (dCell t j c) 0 d)
    = dPay kT vT kC vC t j c := by
  rw [Finset.sdiff_empty, duties_d, bigSep_singleton, payload_d]

end Tables

end Cert.Kernel.Sched

end
-- ==== Proof.Bits.Levels.lean ====
/-
  Why nobody waits for ever.

  At launch a device owes nine things: one unit to the barrier semaphore of each of its three peers, and one
  block's credit to a key-receive and a value-receive semaphore of each peer (copy j lands in slot 2 - j of
  peer j). It pays them in program order: the three signals first, then key copy 0, value copy 0, key copy 1,
  ... The sum below is bracketed so that each payment removes the last summand.

  Levels: a barrier semaphore sits at 1, a receive semaphore at 2, every other semaphore (the pipeline's
  staging semaphores, the send semaphores) at 0. A device waits on its barrier while it still owes the six
  receive credits (level 2, above 1); on everything else it waits owing nothing, except the pipeline's own
  staging waits (level 0, below every semaphore it owes). So every wait is on a semaphore strictly below all
  that the waiter still owes, which is the whole argument against deadlock.

  The credit the launch deals a device is what the others owe it: three units on its barrier (one from each
  device of its z-line, since "peer j" is a permutation of the devices), and one block's credit on each of its
  six receive semaphores.
-/
import proofs.«900413_g7700000000000414_dist_agattn_v7x_xyz2x4x4_z_b2_s512_h8_d64_bf16_1_alg».proof.Proof.Bits.Sched

noncomputable section

namespace Cert.Kernel.Levels

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched

variable {F : FTy → Type} [FloatOps F]

local notation "𝕄" => MT nD τ sig Unit (Elt F) ℕ UU ℕ

/-! ## What a device owes at launch -/

abbrev tBar (c : Dev nD) (j : Fin 3) : CellTallies nD τ sig Unit := tallyAt (barCell (peer j c)) () 1
abbrev tK (c : Dev nD) (j : Fin 3) : CellTallies nD τ sig Unit := tallyAt (dCell 1 (back j) (peer j c)) () N
abbrev tV (c : Dev nD) (j : Fin 3) : CellTallies nD τ sig Unit := tallyAt (dCell 3 (back j) (peer j c)) () N

/-- After the three signals: the six copies, the first to be issued last in the sum. -/
def Osend (c : Dev nD) : CellTallies nD τ sig Unit := tV c 2 + tK c 2 + tV c 1 + tK c 1 + tV c 0 + tK c 0
/-- At launch: those and the three signals, the first signal last in the sum. -/
def O₀ (c : Dev nD) : CellTallies nD τ sig Unit := Osend c + tBar c 2 + tBar c 1 + tBar c 0

theorem Osend_pos {c : Dev nD} {g : GSem nD τ sig} {u : Unit} (h : 0 < Osend c g u) :
    ∃ j : Fin 3, g = dCell 1 (back j) (peer j c) ∨ g = dCell 3 (back j) (peer j c) := by
  unfold Osend at h
  rcases Pipeline.add_pos_cases h with h | h
  · rcases Pipeline.add_pos_cases h with h | h
    · rcases Pipeline.add_pos_cases h with h | h
      · rcases Pipeline.add_pos_cases h with h | h
        · rcases Pipeline.add_pos_cases h with h | h
          · exact ⟨2, .inr (Pipeline.tallyAt_pos h).1⟩
          · exact ⟨2, .inl (Pipeline.tallyAt_pos h).1⟩
        · exact ⟨1, .inr (Pipeline.tallyAt_pos h).1⟩
      · exact ⟨1, .inl (Pipeline.tallyAt_pos h).1⟩
    · exact ⟨0, .inr (Pipeline.tallyAt_pos h).1⟩
  · exact ⟨0, .inl (Pipeline.tallyAt_pos h).1⟩

theorem O₀_pos {c : Dev nD} {g : GSem nD τ sig} {u : Unit} (h : 0 < O₀ c g u) :
    (∃ j : Fin 3, g = barCell (peer j c)) ∨ ∃ j : Fin 3, g = dCell 1 (back j) (peer j c) ∨ g = dCell 3 (back j) (peer j c) := by
  unfold O₀ at h
  rcases Pipeline.add_pos_cases h with h | h
  · rcases Pipeline.add_pos_cases h with h | h
    · rcases Pipeline.add_pos_cases h with h | h
      · exact .inr (Osend_pos h)
      · exact .inl ⟨2, (Pipeline.tallyAt_pos h).1⟩
    · exact .inl ⟨1, (Pipeline.tallyAt_pos h).1⟩
  · exact .inl ⟨0, (Pipeline.tallyAt_pos h).1⟩

/-! ## Levels -/

/-- A receive semaphore of the exchange. -/
def recvLike (sm : SemLoc sig) : Bool := match dkind sm with
  | some (t, _) => t == 1 || t == 3
  | none => false

theorem recvLike_k : ∀ j : Fin 3, recvLike (.dma (dsem 1 j)) = true := by decide
theorem recvLike_v : ∀ j : Fin 3, recvLike (.dma (dsem 3 j)) = true := by decide
theorem recvLike_ks : ∀ j : Fin 3, recvLike (.dma (dsem 0 j)) = false := by decide
theorem recvLike_vs : ∀ j : Fin 3, recvLike (.dma (dsem 2 j)) = false := by decide
theorem recvLike_stage : ∀ q : DmaSem sig, q.val < 4 → recvLike (.dma q) = false := by decide

def L (g : GSem nD τ sig) : Finset Unit := if g.1.2 = .tc then {()} else ∅
def lv (g : GSem nD τ sig) (_ : Unit) : ℕ := if g.2 = .reg barS then 1 else if recvLike g.2 then 2 else 0

theorem L_of_ne (g : GSem nD τ sig) (h : g.1.2 ≠ .tc) : L g = ∅ := if_neg h
theorem L_tc (c : Dev nD) (sm : SemLoc sig) : L ((c : Thread nD τ), sm) = {()} := if_pos rfl

theorem lv_bar (c : Dev nD) (u : Unit) : lv (barCell c) u = 1 := if_pos rfl
theorem lv_krecv (c : Dev nD) (j : Fin 3) (u : Unit) : lv (dCell 1 j c) u = 2 := by
  dsimp only [lv]; rw [if_neg (d_ne_bar 1 j), recvLike_k]; rfl
theorem lv_vrecv (c : Dev nD) (j : Fin 3) (u : Unit) : lv (dCell 3 j c) u = 2 := by
  dsimp only [lv]; rw [if_neg (d_ne_bar 3 j), recvLike_v]; rfl
theorem lv_ksend (c : Dev nD) (j : Fin 3) (u : Unit) : lv (dCell 0 j c) u = 0 := by
  dsimp only [lv]; rw [if_neg (d_ne_bar 0 j), recvLike_ks]; rfl
theorem lv_vsend (c : Dev nD) (j : Fin 3) (u : Unit) : lv (dCell 2 j c) u = 0 := by
  dsimp only [lv]; rw [if_neg (d_ne_bar 2 j), recvLike_vs]; rfl
theorem lv_stage (c : Dev nD) (q : DmaSem sig) (hq : q.val < 4) (u : Unit) : lv ((c : Thread nD τ), .dma q) u = 0 := by
  dsimp only [lv]; rw [if_neg (fun h => by cases h), recvLike_stage q hq]; rfl

/-! ## Permission to wait -/

omit [FloatOps F] in
/-- The barrier wait: the device still owes the six receive credits, all above its barrier. -/
theorem mayWait_bar (c : Dev nD) : (levAts L lv : sProp 𝕄) ⊢ MayWait (c : Thread nD τ) (.reg barS) () (Osend c) :=
  Pipeline.mayWait_of_levAts (by rw [L_tc]; exact Finset.mem_singleton_self _) fun g u hg => by
    obtain ⟨j, rfl | rfl⟩ := Osend_pos hg
    · exact ⟨by rw [L_tc]; exact Finset.mem_singleton_self _, by rw [lv_bar c, lv_krecv]; decide⟩
    · exact ⟨by rw [L_tc]; exact Finset.mem_singleton_self _, by rw [lv_bar c, lv_vrecv]; decide⟩

omit [FloatOps F] in
/-- The pipeline's staging waits: on a semaphore at level 0, owing either the launch dues or nothing. -/
theorem mayWait_stage (c : Dev nD) (q : DmaSem sig) (hq : q.val < 4) (O : CellTallies nD τ sig Unit) (hO : O = O₀ c ∨ O = 0) :
    (levAts L lv : sProp 𝕄) ⊢ MayWait (c : Thread nD τ) (.dma q) () O := by
  rcases hO with rfl | rfl
  · refine Pipeline.mayWait_of_levAts (by rw [L_tc]; exact Finset.mem_singleton_self _) fun g u hg => ?_
    rcases O₀_pos hg with ⟨j, rfl⟩ | ⟨j, rfl | rfl⟩
    · exact ⟨by rw [L_tc]; exact Finset.mem_singleton_self _, by rw [lv_stage c q hq, lv_bar]; decide⟩
    · exact ⟨by rw [L_tc]; exact Finset.mem_singleton_self _, by rw [lv_stage c q hq, lv_krecv]; decide⟩
    · exact ⟨by rw [L_tc]; exact Finset.mem_singleton_self _, by rw [lv_stage c q hq, lv_vrecv]; decide⟩
  · rw [MayWait_zero]; iintro -; iempintro

/-! ## The credit the launch deals -/

omit [FloatOps F] in
/-- A device's launch credit: three units on its barrier, a block's credit on each receive semaphore. -/
theorem creds (c : Dev nD) :
    (Pipeline.launchCred O₀ c : sProp 𝕄) ⊢ iprop(cred (tallyAt (barCell c) () 3)
      ∗ (cred (tallyAt (dCell 1 0 c) () N) ∗ cred (tallyAt (dCell 1 1 c) () N) ∗ cred (tallyAt (dCell 1 2 c) () N))
      ∗ (cred (tallyAt (dCell 3 0 c) () N) ∗ cred (tallyAt (dCell 3 1 c) () N) ∗ cred (tallyAt (dCell 3 2 c) () N))) := by
  have hb (j : Fin 3) := Pipeline.launchCred_tallyAt (Ix := Unit) (Name := ℕ) (U := UU) (Lvl := ℕ) (Val := Elt F) (τ := τ) (.reg barS)
    (peer j) (peer (back j)) (peer_peer_back j) (peer_back_peer j) () 1 c
  have hk (j : Fin 3) := Pipeline.launchCred_tallyAt (Ix := Unit) (Name := ℕ) (U := UU) (Lvl := ℕ) (Val := Elt F) (τ := τ) (.dma (dsem 1 (back j)))
    (peer j) (peer (back j)) (peer_peer_back j) (peer_back_peer j) () N c
  have hv (j : Fin 3) := Pipeline.launchCred_tallyAt (Ix := Unit) (Name := ℕ) (U := UU) (Lvl := ℕ) (Val := Elt F) (τ := τ) (.dma (dsem 3 (back j)))
    (peer j) (peer (back j)) (peer_peer_back j) (peer_back_peer j) () N c
  unfold O₀ Osend
  rw [Pipeline.launchCred_add, Pipeline.launchCred_add, Pipeline.launchCred_add, Pipeline.launchCred_add, Pipeline.launchCred_add,
    Pipeline.launchCred_add, Pipeline.launchCred_add, Pipeline.launchCred_add]
  iintro ⟨⟨⟨⟨⟨⟨⟨⟨Hv2, Hk2⟩, Hv1⟩, Hk1⟩, Hv0⟩, Hk0⟩, Hb2⟩, Hb1⟩, Hb0⟩
  ihave Hb0 := (hb 0) $$ Hb0
  ihave Hb1 := (hb 1) $$ Hb1
  ihave Hb2 := (hb 2) $$ Hb2
  ihave Hk0 := (hk 0) $$ Hk0
  ihave Hk1 := (hk 1) $$ Hk1
  ihave Hk2 := (hk 2) $$ Hk2
  ihave Hv0 := (hv 0) $$ Hv0
  ihave Hv1 := (hv 1) $$ Hv1
  ihave Hv2 := (hv 2) $$ Hv2
  isplitl [Hb0 Hb1 Hb2]
  · have h3 : (tallyAt (barCell c) () 3 : CellTallies nD τ sig Unit) = tallyAt (barCell c) () 1 + tallyAt (barCell c) () 1 + tallyAt (barCell c) () 1 := by
      rw [tallyAt_add, tallyAt_add]
    rw [h3]
    iapply (cred_add _ _).2
    isplitl [Hb0 Hb1]
    · iapply (cred_add _ _).2
      isplitl [Hb0] <;> iassumption
    · iexact Hb2
  isplitl [Hk0 Hk1 Hk2]
  · isplitl [Hk2]; · iexact Hk2
    isplitl [Hk1]; · iexact Hk1
    iexact Hk0
  · isplitl [Hv2]; · iexact Hv2
    isplitl [Hv1]; · iexact Hv1
    iexact Hv0

end Cert.Kernel.Levels

end
-- ==== Proof.Bits.State.lean ====
/-
  What each device holds, before and after its one grid point.

  Shared by every device and never consumed: the thirteen semaphore invariants of every device, and the fact
  that every semaphore of the exchange has been reached at round 0 (`records`).
  Held by device c alone (`linear`): its position (round 0, nothing taken) on each of its own thirteen
  semaphores, and the one-shot tokens of the fifteen duties it pays -- duty j of its j-th peer's barrier, the
  duty of the key-receive and value-receive semaphore (slot 2 - j) of that peer, and the duties of its own six
  send semaphores.
  With that a device starts from the credit the launch dealt it (three units on its barrier, one block on each
  receive semaphore), the level facts, and its seven scratch buffers at whatever they hold. It ends with the
  scratch buffers back whole and its twelve own DMA semaphores closed at zero.
-/
import proofs.«900413_g7700000000000414_dist_agattn_v7x_xyz2x4x4_z_b2_s512_h8_d64_bf16_1_alg».proof.Proof.Bits.Levels

noncomputable section

namespace Cert.Kernel.State

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched Cert.Kernel.Levels

variable {F : FTy → Type} [FloatOps F]

local notation "𝕄" => MT nD τ sig Unit (Elt F) ℕ UU ℕ

variable (m : (ℓ : Loc nD τ sig) → Buf (Elt F) ℓ) (ρ : Dev nD → PrngReg)

/-- The memory at launch: any contents, every semaphore at zero, any generator registers. -/
def s₀ : MemSt nD τ sig (Elt F) := ⟨m, fun _ => 0, ρ⟩

/-- A device's blocks of the three inputs, as the pipeline stages them. -/
def Qst (c : Dev nD) : (cc0_stg0_0 : Ref sig .tc).ty.Contents (Elt F) :=
  (win0_0.blk (0 : Fin 1)).view.read (Elt F) ((s₀ m ρ).mem ((c : Thread nD τ).loc main_arg0))
def Kst (c : Dev nD) : (cc0_stg1_0 : Ref sig .tc).ty.Contents (Elt F) :=
  (win0_1.blk (0 : Fin 1)).view.read (Elt F) ((s₀ m ρ).mem ((c : Thread nD τ).loc main_arg1))
def Vst (c : Dev nD) : (cc0_stg2_0 : Ref sig .tc).ty.Contents (Elt F) :=
  (win0_2.blk (0 : Fin 1)).view.read (Elt F) ((s₀ m ρ).mem ((c : Thread nD τ).loc main_arg2))

-- The named contents: each device's transposed key and value block, its two landing buffers once full, and its result block.
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))

/-! ## Ghost state -/

def records (K : Dev nD × CK → ℕ) : sProp 𝕄 :=
  iprop((bigSep Finset.univ fun ck : Dev nD × CK => cellInv ER (sched kT vT kC vC) (K ck) (kcell ck))
    ∗ bigSep Finset.univ fun ck : Dev nD × CK => reached ER (kcell ck) 0)

instance records_persistent (K : Dev nD × CK → ℕ) : BI.Persistent (records kT vT kC vC K) := by unfold records; infer_instance

/-- The tokens of the duties device `c` pays. -/
def payToks (c : Dev nD) : sProp 𝕄 :=
  bigSep Finset.univ fun j : Fin 3 =>
    iprop(dutyTok ER (barCell (peer j c)) 0 j ∗ dutyTok ER (dCell 1 (back j) (peer j c)) 0 0 ∗ dutyTok ER (dCell 3 (back j) (peer j c)) 0 0
      ∗ dutyTok ER (dCell 0 j c) 0 0 ∗ dutyTok ER (dCell 2 j c) 0 0)

/-- The tokens of device `c`'s own semaphores, as they are minted. -/
def toks (c : Dev nD) : sProp 𝕄 :=
  iprop((bigSep Finset.univ fun j : Fin 3 => dutyTok ER (barCell c) 0 j)
    ∗ bigSep Finset.univ fun tj : Fin 4 × Fin 3 => dutyTok ER (dCell tj.1 tj.2 c) 0 0)

def linear (c : Dev nD) : sProp 𝕄 :=
  iprop((bigSep Finset.univ fun k : CK => atPos ER (kcell (c, k)) 0 ∅ 0) ∗ payToks c)

def ghost (K : Dev nD × CK → ℕ) (c : Dev nD) : sProp 𝕄 := iprop(records kT vT kC vC K ∗ linear c)

/-- The credit the launch deals device `c`. -/
def credits (c : Dev nD) : sProp 𝕄 :=
  iprop(cred (tallyAt (barCell c) () 3)
    ∗ (cred (tallyAt (dCell 1 0 c) () N) ∗ cred (tallyAt (dCell 1 1 c) () N) ∗ cred (tallyAt (dCell 1 2 c) () N))
    ∗ (cred (tallyAt (dCell 3 0 c) () N) ∗ cred (tallyAt (dCell 3 1 c) () N) ∗ cred (tallyAt (dCell 3 2 c) () N)))

def start (c : Dev nD) : sProp 𝕄 := iprop((∃ K, ghost kT vT kC vC K c) ∗ credits c ∗ levAts L lv)

/-- Before the point: that, and the seven scratch buffers at whatever they hold. -/
def Φ₀ (c : Dev nD) : sProp 𝕄 := iprop(start kT vT kC vC c ∗ Pipeline.scopedRest cfg0.spec c)
/-- After the point: the scratch buffers again, and the twelve own DMA semaphores at zero. -/
def Φ₁ (c : Dev nD) : sProp 𝕄 := iprop(Pipeline.scopedRest cfg0.spec c ∗ Pipeline.ownSems0 osem c)

/-! ## The pipeline's proof data -/

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => Qst m ρ c
    | ⟨1, _⟩ => Kst m ρ c
    | ⟨2, _⟩ => Vst m ρ c
    | ⟨3, _⟩ => outV c
  Φ t := match t with
    | ⟨0, _⟩ => Φ₀ kT vT kC vC c
    | ⟨_ + 1, _⟩ => Φ₁ c
  q _ := fullShare
  owed t := match t with
    | ⟨0, _⟩ => O₀ c
    | ⟨_ + 1, _⟩ => 0

abbrev 𝒱₀ : Variants := Variants.none

end Cert.Kernel.State

end
-- ==== Proof.Bits.BodyPre.lean ====
/-
  What one device's body starts from and ends with, spelt out item by item.

  Of the shared records it needs twenty-two semaphore invariants -- its own thirteen and, for each peer j, that
  peer's barrier and the key-receive and value-receive semaphore of slot 2 - j there -- and the round-0 marks of
  the semaphores it pays into or hands on. Then its thirteen positions, its fifteen tokens, its credit, the level
  facts, its seven scratch buffers, what it owes, and the four staging buffers: the three inputs at this device's
  blocks and the output at anything. It ends with the scratch buffers and its closed semaphores, owing nothing, the
  inputs as they were and the output staging buffer at the device's result.
-/
import proofs.«900413_g7700000000000414_dist_agattn_v7x_xyz2x4x4_z_b2_s512_h8_d64_bf16_1_alg».proof.Proof.Bits.State

noncomputable section

namespace Cert.Kernel.BodyPre

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched Cert.Kernel.Levels Cert.Kernel.State

variable {F : FTy → Type} [FloatOps F]

local notation "𝕄" => MT nD τ sig Unit (Elt F) ℕ UU ℕ

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The semaphore invariants device `c`'s body opens. -/
def invs (K : Dev nD × CK → ℕ) (c : Dev nD) : sProp 𝕄 :=
  iprop(cellInv ER (sched kT vT kC vC) (K (c, none)) (barCell c)
    ∗ cellInv ER (sched kT vT kC vC) (K (c, some (0, 0))) (dCell 0 0 c)
    ∗ cellInv ER (sched kT vT kC vC) (K (c, some (0, 1))) (dCell 0 1 c)
    ∗ cellInv ER (sched kT vT kC vC) (K (c, some (0, 2))) (dCell 0 2 c)
    ∗ cellInv ER (sched kT vT kC vC) (K (c, some (1, 0))) (dCell 1 0 c)
    ∗ cellInv ER (sched kT vT kC vC) (K (c, some (1, 1))) (dCell 1 1 c)
    ∗ cellInv ER (sched kT vT kC vC) (K (c, some (1, 2))) (dCell 1 2 c)
    ∗ cellInv ER (sched kT vT kC vC) (K (c, some (2, 0))) (dCell 2 0 c)
    ∗ cellInv ER (sched kT vT kC vC) (K (c, some (2, 1))) (dCell 2 1 c)
    ∗ cellInv ER (sched kT vT kC vC) (K (c, some (2, 2))) (dCell 2 2 c)
    ∗ cellInv ER (sched kT vT kC vC) (K (c, some (3, 0))) (dCell 3 0 c)
    ∗ cellInv ER (sched kT vT kC vC) (K (c, some (3, 1))) (dCell 3 1 c)
    ∗ cellInv ER (sched kT vT kC vC) (K (c, some (3, 2))) (dCell 3 2 c)
    ∗ cellInv ER (sched kT vT kC vC) (K (peer 0 c, none)) (barCell (peer 0 c))
    ∗ cellInv ER (sched kT vT kC vC) (K (peer 0 c, some (1, 2))) (dCell 1 2 (peer 0 c))
    ∗ cellInv ER (sched kT vT kC vC) (K (peer 0 c, some (3, 2))) (dCell 3 2 (peer 0 c))
    ∗ cellInv ER (sched kT vT kC vC) (K (peer 1 c, none)) (barCell (peer 1 c))
    ∗ cellInv ER (sched kT vT kC vC) (K (peer 1 c, some (1, 1))) (dCell 1 1 (peer 1 c))
    ∗ cellInv ER (sched kT vT kC vC) (K (peer 1 c, some (3, 1))) (dCell 3 1 (peer 1 c))
    ∗ cellInv ER (sched kT vT kC vC) (K (peer 2 c, none)) (barCell (peer 2 c))
    ∗ cellInv ER (sched kT vT kC vC) (K (peer 2 c, some (1, 0))) (dCell 1 0 (peer 2 c))
    ∗ cellInv ER (sched kT vT kC vC) (K (peer 2 c, some (3, 0))) (dCell 3 0 (peer 2 c)))

instance invs_persistent (K : Dev nD × CK → ℕ) (c : Dev nD) : BI.Persistent (invs kT vT kC vC K c) := by unfold invs; infer_instance

/-- The round-0 marks it presents. -/
def reach (c : Dev nD) : sProp 𝕄 :=
  iprop(reached ER (barCell (peer 0 c)) 0
    ∗ reached ER (dCell 1 2 (peer 0 c)) 0
    ∗ reached ER (dCell 3 2 (peer 0 c)) 0
    ∗ reached ER (barCell (peer 1 c)) 0
    ∗ reached ER (dCell 1 1 (peer 1 c)) 0
    ∗ reached ER (dCell 3 1 (peer 1 c)) 0
    ∗ reached ER (barCell (peer 2 c)) 0
    ∗ reached ER (dCell 1 0 (peer 2 c)) 0
    ∗ reached ER (dCell 3 0 (peer 2 c)) 0
    ∗ reached ER (dCell 0 0 c) 0
    ∗ reached ER (dCell 0 1 c) 0
    ∗ reached ER (dCell 0 2 c) 0
    ∗ reached ER (dCell 1 0 c) 0
    ∗ reached ER (dCell 1 1 c) 0
    ∗ reached ER (dCell 1 2 c) 0
    ∗ reached ER (dCell 2 0 c) 0
    ∗ reached ER (dCell 2 1 c) 0
    ∗ reached ER (dCell 2 2 c) 0
    ∗ reached ER (dCell 3 0 c) 0
    ∗ reached ER (dCell 3 1 c) 0
    ∗ reached ER (dCell 3 2 c) 0)

omit [FloatOps F] in
instance reach_persistent (c : Dev nD) : BI.Persistent (reach (F := F) c) := by unfold reach; infer_instance

/-- Its positions. -/
def ats (c : Dev nD) : sProp 𝕄 :=
  iprop(atPos ER (barCell c) 0 ∅ 0
    ∗ atPos ER (dCell 0 0 c) 0 ∅ 0
    ∗ atPos ER (dCell 0 1 c) 0 ∅ 0
    ∗ atPos ER (dCell 0 2 c) 0 ∅ 0
    ∗ atPos ER (dCell 1 0 c) 0 ∅ 0
    ∗ atPos ER (dCell 1 1 c) 0 ∅ 0
    ∗ atPos ER (dCell 1 2 c) 0 ∅ 0
    ∗ atPos ER (dCell 2 0 c) 0 ∅ 0
    ∗ atPos ER (dCell 2 1 c) 0 ∅ 0
    ∗ atPos ER (dCell 2 2 c) 0 ∅ 0
    ∗ atPos ER (dCell 3 0 c) 0 ∅ 0
    ∗ atPos ER (dCell 3 1 c) 0 ∅ 0
    ∗ atPos ER (dCell 3 2 c) 0 ∅ 0)

/-- The tokens of the duties it pays. -/
def ptoks (c : Dev nD) : sProp 𝕄 :=
  iprop(dutyTok ER (barCell (peer 0 c)) 0 (0 : Fin 3)
    ∗ dutyTok ER (dCell 1 2 (peer 0 c)) 0 (0 : Fin 3)
    ∗ dutyTok ER (dCell 3 2 (peer 0 c)) 0 (0 : Fin 3)
    ∗ dutyTok ER (dCell 0 0 c) 0 (0 : Fin 3)
    ∗ dutyTok ER (dCell 2 0 c) 0 (0 : Fin 3)
    ∗ dutyTok ER (barCell (peer 1 c)) 0 (1 : Fin 3)
    ∗ dutyTok ER (dCell 1 1 (peer 1 c)) 0 (0 : Fin 3)
    ∗ dutyTok ER (dCell 3 1 (peer 1 c)) 0 (0 : Fin 3)
    ∗ dutyTok ER (dCell 0 1 c) 0 (0 : Fin 3)
    ∗ dutyTok ER (dCell 2 1 c) 0 (0 : Fin 3)
    ∗ dutyTok ER (barCell (peer 2 c)) 0 (2 : Fin 3)
    ∗ dutyTok ER (dCell 1 0 (peer 2 c)) 0 (0 : Fin 3)
    ∗ dutyTok ER (dCell 3 0 (peer 2 c)) 0 (0 : Fin 3)
    ∗ dutyTok ER (dCell 0 2 c) 0 (0 : Fin 3)
    ∗ dutyTok ER (dCell 2 2 c) 0 (0 : Fin 3))

/-- Its scratch buffers, each whole at some contents. -/
def scr (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f)
    ∗ (∃ f : Buf (Elt F) ((c : Thread nD τ).loc cc0_scratch3), ((c : Thread nD τ).loc cc0_scratch3) ↦{fullShare} f)
    ∗ (∃ f : Buf (Elt F) ((c : Thread nD τ).loc cc0_scratch4), ((c : Thread nD τ).loc cc0_scratch4) ↦{fullShare} f)
    ∗ (∃ f : Buf (Elt F) ((c : Thread nD τ).loc cc0_scratch5), ((c : Thread nD τ).loc cc0_scratch5) ↦{fullShare} f)
    ∗ (∃ f : Buf (Elt F) ((c : Thread nD τ).loc cc0_scratch6), ((c : Thread nD τ).loc cc0_scratch6) ↦{fullShare} f))

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (K : Dev nD × CK → ℕ) (c : Dev nD) : sProp 𝕄 :=
  iprop((invs kT vT kC vC K c ∗ reach c ∗ levAts L lv)
    ∗ ats c ∗ ptoks c ∗ credits c ∗ scr c
    ∗ (dats m ρ kT vT kC vC outV 0 c).owesAt () t₀.castSucc
    ∗ (∃ d, stg c cc0_stg0_0 ((dats m ρ kT vT kC vC outV 0 c).before (0 : Fin 4) t₀ d))
    ∗ (∃ d, stg c cc0_stg1_0 ((dats m ρ kT vT kC vC outV 0 c).before (1 : Fin 4) t₀ d))
    ∗ (∃ d, stg c cc0_stg2_0 ((dats m ρ kT vT kC vC outV 0 c).before (2 : Fin 4) t₀ d))
    ∗ (∃ d, stg c cc0_stg3_0 ((dats m ρ kT vT kC vC outV 0 c).before (3 : Fin 4) t₀ d)))

def bodyPost (c : Dev nD) : sProp 𝕄 :=
  iprop(Φ₁ c ∗ (dats m ρ kT vT kC vC outV 0 c).owesAt () t₀.succ
    ∗ stg c cc0_stg0_0 (Qst m ρ c) ∗ stg c cc0_stg1_0 (Kst m ρ c) ∗ stg c cc0_stg2_0 (Vst m ρ c) ∗ stg c cc0_stg3_0 (outV c))

end Cert.Kernel.BodyPre

end
-- ==== Proof.Bits.Slots.lean ====
/-
  A landing buffer is its three slots.

  Slot r is the slab of the buffer whose first coordinate is r. The three slabs are pairwise disjoint (they
  differ in the first coordinate) and every index lies in one of them (its first coordinate is 0, 1 or 2), so
  owning the whole buffer at contents f is owning the three slots at f, and conversely.
-/
import proofs.«900413_g7700000000000414_dist_agattn_v7x_xyz2x4x4_z_b2_s512_h8_d64_bf16_1_alg».proof.Proof.Bits.Sched
import Idealize.ShloMosaic.Rules.PointsTo

noncomputable section

namespace Cert.Kernel.Slots

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched

variable {F : FTy → Type} [FloatOps F]

local notation "𝕄" => MT nD τ sig Unit (Elt F) ℕ UU ℕ

abbrev R0 : Rect S3x2x8x64x512 := Rect.unit (s := S3x2x8x64x512) ![0, 0, 0, 0, 0] S1x2x8x64x512.size inb_S3x2x8x64x512_S1x2x8x64x512_0_0_0_0_0
abbrev R1 : Rect S3x2x8x64x512 := Rect.unit (s := S3x2x8x64x512) ![1, 0, 0, 0, 0] S1x2x8x64x512.size inb_S3x2x8x64x512_S1x2x8x64x512_1_0_0_0_0
abbrev R2 : Rect S3x2x8x64x512 := Rect.unit (s := S3x2x8x64x512) ![2, 0, 0, 0, 0] S1x2x8x64x512.size inb_S3x2x8x64x512_S1x2x8x64x512_2_0_0_0_0

theorem d01 : Disjoint R0.set R1.set := Rect.unit_disjoint (0 : Fin 5) (.inl (by decide))
theorem d02 : Disjoint R0.set R2.set := Rect.unit_disjoint (0 : Fin 5) (.inl (by decide))
theorem d12 : Disjoint R1.set R2.set := Rect.unit_disjoint (0 : Fin 5) (.inl (by decide))
theorem d0_12 : Disjoint R0.set (R1.set ∪ R2.set) := Finset.disjoint_union_right.mpr ⟨d01, d02⟩

theorem cover : R0.set ∪ (R1.set ∪ R2.set) = Finset.univ := by
  ext i
  simp only [Finset.mem_union, Rect.mem_set_unit, Finset.mem_univ, iff_true]
  have h0 : (i 0 : Nat) < 3 := (i 0).isLt
  have h1 : (i 1 : Nat) < 2 := (i 1).isLt
  have h2 : (i 2 : Nat) < 8 := (i 2).isLt
  have h3 : (i 3 : Nat) < 64 := (i 3).isLt
  have h4 : (i 4 : Nat) < 512 := (i 4).isLt
  have hc : (i 0 : Nat) = 0 ∨ (i 0 : Nat) = 1 ∨ (i 0 : Nat) = 2 := by omega
  rcases hc with hc | hc | hc
  · exact .inl fun a => by fin_cases a <;> simp <;> omega
  · exact .inr (.inl fun a => by fin_cases a <;> simp <;> omega)
  · exact .inr (.inr fun a => by fin_cases a <;> simp <;> omega)

section kcom

theorem k0set : (kslot0 : Memref sig .tc .vmem S2x8x64x512 .bf16).view.set = R0.set := by
  simp only [Memref.view_squeeze, Memref.view_slice, View.set_reshape, Memref.view_whole, View.set_slice_whole]
theorem k1set : (kslot1 : Memref sig .tc .vmem S2x8x64x512 .bf16).view.set = R1.set := by
  simp only [Memref.view_squeeze, Memref.view_slice, View.set_reshape, Memref.view_whole, View.set_slice_whole]
theorem k2set : (kslot2 : Memref sig .tc .vmem S2x8x64x512 .bf16).view.set = R2.set := by
  simp only [Memref.view_squeeze, Memref.view_slice, View.set_reshape, Memref.view_whole, View.set_slice_whole]

omit [FloatOps F] in
/-- The whole landing buffer is its three slots, at the same contents. -/
theorem kcom_split (c : Dev nD) (f : Buf (Elt F) ((kcomM : Memref sig .tc .vmem S3x2x8x64x512 .bf16).view.loc (c : Thread nD τ))) :
    ((((c : Thread nD τ).loc cc0_scratch3) ↦{fullShare} f) : sProp 𝕄) ⊢ iprop((((c : Thread nD τ).loc cc0_scratch3) ↦[(kslot0 : Memref sig .tc .vmem S2x8x64x512 .bf16).view.set]{fullShare} f)
      ∗ (((c : Thread nD τ).loc cc0_scratch3) ↦[(kslot1 : Memref sig .tc .vmem S2x8x64x512 .bf16).view.set]{fullShare} f)
      ∗ (((c : Thread nD τ).loc cc0_scratch3) ↦[(kslot2 : Memref sig .tc .vmem S2x8x64x512 .bf16).view.set]{fullShare} f)) := by
  show ((((c : Thread nD τ).loc cc0_scratch3) ↦[Finset.univ]{fullShare} f) : sProp 𝕄) ⊢
    iprop((((c : Thread nD τ).loc cc0_scratch3) ↦[(kslot0 : Memref sig .tc .vmem S2x8x64x512 .bf16).view.set]{fullShare} f)
      ∗ (((c : Thread nD τ).loc cc0_scratch3) ↦[(kslot1 : Memref sig .tc .vmem S2x8x64x512 .bf16).view.set]{fullShare} f)
      ∗ (((c : Thread nD τ).loc cc0_scratch3) ↦[(kslot2 : Memref sig .tc .vmem S2x8x64x512 .bf16).view.set]{fullShare} f))
  rw [k0set, k1set, k2set, ← cover]
  iintro H
  ihave H := (pointsTo_union d0_12).1 $$ H
  icases H with ⟨H0, H12⟩
  ihave H12 := (pointsTo_union d12).1 $$ H12
  icases H12 with ⟨H1, H2⟩
  isplitl [H0]; · iexact H0
  isplitl [H1]; · iexact H1
  iexact H2

omit [FloatOps F] in
/-- and back. -/
theorem kcom_join (c : Dev nD) (f : Buf (Elt F) ((kcomM : Memref sig .tc .vmem S3x2x8x64x512 .bf16).view.loc (c : Thread nD τ))) :
    iprop((((c : Thread nD τ).loc cc0_scratch3) ↦[(kslot0 : Memref sig .tc .vmem S2x8x64x512 .bf16).view.set]{fullShare} f)
      ∗ (((c : Thread nD τ).loc cc0_scratch3) ↦[(kslot1 : Memref sig .tc .vmem S2x8x64x512 .bf16).view.set]{fullShare} f)
      ∗ (((c : Thread nD τ).loc cc0_scratch3) ↦[(kslot2 : Memref sig .tc .vmem S2x8x64x512 .bf16).view.set]{fullShare} f)) ⊢ ((((c : Thread nD τ).loc cc0_scratch3) ↦{fullShare} f) : sProp 𝕄) := by
  show iprop((((c : Thread nD τ).loc cc0_scratch3) ↦[(kslot0 : Memref sig .tc .vmem S2x8x64x512 .bf16).view.set]{fullShare} f)
      ∗ (((c : Thread nD τ).loc cc0_scratch3) ↦[(kslot1 : Memref sig .tc .vmem S2x8x64x512 .bf16).view.set]{fullShare} f)
      ∗ (((c : Thread nD τ).loc cc0_scratch3) ↦[(kslot2 : Memref sig .tc .vmem S2x8x64x512 .bf16).view.set]{fullShare} f))
    ⊢ ((((c : Thread nD τ).loc cc0_scratch3) ↦[Finset.univ]{fullShare} f) : sProp 𝕄)
  rw [k0set, k1set, k2set, ← cover]
  iintro ⟨H0, H1, H2⟩
  iapply (pointsTo_union d0_12).2
  isplitl [H0]; · iexact H0
  iapply (pointsTo_union d12).2
  isplitl [H1]; · iexact H1
  iexact H2

end kcom

section vcom

theorem v0set : (vslot0 : Memref sig .tc .vmem S2x8x64x512 .bf16).view.set = R0.set := by
  simp only [Memref.view_squeeze, Memref.view_slice, View.set_reshape, Memref.view_whole, View.set_slice_whole]
theorem v1set : (vslot1 : Memref sig .tc .vmem S2x8x64x512 .bf16).view.set = R1.set := by
  simp only [Memref.view_squeeze, Memref.view_slice, View.set_reshape, Memref.view_whole, View.set_slice_whole]
theorem v2set : (vslot2 : Memref sig .tc .vmem S2x8x64x512 .bf16).view.set = R2.set := by
  simp only [Memref.view_squeeze, Memref.view_slice, View.set_reshape, Memref.view_whole, View.set_slice_whole]

omit [FloatOps F] in
/-- The whole landing buffer is its three slots, at the same contents. -/
theorem vcom_split (c : Dev nD) (f : Buf (Elt F) ((vcomM : Memref sig .tc .vmem S3x2x8x64x512 .bf16).view.loc (c : Thread nD τ))) :
    ((((c : Thread nD τ).loc cc0_scratch4) ↦{fullShare} f) : sProp 𝕄) ⊢ iprop((((c : Thread nD τ).loc cc0_scratch4) ↦[(vslot0 : Memref sig .tc .vmem S2x8x64x512 .bf16).view.set]{fullShare} f)
      ∗ (((c : Thread nD τ).loc cc0_scratch4) ↦[(vslot1 : Memref sig .tc .vmem S2x8x64x512 .bf16).view.set]{fullShare} f)
      ∗ (((c : Thread nD τ).loc cc0_scratch4) ↦[(vslot2 : Memref sig .tc .vmem S2x8x64x512 .bf16).view.set]{fullShare} f)) := by
  show ((((c : Thread nD τ).loc cc0_scratch4) ↦[Finset.univ]{fullShare} f) : sProp 𝕄) ⊢
    iprop((((c : Thread nD τ).loc cc0_scratch4) ↦[(vslot0 : Memref sig .tc .vmem S2x8x64x512 .bf16).view.set]{fullShare} f)
      ∗ (((c : Thread nD τ).loc cc0_scratch4) ↦[(vslot1 : Memref sig .tc .vmem S2x8x64x512 .bf16).view.set]{fullShare} f)
      ∗ (((c : Thread nD τ).loc cc0_scratch4) ↦[(vslot2 : Memref sig .tc .vmem S2x8x64x512 .bf16).view.set]{fullShare} f))
  rw [v0set, v1set, v2set, ← cover]
  iintro H
  ihave H := (pointsTo_union d0_12).1 $$ H
  icases H with ⟨H0, H12⟩
  ihave H12 := (pointsTo_union d12).1 $$ H12
  icases H12 with ⟨H1, H2⟩
  isplitl [H0]; · iexact H0
  isplitl [H1]; · iexact H1
  iexact H2

omit [FloatOps F] in
/-- and back. -/
theorem vcom_join (c : Dev nD) (f : Buf (Elt F) ((vcomM : Memref sig .tc .vmem S3x2x8x64x512 .bf16).view.loc (c : Thread nD τ))) :
    iprop((((c : Thread nD τ).loc cc0_scratch4) ↦[(vslot0 : Memref sig .tc .vmem S2x8x64x512 .bf16).view.set]{fullShare} f)
      ∗ (((c : Thread nD τ).loc cc0_scratch4) ↦[(vslot1 : Memref sig .tc .vmem S2x8x64x512 .bf16).view.set]{fullShare} f)
      ∗ (((c : Thread nD τ).loc cc0_scratch4) ↦[(vslot2 : Memref sig .tc .vmem S2x8x64x512 .bf16).view.set]{fullShare} f)) ⊢ ((((c : Thread nD τ).loc cc0_scratch4) ↦{fullShare} f) : sProp 𝕄) := by
  show iprop((((c : Thread nD τ).loc cc0_scratch4) ↦[(vslot0 : Memref sig .tc .vmem S2x8x64x512 .bf16).view.set]{fullShare} f)
      ∗ (((c : Thread nD τ).loc cc0_scratch4) ↦[(vslot1 : Memref sig .tc .vmem S2x8x64x512 .bf16).view.set]{fullShare} f)
      ∗ (((c : Thread nD τ).loc cc0_scratch4) ↦[(vslot2 : Memref sig .tc .vmem S2x8x64x512 .bf16).view.set]{fullShare} f))
    ⊢ ((((c : Thread nD τ).loc cc0_scratch4) ↦[Finset.univ]{fullShare} f) : sProp 𝕄)
  rw [v0set, v1set, v2set, ← cover]
  iintro ⟨H0, H1, H2⟩
  iapply (pointsTo_union d0_12).2
  isplitl [H0]; · iexact H0
  iapply (pointsTo_union d12).2
  isplitl [H1]; · iexact H1
  iexact H2

end vcom

end Cert.Kernel.Slots

end
-- ==== Proof.Bits.Shares.lean ====
/-
  Three copies read a device's transposed block at the same time, and the device's own first pass reads it
  too. So the block's ownership is cut into four shares of the same contents: the whole is a left half and a
  right half, the right half again, and once more.
-/
import proofs.«900413_g7700000000000414_dist_agattn_v7x_xyz2x4x4_z_b2_s512_h8_d64_bf16_1_alg».proof.Proof.Bits.Sched
import Idealize.ShloMosaic.Rules.PointsTo

noncomputable section

namespace Cert.Kernel.Shares

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched

variable {F : FTy → Type} [FloatOps F]

local notation "𝕄" => MT nD τ sig Unit (Elt F) ℕ UU ℕ

omit [FloatOps F] in
/-- The block held whole is the three shares its copies read through and the one the device keeps. -/
theorem kloc_split (c : Dev nD) (f : Buf (Elt F) ((c : Thread nD τ).loc cc0_scratch1)) :
    ((((c : Thread nD τ).loc cc0_scratch1) ↦{fullShare} f) : sProp 𝕄)
      ⊢ iprop(((klocM : Memref sig .tc .vmem S2x8x64x512 .bf16).view.loc (c : Thread nD τ) ↦[(klocM : Memref sig .tc .vmem S2x8x64x512 .bf16).view.set]{sendShare 0} f)
        ∗ ((klocM : Memref sig .tc .vmem S2x8x64x512 .bf16).view.loc (c : Thread nD τ) ↦[(klocM : Memref sig .tc .vmem S2x8x64x512 .bf16).view.set]{sendShare 1} f)
        ∗ ((klocM : Memref sig .tc .vmem S2x8x64x512 .bf16).view.loc (c : Thread nD τ) ↦[(klocM : Memref sig .tc .vmem S2x8x64x512 .bf16).view.set]{sendShare 2} f)
        ∗ (((c : Thread nD τ).loc cc0_scratch1) ↦{keptShare} f)) := by
  rw [show (klocM : Memref sig .tc .vmem S2x8x64x512 .bf16).view.set = Finset.univ from View.set_whole _]
  iintro H
  ihave H := (pointsTo_share (PosShare.mem_left_op_right fullShare)).1 $$ H
  icases H with ⟨H0, H⟩
  ihave H := (pointsTo_share (PosShare.mem_left_op_right fullShare.right)).1 $$ H
  icases H with ⟨H1, H⟩
  ihave H := (pointsTo_share (PosShare.mem_left_op_right fullShare.right.right)).1 $$ H
  icases H with ⟨H2, H3⟩
  isplitl [H0]; · iexact H0
  isplitl [H1]; · iexact H1
  isplitl [H2]; · iexact H2
  iexact H3

omit [FloatOps F] in
/-- and back. -/
theorem kloc_join (c : Dev nD) (f : Buf (Elt F) ((c : Thread nD τ).loc cc0_scratch1)) :
    iprop(((klocM : Memref sig .tc .vmem S2x8x64x512 .bf16).view.loc (c : Thread nD τ) ↦[(klocM : Memref sig .tc .vmem S2x8x64x512 .bf16).view.set]{sendShare 0} f)
        ∗ ((klocM : Memref sig .tc .vmem S2x8x64x512 .bf16).view.loc (c : Thread nD τ) ↦[(klocM : Memref sig .tc .vmem S2x8x64x512 .bf16).view.set]{sendShare 1} f)
        ∗ ((klocM : Memref sig .tc .vmem S2x8x64x512 .bf16).view.loc (c : Thread nD τ) ↦[(klocM : Memref sig .tc .vmem S2x8x64x512 .bf16).view.set]{sendShare 2} f)
        ∗ (((c : Thread nD τ).loc cc0_scratch1) ↦{keptShare} f))
      ⊢ ((((c : Thread nD τ).loc cc0_scratch1) ↦{fullShare} f) : sProp 𝕄) := by
  rw [show (klocM : Memref sig .tc .vmem S2x8x64x512 .bf16).view.set = Finset.univ from View.set_whole _]
  iintro ⟨H0, H1, H2, H3⟩
  iapply (pointsTo_share (PosShare.mem_left_op_right fullShare)).2
  isplitl [H0]; · iexact H0
  iapply (pointsTo_share (PosShare.mem_left_op_right fullShare.right)).2
  isplitl [H1]; · iexact H1
  iapply (pointsTo_share (PosShare.mem_left_op_right fullShare.right.right)).2
  isplitl [H2]; · iexact H2
  iexact H3

omit [FloatOps F] in
/-- The block held whole is the three shares its copies read through and the one the device keeps. -/
theorem vloc_split (c : Dev nD) (f : Buf (Elt F) ((c : Thread nD τ).loc cc0_scratch2)) :
    ((((c : Thread nD τ).loc cc0_scratch2) ↦{fullShare} f) : sProp 𝕄)
      ⊢ iprop(((vlocM : Memref sig .tc .vmem S2x8x64x512 .bf16).view.loc (c : Thread nD τ) ↦[(vlocM : Memref sig .tc .vmem S2x8x64x512 .bf16).view.set]{sendShare 0} f)
        ∗ ((vlocM : Memref sig .tc .vmem S2x8x64x512 .bf16).view.loc (c : Thread nD τ) ↦[(vlocM : Memref sig .tc .vmem S2x8x64x512 .bf16).view.set]{sendShare 1} f)
        ∗ ((vlocM : Memref sig .tc .vmem S2x8x64x512 .bf16).view.loc (c : Thread nD τ) ↦[(vlocM : Memref sig .tc .vmem S2x8x64x512 .bf16).view.set]{sendShare 2} f)
        ∗ (((c : Thread nD τ).loc cc0_scratch2) ↦{keptShare} f)) := by
  rw [show (vlocM : Memref sig .tc .vmem S2x8x64x512 .bf16).view.set = Finset.univ from View.set_whole _]
  iintro H
  ihave H := (pointsTo_share (PosShare.mem_left_op_right fullShare)).1 $$ H
  icases H with ⟨H0, H⟩
  ihave H := (pointsTo_share (PosShare.mem_left_op_right fullShare.right)).1 $$ H
  icases H with ⟨H1, H⟩
  ihave H := (pointsTo_share (PosShare.mem_left_op_right fullShare.right.right)).1 $$ H
  icases H with ⟨H2, H3⟩
  isplitl [H0]; · iexact H0
  isplitl [H1]; · iexact H1
  isplitl [H2]; · iexact H2
  iexact H3

omit [FloatOps F] in
/-- and back. -/
theorem vloc_join (c : Dev nD) (f : Buf (Elt F) ((c : Thread nD τ).loc cc0_scratch2)) :
    iprop(((vlocM : Memref sig .tc .vmem S2x8x64x512 .bf16).view.loc (c : Thread nD τ) ↦[(vlocM : Memref sig .tc .vmem S2x8x64x512 .bf16).view.set]{sendShare 0} f)
        ∗ ((vlocM : Memref sig .tc .vmem S2x8x64x512 .bf16).view.loc (c : Thread nD τ) ↦[(vlocM : Memref sig .tc .vmem S2x8x64x512 .bf16).view.set]{sendShare 1} f)
        ∗ ((vlocM : Memref sig .tc .vmem S2x8x64x512 .bf16).view.loc (c : Thread nD τ) ↦[(vlocM : Memref sig .tc .vmem S2x8x64x512 .bf16).view.set]{sendShare 2} f)
        ∗ (((c : Thread nD τ).loc cc0_scratch2) ↦{keptShare} f))
      ⊢ ((((c : Thread nD τ).loc cc0_scratch2) ↦{fullShare} f) : sProp 𝕄) := by
  rw [show (vlocM : Memref sig .tc .vmem S2x8x64x512 .bf16).view.set = Finset.univ from View.set_whole _]
  iintro ⟨H0, H1, H2, H3⟩
  iapply (pointsTo_share (PosShare.mem_left_op_right fullShare)).2
  isplitl [H0]; · iexact H0
  iapply (pointsTo_share (PosShare.mem_left_op_right fullShare.right)).2
  isplitl [H1]; · iexact H1
  iapply (pointsTo_share (PosShare.mem_left_op_right fullShare.right.right)).2
  isplitl [H2]; · iexact H2
  iexact H3

end Cert.Kernel.Shares

end
-- ==== Proof.Bits.Sends.lean ====
/-
  The six remote copies, one lemma each.

  Copy j of a block goes to peer j and lands in that peer's slot 2 - j. The issuer reads its own transposed
  block through one of its shares and writes the peer's slot, which the peer handed over with its barrier
  signal. Two duties are paid at once: the issuer's own send semaphore j (its payload: the lent share, back
  when the copy has read everything) and the peer's receive semaphore of that slot (its payload: the slot,
  holding what landed). The printed device id is a chain of integer operations on the device's own id; the
  lemma is stated for any device n together with the proof that n is the peer.
-/
import proofs.«900413_g7700000000000414_dist_agattn_v7x_xyz2x4x4_z_b2_s512_h8_d64_bf16_1_alg».proof.Proof.Bits.BodyPre
import Idealize.ShloMosaic.Rules.PointsTo

noncomputable section

namespace Cert.Kernel.Sends

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched Cert.Kernel.Levels Cert.Kernel.State

variable {F : FTy → Type} [FloatOps F]

local notation "𝕄" => MT nD τ sig Unit (Elt F) ℕ UU ℕ

variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (K : Dev nD × CK → ℕ)

/-- Copy 0 of the key block: to peer 0, into its slot 2. The issuer lends one share of its block (back with the
    send semaphore) and owns the peer's slot outright; what lands makes the slot hold what the peer's landing buffer is
    to hold there (`hland`). -/
theorem wp_send_k0 (c n : Dev nD) (hn : n = peer 0 c)
    (hland : ∀ fd : Buf (Elt F) ((kslot2 : Memref sig .tc .vmem S2x8x64x512 .bf16).view.loc (peer 0 c : Thread nD τ)), ∀ i ∈ (kslot2 : Memref sig .tc .vmem S2x8x64x512 .bf16).view.set,
      (kslot2 : Memref sig .tc .vmem S2x8x64x512 .bf16).view.write (Elt F) fd ((klocM : Memref sig .tc .vmem S2x8x64x512 .bf16).view.read (Elt F) (kT c)) Finset.univ i = kC (peer 0 c) i)
    {hsc : (kslot2 : Memref sig (Dev.tc n : Thread nD τ).2.kind .vmem S2x8x64x512 .bf16).view.ref.isScScratch = false}
    {hsrc : (klocM : Memref sig .tc .vmem S2x8x64x512 .bf16).view.WordExact} {hdst : (kslot2 : Memref sig .tc .vmem S2x8x64x512 .bf16).view.WordExact}
    {hsem : DmaTarget.Typed .vmem (.dma (dsem 1 2)) (.remote (Dev.tc n : Thread nD τ) (kslot2 : Memref sig .tc .vmem S2x8x64x512 .bf16) (.dma (dsem 0 0)) hsc)}
    {α : Type} {Q : α → sProp 𝕄} {k : PUnit → Prog (TpuEff nD τ sig (Elt F) Λ₀ .tc) α}
    (fd : Buf (Elt F) ((kslot2 : Memref sig .tc .vmem S2x8x64x512 .bf16).view.loc (peer 0 c : Thread nD τ))) (O : CellTallies nD τ sig Unit) (W : Waits sig Unit) :
    iprop(cellInv ER (sched kT vT kC vC) (K (c, some (0, 0))) (dCell 0 0 c) ∗ cellInv ER (sched kT vT kC vC) (K (peer 0 c, some (1, 2))) (dCell 1 2 (peer 0 c))
        ∗ ((klocM : Memref sig .tc .vmem S2x8x64x512 .bf16).view.loc (c : Thread nD τ) ↦[(klocM : Memref sig .tc .vmem S2x8x64x512 .bf16).view.set]{sendShare 0} kT c)
        ∗ ((kslot2 : Memref sig .tc .vmem S2x8x64x512 .bf16).view.loc (peer 0 c : Thread nD τ) ↦[(kslot2 : Memref sig .tc .vmem S2x8x64x512 .bf16).view.set]{fullShare} fd)
        ∗ owes (c : Thread nD τ) (O + tallyAt (dCell 1 2 (peer 0 c)) () N) W
        ∗ dutyTok ER (dCell 0 0 c) 0 (0 : Fin 3) ∗ reached ER (dCell 0 0 c) 0
        ∗ dutyTok ER (dCell 1 2 (peer 0 c)) 0 (0 : Fin 3) ∗ reached ER (dCell 1 2 (peer 0 c)) 0)
      ⊢ iprop(((cred (tallyAt (dCell 0 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (klocM : Memref sig .tc .vmem S2x8x64x512 .bf16) (.remote (Dev.tc n : Thread nD τ) (kslot2 : Memref sig .tc .vmem S2x8x64x512 .bf16) (.dma (dsem 0 0)) hsc) (.dma (dsem 1 2)) hsrc hdst hsem) k) Q) := by
  subst hn
  exact Rounds.wp_send_pointsTo 𝒱₀ ER (sched kT vT kC vC) (c : Thread nD τ) none (κ₁ := K (c, some (0, 0))) (κ₂ := K (peer 0 c, some (1, 2)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 0 0 0) (amount_d kT vT kC vC (peer 0 c) 1 2 0) O rfl (W := W)
    (by rw [payload_d]; exact BI.Entails.refl _)
    (by rw [payload_d]; exact Entails.of_eq (pointsTo_congr (hland fd)))

/-- Copy 0 of the value block: to peer 0, into its slot 2. The issuer lends one share of its block (back with the
    send semaphore) and owns the peer's slot outright; what lands makes the slot hold what the peer's landing buffer is
    to hold there (`hland`). -/
theorem wp_send_v0 (c n : Dev nD) (hn : n = peer 0 c)
    (hland : ∀ fd : Buf (Elt F) ((vslot2 : Memref sig .tc .vmem S2x8x64x512 .bf16).view.loc (peer 0 c : Thread nD τ)), ∀ i ∈ (vslot2 : Memref sig .tc .vmem S2x8x64x512 .bf16).view.set,
      (vslot2 : Memref sig .tc .vmem S2x8x64x512 .bf16).view.write (Elt F) fd ((vlocM : Memref sig .tc .vmem S2x8x64x512 .bf16).view.read (Elt F) (vT c)) Finset.univ i = vC (peer 0 c) i)
    {hsc : (vslot2 : Memref sig (Dev.tc n : Thread nD τ).2.kind .vmem S2x8x64x512 .bf16).view.ref.isScScratch = false}
    {hsrc : (vlocM : Memref sig .tc .vmem S2x8x64x512 .bf16).view.WordExact} {hdst : (vslot2 : Memref sig .tc .vmem S2x8x64x512 .bf16).view.WordExact}
    {hsem : DmaTarget.Typed .vmem (.dma (dsem 3 2)) (.remote (Dev.tc n : Thread nD τ) (vslot2 : Memref sig .tc .vmem S2x8x64x512 .bf16) (.dma (dsem 2 0)) hsc)}
    {α : Type} {Q : α → sProp 𝕄} {k : PUnit → Prog (TpuEff nD τ sig (Elt F) Λ₀ .tc) α}
    (fd : Buf (Elt F) ((vslot2 : Memref sig .tc .vmem S2x8x64x512 .bf16).view.loc (peer 0 c : Thread nD τ))) (O : CellTallies nD τ sig Unit) (W : Waits sig Unit) :
    iprop(cellInv ER (sched kT vT kC vC) (K (c, some (2, 0))) (dCell 2 0 c) ∗ cellInv ER (sched kT vT kC vC) (K (peer 0 c, some (3, 2))) (dCell 3 2 (peer 0 c))
        ∗ ((vlocM : Memref sig .tc .vmem S2x8x64x512 .bf16).view.loc (c : Thread nD τ) ↦[(vlocM : Memref sig .tc .vmem S2x8x64x512 .bf16).view.set]{sendShare 0} vT c)
        ∗ ((vslot2 : Memref sig .tc .vmem S2x8x64x512 .bf16).view.loc (peer 0 c : Thread nD τ) ↦[(vslot2 : Memref sig .tc .vmem S2x8x64x512 .bf16).view.set]{fullShare} fd)
        ∗ owes (c : Thread nD τ) (O + tallyAt (dCell 3 2 (peer 0 c)) () N) W
        ∗ dutyTok ER (dCell 2 0 c) 0 (0 : Fin 3) ∗ reached ER (dCell 2 0 c) 0
        ∗ dutyTok ER (dCell 3 2 (peer 0 c)) 0 (0 : Fin 3) ∗ reached ER (dCell 3 2 (peer 0 c)) 0)
      ⊢ iprop(((cred (tallyAt (dCell 2 0 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vlocM : Memref sig .tc .vmem S2x8x64x512 .bf16) (.remote (Dev.tc n : Thread nD τ) (vslot2 : Memref sig .tc .vmem S2x8x64x512 .bf16) (.dma (dsem 2 0)) hsc) (.dma (dsem 3 2)) hsrc hdst hsem) k) Q) := by
  subst hn
  exact Rounds.wp_send_pointsTo 𝒱₀ ER (sched kT vT kC vC) (c : Thread nD τ) none (κ₁ := K (c, some (2, 0))) (κ₂ := K (peer 0 c, some (3, 2)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 2 0 0) (amount_d kT vT kC vC (peer 0 c) 3 2 0) O rfl (W := W)
    (by rw [payload_d]; exact BI.Entails.refl _)
    (by rw [payload_d]; exact Entails.of_eq (pointsTo_congr (hland fd)))

/-- Copy 1 of the key block: to peer 1, into its slot 1. The issuer lends one share of its block (back with the
    send semaphore) and owns the peer's slot outright; what lands makes the slot hold what the peer's landing buffer is
    to hold there (`hland`). -/
theorem wp_send_k1 (c n : Dev nD) (hn : n = peer 1 c)
    (hland : ∀ fd : Buf (Elt F) ((kslot1 : Memref sig .tc .vmem S2x8x64x512 .bf16).view.loc (peer 1 c : Thread nD τ)), ∀ i ∈ (kslot1 : Memref sig .tc .vmem S2x8x64x512 .bf16).view.set,
      (kslot1 : Memref sig .tc .vmem S2x8x64x512 .bf16).view.write (Elt F) fd ((klocM : Memref sig .tc .vmem S2x8x64x512 .bf16).view.read (Elt F) (kT c)) Finset.univ i = kC (peer 1 c) i)
    {hsc : (kslot1 : Memref sig (Dev.tc n : Thread nD τ).2.kind .vmem S2x8x64x512 .bf16).view.ref.isScScratch = false}
    {hsrc : (klocM : Memref sig .tc .vmem S2x8x64x512 .bf16).view.WordExact} {hdst : (kslot1 : Memref sig .tc .vmem S2x8x64x512 .bf16).view.WordExact}
    {hsem : DmaTarget.Typed .vmem (.dma (dsem 1 1)) (.remote (Dev.tc n : Thread nD τ) (kslot1 : Memref sig .tc .vmem S2x8x64x512 .bf16) (.dma (dsem 0 1)) hsc)}
    {α : Type} {Q : α → sProp 𝕄} {k : PUnit → Prog (TpuEff nD τ sig (Elt F) Λ₀ .tc) α}
    (fd : Buf (Elt F) ((kslot1 : Memref sig .tc .vmem S2x8x64x512 .bf16).view.loc (peer 1 c : Thread nD τ))) (O : CellTallies nD τ sig Unit) (W : Waits sig Unit) :
    iprop(cellInv ER (sched kT vT kC vC) (K (c, some (0, 1))) (dCell 0 1 c) ∗ cellInv ER (sched kT vT kC vC) (K (peer 1 c, some (1, 1))) (dCell 1 1 (peer 1 c))
        ∗ ((klocM : Memref sig .tc .vmem S2x8x64x512 .bf16).view.loc (c : Thread nD τ) ↦[(klocM : Memref sig .tc .vmem S2x8x64x512 .bf16).view.set]{sendShare 1} kT c)
        ∗ ((kslot1 : Memref sig .tc .vmem S2x8x64x512 .bf16).view.loc (peer 1 c : Thread nD τ) ↦[(kslot1 : Memref sig .tc .vmem S2x8x64x512 .bf16).view.set]{fullShare} fd)
        ∗ owes (c : Thread nD τ) (O + tallyAt (dCell 1 1 (peer 1 c)) () N) W
        ∗ dutyTok ER (dCell 0 1 c) 0 (0 : Fin 3) ∗ reached ER (dCell 0 1 c) 0
        ∗ dutyTok ER (dCell 1 1 (peer 1 c)) 0 (0 : Fin 3) ∗ reached ER (dCell 1 1 (peer 1 c)) 0)
      ⊢ iprop(((cred (tallyAt (dCell 0 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (klocM : Memref sig .tc .vmem S2x8x64x512 .bf16) (.remote (Dev.tc n : Thread nD τ) (kslot1 : Memref sig .tc .vmem S2x8x64x512 .bf16) (.dma (dsem 0 1)) hsc) (.dma (dsem 1 1)) hsrc hdst hsem) k) Q) := by
  subst hn
  exact Rounds.wp_send_pointsTo 𝒱₀ ER (sched kT vT kC vC) (c : Thread nD τ) none (κ₁ := K (c, some (0, 1))) (κ₂ := K (peer 1 c, some (1, 1)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 0 1 0) (amount_d kT vT kC vC (peer 1 c) 1 1 0) O rfl (W := W)
    (by rw [payload_d]; exact BI.Entails.refl _)
    (by rw [payload_d]; exact Entails.of_eq (pointsTo_congr (hland fd)))

/-- Copy 1 of the value block: to peer 1, into its slot 1. The issuer lends one share of its block (back with the
    send semaphore) and owns the peer's slot outright; what lands makes the slot hold what the peer's landing buffer is
    to hold there (`hland`). -/
theorem wp_send_v1 (c n : Dev nD) (hn : n = peer 1 c)
    (hland : ∀ fd : Buf (Elt F) ((vslot1 : Memref sig .tc .vmem S2x8x64x512 .bf16).view.loc (peer 1 c : Thread nD τ)), ∀ i ∈ (vslot1 : Memref sig .tc .vmem S2x8x64x512 .bf16).view.set,
      (vslot1 : Memref sig .tc .vmem S2x8x64x512 .bf16).view.write (Elt F) fd ((vlocM : Memref sig .tc .vmem S2x8x64x512 .bf16).view.read (Elt F) (vT c)) Finset.univ i = vC (peer 1 c) i)
    {hsc : (vslot1 : Memref sig (Dev.tc n : Thread nD τ).2.kind .vmem S2x8x64x512 .bf16).view.ref.isScScratch = false}
    {hsrc : (vlocM : Memref sig .tc .vmem S2x8x64x512 .bf16).view.WordExact} {hdst : (vslot1 : Memref sig .tc .vmem S2x8x64x512 .bf16).view.WordExact}
    {hsem : DmaTarget.Typed .vmem (.dma (dsem 3 1)) (.remote (Dev.tc n : Thread nD τ) (vslot1 : Memref sig .tc .vmem S2x8x64x512 .bf16) (.dma (dsem 2 1)) hsc)}
    {α : Type} {Q : α → sProp 𝕄} {k : PUnit → Prog (TpuEff nD τ sig (Elt F) Λ₀ .tc) α}
    (fd : Buf (Elt F) ((vslot1 : Memref sig .tc .vmem S2x8x64x512 .bf16).view.loc (peer 1 c : Thread nD τ))) (O : CellTallies nD τ sig Unit) (W : Waits sig Unit) :
    iprop(cellInv ER (sched kT vT kC vC) (K (c, some (2, 1))) (dCell 2 1 c) ∗ cellInv ER (sched kT vT kC vC) (K (peer 1 c, some (3, 1))) (dCell 3 1 (peer 1 c))
        ∗ ((vlocM : Memref sig .tc .vmem S2x8x64x512 .bf16).view.loc (c : Thread nD τ) ↦[(vlocM : Memref sig .tc .vmem S2x8x64x512 .bf16).view.set]{sendShare 1} vT c)
        ∗ ((vslot1 : Memref sig .tc .vmem S2x8x64x512 .bf16).view.loc (peer 1 c : Thread nD τ) ↦[(vslot1 : Memref sig .tc .vmem S2x8x64x512 .bf16).view.set]{fullShare} fd)
        ∗ owes (c : Thread nD τ) (O + tallyAt (dCell 3 1 (peer 1 c)) () N) W
        ∗ dutyTok ER (dCell 2 1 c) 0 (0 : Fin 3) ∗ reached ER (dCell 2 1 c) 0
        ∗ dutyTok ER (dCell 3 1 (peer 1 c)) 0 (0 : Fin 3) ∗ reached ER (dCell 3 1 (peer 1 c)) 0)
      ⊢ iprop(((cred (tallyAt (dCell 2 1 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vlocM : Memref sig .tc .vmem S2x8x64x512 .bf16) (.remote (Dev.tc n : Thread nD τ) (vslot1 : Memref sig .tc .vmem S2x8x64x512 .bf16) (.dma (dsem 2 1)) hsc) (.dma (dsem 3 1)) hsrc hdst hsem) k) Q) := by
  subst hn
  exact Rounds.wp_send_pointsTo 𝒱₀ ER (sched kT vT kC vC) (c : Thread nD τ) none (κ₁ := K (c, some (2, 1))) (κ₂ := K (peer 1 c, some (3, 1)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 2 1 0) (amount_d kT vT kC vC (peer 1 c) 3 1 0) O rfl (W := W)
    (by rw [payload_d]; exact BI.Entails.refl _)
    (by rw [payload_d]; exact Entails.of_eq (pointsTo_congr (hland fd)))

/-- Copy 2 of the key block: to peer 2, into its slot 0. The issuer lends one share of its block (back with the
    send semaphore) and owns the peer's slot outright; what lands makes the slot hold what the peer's landing buffer is
    to hold there (`hland`). -/
theorem wp_send_k2 (c n : Dev nD) (hn : n = peer 2 c)
    (hland : ∀ fd : Buf (Elt F) ((kslot0 : Memref sig .tc .vmem S2x8x64x512 .bf16).view.loc (peer 2 c : Thread nD τ)), ∀ i ∈ (kslot0 : Memref sig .tc .vmem S2x8x64x512 .bf16).view.set,
      (kslot0 : Memref sig .tc .vmem S2x8x64x512 .bf16).view.write (Elt F) fd ((klocM : Memref sig .tc .vmem S2x8x64x512 .bf16).view.read (Elt F) (kT c)) Finset.univ i = kC (peer 2 c) i)
    {hsc : (kslot0 : Memref sig (Dev.tc n : Thread nD τ).2.kind .vmem S2x8x64x512 .bf16).view.ref.isScScratch = false}
    {hsrc : (klocM : Memref sig .tc .vmem S2x8x64x512 .bf16).view.WordExact} {hdst : (kslot0 : Memref sig .tc .vmem S2x8x64x512 .bf16).view.WordExact}
    {hsem : DmaTarget.Typed .vmem (.dma (dsem 1 0)) (.remote (Dev.tc n : Thread nD τ) (kslot0 : Memref sig .tc .vmem S2x8x64x512 .bf16) (.dma (dsem 0 2)) hsc)}
    {α : Type} {Q : α → sProp 𝕄} {k : PUnit → Prog (TpuEff nD τ sig (Elt F) Λ₀ .tc) α}
    (fd : Buf (Elt F) ((kslot0 : Memref sig .tc .vmem S2x8x64x512 .bf16).view.loc (peer 2 c : Thread nD τ))) (O : CellTallies nD τ sig Unit) (W : Waits sig Unit) :
    iprop(cellInv ER (sched kT vT kC vC) (K (c, some (0, 2))) (dCell 0 2 c) ∗ cellInv ER (sched kT vT kC vC) (K (peer 2 c, some (1, 0))) (dCell 1 0 (peer 2 c))
        ∗ ((klocM : Memref sig .tc .vmem S2x8x64x512 .bf16).view.loc (c : Thread nD τ) ↦[(klocM : Memref sig .tc .vmem S2x8x64x512 .bf16).view.set]{sendShare 2} kT c)
        ∗ ((kslot0 : Memref sig .tc .vmem S2x8x64x512 .bf16).view.loc (peer 2 c : Thread nD τ) ↦[(kslot0 : Memref sig .tc .vmem S2x8x64x512 .bf16).view.set]{fullShare} fd)
        ∗ owes (c : Thread nD τ) (O + tallyAt (dCell 1 0 (peer 2 c)) () N) W
        ∗ dutyTok ER (dCell 0 2 c) 0 (0 : Fin 3) ∗ reached ER (dCell 0 2 c) 0
        ∗ dutyTok ER (dCell 1 0 (peer 2 c)) 0 (0 : Fin 3) ∗ reached ER (dCell 1 0 (peer 2 c)) 0)
      ⊢ iprop(((cred (tallyAt (dCell 0 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (klocM : Memref sig .tc .vmem S2x8x64x512 .bf16) (.remote (Dev.tc n : Thread nD τ) (kslot0 : Memref sig .tc .vmem S2x8x64x512 .bf16) (.dma (dsem 0 2)) hsc) (.dma (dsem 1 0)) hsrc hdst hsem) k) Q) := by
  subst hn
  exact Rounds.wp_send_pointsTo 𝒱₀ ER (sched kT vT kC vC) (c : Thread nD τ) none (κ₁ := K (c, some (0, 2))) (κ₂ := K (peer 2 c, some (1, 0)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 0 2 0) (amount_d kT vT kC vC (peer 2 c) 1 0 0) O rfl (W := W)
    (by rw [payload_d]; exact BI.Entails.refl _)
    (by rw [payload_d]; exact Entails.of_eq (pointsTo_congr (hland fd)))

/-- Copy 2 of the value block: to peer 2, into its slot 0. The issuer lends one share of its block (back with the
    send semaphore) and owns the peer's slot outright; what lands makes the slot hold what the peer's landing buffer is
    to hold there (`hland`). -/
theorem wp_send_v2 (c n : Dev nD) (hn : n = peer 2 c)
    (hland : ∀ fd : Buf (Elt F) ((vslot0 : Memref sig .tc .vmem S2x8x64x512 .bf16).view.loc (peer 2 c : Thread nD τ)), ∀ i ∈ (vslot0 : Memref sig .tc .vmem S2x8x64x512 .bf16).view.set,
      (vslot0 : Memref sig .tc .vmem S2x8x64x512 .bf16).view.write (Elt F) fd ((vlocM : Memref sig .tc .vmem S2x8x64x512 .bf16).view.read (Elt F) (vT c)) Finset.univ i = vC (peer 2 c) i)
    {hsc : (vslot0 : Memref sig (Dev.tc n : Thread nD τ).2.kind .vmem S2x8x64x512 .bf16).view.ref.isScScratch = false}
    {hsrc : (vlocM : Memref sig .tc .vmem S2x8x64x512 .bf16).view.WordExact} {hdst : (vslot0 : Memref sig .tc .vmem S2x8x64x512 .bf16).view.WordExact}
    {hsem : DmaTarget.Typed .vmem (.dma (dsem 3 0)) (.remote (Dev.tc n : Thread nD τ) (vslot0 : Memref sig .tc .vmem S2x8x64x512 .bf16) (.dma (dsem 2 2)) hsc)}
    {α : Type} {Q : α → sProp 𝕄} {k : PUnit → Prog (TpuEff nD τ sig (Elt F) Λ₀ .tc) α}
    (fd : Buf (Elt F) ((vslot0 : Memref sig .tc .vmem S2x8x64x512 .bf16).view.loc (peer 2 c : Thread nD τ))) (O : CellTallies nD τ sig Unit) (W : Waits sig Unit) :
    iprop(cellInv ER (sched kT vT kC vC) (K (c, some (2, 2))) (dCell 2 2 c) ∗ cellInv ER (sched kT vT kC vC) (K (peer 2 c, some (3, 0))) (dCell 3 0 (peer 2 c))
        ∗ ((vlocM : Memref sig .tc .vmem S2x8x64x512 .bf16).view.loc (c : Thread nD τ) ↦[(vlocM : Memref sig .tc .vmem S2x8x64x512 .bf16).view.set]{sendShare 2} vT c)
        ∗ ((vslot0 : Memref sig .tc .vmem S2x8x64x512 .bf16).view.loc (peer 2 c : Thread nD τ) ↦[(vslot0 : Memref sig .tc .vmem S2x8x64x512 .bf16).view.set]{fullShare} fd)
        ∗ owes (c : Thread nD τ) (O + tallyAt (dCell 3 0 (peer 2 c)) () N) W
        ∗ dutyTok ER (dCell 2 2 c) 0 (0 : Fin 3) ∗ reached ER (dCell 2 2 c) 0
        ∗ dutyTok ER (dCell 3 0 (peer 2 c)) 0 (0 : Fin 3) ∗ reached ER (dCell 3 0 (peer 2 c)) 0)
      ⊢ iprop(((cred (tallyAt (dCell 2 2 c) () N) ∗ owes (c : Thread nD τ) O W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (vlocM : Memref sig .tc .vmem S2x8x64x512 .bf16) (.remote (Dev.tc n : Thread nD τ) (vslot0 : Memref sig .tc .vmem S2x8x64x512 .bf16) (.dma (dsem 2 2)) hsc) (.dma (dsem 3 0)) hsrc hdst hsem) k) Q) := by
  subst hn
  exact Rounds.wp_send_pointsTo 𝒱₀ ER (sched kT vT kC vC) (c : Thread nD τ) none (κ₁ := K (c, some (2, 2))) (κ₂ := K (peer 2 c, some (3, 0)))
    (r₁ := 0) (r₂ := 0) (d₁ := (0 : Fin 3)) (d₂ := (0 : Fin 3)) (fd := fd)
    (by rw [duties_d]; exact Finset.mem_singleton_self _) (by rw [duties_d]; exact Finset.mem_singleton_self _)
    () () N rfl (amount_d kT vT kC vC c 2 2 0) (amount_d kT vT kC vC (peer 2 c) 3 0 0) O rfl (W := W)
    (by rw [payload_d]; exact BI.Entails.refl _)
    (by rw [payload_d]; exact Entails.of_eq (pointsTo_congr (hland fd)))

end Cert.Kernel.Sends

end
-- ==== Proof.Bits.LoopFacts.lean ====
/-
  What the protocol needs to know of the six counted loops, and of the landings.

  Each loop runs sixteen trips, one per (batch, head) tile, and only loads and stores: it touches no semaphore.
  So for the protocol a loop is a step from "these buffers hold this" to "these buffers hold that":
    loop 1 fills the transposed key and value blocks from the staged key and value blocks;
    loop 2 fills the scaled query block from the staged query block;
    loop 3 (the device's own keys) writes the two accumulators, reading the device's own transposed blocks
           through the share it kept while three copies read them;
    loops 4 and 5 add the contribution of slot 0 and of slot 1 of the landing buffers, of which the device then
           holds exactly that slot;
    loop 6 adds slot 2's, the landing buffers whole again, divides, and writes the staged result.
  The contents are named per device: kT, vT (transposed blocks), kC, vC (landing buffers once full), qT,
  a0 l0, a1 l1, a2 l2 (accumulators after passes 0, 1, 2) and outV (the result block).
  A landing writes a slot of the peer's buffer: on the slot's elements the buffer then holds what it is to hold in
  the end (six facts, one per copy).
-/
import proofs.«900413_g7700000000000414_dist_agattn_v7x_xyz2x4x4_z_b2_s512_h8_d64_bf16_1_alg».proof.Proof.Bits.BodyPre
import proofs.«900413_g7700000000000414_dist_agattn_v7x_xyz2x4x4_z_b2_s512_h8_d64_bf16_1_alg».proof.Proof.Gen.Kernel.Loops

noncomputable section

namespace Cert.Kernel.LoopFacts

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched Cert.Kernel.Levels Cert.Kernel.State

variable {F : FTy → Type} [FloatOps F]

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))

/-- The six landings: copy j of device `c` makes slot 2 - j of peer j hold, on its elements, that peer's final contents. -/
structure Landings : Prop where
  k0 : ∀ (c : Dev nD) (fd : Buf (Elt F) ((kslot2 : Memref sig .tc .vmem S2x8x64x512 .bf16).view.loc (peer 0 c : Thread nD τ))), ∀ i ∈ (kslot2 : Memref sig .tc .vmem S2x8x64x512 .bf16).view.set,
      (kslot2 : Memref sig .tc .vmem S2x8x64x512 .bf16).view.write (Elt F) fd ((klocM : Memref sig .tc .vmem S2x8x64x512 .bf16).view.read (Elt F) (kT c)) Finset.univ i = kC (peer 0 c) i
  v0 : ∀ (c : Dev nD) (fd : Buf (Elt F) ((vslot2 : Memref sig .tc .vmem S2x8x64x512 .bf16).view.loc (peer 0 c : Thread nD τ))), ∀ i ∈ (vslot2 : Memref sig .tc .vmem S2x8x64x512 .bf16).view.set,
      (vslot2 : Memref sig .tc .vmem S2x8x64x512 .bf16).view.write (Elt F) fd ((vlocM : Memref sig .tc .vmem S2x8x64x512 .bf16).view.read (Elt F) (vT c)) Finset.univ i = vC (peer 0 c) i
  k1 : ∀ (c : Dev nD) (fd : Buf (Elt F) ((kslot1 : Memref sig .tc .vmem S2x8x64x512 .bf16).view.loc (peer 1 c : Thread nD τ))), ∀ i ∈ (kslot1 : Memref sig .tc .vmem S2x8x64x512 .bf16).view.set,
      (kslot1 : Memref sig .tc .vmem S2x8x64x512 .bf16).view.write (Elt F) fd ((klocM : Memref sig .tc .vmem S2x8x64x512 .bf16).view.read (Elt F) (kT c)) Finset.univ i = kC (peer 1 c) i
  v1 : ∀ (c : Dev nD) (fd : Buf (Elt F) ((vslot1 : Memref sig .tc .vmem S2x8x64x512 .bf16).view.loc (peer 1 c : Thread nD τ))), ∀ i ∈ (vslot1 : Memref sig .tc .vmem S2x8x64x512 .bf16).view.set,
      (vslot1 : Memref sig .tc .vmem S2x8x64x512 .bf16).view.write (Elt F) fd ((vlocM : Memref sig .tc .vmem S2x8x64x512 .bf16).view.read (Elt F) (vT c)) Finset.univ i = vC (peer 1 c) i
  k2 : ∀ (c : Dev nD) (fd : Buf (Elt F) ((kslot0 : Memref sig .tc .vmem S2x8x64x512 .bf16).view.loc (peer 2 c : Thread nD τ))), ∀ i ∈ (kslot0 : Memref sig .tc .vmem S2x8x64x512 .bf16).view.set,
      (kslot0 : Memref sig .tc .vmem S2x8x64x512 .bf16).view.write (Elt F) fd ((klocM : Memref sig .tc .vmem S2x8x64x512 .bf16).view.read (Elt F) (kT c)) Finset.univ i = kC (peer 2 c) i
  v2 : ∀ (c : Dev nD) (fd : Buf (Elt F) ((vslot0 : Memref sig .tc .vmem S2x8x64x512 .bf16).view.loc (peer 2 c : Thread nD τ))), ∀ i ∈ (vslot0 : Memref sig .tc .vmem S2x8x64x512 .bf16).view.set,
      (vslot0 : Memref sig .tc .vmem S2x8x64x512 .bf16).view.write (Elt F) fd ((vlocM : Memref sig .tc .vmem S2x8x64x512 .bf16).view.read (Elt F) (vT c)) Finset.univ i = vC (peer 2 c) i

/-- The six loops, each as an invariant instance with its entry and exit. -/
structure Loops
    (qT : (c : Dev nD) → Buf (Elt F) ((c : Thread nD τ).loc cc0_scratch0))
    (a0 a1 a2 : (c : Dev nD) → Buf (Elt F) ((c : Thread nD τ).loc cc0_scratch5))
    (l0 l1 l2 : (c : Dev nD) → Buf (Elt F) ((c : Thread nD τ).loc cc0_scratch6)) where
  /-- Loop 1: its invariant instance (at the contents the written buffers hold on entry), that the resources at
      its entry are the invariant before trip 0, and what the invariant after the last trip gives back. -/
  L1 : ∀ (c : Dev nD) (d0 : Dev nD) (v2 v5 v8 c0 c1 : BitVec 32) (fk : Buf (Elt F) ((c : Thread nD τ).loc cc0_scratch1)) (fv : Buf (Elt F) ((c : Thread nD τ).loc cc0_scratch2)), Gen.LoopInvTy_k0_t1 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 c0 c1
  in1 : ∀ (c : Dev nD) (d0 : Dev nD) (v2 v5 v8 c0 c1 : BitVec 32) (fk : Buf (Elt F) ((c : Thread nD τ).loc cc0_scratch1)) (fv : Buf (Elt F) ((c : Thread nD τ).loc cc0_scratch2)),
    (iprop((((c : Thread nD τ).loc cc0_stg1_0) ↦{fullShare} Kst m ρ c)
        ∗ (((c : Thread nD τ).loc cc0_stg2_0) ↦{fullShare} Vst m ρ c)
        ∗ (((c : Thread nD τ).loc cc0_scratch1) ↦{fullShare} fk)
        ∗ (((c : Thread nD τ).loc cc0_scratch2) ↦{fullShare} fv)) : sProp (MT nD τ sig Unit (Elt F) ℕ UU ℕ))
      ⊢ (L1 c d0 v2 v5 v8 c0 c1 fk fv).inv 0 ()
  out1 : ∀ (c : Dev nD) (d0 : Dev nD) (v2 v5 v8 c0 c1 : BitVec 32) (fk : Buf (Elt F) ((c : Thread nD τ).loc cc0_scratch1)) (fv : Buf (Elt F) ((c : Thread nD τ).loc cc0_scratch2)),
    (L1 c d0 v2 v5 v8 c0 c1 fk fv).inv (Scf.trips k0_t1_loop.lb k0_t1_loop.ub k0_t1_loop.st) ()
      ⊢ (iprop((((c : Thread nD τ).loc cc0_stg1_0) ↦{fullShare} Kst m ρ c)
        ∗ (((c : Thread nD τ).loc cc0_stg2_0) ↦{fullShare} Vst m ρ c)
        ∗ (((c : Thread nD τ).loc cc0_scratch1) ↦{fullShare} kT c)
        ∗ (((c : Thread nD τ).loc cc0_scratch2) ↦{fullShare} vT c)) : sProp (MT nD τ sig Unit (Elt F) ℕ UU ℕ))
  /-- Loop 2: its invariant instance (at the contents the written buffers hold on entry), that the resources at
      its entry are the invariant before trip 0, and what the invariant after the last trip gives back. -/
  L2 : ∀ (c : Dev nD) (d0 : Dev nD) (v2 v5 v8 v148 : BitVec 32) (fq : Buf (Elt F) ((c : Thread nD τ).loc cc0_scratch0)), Gen.LoopInvTy_k0_t2 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v148
  in2 : ∀ (c : Dev nD) (d0 : Dev nD) (v2 v5 v8 v148 : BitVec 32) (fq : Buf (Elt F) ((c : Thread nD τ).loc cc0_scratch0)),
    (iprop((((c : Thread nD τ).loc cc0_stg0_0) ↦{fullShare} Qst m ρ c)
        ∗ (((c : Thread nD τ).loc cc0_scratch0) ↦{fullShare} fq)) : sProp (MT nD τ sig Unit (Elt F) ℕ UU ℕ))
      ⊢ (L2 c d0 v2 v5 v8 v148 fq).inv 0 ()
  out2 : ∀ (c : Dev nD) (d0 : Dev nD) (v2 v5 v8 v148 : BitVec 32) (fq : Buf (Elt F) ((c : Thread nD τ).loc cc0_scratch0)),
    (L2 c d0 v2 v5 v8 v148 fq).inv (Scf.trips k0_t2_loop.lb k0_t2_loop.ub k0_t2_loop.st) ()
      ⊢ (iprop((((c : Thread nD τ).loc cc0_stg0_0) ↦{fullShare} Qst m ρ c)
        ∗ (((c : Thread nD τ).loc cc0_scratch0) ↦{fullShare} qT c)) : sProp (MT nD τ sig Unit (Elt F) ℕ UU ℕ))
  /-- Loop 3: its invariant instance (at the contents the written buffers hold on entry), that the resources at
      its entry are the invariant before trip 0, and what the invariant after the last trip gives back. -/
  L3 : ∀ (c : Dev nD) (d0 : Dev nD) (v2 v5 v8 v148 : BitVec 32) (fa : Buf (Elt F) ((c : Thread nD τ).loc cc0_scratch5)) (fl : Buf (Elt F) ((c : Thread nD τ).loc cc0_scratch6)), Gen.LoopInvTy_k0_t3 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v148
  in3 : ∀ (c : Dev nD) (d0 : Dev nD) (v2 v5 v8 v148 : BitVec 32) (fa : Buf (Elt F) ((c : Thread nD τ).loc cc0_scratch5)) (fl : Buf (Elt F) ((c : Thread nD τ).loc cc0_scratch6)),
    (iprop((((c : Thread nD τ).loc cc0_scratch0) ↦{fullShare} qT c)
        ∗ (((c : Thread nD τ).loc cc0_scratch1) ↦{keptShare} kT c)
        ∗ (((c : Thread nD τ).loc cc0_scratch2) ↦{keptShare} vT c)
        ∗ (((c : Thread nD τ).loc cc0_scratch5) ↦{fullShare} fa)
        ∗ (((c : Thread nD τ).loc cc0_scratch6) ↦{fullShare} fl)) : sProp (MT nD τ sig Unit (Elt F) ℕ UU ℕ))
      ⊢ (L3 c d0 v2 v5 v8 v148 fa fl).inv 0 ()
  out3 : ∀ (c : Dev nD) (d0 : Dev nD) (v2 v5 v8 v148 : BitVec 32) (fa : Buf (Elt F) ((c : Thread nD τ).loc cc0_scratch5)) (fl : Buf (Elt F) ((c : Thread nD τ).loc cc0_scratch6)),
    (L3 c d0 v2 v5 v8 v148 fa fl).inv (Scf.trips k0_t3_loop.lb k0_t3_loop.ub k0_t3_loop.st) ()
      ⊢ (iprop((((c : Thread nD τ).loc cc0_scratch0) ↦{fullShare} qT c)
        ∗ (((c : Thread nD τ).loc cc0_scratch1) ↦{keptShare} kT c)
        ∗ (((c : Thread nD τ).loc cc0_scratch2) ↦{keptShare} vT c)
        ∗ (((c : Thread nD τ).loc cc0_scratch5) ↦{fullShare} a0 c)
        ∗ (((c : Thread nD τ).loc cc0_scratch6) ↦{fullShare} l0 c)) : sProp (MT nD τ sig Unit (Elt F) ℕ UU ℕ))
  /-- Loop 4: its invariant instance (at the contents the written buffers hold on entry), that the resources at
      its entry are the invariant before trip 0, and what the invariant after the last trip gives back. -/
  L4 : ∀ (c : Dev nD) (v2 v5 v8 : BitVec 32) , Gen.LoopInvTy_k0_t4 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8
  in4 : ∀ (c : Dev nD) (v2 v5 v8 : BitVec 32) ,
    (iprop((((c : Thread nD τ).loc cc0_scratch0) ↦{fullShare} qT c)
        ∗ (((c : Thread nD τ).loc cc0_scratch3) ↦[(kslot0 : Memref sig .tc .vmem S2x8x64x512 .bf16).view.set]{fullShare} kC c)
        ∗ (((c : Thread nD τ).loc cc0_scratch4) ↦[(vslot0 : Memref sig .tc .vmem S2x8x64x512 .bf16).view.set]{fullShare} vC c)
        ∗ (((c : Thread nD τ).loc cc0_scratch5) ↦{fullShare} a0 c)
        ∗ (((c : Thread nD τ).loc cc0_scratch6) ↦{fullShare} l0 c)) : sProp (MT nD τ sig Unit (Elt F) ℕ UU ℕ))
      ⊢ (L4 c v2 v5 v8 ).inv 0 ()
  out4 : ∀ (c : Dev nD) (v2 v5 v8 : BitVec 32) ,
    (L4 c v2 v5 v8 ).inv (Scf.trips k0_t4_loop.lb k0_t4_loop.ub k0_t4_loop.st) ()
      ⊢ (iprop((((c : Thread nD τ).loc cc0_scratch0) ↦{fullShare} qT c)
        ∗ (((c : Thread nD τ).loc cc0_scratch3) ↦[(kslot0 : Memref sig .tc .vmem S2x8x64x512 .bf16).view.set]{fullShare} kC c)
        ∗ (((c : Thread nD τ).loc cc0_scratch4) ↦[(vslot0 : Memref sig .tc .vmem S2x8x64x512 .bf16).view.set]{fullShare} vC c)
        ∗ (((c : Thread nD τ).loc cc0_scratch5) ↦{fullShare} a1 c)
        ∗ (((c : Thread nD τ).loc cc0_scratch6) ↦{fullShare} l1 c)) : sProp (MT nD τ sig Unit (Elt F) ℕ UU ℕ))
  /-- Loop 5: its invariant instance (at the contents the written buffers hold on entry), that the resources at
      its entry are the invariant before trip 0, and what the invariant after the last trip gives back. -/
  L5 : ∀ (c : Dev nD) (v2 v5 v8 v209 : BitVec 32) , Gen.LoopInvTy_k0_t5 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 v209
  in5 : ∀ (c : Dev nD) (v2 v5 v8 v209 : BitVec 32) ,
    (iprop((((c : Thread nD τ).loc cc0_scratch0) ↦{fullShare} qT c)
        ∗ (((c : Thread nD τ).loc cc0_scratch3) ↦[(kslot1 : Memref sig .tc .vmem S2x8x64x512 .bf16).view.set]{fullShare} kC c)
        ∗ (((c : Thread nD τ).loc cc0_scratch4) ↦[(vslot1 : Memref sig .tc .vmem S2x8x64x512 .bf16).view.set]{fullShare} vC c)
        ∗ (((c : Thread nD τ).loc cc0_scratch5) ↦{fullShare} a1 c)
        ∗ (((c : Thread nD τ).loc cc0_scratch6) ↦{fullShare} l1 c)) : sProp (MT nD τ sig Unit (Elt F) ℕ UU ℕ))
      ⊢ (L5 c v2 v5 v8 v209 ).inv 0 ()
  out5 : ∀ (c : Dev nD) (v2 v5 v8 v209 : BitVec 32) ,
    (L5 c v2 v5 v8 v209 ).inv (Scf.trips k0_t5_loop.lb k0_t5_loop.ub k0_t5_loop.st) ()
      ⊢ (iprop((((c : Thread nD τ).loc cc0_scratch0) ↦{fullShare} qT c)
        ∗ (((c : Thread nD τ).loc cc0_scratch3) ↦[(kslot1 : Memref sig .tc .vmem S2x8x64x512 .bf16).view.set]{fullShare} kC c)
        ∗ (((c : Thread nD τ).loc cc0_scratch4) ↦[(vslot1 : Memref sig .tc .vmem S2x8x64x512 .bf16).view.set]{fullShare} vC c)
        ∗ (((c : Thread nD τ).loc cc0_scratch5) ↦{fullShare} a2 c)
        ∗ (((c : Thread nD τ).loc cc0_scratch6) ↦{fullShare} l2 c)) : sProp (MT nD τ sig Unit (Elt F) ℕ UU ℕ))
  /-- Loop 6: its invariant instance (at the contents the written buffers hold on entry), that the resources at
      its entry are the invariant before trip 0, and what the invariant after the last trip gives back. -/
  L6 : ∀ (c : Dev nD)  (fo : Buf (Elt F) ((c : Thread nD τ).loc cc0_stg3_0)), Gen.LoopInvTy_k0_t6 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10
  in6 : ∀ (c : Dev nD)  (fo : Buf (Elt F) ((c : Thread nD τ).loc cc0_stg3_0)),
    (iprop((((c : Thread nD τ).loc cc0_scratch0) ↦{fullShare} qT c)
        ∗ (((c : Thread nD τ).loc cc0_scratch3) ↦{fullShare} kC c)
        ∗ (((c : Thread nD τ).loc cc0_scratch4) ↦{fullShare} vC c)
        ∗ (((c : Thread nD τ).loc cc0_scratch5) ↦{fullShare} a2 c)
        ∗ (((c : Thread nD τ).loc cc0_scratch6) ↦{fullShare} l2 c)
        ∗ (((c : Thread nD τ).loc cc0_stg3_0) ↦{fullShare} fo)) : sProp (MT nD τ sig Unit (Elt F) ℕ UU ℕ))
      ⊢ (L6 c  fo).inv 0 ()
  out6 : ∀ (c : Dev nD)  (fo : Buf (Elt F) ((c : Thread nD τ).loc cc0_stg3_0)),
    (L6 c  fo).inv (Scf.trips k0_t6_loop.lb k0_t6_loop.ub k0_t6_loop.st) ()
      ⊢ (iprop((((c : Thread nD τ).loc cc0_scratch0) ↦{fullShare} qT c)
        ∗ (((c : Thread nD τ).loc cc0_scratch3) ↦{fullShare} kC c)
        ∗ (((c : Thread nD τ).loc cc0_scratch4) ↦{fullShare} vC c)
        ∗ (((c : Thread nD τ).loc cc0_scratch5) ↦{fullShare} a2 c)
        ∗ (((c : Thread nD τ).loc cc0_scratch6) ↦{fullShare} l2 c)
        ∗ (((c : Thread nD τ).loc cc0_stg3_0) ↦{fullShare} outV c)) : sProp (MT nD τ sig Unit (Elt F) ℕ UU ℕ))

end Cert.Kernel.LoopFacts

end
-- ==== Proof.Bits.Body.lean ====
/-
  One device's body, step by step.

  The device signals the barrier semaphore of its three peers, handing each the matching slot of its two landing
  buffers, and waits for three units on its own barrier while it still owes the six copies (allowed: a barrier
  sits below every receive semaphore). With the wait come the three slots its peers handed it. It fills its
  transposed key and value blocks (loop 1), cuts each into four shares, and issues the six copies, each lending
  one share and writing a peer's slot; after the last it owes nothing. It fills the scaled query block (loop 2)
  and runs the pass over its own keys through the shares it kept (loop 3). Each landing wait returns a slot
  holding what that peer sent; the passes over slots 0, 1 and 2 follow (loops 4, 5, 6), the last with the landing
  buffers whole again, storing the result. The six send waits return the lent shares; the two blocks are whole
  again, the twelve semaphores of the exchange close at zero, and the device hands back its scratch buffers, its
  inputs as they were and the result in the output staging buffer.
-/
import proofs.«900413_g7700000000000414_dist_agattn_v7x_xyz2x4x4_z_b2_s512_h8_d64_bf16_1_alg».proof.Proof.Bits.BodyPre
import proofs.«900413_g7700000000000414_dist_agattn_v7x_xyz2x4x4_z_b2_s512_h8_d64_bf16_1_alg».proof.Proof.Bits.Slots
import proofs.«900413_g7700000000000414_dist_agattn_v7x_xyz2x4x4_z_b2_s512_h8_d64_bf16_1_alg».proof.Proof.Bits.Shares
import proofs.«900413_g7700000000000414_dist_agattn_v7x_xyz2x4x4_z_b2_s512_h8_d64_bf16_1_alg».proof.Proof.Bits.Sends
import proofs.«900413_g7700000000000414_dist_agattn_v7x_xyz2x4x4_z_b2_s512_h8_d64_bf16_1_alg».proof.Proof.Bits.LoopFacts
import proofs.«900413_g7700000000000414_dist_agattn_v7x_xyz2x4x4_z_b2_s512_h8_d64_bf16_1_alg».proof.Proof.Gen.Kernel.Points
import Idealize.ShloMosaic.Lib.Exec
import proofs.«900413_g7700000000000414_dist_agattn_v7x_xyz2x4x4_z_b2_s512_h8_d64_bf16_1_alg».proof.Proof.Gen.Kernel.Skeleton
import Idealize.ShloMosaic.Lib.Pipeline.Launch
import Idealize.ShloMosaic.Lib.Pipeline.Kit
import Idealize.ShloMosaic.Lib.Tactic

noncomputable section

namespace Cert.Kernel.Body

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched Cert.Kernel.Levels Cert.Kernel.State Cert.Kernel.BodyPre Cert.Kernel.Slots Cert.Kernel.Shares Cert.Kernel.Sends

variable {F : FTy → Type} [FloatOps F]

local notation "𝕄" => MT nD τ sig Unit (Elt F) ℕ UU ℕ

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))
variable (K : Dev nD × CK → ℕ)
variable (qT : (c : Dev nD) → Buf (Elt F) ((c : Thread nD τ).loc cc0_scratch0))
variable (a0 a1 a2 : (c : Dev nD) → Buf (Elt F) ((c : Thread nD τ).loc cc0_scratch5))
variable (l0 l1 l2 : (c : Dev nD) → Buf (Elt F) ((c : Thread nD τ).loc cc0_scratch6))

theorem back0 : back 0 = 2 := rfl
theorem back1 : back 1 = 1 := rfl
theorem back2 : back 2 = 0 := rfl

omit [FloatOps F] in
/-- The kernel's own twelve semaphores at zero, one by one. -/
theorem ownSems_chain (c : Dev nD) :
    (Pipeline.ownSems0 (Ix := Unit) (Name := ℕ) (U := UU) (Lvl := ℕ) (Val := Elt F) (τ := τ) osem c : sProp 𝕄)
      = iprop(semVal (dCell 0 0 c) 0 ∗ semVal (dCell 0 1 c) 0 ∗ semVal (dCell 0 2 c) 0 ∗ semVal (dCell 1 0 c) 0 ∗ semVal (dCell 1 1 c) 0 ∗ semVal (dCell 1 2 c) 0 ∗ semVal (dCell 2 0 c) 0 ∗ semVal (dCell 2 1 c) 0 ∗ semVal (dCell 2 2 c) 0 ∗ semVal (dCell 3 0 c) 0 ∗ semVal (dCell 3 1 c) 0 ∗ semVal (dCell 3 2 c) 0) := by
  rw [Pipeline.ownSems0_eq_of_list c osem [((0 : Fin 4), (0 : Fin 3)), ((0 : Fin 4), (1 : Fin 3)), ((0 : Fin 4), (2 : Fin 3)), ((1 : Fin 4), (0 : Fin 3)), ((1 : Fin 4), (1 : Fin 3)), ((1 : Fin 4), (2 : Fin 3)), ((2 : Fin 4), (0 : Fin 3)), ((2 : Fin 4), (1 : Fin 3)), ((2 : Fin 4), (2 : Fin 3)), ((3 : Fin 4), (0 : Fin 3)), ((3 : Fin 4), (1 : Fin 3)), ((3 : Fin 4), (2 : Fin 3))] (by decide) (by decide)]
  simp only [bigSepL_cons_cons, bigSepL_singleton]
  rfl

set_option maxHeartbeats 3200000 in
theorem sound_body (hland : LoopFacts.Landings kT vT kC vC) (LF : LoopFacts.Loops m ρ kT vT kC vC outV qT a0 a1 a2 l0 l1 l2) (c : Dev nD) (Kt : PUnit → sProp 𝕄) :
    iprop(bodyPre m ρ kT vT kC vC outV K c ∗ (bodyPost m ρ kT vT kC vC outV c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) Kt := by
  simp only [cc0_body_eq_skeleton]; unfold cc0_body_skel
  simp only [k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton]
  unfold k0_part6_skel k0_part7_skel k0_part8_skel k0_part9_skel k0_part10_skel k0_part11_skel k0_part12_skel k0_part13_skel k0_part14_skel
  simp only [semSignalWord, semWaitWord, Prog.lift, Prog.bind_op, Prog.bind_ret, Prog.pure_eq_ret, wp_deviceId, bind_assoc]
  unfold bodyPre BodyPre.invs BodyPre.reach BodyPre.ats BodyPre.ptoks State.credits BodyPre.scr
  iintro ⟨⟨⟨⟨#HIbar, #HI00, #HI01, #HI02, #HI10, #HI11, #HI12, #HI20, #HI21, #HI22, #HI30, #HI31, #HI32, #HIbP0, #HIkP0, #HIvP0, #HIbP1, #HIkP1, #HIvP1, #HIbP2, #HIkP2, #HIvP2⟩, ⟨#HrbP0, #HrkP0, #HrvP0, #HrbP1, #HrkP1, #HrvP1, #HrbP2, #HrkP2, #HrvP2, #Hr00, #Hr01, #Hr02, #Hr10, #Hr11, #Hr12, #Hr20, #Hr21, #Hr22, #Hr30, #Hr31, #Hr32⟩, #Hlev⟩,
    ⟨Hatbar, Hat00, Hat01, Hat02, Hat10, Hat11, Hat12, Hat20, Hat21, Hat22, Hat30, Hat31, Hat32⟩, ⟨HtbP0, HtkP0, HtvP0, Htks0, Htvs0, HtbP1, HtkP1, HtvP1, Htks1, Htvs1, HtbP2, HtkP2, HtvP2, Htks2, Htvs2⟩,
    ⟨Hcbar, ⟨Hck0, Hck1, Hck2⟩, ⟨Hcv0, Hcv1, Hcv2⟩⟩,
    ⟨⟨%fqt, Hqt⟩, ⟨%fkl, Hkl⟩, ⟨%fvl, Hvl⟩, ⟨%fk, Hkc⟩, ⟨%fv, Hvc⟩, ⟨%fac, Hac⟩, ⟨%fls, Hls⟩⟩,
    Ho, ⟨%dq, %gq, %hgq, Hq⟩, ⟨%dk, %gk, %hgk, Hkst⟩, ⟨%dv, %gv, %hgv, Hvst⟩, ⟨%do_, %go, %hgo, Hout⟩⟩, Hk⟩
  unfold Dat.owesAt Pipeline.owesWithin
  icases Ho with ⟨%W, %hW, HO⟩
  rw [show (dats m ρ kT vT kC vC outV 0 c).owed t₀.castSucc = O₀ c from rfl]
  unfold O₀
  simp only [dev1_eq c, dev2_eq c, dev3_eq c]
  -- the two landing buffers, slot by slot
  ihave Hks := (kcom_split c fk) $$ Hkc
  icases Hks with ⟨Hk0, Hk1, Hk2⟩
  ihave Hvs := (vcom_split c fv) $$ Hvc
  icases Hvs with ⟨Hv0, Hv1, Hv2⟩
  -- signal 0: to peer 0; hands it slot 0 of both landing buffers
  iapply (Rounds.wp_signal 𝒱₀ ER (sched kT vT kC vC) (c : Thread nD τ) none (dst := (peer 0 c : Thread nD τ)) (κ := K (peer 0 c, none))
      (d := (0 : Fin 3)) (by rw [duties_bar]; exact Finset.mem_univ _) ((amount_bar kT vT kC vC (peer 0 c) 0).trans (by decide)) () _ rfl)
    $$ [HO HtbP0 Hk0 Hv0]
  · isplitr; · iexact HIbP0
    isplitl [HO]; · iexact HO
    isplitl [HtbP0]; · iexact HtbP0
    isplitl [Hk0 Hv0]
    · rw [payload_bar]; unfold barPay slotAny; rw [peer_back_peer]
      isplitl [Hk0]; · iexists fk; iexact Hk0
      isplitl [Hv0]; · iexists fv; iexact Hv0
      isplitr; · iexact Hr10
      iexact Hr30
    · iexact HrbP0
  iintro HO
  -- signal 1: to peer 1; hands it slot 1 of both landing buffers
  iapply (Rounds.wp_signal 𝒱₀ ER (sched kT vT kC vC) (c : Thread nD τ) none (dst := (peer 1 c : Thread nD τ)) (κ := K (peer 1 c, none))
      (d := (1 : Fin 3)) (by rw [duties_bar]; exact Finset.mem_univ _) ((amount_bar kT vT kC vC (peer 1 c) 1).trans (by decide)) () _ rfl)
    $$ [HO HtbP1 Hk1 Hv1]
  · isplitr; · iexact HIbP1
    isplitl [HO]; · iexact HO
    isplitl [HtbP1]; · iexact HtbP1
    isplitl [Hk1 Hv1]
    · rw [payload_bar]; unfold barPay slotAny; rw [peer_back_peer]
      isplitl [Hk1]; · iexists fk; iexact Hk1
      isplitl [Hv1]; · iexists fv; iexact Hv1
      isplitr; · iexact Hr11
      iexact Hr31
    · iexact HrbP1
  iintro HO
  -- signal 2: to peer 2; hands it slot 2 of both landing buffers
  iapply (Rounds.wp_signal 𝒱₀ ER (sched kT vT kC vC) (c : Thread nD τ) none (dst := (peer 2 c : Thread nD τ)) (κ := K (peer 2 c, none))
      (d := (2 : Fin 3)) (by rw [duties_bar]; exact Finset.mem_univ _) ((amount_bar kT vT kC vC (peer 2 c) 2).trans (by decide)) () _ rfl)
    $$ [HO HtbP2 Hk2 Hv2]
  · isplitr; · iexact HIbP2
    isplitl [HO]; · iexact HO
    isplitl [HtbP2]; · iexact HtbP2
    isplitl [Hk2 Hv2]
    · rw [payload_bar]; unfold barPay slotAny; rw [peer_back_peer]
      isplitl [Hk2]; · iexists fk; iexact Hk2
      isplitl [Hv2]; · iexists fv; iexact Hv2
      isplitr; · iexact Hr12
      iexact Hr32
    · iexact HrbP2
  iintro HO
  -- the wait for three units on its own barrier, still owing the six copies: the peers' slots come with it
  iapply (Rounds.wp_wait_rest_token 𝒱₀ ER (sched kT vT kC vC) (c : Thread nD τ) none (κ := K (c, none))
      (wpE_semWait_eq 𝒱₀ (c : Thread nD τ) none Set.univ) (Set.mem_univ _) () (O := Osend c) (W := W) (R := 0) (m := 0) (T := ∅)
      (by rw [expect_bar]; decide)) $$ [Hcbar HO Hatbar]
  · isplitr; · iexact HIbar
    isplitl [Hcbar]; · iexact Hcbar
    isplitl [HO]; · iexact HO
    isplitr; · iapply (mayWait_bar c); iexact Hlev
    iexact Hatbar
  iintro ⟨HO, Hatbar, -, Hpay⟩
  ihave Hp := (Entails.of_eq (rest_bar kT vT kC vC c)) $$ Hpay
  unfold barPay slotAny
  icases Hp with ⟨⟨⟨%fkp2, HkP2⟩, ⟨%fvp2, HvP2⟩, #HrkP2', #HrvP2'⟩, ⟨⟨%fkp1, HkP1⟩, ⟨%fvp1, HvP1⟩, #HrkP1', #HrvP1'⟩, ⟨%fkp0, HkP0⟩, ⟨%fvp0, HvP0⟩, #HrkP0', #HrvP0'⟩
  -- what the three staged inputs hold: this device's blocks
  have hq : gq = Qst m ρ c := by rw [hgq]; unfold Dat.before; rw [if_pos (fetch0_0 t₀)]; rfl
  have hk : gk = Kst m ρ c := by rw [hgk]; unfold Dat.before; rw [if_pos (fetch0_1 t₀)]; rfl
  have hv : gv = Vst m ρ c := by rw [hgv]; unfold Dat.before; rw [if_pos (fetch0_2 t₀)]; rfl
  subst hq; subst hk; subst hv
  unfold Osend
  simp only [back0, back1, back2, kslot, vslot]
  -- loop 1: the transposed key and value blocks
  iapply (exec_loop Idealize.ShloMosaic.frame (wpE (defs₀ (F := F)) 𝒱₀ (c : Thread nD τ) none) Set.univ _ _ _ k0_t1_ok () _ (LF.L1 c _ _ _ _ _ _ fkl fvl)) $$ [Hkst Hvst Hkl Hvl]
  · iapply (LF.in1 c _ _ _ _ _ _ fkl fvl)
    isplitl [Hkst]; · iexact Hkst
    isplitl [Hvst]; · iexact Hvst
    isplitl [Hkl]; · iexact Hkl
    iexact Hvl
  iintro %acc1 Hinv
  ihave Hp := (LF.out1 c _ _ _ _ _ _ fkl fvl) $$ Hinv
  icases Hp with ⟨Hkst, Hvst, Hkl, Hvl⟩
  -- each block in four shares
  ihave Hs := (kloc_split c (kT c)) $$ Hkl
  icases Hs with ⟨Hkl0, Hkl1, Hkl2, Hklk⟩
  ihave Hs := (vloc_split c (vT c)) $$ Hvl
  icases Hs with ⟨Hvl0, Hvl1, Hvl2, Hvlk⟩
  -- copy 0 of the key block, to peer 0's slot 2
  iapply (wp_send_k0 kT vT kC vC K c _ (dev4_eq c) (hland.k0 c) fkp0 _ _) $$ [HkP0 Hkl0 HO Htks0 HtkP0]
  · isplitr; · iexact HI00
    isplitr; · iexact HIkP0
    isplitl [Hkl0]; · iexact Hkl0
    isplitl [HkP0]; · iexact HkP0
    isplitl [HO]; · iexact HO
    isplitl [Htks0]; · iexact Htks0
    isplitr; · iexact Hr00
    isplitl [HtkP0]; · iexact HtkP0
    iexact HrkP0
  iintro ⟨Hcks0, HO⟩
  -- copy 0 of the value block, to peer 0's slot 2
  iapply (wp_send_v0 kT vT kC vC K c _ (dev5_eq c) (hland.v0 c) fvp0 _ _) $$ [HvP0 Hvl0 HO Htvs0 HtvP0]
  · isplitr; · iexact HI20
    isplitr; · iexact HIvP0
    isplitl [Hvl0]; · iexact Hvl0
    isplitl [HvP0]; · iexact HvP0
    isplitl [HO]; · iexact HO
    isplitl [Htvs0]; · iexact Htvs0
    isplitr; · iexact Hr20
    isplitl [HtvP0]; · iexact HtvP0
    iexact HrvP0
  iintro ⟨Hcvs0, HO⟩
  -- copy 1 of the key block, to peer 1's slot 1
  iapply (wp_send_k1 kT vT kC vC K c _ (dev6_eq c) (hland.k1 c) fkp1 _ _) $$ [HkP1 Hkl1 HO Htks1 HtkP1]
  · isplitr; · iexact HI01
    isplitr; · iexact HIkP1
    isplitl [Hkl1]; · iexact Hkl1
    isplitl [HkP1]; · iexact HkP1
    isplitl [HO]; · iexact HO
    isplitl [Htks1]; · iexact Htks1
    isplitr; · iexact Hr01
    isplitl [HtkP1]; · iexact HtkP1
    iexact HrkP1
  iintro ⟨Hcks1, HO⟩
  -- copy 1 of the value block, to peer 1's slot 1
  iapply (wp_send_v1 kT vT kC vC K c _ (dev7_eq c) (hland.v1 c) fvp1 _ _) $$ [HvP1 Hvl1 HO Htvs1 HtvP1]
  · isplitr; · iexact HI21
    isplitr; · iexact HIvP1
    isplitl [Hvl1]; · iexact Hvl1
    isplitl [HvP1]; · iexact HvP1
    isplitl [HO]; · iexact HO
    isplitl [Htvs1]; · iexact Htvs1
    isplitr; · iexact Hr21
    isplitl [HtvP1]; · iexact HtvP1
    iexact HrvP1
  iintro ⟨Hcvs1, HO⟩
  -- copy 2 of the key block, to peer 2's slot 0
  iapply (wp_send_k2 kT vT kC vC K c _ (dev8_eq c) (hland.k2 c) fkp2 _ _) $$ [HkP2 Hkl2 HO Htks2 HtkP2]
  · isplitr; · iexact HI02
    isplitr; · iexact HIkP2
    isplitl [Hkl2]; · iexact Hkl2
    isplitl [HkP2]; · iexact HkP2
    isplitl [HO]; · iexact HO
    isplitl [Htks2]; · iexact Htks2
    isplitr; · iexact Hr02
    isplitl [HtkP2]; · iexact HtkP2
    iexact HrkP2
  iintro ⟨Hcks2, HO⟩
  -- copy 2 of the value block, to peer 2's slot 0
  rw [← zero_add (tV c 2)]
  iapply (wp_send_v2 kT vT kC vC K c _ (dev9_eq c) (hland.v2 c) fvp2 0 _) $$ [HvP2 Hvl2 HO Htvs2 HtvP2]
  · isplitr; · iexact HI22
    isplitr; · iexact HIvP2
    isplitl [Hvl2]; · iexact Hvl2
    isplitl [HvP2]; · iexact HvP2
    isplitl [HO]; · iexact HO
    isplitl [Htvs2]; · iexact Htvs2
    isplitr; · iexact Hr22
    isplitl [HtvP2]; · iexact HtvP2
    iexact HrvP2
  iintro ⟨Hcvs2, HO⟩
  -- loop 2
  iapply (exec_loop Idealize.ShloMosaic.frame (wpE (defs₀ (F := F)) 𝒱₀ (c : Thread nD τ) none) Set.univ _ _ _ k0_t2_ok () _ (LF.L2 c _ _ _ _ _ fqt)) $$ [Hq Hqt]
  · iapply (LF.in2 c _ _ _ _ _ fqt)
    isplitl [Hq]; · iexact Hq
    iexact Hqt
  iintro %acc2 Hinv
  ihave Hp := (LF.out2 c _ _ _ _ _ fqt) $$ Hinv
  icases Hp with ⟨Hq, Hqt⟩
  -- loop 3
  iapply (exec_loop Idealize.ShloMosaic.frame (wpE (defs₀ (F := F)) 𝒱₀ (c : Thread nD τ) none) Set.univ _ _ _ k0_t3_ok () _ (LF.L3 c _ _ _ _ _ fac fls)) $$ [Hqt Hklk Hvlk Hac Hls]
  · iapply (LF.in3 c _ _ _ _ _ fac fls)
    isplitl [Hqt]; · iexact Hqt
    isplitl [Hklk]; · iexact Hklk
    isplitl [Hvlk]; · iexact Hvlk
    isplitl [Hac]; · iexact Hac
    iexact Hls
  iintro %acc3 Hinv
  ihave Hp := (LF.out3 c _ _ _ _ _ fac fls) $$ Hinv
  icases Hp with ⟨Hqt, Hklk, Hvlk, Hac, Hls⟩
  -- wait: slot 0 of the key landing buffer has landed
  iapply (Rounds.wp_wait_rest_token 𝒱₀ ER (sched kT vT kC vC) (c : Thread nD τ) none (sm := .dma (dsem 1 0)) (κ := K (c, some (1, 0)))
      (wpE_waitDma2_eq 𝒱₀ (c : Thread nD τ) none Set.univ) (Set.mem_univ _) () (O := 0) (R := 0) (m := 0) (T := ∅)
      (by rw [Nat.zero_add, expect_d] <;> rfl)) $$ [Hck0 HO Hat10]
  · isplitr; · iexact HI10
    isplitl [Hck0]; · iexact Hck0
    isplitl [HO]; · iexact HO
    isplitr; · rw [MayWait_zero]; iempintro
    iexact Hat10
  iintro ⟨HO, Hat10, -, Hpay⟩
  ihave Hks0 := (Entails.of_eq (show _ = (((c : Thread nD τ).loc cc0_scratch3) ↦[(kslot0 : Memref sig .tc .vmem S2x8x64x512 .bf16).view.set]{fullShare} kC c : sProp 𝕄) from rest_d kT vT kC vC c 1 0)) $$ Hpay
  -- wait: slot 0 of the value landing buffer has landed
  iapply (Rounds.wp_wait_rest_token 𝒱₀ ER (sched kT vT kC vC) (c : Thread nD τ) none (sm := .dma (dsem 3 0)) (κ := K (c, some (3, 0)))
      (wpE_waitDma2_eq 𝒱₀ (c : Thread nD τ) none Set.univ) (Set.mem_univ _) () (O := 0) (R := 0) (m := 0) (T := ∅)
      (by rw [Nat.zero_add, expect_d] <;> rfl)) $$ [Hcv0 HO Hat30]
  · isplitr; · iexact HI30
    isplitl [Hcv0]; · iexact Hcv0
    isplitl [HO]; · iexact HO
    isplitr; · rw [MayWait_zero]; iempintro
    iexact Hat30
  iintro ⟨HO, Hat30, -, Hpay⟩
  ihave Hvs0 := (Entails.of_eq (show _ = (((c : Thread nD τ).loc cc0_scratch4) ↦[(vslot0 : Memref sig .tc .vmem S2x8x64x512 .bf16).view.set]{fullShare} vC c : sProp 𝕄) from rest_d kT vT kC vC c 3 0)) $$ Hpay
  -- loop 4
  iapply (exec_loop Idealize.ShloMosaic.frame (wpE (defs₀ (F := F)) 𝒱₀ (c : Thread nD τ) none) Set.univ _ _ _ k0_t4_ok () _ (LF.L4 c _ _ _)) $$ [Hqt Hks0 Hvs0 Hac Hls]
  · iapply (LF.in4 c _ _ _)
    isplitl [Hqt]; · iexact Hqt
    isplitl [Hks0]; · iexact Hks0
    isplitl [Hvs0]; · iexact Hvs0
    isplitl [Hac]; · iexact Hac
    iexact Hls
  iintro %acc4 Hinv
  ihave Hp := (LF.out4 c _ _ _) $$ Hinv
  icases Hp with ⟨Hqt, Hks0, Hvs0, Hac, Hls⟩
  -- wait: slot 1 of the key landing buffer
  iapply (Rounds.wp_wait_rest_token 𝒱₀ ER (sched kT vT kC vC) (c : Thread nD τ) none (sm := .dma (dsem 1 1)) (κ := K (c, some (1, 1)))
      (wpE_waitDma2_eq 𝒱₀ (c : Thread nD τ) none Set.univ) (Set.mem_univ _) () (O := 0) (R := 0) (m := 0) (T := ∅)
      (by rw [Nat.zero_add, expect_d] <;> rfl)) $$ [Hck1 HO Hat11]
  · isplitr; · iexact HI11
    isplitl [Hck1]; · iexact Hck1
    isplitl [HO]; · iexact HO
    isplitr; · rw [MayWait_zero]; iempintro
    iexact Hat11
  iintro ⟨HO, Hat11, -, Hpay⟩
  ihave Hks1 := (Entails.of_eq (show _ = (((c : Thread nD τ).loc cc0_scratch3) ↦[(kslot1 : Memref sig .tc .vmem S2x8x64x512 .bf16).view.set]{fullShare} kC c : sProp 𝕄) from rest_d kT vT kC vC c 1 1)) $$ Hpay
  -- wait: slot 1 of the value landing buffer
  iapply (Rounds.wp_wait_rest_token 𝒱₀ ER (sched kT vT kC vC) (c : Thread nD τ) none (sm := .dma (dsem 3 1)) (κ := K (c, some (3, 1)))
      (wpE_waitDma2_eq 𝒱₀ (c : Thread nD τ) none Set.univ) (Set.mem_univ _) () (O := 0) (R := 0) (m := 0) (T := ∅)
      (by rw [Nat.zero_add, expect_d] <;> rfl)) $$ [Hcv1 HO Hat31]
  · isplitr; · iexact HI31
    isplitl [Hcv1]; · iexact Hcv1
    isplitl [HO]; · iexact HO
    isplitr; · rw [MayWait_zero]; iempintro
    iexact Hat31
  iintro ⟨HO, Hat31, -, Hpay⟩
  ihave Hvs1 := (Entails.of_eq (show _ = (((c : Thread nD τ).loc cc0_scratch4) ↦[(vslot1 : Memref sig .tc .vmem S2x8x64x512 .bf16).view.set]{fullShare} vC c : sProp 𝕄) from rest_d kT vT kC vC c 3 1)) $$ Hpay
  -- loop 5
  iapply (exec_loop Idealize.ShloMosaic.frame (wpE (defs₀ (F := F)) 𝒱₀ (c : Thread nD τ) none) Set.univ _ _ _ k0_t5_ok () _ (LF.L5 c _ _ _ _)) $$ [Hqt Hks1 Hvs1 Hac Hls]
  · iapply (LF.in5 c _ _ _ _)
    isplitl [Hqt]; · iexact Hqt
    isplitl [Hks1]; · iexact Hks1
    isplitl [Hvs1]; · iexact Hvs1
    isplitl [Hac]; · iexact Hac
    iexact Hls
  iintro %acc5 Hinv
  ihave Hp := (LF.out5 c _ _ _ _) $$ Hinv
  icases Hp with ⟨Hqt, Hks1, Hvs1, Hac, Hls⟩
  -- wait: slot 2 of the key landing buffer
  iapply (Rounds.wp_wait_rest_token 𝒱₀ ER (sched kT vT kC vC) (c : Thread nD τ) none (sm := .dma (dsem 1 2)) (κ := K (c, some (1, 2)))
      (wpE_waitDma2_eq 𝒱₀ (c : Thread nD τ) none Set.univ) (Set.mem_univ _) () (O := 0) (R := 0) (m := 0) (T := ∅)
      (by rw [Nat.zero_add, expect_d] <;> rfl)) $$ [Hck2 HO Hat12]
  · isplitr; · iexact HI12
    isplitl [Hck2]; · iexact Hck2
    isplitl [HO]; · iexact HO
    isplitr; · rw [MayWait_zero]; iempintro
    iexact Hat12
  iintro ⟨HO, Hat12, -, Hpay⟩
  ihave Hks2 := (Entails.of_eq (show _ = (((c : Thread nD τ).loc cc0_scratch3) ↦[(kslot2 : Memref sig .tc .vmem S2x8x64x512 .bf16).view.set]{fullShare} kC c : sProp 𝕄) from rest_d kT vT kC vC c 1 2)) $$ Hpay
  -- wait: slot 2 of the value landing buffer
  iapply (Rounds.wp_wait_rest_token 𝒱₀ ER (sched kT vT kC vC) (c : Thread nD τ) none (sm := .dma (dsem 3 2)) (κ := K (c, some (3, 2)))
      (wpE_waitDma2_eq 𝒱₀ (c : Thread nD τ) none Set.univ) (Set.mem_univ _) () (O := 0) (R := 0) (m := 0) (T := ∅)
      (by rw [Nat.zero_add, expect_d] <;> rfl)) $$ [Hcv2 HO Hat32]
  · isplitr; · iexact HI32
    isplitl [Hcv2]; · iexact Hcv2
    isplitl [HO]; · iexact HO
    isplitr; · rw [MayWait_zero]; iempintro
    iexact Hat32
  iintro ⟨HO, Hat32, -, Hpay⟩
  ihave Hvs2 := (Entails.of_eq (show _ = (((c : Thread nD τ).loc cc0_scratch4) ↦[(vslot2 : Memref sig .tc .vmem S2x8x64x512 .bf16).view.set]{fullShare} vC c : sProp 𝕄) from rest_d kT vT kC vC c 3 2)) $$ Hpay
  -- the landing buffers whole again
  ihave Hkc := (kcom_join c (kC c)) $$ [Hks0 Hks1 Hks2]
  · isplitl [Hks0]; · iexact Hks0
    isplitl [Hks1]; · iexact Hks1
    iexact Hks2
  ihave Hvc := (vcom_join c (vC c)) $$ [Hvs0 Hvs1 Hvs2]
  · isplitl [Hvs0]; · iexact Hvs0
    isplitl [Hvs1]; · iexact Hvs1
    iexact Hvs2
  -- loop 6
  iapply (exec_loop Idealize.ShloMosaic.frame (wpE (defs₀ (F := F)) 𝒱₀ (c : Thread nD τ) none) Set.univ _ _ _ k0_t6_ok () _ (LF.L6 c go)) $$ [Hqt Hkc Hvc Hac Hls Hout]
  · iapply (LF.in6 c go)
    isplitl [Hqt]; · iexact Hqt
    isplitl [Hkc]; · iexact Hkc
    isplitl [Hvc]; · iexact Hvc
    isplitl [Hac]; · iexact Hac
    isplitl [Hls]; · iexact Hls
    iexact Hout
  iintro %acc6 Hinv
  ihave Hp := (LF.out6 c go) $$ Hinv
  icases Hp with ⟨Hqt, Hkc, Hvc, Hac, Hls, Hout⟩
  -- wait: copy 0 of the key block has been read
  iapply (Rounds.wp_wait_rest_token 𝒱₀ ER (sched kT vT kC vC) (c : Thread nD τ) none (sm := .dma (dsem 0 0)) (κ := K (c, some (0, 0)))
      (wpE_waitDma2_eq 𝒱₀ (c : Thread nD τ) none Set.univ) (Set.mem_univ _) () (O := 0) (R := 0) (m := 0) (T := ∅)
      (by rw [Nat.zero_add, expect_d] <;> rfl)) $$ [Hcks0 HO Hat00]
  · isplitr; · iexact HI00
    isplitl [Hcks0]; · iexact Hcks0
    isplitl [HO]; · iexact HO
    isplitr; · rw [MayWait_zero]; iempintro
    iexact Hat00
  iintro ⟨HO, Hat00, -, Hpay⟩
  ihave Hkl0 := (Entails.of_eq (show _ = (((klocM : Memref sig .tc .vmem S2x8x64x512 .bf16).view.loc (c : Thread nD τ)) ↦[(klocM : Memref sig .tc .vmem S2x8x64x512 .bf16).view.set]{sendShare 0} kT c : sProp 𝕄) from rest_d kT vT kC vC c 0 0)) $$ Hpay
  -- wait: copy 0 of the value block has been read
  iapply (Rounds.wp_wait_rest_token 𝒱₀ ER (sched kT vT kC vC) (c : Thread nD τ) none (sm := .dma (dsem 2 0)) (κ := K (c, some (2, 0)))
      (wpE_waitDma2_eq 𝒱₀ (c : Thread nD τ) none Set.univ) (Set.mem_univ _) () (O := 0) (R := 0) (m := 0) (T := ∅)
      (by rw [Nat.zero_add, expect_d] <;> rfl)) $$ [Hcvs0 HO Hat20]
  · isplitr; · iexact HI20
    isplitl [Hcvs0]; · iexact Hcvs0
    isplitl [HO]; · iexact HO
    isplitr; · rw [MayWait_zero]; iempintro
    iexact Hat20
  iintro ⟨HO, Hat20, -, Hpay⟩
  ihave Hvl0 := (Entails.of_eq (show _ = (((vlocM : Memref sig .tc .vmem S2x8x64x512 .bf16).view.loc (c : Thread nD τ)) ↦[(vlocM : Memref sig .tc .vmem S2x8x64x512 .bf16).view.set]{sendShare 0} vT c : sProp 𝕄) from rest_d kT vT kC vC c 2 0)) $$ Hpay
  -- wait: copy 1 of the key block
  iapply (Rounds.wp_wait_rest_token 𝒱₀ ER (sched kT vT kC vC) (c : Thread nD τ) none (sm := .dma (dsem 0 1)) (κ := K (c, some (0, 1)))
      (wpE_waitDma2_eq 𝒱₀ (c : Thread nD τ) none Set.univ) (Set.mem_univ _) () (O := 0) (R := 0) (m := 0) (T := ∅)
      (by rw [Nat.zero_add, expect_d] <;> rfl)) $$ [Hcks1 HO Hat01]
  · isplitr; · iexact HI01
    isplitl [Hcks1]; · iexact Hcks1
    isplitl [HO]; · iexact HO
    isplitr; · rw [MayWait_zero]; iempintro
    iexact Hat01
  iintro ⟨HO, Hat01, -, Hpay⟩
  ihave Hkl1 := (Entails.of_eq (show _ = (((klocM : Memref sig .tc .vmem S2x8x64x512 .bf16).view.loc (c : Thread nD τ)) ↦[(klocM : Memref sig .tc .vmem S2x8x64x512 .bf16).view.set]{sendShare 1} kT c : sProp 𝕄) from rest_d kT vT kC vC c 0 1)) $$ Hpay
  -- wait: copy 1 of the value block
  iapply (Rounds.wp_wait_rest_token 𝒱₀ ER (sched kT vT kC vC) (c : Thread nD τ) none (sm := .dma (dsem 2 1)) (κ := K (c, some (2, 1)))
      (wpE_waitDma2_eq 𝒱₀ (c : Thread nD τ) none Set.univ) (Set.mem_univ _) () (O := 0) (R := 0) (m := 0) (T := ∅)
      (by rw [Nat.zero_add, expect_d] <;> rfl)) $$ [Hcvs1 HO Hat21]
  · isplitr; · iexact HI21
    isplitl [Hcvs1]; · iexact Hcvs1
    isplitl [HO]; · iexact HO
    isplitr; · rw [MayWait_zero]; iempintro
    iexact Hat21
  iintro ⟨HO, Hat21, -, Hpay⟩
  ihave Hvl1 := (Entails.of_eq (show _ = (((vlocM : Memref sig .tc .vmem S2x8x64x512 .bf16).view.loc (c : Thread nD τ)) ↦[(vlocM : Memref sig .tc .vmem S2x8x64x512 .bf16).view.set]{sendShare 1} vT c : sProp 𝕄) from rest_d kT vT kC vC c 2 1)) $$ Hpay
  -- wait: copy 2 of the key block
  iapply (Rounds.wp_wait_rest_token 𝒱₀ ER (sched kT vT kC vC) (c : Thread nD τ) none (sm := .dma (dsem 0 2)) (κ := K (c, some (0, 2)))
      (wpE_waitDma2_eq 𝒱₀ (c : Thread nD τ) none Set.univ) (Set.mem_univ _) () (O := 0) (R := 0) (m := 0) (T := ∅)
      (by rw [Nat.zero_add, expect_d] <;> rfl)) $$ [Hcks2 HO Hat02]
  · isplitr; · iexact HI02
    isplitl [Hcks2]; · iexact Hcks2
    isplitl [HO]; · iexact HO
    isplitr; · rw [MayWait_zero]; iempintro
    iexact Hat02
  iintro ⟨HO, Hat02, -, Hpay⟩
  ihave Hkl2 := (Entails.of_eq (show _ = (((klocM : Memref sig .tc .vmem S2x8x64x512 .bf16).view.loc (c : Thread nD τ)) ↦[(klocM : Memref sig .tc .vmem S2x8x64x512 .bf16).view.set]{sendShare 2} kT c : sProp 𝕄) from rest_d kT vT kC vC c 0 2)) $$ Hpay
  -- wait: copy 2 of the value block
  iapply (Rounds.wp_wait_rest_token 𝒱₀ ER (sched kT vT kC vC) (c : Thread nD τ) none (sm := .dma (dsem 2 2)) (κ := K (c, some (2, 2)))
      (wpE_waitDma2_eq 𝒱₀ (c : Thread nD τ) none Set.univ) (Set.mem_univ _) () (O := 0) (R := 0) (m := 0) (T := ∅)
      (by rw [Nat.zero_add, expect_d] <;> rfl)) $$ [Hcvs2 HO Hat22]
  · isplitr; · iexact HI22
    isplitl [Hcvs2]; · iexact Hcvs2
    isplitl [HO]; · iexact HO
    isplitr; · rw [MayWait_zero]; iempintro
    iexact Hat22
  iintro ⟨HO, Hat22, -, Hpay⟩
  ihave Hvl2 := (Entails.of_eq (show _ = (((vlocM : Memref sig .tc .vmem S2x8x64x512 .bf16).view.loc (c : Thread nD τ)) ↦[(vlocM : Memref sig .tc .vmem S2x8x64x512 .bf16).view.set]{sendShare 2} vT c : sProp 𝕄) from rest_d kT vT kC vC c 2 2)) $$ Hpay
  -- the two transposed blocks whole again
  ihave Hkl := (kloc_join c (kT c)) $$ [Hkl0 Hkl1 Hkl2 Hklk]
  · isplitl [Hkl0]; · iexact Hkl0
    isplitl [Hkl1]; · iexact Hkl1
    isplitl [Hkl2]; · iexact Hkl2
    iexact Hklk
  ihave Hvl := (vloc_join c (vT c)) $$ [Hvl0 Hvl1 Hvl2 Hvlk]
  · isplitl [Hvl0]; · iexact Hvl0
    isplitl [Hvl1]; · iexact Hvl1
    isplitl [Hvl2]; · iexact Hvl2
    iexact Hvlk
  -- the twelve own semaphores close at zero
  imod (Rounds.cell_close ER (sched kT vT kC vC) (Set.mem_univ (K (c, some (0, 0)))) (fun h => h) (R := 0 + 1) (duties_later kT vT kC vC (dCell 0 0 c))) $$ [Hat00] with Hz00
  · isplitr; · iexact HI00
    iexact Hat00
  imod (Rounds.cell_close ER (sched kT vT kC vC) (Set.mem_univ (K (c, some (0, 1)))) (fun h => h) (R := 0 + 1) (duties_later kT vT kC vC (dCell 0 1 c))) $$ [Hat01] with Hz01
  · isplitr; · iexact HI01
    iexact Hat01
  imod (Rounds.cell_close ER (sched kT vT kC vC) (Set.mem_univ (K (c, some (0, 2)))) (fun h => h) (R := 0 + 1) (duties_later kT vT kC vC (dCell 0 2 c))) $$ [Hat02] with Hz02
  · isplitr; · iexact HI02
    iexact Hat02
  imod (Rounds.cell_close ER (sched kT vT kC vC) (Set.mem_univ (K (c, some (1, 0)))) (fun h => h) (R := 0 + 1) (duties_later kT vT kC vC (dCell 1 0 c))) $$ [Hat10] with Hz10
  · isplitr; · iexact HI10
    iexact Hat10
  imod (Rounds.cell_close ER (sched kT vT kC vC) (Set.mem_univ (K (c, some (1, 1)))) (fun h => h) (R := 0 + 1) (duties_later kT vT kC vC (dCell 1 1 c))) $$ [Hat11] with Hz11
  · isplitr; · iexact HI11
    iexact Hat11
  imod (Rounds.cell_close ER (sched kT vT kC vC) (Set.mem_univ (K (c, some (1, 2)))) (fun h => h) (R := 0 + 1) (duties_later kT vT kC vC (dCell 1 2 c))) $$ [Hat12] with Hz12
  · isplitr; · iexact HI12
    iexact Hat12
  imod (Rounds.cell_close ER (sched kT vT kC vC) (Set.mem_univ (K (c, some (2, 0)))) (fun h => h) (R := 0 + 1) (duties_later kT vT kC vC (dCell 2 0 c))) $$ [Hat20] with Hz20
  · isplitr; · iexact HI20
    iexact Hat20
  imod (Rounds.cell_close ER (sched kT vT kC vC) (Set.mem_univ (K (c, some (2, 1)))) (fun h => h) (R := 0 + 1) (duties_later kT vT kC vC (dCell 2 1 c))) $$ [Hat21] with Hz21
  · isplitr; · iexact HI21
    iexact Hat21
  imod (Rounds.cell_close ER (sched kT vT kC vC) (Set.mem_univ (K (c, some (2, 2)))) (fun h => h) (R := 0 + 1) (duties_later kT vT kC vC (dCell 2 2 c))) $$ [Hat22] with Hz22
  · isplitr; · iexact HI22
    iexact Hat22
  imod (Rounds.cell_close ER (sched kT vT kC vC) (Set.mem_univ (K (c, some (3, 0)))) (fun h => h) (R := 0 + 1) (duties_later kT vT kC vC (dCell 3 0 c))) $$ [Hat30] with Hz30
  · isplitr; · iexact HI30
    iexact Hat30
  imod (Rounds.cell_close ER (sched kT vT kC vC) (Set.mem_univ (K (c, some (3, 1)))) (fun h => h) (R := 0 + 1) (duties_later kT vT kC vC (dCell 3 1 c))) $$ [Hat31] with Hz31
  · isplitr; · iexact HI31
    iexact Hat31
  imod (Rounds.cell_close ER (sched kT vT kC vC) (Set.mem_univ (K (c, some (3, 2)))) (fun h => h) (R := 0 + 1) (duties_later kT vT kC vC (dCell 3 2 c))) $$ [Hat32] with Hz32
  · isplitr; · iexact HI32
    iexact Hat32
  -- done: the continuation gets what it was promised
  rw [wp_ret]; imodintro
  iapply Hk
  unfold bodyPost Φ₁ Dat.owesAt Pipeline.owesWithin
  rw [show (dats m ρ kT vT kC vC outV 0 c).owed t₀.succ = 0 from rfl, scopedRest0_eq, ownSems_chain]
  isplitl [Hqt Hkl Hvl Hkc Hvc Hac Hls Hz00 Hz01 Hz02 Hz10 Hz11 Hz12 Hz20 Hz21 Hz22 Hz30 Hz31 Hz32]
  · isplitl [Hqt Hkl Hvl Hkc Hvc Hac Hls]
    · isplitl [Hqt]; · iexists _; iexact Hqt
      isplitl [Hkl]; · iexists _; iexact Hkl
      isplitl [Hvl]; · iexists _; iexact Hvl
      isplitl [Hkc]; · iexists _; iexact Hkc
      isplitl [Hvc]; · iexists _; iexact Hvc
      isplitl [Hac]; · iexists _; iexact Hac
      iexists _; iexact Hls
    isplitl [Hz00]; · iexact Hz00
    isplitl [Hz01]; · iexact Hz01
    isplitl [Hz02]; · iexact Hz02
    isplitl [Hz10]; · iexact Hz10
    isplitl [Hz11]; · iexact Hz11
    isplitl [Hz12]; · iexact Hz12
    isplitl [Hz20]; · iexact Hz20
    isplitl [Hz21]; · iexact Hz21
    isplitl [Hz22]; · iexact Hz22
    isplitl [Hz30]; · iexact Hz30
    isplitl [Hz31]; · iexact Hz31
    iexact Hz32
  isplitl [HO]
  · iexists (insert (SemLoc.dma (dsem 2 2), ()) (insert (SemLoc.dma (dsem 0 2), ()) (insert (SemLoc.dma (dsem 2 1), ()) (insert (SemLoc.dma (dsem 0 1), ()) (insert (SemLoc.dma (dsem 2 0), ()) (insert (SemLoc.dma (dsem 0 0), ()) (insert (SemLoc.dma (dsem 3 2), ()) (insert (SemLoc.dma (dsem 1 2), ()) (insert (SemLoc.dma (dsem 3 1), ()) (insert (SemLoc.dma (dsem 1 1), ()) (insert (SemLoc.dma (dsem 3 0), ()) (insert (SemLoc.dma (dsem 1 0), ()) (insert (SemLoc.reg barS, ()) W)))))))))))))
    isplitr; · ipureintro; exact fun _ _ => Or.inl trivial
    iexact HO
  isplitl [Hq]
  · iexists _; isplitr; · (ipureintro; rfl)
    iexact Hq
  isplitl [Hkst]
  · iexists _; isplitr; · (ipureintro; rfl)
    iexact Hkst
  isplitl [Hvst]
  · iexists _; isplitr; · (ipureintro; rfl)
    iexact Hvst
  iexists _; isplitr; · (ipureintro; rfl)
  iexact Hout

end Cert.Kernel.Body

end
-- ==== Proof.Bits.Launch.lean ====
/-
  The launch: from "every device's one grid point is proved" to the run of the whole mesh.

  The ghost state of the exchange is one element of the rounds algebra: every device's thirteen cells at
  round 0, and the one-shot tokens of all their duties. At launch it is dealt out, the thirteen invariants of
  every device are allocated from its semaphores at zero (the twelve scoped ones and the barrier semaphore,
  which is not scoped to the kernel), and the tokens change hands once: a duty's token goes from the device
  that owns the semaphore to the device that pays the duty. Since "peer j" is a permutation of the devices,
  this is a reindexing of a product over all devices.
-/
import proofs.«900413_g7700000000000414_dist_agattn_v7x_xyz2x4x4_z_b2_s512_h8_d64_bf16_1_alg».proof.Proof.Bits.State
import proofs.«900413_g7700000000000414_dist_agattn_v7x_xyz2x4x4_z_b2_s512_h8_d64_bf16_1_alg».proof.Proof.Gen.Kernel.Launch
import Idealize.ShloMosaic.Lib.Pipeline.Launch
import Idealize.ShloMosaic.Lib.Pipeline.Kit
import Idealize.ShloMosaic.Lib.Tactic

noncomputable section

namespace Cert.Kernel.Launch

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched Cert.Kernel.Levels

variable {F : FTy → Type} [FloatOps F]

local notation "𝕄" => MT nD τ sig Unit (Elt F) ℕ UU ℕ

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))

/-! ## The layout facts the launch asks of the twelve own semaphores, and of the proof data -/

theorem ownSemFacts : Pipeline.OwnSemFacts cfg0.spec osem := by decide

theorem share_eq (c : Dev nD) (w : Fin cfg0.W) : (State.dats m ρ kT vT kC vC outV 0 c).share w = fullShare := by
  unfold Dat.share; split <;> rfl

/-! ## The launch element: all cells, all tokens -/

def ringCells : Finset (GSem nD τ sig) := Finset.univ.map ⟨kcell, kcell_injective⟩

/-- A device's tokens as minted: the barrier's three duties, and the one duty of each of the twelve DMA semaphores. -/
abbrev TK : Type := Fin 3 ⊕ (Fin 4 × Fin 3)
abbrev tokOf (cj : Dev nD × TK) : GSem nD τ sig × ℕ × Fin 3 := match cj.2 with
  | .inl j => (barCell cj.1, 0, j)
  | .inr tj => (dCell tj.1 tj.2 cj.1, 0, 0)

theorem tokOf_injective : Function.Injective (tokOf : Dev nD × TK → GSem nD τ sig × ℕ × Fin 3) := by
  rintro ⟨c, k⟩ ⟨c', k'⟩ h
  have h1 : c = c' := by
    have := congrArg (fun x : GSem nD τ sig × ℕ × Fin 3 => x.1.1.1) h
    rcases k with j | tj <;> rcases k' with j' | tj' <;> exact this
  subst h1
  rcases k with j | ⟨t, j⟩ <;> rcases k' with j' | ⟨t', j'⟩
  · have h2 : j = j' := congrArg (fun x : GSem nD τ sig × ℕ × Fin 3 => x.2.2) h
    rw [h2]
  · exact absurd (congrArg (fun x : GSem nD τ sig × ℕ × Fin 3 => x.1.2) h) (fun h' => by cases h')
  · exact absurd (congrArg (fun x : GSem nD τ sig × ℕ × Fin 3 => x.1.2) h) (fun h' => by cases h')
  · have h2 : (SemLoc.dma (dsem t j) : SemLoc sig) = .dma (dsem t' j') := congrArg (fun x : GSem nD τ sig × ℕ × Fin 3 => x.1.2) h
    have h3 : dsem t j = dsem t' j' := by injection h2
    obtain ⟨rfl, rfl⟩ := dsem_inj t t' j j' h3
    rfl

def ringToks : Finset (GSem nD τ sig × ℕ × Fin 3) := Finset.univ.map ⟨tokOf, tokOf_injective⟩

def u₀ : UU :=
  (initOf (Pipeline.cells cfgs cellOf_inj) (Pipeline.launchToks cfgs cellOf_inj), initOf ringCells ringToks)

/-- What the launch element deals device `c`: its thirteen cells at round 0, its positions, and its tokens as minted. -/
def G (c : Dev nD) : sProp 𝕄 :=
  iprop((bigSep Finset.univ fun k : CK => roundState ER (sched kT vT kC vC) (kcell (c, k)) 0)
    ∗ (bigSep Finset.univ fun k : CK => iprop(atPos ER (kcell (c, k)) 0 ∅ 0 ∗ reached ER (kcell (c, k)) 0)) ∗ State.toks c)

/-- What the global step makes of it. -/
def G' (c : Dev nD) : sProp 𝕄 := iprop(∃ K, State.ghost kT vT kC vC K c)

omit [FloatOps F] in
theorem bigSep_fin3 (Φ : Fin 3 → sProp 𝕄) : bigSep Finset.univ Φ = iprop(Φ 0 ∗ Φ 1 ∗ Φ 2) := bigSep_univ_eq_bigSepL [0, 1, 2] (by decide) (by decide) Φ
omit [FloatOps F] in
theorem bigSep_fin4 (Φ : Fin 4 → sProp 𝕄) : bigSep Finset.univ Φ = iprop(Φ 0 ∗ Φ 1 ∗ Φ 2 ∗ Φ 3) := bigSep_univ_eq_bigSepL [0, 1, 2, 3] (by decide) (by decide) Φ

omit [FloatOps F] in
/-- A product over a device's thirteen cells: the barrier's factor and the twelve others. -/
theorem bigSep_CK (Φ : CK → sProp 𝕄) : bigSep Finset.univ Φ = iprop(Φ none ∗ bigSep Finset.univ fun tj : Fin 4 × Fin 3 => Φ (some tj)) := by
  have h : (Finset.univ : Finset CK) = insert none (Finset.univ.map ⟨some, Option.some_injective _⟩) := by decide
  rw [h, bigSep_insert (by decide), bigSep_map]
  rfl

omit [FloatOps F] in
theorem fund_ring : BI.own (ER (initOf ringCells ringToks)) ⊢ (|==> bigSep Finset.univ (G kT vT kC vC) : sProp 𝕄) := by
  have hX (Φ : GSem nD τ sig → sProp 𝕄) : bigSep ringCells Φ = bigSep Finset.univ fun c : Dev nD => bigSep Finset.univ fun k : CK => Φ (kcell (c, k)) := by
    unfold ringCells; rw [bigSep_map, bigSep_univ_prod]; rfl
  have hT : bigSep ringToks (fun x => (dutyTok ER x.1 x.2.1 x.2.2 : sProp 𝕄)) = bigSep Finset.univ fun c : Dev nD => State.toks c := by
    unfold ringToks; rw [bigSep_map, bigSep_univ_prod]
    exact bigSep_congr fun c _ => by unfold State.toks; rw [bigSep_univ_sum]; rfl
  iintro HX
  imod (Rounds.fund ER (sched kT vT kC vC) ringCells ringToks) $$ HX with ⟨Hst, Hr, Hat, Htok⟩
  imodintro
  ihave Hst' := (Entails.of_eq (hX fun g => roundState ER (sched kT vT kC vC) g 0)) $$ Hst
  ihave Hat' := (Entails.of_eq (hX fun g => atPos ER g 0 ∅ 0)) $$ Hat
  ihave Hr' := (Entails.of_eq (hX fun g => reached ER g 0)) $$ Hr
  ihave Htok' := (Entails.of_eq hT) $$ Htok
  unfold G; simp only [bigSep_sep']
  isplitl [Hst']; · iexact Hst'
  isplitl [Hat' Hr']
  · isplitl [Hat'] <;> iassumption
  iexact Htok'

/-! ## Allocating a device's thirteen invariants -/

omit [FloatOps F] in
/-- The barrier semaphore is the one semaphore that is not scoped to the kernel. -/
theorem unscopedSems0_eq (c : Dev nD) : (unscopedSems0 c : sProp 𝕄) = semVal (barCell c) 0 := by
  unfold unscopedSems0; rw [bigSep_eq_bigSepL_of_eq [SemLoc.reg barS] (by decide) (by decide)]; rfl

omit [FloatOps F] in
theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [unscopedSems0_eq, bigSep_CK]
  iintro ⟨HO, HB⟩
  isplitl [HB]; · iexact HB
  unfold Pipeline.ownSems0; iexact HO

omit [FloatOps F] in
theorem core_alloc (c : Dev nD) :
    iprop(Pipeline.ownSems0 (Ix := Unit) (Name := ℕ) (U := UU) (Lvl := ℕ) (Val := Elt F) (τ := τ) osem c ∗ unscopedSems0 c ∗ G kT vT kC vC c)
      ⊢ |={Set.univ}=> iprop((bigSep Finset.univ fun k : CK => iprop(∃ κ : ℕ, cellInv ER (sched kT vT kC vC) κ (kcell (c, k))))
          ∗ (bigSep Finset.univ fun k : CK => iprop(atPos ER (kcell (c, k)) 0 ∅ 0 ∗ reached ER (kcell (c, k)) 0)) ∗ State.toks c) := by
  unfold G
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState ER (sched kT vT kC vC) (kcell (c, k)) 0)
      ⊢ (|={Set.univ}=> bigSep Finset.univ fun k : CK => iprop(∃ κ : ℕ, cellInv ER (sched kT vT kC vC) κ (kcell (c, k))) : sProp 𝕄) from by
        rw [← bigSep_sep']
        exact (bigSep_mono fun k _ => (Rounds.body_intro ER (sched kT vT kC vC) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-! ## The tokens change hands -/

omit [FloatOps F] in
/-- A double product may be taken in either order. -/
theorem bigSep_swap {α β : Type} [Fintype α] [Fintype β] (Φ : α → β → sProp 𝕄) :
    bigSep Finset.univ (fun a => bigSep Finset.univ fun b => Φ a b) = bigSep Finset.univ (fun b => bigSep Finset.univ fun a => Φ a b) := by
  have h1 : bigSep Finset.univ (fun a => bigSep Finset.univ fun b => Φ a b) = bigSep Finset.univ (fun ab : α × β => Φ ab.1 ab.2) :=
    (bigSep_univ_prod (fun ab : α × β => Φ ab.1 ab.2)).symm
  have h2 : bigSep Finset.univ (fun b => bigSep Finset.univ fun a => Φ a b) = bigSep Finset.univ (fun ba : β × α => Φ ba.2 ba.1) :=
    (bigSep_univ_prod (fun ba : β × α => Φ ba.2 ba.1)).symm
  rw [h1, h2, bigSep_univ_equiv (Equiv.prodComm β α) (fun ab : α × β => Φ ab.1 ab.2)]
  rfl

/-- Undoing a peer index is a permutation of the three indices. -/
def backEquiv : Fin 3 ≃ Fin 3 := ⟨back, back, back_back, back_back⟩

omit [FloatOps F] in
/-- A family of tokens indexed by (owner, slot) is the same family indexed by (payer, copy): the payer `c`'s copy `j`
    pays slot `back j` of the owner `peer j c`. -/
theorem toks_recv (X : Fin 3 → Dev nD → sProp 𝕄) :
    (bigSep Finset.univ fun c : Dev nD => bigSep Finset.univ fun j : Fin 3 => X j c)
      = bigSep Finset.univ fun c : Dev nD => bigSep Finset.univ fun j : Fin 3 => X (back j) (peer j c) := by
  rw [bigSep_swap (fun c j => X j c), bigSep_swap (fun c j => X (back j) (peer j c)),
    bigSep_univ_equiv backEquiv (fun j : Fin 3 => bigSep Finset.univ fun c : Dev nD => X j c)]
  exact bigSep_congr fun j _ => bigSep_univ_equiv (peerEquiv j) (fun c : Dev nD => X (back j) c)

omit [FloatOps F] in
/-- The barrier's duty `j` of the owner `peer j c` is paid by `c`. -/
theorem toks_bar (X : Fin 3 → Dev nD → sProp 𝕄) :
    (bigSep Finset.univ fun c : Dev nD => bigSep Finset.univ fun j : Fin 3 => X j c)
      = bigSep Finset.univ fun c : Dev nD => bigSep Finset.univ fun j : Fin 3 => X j (peer j c) := by
  rw [bigSep_swap (fun c j => X j c), bigSep_swap (fun c j => X j (peer j c))]
  exact bigSep_congr fun j _ => bigSep_univ_equiv (peerEquiv j) (fun c : Dev nD => X j c)

omit [FloatOps F] in
/-- The twelve DMA tokens of a device, triple by triple. -/
theorem bigSep_triples (Φ : Fin 4 × Fin 3 → sProp 𝕄) :
    bigSep Finset.univ Φ = iprop((bigSep Finset.univ fun j : Fin 3 => Φ (0, j)) ∗ (bigSep Finset.univ fun j : Fin 3 => Φ (1, j))
      ∗ (bigSep Finset.univ fun j : Fin 3 => Φ (2, j)) ∗ (bigSep Finset.univ fun j : Fin 3 => Φ (3, j))) := by
  rw [bigSep_univ_prod, bigSep_fin4]

omit [FloatOps F] in
/-- Every token goes from the owner of its semaphore to the payer of its duty. -/
theorem toks_around : (bigSep Finset.univ fun c : Dev nD => (State.toks c : sProp 𝕄)) ⊢ bigSep Finset.univ fun c : Dev nD => State.payToks c := by
  have hL : (bigSep Finset.univ fun c : Dev nD => (State.toks c : sProp 𝕄))
      = iprop((bigSep Finset.univ fun c : Dev nD => bigSep Finset.univ fun j : Fin 3 => dutyTok ER (barCell c) 0 j)
        ∗ (bigSep Finset.univ fun c : Dev nD => bigSep Finset.univ fun j : Fin 3 => dutyTok ER (dCell 0 j c) 0 0)
        ∗ (bigSep Finset.univ fun c : Dev nD => bigSep Finset.univ fun j : Fin 3 => dutyTok ER (dCell 1 j c) 0 0)
        ∗ (bigSep Finset.univ fun c : Dev nD => bigSep Finset.univ fun j : Fin 3 => dutyTok ER (dCell 2 j c) 0 0)
        ∗ (bigSep Finset.univ fun c : Dev nD => bigSep Finset.univ fun j : Fin 3 => dutyTok ER (dCell 3 j c) 0 0)) := by
    unfold State.toks
    rw [bigSep_congr (s := Finset.univ) fun (c : Dev nD) _ => congrArg (fun X => iprop((bigSep Finset.univ fun j : Fin 3 => dutyTok ER (barCell c) 0 j) ∗ X))
      (bigSep_triples fun tj : Fin 4 × Fin 3 => (dutyTok ER (dCell tj.1 tj.2 c) 0 0 : sProp 𝕄))]
    rw [bigSep_sep', bigSep_sep', bigSep_sep', bigSep_sep']
  have hR : (bigSep Finset.univ fun c : Dev nD => (State.payToks c : sProp 𝕄))
      = iprop((bigSep Finset.univ fun c : Dev nD => bigSep Finset.univ fun j : Fin 3 => dutyTok ER (barCell (peer j c)) 0 j)
        ∗ (bigSep Finset.univ fun c : Dev nD => bigSep Finset.univ fun j : Fin 3 => dutyTok ER (dCell 1 (back j) (peer j c)) 0 0)
        ∗ (bigSep Finset.univ fun c : Dev nD => bigSep Finset.univ fun j : Fin 3 => dutyTok ER (dCell 3 (back j) (peer j c)) 0 0)
        ∗ (bigSep Finset.univ fun c : Dev nD => bigSep Finset.univ fun j : Fin 3 => dutyTok ER (dCell 0 j c) 0 0)
        ∗ (bigSep Finset.univ fun c : Dev nD => bigSep Finset.univ fun j : Fin 3 => dutyTok ER (dCell 2 j c) 0 0)) := by
    unfold State.payToks
    simp only [bigSep_sep']
  rw [hL, hR, toks_bar (fun j c => (dutyTok ER (barCell c) 0 j : sProp 𝕄)),
    toks_recv (fun j c => (dutyTok ER (dCell 1 j c) 0 0 : sProp 𝕄)), toks_recv (fun j c => (dutyTok ER (dCell 3 j c) 0 0 : sProp 𝕄))]
  iintro ⟨HB, H0, H1, H2, H3⟩
  isplitl [HB]; · iexact HB
  isplitl [H1]; · iexact H1
  isplitl [H3]; · iexact H3
  isplitl [H0]; · iexact H0
  iexact H2

/-! ## From what is minted to what each device starts from -/

omit [FloatOps F] in
theorem ghost_intro (K : Dev nD × CK → ℕ) (c : Dev nD) : iprop(State.records kT vT kC vC K ∗ State.linear c) ⊢ G' kT vT kC vC c := by
  unfold G' State.ghost
  iintro H
  iexists K
  iexact H

omit [FloatOps F] in
theorem bigSep_with_persistent {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

omit [FloatOps F] in
theorem regroup :
    (bigSep Finset.univ fun c : Dev nD => iprop((bigSep Finset.univ fun k : CK => iprop(∃ κ : ℕ, cellInv ER (sched kT vT kC vC) κ (kcell (c, k))))
          ∗ (bigSep Finset.univ fun k : CK => iprop(atPos ER (kcell (c, k)) 0 ∅ 0 ∗ reached ER (kcell (c, k)) 0)) ∗ State.toks c) : sProp 𝕄)
      ⊢ bigSep Finset.univ (G' kT vT kC vC) := by
  rw [bigSep_sep', bigSep_sep', ← bigSep_univ_prod (fun ck : Dev nD × CK => iprop(∃ κ : ℕ, cellInv ER (sched kT vT kC vC) κ (kcell ck))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun ck : Dev nD × CK => (reached ER (kcell ck) 0 : sProp 𝕄))]
  iintro ⟨HI, ⟨Hat, #HR⟩, Htok⟩
  ihave HK := (BI.bigSep_exists_pi Finset.univ (fun (ck : Dev nD × CK) (κ : ℕ) => (cellInv ER (sched kT vT kC vC) κ (kcell ck) : sProp 𝕄))) $$ HI
  icases HK with ⟨%K, #HI⟩
  ihave Htk := (toks_around (F := F)) $$ Htok
  iapply (bigSep_with_persistent (R := State.records kT vT kC vC K) fun c _ => ghost_intro kT vT kC vC K c)
  isplitr
  · unfold State.records; isplitl; · iexact HI
    iexact HR
  · iapply ((Entails.of_eq (bigSep_sep' Finset.univ (fun c : Dev nD => bigSep Finset.univ fun k : CK => (atPos ER (kcell (c, k)) 0 ∅ 0 : sProp 𝕄)) State.payToks).symm).trans
      (bigSep_mono fun c _ => show _ ⊢ State.linear c from Entails.of_eq (by unfold State.linear; rfl)))
    isplitl [Hat]; · iexact Hat
    iexact Htk

omit [FloatOps F] in
/-- The global step: the own and the unscoped semaphores of every device at once. -/
theorem glob : (bigSep Finset.univ fun c => iprop(Pipeline.ownSems0 (Ix := Unit) (Name := ℕ) (U := UU) (Lvl := ℕ) (Val := Elt F) (τ := τ) osem c ∗ unscopedSems0 c ∗ G kT vT kC vC c) : sProp 𝕄)
    ⊢ |={Set.univ}=> bigSep Finset.univ (G' kT vT kC vC) :=
  ((bigSep_mono fun c _ => core_alloc kT vT kC vC c).trans (bigSep_fupd _ _)).trans (BI.fupd_mono (regroup kT vT kC vC))

/-! ## The side conditions of the launch -/

omit [FloatOps F] in
theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' kT vT kC vC c)
      ⊢ |={Set.univ}=> iprop(State.start kT vT kC vC c ∗ emp) := by
  iintro ⟨-, Hlev, Hcr, -, HG⟩
  ihave Hc := (creds (F := F) c) $$ Hcr
  imodintro
  unfold State.start State.credits G'
  isplitl
  · isplitl [HG]; · iexact HG
    isplitl [Hc]; · iexact Hc
    iexact Hlev
  · iempintro

theorem phi0_intro (c : Dev nD) :
    iprop(State.start kT vT kC vC c ∗ Pipeline.prefHeld Pipeline.Prefetch.none c (fun _ => fullShare.right) (fun k => k.elim0) ∗ Pipeline.scopedRest cfg0.spec c)
      ⊢ (State.dats m ρ kT vT kC vC outV 0 c).Φ 0 := by
  rw [show (State.dats m ρ kT vT kC vC outV 0 c).Φ 0 = State.Φ₀ kT vT kC vC c from rfl]
  unfold State.Φ₀
  iintro ⟨Hs, -, Hr⟩
  isplitl [Hs]; · iexact Hs
  iexact Hr

theorem phi1_exit (c : Dev nD) :
    (State.dats m ρ kT vT kC vC outV 0 c).Φ (Fin.last cfg0.N) ⊢ iprop(emp ∗ Pipeline.ownSems0 osem c ∗ Pipeline.scopedRest cfg0.spec c) := by
  rw [show (State.dats m ρ kT vT kC vC outV 0 c).Φ (Fin.last cfg0.N) = State.Φ₁ c from rfl]
  unfold State.Φ₁
  iintro ⟨Hr, Hz⟩
  isplitr; · iempintro
  isplitl [Hz]; · iexact Hz
  iexact Hr

theorem waits (c : Dev nD) : (levAts L lv : sProp 𝕄) ⊢ Pipeline.cellsWaits cfgs (State.dats m ρ kT vT kC vC outV) () 0 c :=
  Pipeline.cellsWaits_intro cfgs (State.dats m ρ kT vT kC vC outV) () 0 c fun w s t =>
    mayWait_stage c _ (by fin_cases w <;> fin_cases s <;> decide) _ (by
      rcases t with ⟨_ | _, ht⟩
      · exact Or.inl rfl
      · exact Or.inr rfl)

/-! ## The run -/

/-- What each array of device `c` holds after the run, as the pipeline's proof data name it. -/
def finalA (c : Dev nD) (w : Fin cfg0.W) : Buf (Elt F) ((cfg0.win w).arr.view.loc (c : Thread nD τ)) :=
  (State.dats m ρ kT vT kC vC outV 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ kT vT kC vC outV c w

set_option maxRecDepth 8000 in
/-- At the compiled mesh of thirty-two devices, for any float values, from any memory with every semaphore at zero:
    if every device's one grid point meets its obligation, every weakly fair execution of the whole mesh terminates
    and every final state has each device's four arrays at the contents the proof data name. -/
theorem run_main
    (hbody : ∀ c : Dev nD, BodyObligation (State.dats (F := F) m ρ kT vT kC vC outV 0 c) (defs₀ (F := F)) State.𝒱₀ () Set.univ) :
    θ_run defs (onTc (τ := τ) (main (F := F))) (State.s₀ m ρ) (QC m ρ kT vT kC vC outV) :=
  Pipeline.θ_run_region_owing_glob_pf (fun p => (cfgs p).toPCfg) (fun p => (cfgs p).toPCfg_adm) (State.dats m ρ kT vT kC vC outV) () cellOf_inj (0 : Fin 1)
    winFacts0.to₀ ownSemFacts (Pipeline.PreFacts.none _) EP defs₀ State.𝒱₀ m ρ main
    (hmain := fun _ => rfl)
    (hbody := hbody) (hne := fun w => by fin_cases w <;> exact Nat.succ_pos _) (harr := arr_whole0) (hstage := stage_whole0)
    (hshare := share_eq m ρ kT vT kC vC outV)
    (hdistinct := winFacts0.arr_inj)
    (O₀ := O₀) (howed₀ := fun _ => rfl) (howedN := fun _ => rfl)
    (L := L) (lv := lv) (hL := L_of_ne) (hwaits := waits m ρ kT vT kC vC outV)
    (G := G kT vT kC vC) (G' := G' kT vT kC vC) (u₀ := u₀)
    (hu₀ := by
      unfold u₀
      iintro Hu
      ihave H := (ownU_pair _ _) $$ Hu
      icases H with ⟨HP, HX⟩
      imod (fund_ring kT vT kC vC) $$ HX with HG
      imodintro
      isplitl [HP] <;> iassumption)
    (hglob := glob kT vT kC vC)
    (hA := fun _ _ => rfl) (hpf := fun _ k => k.elim0)
    (X := State.start kT vT kC vC) (Y := fun _ => iprop(emp)) (Z := fun _ => iprop(emp))
    (hX := start_intro m ρ kT vT kC vC) (hin := phi0_intro m ρ kT vT kC vC outV) (hout := phi1_exit m ρ kT vT kC vC outV)
    (QY := fun _ _ => True)
    (hY := fun c s' => by
      iintro ⟨-, -, HSI⟩
      imodintro
      isplitr; · ipureintro; trivial
      iexact HSI)
    (hQ := fun _ h c w => (h c).1 w)

/-- info: 'Cert.Kernel.Launch.run_main' depends on axioms: [propext, Classical.choice, Quot.sound] -/
#guard_msgs in #print axioms run_main

end Cert.Kernel.Launch

end
-- ==== Proof.Bits.BodyOb.lean ====
/-
  The body obligation of the pipeline's one grid point, from the step-by-step body.

  The launch hands a device the shared records (every device's semaphore invariants and round-0 marks) and its own
  linear state as products over index sets; the body wants them item by item. The records are persistent, so each
  item is read off the product; the device's positions and tokens are taken apart along the thirteen semaphores
  and the three peers.
-/
import proofs.«900413_g7700000000000414_dist_agattn_v7x_xyz2x4x4_z_b2_s512_h8_d64_bf16_1_alg».proof.Proof.Bits.Body
import proofs.«900413_g7700000000000414_dist_agattn_v7x_xyz2x4x4_z_b2_s512_h8_d64_bf16_1_alg».proof.Proof.Bits.Launch

noncomputable section

namespace Cert.Kernel.BodyOb

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched Cert.Kernel.Levels Cert.Kernel.State Cert.Kernel.BodyPre

variable {F : FTy → Type} [FloatOps F]

local notation "𝕄" => MT nD τ sig Unit (Elt F) ℕ UU ℕ

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))
variable (qT : (c : Dev nD) → Buf (Elt F) ((c : Thread nD τ).loc cc0_scratch0))
variable (a0 a1 a2 : (c : Dev nD) → Buf (Elt F) ((c : Thread nD τ).loc cc0_scratch5))
variable (l0 l1 l2 : (c : Dev nD) → Buf (Elt F) ((c : Thread nD τ).loc cc0_scratch6))

omit [FloatOps F] in
theorem owns_whole_eq (c : Dev nD) (b : Ref sig .tc) (X : b.ty.Contents (Elt F)) :
    (owns (Ix := Unit) (Name := ℕ) (U := UU) (Lvl := ℕ) (c : Thread nD τ) (Memref.whole b) fullShare X : sProp 𝕄)
      = iprop(∃ f : Buf (Elt F) (((c : Dev nD) : Thread nD τ).loc b), ⌜f = X⌝ ∗ (((c : Thread nD τ).loc b) ↦{fullShare} f)) := by
  unfold owns; simp only [Memref.view_whole, View.read_whole, View.set_whole]

omit [FloatOps F] in
theorem inv_at (K : Dev nD × CK → ℕ) (ck : Dev nD × CK) :
    (bigSep Finset.univ fun ck : Dev nD × CK => (cellInv ER (sched kT vT kC vC) (K ck) (kcell ck) : sProp 𝕄)) ⊢ cellInv ER (sched kT vT kC vC) (K ck) (kcell ck) :=
  bigSep_elim (Finset.mem_univ ck)
omit [FloatOps F] in
theorem reached_at (ck : Dev nD × CK) :
    (bigSep Finset.univ fun ck : Dev nD × CK => (reached ER (kcell ck) 0 : sProp 𝕄)) ⊢ reached ER (kcell ck) 0 :=
  bigSep_elim (Finset.mem_univ ck)

omit [FloatOps F] in
/-- Of the shared records, the invariants and marks device `c`'s body uses. -/
theorem records_open (K : Dev nD × CK → ℕ) (c : Dev nD) :
    records kT vT kC vC K ⊢ iprop(BodyPre.invs kT vT kC vC K c ∗ BodyPre.reach c) := by
  unfold records BodyPre.invs BodyPre.reach
  iintro ⟨#HI, #HR⟩
  isplitr
  · isplitr; · iapply (inv_at kT vT kC vC K (c, none)); iexact HI
    isplitr; · iapply (inv_at kT vT kC vC K (c, some (0, 0))); iexact HI
    isplitr; · iapply (inv_at kT vT kC vC K (c, some (0, 1))); iexact HI
    isplitr; · iapply (inv_at kT vT kC vC K (c, some (0, 2))); iexact HI
    isplitr; · iapply (inv_at kT vT kC vC K (c, some (1, 0))); iexact HI
    isplitr; · iapply (inv_at kT vT kC vC K (c, some (1, 1))); iexact HI
    isplitr; · iapply (inv_at kT vT kC vC K (c, some (1, 2))); iexact HI
    isplitr; · iapply (inv_at kT vT kC vC K (c, some (2, 0))); iexact HI
    isplitr; · iapply (inv_at kT vT kC vC K (c, some (2, 1))); iexact HI
    isplitr; · iapply (inv_at kT vT kC vC K (c, some (2, 2))); iexact HI
    isplitr; · iapply (inv_at kT vT kC vC K (c, some (3, 0))); iexact HI
    isplitr; · iapply (inv_at kT vT kC vC K (c, some (3, 1))); iexact HI
    isplitr; · iapply (inv_at kT vT kC vC K (c, some (3, 2))); iexact HI
    isplitr; · iapply (inv_at kT vT kC vC K (peer 0 c, none)); iexact HI
    isplitr; · iapply (inv_at kT vT kC vC K (peer 0 c, some (1, 2))); iexact HI
    isplitr; · iapply (inv_at kT vT kC vC K (peer 0 c, some (3, 2))); iexact HI
    isplitr; · iapply (inv_at kT vT kC vC K (peer 1 c, none)); iexact HI
    isplitr; · iapply (inv_at kT vT kC vC K (peer 1 c, some (1, 1))); iexact HI
    isplitr; · iapply (inv_at kT vT kC vC K (peer 1 c, some (3, 1))); iexact HI
    isplitr; · iapply (inv_at kT vT kC vC K (peer 2 c, none)); iexact HI
    isplitr; · iapply (inv_at kT vT kC vC K (peer 2 c, some (1, 0))); iexact HI
    iapply (inv_at kT vT kC vC K (peer 2 c, some (3, 0))); iexact HI
  isplitr; · iapply (reached_at (F := F) (peer 0 c, none)); iexact HR
  isplitr; · iapply (reached_at (F := F) (peer 0 c, some (1, 2))); iexact HR
  isplitr; · iapply (reached_at (F := F) (peer 0 c, some (3, 2))); iexact HR
  isplitr; · iapply (reached_at (F := F) (peer 1 c, none)); iexact HR
  isplitr; · iapply (reached_at (F := F) (peer 1 c, some (1, 1))); iexact HR
  isplitr; · iapply (reached_at (F := F) (peer 1 c, some (3, 1))); iexact HR
  isplitr; · iapply (reached_at (F := F) (peer 2 c, none)); iexact HR
  isplitr; · iapply (reached_at (F := F) (peer 2 c, some (1, 0))); iexact HR
  isplitr; · iapply (reached_at (F := F) (peer 2 c, some (3, 0))); iexact HR
  isplitr; · iapply (reached_at (F := F) (c, some (0, 0))); iexact HR
  isplitr; · iapply (reached_at (F := F) (c, some (0, 1))); iexact HR
  isplitr; · iapply (reached_at (F := F) (c, some (0, 2))); iexact HR
  isplitr; · iapply (reached_at (F := F) (c, some (1, 0))); iexact HR
  isplitr; · iapply (reached_at (F := F) (c, some (1, 1))); iexact HR
  isplitr; · iapply (reached_at (F := F) (c, some (1, 2))); iexact HR
  isplitr; · iapply (reached_at (F := F) (c, some (2, 0))); iexact HR
  isplitr; · iapply (reached_at (F := F) (c, some (2, 1))); iexact HR
  isplitr; · iapply (reached_at (F := F) (c, some (2, 2))); iexact HR
  isplitr; · iapply (reached_at (F := F) (c, some (3, 0))); iexact HR
  isplitr; · iapply (reached_at (F := F) (c, some (3, 1))); iexact HR
  iapply (reached_at (F := F) (c, some (3, 2))); iexact HR

omit [FloatOps F] in
/-- The device's own state, item by item: thirteen positions, fifteen tokens. -/
theorem linear_open (c : Dev nD) : linear (F := F) c ⊢ iprop(BodyPre.ats c ∗ BodyPre.ptoks c) := by
  unfold linear payToks BodyPre.ats BodyPre.ptoks
  simp only [Launch.bigSep_CK, Launch.bigSep_triples, Launch.bigSep_fin3, Body.back0, Body.back1, Body.back2]
  iintro ⟨⟨Hab, ⟨H00, H01, H02⟩, ⟨H10, H11, H12⟩, ⟨H20, H21, H22⟩, H30, H31, H32⟩, ⟨⟨Ta0, Tb0, Tc0, Td0, Te0⟩, ⟨Ta1, Tb1, Tc1, Td1, Te1⟩, Ta2, Tb2, Tc2, Td2, Te2⟩⟩
  isplitl [Hab H00 H01 H02 H10 H11 H12 H20 H21 H22 H30 H31 H32]
  · isplitl [Hab]; · iexact Hab
    isplitl [H00]; · iexact H00
    isplitl [H01]; · iexact H01
    isplitl [H02]; · iexact H02
    isplitl [H10]; · iexact H10
    isplitl [H11]; · iexact H11
    isplitl [H12]; · iexact H12
    isplitl [H20]; · iexact H20
    isplitl [H21]; · iexact H21
    isplitl [H22]; · iexact H22
    isplitl [H30]; · iexact H30
    isplitl [H31]; · iexact H31
    iexact H32
  isplitl [Ta0]; · iexact Ta0
  isplitl [Tb0]; · iexact Tb0
  isplitl [Tc0]; · iexact Tc0
  isplitl [Td0]; · iexact Td0
  isplitl [Te0]; · iexact Te0
  isplitl [Ta1]; · iexact Ta1
  isplitl [Tb1]; · iexact Tb1
  isplitl [Tc1]; · iexact Tc1
  isplitl [Td1]; · iexact Td1
  isplitl [Te1]; · iexact Te1
  isplitl [Ta2]; · iexact Ta2
  isplitl [Tb2]; · iexact Tb2
  isplitl [Tc2]; · iexact Tc2
  isplitl [Td2]; · iexact Td2
  iexact Te2

def bodyPre' (c : Dev nD) : sProp 𝕄 :=
  iprop(Φ₀ kT vT kC vC c ∗ (dats m ρ kT vT kC vC outV 0 c).owesAt () t₀.castSucc
    ∗ (∃ d, stg c cc0_stg0_0 ((dats m ρ kT vT kC vC outV 0 c).before (0 : Fin 4) t₀ d))
    ∗ (∃ d, stg c cc0_stg1_0 ((dats m ρ kT vT kC vC outV 0 c).before (1 : Fin 4) t₀ d))
    ∗ (∃ d, stg c cc0_stg2_0 ((dats m ρ kT vT kC vC outV 0 c).before (2 : Fin 4) t₀ d))
    ∗ (∃ d, stg c cc0_stg3_0 ((dats m ρ kT vT kC vC outV 0 c).before (3 : Fin 4) t₀ d)))

set_option maxRecDepth 8000 in
/-- The library's body obligation on device `c`. -/
theorem body_obligation (hland : LoopFacts.Landings kT vT kC vC) (LF : LoopFacts.Loops m ρ kT vT kC vC outV qT a0 a1 a2 l0 l1 l2) (c : Dev nD) :
    BodyObligation (dats (F := F) m ρ kT vT kC vC outV 0 c) (defs₀ (F := F)) 𝒱₀ () Set.univ := fun t => by
  rw [fin_N t]
  rw [bigSep_W0, bigSep_W0]
  simp only [owns_whole_eq]
  show bodyPre' m ρ kT vT kC vC outV c ⊢ wp frame (wpE (defs₀ (F := F)) 𝒱₀ c none) Set.univ
    (cc0_body (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10) (fun _ => bodyPost m ρ kT vT kC vC outV c)
  unfold bodyPre' Φ₀ start ghost
  rw [scopedRest0_eq]
  iintro ⟨⟨⟨⟨%K, Hrec, Hlin⟩, Hcred, #Hlev⟩, Hscr⟩, Ho, Hx0, Hx1, Hx2, Hx3⟩
  iapply (Body.sound_body m ρ kT vT kC vC outV K qT a0 a1 a2 l0 l1 l2 hland LF c fun _ => bodyPost m ρ kT vT kC vC outV c)
  ihave Hop := (records_open kT vT kC vC K c) $$ Hrec
  icases Hop with ⟨#Hinvs, #Hreach⟩
  ihave Hl := (linear_open c) $$ Hlin
  icases Hl with ⟨Hats, Hptoks⟩
  unfold bodyPre BodyPre.scr
  isplitr []
  · isplitr
    · isplitr; · iexact Hinvs
      isplitr; · iexact Hreach
      iexact Hlev
    isplitl [Hats]; · iexact Hats
    isplitl [Hptoks]; · iexact Hptoks
    isplitl [Hcred]; · iexact Hcred
    isplitl [Hscr]; · iexact Hscr
    isplitl [Ho]; · iexact Ho
    isplitl [Hx0]; · iexact Hx0
    isplitl [Hx1]; · iexact Hx1
    isplitl [Hx2]; · iexact Hx2
    iexact Hx3
  · iintro H; iexact H

end Cert.Kernel.BodyOb

end
-- ==== Proof.Bits.Frames.lean ====
/-
  The run of the whole mesh, read.

  Every window of the kernel is a whole array staged whole, at the one grid point. The three input arrays are
  never written back, so they end as they began. The output array is written back once, whole: its one block
  is the whole array, so after the run it holds exactly what the body left in the output staging buffer, the
  device's result block.
-/
import proofs.«900413_g7700000000000414_dist_agattn_v7x_xyz2x4x4_z_b2_s512_h8_d64_bf16_1_alg».proof.Proof.Bits.BodyOb
import Idealize.ShloMosaic.Lib.Pipeline.Value

noncomputable section

namespace Cert.Kernel.Frames

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.Sched Cert.Kernel.Levels Cert.Kernel.State Cert.Kernel.BodyPre

variable {F : FTy → Type} [FloatOps F]

local notation "𝕄" => MT nD τ sig Unit (Elt F) ℕ UU ℕ

variable (m : (ℓ : Loc nD τ sig) → Buf (Elt F) ℓ) (ρ : Dev nD → PrngReg)
variable (kT : (c : Dev nD) → Buf (Elt F) ((klocM : Memref sig .tc .vmem S2x8x64x512 .bf16).view.loc (c : Thread nD τ)))
variable (vT : (c : Dev nD) → Buf (Elt F) ((vlocM : Memref sig .tc .vmem S2x8x64x512 .bf16).view.loc (c : Thread nD τ)))
variable (kC : (c : Dev nD) → Buf (Elt F) ((kcomM : Memref sig .tc .vmem S3x2x8x64x512 .bf16).view.loc (c : Thread nD τ)))
variable (vC : (c : Dev nD) → Buf (Elt F) ((vcomM : Memref sig .tc .vmem S3x2x8x64x512 .bf16).view.loc (c : Thread nD τ)))
variable (outV : (c : Dev nD) → (cc0_stg3_0 : Ref sig .tc).ty.Contents (Elt F))
variable (qT : (c : Dev nD) → Buf (Elt F) ((c : Thread nD τ).loc cc0_scratch0))
variable (a0 a1 a2 : (c : Dev nD) → Buf (Elt F) ((c : Thread nD τ).loc cc0_scratch5))
variable (l0 l1 l2 : (c : Dev nD) → Buf (Elt F) ((c : Thread nD τ).loc cc0_scratch6))

/-- What the one point writes back to the output array is the result block, read through the window's block. -/
theorem flushed3_eq (c : Dev nD) (t : Fin cfg0.N) :
    (dats m ρ kT vT kC vC outV 0 c).flushed 3 t = ((cfg0.win 3).blk t).view.read (Elt F) (outV c) := by
  show (cfg0.win 3).cut (grid0.coords t) (outV c) = _
  funext j
  show outV c ((cfg0.win 3).xinj (grid0.coords t) j) = outV c (((cfg0.win 3).blk t).view.emb j)
  congr 1
  funext a; apply Fin.ext
  show (j a).val = win0_3.index t a * S2x512x8x64.size a + 1 * (j a).val
  have h : win0_3.index t a = 0 := rfl
  rw [h]; omega

/-- An index of the output array is in the one block iff each coordinate is in range: always. -/
theorem mem_blk3 (t : Fin cfg0.N) (i : S2x512x8x64.Idx) :
    i ∈ ((cfg0.win 3).blk t).view.set ↔ ∀ a : Fin 4, win0_3.index t a * S2x512x8x64.size a ≤ (i a).val ∧ (i a).val < win0_3.index t a * S2x512x8x64.size a + S2x512x8x64.size a := by
  show i ∈ ((View.whole main_v1).slice (win0_3.rect t)).set ↔ _
  rw [View.set_slice_whole, Rect.mem_set_unit]
  exact Iff.rfl

/-- The output array after the run: the device's result block. -/
theorem final_out (c : Dev nD) : (dats m ρ kT vT kC vC outV 0 c).arrAt 3 cfg0.N = outV c :=
  (dats m ρ kT vT kC vC outV 0 c).arrAt_eq_of_cover 3 _ (fun t _ => flushed3_eq m ρ kT vT kC vC outV c t)
    (fun i => ⟨t₀, flush0_3 t₀, (mem_blk3 t₀ i).2 fun a => by
      have h : win0_3.index t₀ a = 0 := rfl
      have hi : (i a).val < S2x512x8x64.size a := (i a).isLt
      rw [h]; exact ⟨by omega, by omega⟩⟩)

/-- The run with every device's result named and its three inputs unchanged. -/
theorem run (hland : LoopFacts.Landings kT vT kC vC) (LF : LoopFacts.Loops m ρ kT vT kC vC outV qT a0 a1 a2 l0 l1 l2) :
    θ_run defs (onTc (τ := τ) (main (F := F))) ⟨m, fun _ => 0, ρ⟩ (fun r => ∀ c : Dev nD,
      r.2.mem ((c.tc : Thread nD τ).loc main_v1) = outV c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
      ⟨(h c 3).trans (final_out m ρ kT vT kC vC outV c),
       (h c 0).trans ((dats m ρ kT vT kC vC outV 0 c).arrAt_in 0 rfl _),
       (h c 1).trans ((dats m ρ kT vT kC vC outV 0 c).arrAt_in 1 rfl _),
       (h c 2).trans ((dats m ρ kT vT kC vC outV 0 c).arrAt_in 2 rfl _)⟩)
    (Launch.run_main m ρ kT vT kC vC outV (BodyOb.body_obligation m ρ kT vT kC vC outV qT a0 a1 a2 l0 l1 l2 hland LF))

/-- info: 'Cert.Kernel.Frames.run' depends on axioms: [propext, Classical.choice, Quot.sound] -/
#guard_msgs in #print axioms run

end Cert.Kernel.Frames

end
-- ==== Proof.Bits.LoopPieces.lean ====
/-
  What one trip of each of the six counted loops writes.

  Each loop runs sixteen trips, one per (batch, head) pair. A trip stores one tile into each buffer the loop
  writes: a unit-stride box at the trip's offset, holding a fixed function (a payload of the printed program)
  of the tiles the trip loaded. For the three accumulating passes one of those loads is the tile about to be
  overwritten. The lists of stored pieces are the witnesses of the trips' runs; here they are read off once,
  at the buffers the kernel is launched with, so that everything after can cite them as equations.
-/
import proofs.«900413_g7700000000000414_dist_agattn_v7x_xyz2x4x4_z_b2_s512_h8_d64_bf16_1_alg».proof.Proof.Bits.LoopsU

set_option maxRecDepth 8192

noncomputable section

namespace Cert.Kernel.LoopPieces

open Cert.Kernel Cert.Kernel.Gen Cert.Kernel.Cells Cert.Kernel.LoopsU
open Idealize.ShloMosaic Idealize.ShloMosaic.TcCoe
open Idealize.SL Idealize.SL.RA Idealize.SL.BI
open scoped Idealize.SL.BI
open Idealize.SL.Sem

variable {F : FTy → Type} [FloatOps F]
variable (𝒱 : Variants) (c : Dev nD) (bd : Option 𝒱.V)

unseal trip_k0_t1U in
/-- A trip of the first loop transposes one (batch, head) tile of the key block and of the value block: it writes tile `k0_off2 k` of the two transposed blocks from rows `k0_off1 k` of the staged key and value blocks. -/
theorem pieces_t1 (d0 : Dev nD) (v2 : BitVec 32) (v5 : BitVec 32) (v8 : BitVec 32) (c0_i32_40 : BitVec 32) (c1_i32_42 : BitVec 32) (X_arg1 : BufTy.Contents (Elt F) kM.view.ty) (X_arg2 : BufTy.Contents (Elt F) vM.view.ty) (k : Fin k0_t1_loop.trips) (f_arg5 : BufTy.Contents (Elt F) klocM.view.ty) (f_arg6 : BufTy.Contents (Elt F) vlocM.view.ty) :
    tripL_k0_t1U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0_i32_40 c1_i32_42 X_arg1 X_arg2 k f_arg5 f_arg6
      = ([⟨Rect.unit (s := S2x8x64x512) (k0_off2 k) S1x1x64x512.size (k0_off2_inb k), k0_pay1 (kM.view.readAt (Elt F) (Rect.unit (s := S2x512x8x64) (k0_off1 k) S1x512x1x64.size (k0_off1_inb k)).toLoadRect X_arg1)⟩],
       [⟨Rect.unit (s := S2x8x64x512) (k0_off2 k) S1x1x64x512.size (k0_off2_inb k), k0_pay11 (vM.view.readAt (Elt F) (Rect.unit (s := S2x512x8x64) (k0_off1 k) S1x512x1x64.size (k0_off1_inb k)).toLoadRect X_arg2)⟩]) := by
  delta tripL_k0_t1U trip_k0_t1U
  rfl

unseal trip_k0_t2U in
/-- A trip of the second loop writes tile `k0_off4 k` of the transposed query block from rows `k0_off3 k` of the staged query block. -/
theorem pieces_t2 (d0 : Dev nD) (v2 : BitVec 32) (v5 : BitVec 32) (v8 : BitVec 32) (v148 : BitVec 32) (X_arg0 : BufTy.Contents (Elt F) qM.view.ty) (k : Fin k0_t2_loop.trips) :
    tripL_k0_t2U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 X_arg0 k
      = [⟨Rect.unit (s := S2x8x512x64) (k0_off4 k) S1x1x512x64.size (k0_off4_inb k), k0_pay12 (qM.view.readAt (Elt F) (Rect.unit (s := S2x512x8x64) (k0_off3 k) S1x512x1x64.size (k0_off3_inb k)).toLoadRect X_arg0)⟩] := by
  delta tripL_k0_t2U trip_k0_t2U
  rfl

unseal trip_k0_t3U in
/-- A trip of the first pass writes tile `k0_off5 k` of the accumulator and of the running sum, from the query tile there and the device's own key and value tiles `k0_off6 k`; the scores start from the zero matrix. -/
theorem pieces_t3 (d0 : Dev nD) (v2 : BitVec 32) (v5 : BitVec 32) (v8 : BitVec 32) (v148 : BitVec 32) (q5 q6 : PosShare TreeShare) (X_arg4 : BufTy.Contents (Elt F) qtM.view.ty) (X_arg5 : BufTy.Contents (Elt F) klocM.view.ty) (X_arg6 : BufTy.Contents (Elt F) vlocM.view.ty) (k : Fin k0_t3_loop.trips) :
    tripL_k0_t3U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 q5 q6 X_arg4 X_arg5 X_arg6 k
      = ([⟨Rect.unit (s := S2x8x512x64) (k0_off5 k) S1x1x512x64.size (k0_off5_inb k), k0_pay14 (k0_pay2 (qtM.view.readAt (Elt F) (Rect.unit (s := S2x8x512x64) (k0_off5 k) S1x1x512x64.size (k0_off5_inb k)).toLoadRect X_arg4)) (k0_pay3 (klocM.view.readAt (Elt F) (Rect.unit (s := S2x8x64x512) (k0_off6 k) S1x1x64x512.size (k0_off6_inb k)).toLoadRect X_arg5)) (k0_pay4 (vlocM.view.readAt (Elt F) (Rect.unit (s := S2x8x64x512) (k0_off6 k) S1x1x64x512.size (k0_off6_inb k)).toLoadRect X_arg6)) (constant S512x512 .f32 0#32)⟩],
       [⟨Rect.unit (s := S2x8x512x64) (k0_off5 k) S1x1x512x64.size (k0_off5_inb k), k0_pay15 (k0_pay2 (qtM.view.readAt (Elt F) (Rect.unit (s := S2x8x512x64) (k0_off5 k) S1x1x512x64.size (k0_off5_inb k)).toLoadRect X_arg4)) (k0_pay3 (klocM.view.readAt (Elt F) (Rect.unit (s := S2x8x64x512) (k0_off6 k) S1x1x64x512.size (k0_off6_inb k)).toLoadRect X_arg5)) (constant S512x512 .f32 0#32)⟩]) := by
  delta tripL_k0_t3U trip_k0_t3U
  rfl

unseal trip_k0_t4U in
/-- A trip of the second pass adds to tile `k0_off7 k` of the accumulator and of the running sum what the query tile there gives against tile `k0_off8 k` of the two landing buffers; the tile it overwrites is the one it reads. -/
theorem pieces_t4 (v2 : BitVec 32) (v5 : BitVec 32) (v8 : BitVec 32) (S7 : Finset (Idx (kcomM.view.loc (c : Thread nD τ)))) (S8 : Finset (Idx (vcomM.view.loc (c : Thread nD τ)))) (h7 : ∀ k : Fin k0_t4_loop.trips, kcomM.view.setOn (Rect.unit (s := S3x2x8x64x512) (k0_off8 k) S1x1x1x64x512.size (k0_off8_inb k)).toLoadRect.set ⊆ S7) (h8 : ∀ k : Fin k0_t4_loop.trips, vcomM.view.setOn (Rect.unit (s := S3x2x8x64x512) (k0_off8 k) S1x1x1x64x512.size (k0_off8_inb k)).toLoadRect.set ⊆ S8) (X_arg4 : BufTy.Contents (Elt F) qtM.view.ty) (X_arg7 : BufTy.Contents (Elt F) kcomM.view.ty) (X_arg8 : BufTy.Contents (Elt F) vcomM.view.ty) (k : Fin k0_t4_loop.trips) (f_arg9 : BufTy.Contents (Elt F) accM.view.ty) (f_arg10 : BufTy.Contents (Elt F) lsumM.view.ty) :
    tripL_k0_t4U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 S7 S8 h7 h8 X_arg4 X_arg7 X_arg8 k f_arg9 f_arg10
      = ([⟨Rect.unit (s := S2x8x512x64) (k0_off7 k) S1x1x512x64.size (k0_off7_inb k), k0_pay17 (k0_pay5 (qtM.view.readAt (Elt F) (Rect.unit (s := S2x8x512x64) (k0_off7 k) S1x1x512x64.size (k0_off7_inb k)).toLoadRect X_arg4)) (k0_pay6 (kcomM.view.readAt (Elt F) (Rect.unit (s := S3x2x8x64x512) (k0_off8 k) S1x1x1x64x512.size (k0_off8_inb k)).toLoadRect X_arg7)) (vcomM.view.readAt (Elt F) (Rect.unit (s := S3x2x8x64x512) (k0_off8 k) S1x1x1x64x512.size (k0_off8_inb k)).toLoadRect X_arg8) (accM.view.readAt (Elt F) (Rect.unit (s := S2x8x512x64) (k0_off7 k) S1x1x512x64.size (k0_off7_inb k)).toLoadRect f_arg9)⟩],
       [⟨Rect.unit (s := S2x8x512x64) (k0_off7 k) S1x1x512x64.size (k0_off7_inb k), k0_pay18 (k0_pay5 (qtM.view.readAt (Elt F) (Rect.unit (s := S2x8x512x64) (k0_off7 k) S1x1x512x64.size (k0_off7_inb k)).toLoadRect X_arg4)) (k0_pay6 (kcomM.view.readAt (Elt F) (Rect.unit (s := S3x2x8x64x512) (k0_off8 k) S1x1x1x64x512.size (k0_off8_inb k)).toLoadRect X_arg7)) (lsumM.view.readAt (Elt F) (Rect.unit (s := S2x8x512x64) (k0_off7 k) S1x1x512x64.size (k0_off7_inb k)).toLoadRect f_arg10)⟩]) := by
  delta tripL_k0_t4U trip_k0_t4U
  rfl

unseal trip_k0_t5U in
/-- A trip of the third pass: the same, at tiles `k0_off9 k` and `k0_off10 k`. -/
theorem pieces_t5 (v2 : BitVec 32) (v5 : BitVec 32) (v8 : BitVec 32) (v209 : BitVec 32) (S7 : Finset (Idx (kcomM.view.loc (c : Thread nD τ)))) (S8 : Finset (Idx (vcomM.view.loc (c : Thread nD τ)))) (h7 : ∀ k : Fin k0_t5_loop.trips, kcomM.view.setOn (Rect.unit (s := S3x2x8x64x512) (k0_off10 k) S1x1x1x64x512.size (k0_off10_inb k)).toLoadRect.set ⊆ S7) (h8 : ∀ k : Fin k0_t5_loop.trips, vcomM.view.setOn (Rect.unit (s := S3x2x8x64x512) (k0_off10 k) S1x1x1x64x512.size (k0_off10_inb k)).toLoadRect.set ⊆ S8) (X_arg4 : BufTy.Contents (Elt F) qtM.view.ty) (X_arg7 : BufTy.Contents (Elt F) kcomM.view.ty) (X_arg8 : BufTy.Contents (Elt F) vcomM.view.ty) (k : Fin k0_t5_loop.trips) (f_arg9 : BufTy.Contents (Elt F) accM.view.ty) (f_arg10 : BufTy.Contents (Elt F) lsumM.view.ty) :
    tripL_k0_t5U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 S7 S8 h7 h8 X_arg4 X_arg7 X_arg8 k f_arg9 f_arg10
      = ([⟨Rect.unit (s := S2x8x512x64) (k0_off9 k) S1x1x512x64.size (k0_off9_inb k), k0_pay20 (k0_pay7 (qtM.view.readAt (Elt F) (Rect.unit (s := S2x8x512x64) (k0_off9 k) S1x1x512x64.size (k0_off9_inb k)).toLoadRect X_arg4)) (k0_pay8 (kcomM.view.readAt (Elt F) (Rect.unit (s := S3x2x8x64x512) (k0_off10 k) S1x1x1x64x512.size (k0_off10_inb k)).toLoadRect X_arg7)) (vcomM.view.readAt (Elt F) (Rect.unit (s := S3x2x8x64x512) (k0_off10 k) S1x1x1x64x512.size (k0_off10_inb k)).toLoadRect X_arg8) (accM.view.readAt (Elt F) (Rect.unit (s := S2x8x512x64) (k0_off9 k) S1x1x512x64.size (k0_off9_inb k)).toLoadRect f_arg9)⟩],
       [⟨Rect.unit (s := S2x8x512x64) (k0_off9 k) S1x1x512x64.size (k0_off9_inb k), k0_pay21 (k0_pay7 (qtM.view.readAt (Elt F) (Rect.unit (s := S2x8x512x64) (k0_off9 k) S1x1x512x64.size (k0_off9_inb k)).toLoadRect X_arg4)) (k0_pay8 (kcomM.view.readAt (Elt F) (Rect.unit (s := S3x2x8x64x512) (k0_off10 k) S1x1x1x64x512.size (k0_off10_inb k)).toLoadRect X_arg7)) (lsumM.view.readAt (Elt F) (Rect.unit (s := S2x8x512x64) (k0_off9 k) S1x1x512x64.size (k0_off9_inb k)).toLoadRect f_arg10)⟩]) := by
  delta tripL_k0_t5U trip_k0_t5U
  rfl

unseal trip_k0_t6U in
/-- A trip of the last pass writes rows `k0_off13 k` of the staged result from the query tile, the accumulator tile and the running-sum tile at `k0_off11 k` and tile `k0_off12 k` of the two landing buffers. -/
theorem pieces_t6 (X_arg4 : BufTy.Contents (Elt F) qtM.view.ty) (X_arg7 : BufTy.Contents (Elt F) kcomM.view.ty) (X_arg8 : BufTy.Contents (Elt F) vcomM.view.ty) (X_arg9 : BufTy.Contents (Elt F) accM.view.ty) (X_arg10 : BufTy.Contents (Elt F) lsumM.view.ty) (k : Fin k0_t6_loop.trips) :
    tripL_k0_t6U (F := F) 𝒱 c bd qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 X_arg4 X_arg7 X_arg8 X_arg9 X_arg10 k
      = [⟨Rect.unit (s := S2x512x8x64) (k0_off13 k) S1x512x1x64.size (k0_off13_inb k), k0_pay22 (k0_pay9 (qtM.view.readAt (Elt F) (Rect.unit (s := S2x8x512x64) (k0_off11 k) S1x1x512x64.size (k0_off11_inb k)).toLoadRect X_arg4)) (k0_pay10 (kcomM.view.readAt (Elt F) (Rect.unit (s := S3x2x8x64x512) (k0_off12 k) S1x1x1x64x512.size (k0_off12_inb k)).toLoadRect X_arg7)) (vcomM.view.readAt (Elt F) (Rect.unit (s := S3x2x8x64x512) (k0_off12 k) S1x1x1x64x512.size (k0_off12_inb k)).toLoadRect X_arg8) (accM.view.readAt (Elt F) (Rect.unit (s := S2x8x512x64) (k0_off11 k) S1x1x512x64.size (k0_off11_inb k)).toLoadRect X_arg9) (lsumM.view.readAt (Elt F) (Rect.unit (s := S2x8x512x64) (k0_off11 k) S1x1x512x64.size (k0_off11_inb k)).toLoadRect X_arg10)⟩] := by
  delta tripL_k0_t6U trip_k0_t6U
  rfl

/-- info: 'Cert.Kernel.LoopPieces.pieces_t1' depends on axioms: [propext, Classical.choice, Quot.sound] -/
#guard_msgs in #print axioms pieces_t1
/-- info: 'Cert.Kernel.LoopPieces.pieces_t2' depends on axioms: [propext, Classical.choice, Quot.sound] -/
#guard_msgs in #print axioms pieces_t2
/-- info: 'Cert.Kernel.LoopPieces.pieces_t3' depends on axioms: [propext, Classical.choice, Quot.sound] -/
#guard_msgs in #print axioms pieces_t3
/-- info: 'Cert.Kernel.LoopPieces.pieces_t4' depends on axioms: [propext, Classical.choice, Quot.sound] -/
#guard_msgs in #print axioms pieces_t4
/-- info: 'Cert.Kernel.LoopPieces.pieces_t5' depends on axioms: [propext, Classical.choice, Quot.sound] -/
#guard_msgs in #print axioms pieces_t5
/-- info: 'Cert.Kernel.LoopPieces.pieces_t6' depends on axioms: [propext, Classical.choice, Quot.sound] -/
#guard_msgs in #print axioms pieces_t6

end Cert.Kernel.LoopPieces

end
-- ==== Proof.Bits.Values.lean ====
/-
  The contents by name.

  Every buffer the kernel fills is filled tile by tile, one tile per trip of a sixteen-trip loop, so what a
  loop leaves in a buffer is the overlay of its sixteen tiles: tile k sits at the offset the program gives
  trip k and holds the program's own function of the tiles the trip loaded. The definitions below name, for
  each device, in the order the kernel computes them: the transposed key and value blocks; the scaled query
  block; the accumulator and the running sum after the pass over the device's own keys; the two landing
  buffers once the three peers' blocks have arrived (slot r holds the r-th peer's transposed block); the
  accumulator and the running sum after the passes over slot 0 and over slot 1; and the result block, which
  the last pass, over slot 2, divides out.
  Then: each loop, run from the named contents before it, leaves the named contents after it; and each
  landing puts on its slot what the landing buffer is named to hold there.
-/
import proofs.«900413_g7700000000000414_dist_agattn_v7x_xyz2x4x4_z_b2_s512_h8_d64_bf16_1_alg».proof.Proof.Bits.LoopFacts
import proofs.«900413_g7700000000000414_dist_agattn_v7x_xyz2x4x4_z_b2_s512_h8_d64_bf16_1_alg».proof.Proof.Bits.LoopPieces
import proofs.«900413_g7700000000000414_dist_agattn_v7x_xyz2x4x4_z_b2_s512_h8_d64_bf16_1_alg».proof.Proof.Bits.Slots
import Idealize.ShloMosaic.Lib.Pipeline.FrameBody
import Idealize.ShloMosaic.Lib.Pipeline.Value

set_option maxRecDepth 8192

noncomputable section

namespace Cert.Kernel.Values

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Cells Cert.Kernel.Sched Cert.Kernel.State Cert.Kernel.LoopsU

variable {F : FTy → Type} [FloatOps F]

local notation "𝕄" => MT nD τ sig Unit (Elt F) ℕ UU ℕ

variable (m : (ℓ : Loc nD τ sig) → Buf (Elt F) ℓ) (ρ : Dev nD → PrngReg)

/-! ## The tiles of a loop, last trip first -/

/-- The first `j` of `n` things, the last of them first. -/
def upTo {α : Type} {n : ℕ} (p : Fin n → α) : (j : ℕ) → j ≤ n → List α
  | 0, _ => []
  | j + 1, h => p ⟨j, h⟩ :: upTo p j (Nat.le_of_succ_le h)

/-- All `n` of them. -/
def tiles {α : Type} {n : ℕ} (p : Fin n → α) : List α := upTo p n (Nat.le_refl n)

theorem mem_upTo {α : Type} {n : ℕ} (p : Fin n → α) (x : α) : ∀ (j : ℕ) (h : j ≤ n), x ∈ upTo p j h ↔ ∃ k : Fin n, k.val < j ∧ x = p k
  | 0, _ => by simp [upTo]
  | j + 1, h => by
    rw [upTo, List.mem_cons, mem_upTo p x j (Nat.le_of_succ_le h)]
    constructor
    · rintro (rfl | ⟨k, hk, rfl⟩)
      · exact ⟨⟨j, h⟩, Nat.lt_succ_self j, rfl⟩
      · exact ⟨k, Nat.lt_succ_of_lt hk, rfl⟩
    · rintro ⟨k, hk, rfl⟩
      rcases Nat.lt_succ_iff_lt_or_eq.mp hk with hk' | hk'
      · exact .inr ⟨k, hk', rfl⟩
      · exact .inl (congrArg p (Fin.ext hk'))

theorem mem_tiles {α : Type} {n : ℕ} (p : Fin n → α) (x : α) : x ∈ tiles p ↔ ∃ k : Fin n, x = p k := by
  unfold tiles; rw [mem_upTo]
  exact ⟨fun ⟨k, _, h⟩ => ⟨k, h⟩, fun ⟨k, h⟩ => ⟨k, k.isLt, h⟩⟩

/-! ## Loop 1: the transposed key and value blocks -/

def kPiece (c : Dev nD) (k : Fin k0_t1_loop.trips) : View.Piece (Elt F) S2x8x64x512 .bf16 :=
  ⟨Rect.unit (s := S2x8x64x512) (k0_off2 k) S1x1x64x512.size (k0_off2_inb k), k0_pay1 (kM.view.readAt (Elt F) (Rect.unit (s := S2x512x8x64) (k0_off1 k) S1x512x1x64.size (k0_off1_inb k)).toLoadRect (Kst m ρ c))⟩
def vPiece (c : Dev nD) (k : Fin k0_t1_loop.trips) : View.Piece (Elt F) S2x8x64x512 .bf16 :=
  ⟨Rect.unit (s := S2x8x64x512) (k0_off2 k) S1x1x64x512.size (k0_off2_inb k), k0_pay11 (vM.view.readAt (Elt F) (Rect.unit (s := S2x512x8x64) (k0_off1 k) S1x512x1x64.size (k0_off1_inb k)).toLoadRect (Vst m ρ c))⟩

def kT (c : Dev nD) : Buf (Elt F) ((klocM : Memref sig .tc .vmem S2x8x64x512 .bf16).view.loc (c : Thread nD τ)) := View.canon (tiles (kPiece m ρ c))
def vT (c : Dev nD) : Buf (Elt F) ((vlocM : Memref sig .tc .vmem S2x8x64x512 .bf16).view.loc (c : Thread nD τ)) := View.canon (tiles (vPiece m ρ c))

/-! ## Loop 2: the scaled query block -/

def qPiece (c : Dev nD) (k : Fin k0_t2_loop.trips) : View.Piece (Elt F) S2x8x512x64 .bf16 :=
  ⟨Rect.unit (s := S2x8x512x64) (k0_off4 k) S1x1x512x64.size (k0_off4_inb k), k0_pay12 (qM.view.readAt (Elt F) (Rect.unit (s := S2x512x8x64) (k0_off3 k) S1x512x1x64.size (k0_off3_inb k)).toLoadRect (Qst m ρ c))⟩

def qT (c : Dev nD) : Buf (Elt F) ((c : Thread nD τ).loc cc0_scratch0) := View.canon (tiles (qPiece m ρ c))

/-! ## Loop 3: the pass over the device's own keys -/

def a0Piece (c : Dev nD) (k : Fin k0_t3_loop.trips) : View.Piece (Elt F) S2x8x512x64 .f32 :=
  ⟨Rect.unit (s := S2x8x512x64) (k0_off5 k) S1x1x512x64.size (k0_off5_inb k), k0_pay14 (k0_pay2 (qtM.view.readAt (Elt F) (Rect.unit (s := S2x8x512x64) (k0_off5 k) S1x1x512x64.size (k0_off5_inb k)).toLoadRect (qT m ρ c))) (k0_pay3 (klocM.view.readAt (Elt F) (Rect.unit (s := S2x8x64x512) (k0_off6 k) S1x1x64x512.size (k0_off6_inb k)).toLoadRect (kT m ρ c))) (k0_pay4 (vlocM.view.readAt (Elt F) (Rect.unit (s := S2x8x64x512) (k0_off6 k) S1x1x64x512.size (k0_off6_inb k)).toLoadRect (vT m ρ c))) (constant S512x512 .f32 0#32)⟩
def l0Piece (c : Dev nD) (k : Fin k0_t3_loop.trips) : View.Piece (Elt F) S2x8x512x64 .f32 :=
  ⟨Rect.unit (s := S2x8x512x64) (k0_off5 k) S1x1x512x64.size (k0_off5_inb k), k0_pay15 (k0_pay2 (qtM.view.readAt (Elt F) (Rect.unit (s := S2x8x512x64) (k0_off5 k) S1x1x512x64.size (k0_off5_inb k)).toLoadRect (qT m ρ c))) (k0_pay3 (klocM.view.readAt (Elt F) (Rect.unit (s := S2x8x64x512) (k0_off6 k) S1x1x64x512.size (k0_off6_inb k)).toLoadRect (kT m ρ c))) (constant S512x512 .f32 0#32)⟩

def a0 (c : Dev nD) : Buf (Elt F) ((c : Thread nD τ).loc cc0_scratch5) := View.canon (tiles (a0Piece m ρ c))
def l0 (c : Dev nD) : Buf (Elt F) ((c : Thread nD τ).loc cc0_scratch6) := View.canon (tiles (l0Piece m ρ c))

/-! ## The landing buffers once full: slot r holds the r-th peer's transposed block -/

def kC (c : Dev nD) : Buf (Elt F) ((kcomM : Memref sig .tc .vmem S3x2x8x64x512 .bf16).view.loc (c : Thread nD τ)) :=
  (kslot0 : Memref sig .tc .vmem S2x8x64x512 .bf16).view.write (Elt F)
    ((kslot1 : Memref sig .tc .vmem S2x8x64x512 .bf16).view.write (Elt F)
      ((kslot2 : Memref sig .tc .vmem S2x8x64x512 .bf16).view.write (Elt F) (fun _ => Classical.arbitrary _)
        ((klocM : Memref sig .tc .vmem S2x8x64x512 .bf16).view.read (Elt F) (kT m ρ (peer 2 c))) Finset.univ)
      ((klocM : Memref sig .tc .vmem S2x8x64x512 .bf16).view.read (Elt F) (kT m ρ (peer 1 c))) Finset.univ)
    ((klocM : Memref sig .tc .vmem S2x8x64x512 .bf16).view.read (Elt F) (kT m ρ (peer 0 c))) Finset.univ
def vC (c : Dev nD) : Buf (Elt F) ((vcomM : Memref sig .tc .vmem S3x2x8x64x512 .bf16).view.loc (c : Thread nD τ)) :=
  (vslot0 : Memref sig .tc .vmem S2x8x64x512 .bf16).view.write (Elt F)
    ((vslot1 : Memref sig .tc .vmem S2x8x64x512 .bf16).view.write (Elt F)
      ((vslot2 : Memref sig .tc .vmem S2x8x64x512 .bf16).view.write (Elt F) (fun _ => Classical.arbitrary _)
        ((vlocM : Memref sig .tc .vmem S2x8x64x512 .bf16).view.read (Elt F) (vT m ρ (peer 2 c))) Finset.univ)
      ((vlocM : Memref sig .tc .vmem S2x8x64x512 .bf16).view.read (Elt F) (vT m ρ (peer 1 c))) Finset.univ)
    ((vlocM : Memref sig .tc .vmem S2x8x64x512 .bf16).view.read (Elt F) (vT m ρ (peer 0 c))) Finset.univ

/-! ## Loops 4 and 5: the passes over slot 0 and over slot 1 -/

def a1Piece (c : Dev nD) (k : Fin k0_t4_loop.trips) : View.Piece (Elt F) S2x8x512x64 .f32 :=
  ⟨Rect.unit (s := S2x8x512x64) (k0_off7 k) S1x1x512x64.size (k0_off7_inb k), k0_pay17 (k0_pay5 (qtM.view.readAt (Elt F) (Rect.unit (s := S2x8x512x64) (k0_off7 k) S1x1x512x64.size (k0_off7_inb k)).toLoadRect (qT m ρ c))) (k0_pay6 (kcomM.view.readAt (Elt F) (Rect.unit (s := S3x2x8x64x512) (k0_off8 k) S1x1x1x64x512.size (k0_off8_inb k)).toLoadRect (kC m ρ c))) (vcomM.view.readAt (Elt F) (Rect.unit (s := S3x2x8x64x512) (k0_off8 k) S1x1x1x64x512.size (k0_off8_inb k)).toLoadRect (vC m ρ c)) (accM.view.readAt (Elt F) (Rect.unit (s := S2x8x512x64) (k0_off7 k) S1x1x512x64.size (k0_off7_inb k)).toLoadRect (a0 m ρ c))⟩
def l1Piece (c : Dev nD) (k : Fin k0_t4_loop.trips) : View.Piece (Elt F) S2x8x512x64 .f32 :=
  ⟨Rect.unit (s := S2x8x512x64) (k0_off7 k) S1x1x512x64.size (k0_off7_inb k), k0_pay18 (k0_pay5 (qtM.view.readAt (Elt F) (Rect.unit (s := S2x8x512x64) (k0_off7 k) S1x1x512x64.size (k0_off7_inb k)).toLoadRect (qT m ρ c))) (k0_pay6 (kcomM.view.readAt (Elt F) (Rect.unit (s := S3x2x8x64x512) (k0_off8 k) S1x1x1x64x512.size (k0_off8_inb k)).toLoadRect (kC m ρ c))) (lsumM.view.readAt (Elt F) (Rect.unit (s := S2x8x512x64) (k0_off7 k) S1x1x512x64.size (k0_off7_inb k)).toLoadRect (l0 m ρ c))⟩

def a1 (c : Dev nD) : Buf (Elt F) ((c : Thread nD τ).loc cc0_scratch5) := View.canon (tiles (a1Piece m ρ c))
def l1 (c : Dev nD) : Buf (Elt F) ((c : Thread nD τ).loc cc0_scratch6) := View.canon (tiles (l1Piece m ρ c))

def a2Piece (c : Dev nD) (k : Fin k0_t5_loop.trips) : View.Piece (Elt F) S2x8x512x64 .f32 :=
  ⟨Rect.unit (s := S2x8x512x64) (k0_off9 k) S1x1x512x64.size (k0_off9_inb k), k0_pay20 (k0_pay7 (qtM.view.readAt (Elt F) (Rect.unit (s := S2x8x512x64) (k0_off9 k) S1x1x512x64.size (k0_off9_inb k)).toLoadRect (qT m ρ c))) (k0_pay8 (kcomM.view.readAt (Elt F) (Rect.unit (s := S3x2x8x64x512) (k0_off10 k) S1x1x1x64x512.size (k0_off10_inb k)).toLoadRect (kC m ρ c))) (vcomM.view.readAt (Elt F) (Rect.unit (s := S3x2x8x64x512) (k0_off10 k) S1x1x1x64x512.size (k0_off10_inb k)).toLoadRect (vC m ρ c)) (accM.view.readAt (Elt F) (Rect.unit (s := S2x8x512x64) (k0_off9 k) S1x1x512x64.size (k0_off9_inb k)).toLoadRect (a1 m ρ c))⟩
def l2Piece (c : Dev nD) (k : Fin k0_t5_loop.trips) : View.Piece (Elt F) S2x8x512x64 .f32 :=
  ⟨Rect.unit (s := S2x8x512x64) (k0_off9 k) S1x1x512x64.size (k0_off9_inb k), k0_pay21 (k0_pay7 (qtM.view.readAt (Elt F) (Rect.unit (s := S2x8x512x64) (k0_off9 k) S1x1x512x64.size (k0_off9_inb k)).toLoadRect (qT m ρ c))) (k0_pay8 (kcomM.view.readAt (Elt F) (Rect.unit (s := S3x2x8x64x512) (k0_off10 k) S1x1x1x64x512.size (k0_off10_inb k)).toLoadRect (kC m ρ c))) (lsumM.view.readAt (Elt F) (Rect.unit (s := S2x8x512x64) (k0_off9 k) S1x1x512x64.size (k0_off9_inb k)).toLoadRect (l1 m ρ c))⟩

def a2 (c : Dev nD) : Buf (Elt F) ((c : Thread nD τ).loc cc0_scratch5) := View.canon (tiles (a2Piece m ρ c))
def l2 (c : Dev nD) : Buf (Elt F) ((c : Thread nD τ).loc cc0_scratch6) := View.canon (tiles (l2Piece m ρ c))

/-! ## Loop 6: the pass over slot 2, and the quotient -/

def oPiece (c : Dev nD) (k : Fin k0_t6_loop.trips) : View.Piece (Elt F) S2x512x8x64 .f32 :=
  ⟨Rect.unit (s := S2x512x8x64) (k0_off13 k) S1x512x1x64.size (k0_off13_inb k), k0_pay22 (k0_pay9 (qtM.view.readAt (Elt F) (Rect.unit (s := S2x8x512x64) (k0_off11 k) S1x1x512x64.size (k0_off11_inb k)).toLoadRect (qT m ρ c))) (k0_pay10 (kcomM.view.readAt (Elt F) (Rect.unit (s := S3x2x8x64x512) (k0_off12 k) S1x1x1x64x512.size (k0_off12_inb k)).toLoadRect (kC m ρ c))) (vcomM.view.readAt (Elt F) (Rect.unit (s := S3x2x8x64x512) (k0_off12 k) S1x1x1x64x512.size (k0_off12_inb k)).toLoadRect (vC m ρ c)) (accM.view.readAt (Elt F) (Rect.unit (s := S2x8x512x64) (k0_off11 k) S1x1x512x64.size (k0_off11_inb k)).toLoadRect (a2 m ρ c)) (lsumM.view.readAt (Elt F) (Rect.unit (s := S2x8x512x64) (k0_off11 k) S1x1x512x64.size (k0_off11_inb k)).toLoadRect (l2 m ρ c))⟩

def outV (c : Dev nD) : (cc0_stg3_0 : Ref sig .tc).ty.Contents (Elt F) := View.canon (tiles (oPiece m ρ c))

end Cert.Kernel.Values

end
-- ==== Proof.Bits.ValLandings.lean ====
/-
  The landings.

  A landing buffer is named, slot by slot, as the three peers' transposed blocks written over arbitrary
  contents. The slots are disjoint, so on slot r's elements the buffer holds the r-th peer's block whatever
  the other two writes did; and copy j of a device lands in slot 2 - j of its j-th peer, whose (2 - j)-th
  peer is the device itself.
-/
import proofs.«900413_g7700000000000414_dist_agattn_v7x_xyz2x4x4_z_b2_s512_h8_d64_bf16_1_alg».proof.Proof.Bits.Values
import proofs.«900413_g7700000000000414_dist_agattn_v7x_xyz2x4x4_z_b2_s512_h8_d64_bf16_1_alg».proof.Proof.Bits.LoopFacts
import proofs.«900413_g7700000000000414_dist_agattn_v7x_xyz2x4x4_z_b2_s512_h8_d64_bf16_1_alg».proof.Proof.Bits.Slots

set_option maxRecDepth 8192

noncomputable section

namespace Cert.Kernel.ValLandings

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Cells Cert.Kernel.Sched Cert.Kernel.State Cert.Kernel.LoopsU Cert.Kernel.Values

variable {F : FTy → Type} [FloatOps F]

local notation "𝕄" => MT nD τ sig Unit (Elt F) ℕ UU ℕ

variable (m : (ℓ : Loc nD τ sig) → Buf (Elt F) ℓ) (ρ : Dev nD → PrngReg)

theorem kC_on0 (c : Dev nD) (fd : Buf (Elt F) ((kslot0 : Memref sig .tc .vmem S2x8x64x512 .bf16).view.loc (c : Thread nD τ))) (i) (hi : i ∈ (kslot0 : Memref sig .tc .vmem S2x8x64x512 .bf16).view.set) :
    kC m ρ c i = (kslot0 : Memref sig .tc .vmem S2x8x64x512 .bf16).view.write (Elt F) fd ((klocM : Memref sig .tc .vmem S2x8x64x512 .bf16).view.read (Elt F) (kT m ρ (peer 0 c))) Finset.univ i := by
  obtain ⟨y, rfl⟩ := View.exists_emb_of_mem_set _ hi
  unfold kC
  rw [View.write_emb_of_mem _ _ (Finset.mem_univ y), View.write_emb_of_mem _ _ (Finset.mem_univ y)]

theorem kC_on1 (c : Dev nD) (fd : Buf (Elt F) ((kslot1 : Memref sig .tc .vmem S2x8x64x512 .bf16).view.loc (c : Thread nD τ))) (i) (hi : i ∈ (kslot1 : Memref sig .tc .vmem S2x8x64x512 .bf16).view.set) :
    kC m ρ c i = (kslot1 : Memref sig .tc .vmem S2x8x64x512 .bf16).view.write (Elt F) fd ((klocM : Memref sig .tc .vmem S2x8x64x512 .bf16).view.read (Elt F) (kT m ρ (peer 1 c))) Finset.univ i := by
  have h0 : i ∉ (kslot0 : Memref sig .tc .vmem S2x8x64x512 .bf16).view.setOn Finset.univ := by
    rw [View.setOn_univ, Slots.k0set]; rw [Slots.k1set] at hi; exact Finset.disjoint_right.mp Slots.d01 hi
  unfold kC
  rw [View.write_of_not_mem _ _ _ h0]
  obtain ⟨y, rfl⟩ := View.exists_emb_of_mem_set _ hi
  rw [View.write_emb_of_mem _ _ (Finset.mem_univ y), View.write_emb_of_mem _ _ (Finset.mem_univ y)]

theorem kC_on2 (c : Dev nD) (fd : Buf (Elt F) ((kslot2 : Memref sig .tc .vmem S2x8x64x512 .bf16).view.loc (c : Thread nD τ))) (i) (hi : i ∈ (kslot2 : Memref sig .tc .vmem S2x8x64x512 .bf16).view.set) :
    kC m ρ c i = (kslot2 : Memref sig .tc .vmem S2x8x64x512 .bf16).view.write (Elt F) fd ((klocM : Memref sig .tc .vmem S2x8x64x512 .bf16).view.read (Elt F) (kT m ρ (peer 2 c))) Finset.univ i := by
  have h0 : i ∉ (kslot0 : Memref sig .tc .vmem S2x8x64x512 .bf16).view.setOn Finset.univ := by
    rw [View.setOn_univ, Slots.k0set]; rw [Slots.k2set] at hi; exact Finset.disjoint_right.mp Slots.d02 hi
  have h1 : i ∉ (kslot1 : Memref sig .tc .vmem S2x8x64x512 .bf16).view.setOn Finset.univ := by
    rw [View.setOn_univ, Slots.k1set]; rw [Slots.k2set] at hi; exact Finset.disjoint_right.mp Slots.d12 hi
  unfold kC
  rw [View.write_of_not_mem _ _ _ h0, View.write_of_not_mem _ _ _ h1]
  obtain ⟨y, rfl⟩ := View.exists_emb_of_mem_set _ hi
  rw [View.write_emb_of_mem _ _ (Finset.mem_univ y), View.write_emb_of_mem _ _ (Finset.mem_univ y)]

theorem vC_on0 (c : Dev nD) (fd : Buf (Elt F) ((vslot0 : Memref sig .tc .vmem S2x8x64x512 .bf16).view.loc (c : Thread nD τ))) (i) (hi : i ∈ (vslot0 : Memref sig .tc .vmem S2x8x64x512 .bf16).view.set) :
    vC m ρ c i = (vslot0 : Memref sig .tc .vmem S2x8x64x512 .bf16).view.write (Elt F) fd ((vlocM : Memref sig .tc .vmem S2x8x64x512 .bf16).view.read (Elt F) (vT m ρ (peer 0 c))) Finset.univ i := by
  obtain ⟨y, rfl⟩ := View.exists_emb_of_mem_set _ hi
  unfold vC
  rw [View.write_emb_of_mem _ _ (Finset.mem_univ y), View.write_emb_of_mem _ _ (Finset.mem_univ y)]

theorem vC_on1 (c : Dev nD) (fd : Buf (Elt F) ((vslot1 : Memref sig .tc .vmem S2x8x64x512 .bf16).view.loc (c : Thread nD τ))) (i) (hi : i ∈ (vslot1 : Memref sig .tc .vmem S2x8x64x512 .bf16).view.set) :
    vC m ρ c i = (vslot1 : Memref sig .tc .vmem S2x8x64x512 .bf16).view.write (Elt F) fd ((vlocM : Memref sig .tc .vmem S2x8x64x512 .bf16).view.read (Elt F) (vT m ρ (peer 1 c))) Finset.univ i := by
  have h0 : i ∉ (vslot0 : Memref sig .tc .vmem S2x8x64x512 .bf16).view.setOn Finset.univ := by
    rw [View.setOn_univ, Slots.v0set]; rw [Slots.v1set] at hi; exact Finset.disjoint_right.mp Slots.d01 hi
  unfold vC
  rw [View.write_of_not_mem _ _ _ h0]
  obtain ⟨y, rfl⟩ := View.exists_emb_of_mem_set _ hi
  rw [View.write_emb_of_mem _ _ (Finset.mem_univ y), View.write_emb_of_mem _ _ (Finset.mem_univ y)]

theorem vC_on2 (c : Dev nD) (fd : Buf (Elt F) ((vslot2 : Memref sig .tc .vmem S2x8x64x512 .bf16).view.loc (c : Thread nD τ))) (i) (hi : i ∈ (vslot2 : Memref sig .tc .vmem S2x8x64x512 .bf16).view.set) :
    vC m ρ c i = (vslot2 : Memref sig .tc .vmem S2x8x64x512 .bf16).view.write (Elt F) fd ((vlocM : Memref sig .tc .vmem S2x8x64x512 .bf16).view.read (Elt F) (vT m ρ (peer 2 c))) Finset.univ i := by
  have h0 : i ∉ (vslot0 : Memref sig .tc .vmem S2x8x64x512 .bf16).view.setOn Finset.univ := by
    rw [View.setOn_univ, Slots.v0set]; rw [Slots.v2set] at hi; exact Finset.disjoint_right.mp Slots.d02 hi
  have h1 : i ∉ (vslot1 : Memref sig .tc .vmem S2x8x64x512 .bf16).view.setOn Finset.univ := by
    rw [View.setOn_univ, Slots.v1set]; rw [Slots.v2set] at hi; exact Finset.disjoint_right.mp Slots.d12 hi
  unfold vC
  rw [View.write_of_not_mem _ _ _ h0, View.write_of_not_mem _ _ _ h1]
  obtain ⟨y, rfl⟩ := View.exists_emb_of_mem_set _ hi
  rw [View.write_emb_of_mem _ _ (Finset.mem_univ y), View.write_emb_of_mem _ _ (Finset.mem_univ y)]

/-- Copy j of device `c` lands in slot 2 - j of its j-th peer, whose (2 - j)-th peer is `c`. -/
theorem landings : LoopFacts.Landings (kT m ρ) (vT m ρ) (kC m ρ) (vC m ρ) where
  k0 c fd i hi := by rw [kC_on2 m ρ (peer 0 c) fd i hi, show peer 2 (peer 0 c) = c from peer_back_peer 0 c]
  v0 c fd i hi := by rw [vC_on2 m ρ (peer 0 c) fd i hi, show peer 2 (peer 0 c) = c from peer_back_peer 0 c]
  k1 c fd i hi := by rw [kC_on1 m ρ (peer 1 c) fd i hi, show peer 1 (peer 1 c) = c from peer_back_peer 1 c]
  v1 c fd i hi := by rw [vC_on1 m ρ (peer 1 c) fd i hi, show peer 1 (peer 1 c) = c from peer_back_peer 1 c]
  k2 c fd i hi := by rw [kC_on0 m ρ (peer 2 c) fd i hi, show peer 0 (peer 2 c) = c from peer_back_peer 2 c]
  v2 c fd i hi := by rw [vC_on0 m ρ (peer 2 c) fd i hi, show peer 0 (peer 2 c) = c from peer_back_peer 2 c]

/-- info: 'Cert.Kernel.ValLandings.landings' depends on axioms: [propext, Classical.choice, Quot.sound] -/
#guard_msgs in #print axioms landings

end Cert.Kernel.ValLandings

end
-- ==== Proof.Bits.ValCommon.lean ====
/-
  Tools for the loops' value facts.

  A loop's sixteen tiles tile the buffer it fills: they cover it, and tiles of different trips are disjoint
  (trip k's tile is the unit-thick box at batch k / 8 and head k % 8). So a whole buffer written tile by tile
  holds the overlay of the tiles whatever it held before, and a trip that reads the tile it is about to
  overwrite reads what the buffer held before the loop.
-/
import proofs.«900413_g7700000000000414_dist_agattn_v7x_xyz2x4x4_z_b2_s512_h8_d64_bf16_1_alg».proof.Proof.Bits.Values
import Idealize.ShloMosaic.Lib.Ring
import Idealize.ShloMosaic.Lib.Tactic

set_option maxRecDepth 8192

noncomputable section

namespace Cert.Kernel.ValCommon

open Cert.Kernel Cert.Kernel.Gen Cert.Kernel.Mesh
open Idealize.ShloMosaic
open Idealize.ShloMosaic.TcCoe
open Idealize.SL Idealize.SL.RA Idealize.SL.BI
open scoped Idealize.SL.BI
open Idealize.SL.Sem
open Cert.Kernel.Cells Cert.Kernel.Values

variable {F : FTy → Type} [FloatOps F]

/-! ## The tiles the loops store, by loop -/

abbrev R2 (k : Fin k0_t1_loop.trips) : Rect S2x8x64x512 := Rect.unit (s := S2x8x64x512) (k0_off2 k) S1x1x64x512.size (k0_off2_inb k)
abbrev R4 (k : Fin k0_t2_loop.trips) : Rect S2x8x512x64 := Rect.unit (s := S2x8x512x64) (k0_off4 k) S1x1x512x64.size (k0_off4_inb k)
abbrev R5 (k : Fin k0_t3_loop.trips) : Rect S2x8x512x64 := Rect.unit (s := S2x8x512x64) (k0_off5 k) S1x1x512x64.size (k0_off5_inb k)
abbrev R7 (k : Fin k0_t4_loop.trips) : Rect S2x8x512x64 := Rect.unit (s := S2x8x512x64) (k0_off7 k) S1x1x512x64.size (k0_off7_inb k)
abbrev R9 (k : Fin k0_t5_loop.trips) : Rect S2x8x512x64 := Rect.unit (s := S2x8x512x64) (k0_off9 k) S1x1x512x64.size (k0_off9_inb k)
abbrev R13 (k : Fin k0_t6_loop.trips) : Rect S2x512x8x64 := Rect.unit (s := S2x512x8x64) (k0_off13 k) S1x512x1x64.size (k0_off13_inb k)

/-! ## They cover -/

theorem cover2 {e : EltTy} (w : (k : Fin k0_t1_loop.trips) → (R2 k).shape.Idx → Elt F e) :
    ∀ y, ∃ q ∈ tiles (fun k => (⟨R2 k, w k⟩ : View.Piece (Elt F) S2x8x64x512 e)), y ∈ q.1.set :=
  View.cover_of_tiledL _ S1x1x64x512.size (by sl_kernel_rfl)
theorem cover4 {e : EltTy} (w : (k : Fin k0_t2_loop.trips) → (R4 k).shape.Idx → Elt F e) :
    ∀ y, ∃ q ∈ tiles (fun k => (⟨R4 k, w k⟩ : View.Piece (Elt F) S2x8x512x64 e)), y ∈ q.1.set :=
  View.cover_of_tiledL _ S1x1x512x64.size (by sl_kernel_rfl)
theorem cover5 {e : EltTy} (w : (k : Fin k0_t3_loop.trips) → (R5 k).shape.Idx → Elt F e) :
    ∀ y, ∃ q ∈ tiles (fun k => (⟨R5 k, w k⟩ : View.Piece (Elt F) S2x8x512x64 e)), y ∈ q.1.set :=
  View.cover_of_tiledL _ S1x1x512x64.size (by sl_kernel_rfl)
theorem cover7 {e : EltTy} (w : (k : Fin k0_t4_loop.trips) → (R7 k).shape.Idx → Elt F e) :
    ∀ y, ∃ q ∈ tiles (fun k => (⟨R7 k, w k⟩ : View.Piece (Elt F) S2x8x512x64 e)), y ∈ q.1.set :=
  View.cover_of_tiledL _ S1x1x512x64.size (by sl_kernel_rfl)
theorem cover9 {e : EltTy} (w : (k : Fin k0_t5_loop.trips) → (R9 k).shape.Idx → Elt F e) :
    ∀ y, ∃ q ∈ tiles (fun k => (⟨R9 k, w k⟩ : View.Piece (Elt F) S2x8x512x64 e)), y ∈ q.1.set :=
  View.cover_of_tiledL _ S1x1x512x64.size (by sl_kernel_rfl)
theorem cover13 {e : EltTy} (w : (k : Fin k0_t6_loop.trips) → (R13 k).shape.Idx → Elt F e) :
    ∀ y, ∃ q ∈ tiles (fun k => (⟨R13 k, w k⟩ : View.Piece (Elt F) S2x512x8x64 e)), y ∈ q.1.set :=
  View.cover_of_tiledL _ S1x512x1x64.size (by sl_kernel_rfl)

/-! ## Tiles of different trips are disjoint (the two passes that read what they overwrite) -/

theorem sep7 : ∀ k k' : Fin k0_t4_loop.trips, k ≠ k' →
    (k0_off7 k ⟨0, by decide⟩ + S1x1x512x64.size ⟨0, by decide⟩ ≤ k0_off7 k' ⟨0, by decide⟩ ∨ k0_off7 k' ⟨0, by decide⟩ + S1x1x512x64.size ⟨0, by decide⟩ ≤ k0_off7 k ⟨0, by decide⟩)
    ∨ (k0_off7 k ⟨1, by decide⟩ + S1x1x512x64.size ⟨1, by decide⟩ ≤ k0_off7 k' ⟨1, by decide⟩ ∨ k0_off7 k' ⟨1, by decide⟩ + S1x1x512x64.size ⟨1, by decide⟩ ≤ k0_off7 k ⟨1, by decide⟩) := by
  decide +kernel
theorem sep9 : ∀ k k' : Fin k0_t5_loop.trips, k ≠ k' →
    (k0_off9 k ⟨0, by decide⟩ + S1x1x512x64.size ⟨0, by decide⟩ ≤ k0_off9 k' ⟨0, by decide⟩ ∨ k0_off9 k' ⟨0, by decide⟩ + S1x1x512x64.size ⟨0, by decide⟩ ≤ k0_off9 k ⟨0, by decide⟩)
    ∨ (k0_off9 k ⟨1, by decide⟩ + S1x1x512x64.size ⟨1, by decide⟩ ≤ k0_off9 k' ⟨1, by decide⟩ ∨ k0_off9 k' ⟨1, by decide⟩ + S1x1x512x64.size ⟨1, by decide⟩ ≤ k0_off9 k ⟨1, by decide⟩) := by
  decide +kernel

theorem disjoint7 {k k' : Fin k0_t4_loop.trips} (h : k ≠ k') : Disjoint (R7 k).set (R7 k').set := by
  rcases sep7 k k' h with h0 | h1
  · exact Rect.unit_disjoint ⟨0, by decide⟩ h0
  · exact Rect.unit_disjoint ⟨1, by decide⟩ h1
theorem disjoint9 {k k' : Fin k0_t5_loop.trips} (h : k ≠ k') : Disjoint (R9 k).set (R9 k').set := by
  rcases sep9 k k' h with h0 | h1
  · exact Rect.unit_disjoint ⟨0, by decide⟩ h0
  · exact Rect.unit_disjoint ⟨1, by decide⟩ h1

/-! ## A whole buffer written over a cover holds the overlay -/

/-- For a whole buffer the contents are what a read of them gives, so the writes of a covering list of pieces
    over ANY contents are the overlay of the pieces. -/
theorem whole_writes_eq_canon (b : Ref sig .tc) (G : b.ty.Contents (Elt F)) (L : List (View.Piece (Elt F) b.ty.shape b.ty.elt))
    (h : ∀ y, ∃ q ∈ L, y ∈ q.1.set) : (View.whole b).writes (Elt F) G L = View.canon L :=
  View.read_writes_eq_canon (View.whole b) G L h

/-- The contents a list of pieces leaves at an index none of them holds are the contents before. -/
theorem whole_writes_apply_of_not_mem (b : Ref sig .tc) (G : b.ty.Contents (Elt F)) (L : List (View.Piece (Elt F) b.ty.shape b.ty.elt))
    (y : b.ty.shape.Idx) (h : ∀ q ∈ L, y ∉ q.1.set) : (View.whole b).writes (Elt F) G L y = G y :=
  View.read_writes_apply_of_forall_not_mem (View.whole b) G y L h

/-- info: 'Cert.Kernel.ValCommon.cover2' depends on axioms: [propext, Classical.choice, Quot.sound] -/
#guard_msgs in #print axioms cover2
/-- info: 'Cert.Kernel.ValCommon.disjoint7' depends on axioms: [propext, Classical.choice, Quot.sound] -/
#guard_msgs in #print axioms disjoint7

end Cert.Kernel.ValCommon

end
-- ==== Proof.Bits.ValLoop1.lean ====
/-
  Loop 1: the transposed key and value blocks.

  Trip k writes tile k of the two transposed blocks from rows of the staged key and value blocks, which the
  loop does not change; so after j trips the pieces written are the first j tiles, and after all sixteen the
  two buffers hold the overlay of their sixteen tiles, whatever they held on entry.
-/
import proofs.«900413_g7700000000000414_dist_agattn_v7x_xyz2x4x4_z_b2_s512_h8_d64_bf16_1_alg».proof.Proof.Bits.Values
import proofs.«900413_g7700000000000414_dist_agattn_v7x_xyz2x4x4_z_b2_s512_h8_d64_bf16_1_alg».proof.Proof.Bits.ValCommon
import proofs.«900413_g7700000000000414_dist_agattn_v7x_xyz2x4x4_z_b2_s512_h8_d64_bf16_1_alg».proof.Proof.Bits.LoopPieces
import proofs.«900413_g7700000000000414_dist_agattn_v7x_xyz2x4x4_z_b2_s512_h8_d64_bf16_1_alg».proof.Proof.Bits.LoopFacts

set_option maxRecDepth 8192

noncomputable section

namespace Cert.Kernel.ValLoop1

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Cells Cert.Kernel.Sched Cert.Kernel.State Cert.Kernel.LoopsU Cert.Kernel.Values Cert.Kernel.ValCommon

variable {F : FTy → Type} [FloatOps F]

local notation "𝕄" => MT nD τ sig Unit (Elt F) ℕ UU ℕ

variable (m : (ℓ : Loc nD τ sig) → Buf (Elt F) ℓ) (ρ : Dev nD → PrngReg)

set_option warn.classDefReducibility false in
/-- The loop's invariant instance at the staged inputs and at the contents the two buffers hold on entry. -/
def L1 (c d0 : Dev nD) (v2 v5 v8 c0 c1 : BitVec 32) (fk : Buf (Elt F) ((c : Thread nD τ).loc cc0_scratch1)) (fv : Buf (Elt F) ((c : Thread nD τ).loc cc0_scratch2)) :
    Gen.LoopInvTy_k0_t1 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 c0 c1 :=
  loopInv_k0_t1U (F := F) 𝒱₀ c none Set.univ qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0 c1 (Kst m ρ c) (Vst m ρ c) fk fv

/-- After j trips the pieces written are the first j tiles. -/
theorem pb_upTo (c d0 : Dev nD) (v2 v5 v8 c0 c1 : BitVec 32) (fk : Buf (Elt F) ((c : Thread nD τ).loc cc0_scratch1)) (fv : Buf (Elt F) ((c : Thread nD τ).loc cc0_scratch2)) :
    ∀ (j : ℕ) (h : j ≤ k0_t1_loop.trips),
      pb_k0_t1U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0 c1 (Kst m ρ c) (Vst m ρ c) fk fv j
        = (upTo (kPiece m ρ c) j h, upTo (vPiece m ρ c) j h)
  | 0, _ => rfl
  | j + 1, h => by
    refine (pb_k0_t1U_succ (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0 c1 (Kst m ρ c) (Vst m ρ c) fk fv ⟨j, h⟩).trans ?_
    rw [LoopPieces.pieces_t1, pb_upTo c d0 v2 v5 v8 c0 c1 fk fv j (Nat.le_of_succ_le h)]
    rfl

theorem in1 (c d0 : Dev nD) (v2 v5 v8 c0 c1 : BitVec 32) (fk : Buf (Elt F) ((c : Thread nD τ).loc cc0_scratch1)) (fv : Buf (Elt F) ((c : Thread nD τ).loc cc0_scratch2)) :
    (iprop((((c : Thread nD τ).loc cc0_stg1_0) ↦{fullShare} Kst m ρ c)
        ∗ (((c : Thread nD τ).loc cc0_stg2_0) ↦{fullShare} Vst m ρ c)
        ∗ (((c : Thread nD τ).loc cc0_scratch1) ↦{fullShare} fk)
        ∗ (((c : Thread nD τ).loc cc0_scratch2) ↦{fullShare} fv)) : sProp 𝕄)
      ⊢ (L1 m ρ c d0 v2 v5 v8 c0 c1 fk fv).inv 0 () := by
  show _ ⊢ inv_k0_t1U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0 c1 (Kst m ρ c) (Vst m ρ c) fk fv 0 ()
  dsimp only [inv_k0_t1U]
  simp only [Memref.view_whole, View.set_whole]
  iintro ⟨HK, HV, Hk, Hv⟩
  isplitl [HK]; · iexact HK
  isplitl [HV]; · iexact HV
  isplitl [Hk]
  · iexists fk; isplitl [Hk]; · iexact Hk
    ipureintro; rfl
  iexists fv; isplitl [Hv]; · iexact Hv
  ipureintro; rfl

theorem out1 (c d0 : Dev nD) (v2 v5 v8 c0 c1 : BitVec 32) (fk : Buf (Elt F) ((c : Thread nD τ).loc cc0_scratch1)) (fv : Buf (Elt F) ((c : Thread nD τ).loc cc0_scratch2)) :
    (L1 m ρ c d0 v2 v5 v8 c0 c1 fk fv).inv (Scf.trips k0_t1_loop.lb k0_t1_loop.ub k0_t1_loop.st) ()
      ⊢ (iprop((((c : Thread nD τ).loc cc0_stg1_0) ↦{fullShare} Kst m ρ c)
        ∗ (((c : Thread nD τ).loc cc0_stg2_0) ↦{fullShare} Vst m ρ c)
        ∗ (((c : Thread nD τ).loc cc0_scratch1) ↦{fullShare} kT m ρ c)
        ∗ (((c : Thread nD τ).loc cc0_scratch2) ↦{fullShare} vT m ρ c)) : sProp 𝕄) := by
  show inv_k0_t1U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 c0 c1 (Kst m ρ c) (Vst m ρ c) fk fv k0_t1_loop.trips () ⊢ _
  dsimp only [inv_k0_t1U]
  rw [pb_upTo m ρ c d0 v2 v5 v8 c0 c1 fk fv k0_t1_loop.trips (Nat.le_refl _)]
  simp only [Memref.view_whole, View.set_whole]
  iintro ⟨HK, HV, ⟨%f5, Hk, %h5⟩, ⟨%f6, Hv, %h6⟩⟩
  have e5 : f5 = kT m ρ c := h5.trans (whole_writes_eq_canon cc0_scratch1 fk _ (cover2 fun k => (kPiece m ρ c k).2))
  have e6 : f6 = vT m ρ c := h6.trans (whole_writes_eq_canon cc0_scratch2 fv _ (cover2 fun k => (vPiece m ρ c k).2))
  subst e5 e6
  isplitl [HK]; · iexact HK
  isplitl [HV]; · iexact HV
  isplitl [Hk]; · iexact Hk
  iexact Hv

/-- info: 'Cert.Kernel.ValLoop1.out1' depends on axioms: [propext, Classical.choice, Quot.sound] -/
#guard_msgs in #print axioms out1
/-- info: 'Cert.Kernel.ValLoop1.in1' depends on axioms: [propext, Classical.choice, Quot.sound] -/
#guard_msgs in #print axioms in1

end Cert.Kernel.ValLoop1

end
-- ==== Proof.Bits.ValLoop2.lean ====
/-
  Loop 2: the scaled query block.

  Trip k writes tile k of the query block, head-major, from rows of the staged query block, which the loop does
  not change; after the sixteen trips the buffer holds the overlay of the sixteen tiles, whatever it held on entry.
-/
import proofs.«900413_g7700000000000414_dist_agattn_v7x_xyz2x4x4_z_b2_s512_h8_d64_bf16_1_alg».proof.Proof.Bits.Values
import proofs.«900413_g7700000000000414_dist_agattn_v7x_xyz2x4x4_z_b2_s512_h8_d64_bf16_1_alg».proof.Proof.Bits.ValCommon
import proofs.«900413_g7700000000000414_dist_agattn_v7x_xyz2x4x4_z_b2_s512_h8_d64_bf16_1_alg».proof.Proof.Bits.LoopPieces
import proofs.«900413_g7700000000000414_dist_agattn_v7x_xyz2x4x4_z_b2_s512_h8_d64_bf16_1_alg».proof.Proof.Bits.LoopFacts

set_option maxRecDepth 8192

noncomputable section

namespace Cert.Kernel.ValLoop2

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Cells Cert.Kernel.Sched Cert.Kernel.State Cert.Kernel.LoopsU Cert.Kernel.Values Cert.Kernel.ValCommon

variable {F : FTy → Type} [FloatOps F]

local notation "𝕄" => MT nD τ sig Unit (Elt F) ℕ UU ℕ

variable (m : (ℓ : Loc nD τ sig) → Buf (Elt F) ℓ) (ρ : Dev nD → PrngReg)

set_option warn.classDefReducibility false in
/-- The loop's invariant instance at the named contents it reads and at the contents the written buffers hold on entry. -/
def L2 (c d0 : Dev nD) (v2 v5 v8 v148 : BitVec 32) (fq : Buf (Elt F) ((c : Thread nD τ).loc cc0_scratch0)) :
    Gen.LoopInvTy_k0_t2 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v148 :=
  loopInv_k0_t2U (F := F) 𝒱₀ c none Set.univ qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 (Qst m ρ c) fq

/-- After j trips the pieces written are the first j tiles. -/
theorem pb_upTo (c d0 : Dev nD) (v2 v5 v8 v148 : BitVec 32) :
    ∀ (j : ℕ) (h : j ≤ k0_t2_loop.trips),
      pb_k0_t2U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 (Qst m ρ c) j
        = upTo (qPiece m ρ c) j h
  | 0, _ => rfl
  | j + 1, h => by
    refine (pb_k0_t2U_succ (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 (Qst m ρ c) ⟨j, h⟩).trans ?_
    rw [LoopPieces.pieces_t2, pb_upTo c d0 v2 v5 v8 v148 j (Nat.le_of_succ_le h)]
    rfl

theorem in2 (c d0 : Dev nD) (v2 v5 v8 v148 : BitVec 32) (fq : Buf (Elt F) ((c : Thread nD τ).loc cc0_scratch0)) :
    (iprop((((c : Thread nD τ).loc cc0_stg0_0) ↦{fullShare} Qst m ρ c)
        ∗ (((c : Thread nD τ).loc cc0_scratch0) ↦{fullShare} fq)) : sProp 𝕄)
      ⊢ (L2 m ρ c d0 v2 v5 v8 v148 fq).inv 0 () := by
  show _ ⊢ inv_k0_t2U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 (Qst m ρ c) fq 0 ()
  dsimp only [inv_k0_t2U]
  simp only [Memref.view_whole, View.set_whole]
  iintro ⟨HR0, HW0⟩
  isplitl [HR0]; · iexact HR0
  iexists fq; isplitl [HW0]; · iexact HW0
  ipureintro; rfl

theorem out2 (c d0 : Dev nD) (v2 v5 v8 v148 : BitVec 32) (fq : Buf (Elt F) ((c : Thread nD τ).loc cc0_scratch0)) :
    (L2 m ρ c d0 v2 v5 v8 v148 fq).inv (Scf.trips k0_t2_loop.lb k0_t2_loop.ub k0_t2_loop.st) ()
      ⊢ (iprop((((c : Thread nD τ).loc cc0_stg0_0) ↦{fullShare} Qst m ρ c)
        ∗ (((c : Thread nD τ).loc cc0_scratch0) ↦{fullShare} qT m ρ c)) : sProp 𝕄) := by
  show inv_k0_t2U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 (Qst m ρ c) fq k0_t2_loop.trips () ⊢ _
  dsimp only [inv_k0_t2U]
  rw [pb_upTo m ρ c d0 v2 v5 v8 v148 k0_t2_loop.trips (Nat.le_refl _)]
  simp only [Memref.view_whole, View.set_whole]
  iintro ⟨HR0, ⟨%g0, HW0, %h0⟩⟩
  have e0 : g0 = qT m ρ c := h0.trans (whole_writes_eq_canon cc0_scratch0 fq _ (cover4 fun k => (qPiece m ρ c k).2))
  subst e0
  isplitl [HR0]; · iexact HR0
  iexact HW0

/-- info: 'Cert.Kernel.ValLoop2.out2' depends on axioms: [propext, Classical.choice, Quot.sound] -/
#guard_msgs in #print axioms out2
/-- info: 'Cert.Kernel.ValLoop2.in2' depends on axioms: [propext, Classical.choice, Quot.sound] -/
#guard_msgs in #print axioms in2

end Cert.Kernel.ValLoop2

end
-- ==== Proof.Bits.ValLoop3.lean ====
/-
  Loop 3: the pass over the device's own keys.

  Trip k writes tile k of the accumulator and of the running sum from the query tile and the device's own
  transposed key and value tiles, all three only read (the last two through the share the device kept while
  three copies read them); the scores start from zero, so nothing of what the two buffers held on entry is read,
  and after the sixteen trips they hold the overlay of their sixteen tiles.
-/
import proofs.«900413_g7700000000000414_dist_agattn_v7x_xyz2x4x4_z_b2_s512_h8_d64_bf16_1_alg».proof.Proof.Bits.Values
import proofs.«900413_g7700000000000414_dist_agattn_v7x_xyz2x4x4_z_b2_s512_h8_d64_bf16_1_alg».proof.Proof.Bits.ValCommon
import proofs.«900413_g7700000000000414_dist_agattn_v7x_xyz2x4x4_z_b2_s512_h8_d64_bf16_1_alg».proof.Proof.Bits.LoopPieces
import proofs.«900413_g7700000000000414_dist_agattn_v7x_xyz2x4x4_z_b2_s512_h8_d64_bf16_1_alg».proof.Proof.Bits.LoopFacts

set_option maxRecDepth 8192

noncomputable section

namespace Cert.Kernel.ValLoop3

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Cells Cert.Kernel.Sched Cert.Kernel.State Cert.Kernel.LoopsU Cert.Kernel.Values Cert.Kernel.ValCommon

variable {F : FTy → Type} [FloatOps F]

local notation "𝕄" => MT nD τ sig Unit (Elt F) ℕ UU ℕ

variable (m : (ℓ : Loc nD τ sig) → Buf (Elt F) ℓ) (ρ : Dev nD → PrngReg)

set_option warn.classDefReducibility false in
/-- The loop's invariant instance at the named contents it reads and at the contents the written buffers hold on entry. -/
def L3 (c d0 : Dev nD) (v2 v5 v8 v148 : BitVec 32) (fa : Buf (Elt F) ((c : Thread nD τ).loc cc0_scratch5)) (fl : Buf (Elt F) ((c : Thread nD τ).loc cc0_scratch6)) :
    Gen.LoopInvTy_k0_t3 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 d0 v2 v5 v8 v148 :=
  loopInv_k0_t3U (F := F) 𝒱₀ c none Set.univ qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 keptShare keptShare (qT m ρ c) (kT m ρ c) (vT m ρ c) fa fl

/-- After j trips the pieces written are the first j tiles. -/
theorem pb_upTo (c d0 : Dev nD) (v2 v5 v8 v148 : BitVec 32) :
    ∀ (j : ℕ) (h : j ≤ k0_t3_loop.trips),
      pb_k0_t3U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 keptShare keptShare (qT m ρ c) (kT m ρ c) (vT m ρ c) j
        = (upTo (a0Piece m ρ c) j h, upTo (l0Piece m ρ c) j h)
  | 0, _ => rfl
  | j + 1, h => by
    refine (pb_k0_t3U_succ (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 keptShare keptShare (qT m ρ c) (kT m ρ c) (vT m ρ c) ⟨j, h⟩).trans ?_
    rw [LoopPieces.pieces_t3, pb_upTo c d0 v2 v5 v8 v148 j (Nat.le_of_succ_le h)]
    rfl

theorem in3 (c d0 : Dev nD) (v2 v5 v8 v148 : BitVec 32) (fa : Buf (Elt F) ((c : Thread nD τ).loc cc0_scratch5)) (fl : Buf (Elt F) ((c : Thread nD τ).loc cc0_scratch6)) :
    (iprop((((c : Thread nD τ).loc cc0_scratch0) ↦{fullShare} qT m ρ c)
        ∗ (((c : Thread nD τ).loc cc0_scratch1) ↦{keptShare} kT m ρ c)
        ∗ (((c : Thread nD τ).loc cc0_scratch2) ↦{keptShare} vT m ρ c)
        ∗ (((c : Thread nD τ).loc cc0_scratch5) ↦{fullShare} fa)
        ∗ (((c : Thread nD τ).loc cc0_scratch6) ↦{fullShare} fl)) : sProp 𝕄)
      ⊢ (L3 m ρ c d0 v2 v5 v8 v148 fa fl).inv 0 () := by
  show _ ⊢ inv_k0_t3U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 keptShare keptShare (qT m ρ c) (kT m ρ c) (vT m ρ c) fa fl 0 ()
  dsimp only [inv_k0_t3U]
  simp only [Memref.view_whole, View.set_whole]
  iintro ⟨HR0, HR1, HR2, HW0, HW1⟩
  isplitl [HR0]; · iexact HR0
  isplitl [HR1]; · iexact HR1
  isplitl [HR2]; · iexact HR2
  isplitl [HW0]
  · iexists fa; isplitl [HW0]; · iexact HW0
    ipureintro; rfl
  iexists fl; isplitl [HW1]; · iexact HW1
  ipureintro; rfl

theorem out3 (c d0 : Dev nD) (v2 v5 v8 v148 : BitVec 32) (fa : Buf (Elt F) ((c : Thread nD τ).loc cc0_scratch5)) (fl : Buf (Elt F) ((c : Thread nD τ).loc cc0_scratch6)) :
    (L3 m ρ c d0 v2 v5 v8 v148 fa fl).inv (Scf.trips k0_t3_loop.lb k0_t3_loop.ub k0_t3_loop.st) ()
      ⊢ (iprop((((c : Thread nD τ).loc cc0_scratch0) ↦{fullShare} qT m ρ c)
        ∗ (((c : Thread nD τ).loc cc0_scratch1) ↦{keptShare} kT m ρ c)
        ∗ (((c : Thread nD τ).loc cc0_scratch2) ↦{keptShare} vT m ρ c)
        ∗ (((c : Thread nD τ).loc cc0_scratch5) ↦{fullShare} a0 m ρ c)
        ∗ (((c : Thread nD τ).loc cc0_scratch6) ↦{fullShare} l0 m ρ c)) : sProp 𝕄) := by
  show inv_k0_t3U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 d0 v2 v5 v8 v148 keptShare keptShare (qT m ρ c) (kT m ρ c) (vT m ρ c) fa fl k0_t3_loop.trips () ⊢ _
  dsimp only [inv_k0_t3U]
  rw [pb_upTo m ρ c d0 v2 v5 v8 v148 k0_t3_loop.trips (Nat.le_refl _)]
  simp only [Memref.view_whole, View.set_whole]
  iintro ⟨HR0, HR1, HR2, ⟨%g0, HW0, %h0⟩, ⟨%g1, HW1, %h1⟩⟩
  have e0 : g0 = a0 m ρ c := h0.trans (whole_writes_eq_canon cc0_scratch5 fa _ (cover5 fun k => (a0Piece m ρ c k).2))
  have e1 : g1 = l0 m ρ c := h1.trans (whole_writes_eq_canon cc0_scratch6 fl _ (cover5 fun k => (l0Piece m ρ c k).2))
  subst e0 e1
  isplitl [HR0]; · iexact HR0
  isplitl [HR1]; · iexact HR1
  isplitl [HR2]; · iexact HR2
  isplitl [HW0]; · iexact HW0
  iexact HW1

/-- info: 'Cert.Kernel.ValLoop3.out3' depends on axioms: [propext, Classical.choice, Quot.sound] -/
#guard_msgs in #print axioms out3
/-- info: 'Cert.Kernel.ValLoop3.in3' depends on axioms: [propext, Classical.choice, Quot.sound] -/
#guard_msgs in #print axioms in3

end Cert.Kernel.ValLoop3

end
-- ==== Proof.Bits.Offsets.lean ====
/-
  Where each trip works. Every counted loop runs sixteen trips; trip k is the (batch, head) tile (k / 8, k % 8).
  In the staged arrays, laid out (batch, position, head, feature), its tile starts at (k / 8, 0, k % 8, 0); in the
  head-major scratch buffers at (k / 8, k % 8, 0, 0); in a landing buffer, inside slot r, at (r, k / 8, k % 8, 0, 0).
  The printed offsets are chains of integer operations on the trip; over the sixteen trips they are these.
-/
import proofs.«900413_g7700000000000414_dist_agattn_v7x_xyz2x4x4_z_b2_s512_h8_d64_bf16_1_alg».proof.Proof.Gen.Kernel

namespace Cert.Kernel.Offsets

open Cert.Kernel Cert.Kernel.Gen
open Idealize.ShloMosaic

theorem trips1 : k0_t1_loop.trips = 16 := by decide +kernel
theorem trips2 : k0_t2_loop.trips = 16 := by decide +kernel
theorem trips3 : k0_t3_loop.trips = 16 := by decide +kernel
theorem trips4 : k0_t4_loop.trips = 16 := by decide +kernel
theorem trips5 : k0_t5_loop.trips = 16 := by decide +kernel
theorem trips6 : k0_t6_loop.trips = 16 := by decide +kernel

theorem off1_eq : ∀ k : Fin k0_t1_loop.trips, k0_off1 k = (![k.val / 8, 0, k.val % 8, 0] : Fin 4 → Nat) := by decide +kernel
theorem off2_eq : ∀ k : Fin k0_t1_loop.trips, k0_off2 k = (![k.val / 8, k.val % 8, 0, 0] : Fin 4 → Nat) := by decide +kernel
theorem off3_eq : ∀ k : Fin k0_t2_loop.trips, k0_off3 k = (![k.val / 8, 0, k.val % 8, 0] : Fin 4 → Nat) := by decide +kernel
theorem off4_eq : ∀ k : Fin k0_t2_loop.trips, k0_off4 k = (![k.val / 8, k.val % 8, 0, 0] : Fin 4 → Nat) := by decide +kernel
theorem off5_eq : ∀ k : Fin k0_t3_loop.trips, k0_off5 k = (![k.val / 8, k.val % 8, 0, 0] : Fin 4 → Nat) := by decide +kernel
theorem off6_eq : ∀ k : Fin k0_t3_loop.trips, k0_off6 k = (![k.val / 8, k.val % 8, 0, 0] : Fin 4 → Nat) := by decide +kernel
theorem off7_eq : ∀ k : Fin k0_t4_loop.trips, k0_off7 k = (![k.val / 8, k.val % 8, 0, 0] : Fin 4 → Nat) := by decide +kernel
theorem off8_eq : ∀ k : Fin k0_t4_loop.trips, k0_off8 k = (![0, k.val / 8, k.val % 8, 0, 0] : Fin 5 → Nat) := by decide +kernel
theorem off9_eq : ∀ k : Fin k0_t5_loop.trips, k0_off9 k = (![k.val / 8, k.val % 8, 0, 0] : Fin 4 → Nat) := by decide +kernel
theorem off10_eq : ∀ k : Fin k0_t5_loop.trips, k0_off10 k = (![1, k.val / 8, k.val % 8, 0, 0] : Fin 5 → Nat) := by decide +kernel
theorem off11_eq : ∀ k : Fin k0_t6_loop.trips, k0_off11 k = (![k.val / 8, k.val % 8, 0, 0] : Fin 4 → Nat) := by decide +kernel
theorem off12_eq : ∀ k : Fin k0_t6_loop.trips, k0_off12 k = (![2, k.val / 8, k.val % 8, 0, 0] : Fin 5 → Nat) := by decide +kernel
theorem off13_eq : ∀ k : Fin k0_t6_loop.trips, k0_off13 k = (![k.val / 8, 0, k.val % 8, 0] : Fin 4 → Nat) := by decide +kernel

end Cert.Kernel.Offsets
-- ==== Proof.Bits.ValLoop4.lean ====
/-
  The second accumulating pass: the pass over slot 0 of the landing buffers.

  The pass runs sixteen trips; trip k works on the (batch, head) tile (k / 8, k % 8). It loads the query tile, the
  key tile and the value tile of slot 0 of the two landing buffers, and the tile of the accumulator and of the
  running sum it is about to overwrite, and it stores the two updated tiles. The windows it loads from the landing
  buffers have first coordinate 0, so they lie in slot 0, which is all of those buffers the device holds during
  the pass. Tiles of different trips are disjoint, so the tile a trip reads back is still the one the first pass
  left: trip k's stored tiles are functions of the contents at entry alone. The sixteen tiles cover the buffers,
  so after the pass the accumulator and the running sum are the overlay of those sixteen tiles.
-/
import proofs.«900413_g7700000000000414_dist_agattn_v7x_xyz2x4x4_z_b2_s512_h8_d64_bf16_1_alg».proof.Proof.Bits.Values
import proofs.«900413_g7700000000000414_dist_agattn_v7x_xyz2x4x4_z_b2_s512_h8_d64_bf16_1_alg».proof.Proof.Bits.LoopPieces
import proofs.«900413_g7700000000000414_dist_agattn_v7x_xyz2x4x4_z_b2_s512_h8_d64_bf16_1_alg».proof.Proof.Bits.LoopFacts
import proofs.«900413_g7700000000000414_dist_agattn_v7x_xyz2x4x4_z_b2_s512_h8_d64_bf16_1_alg».proof.Proof.Bits.Slots
import proofs.«900413_g7700000000000414_dist_agattn_v7x_xyz2x4x4_z_b2_s512_h8_d64_bf16_1_alg».proof.Proof.Bits.Offsets
import proofs.«900413_g7700000000000414_dist_agattn_v7x_xyz2x4x4_z_b2_s512_h8_d64_bf16_1_alg».proof.Proof.Bits.ValCommon

set_option maxRecDepth 8192
set_option maxHeartbeats 1000000

noncomputable section

namespace Cert.Kernel.ValLoop4

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Cells Cert.Kernel.Sched Cert.Kernel.State Cert.Kernel.LoopsU
open Cert.Kernel.Values Cert.Kernel.Slots Cert.Kernel.ValCommon

variable {F : FTy → Type} [FloatOps F]

local notation "𝕄" => MT nD τ sig Unit (Elt F) ℕ UU ℕ

variable (m : (ℓ : Loc nD τ sig) → Buf (Elt F) ℓ) (ρ : Dev nD → PrngReg)

/-! ## The windows of the landing buffers lie in slot 0 -/

/-- Trip k loads tile (k / 8, k % 8) of slot 0: an index of that window has first coordinate 0. -/
theorem win_sub_R0 (k : Fin k0_t4_loop.trips) (x : S3x2x8x64x512.Idx)
    (hx : x ∈ (Rect.unit (s := S3x2x8x64x512) (k0_off8 k) S1x1x1x64x512.size (k0_off8_inb k)).toLoadRect.set) : x ∈ R0.set := by
  have hx' := Rect.mem_set_unit.mp hx
  rw [Offsets.off8_eq k] at hx'
  have hk : k.val < 16 := lt_of_lt_of_eq k.isLt Offsets.trips4
  refine Rect.mem_set_unit.mpr fun a => ?_
  have h := hx' a
  fin_cases a <;> simp at h ⊢ <;> omega

theorem h7 : ∀ k : Fin k0_t4_loop.trips, (kcomM : Memref sig .tc .vmem S3x2x8x64x512 .bf16).view.setOn (Rect.unit (s := S3x2x8x64x512) (k0_off8 k) S1x1x1x64x512.size (k0_off8_inb k)).toLoadRect.set ⊆ (kslot0 : Memref sig .tc .vmem S2x8x64x512 .bf16).view.set := by
  intro k i hi
  rw [k0set]
  obtain ⟨x, hx, rfl⟩ := Finset.mem_map.mp hi
  exact win_sub_R0 k x hx

theorem h8 : ∀ k : Fin k0_t4_loop.trips, (vcomM : Memref sig .tc .vmem S3x2x8x64x512 .bf16).view.setOn (Rect.unit (s := S3x2x8x64x512) (k0_off8 k) S1x1x1x64x512.size (k0_off8_inb k)).toLoadRect.set ⊆ (vslot0 : Memref sig .tc .vmem S2x8x64x512 .bf16).view.set := by
  intro k i hi
  rw [v0set]
  obtain ⟨x, hx, rfl⟩ := Finset.mem_map.mp hi
  exact win_sub_R0 k x hx

/-! ## The loop's invariant instance -/

set_option warn.classDefReducibility false in
/-- The second pass, at the contents it finds: the query block, the landing buffers on slot 0, and the
    accumulator and running sum the first pass left. -/
def L4 (c : Dev nD) (v2 v5 v8 : BitVec 32) : Gen.LoopInvTy_k0_t4 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 :=
  loopInv_k0_t4U (F := F) 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c)

/-! ## What the trips leave -/

/-- A trip reads back the tile it is about to overwrite. After the first j trips, j at most k, the buffer has been
    written only on the tiles of those trips, all different from tile k: so on tile k it still holds what it held
    at entry. -/
theorem readAt_tile_of_earlier {sg : RefSig} {κ : Kind} {sp : Space} {e : EltTy} (v : View sg κ sp S2x8x512x64 e) (G : v.ty.Contents (Elt F))
    (p : Fin k0_t4_loop.trips → View.Piece (Elt F) S2x8x512x64 e) (hp : ∀ k', (p k').1 = R7 k')
    (k : Fin k0_t4_loop.trips) (j : ℕ) (hj : j ≤ k0_t4_loop.trips) (hjk : j ≤ k.val) :
    v.readAt (Elt F) (R7 k).toLoadRect (v.writes (Elt F) G (upTo p j hj)) = v.readAt (Elt F) (R7 k).toLoadRect G := by
  funext x
  show v.read (Elt F) (v.writes (Elt F) G (upTo p j hj)) ((R7 k).idx x) = v.read (Elt F) G ((R7 k).idx x)
  refine View.read_writes_apply_of_forall_not_mem v G _ _ fun q hq hmem => ?_
  obtain ⟨k', hk', rfl⟩ := (mem_upTo p q j hj).mp hq
  rw [hp k'] at hmem
  have hne : k ≠ k' := by rintro rfl; omega
  exact Finset.disjoint_left.mp (disjoint7 hne) ((R7 k).idx_mem x) hmem

/-- Before trip j the pieces the invariant carries are the first j tiles of the pass, the last first: each trip
    computes its tile from the tile of the contents at entry, since no earlier trip wrote there. -/
theorem pb4_eq (c : Dev nD) (v2 v5 v8 : BitVec 32) : ∀ (j : ℕ) (h : j ≤ k0_t4_loop.trips),
    pb_k0_t4U (F := F) 𝒱₀ c none (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c) j = (upTo (a1Piece m ρ c) j h, upTo (l1Piece m ρ c) j h)
  | 0, _ => rfl
  | j + 1, h => by
    have ih : pb_k0_t4U (F := F) 𝒱₀ c none (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c) ((⟨j, h⟩ : Fin k0_t4_loop.trips).val) = (upTo (a1Piece m ρ c) j (Nat.le_of_succ_le h), upTo (l1Piece m ρ c) j (Nat.le_of_succ_le h)) := pb4_eq c v2 v5 v8 j (Nat.le_of_succ_le h)
    have hs := pb_k0_t4U_succ (F := F) 𝒱₀ c none (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c) ⟨j, h⟩
    refine hs.trans ?_
    rw [ih, LoopPieces.pieces_t4]
    have ea := readAt_tile_of_earlier (F := F) (accM : Memref sig .tc .vmem S2x8x512x64 .f32).view (a0 m ρ c) (a1Piece m ρ c) (fun _ => rfl) ⟨j, h⟩ j (Nat.le_of_succ_le h) (Nat.le_refl j)
    have el := readAt_tile_of_earlier (F := F) (lsumM : Memref sig .tc .vmem S2x8x512x64 .f32).view (l0 m ρ c) (l1Piece m ρ c) (fun _ => rfl) ⟨j, h⟩ j (Nat.le_of_succ_le h) (Nat.le_refl j)
    dsimp only
    rw [ea, el]
    rfl

/-! ## Entry and exit -/

/-- The query block, the accumulator and the running sum are whole buffers: every element is under the view. -/
theorem set_q : ((Memref.whole cc0_scratch0 : Memref sig .tc .vmem S2x8x512x64 .bf16)).view.set = Finset.univ := View.set_whole _
theorem set_a : ((Memref.whole cc0_scratch5 : Memref sig .tc .vmem S2x8x512x64 .f32)).view.set = Finset.univ := View.set_whole _
theorem set_l : ((Memref.whole cc0_scratch6 : Memref sig .tc .vmem S2x8x512x64 .f32)).view.set = Finset.univ := View.set_whole _

/-- At entry no trip has run: the accumulator and the running sum hold what the first pass left. -/
theorem in4 (c : Dev nD) (v2 v5 v8 : BitVec 32) :
    (iprop((((c : Thread nD τ).loc cc0_scratch0) ↦{fullShare} qT m ρ c)
        ∗ (((c : Thread nD τ).loc cc0_scratch3) ↦[(kslot0 : Memref sig .tc .vmem S2x8x64x512 .bf16).view.set]{fullShare} kC m ρ c)
        ∗ (((c : Thread nD τ).loc cc0_scratch4) ↦[(vslot0 : Memref sig .tc .vmem S2x8x64x512 .bf16).view.set]{fullShare} vC m ρ c)
        ∗ (((c : Thread nD τ).loc cc0_scratch5) ↦{fullShare} a0 m ρ c)
        ∗ (((c : Thread nD τ).loc cc0_scratch6) ↦{fullShare} l0 m ρ c)) : sProp (MT nD τ sig Unit (Elt F) ℕ UU ℕ))
      ⊢ (L4 m ρ c v2 v5 v8).inv 0 () := by
  show _ ⊢ inv_k0_t4U (F := F) 𝒱₀ c none (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c) 0 ()
  unfold inv_k0_t4U
  rw [set_q, set_a, set_l]
  iintro ⟨Hq, Hk, Hv, Ha, Hl⟩
  isplitl [Hq]; · iexact Hq
  isplitl [Hk]; · iexact Hk
  isplitl [Hv]; · iexact Hv
  isplitl [Ha]
  · iexists (a0 m ρ c); isplitl [Ha]; · iexact Ha
    ipureintro; rfl
  iexists (l0 m ρ c); isplitl [Hl]; · iexact Hl
  ipureintro; rfl

/-- After the sixteen trips the accumulator and the running sum hold the overlay of the sixteen tiles of the pass:
    the tiles cover the buffers. -/
theorem out4 (c : Dev nD) (v2 v5 v8 : BitVec 32) :
    (L4 m ρ c v2 v5 v8).inv (Scf.trips k0_t4_loop.lb k0_t4_loop.ub k0_t4_loop.st) ()
      ⊢ (iprop((((c : Thread nD τ).loc cc0_scratch0) ↦{fullShare} qT m ρ c)
        ∗ (((c : Thread nD τ).loc cc0_scratch3) ↦[(kslot0 : Memref sig .tc .vmem S2x8x64x512 .bf16).view.set]{fullShare} kC m ρ c)
        ∗ (((c : Thread nD τ).loc cc0_scratch4) ↦[(vslot0 : Memref sig .tc .vmem S2x8x64x512 .bf16).view.set]{fullShare} vC m ρ c)
        ∗ (((c : Thread nD τ).loc cc0_scratch5) ↦{fullShare} a1 m ρ c)
        ∗ (((c : Thread nD τ).loc cc0_scratch6) ↦{fullShare} l1 m ρ c)) : sProp (MT nD τ sig Unit (Elt F) ℕ UU ℕ)) := by
  show inv_k0_t4U (F := F) 𝒱₀ c none (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 (kslot0 : Memref sig .tc .vmem S2x8x64x512 .bf16).view.set (vslot0 : Memref sig .tc .vmem S2x8x64x512 .bf16).view.set h7 h8 (qT m ρ c) (kC m ρ c) (vC m ρ c) (a0 m ρ c) (l0 m ρ c) k0_t4_loop.trips () ⊢ _
  unfold inv_k0_t4U
  rw [set_q, set_a, set_l]
  iintro ⟨Hq, Hk, Hv, ⟨%fa, Ha, %ha⟩, ⟨%fl, Hl, %hl⟩⟩
  rw [pb4_eq m ρ c v2 v5 v8 k0_t4_loop.trips (Nat.le_refl _)] at ha hl
  have ea : fa = a1 m ρ c := ha.trans (whole_writes_eq_canon cc0_scratch5 (a0 m ρ c) (tiles (a1Piece m ρ c)) (cover7 _))
  have el : fl = l1 m ρ c := hl.trans (whole_writes_eq_canon cc0_scratch6 (l0 m ρ c) (tiles (l1Piece m ρ c)) (cover7 _))
  subst ea el
  isplitl [Hq]; · iexact Hq
  isplitl [Hk]; · iexact Hk
  isplitl [Hv]; · iexact Hv
  isplitl [Ha]; · iexact Ha
  iexact Hl

/-- info: 'Cert.Kernel.ValLoop4.in4' depends on axioms: [propext, Classical.choice, Quot.sound] -/
#guard_msgs in #print axioms in4
/-- info: 'Cert.Kernel.ValLoop4.out4' depends on axioms: [propext, Classical.choice, Quot.sound] -/
#guard_msgs in #print axioms out4

end Cert.Kernel.ValLoop4

end
-- ==== Proof.Bits.ValLoop5.lean ====
/-
  Loop 5: the pass over slot 1 of the landing buffers.

  Trip k adds to tile k of the accumulator and of the running sum the contribution of tile k of slot 1 of the two
  landing buffers, of which the device holds exactly that slot: every trip's load box lies inside it. The tile a
  trip overwrites is the one it reads, and it reads it as the pass before left it, because the earlier trips of
  this pass wrote other tiles. After the sixteen trips the two buffers hold the overlay of their sixteen tiles.
-/
import proofs.«900413_g7700000000000414_dist_agattn_v7x_xyz2x4x4_z_b2_s512_h8_d64_bf16_1_alg».proof.Proof.Bits.Values
import proofs.«900413_g7700000000000414_dist_agattn_v7x_xyz2x4x4_z_b2_s512_h8_d64_bf16_1_alg».proof.Proof.Bits.ValCommon
import proofs.«900413_g7700000000000414_dist_agattn_v7x_xyz2x4x4_z_b2_s512_h8_d64_bf16_1_alg».proof.Proof.Bits.LoopPieces
import proofs.«900413_g7700000000000414_dist_agattn_v7x_xyz2x4x4_z_b2_s512_h8_d64_bf16_1_alg».proof.Proof.Bits.LoopFacts
import proofs.«900413_g7700000000000414_dist_agattn_v7x_xyz2x4x4_z_b2_s512_h8_d64_bf16_1_alg».proof.Proof.Bits.Slots
import proofs.«900413_g7700000000000414_dist_agattn_v7x_xyz2x4x4_z_b2_s512_h8_d64_bf16_1_alg».proof.Proof.Bits.Offsets

set_option maxRecDepth 8192

noncomputable section

namespace Cert.Kernel.ValLoop5

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Cells Cert.Kernel.Sched Cert.Kernel.State Cert.Kernel.LoopsU Cert.Kernel.Values Cert.Kernel.ValCommon

variable {F : FTy → Type} [FloatOps F]

local notation "𝕄" => MT nD τ sig Unit (Elt F) ℕ UU ℕ

variable (m : (ℓ : Loc nD τ sig) → Buf (Elt F) ℓ) (ρ : Dev nD → PrngReg)

/-- Every trip's load box in the key landing buffer lies in slot 1. -/
theorem h7 (c : Dev nD) : ∀ k : Fin k0_t5_loop.trips,
    (kcomM : Memref sig .tc .vmem S3x2x8x64x512 .bf16).view.setOn (Rect.unit (s := S3x2x8x64x512) (k0_off10 k) S1x1x1x64x512.size (k0_off10_inb k)).toLoadRect.set ⊆ ((kslot1 : Memref sig .tc .vmem S2x8x64x512 .bf16).view.set : Finset (Idx ((kcomM : Memref sig .tc .vmem S3x2x8x64x512 .bf16).view.loc (c : Thread nD τ)))) := by
  intro k i hi
  rw [Slots.k1set]
  have hi' : i ∈ (Rect.unit (s := S3x2x8x64x512) (k0_off10 k) S1x1x1x64x512.size (k0_off10_inb k)).toLoadRect.set := by
    obtain ⟨x, hx, rfl⟩ := Finset.mem_map.mp hi
    exact hx
  rw [Rect.mem_set_unit] at hi' ⊢
  intro a
  have hk := hi' a
  rw [Offsets.off10_eq k] at hk
  have hlt := (i a).isLt
  fin_cases a <;> simp at hk hlt ⊢ <;> omega
/-- Every trip's load box in the value landing buffer lies in slot 1. -/
theorem h8 (c : Dev nD) : ∀ k : Fin k0_t5_loop.trips,
    (vcomM : Memref sig .tc .vmem S3x2x8x64x512 .bf16).view.setOn (Rect.unit (s := S3x2x8x64x512) (k0_off10 k) S1x1x1x64x512.size (k0_off10_inb k)).toLoadRect.set ⊆ ((vslot1 : Memref sig .tc .vmem S2x8x64x512 .bf16).view.set : Finset (Idx ((vcomM : Memref sig .tc .vmem S3x2x8x64x512 .bf16).view.loc (c : Thread nD τ)))) := by
  intro k i hi
  rw [Slots.v1set]
  have hi' : i ∈ (Rect.unit (s := S3x2x8x64x512) (k0_off10 k) S1x1x1x64x512.size (k0_off10_inb k)).toLoadRect.set := by
    obtain ⟨x, hx, rfl⟩ := Finset.mem_map.mp hi
    exact hx
  rw [Rect.mem_set_unit] at hi' ⊢
  intro a
  have hk := hi' a
  rw [Offsets.off10_eq k] at hk
  have hlt := (i a).isLt
  fin_cases a <;> simp at hk hlt ⊢ <;> omega

set_option warn.classDefReducibility false in
/-- The loop's invariant instance: the two landing buffers held on slot 1, the accumulator and the running sum entered at what the pass before left. -/
def L5 (c : Dev nD) (v2 v5 v8 v209 : BitVec 32) :
    Gen.LoopInvTy_k0_t5 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 v2 v5 v8 v209 :=
  loopInv_k0_t5U (F := F) 𝒱₀ c none Set.univ qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 (kslot1 : Memref sig .tc .vmem S2x8x64x512 .bf16).view.set (vslot1 : Memref sig .tc .vmem S2x8x64x512 .bf16).view.set (h7 c) (h8 c) (qT m ρ c) (kC m ρ c) (vC m ρ c) (a1 m ρ c) (l1 m ρ c)

/-- After j trips the pieces written are the first j tiles. -/
theorem pb_upTo (c : Dev nD) (v2 v5 v8 v209 : BitVec 32) :
    ∀ (j : ℕ) (h : j ≤ k0_t5_loop.trips),
      pb_k0_t5U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 (kslot1 : Memref sig .tc .vmem S2x8x64x512 .bf16).view.set (vslot1 : Memref sig .tc .vmem S2x8x64x512 .bf16).view.set (h7 c) (h8 c) (qT m ρ c) (kC m ρ c) (vC m ρ c) (a1 m ρ c) (l1 m ρ c) j
        = (upTo (a2Piece m ρ c) j h, upTo (l2Piece m ρ c) j h)
  | 0, _ => rfl
  | j + 1, h => by
    refine (pb_k0_t5U_succ (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 (kslot1 : Memref sig .tc .vmem S2x8x64x512 .bf16).view.set (vslot1 : Memref sig .tc .vmem S2x8x64x512 .bf16).view.set (h7 c) (h8 c) (qT m ρ c) (kC m ρ c) (vC m ρ c) (a1 m ρ c) (l1 m ρ c) ⟨j, h⟩).trans ?_
    rw [LoopPieces.pieces_t5, pb_upTo c v2 v5 v8 v209 j (Nat.le_of_succ_le h)]
    have hout : ∀ (P : Fin k0_t5_loop.trips → View.Piece (Elt F) S2x8x512x64 .f32), (∀ k, (P k).1 = R9 k) →
        ∀ q ∈ upTo P j (Nat.le_of_succ_le h), ∀ x, (R9 ⟨j, h⟩).toLoadRect.idx x ∉ q.1.set := by
      intro P hP q hq x hx
      obtain ⟨k', hk', rfl⟩ := (mem_upTo P q j _).mp hq
      rw [hP k'] at hx
      have hne : k' ≠ ⟨j, h⟩ := fun e => by rw [e] at hk'; exact Nat.lt_irrefl _ hk'
      exact Finset.disjoint_left.mp (disjoint9 hne) hx ((R9 ⟨j, h⟩).toLoadRect.idx_mem x)
    have eA : (accM : Memref sig .tc .vmem S2x8x512x64 .f32).view.readAt (Elt F) (R9 ⟨j, h⟩).toLoadRect ((accM : Memref sig .tc .vmem S2x8x512x64 .f32).view.writes (Elt F) (a1 m ρ c) (upTo (a2Piece m ρ c) j (Nat.le_of_succ_le h)))
        = (accM : Memref sig .tc .vmem S2x8x512x64 .f32).view.readAt (Elt F) (R9 ⟨j, h⟩).toLoadRect (a1 m ρ c) := by
      funext x
      rw [View.readAt_apply, View.readAt_apply]
      exact View.read_writes_apply_of_forall_not_mem _ _ _ _ fun q hq => hout (a2Piece m ρ c) (fun _ => rfl) q hq x
    have eL : (lsumM : Memref sig .tc .vmem S2x8x512x64 .f32).view.readAt (Elt F) (R9 ⟨j, h⟩).toLoadRect ((lsumM : Memref sig .tc .vmem S2x8x512x64 .f32).view.writes (Elt F) (l1 m ρ c) (upTo (l2Piece m ρ c) j (Nat.le_of_succ_le h)))
        = (lsumM : Memref sig .tc .vmem S2x8x512x64 .f32).view.readAt (Elt F) (R9 ⟨j, h⟩).toLoadRect (l1 m ρ c) := by
      funext x
      rw [View.readAt_apply, View.readAt_apply]
      exact View.read_writes_apply_of_forall_not_mem _ _ _ _ fun q hq => hout (l2Piece m ρ c) (fun _ => rfl) q hq x
    show (([_] ++ _, [_] ++ _) : List _ × List _) = _
    dsimp only
    rw [eA, eL]
    rfl

theorem in5 (c : Dev nD) (v2 v5 v8 v209 : BitVec 32) :
    (iprop((((c : Thread nD τ).loc cc0_scratch0) ↦{fullShare} qT m ρ c)
        ∗ (((c : Thread nD τ).loc cc0_scratch3) ↦[(kslot1 : Memref sig .tc .vmem S2x8x64x512 .bf16).view.set]{fullShare} kC m ρ c)
        ∗ (((c : Thread nD τ).loc cc0_scratch4) ↦[(vslot1 : Memref sig .tc .vmem S2x8x64x512 .bf16).view.set]{fullShare} vC m ρ c)
        ∗ (((c : Thread nD τ).loc cc0_scratch5) ↦{fullShare} a1 m ρ c)
        ∗ (((c : Thread nD τ).loc cc0_scratch6) ↦{fullShare} l1 m ρ c)) : sProp 𝕄)
      ⊢ (L5 m ρ c v2 v5 v8 v209).inv 0 () := by
  show _ ⊢ inv_k0_t5U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 (kslot1 : Memref sig .tc .vmem S2x8x64x512 .bf16).view.set (vslot1 : Memref sig .tc .vmem S2x8x64x512 .bf16).view.set (h7 c) (h8 c) (qT m ρ c) (kC m ρ c) (vC m ρ c) (a1 m ρ c) (l1 m ρ c) 0 ()
  dsimp only [inv_k0_t5U]
  simp only [Memref.view_whole, View.set_whole]
  iintro ⟨HQ, HK, HV, HA, HL⟩
  isplitl [HQ]; · iexact HQ
  isplitl [HK]; · iexact HK
  isplitl [HV]; · iexact HV
  isplitl [HA]
  · iexists _; isplitl [HA]; · iexact HA
    ipureintro; rfl
  iexists _; isplitl [HL]; · iexact HL
  ipureintro; rfl

theorem out5 (c : Dev nD) (v2 v5 v8 v209 : BitVec 32) :
    (L5 m ρ c v2 v5 v8 v209).inv (Scf.trips k0_t5_loop.lb k0_t5_loop.ub k0_t5_loop.st) ()
      ⊢ (iprop((((c : Thread nD τ).loc cc0_scratch0) ↦{fullShare} qT m ρ c)
        ∗ (((c : Thread nD τ).loc cc0_scratch3) ↦[(kslot1 : Memref sig .tc .vmem S2x8x64x512 .bf16).view.set]{fullShare} kC m ρ c)
        ∗ (((c : Thread nD τ).loc cc0_scratch4) ↦[(vslot1 : Memref sig .tc .vmem S2x8x64x512 .bf16).view.set]{fullShare} vC m ρ c)
        ∗ (((c : Thread nD τ).loc cc0_scratch5) ↦{fullShare} a2 m ρ c)
        ∗ (((c : Thread nD τ).loc cc0_scratch6) ↦{fullShare} l2 m ρ c)) : sProp 𝕄) := by
  show inv_k0_t5U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 v2 v5 v8 v209 (kslot1 : Memref sig .tc .vmem S2x8x64x512 .bf16).view.set (vslot1 : Memref sig .tc .vmem S2x8x64x512 .bf16).view.set (h7 c) (h8 c) (qT m ρ c) (kC m ρ c) (vC m ρ c) (a1 m ρ c) (l1 m ρ c) k0_t5_loop.trips () ⊢ _
  dsimp only [inv_k0_t5U]
  rw [pb_upTo m ρ c v2 v5 v8 v209 k0_t5_loop.trips (Nat.le_refl _)]
  simp only [Memref.view_whole, View.set_whole]
  iintro ⟨HQ, HK, HV, ⟨%g0, HA, %h0⟩, ⟨%g1, HL, %h1⟩⟩
  have e0 : g0 = a2 m ρ c := h0.trans (whole_writes_eq_canon cc0_scratch5 _ _ (cover9 fun k => (a2Piece m ρ c k).2))
  have e1 : g1 = l2 m ρ c := h1.trans (whole_writes_eq_canon cc0_scratch6 _ _ (cover9 fun k => (l2Piece m ρ c k).2))
  subst e0 e1
  isplitl [HQ]; · iexact HQ
  isplitl [HK]; · iexact HK
  isplitl [HV]; · iexact HV
  isplitl [HA]; · iexact HA
  iexact HL

/-- info: 'Cert.Kernel.ValLoop5.out5' depends on axioms: [propext, Classical.choice, Quot.sound] -/
#guard_msgs in #print axioms out5
/-- info: 'Cert.Kernel.ValLoop5.in5' depends on axioms: [propext, Classical.choice, Quot.sound] -/
#guard_msgs in #print axioms in5

end Cert.Kernel.ValLoop5

end
-- ==== Proof.Bits.ValLoop6.lean ====
/-
  Loop 6: the pass over slot 2, and the quotient.

  Trip k writes rows k of the staged result from the query tile, tile k of slot 2 of the two landing buffers and
  tile k of the accumulator and of the running sum as the first two passes left them; all five are only read.
  After the sixteen trips the staged result holds the overlay of its sixteen tiles, whatever it held on entry.
-/
import proofs.«900413_g7700000000000414_dist_agattn_v7x_xyz2x4x4_z_b2_s512_h8_d64_bf16_1_alg».proof.Proof.Bits.Values
import proofs.«900413_g7700000000000414_dist_agattn_v7x_xyz2x4x4_z_b2_s512_h8_d64_bf16_1_alg».proof.Proof.Bits.ValCommon
import proofs.«900413_g7700000000000414_dist_agattn_v7x_xyz2x4x4_z_b2_s512_h8_d64_bf16_1_alg».proof.Proof.Bits.LoopPieces
import proofs.«900413_g7700000000000414_dist_agattn_v7x_xyz2x4x4_z_b2_s512_h8_d64_bf16_1_alg».proof.Proof.Bits.LoopFacts

set_option maxRecDepth 8192

noncomputable section

namespace Cert.Kernel.ValLoop6

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Cert.Kernel.Cells Cert.Kernel.Sched Cert.Kernel.State Cert.Kernel.LoopsU Cert.Kernel.Values Cert.Kernel.ValCommon

variable {F : FTy → Type} [FloatOps F]

local notation "𝕄" => MT nD τ sig Unit (Elt F) ℕ UU ℕ

variable (m : (ℓ : Loc nD τ sig) → Buf (Elt F) ℓ) (ρ : Dev nD → PrngReg)

set_option warn.classDefReducibility false in
/-- The loop's invariant instance at the named contents it reads and at the contents the written buffers hold on entry. -/
def L6 (c : Dev nD) (fo : Buf (Elt F) ((c : Thread nD τ).loc cc0_stg3_0)) :
    Gen.LoopInvTy_k0_t6 (F := F) Unit ℕ UU ℕ 𝒱₀ c none Set.univ (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) cc0_scratch7 cc0_scratch8 cc0_scratch9 cc0_scratch10 :=
  loopInv_k0_t6U (F := F) 𝒱₀ c none Set.univ qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 (qT m ρ c) (kC m ρ c) (vC m ρ c) (a2 m ρ c) (l2 m ρ c) fo

/-- After j trips the pieces written are the first j tiles. -/
theorem pb_upTo (c : Dev nD) :
    ∀ (j : ℕ) (h : j ≤ k0_t6_loop.trips),
      pb_k0_t6U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 (qT m ρ c) (kC m ρ c) (vC m ρ c) (a2 m ρ c) (l2 m ρ c) j
        = upTo (oPiece m ρ c) j h
  | 0, _ => rfl
  | j + 1, h => by
    refine (pb_k0_t6U_succ (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 (qT m ρ c) (kC m ρ c) (vC m ρ c) (a2 m ρ c) (l2 m ρ c) ⟨j, h⟩).trans ?_
    rw [LoopPieces.pieces_t6, pb_upTo c j (Nat.le_of_succ_le h)]
    rfl

theorem in6 (c : Dev nD) (fo : Buf (Elt F) ((c : Thread nD τ).loc cc0_stg3_0)) :
    (iprop((((c : Thread nD τ).loc cc0_scratch0) ↦{fullShare} qT m ρ c)
        ∗ (((c : Thread nD τ).loc cc0_scratch3) ↦{fullShare} kC m ρ c)
        ∗ (((c : Thread nD τ).loc cc0_scratch4) ↦{fullShare} vC m ρ c)
        ∗ (((c : Thread nD τ).loc cc0_scratch5) ↦{fullShare} a2 m ρ c)
        ∗ (((c : Thread nD τ).loc cc0_scratch6) ↦{fullShare} l2 m ρ c)
        ∗ (((c : Thread nD τ).loc cc0_stg3_0) ↦{fullShare} fo)) : sProp 𝕄)
      ⊢ (L6 m ρ c fo).inv 0 () := by
  show _ ⊢ inv_k0_t6U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 (qT m ρ c) (kC m ρ c) (vC m ρ c) (a2 m ρ c) (l2 m ρ c) fo 0 ()
  dsimp only [inv_k0_t6U]
  simp only [Memref.view_whole, View.set_whole]
  iintro ⟨HR0, HR1, HR2, HR3, HR4, HW0⟩
  isplitl [HR0]; · iexact HR0
  isplitl [HR1]; · iexact HR1
  isplitl [HR2]; · iexact HR2
  isplitl [HR3]; · iexact HR3
  isplitl [HR4]; · iexact HR4
  iexists fo; isplitl [HW0]; · iexact HW0
  ipureintro; rfl

theorem out6 (c : Dev nD) (fo : Buf (Elt F) ((c : Thread nD τ).loc cc0_stg3_0)) :
    (L6 m ρ c fo).inv (Scf.trips k0_t6_loop.lb k0_t6_loop.ub k0_t6_loop.st) ()
      ⊢ (iprop((((c : Thread nD τ).loc cc0_scratch0) ↦{fullShare} qT m ρ c)
        ∗ (((c : Thread nD τ).loc cc0_scratch3) ↦{fullShare} kC m ρ c)
        ∗ (((c : Thread nD τ).loc cc0_scratch4) ↦{fullShare} vC m ρ c)
        ∗ (((c : Thread nD τ).loc cc0_scratch5) ↦{fullShare} a2 m ρ c)
        ∗ (((c : Thread nD τ).loc cc0_scratch6) ↦{fullShare} l2 m ρ c)
        ∗ (((c : Thread nD τ).loc cc0_stg3_0) ↦{fullShare} outV m ρ c)) : sProp 𝕄) := by
  show inv_k0_t6U (F := F) 𝒱₀ c none qM (Memref.isWhole_whole _) kM (Memref.isWhole_whole _) vM (Memref.isWhole_whole _) oM (Memref.isWhole_whole _) qtM (Memref.isWhole_whole _) klocM (Memref.isWhole_whole _) vlocM (Memref.isWhole_whole _) kcomM (Memref.isWhole_whole _) vcomM (Memref.isWhole_whole _) accM (Memref.isWhole_whole _) lsumM (Memref.isWhole_whole _) cc0_scratch7 cc0_scratch8 cc0_scratch9 cc0_scratch10 (qT m ρ c) (kC m ρ c) (vC m ρ c) (a2 m ρ c) (l2 m ρ c) fo k0_t6_loop.trips () ⊢ _
  dsimp only [inv_k0_t6U]
  rw [pb_upTo m ρ c k0_t6_loop.trips (Nat.le_refl _)]
  simp only [Memref.view_whole, View.set_whole]
  iintro ⟨HR0, HR1, HR2, HR3, HR4, ⟨%g0, HW0, %h0⟩⟩
  have e0 : g0 = outV m ρ c := h0.trans (whole_writes_eq_canon cc0_stg3_0 fo _ (cover13 fun k => (oPiece m ρ c k).2))
  subst e0
  isplitl [HR0]; · iexact HR0
  isplitl [HR1]; · iexact HR1
  isplitl [HR2]; · iexact HR2
  isplitl [HR3]; · iexact HR3
  isplitl [HR4]; · iexact HR4
  iexact HW0

/-- info: 'Cert.Kernel.ValLoop6.out6' depends on axioms: [propext, Classical.choice, Quot.sound] -/
#guard_msgs in #print axioms out6
/-- info: 'Cert.Kernel.ValLoop6.in6' depends on axioms: [propext, Classical.choice, Quot.sound] -/
#guard_msgs in #print axioms in6

end Cert.Kernel.ValLoop6

end
-- ==== Proof.Bits.LoopsAll.lean ====
/-
  The six loops and the six landings, put together: the run of the whole mesh ends with every device's result
  array holding its named result block and its three input arrays unchanged.
-/
import proofs.«900413_g7700000000000414_dist_agattn_v7x_xyz2x4x4_z_b2_s512_h8_d64_bf16_1_alg».proof.Proof.Bits.Frames
import proofs.«900413_g7700000000000414_dist_agattn_v7x_xyz2x4x4_z_b2_s512_h8_d64_bf16_1_alg».proof.Proof.Bits.ValLandings
import proofs.«900413_g7700000000000414_dist_agattn_v7x_xyz2x4x4_z_b2_s512_h8_d64_bf16_1_alg».proof.Proof.Bits.ValLoop1
import proofs.«900413_g7700000000000414_dist_agattn_v7x_xyz2x4x4_z_b2_s512_h8_d64_bf16_1_alg».proof.Proof.Bits.ValLoop2
import proofs.«900413_g7700000000000414_dist_agattn_v7x_xyz2x4x4_z_b2_s512_h8_d64_bf16_1_alg».proof.Proof.Bits.ValLoop3
import proofs.«900413_g7700000000000414_dist_agattn_v7x_xyz2x4x4_z_b2_s512_h8_d64_bf16_1_alg».proof.Proof.Bits.ValLoop4
import proofs.«900413_g7700000000000414_dist_agattn_v7x_xyz2x4x4_z_b2_s512_h8_d64_bf16_1_alg».proof.Proof.Bits.ValLoop5
import proofs.«900413_g7700000000000414_dist_agattn_v7x_xyz2x4x4_z_b2_s512_h8_d64_bf16_1_alg».proof.Proof.Bits.ValLoop6

noncomputable section

namespace Cert.Kernel.LoopsAll

open Cert.Kernel Cert.Kernel.Gen Cert.Kernel.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel.Cells Cert.Kernel.State

variable {F : FTy → Type} [FloatOps F]

variable (m : (ℓ : Loc nD τ sig) → Buf (Elt F) ℓ) (ρ : Dev nD → PrngReg)

/-- The six loops at the named contents. -/
def loops : LoopFacts.Loops m ρ (Values.kT m ρ) (Values.vT m ρ) (Values.kC m ρ) (Values.vC m ρ) (Values.outV m ρ)
    (Values.qT m ρ) (Values.a0 m ρ) (Values.a1 m ρ) (Values.a2 m ρ) (Values.l0 m ρ) (Values.l1 m ρ) (Values.l2 m ρ) where
  L1 := ValLoop1.L1 m ρ
  in1 := ValLoop1.in1 m ρ
  out1 := ValLoop1.out1 m ρ
  L2 := ValLoop2.L2 m ρ
  in2 := ValLoop2.in2 m ρ
  out2 := ValLoop2.out2 m ρ
  L3 := ValLoop3.L3 m ρ
  in3 := ValLoop3.in3 m ρ
  out3 := ValLoop3.out3 m ρ
  L4 := ValLoop4.L4 m ρ
  in4 := ValLoop4.in4 m ρ
  out4 := ValLoop4.out4 m ρ
  L5 := ValLoop5.L5 m ρ
  in5 := ValLoop5.in5 m ρ
  out5 := ValLoop5.out5 m ρ
  L6 := ValLoop6.L6 m ρ
  in6 := ValLoop6.in6 m ρ
  out6 := ValLoop6.out6 m ρ

/-- Every fair execution of the kernel on the thirty-two devices ends, faults nowhere, leaves each device's three
    input arrays as they were, and leaves in each device's result array its named result block. -/
theorem run : θ_run defs (onTc (τ := τ) (main (F := F))) ⟨m, fun _ => 0, ρ⟩ (fun r => ∀ c : Dev nD,
      r.2.mem ((c.tc : Thread nD τ).loc main_v1) = Values.outV m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  Frames.run m ρ (Values.kT m ρ) (Values.vT m ρ) (Values.kC m ρ) (Values.vC m ρ) (Values.outV m ρ)
    (Values.qT m ρ) (Values.a0 m ρ) (Values.a1 m ρ) (Values.a2 m ρ) (Values.l0 m ρ) (Values.l1 m ρ) (Values.l2 m ρ)
    (ValLandings.landings m ρ) (loops m ρ)

/-- info: 'Cert.Kernel.LoopsAll.run' depends on axioms: [propext, Classical.choice, Quot.sound] -/
#guard_msgs in #print axioms run

end Cert.Kernel.LoopsAll

end
-- ==== Proof.Tiles.lean ====
/-
  A buffer filled tile by tile reads, on tile k, as what trip k stored there.

  Each loop's sixteen store rectangles are pairwise disjoint (two trips differ in batch or in head, and a tile is
  one unit thick on both of those axes), so an index of tile k is covered by piece k alone, and the overlay of the
  pieces reads there as piece k's payload at the index's place inside the tile.
-/
import proofs.«900413_g7700000000000414_dist_agattn_v7x_xyz2x4x4_z_b2_s512_h8_d64_bf16_1_alg».proof.Proof.ValCommon
import proofs.«900413_g7700000000000414_dist_agattn_v7x_xyz2x4x4_z_b2_s512_h8_d64_bf16_1_alg».proof.Proof.Offsets

noncomputable section

namespace Cert.KernelIdeal.Tiles

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.State Cert.KernelIdeal.ValCommon Cert.KernelIdeal.Offsets

variable {F : FTy → Type} [FloatOps F]

variable (m : (ℓ : Loc nD τ sig) → Buf (Elt F) ℓ) (ρ : Dev nD → PrngReg)

/-- In an overlay of pieces, an index that exactly one piece covers reads that piece's payload at its place in the
    piece, wherever the piece sits in the list. -/
theorem canon_of_unique {S : Shape} {e : EltTy} (p : View.Piece (Elt F) S e) (x : p.1.shape.Idx) :
    ∀ L : List (View.Piece (Elt F) S e), p ∈ L → (∀ q ∈ L, p.1.emb x ∈ q.1.set → q = p) → View.canon L (p.1.emb x) = p.2 x
  | [], hp, _ => absurd hp List.not_mem_nil
  | q :: L, hp, hu => by
    by_cases hq : p.1.emb x ∈ q.1.set
    · obtain rfl := hu q List.mem_cons_self hq
      exact View.canon_cons_emb q.1 q.2 L x
    · have hp' : p ∈ L := by
        rcases List.mem_cons.mp hp with rfl | h
        · exact absurd (by rw [← Rect.map_emb_univ]; exact Finset.mem_map_of_mem _ (Finset.mem_univ x)) hq
        · exact h
      rw [View.canon_cons_of_not_mem q L hq]
      exact canon_of_unique p x L hp' fun q' hq' => hu q' (List.mem_cons_of_mem _ hq')

/-- Pairwise disjoint tiles: the overlay of all of them reads, on tile `k`, as tile `k`'s payload. -/
theorem canon_tiles {S : Shape} {e : EltTy} {n : ℕ} (piece : Fin n → View.Piece (Elt F) S e)
    (hd : ∀ k k', k ≠ k' → Disjoint (piece k).1.set (piece k').1.set) (k : Fin n) (x : (piece k).1.shape.Idx) :
    View.canon (Values.tiles piece) ((piece k).1.emb x) = (piece k).2 x := by
  refine canon_of_unique (piece k) x _ ((Values.mem_tiles piece _).2 ⟨k, rfl⟩) fun q hq hx => ?_
  obtain ⟨k', rfl⟩ := (Values.mem_tiles piece q).1 hq
  by_cases h : k = k'
  · rw [h]
  · exact absurd hx (Finset.disjoint_left.mp (hd k k' h) (by rw [← Rect.map_emb_univ]; exact Finset.mem_map_of_mem _ (Finset.mem_univ x)))

/-! ## The tilings are disjoint -/

theorem sep2 : ∀ k k' : Fin k0_t1_loop.trips, k ≠ k' →
    (k0_off2 k ⟨0, by decide⟩ + S1x1x64x512.size ⟨0, by decide⟩ ≤ k0_off2 k' ⟨0, by decide⟩ ∨ k0_off2 k' ⟨0, by decide⟩ + S1x1x64x512.size ⟨0, by decide⟩ ≤ k0_off2 k ⟨0, by decide⟩)
    ∨ (k0_off2 k ⟨1, by decide⟩ + S1x1x64x512.size ⟨1, by decide⟩ ≤ k0_off2 k' ⟨1, by decide⟩ ∨ k0_off2 k' ⟨1, by decide⟩ + S1x1x64x512.size ⟨1, by decide⟩ ≤ k0_off2 k ⟨1, by decide⟩) := by
  decide +kernel
theorem disjoint2 {k k' : Fin k0_t1_loop.trips} (h : k ≠ k') : Disjoint (R2 k).set (R2 k').set := by
  rcases sep2 k k' h with h0 | h1
  · exact Rect.unit_disjoint ⟨0, by decide⟩ h0
  · exact Rect.unit_disjoint ⟨1, by decide⟩ h1
theorem sep4 : ∀ k k' : Fin k0_t2_loop.trips, k ≠ k' →
    (k0_off4 k ⟨0, by decide⟩ + S1x1x512x64.size ⟨0, by decide⟩ ≤ k0_off4 k' ⟨0, by decide⟩ ∨ k0_off4 k' ⟨0, by decide⟩ + S1x1x512x64.size ⟨0, by decide⟩ ≤ k0_off4 k ⟨0, by decide⟩)
    ∨ (k0_off4 k ⟨1, by decide⟩ + S1x1x512x64.size ⟨1, by decide⟩ ≤ k0_off4 k' ⟨1, by decide⟩ ∨ k0_off4 k' ⟨1, by decide⟩ + S1x1x512x64.size ⟨1, by decide⟩ ≤ k0_off4 k ⟨1, by decide⟩) := by
  decide +kernel
theorem disjoint4 {k k' : Fin k0_t2_loop.trips} (h : k ≠ k') : Disjoint (R4 k).set (R4 k').set := by
  rcases sep4 k k' h with h0 | h1
  · exact Rect.unit_disjoint ⟨0, by decide⟩ h0
  · exact Rect.unit_disjoint ⟨1, by decide⟩ h1
theorem sep5 : ∀ k k' : Fin k0_t3_loop.trips, k ≠ k' →
    (k0_off5 k ⟨0, by decide⟩ + S1x1x512x64.size ⟨0, by decide⟩ ≤ k0_off5 k' ⟨0, by decide⟩ ∨ k0_off5 k' ⟨0, by decide⟩ + S1x1x512x64.size ⟨0, by decide⟩ ≤ k0_off5 k ⟨0, by decide⟩)
    ∨ (k0_off5 k ⟨1, by decide⟩ + S1x1x512x64.size ⟨1, by decide⟩ ≤ k0_off5 k' ⟨1, by decide⟩ ∨ k0_off5 k' ⟨1, by decide⟩ + S1x1x512x64.size ⟨1, by decide⟩ ≤ k0_off5 k ⟨1, by decide⟩) := by
  decide +kernel
theorem disjoint5 {k k' : Fin k0_t3_loop.trips} (h : k ≠ k') : Disjoint (R5 k).set (R5 k').set := by
  rcases sep5 k k' h with h0 | h1
  · exact Rect.unit_disjoint ⟨0, by decide⟩ h0
  · exact Rect.unit_disjoint ⟨1, by decide⟩ h1
theorem sep13 : ∀ k k' : Fin k0_t6_loop.trips, k ≠ k' →
    (k0_off13 k ⟨0, by decide⟩ + S1x512x1x64.size ⟨0, by decide⟩ ≤ k0_off13 k' ⟨0, by decide⟩ ∨ k0_off13 k' ⟨0, by decide⟩ + S1x512x1x64.size ⟨0, by decide⟩ ≤ k0_off13 k ⟨0, by decide⟩)
    ∨ (k0_off13 k ⟨2, by decide⟩ + S1x512x1x64.size ⟨2, by decide⟩ ≤ k0_off13 k' ⟨2, by decide⟩ ∨ k0_off13 k' ⟨2, by decide⟩ + S1x512x1x64.size ⟨2, by decide⟩ ≤ k0_off13 k ⟨2, by decide⟩) := by
  decide +kernel
theorem disjoint13 {k k' : Fin k0_t6_loop.trips} (h : k ≠ k') : Disjoint (R13 k).set (R13 k').set := by
  rcases sep13 k k' h with h0 | h1
  · exact Rect.unit_disjoint ⟨0, by decide⟩ h0
  · exact Rect.unit_disjoint ⟨2, by decide⟩ h1

/-! ## Each named buffer on a tile -/

theorem kT_tile (c : Dev nD) (k) (x : (R2 k).shape.Idx) :
    Values.kT m ρ c ((R2 k).emb x) = (Values.kPiece m ρ c k).2 x :=
  canon_tiles (Values.kPiece m ρ c) (fun k k' h => disjoint2 h) k x
theorem vT_tile (c : Dev nD) (k) (x : (R2 k).shape.Idx) :
    Values.vT m ρ c ((R2 k).emb x) = (Values.vPiece m ρ c k).2 x :=
  canon_tiles (Values.vPiece m ρ c) (fun k k' h => disjoint2 h) k x
theorem qT_tile (c : Dev nD) (k) (x : (R4 k).shape.Idx) :
    Values.qT m ρ c ((R4 k).emb x) = (Values.qPiece m ρ c k).2 x :=
  canon_tiles (Values.qPiece m ρ c) (fun k k' h => disjoint4 h) k x
theorem a0_tile (c : Dev nD) (k) (x : (R5 k).shape.Idx) :
    Values.a0 m ρ c ((R5 k).emb x) = (Values.a0Piece m ρ c k).2 x :=
  canon_tiles (Values.a0Piece m ρ c) (fun k k' h => disjoint5 h) k x
theorem l0_tile (c : Dev nD) (k) (x : (R5 k).shape.Idx) :
    Values.l0 m ρ c ((R5 k).emb x) = (Values.l0Piece m ρ c k).2 x :=
  canon_tiles (Values.l0Piece m ρ c) (fun k k' h => disjoint5 h) k x
theorem a1_tile (c : Dev nD) (k) (x : (R7 k).shape.Idx) :
    Values.a1 m ρ c ((R7 k).emb x) = (Values.a1Piece m ρ c k).2 x :=
  canon_tiles (Values.a1Piece m ρ c) (fun k k' h => disjoint7 h) k x
theorem l1_tile (c : Dev nD) (k) (x : (R7 k).shape.Idx) :
    Values.l1 m ρ c ((R7 k).emb x) = (Values.l1Piece m ρ c k).2 x :=
  canon_tiles (Values.l1Piece m ρ c) (fun k k' h => disjoint7 h) k x
theorem a2_tile (c : Dev nD) (k) (x : (R9 k).shape.Idx) :
    Values.a2 m ρ c ((R9 k).emb x) = (Values.a2Piece m ρ c k).2 x :=
  canon_tiles (Values.a2Piece m ρ c) (fun k k' h => disjoint9 h) k x
theorem l2_tile (c : Dev nD) (k) (x : (R9 k).shape.Idx) :
    Values.l2 m ρ c ((R9 k).emb x) = (Values.l2Piece m ρ c k).2 x :=
  canon_tiles (Values.l2Piece m ρ c) (fun k k' h => disjoint9 h) k x
theorem outV_tile (c : Dev nD) (k) (x : (R13 k).shape.Idx) :
    Values.outV m ρ c ((R13 k).emb x) = (Values.oPiece m ρ c k).2 x :=
  canon_tiles (Values.oPiece m ρ c) (fun k k' h => disjoint13 h) k x

end Cert.KernelIdeal.Tiles

end
-- ==== Proof.BridgeIdx.lean ====
/-
  Which tile an index lies in, and where each trip reads.

  Trip 8 b + h is the tile of batch b and head h. In a head-major buffer the tile's element (d, t) or (s, d) sits at
  (b, h, ., .); in a staged array, laid out (batch, position, head, feature), its element (s, d) sits at (b, s, h, d);
  in slot r of a landing buffer its element (d, t) sits at (r, b, h, d, t). A slot, viewed as a buffer of its own,
  is that slab with the first coordinate dropped. So slot r of a device's landing buffer reads as its r-th peer's
  transposed block.
-/
import proofs.«900413_g7700000000000414_dist_agattn_v7x_xyz2x4x4_z_b2_s512_h8_d64_bf16_1_alg».proof.Proof.Tiles
import proofs.«900413_g7700000000000414_dist_agattn_v7x_xyz2x4x4_z_b2_s512_h8_d64_bf16_1_alg».proof.Proof.ValLandings
import Idealize.ShloMosaic.Lib.ValueIdx

noncomputable section

namespace Cert.KernelIdeal.BridgeIdx

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.State Cert.KernelIdeal.ValCommon Cert.KernelIdeal.Offsets
open Idealize.ShloMosaic.ValueIdx

variable {F : FTy → Type} [FloatOps F]

variable (m : (ℓ : Loc nD τ sig) → Buf (Elt F) ℓ) (ρ : Dev nD → PrngReg)

/-- Trip `8 b + h` of each loop. -/
def tr1 (b : Fin 2) (h : Fin 8) : Fin k0_t1_loop.trips := ⟨8 * b.val + h.val, by rw [trips1]; omega⟩
def tr2 (b : Fin 2) (h : Fin 8) : Fin k0_t2_loop.trips := ⟨8 * b.val + h.val, by rw [trips2]; omega⟩
def tr3 (b : Fin 2) (h : Fin 8) : Fin k0_t3_loop.trips := ⟨8 * b.val + h.val, by rw [trips3]; omega⟩
def tr4 (b : Fin 2) (h : Fin 8) : Fin k0_t4_loop.trips := ⟨8 * b.val + h.val, by rw [trips4]; omega⟩
def tr5 (b : Fin 2) (h : Fin 8) : Fin k0_t5_loop.trips := ⟨8 * b.val + h.val, by rw [trips5]; omega⟩
def tr6 (b : Fin 2) (h : Fin 8) : Fin k0_t6_loop.trips := ⟨8 * b.val + h.val, by rw [trips6]; omega⟩

/-! ## An element of a tile, in its buffer; a trip's loads, in theirs -/

theorem emb2 (b : Fin 2) (h : Fin 8) (d : Fin 64) (t : Fin 512) : (R2 (tr1 b h)).emb (ix4 0 0 d t) = (ix4 b h d t : S2x8x64x512.Idx) := by
  funext a; apply Fin.ext
  have e := off2_eq (tr1 b h)
  match a with
  | ⟨0, _⟩ => show k0_off2 (tr1 b h) 0 + 1 * 0 = b.val; rw [e]; show (8 * b.val + h.val) / 8 + 1 * 0 = b.val; omega
  | ⟨1, _⟩ => show k0_off2 (tr1 b h) 1 + 1 * 0 = h.val; rw [e]; show (8 * b.val + h.val) % 8 + 1 * 0 = h.val; omega
  | ⟨2, _⟩ => show k0_off2 (tr1 b h) 2 + 1 * d.val = d.val; rw [e]; show 0 + 1 * d.val = d.val; omega
  | ⟨3, _⟩ => show k0_off2 (tr1 b h) 3 + 1 * t.val = t.val; rw [e]; show 0 + 1 * t.val = t.val; omega
theorem emb4 (b : Fin 2) (h : Fin 8) (s : Fin 512) (d : Fin 64) : (R4 (tr2 b h)).emb (ix4 0 0 s d) = (ix4 b h s d : S2x8x512x64.Idx) := by
  funext a; apply Fin.ext
  have e := off4_eq (tr2 b h)
  match a with
  | ⟨0, _⟩ => show k0_off4 (tr2 b h) 0 + 1 * 0 = b.val; rw [e]; show (8 * b.val + h.val) / 8 + 1 * 0 = b.val; omega
  | ⟨1, _⟩ => show k0_off4 (tr2 b h) 1 + 1 * 0 = h.val; rw [e]; show (8 * b.val + h.val) % 8 + 1 * 0 = h.val; omega
  | ⟨2, _⟩ => show k0_off4 (tr2 b h) 2 + 1 * s.val = s.val; rw [e]; show 0 + 1 * s.val = s.val; omega
  | ⟨3, _⟩ => show k0_off4 (tr2 b h) 3 + 1 * d.val = d.val; rw [e]; show 0 + 1 * d.val = d.val; omega
theorem emb5 (b : Fin 2) (h : Fin 8) (s : Fin 512) (d : Fin 64) : (R5 (tr3 b h)).emb (ix4 0 0 s d) = (ix4 b h s d : S2x8x512x64.Idx) := by
  funext a; apply Fin.ext
  have e := off5_eq (tr3 b h)
  match a with
  | ⟨0, _⟩ => show k0_off5 (tr3 b h) 0 + 1 * 0 = b.val; rw [e]; show (8 * b.val + h.val) / 8 + 1 * 0 = b.val; omega
  | ⟨1, _⟩ => show k0_off5 (tr3 b h) 1 + 1 * 0 = h.val; rw [e]; show (8 * b.val + h.val) % 8 + 1 * 0 = h.val; omega
  | ⟨2, _⟩ => show k0_off5 (tr3 b h) 2 + 1 * s.val = s.val; rw [e]; show 0 + 1 * s.val = s.val; omega
  | ⟨3, _⟩ => show k0_off5 (tr3 b h) 3 + 1 * d.val = d.val; rw [e]; show 0 + 1 * d.val = d.val; omega
theorem emb7 (b : Fin 2) (h : Fin 8) (s : Fin 512) (d : Fin 64) : (R7 (tr4 b h)).emb (ix4 0 0 s d) = (ix4 b h s d : S2x8x512x64.Idx) := by
  funext a; apply Fin.ext
  have e := off7_eq (tr4 b h)
  match a with
  | ⟨0, _⟩ => show k0_off7 (tr4 b h) 0 + 1 * 0 = b.val; rw [e]; show (8 * b.val + h.val) / 8 + 1 * 0 = b.val; omega
  | ⟨1, _⟩ => show k0_off7 (tr4 b h) 1 + 1 * 0 = h.val; rw [e]; show (8 * b.val + h.val) % 8 + 1 * 0 = h.val; omega
  | ⟨2, _⟩ => show k0_off7 (tr4 b h) 2 + 1 * s.val = s.val; rw [e]; show 0 + 1 * s.val = s.val; omega
  | ⟨3, _⟩ => show k0_off7 (tr4 b h) 3 + 1 * d.val = d.val; rw [e]; show 0 + 1 * d.val = d.val; omega
theorem emb9 (b : Fin 2) (h : Fin 8) (s : Fin 512) (d : Fin 64) : (R9 (tr5 b h)).emb (ix4 0 0 s d) = (ix4 b h s d : S2x8x512x64.Idx) := by
  funext a; apply Fin.ext
  have e := off9_eq (tr5 b h)
  match a with
  | ⟨0, _⟩ => show k0_off9 (tr5 b h) 0 + 1 * 0 = b.val; rw [e]; show (8 * b.val + h.val) / 8 + 1 * 0 = b.val; omega
  | ⟨1, _⟩ => show k0_off9 (tr5 b h) 1 + 1 * 0 = h.val; rw [e]; show (8 * b.val + h.val) % 8 + 1 * 0 = h.val; omega
  | ⟨2, _⟩ => show k0_off9 (tr5 b h) 2 + 1 * s.val = s.val; rw [e]; show 0 + 1 * s.val = s.val; omega
  | ⟨3, _⟩ => show k0_off9 (tr5 b h) 3 + 1 * d.val = d.val; rw [e]; show 0 + 1 * d.val = d.val; omega
theorem emb13 (b : Fin 2) (h : Fin 8) (s : Fin 512) (d : Fin 64) : (R13 (tr6 b h)).emb (ix4 0 s 0 d) = (ix4 b s h d : S2x512x8x64.Idx) := by
  funext a; apply Fin.ext
  have e := off13_eq (tr6 b h)
  match a with
  | ⟨0, _⟩ => show k0_off13 (tr6 b h) 0 + 1 * 0 = b.val; rw [e]; show (8 * b.val + h.val) / 8 + 1 * 0 = b.val; omega
  | ⟨1, _⟩ => show k0_off13 (tr6 b h) 1 + 1 * s.val = s.val; rw [e]; show 0 + 1 * s.val = s.val; omega
  | ⟨2, _⟩ => show k0_off13 (tr6 b h) 2 + 1 * 0 = h.val; rw [e]; show (8 * b.val + h.val) % 8 + 1 * 0 = h.val; omega
  | ⟨3, _⟩ => show k0_off13 (tr6 b h) 3 + 1 * d.val = d.val; rw [e]; show 0 + 1 * d.val = d.val; omega
theorem ld1 (b : Fin 2) (h : Fin 8) (s : Fin 512) (d : Fin 64) :
    (Rect.unit (s := S2x512x8x64) (k0_off1 (tr1 b h)) S1x512x1x64.size (k0_off1_inb (tr1 b h))).toLoadRect.idx (ix4 0 s 0 d) = (ix4 b s h d : S2x512x8x64.Idx) := by
  funext a; apply Fin.ext
  have e := off1_eq (tr1 b h)
  match a with
  | ⟨0, _⟩ => show k0_off1 (tr1 b h) 0 + 1 * 0 = b.val; rw [e]; show (8 * b.val + h.val) / 8 + 1 * 0 = b.val; omega
  | ⟨1, _⟩ => show k0_off1 (tr1 b h) 1 + 1 * s.val = s.val; rw [e]; show 0 + 1 * s.val = s.val; omega
  | ⟨2, _⟩ => show k0_off1 (tr1 b h) 2 + 1 * 0 = h.val; rw [e]; show (8 * b.val + h.val) % 8 + 1 * 0 = h.val; omega
  | ⟨3, _⟩ => show k0_off1 (tr1 b h) 3 + 1 * d.val = d.val; rw [e]; show 0 + 1 * d.val = d.val; omega
theorem ld3 (b : Fin 2) (h : Fin 8) (s : Fin 512) (d : Fin 64) :
    (Rect.unit (s := S2x512x8x64) (k0_off3 (tr2 b h)) S1x512x1x64.size (k0_off3_inb (tr2 b h))).toLoadRect.idx (ix4 0 s 0 d) = (ix4 b s h d : S2x512x8x64.Idx) := by
  funext a; apply Fin.ext
  have e := off3_eq (tr2 b h)
  match a with
  | ⟨0, _⟩ => show k0_off3 (tr2 b h) 0 + 1 * 0 = b.val; rw [e]; show (8 * b.val + h.val) / 8 + 1 * 0 = b.val; omega
  | ⟨1, _⟩ => show k0_off3 (tr2 b h) 1 + 1 * s.val = s.val; rw [e]; show 0 + 1 * s.val = s.val; omega
  | ⟨2, _⟩ => show k0_off3 (tr2 b h) 2 + 1 * 0 = h.val; rw [e]; show (8 * b.val + h.val) % 8 + 1 * 0 = h.val; omega
  | ⟨3, _⟩ => show k0_off3 (tr2 b h) 3 + 1 * d.val = d.val; rw [e]; show 0 + 1 * d.val = d.val; omega
theorem ld5 (b : Fin 2) (h : Fin 8) (s : Fin 512) (d : Fin 64) :
    (Rect.unit (s := S2x8x512x64) (k0_off5 (tr3 b h)) S1x1x512x64.size (k0_off5_inb (tr3 b h))).toLoadRect.idx (ix4 0 0 s d) = (ix4 b h s d : S2x8x512x64.Idx) := by
  funext a; apply Fin.ext
  have e := off5_eq (tr3 b h)
  match a with
  | ⟨0, _⟩ => show k0_off5 (tr3 b h) 0 + 1 * 0 = b.val; rw [e]; show (8 * b.val + h.val) / 8 + 1 * 0 = b.val; omega
  | ⟨1, _⟩ => show k0_off5 (tr3 b h) 1 + 1 * 0 = h.val; rw [e]; show (8 * b.val + h.val) % 8 + 1 * 0 = h.val; omega
  | ⟨2, _⟩ => show k0_off5 (tr3 b h) 2 + 1 * s.val = s.val; rw [e]; show 0 + 1 * s.val = s.val; omega
  | ⟨3, _⟩ => show k0_off5 (tr3 b h) 3 + 1 * d.val = d.val; rw [e]; show 0 + 1 * d.val = d.val; omega
theorem ld6 (b : Fin 2) (h : Fin 8) (d : Fin 64) (t : Fin 512) :
    (Rect.unit (s := S2x8x64x512) (k0_off6 (tr3 b h)) S1x1x64x512.size (k0_off6_inb (tr3 b h))).toLoadRect.idx (ix4 0 0 d t) = (ix4 b h d t : S2x8x64x512.Idx) := by
  funext a; apply Fin.ext
  have e := off6_eq (tr3 b h)
  match a with
  | ⟨0, _⟩ => show k0_off6 (tr3 b h) 0 + 1 * 0 = b.val; rw [e]; show (8 * b.val + h.val) / 8 + 1 * 0 = b.val; omega
  | ⟨1, _⟩ => show k0_off6 (tr3 b h) 1 + 1 * 0 = h.val; rw [e]; show (8 * b.val + h.val) % 8 + 1 * 0 = h.val; omega
  | ⟨2, _⟩ => show k0_off6 (tr3 b h) 2 + 1 * d.val = d.val; rw [e]; show 0 + 1 * d.val = d.val; omega
  | ⟨3, _⟩ => show k0_off6 (tr3 b h) 3 + 1 * t.val = t.val; rw [e]; show 0 + 1 * t.val = t.val; omega
theorem ld7 (b : Fin 2) (h : Fin 8) (s : Fin 512) (d : Fin 64) :
    (Rect.unit (s := S2x8x512x64) (k0_off7 (tr4 b h)) S1x1x512x64.size (k0_off7_inb (tr4 b h))).toLoadRect.idx (ix4 0 0 s d) = (ix4 b h s d : S2x8x512x64.Idx) := by
  funext a; apply Fin.ext
  have e := off7_eq (tr4 b h)
  match a with
  | ⟨0, _⟩ => show k0_off7 (tr4 b h) 0 + 1 * 0 = b.val; rw [e]; show (8 * b.val + h.val) / 8 + 1 * 0 = b.val; omega
  | ⟨1, _⟩ => show k0_off7 (tr4 b h) 1 + 1 * 0 = h.val; rw [e]; show (8 * b.val + h.val) % 8 + 1 * 0 = h.val; omega
  | ⟨2, _⟩ => show k0_off7 (tr4 b h) 2 + 1 * s.val = s.val; rw [e]; show 0 + 1 * s.val = s.val; omega
  | ⟨3, _⟩ => show k0_off7 (tr4 b h) 3 + 1 * d.val = d.val; rw [e]; show 0 + 1 * d.val = d.val; omega
theorem ld8 (b : Fin 2) (h : Fin 8) (d : Fin 64) (t : Fin 512) :
    (Rect.unit (s := S3x2x8x64x512) (k0_off8 (tr4 b h)) S1x1x1x64x512.size (k0_off8_inb (tr4 b h))).toLoadRect.idx (ix5 0 0 0 d t) = (ix5 (0 : Fin 3) b h d t : S3x2x8x64x512.Idx) := by
  funext a; apply Fin.ext
  have e := off8_eq (tr4 b h)
  match a with
  | ⟨0, _⟩ => show k0_off8 (tr4 b h) 0 + 1 * 0 = 0; rw [e]; show 0 + 1 * 0 = 0; omega
  | ⟨1, _⟩ => show k0_off8 (tr4 b h) 1 + 1 * 0 = b.val; rw [e]; show (8 * b.val + h.val) / 8 + 1 * 0 = b.val; omega
  | ⟨2, _⟩ => show k0_off8 (tr4 b h) 2 + 1 * 0 = h.val; rw [e]; show (8 * b.val + h.val) % 8 + 1 * 0 = h.val; omega
  | ⟨3, _⟩ => show k0_off8 (tr4 b h) 3 + 1 * d.val = d.val; rw [e]; show 0 + 1 * d.val = d.val; omega
  | ⟨4, _⟩ => show k0_off8 (tr4 b h) 4 + 1 * t.val = t.val; rw [e]; show 0 + 1 * t.val = t.val; omega
theorem ld9 (b : Fin 2) (h : Fin 8) (s : Fin 512) (d : Fin 64) :
    (Rect.unit (s := S2x8x512x64) (k0_off9 (tr5 b h)) S1x1x512x64.size (k0_off9_inb (tr5 b h))).toLoadRect.idx (ix4 0 0 s d) = (ix4 b h s d : S2x8x512x64.Idx) := by
  funext a; apply Fin.ext
  have e := off9_eq (tr5 b h)
  match a with
  | ⟨0, _⟩ => show k0_off9 (tr5 b h) 0 + 1 * 0 = b.val; rw [e]; show (8 * b.val + h.val) / 8 + 1 * 0 = b.val; omega
  | ⟨1, _⟩ => show k0_off9 (tr5 b h) 1 + 1 * 0 = h.val; rw [e]; show (8 * b.val + h.val) % 8 + 1 * 0 = h.val; omega
  | ⟨2, _⟩ => show k0_off9 (tr5 b h) 2 + 1 * s.val = s.val; rw [e]; show 0 + 1 * s.val = s.val; omega
  | ⟨3, _⟩ => show k0_off9 (tr5 b h) 3 + 1 * d.val = d.val; rw [e]; show 0 + 1 * d.val = d.val; omega
theorem ld10 (b : Fin 2) (h : Fin 8) (d : Fin 64) (t : Fin 512) :
    (Rect.unit (s := S3x2x8x64x512) (k0_off10 (tr5 b h)) S1x1x1x64x512.size (k0_off10_inb (tr5 b h))).toLoadRect.idx (ix5 0 0 0 d t) = (ix5 (1 : Fin 3) b h d t : S3x2x8x64x512.Idx) := by
  funext a; apply Fin.ext
  have e := off10_eq (tr5 b h)
  match a with
  | ⟨0, _⟩ => show k0_off10 (tr5 b h) 0 + 1 * 0 = 1; rw [e]; show 1 + 1 * 0 = 1; omega
  | ⟨1, _⟩ => show k0_off10 (tr5 b h) 1 + 1 * 0 = b.val; rw [e]; show (8 * b.val + h.val) / 8 + 1 * 0 = b.val; omega
  | ⟨2, _⟩ => show k0_off10 (tr5 b h) 2 + 1 * 0 = h.val; rw [e]; show (8 * b.val + h.val) % 8 + 1 * 0 = h.val; omega
  | ⟨3, _⟩ => show k0_off10 (tr5 b h) 3 + 1 * d.val = d.val; rw [e]; show 0 + 1 * d.val = d.val; omega
  | ⟨4, _⟩ => show k0_off10 (tr5 b h) 4 + 1 * t.val = t.val; rw [e]; show 0 + 1 * t.val = t.val; omega
theorem ld11 (b : Fin 2) (h : Fin 8) (s : Fin 512) (d : Fin 64) :
    (Rect.unit (s := S2x8x512x64) (k0_off11 (tr6 b h)) S1x1x512x64.size (k0_off11_inb (tr6 b h))).toLoadRect.idx (ix4 0 0 s d) = (ix4 b h s d : S2x8x512x64.Idx) := by
  funext a; apply Fin.ext
  have e := off11_eq (tr6 b h)
  match a with
  | ⟨0, _⟩ => show k0_off11 (tr6 b h) 0 + 1 * 0 = b.val; rw [e]; show (8 * b.val + h.val) / 8 + 1 * 0 = b.val; omega
  | ⟨1, _⟩ => show k0_off11 (tr6 b h) 1 + 1 * 0 = h.val; rw [e]; show (8 * b.val + h.val) % 8 + 1 * 0 = h.val; omega
  | ⟨2, _⟩ => show k0_off11 (tr6 b h) 2 + 1 * s.val = s.val; rw [e]; show 0 + 1 * s.val = s.val; omega
  | ⟨3, _⟩ => show k0_off11 (tr6 b h) 3 + 1 * d.val = d.val; rw [e]; show 0 + 1 * d.val = d.val; omega
theorem ld12 (b : Fin 2) (h : Fin 8) (d : Fin 64) (t : Fin 512) :
    (Rect.unit (s := S3x2x8x64x512) (k0_off12 (tr6 b h)) S1x1x1x64x512.size (k0_off12_inb (tr6 b h))).toLoadRect.idx (ix5 0 0 0 d t) = (ix5 (2 : Fin 3) b h d t : S3x2x8x64x512.Idx) := by
  funext a; apply Fin.ext
  have e := off12_eq (tr6 b h)
  match a with
  | ⟨0, _⟩ => show k0_off12 (tr6 b h) 0 + 1 * 0 = 2; rw [e]; show 2 + 1 * 0 = 2; omega
  | ⟨1, _⟩ => show k0_off12 (tr6 b h) 1 + 1 * 0 = b.val; rw [e]; show (8 * b.val + h.val) / 8 + 1 * 0 = b.val; omega
  | ⟨2, _⟩ => show k0_off12 (tr6 b h) 2 + 1 * 0 = h.val; rw [e]; show (8 * b.val + h.val) % 8 + 1 * 0 = h.val; omega
  | ⟨3, _⟩ => show k0_off12 (tr6 b h) 3 + 1 * d.val = d.val; rw [e]; show 0 + 1 * d.val = d.val; omega
  | ⟨4, _⟩ => show k0_off12 (tr6 b h) 4 + 1 * t.val = t.val; rw [e]; show 0 + 1 * t.val = t.val; omega

/-! ## A slot as a buffer of its own -/

/-- Dropping the unit first axis of a slab keeps the row-major position. -/
theorem sq_idx (b : Fin 2) (h : Fin 8) (d : Fin 64) (t : Fin 512) :
    (Shape.reshapeEquiv squeezes_S1x2x8x64x512_S2x8x64x512.numel_eq) (ix4 b h d t) = (ix5 0 b h d t : S1x2x8x64x512.Idx) := by
  apply Shape.reshapeEquiv_eq_of_rowMajor
  rw [Shape.rowMajor_val_five, Shape.rowMajor_val_four]
  show ((((0 * 2 + b.val) * 8 + h.val) * 64 + d.val) * 512 + t.val) = (((b.val * 8 + h.val) * 64 + d.val) * 512 + t.val)
  omega

theorem kslot0_emb (b : Fin 2) (h : Fin 8) (d : Fin 64) (t : Fin 512) :
    (kslot0 : Memref sig .tc .vmem S2x8x64x512 .bf16).view.emb (ix4 b h d t) = (ix5 (0 : Fin 3) b h d t : S3x2x8x64x512.Idx) := by
  show (Slots.R0).emb ((Shape.reshapeEquiv squeezes_S1x2x8x64x512_S2x8x64x512.numel_eq) (ix4 b h d t)) = _
  rw [sq_idx b h d t]
  funext a; apply Fin.ext
  match a with
  | ⟨0, _⟩ => show 0 + 1 * 0 = 0; omega
  | ⟨1, _⟩ => show 0 + 1 * b.val = b.val; omega
  | ⟨2, _⟩ => show 0 + 1 * h.val = h.val; omega
  | ⟨3, _⟩ => show 0 + 1 * d.val = d.val; omega
  | ⟨4, _⟩ => show 0 + 1 * t.val = t.val; omega
theorem vslot0_emb (b : Fin 2) (h : Fin 8) (d : Fin 64) (t : Fin 512) :
    (vslot0 : Memref sig .tc .vmem S2x8x64x512 .bf16).view.emb (ix4 b h d t) = (ix5 (0 : Fin 3) b h d t : S3x2x8x64x512.Idx) := by
  show (Slots.R0).emb ((Shape.reshapeEquiv squeezes_S1x2x8x64x512_S2x8x64x512.numel_eq) (ix4 b h d t)) = _
  rw [sq_idx b h d t]
  funext a; apply Fin.ext
  match a with
  | ⟨0, _⟩ => show 0 + 1 * 0 = 0; omega
  | ⟨1, _⟩ => show 0 + 1 * b.val = b.val; omega
  | ⟨2, _⟩ => show 0 + 1 * h.val = h.val; omega
  | ⟨3, _⟩ => show 0 + 1 * d.val = d.val; omega
  | ⟨4, _⟩ => show 0 + 1 * t.val = t.val; omega
theorem kslot1_emb (b : Fin 2) (h : Fin 8) (d : Fin 64) (t : Fin 512) :
    (kslot1 : Memref sig .tc .vmem S2x8x64x512 .bf16).view.emb (ix4 b h d t) = (ix5 (1 : Fin 3) b h d t : S3x2x8x64x512.Idx) := by
  show (Slots.R1).emb ((Shape.reshapeEquiv squeezes_S1x2x8x64x512_S2x8x64x512.numel_eq) (ix4 b h d t)) = _
  rw [sq_idx b h d t]
  funext a; apply Fin.ext
  match a with
  | ⟨0, _⟩ => show 1 + 1 * 0 = 1; omega
  | ⟨1, _⟩ => show 0 + 1 * b.val = b.val; omega
  | ⟨2, _⟩ => show 0 + 1 * h.val = h.val; omega
  | ⟨3, _⟩ => show 0 + 1 * d.val = d.val; omega
  | ⟨4, _⟩ => show 0 + 1 * t.val = t.val; omega
theorem vslot1_emb (b : Fin 2) (h : Fin 8) (d : Fin 64) (t : Fin 512) :
    (vslot1 : Memref sig .tc .vmem S2x8x64x512 .bf16).view.emb (ix4 b h d t) = (ix5 (1 : Fin 3) b h d t : S3x2x8x64x512.Idx) := by
  show (Slots.R1).emb ((Shape.reshapeEquiv squeezes_S1x2x8x64x512_S2x8x64x512.numel_eq) (ix4 b h d t)) = _
  rw [sq_idx b h d t]
  funext a; apply Fin.ext
  match a with
  | ⟨0, _⟩ => show 1 + 1 * 0 = 1; omega
  | ⟨1, _⟩ => show 0 + 1 * b.val = b.val; omega
  | ⟨2, _⟩ => show 0 + 1 * h.val = h.val; omega
  | ⟨3, _⟩ => show 0 + 1 * d.val = d.val; omega
  | ⟨4, _⟩ => show 0 + 1 * t.val = t.val; omega
theorem kslot2_emb (b : Fin 2) (h : Fin 8) (d : Fin 64) (t : Fin 512) :
    (kslot2 : Memref sig .tc .vmem S2x8x64x512 .bf16).view.emb (ix4 b h d t) = (ix5 (2 : Fin 3) b h d t : S3x2x8x64x512.Idx) := by
  show (Slots.R2).emb ((Shape.reshapeEquiv squeezes_S1x2x8x64x512_S2x8x64x512.numel_eq) (ix4 b h d t)) = _
  rw [sq_idx b h d t]
  funext a; apply Fin.ext
  match a with
  | ⟨0, _⟩ => show 2 + 1 * 0 = 2; omega
  | ⟨1, _⟩ => show 0 + 1 * b.val = b.val; omega
  | ⟨2, _⟩ => show 0 + 1 * h.val = h.val; omega
  | ⟨3, _⟩ => show 0 + 1 * d.val = d.val; omega
  | ⟨4, _⟩ => show 0 + 1 * t.val = t.val; omega
theorem vslot2_emb (b : Fin 2) (h : Fin 8) (d : Fin 64) (t : Fin 512) :
    (vslot2 : Memref sig .tc .vmem S2x8x64x512 .bf16).view.emb (ix4 b h d t) = (ix5 (2 : Fin 3) b h d t : S3x2x8x64x512.Idx) := by
  show (Slots.R2).emb ((Shape.reshapeEquiv squeezes_S1x2x8x64x512_S2x8x64x512.numel_eq) (ix4 b h d t)) = _
  rw [sq_idx b h d t]
  funext a; apply Fin.ext
  match a with
  | ⟨0, _⟩ => show 2 + 1 * 0 = 2; omega
  | ⟨1, _⟩ => show 0 + 1 * b.val = b.val; omega
  | ⟨2, _⟩ => show 0 + 1 * h.val = h.val; omega
  | ⟨3, _⟩ => show 0 + 1 * d.val = d.val; omega
  | ⟨4, _⟩ => show 0 + 1 * t.val = t.val; omega

/-! ## The landing buffers, slot by slot -/

attribute [local irreducible] Values.kT Values.vT Values.kC Values.vC in
/-- Slot 0 of the key landing buffer reads as peer 0's transposed block. -/
theorem kC_at0 (c : Dev nD) (b : Fin 2) (h : Fin 8) (d : Fin 64) (t : Fin 512) :
    Values.kC m ρ c (ix5 (0 : Fin 3) b h d t : S3x2x8x64x512.Idx) = Values.kT m ρ (peer 0 c) (ix4 b h d t) := by
  have hi : (kslot0 : Memref sig .tc .vmem S2x8x64x512 .bf16).view.emb (ix4 b h d t) ∈ (kslot0 : Memref sig .tc .vmem S2x8x64x512 .bf16).view.set := View.emb_mem_set _ _
  have h1 := ValLandings.kC_on0 m ρ c (Values.kC m ρ c) _ hi
  rw [View.write_emb_of_mem _ _ (Finset.mem_univ _), kslot0_emb] at h1
  exact h1
attribute [local irreducible] Values.kT Values.vT Values.kC Values.vC in
/-- Slot 0 of the value landing buffer reads as peer 0's transposed block. -/
theorem vC_at0 (c : Dev nD) (b : Fin 2) (h : Fin 8) (d : Fin 64) (t : Fin 512) :
    Values.vC m ρ c (ix5 (0 : Fin 3) b h d t : S3x2x8x64x512.Idx) = Values.vT m ρ (peer 0 c) (ix4 b h d t) := by
  have hi : (vslot0 : Memref sig .tc .vmem S2x8x64x512 .bf16).view.emb (ix4 b h d t) ∈ (vslot0 : Memref sig .tc .vmem S2x8x64x512 .bf16).view.set := View.emb_mem_set _ _
  have h1 := ValLandings.vC_on0 m ρ c (Values.vC m ρ c) _ hi
  rw [View.write_emb_of_mem _ _ (Finset.mem_univ _), vslot0_emb] at h1
  exact h1
attribute [local irreducible] Values.kT Values.vT Values.kC Values.vC in
/-- Slot 1 of the key landing buffer reads as peer 1's transposed block. -/
theorem kC_at1 (c : Dev nD) (b : Fin 2) (h : Fin 8) (d : Fin 64) (t : Fin 512) :
    Values.kC m ρ c (ix5 (1 : Fin 3) b h d t : S3x2x8x64x512.Idx) = Values.kT m ρ (peer 1 c) (ix4 b h d t) := by
  have hi : (kslot1 : Memref sig .tc .vmem S2x8x64x512 .bf16).view.emb (ix4 b h d t) ∈ (kslot1 : Memref sig .tc .vmem S2x8x64x512 .bf16).view.set := View.emb_mem_set _ _
  have h1 := ValLandings.kC_on1 m ρ c (Values.kC m ρ c) _ hi
  rw [View.write_emb_of_mem _ _ (Finset.mem_univ _), kslot1_emb] at h1
  exact h1
attribute [local irreducible] Values.kT Values.vT Values.kC Values.vC in
/-- Slot 1 of the value landing buffer reads as peer 1's transposed block. -/
theorem vC_at1 (c : Dev nD) (b : Fin 2) (h : Fin 8) (d : Fin 64) (t : Fin 512) :
    Values.vC m ρ c (ix5 (1 : Fin 3) b h d t : S3x2x8x64x512.Idx) = Values.vT m ρ (peer 1 c) (ix4 b h d t) := by
  have hi : (vslot1 : Memref sig .tc .vmem S2x8x64x512 .bf16).view.emb (ix4 b h d t) ∈ (vslot1 : Memref sig .tc .vmem S2x8x64x512 .bf16).view.set := View.emb_mem_set _ _
  have h1 := ValLandings.vC_on1 m ρ c (Values.vC m ρ c) _ hi
  rw [View.write_emb_of_mem _ _ (Finset.mem_univ _), vslot1_emb] at h1
  exact h1
attribute [local irreducible] Values.kT Values.vT Values.kC Values.vC in
/-- Slot 2 of the key landing buffer reads as peer 2's transposed block. -/
theorem kC_at2 (c : Dev nD) (b : Fin 2) (h : Fin 8) (d : Fin 64) (t : Fin 512) :
    Values.kC m ρ c (ix5 (2 : Fin 3) b h d t : S3x2x8x64x512.Idx) = Values.kT m ρ (peer 2 c) (ix4 b h d t) := by
  have hi : (kslot2 : Memref sig .tc .vmem S2x8x64x512 .bf16).view.emb (ix4 b h d t) ∈ (kslot2 : Memref sig .tc .vmem S2x8x64x512 .bf16).view.set := View.emb_mem_set _ _
  have h1 := ValLandings.kC_on2 m ρ c (Values.kC m ρ c) _ hi
  rw [View.write_emb_of_mem _ _ (Finset.mem_univ _), kslot2_emb] at h1
  exact h1
attribute [local irreducible] Values.kT Values.vT Values.kC Values.vC in
/-- Slot 2 of the value landing buffer reads as peer 2's transposed block. -/
theorem vC_at2 (c : Dev nD) (b : Fin 2) (h : Fin 8) (d : Fin 64) (t : Fin 512) :
    Values.vC m ρ c (ix5 (2 : Fin 3) b h d t : S3x2x8x64x512.Idx) = Values.vT m ρ (peer 2 c) (ix4 b h d t) := by
  have hi : (vslot2 : Memref sig .tc .vmem S2x8x64x512 .bf16).view.emb (ix4 b h d t) ∈ (vslot2 : Memref sig .tc .vmem S2x8x64x512 .bf16).view.set := View.emb_mem_set _ _
  have h1 := ValLandings.vC_on2 m ρ c (Values.vC m ρ c) _ hi
  rw [View.write_emb_of_mem _ _ (Finset.mem_univ _), vslot2_emb] at h1
  exact h1

end Cert.KernelIdeal.BridgeIdx

end
-- ==== Proof.PayloadIdeal.lean ====
/-
  The kernel body's values, read entry by entry at the extended reals. Each value the body stores or carries is a
  short chain of layout moves (unit axes added or dropped, a transpose, a column broadcast), format changes (the
  identity here), and arithmetic: a scaling, two contractions, an exponential, a sum along the keys, additions and a
  quotient. Read at one entry:
    · a stored key or value tile is the (position, feature) tile transposed;
    · the stored query tile is the tile times the scale;
    · the weights are exp (Σ_d q[s, d] · k[d, t]) (plus the first contraction's accumulator where one is passed);
    · a block's share of the numerator is Σ_t weight[s, t] · v[d, t], of the denominator Σ_t weight[s, t];
    · later blocks add their shares to the running numerator and denominator, and the last one takes the quotient.
  Every statement is over literal extents with explicit coordinates; sums carry no leading zero.
-/
import proofs.«900413_g7700000000000414_dist_agattn_v7x_xyz2x4x4_z_b2_s512_h8_d64_bf16_1_alg».proof.Proof.Gen.KernelIdeal.Skeleton
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.KernelIdeal.PayloadIdeal

open Cert.KernelIdeal Cert.KernelIdeal.Gen Idealize.ShloMosaic Idealize.ShloMosaic.ValueIdx

/-! ## Layout moves read at an index, by coordinates -/

section Layout
variable {α : Type}

/-- A `[1, 1, a, b]` array cast to `[a, b]` reads, at `(i, j)`, the operand at `(0, 0, i, j)`. -/
theorem cast_11ab_ab {a b : ℕ} (x : (⟨4, ![1, 1, a, b]⟩ : Shape).Idx → α)
    (h : (⟨4, ![1, 1, a, b]⟩ : Shape).ShapeCasts ⟨2, ![a, b]⟩) (i : Fin a) (j : Fin b) :
    shapeCast ⟨2, ![a, b]⟩ x h (ix2 i j) = x (ix4 (0 : Fin 1) (0 : Fin 1) i j) :=
  shapeCast_apply x h _ _ (by
    rw [Shape.rowMajor_val_four, Shape.rowMajor_val_two]
    show ((0 * 1 + 0) * a + i.val) * b + j.val = i.val * b + j.val
    simp only [Nat.zero_mul, Nat.zero_add])

/-- An `[a, b]` array cast to `[1, 1, a, b]` reads, at `(u, u', i, j)`, the operand at `(i, j)`. -/
theorem cast_ab_11ab {a b : ℕ} (x : (⟨2, ![a, b]⟩ : Shape).Idx → α)
    (h : (⟨2, ![a, b]⟩ : Shape).ShapeCasts ⟨4, ![1, 1, a, b]⟩) (u u' : Fin 1) (i : Fin a) (j : Fin b) :
    shapeCast ⟨4, ![1, 1, a, b]⟩ x h (ix4 u u' i j) = x (ix2 i j) :=
  shapeCast_apply x h _ _ (by
    have hu : u.val = 0 := by omega
    have hu' : u'.val = 0 := by omega
    rw [Shape.rowMajor_val_four, Shape.rowMajor_val_two]
    show i.val * b + j.val = ((u.val * 1 + u'.val) * a + i.val) * b + j.val
    rw [hu, hu']
    simp only [Nat.zero_mul, Nat.zero_add])

/-- A `[1, 1, 1, a, b]` array cast to `[a, b]` reads, at `(i, j)`, the operand at `(0, 0, 0, i, j)`. -/
theorem cast_111ab_ab {a b : ℕ} (x : (⟨5, ![1, 1, 1, a, b]⟩ : Shape).Idx → α)
    (h : (⟨5, ![1, 1, 1, a, b]⟩ : Shape).ShapeCasts ⟨2, ![a, b]⟩) (i : Fin a) (j : Fin b) :
    shapeCast ⟨2, ![a, b]⟩ x h (ix2 i j) = x (ix5 (0 : Fin 1) (0 : Fin 1) (0 : Fin 1) i j) :=
  shapeCast_apply x h _ _ (by
    rw [Shape.rowMajor_val_five, Shape.rowMajor_val_two]
    show (((0 * 1 + 0) * 1 + 0) * a + i.val) * b + j.val = i.val * b + j.val
    simp only [Nat.zero_mul, Nat.zero_add])

/-- A `[1, a, 1, b]` array cast to `[a, b]` reads, at `(i, j)`, the operand at `(0, i, 0, j)`. -/
theorem cast_1a1b_ab {a b : ℕ} (x : (⟨4, ![1, a, 1, b]⟩ : Shape).Idx → α)
    (h : (⟨4, ![1, a, 1, b]⟩ : Shape).ShapeCasts ⟨2, ![a, b]⟩) (i : Fin a) (j : Fin b) :
    shapeCast ⟨2, ![a, b]⟩ x h (ix2 i j) = x (ix4 (0 : Fin 1) i (0 : Fin 1) j) :=
  shapeCast_apply x h _ _ (by
    rw [Shape.rowMajor_val_four, Shape.rowMajor_val_two]
    show ((0 * a + i.val) * 1 + 0) * b + j.val = i.val * b + j.val
    simp only [Nat.zero_mul, Nat.zero_add, Nat.mul_one, Nat.add_zero])

/-- An `[a, b]` array cast to `[1, a, 1, b]` reads, at `(u, i, u', j)`, the operand at `(i, j)`. -/
theorem cast_ab_1a1b {a b : ℕ} (x : (⟨2, ![a, b]⟩ : Shape).Idx → α)
    (h : (⟨2, ![a, b]⟩ : Shape).ShapeCasts ⟨4, ![1, a, 1, b]⟩) (u : Fin 1) (i : Fin a) (u' : Fin 1) (j : Fin b) :
    shapeCast ⟨4, ![1, a, 1, b]⟩ x h (ix4 u i u' j) = x (ix2 i j) :=
  shapeCast_apply x h _ _ (by
    have hu : u.val = 0 := by omega
    have hu' : u'.val = 0 := by omega
    rw [Shape.rowMajor_val_four, Shape.rowMajor_val_two]
    show i.val * b + j.val = ((u.val * a + i.val) * 1 + u'.val) * b + j.val
    rw [hu, hu']
    simp only [Nat.zero_mul, Nat.zero_add, Nat.mul_one, Nat.add_zero])

/-- An `[a]` array cast to the column `[a, 1]` reads, at `(i, u)`, the operand at `i`. -/
theorem cast_a_a1 {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry `i`. -/
theorem bcast_a1_ab {a b : ℕ} (v : (⟨2, ![a, 1]⟩ : Shape).Idx → α) (h : (⟨2, ![a, 1]⟩ : Shape).Broadcasts ⟨2, ![a, b]⟩)
    (i : Fin a) (j : Fin b) : broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

end Layout

/-! ## The two contractions read at an index -/

section Contractions

/-- First contraction, [512, 64] × [64, 512] → [512, 512], contracting the features: where it reads its operands. -/
theorem lhs1_0 (i : S512x512.Idx) (q : dot_S512x64_S64x512_S512x512_1_0_0_1_n_n.contr.Idx) : (dot_S512x64_S64x512_S512x512_1_0_0_1_n_n.lhsIdx i q 0).val = (i 0).val := by
  unfold DotDims.lhsIdx
  rw [dif_neg (show ¬(0 : Fin S512x64.rank) ∈ dot_S512x64_S64x512_S512x512_1_0_0_1_n_n.lhsBatch by decide), dif_pos (show (0 : Fin S512x64.rank) ∈ dot_S512x64_S64x512_S512x512_1_0_0_1_n_n.lhsNonContracting by decide)]
  rfl
theorem lhs1_1 (i : S512x512.Idx) (q : dot_S512x64_S64x512_S512x512_1_0_0_1_n_n.contr.Idx) : (dot_S512x64_S64x512_S512x512_1_0_0_1_n_n.lhsIdx i q 1).val = (q ⟨0, by decide⟩).val :=
  dot_S512x64_S64x512_S512x512_1_0_0_1_n_n.lhsIdx_val_of_single rfl i q
theorem rhs1_0 (i : S512x512.Idx) (q : dot_S512x64_S64x512_S512x512_1_0_0_1_n_n.contr.Idx) : (dot_S512x64_S64x512_S512x512_1_0_0_1_n_n.rhsIdx i q 0).val = (q ⟨0, by decide⟩).val :=
  dot_S512x64_S64x512_S512x512_1_0_0_1_n_n.rhsIdx_val_of_single rfl i q
theorem rhs1_1 (i : S512x512.Idx) (q : dot_S512x64_S64x512_S512x512_1_0_0_1_n_n.contr.Idx) : (dot_S512x64_S64x512_S512x512_1_0_0_1_n_n.rhsIdx i q 1).val = (i 1).val := by
  unfold DotDims.rhsIdx
  rw [dif_neg (show ¬(1 : Fin S64x512.rank) ∈ dot_S512x64_S64x512_S512x512_1_0_0_1_n_n.rhsBatch by decide), dif_pos (show (1 : Fin S64x512.rank) ∈ dot_S512x64_S64x512_S512x512_1_0_0_1_n_n.rhsNonContracting by decide)]
  rfl

/-- The first contraction at (s, t): the accumulator there plus Σ_d q[s, d] · k[d, t]. -/
theorem matmul1_apply (q : FVec Ideal S512x64 .bf16) (k : FVec Ideal S64x512 .bf16) (acc : FVec Ideal S512x512 .f32)
    (s t : Fin 512) :
    matmul dot_S512x64_S64x512_S512x512_1_0_0_1_n_n none q k acc (ix2 s t) = acc (ix2 s t) + ∑ d : Fin 64, q (ix2 s d) * k (ix2 d t) := by
  show FloatOps.matmul dot_S512x64_S64x512_S512x512_1_0_0_1_n_n none q k acc (ix2 s t) = _
  rw [Ideal.matmul_apply, ← Equiv.sum_comp (contrEquiv1 dot_S512x64_S64x512_S512x512_1_0_0_1_n_n 64 rfl rfl).symm]
  refine congrArg (acc (ix2 s t) + ·) (Finset.sum_congr rfl fun d _ => ?_)
  have hd := contrEquiv1_symm_val dot_S512x64_S64x512_S512x512_1_0_0_1_n_n 64 rfl rfl d
  have el : dot_S512x64_S64x512_S512x512_1_0_0_1_n_n.lhsIdx (ix2 s t) ((contrEquiv1 dot_S512x64_S64x512_S512x512_1_0_0_1_n_n 64 rfl rfl).symm d) = ix2 s d := funext fun a => Fin.ext (by
    match a with
    | ⟨0, _⟩ => exact lhs1_0 _ _
    | ⟨1, _⟩ => exact (lhs1_1 _ _).trans hd)
  have er : dot_S512x64_S64x512_S512x512_1_0_0_1_n_n.rhsIdx (ix2 s t) ((contrEquiv1 dot_S512x64_S64x512_S512x512_1_0_0_1_n_n 64 rfl rfl).symm d) = ix2 d t := funext fun a => Fin.ext (by
    match a with
    | ⟨0, _⟩ => exact (rhs1_0 _ _).trans hd
    | ⟨1, _⟩ => exact rhs1_1 _ _)
  rw [el, er]

/-- Second contraction, [512, 512] × [64, 512] → [512, 64], contracting the keys (axis 1 of both operands). -/
theorem lhs2_0 (i : S512x64.Idx) (q : dot_S512x512_S64x512_S512x64_1_1_0_0_n_n.contr.Idx) : (dot_S512x512_S64x512_S512x64_1_1_0_0_n_n.lhsIdx i q 0).val = (i 0).val := by
  unfold DotDims.lhsIdx
  rw [dif_neg (show ¬(0 : Fin S512x512.rank) ∈ dot_S512x512_S64x512_S512x64_1_1_0_0_n_n.lhsBatch by decide), dif_pos (show (0 : Fin S512x512.rank) ∈ dot_S512x512_S64x512_S512x64_1_1_0_0_n_n.lhsNonContracting by decide)]
  rfl
theorem lhs2_1 (i : S512x64.Idx) (q : dot_S512x512_S64x512_S512x64_1_1_0_0_n_n.contr.Idx) : (dot_S512x512_S64x512_S512x64_1_1_0_0_n_n.lhsIdx i q 1).val = (q ⟨0, by decide⟩).val :=
  dot_S512x512_S64x512_S512x64_1_1_0_0_n_n.lhsIdx_val_of_single rfl i q
theorem rhs2_0 (i : S512x64.Idx) (q : dot_S512x512_S64x512_S512x64_1_1_0_0_n_n.contr.Idx) : (dot_S512x512_S64x512_S512x64_1_1_0_0_n_n.rhsIdx i q 0).val = (i 1).val := by
  unfold DotDims.rhsIdx
  rw [dif_neg (show ¬(0 : Fin S64x512.rank) ∈ dot_S512x512_S64x512_S512x64_1_1_0_0_n_n.rhsBatch by decide), dif_pos (show (0 : Fin S64x512.rank) ∈ dot_S512x512_S64x512_S512x64_1_1_0_0_n_n.rhsNonContracting by decide)]
  rfl
theorem rhs2_1 (i : S512x64.Idx) (q : dot_S512x512_S64x512_S512x64_1_1_0_0_n_n.contr.Idx) : (dot_S512x512_S64x512_S512x64_1_1_0_0_n_n.rhsIdx i q 1).val = (q ⟨0, by decide⟩).val :=
  dot_S512x512_S64x512_S512x64_1_1_0_0_n_n.rhsIdx_val_of_single rfl i q

/-- The second contraction into the zero accumulator at (s, d): Σ_t p[s, t] · v[d, t]. -/
theorem matmul2_zero_apply (p : FVec Ideal S512x512 .bf16) (v : FVec Ideal S64x512 .bf16) (s : Fin 512) (d : Fin 64) :
    matmul dot_S512x512_S64x512_S512x64_1_1_0_0_n_n none p v (constant (F := Ideal) S512x64 .f32 0x00000000#32) (ix2 s d)
      = ∑ t : Fin 512, p (ix2 s t) * v (ix2 d t) := by
  show FloatOps.matmul dot_S512x512_S64x512_S512x64_1_1_0_0_n_n none p v (constant (F := Ideal) S512x64 .f32 0x00000000#32) (ix2 s d) = _
  rw [Ideal.matmul_constant_zero_apply, ← Equiv.sum_comp (contrEquiv1 dot_S512x512_S64x512_S512x64_1_1_0_0_n_n 512 rfl rfl).symm]
  refine Finset.sum_congr rfl fun t _ => ?_
  have ht := contrEquiv1_symm_val dot_S512x512_S64x512_S512x64_1_1_0_0_n_n 512 rfl rfl t
  have el : dot_S512x512_S64x512_S512x64_1_1_0_0_n_n.lhsIdx (ix2 s d) ((contrEquiv1 dot_S512x512_S64x512_S512x64_1_1_0_0_n_n 512 rfl rfl).symm t) = ix2 s t := funext fun a => Fin.ext (by
    match a with
    | ⟨0, _⟩ => exact lhs2_0 _ _
    | ⟨1, _⟩ => exact (lhs2_1 _ _).trans ht)
  have er : dot_S512x512_S64x512_S512x64_1_1_0_0_n_n.rhsIdx (ix2 s d) ((contrEquiv1 dot_S512x512_S64x512_S512x64_1_1_0_0_n_n 512 rfl rfl).symm t) = ix2 d t := funext fun a => Fin.ext (by
    match a with
    | ⟨0, _⟩ => exact rhs2_0 _ _
    | ⟨1, _⟩ => exact (rhs2_1 _ _).trans ht)
  rw [el, er]

/-- The sum along the keys of a [512, 512] array, at row s: Σ_t x[s, t]. -/
theorem laneSum_apply (x : FVec Ideal S512x512 .f32) (hφ : FKind.Formats .f32)
    (hacc : (0x00000000#32 : BitVec 32) = FKind.add.neutral .f32 hφ) (s : Fin 512) :
    multiReduction .add [1] S512 x 0x00000000#32 reduces_S512x512_S512 hφ hacc (ix1 s) = ∑ t : Fin 512, x (ix2 s t) := by
  refine (Ideal.multiReduction_add_single x _ reduces_S512x512_S512 hφ hacc (ix1 s)).trans ?_
  refine Finset.sum_congr rfl fun t _ => congrArg x (funext fun a => Fin.ext ?_)
  match a with
  | ⟨0, _⟩ => rfl
  | ⟨1, _⟩ => rfl

end Contractions

/-! ## The payloads read at an index

Arrays in the body are tiles of one (batch, head): a query or value tile is (position, feature) = [512, 64], a stored
key or value tile is transposed, (feature, position) = [64, 512], carried with leading unit axes. The scale is kept
as the 32-bit word that denotes it. -/

section Payloads

/-- The weight exp (Σ_d q[s, d] · k[d, t]) as the body computes it: exp of the first contraction into zero. -/
theorem expScore_apply (q : FVec Ideal S512x64 .bf16) (k : FVec Ideal S64x512 .bf16) (s t : Fin 512) :
    exp (matmul dot_S512x64_S64x512_S512x512_1_0_0_1_n_n none q k (constant (F := Ideal) S512x512 .f32 0x00000000#32)) (ix2 s t)
      = Ideal.exp (∑ d : Fin 64, q (ix2 s d) * k (ix2 d t)) := by
  refine (congrArg Ideal.exp (matmul1_apply q k _ s t)).trans ?_
  show Ideal.exp (Ideal.ofBits .f32 0x00000000#32 + _) = _
  rw [Ideal.ofBits_zero_f32, zero_add]

/-- A (position, feature) tile stored transposed: entry (d, t) of the stored tile is entry (t, d) of the tile read. -/
theorem pay1_apply (v : Vec Ideal S1x512x1x64 .f32) (d : Fin 64) (t : Fin 512) :
    k0_pay1 (F := Ideal) v (ix4 0 0 d t) = v (ix4 0 t 0 d) := by
  unfold k0_pay1
  refine (cast_ab_11ab _ _ 0 0 d t).trans ?_
  refine (truncf_apply _ bitsLt_bf16_f32 (ix2 d t)).trans ?_
  refine (transpose_ix2_apply _ _ d t).trans ?_
  exact cast_1a1b_ab v _ t d

theorem pay11_apply (v : Vec Ideal S1x512x1x64 .f32) (d : Fin 64) (t : Fin 512) :
    k0_pay11 (F := Ideal) v (ix4 0 0 d t) = v (ix4 0 t 0 d) := by
  unfold k0_pay11
  refine (cast_ab_11ab _ _ 0 0 d t).trans ?_
  refine (truncf_apply _ bitsLt_bf16_f32 (ix2 d t)).trans ?_
  refine (transpose_ix2_apply _ _ d t).trans ?_
  exact cast_1a1b_ab v _ t d

/-- The query tile scaled: entry (s, d) times the scale. -/
theorem pay12_apply (v : Vec Ideal S1x512x1x64 .f32) (s : Fin 512) (d : Fin 64) :
    k0_pay12 (F := Ideal) v (ix4 0 0 s d) = v (ix4 0 s 0 d) * Ideal.ofBits .f32 0x3E000000#32 := by
  unfold k0_pay12
  refine (cast_ab_11ab _ _ 0 0 s d).trans ?_
  exact congrArg (· * Ideal.ofBits .f32 0x3E000000#32) (cast_1a1b_ab v _ s d)

/-- Unit axes dropped from a (position, feature) tile. -/
theorem pay2_apply (v : Vec Ideal S1x1x512x64 .bf16) (s : Fin 512) (d : Fin 64) :
    k0_pay2 (F := Ideal) v (ix2 s d) = v (ix4 0 0 s d) := by
  unfold k0_pay2; exact cast_11ab_ab v _ s d
theorem pay5_apply (v : Vec Ideal S1x1x512x64 .bf16) (s : Fin 512) (d : Fin 64) :
    k0_pay5 (F := Ideal) v (ix2 s d) = v (ix4 0 0 s d) := by
  unfold k0_pay5; exact cast_11ab_ab v _ s d
theorem pay7_apply (v : Vec Ideal S1x1x512x64 .bf16) (s : Fin 512) (d : Fin 64) :
    k0_pay7 (F := Ideal) v (ix2 s d) = v (ix4 0 0 s d) := by
  unfold k0_pay7; exact cast_11ab_ab v _ s d
theorem pay9_apply (v : Vec Ideal S1x1x512x64 .bf16) (s : Fin 512) (d : Fin 64) :
    k0_pay9 (F := Ideal) v (ix2 s d) = v (ix4 0 0 s d) := by
  unfold k0_pay9; exact cast_11ab_ab v _ s d

/-- Unit axes dropped from a (feature, position) tile of the device's own buffers. -/
theorem pay3_apply (v : Vec Ideal S1x1x64x512 .bf16) (d : Fin 64) (t : Fin 512) :
    k0_pay3 (F := Ideal) v (ix2 d t) = v (ix4 0 0 d t) := by
  unfold k0_pay3; exact cast_11ab_ab v _ d t
theorem pay4_apply (v : Vec Ideal S1x1x64x512 .bf16) (d : Fin 64) (t : Fin 512) :
    k0_pay4 (F := Ideal) v (ix2 d t) = v (ix4 0 0 d t) := by
  unfold k0_pay4; exact cast_11ab_ab v _ d t

/-- Unit axes dropped from a (feature, position) tile of a received buffer (one more leading axis: the slot). -/
theorem pay6_apply (v : Vec Ideal S1x1x1x64x512 .bf16) (d : Fin 64) (t : Fin 512) :
    k0_pay6 (F := Ideal) v (ix2 d t) = v (ix5 0 0 0 d t) := by
  unfold k0_pay6; exact cast_111ab_ab v _ d t
theorem pay8_apply (v : Vec Ideal S1x1x1x64x512 .bf16) (d : Fin 64) (t : Fin 512) :
    k0_pay8 (F := Ideal) v (ix2 d t) = v (ix5 0 0 0 d t) := by
  unfold k0_pay8; exact cast_111ab_ab v _ d t
theorem pay10_apply (v : Vec Ideal S1x1x1x64x512 .bf16) (d : Fin 64) (t : Fin 512) :
    k0_pay10 (F := Ideal) v (ix2 d t) = v (ix5 0 0 0 d t) := by
  unfold k0_pay10; exact cast_111ab_ab v _ d t

/-- The weights of the first block, for a given accumulator of the first contraction. -/
theorem pay13_apply (q : FVec Ideal S512x64 .bf16) (k : FVec Ideal S64x512 .bf16) (cst : FVec Ideal S512x512 .f32)
    (s t : Fin 512) :
    k0_pay13 (F := Ideal) q k cst (ix2 s t) = Ideal.exp (cst (ix2 s t) + ∑ d : Fin 64, q (ix2 s d) * k (ix2 d t)) := by
  unfold k0_pay13
  exact congrArg Ideal.exp (matmul1_apply q k cst s t)

/-- … and at the zero accumulator the body passes: exp of the product sum. -/
theorem pay13_zero_apply (q : FVec Ideal S512x64 .bf16) (k : FVec Ideal S64x512 .bf16) (s t : Fin 512) :
    k0_pay13 (F := Ideal) q k (constant (F := Ideal) S512x512 .f32 0x00000000#32) (ix2 s t)
      = Ideal.exp (∑ d : Fin 64, q (ix2 s d) * k (ix2 d t)) := by
  unfold k0_pay13
  exact expScore_apply q k s t

/-- The weights of a later block (the zero accumulator is inside the payload). -/
theorem pay16_apply (q : FVec Ideal S512x64 .bf16) (k : FVec Ideal S64x512 .bf16) (s t : Fin 512) :
    k0_pay16 (F := Ideal) q k (ix2 s t) = Ideal.exp (∑ d : Fin 64, q (ix2 s d) * k (ix2 d t)) := by
  unfold k0_pay16
  exact expScore_apply q k s t
theorem pay19_apply (q : FVec Ideal S512x64 .bf16) (k : FVec Ideal S64x512 .bf16) (s t : Fin 512) :
    k0_pay19 (F := Ideal) q k (ix2 s t) = Ideal.exp (∑ d : Fin 64, q (ix2 s d) * k (ix2 d t)) := by
  unfold k0_pay19
  exact expScore_apply q k s t

/-- The first block's share of the numerator: Σ_t weight[s, t] · v[d, t]. -/
theorem pay14_apply (q : FVec Ideal S512x64 .bf16) (k v : FVec Ideal S64x512 .bf16) (cst : FVec Ideal S512x512 .f32)
    (s : Fin 512) (d : Fin 64) :
    k0_pay14 (F := Ideal) q k v cst (ix4 0 0 s d)
      = ∑ t : Fin 512, k0_pay13 (F := Ideal) q k cst (ix2 s t) * v (ix2 d t) := by
  unfold k0_pay14
  refine (cast_ab_11ab _ _ 0 0 s d).trans ?_
  exact matmul2_zero_apply _ v s d

/-- The first block's share of the denominator, the same at every feature d: Σ_t weight[s, t]. -/
theorem pay15_apply (q : FVec Ideal S512x64 .bf16) (k : FVec Ideal S64x512 .bf16) (cst : FVec Ideal S512x512 .f32)
    (s : Fin 512) (d : Fin 64) :
    k0_pay15 (F := Ideal) q k cst (ix4 0 0 s d) = ∑ t : Fin 512, k0_pay13 (F := Ideal) q k cst (ix2 s t) := by
  unfold k0_pay15
  refine (cast_ab_11ab _ _ 0 0 s d).trans ?_
  refine (bcast_a1_ab _ _ s d).trans ?_
  refine (congrFun (shapeCast_self _ _) (ix2 s (0 : Fin 1))).trans ?_
  refine (cast_a_a1 _ _ s 0).trans ?_
  exact laneSum_apply _ _ _ s

/-- A middle block added to the running numerator. -/
theorem pay17_apply (q : FVec Ideal S512x64 .bf16) (k : FVec Ideal S64x512 .bf16) (v5 : Vec Ideal S1x1x1x64x512 .bf16)
    (prev : Vec Ideal S1x1x512x64 .f32) (s : Fin 512) (d : Fin 64) :
    k0_pay17 (F := Ideal) q k v5 prev (ix4 0 0 s d)
      = prev (ix4 0 0 s d) + ∑ t : Fin 512, k0_pay16 (F := Ideal) q k (ix2 s t) * v5 (ix5 0 0 0 d t) := by
  unfold k0_pay17
  refine (cast_ab_11ab _ _ 0 0 s d).trans ?_
  refine congrArg₂ (· + ·) (cast_11ab_ab prev _ s d) ?_
  refine (matmul2_zero_apply _ _ s d).trans ?_
  exact Finset.sum_congr rfl fun t _ => congrArg (k0_pay16 (F := Ideal) q k (ix2 s t) * ·) (cast_111ab_ab v5 _ d t)
theorem pay20_apply (q : FVec Ideal S512x64 .bf16) (k : FVec Ideal S64x512 .bf16) (v5 : Vec Ideal S1x1x1x64x512 .bf16)
    (prev : Vec Ideal S1x1x512x64 .f32) (s : Fin 512) (d : Fin 64) :
    k0_pay20 (F := Ideal) q k v5 prev (ix4 0 0 s d)
      = prev (ix4 0 0 s d) + ∑ t : Fin 512, k0_pay19 (F := Ideal) q k (ix2 s t) * v5 (ix5 0 0 0 d t) := by
  unfold k0_pay20
  refine (cast_ab_11ab _ _ 0 0 s d).trans ?_
  refine congrArg₂ (· + ·) (cast_11ab_ab prev _ s d) ?_
  refine (matmul2_zero_apply _ _ s d).trans ?_
  exact Finset.sum_congr rfl fun t _ => congrArg (k0_pay19 (F := Ideal) q k (ix2 s t) * ·) (cast_111ab_ab v5 _ d t)

/-- A middle block added to the running denominator. -/
theorem pay18_apply (q : FVec Ideal S512x64 .bf16) (k : FVec Ideal S64x512 .bf16) (prev : Vec Ideal S1x1x512x64 .f32)
    (s : Fin 512) (d : Fin 64) :
    k0_pay18 (F := Ideal) q k prev (ix4 0 0 s d) = prev (ix4 0 0 s d) + ∑ t : Fin 512, k0_pay16 (F := Ideal) q k (ix2 s t) := by
  unfold k0_pay18
  refine (cast_ab_11ab _ _ 0 0 s d).trans ?_
  refine congrArg₂ (· + ·) (cast_11ab_ab prev _ s d) ?_
  refine (bcast_a1_ab _ _ s d).trans ?_
  refine (congrFun (shapeCast_self _ _) (ix2 s (0 : Fin 1))).trans ?_
  refine (cast_a_a1 _ _ s 0).trans ?_
  exact laneSum_apply _ _ _ s
theorem pay21_apply (q : FVec Ideal S512x64 .bf16) (k : FVec Ideal S64x512 .bf16) (prev : Vec Ideal S1x1x512x64 .f32)
    (s : Fin 512) (d : Fin 64) :
    k0_pay21 (F := Ideal) q k prev (ix4 0 0 s d) = prev (ix4 0 0 s d) + ∑ t : Fin 512, k0_pay19 (F := Ideal) q k (ix2 s t) := by
  unfold k0_pay21
  refine (cast_ab_11ab _ _ 0 0 s d).trans ?_
  refine congrArg₂ (· + ·) (cast_11ab_ab prev _ s d) ?_
  refine (bcast_a1_ab _ _ s d).trans ?_
  refine (congrFun (shapeCast_self _ _) (ix2 s (0 : Fin 1))).trans ?_
  refine (cast_a_a1 _ _ s 0).trans ?_
  exact laneSum_apply _ _ _ s

/-- The last block and the quotient: (running numerator + last share) / (running denominator + last share), stored
    at (position, feature) of the result tile. -/
theorem pay22_apply (q : FVec Ideal S512x64 .bf16) (k : FVec Ideal S64x512 .bf16) (v5 : Vec Ideal S1x1x1x64x512 .bf16)
    (pa pl : Vec Ideal S1x1x512x64 .f32) (s : Fin 512) (d : Fin 64) :
    k0_pay22 (F := Ideal) q k v5 pa pl (ix4 0 s 0 d)
      = Ideal.div
          (pa (ix4 0 0 s d)
            + ∑ t : Fin 512, Ideal.exp (∑ d' : Fin 64, q (ix2 s d') * k (ix2 d' t)) * v5 (ix5 0 0 0 d t))
          (pl (ix4 0 0 s d) + ∑ t : Fin 512, Ideal.exp (∑ d' : Fin 64, q (ix2 s d') * k (ix2 d' t))) := by
  unfold k0_pay22
  refine (cast_ab_1a1b _ _ 0 s 0 d).trans ?_
  refine congrArg₂ Ideal.div (congrArg₂ (· + ·) (cast_11ab_ab pa _ s d) ?_) (congrArg₂ (· + ·) (cast_11ab_ab pl _ s d) ?_)
  · refine (matmul2_zero_apply _ _ s d).trans ?_
    exact Finset.sum_congr rfl fun t _ => congrArg₂ (· * ·) (expScore_apply q k s t) (cast_111ab_ab v5 _ d t)
  · refine (bcast_a1_ab _ _ s d).trans ?_
    refine (congrFun (shapeCast_self _ _) (ix2 s (0 : Fin 1))).trans ?_
    refine (cast_a_a1 _ _ s 0).trans ?_
    refine (laneSum_apply _ _ _ s).trans ?_
    exact Finset.sum_congr rfl fun t _ => expScore_apply q k s t

end Payloads

/-- info: 'Cert.KernelIdeal.PayloadIdeal.pay22_apply' depends on axioms: [propext, Classical.choice, Quot.sound] -/
#guard_msgs in #print axioms pay22_apply
/-- info: 'Cert.KernelIdeal.PayloadIdeal.pay15_apply' depends on axioms: [propext, Classical.choice, Quot.sound] -/
#guard_msgs in #print axioms pay15_apply

end Cert.KernelIdeal.PayloadIdeal

end
-- ==== Proof.BridgeVal.lean ====
/-
  What the named buffers hold, entry by entry, over the extended reals.

  Write Q, K, V for a device's staged blocks, (batch, position, head, feature). The transposed key block holds
  K with position and feature exchanged inside each (batch, head) tile, likewise for V; the scaled query block
  holds Q times the scale. For a query row s and a key column t of the tile (b, h), the weight is
      w(s, t) = exp (sum over features of (Q[b, s, h, .] * scale) * K'[b, t, h, .]),
  K' the key block of whichever device the pass reads (the device itself, or the peer whose block landed in the
  slot). A pass adds to the first accumulator the w-weighted sum of that device's V over t, and to the second the
  sum of w over t; the last pass divides.
-/
import proofs.«900413_g7700000000000414_dist_agattn_v7x_xyz2x4x4_z_b2_s512_h8_d64_bf16_1_alg».proof.Proof.BridgeIdx
import proofs.«900413_g7700000000000414_dist_agattn_v7x_xyz2x4x4_z_b2_s512_h8_d64_bf16_1_alg».proof.Proof.PayloadIdeal

noncomputable section

namespace Cert.KernelIdeal.BridgeVal

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.State Cert.KernelIdeal.ValCommon Cert.KernelIdeal.Offsets Cert.KernelIdeal.BridgeIdx Cert.KernelIdeal.PayloadIdeal
open Idealize.ShloMosaic.ValueIdx

variable (m : (ℓ : Loc nD τ sig) → Buf (Elt Ideal) ℓ) (ρ : Dev nD → PrngReg)

/-- A device's staged blocks as functions into the extended reals. -/
abbrev Qv (c : Dev nD) : S2x512x8x64.Idx → EReal := Qst m ρ c
abbrev Kv (c : Dev nD) : S2x512x8x64.Idx → EReal := Kst m ρ c
abbrev Vv (c : Dev nD) : S2x512x8x64.Idx → EReal := Vst m ρ c
/-- The scale, as the word that denotes it. -/
abbrev sc : EReal := Ideal.ofBits .f32 0x3E000000#32

attribute [local irreducible] Values.kT Values.vT Values.qT Values.kC Values.vC Values.a0 Values.l0 Values.a1 Values.l1 Values.a2 Values.l2 Values.outV in
/-- The transposed key block: position and feature exchanged. -/
theorem kT_at (c : Dev nD) (b : Fin 2) (h : Fin 8) (d : Fin 64) (t : Fin 512) :
    (Values.kT m ρ c (ix4 b h d t) : EReal) = Kv m ρ c (ix4 b t h d) := by
  have e := Tiles.kT_tile m ρ c (tr1 b h) (ix4 0 0 d t)
  rw [emb2 b h d t] at e
  rw [e]
  show k0_pay1 (F := Ideal) ((kM : Memref sig .tc .vmem S2x512x8x64 .f32).view.readAt (Elt Ideal) (Rect.unit (s := S2x512x8x64) (k0_off1 (tr1 b h)) S1x512x1x64.size (k0_off1_inb (tr1 b h))).toLoadRect (Kst m ρ c)) (ix4 0 0 d t) = _
  rw [pay1_apply]
  show Kst m ρ c ((Rect.unit (s := S2x512x8x64) (k0_off1 (tr1 b h)) S1x512x1x64.size (k0_off1_inb (tr1 b h))).toLoadRect.idx (ix4 0 t 0 d)) = _
  rw [ld1 b h t d]

attribute [local irreducible] Values.kT Values.vT Values.qT Values.kC Values.vC Values.a0 Values.l0 Values.a1 Values.l1 Values.a2 Values.l2 Values.outV in
/-- The transposed value block. -/
theorem vT_at (c : Dev nD) (b : Fin 2) (h : Fin 8) (d : Fin 64) (t : Fin 512) :
    (Values.vT m ρ c (ix4 b h d t) : EReal) = Vv m ρ c (ix4 b t h d) := by
  have e := Tiles.vT_tile m ρ c (tr1 b h) (ix4 0 0 d t)
  rw [emb2 b h d t] at e
  rw [e]
  show k0_pay11 (F := Ideal) ((vM : Memref sig .tc .vmem S2x512x8x64 .f32).view.readAt (Elt Ideal) (Rect.unit (s := S2x512x8x64) (k0_off1 (tr1 b h)) S1x512x1x64.size (k0_off1_inb (tr1 b h))).toLoadRect (Vst m ρ c)) (ix4 0 0 d t) = _
  rw [pay11_apply]
  show Vst m ρ c ((Rect.unit (s := S2x512x8x64) (k0_off1 (tr1 b h)) S1x512x1x64.size (k0_off1_inb (tr1 b h))).toLoadRect.idx (ix4 0 t 0 d)) = _
  rw [ld1 b h t d]

attribute [local irreducible] Values.kT Values.vT Values.qT Values.kC Values.vC Values.a0 Values.l0 Values.a1 Values.l1 Values.a2 Values.l2 Values.outV in
/-- The scaled query block. -/
theorem qT_at (c : Dev nD) (b : Fin 2) (h : Fin 8) (s : Fin 512) (d : Fin 64) :
    (Values.qT m ρ c (ix4 b h s d) : EReal) = Qv m ρ c (ix4 b s h d) * sc := by
  have e := Tiles.qT_tile m ρ c (tr2 b h) (ix4 0 0 s d)
  rw [emb4 b h s d] at e
  rw [e]
  show k0_pay12 (F := Ideal) ((qM : Memref sig .tc .vmem S2x512x8x64 .f32).view.readAt (Elt Ideal) (Rect.unit (s := S2x512x8x64) (k0_off3 (tr2 b h)) S1x512x1x64.size (k0_off3_inb (tr2 b h))).toLoadRect (Qst m ρ c)) (ix4 0 0 s d) = _
  rw [pay12_apply]
  show Qv m ρ c ((Rect.unit (s := S2x512x8x64) (k0_off3 (tr2 b h)) S1x512x1x64.size (k0_off3_inb (tr2 b h))).toLoadRect.idx (ix4 0 s 0 d)) * _ = _
  rw [ld3 b h s d]

/-- Reading a whole buffer's contents at an index is applying them. -/
theorem rdw (b : Ref sig .tc) (f : b.ty.Contents (Elt Ideal)) (x : b.ty.shape.Idx) :
    (Memref.whole b).view.read (Elt Ideal) f x = f x := rfl

end Cert.KernelIdeal.BridgeVal

end
-- ==== Proof.BridgeRead0.lean ====
/-
  What a trip of the pass over the device's own keys reads: its tile of the scaled query block and of the two
  transposed blocks, entry by entry.
-/
import proofs.«900413_g7700000000000414_dist_agattn_v7x_xyz2x4x4_z_b2_s512_h8_d64_bf16_1_alg».proof.Proof.BridgeVal

noncomputable section

namespace Cert.KernelIdeal.BridgeRead0

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.State Cert.KernelIdeal.ValCommon Cert.KernelIdeal.Offsets Cert.KernelIdeal.BridgeIdx Cert.KernelIdeal.PayloadIdeal Cert.KernelIdeal.BridgeVal
open Idealize.ShloMosaic.ValueIdx

variable (m : (ℓ : Loc nD τ sig) → Buf (Elt Ideal) ℓ) (ρ : Dev nD → PrngReg)
attribute [local irreducible] Values.kT Values.vT Values.qT Values.kC Values.vC Values.a0 Values.l0 Values.a1 Values.l1 Values.a2 Values.l2 Values.outV in
theorem qRead3 (c : Dev nD) (b : Fin 2) (h : Fin 8) (s : Fin 512) (d : Fin 64) :
    (k0_pay2 (F := Ideal) ((qtM : Memref sig .tc .vmem S2x8x512x64 .bf16).view.readAt (Elt Ideal) (Rect.unit (s := S2x8x512x64) (k0_off5 (tr3 b h)) S1x1x512x64.size (k0_off5_inb (tr3 b h))).toLoadRect (Values.qT m ρ c)) (ix2 s d) : EReal) = Qv m ρ c (ix4 b s h d) * sc := by
  rw [pay2_apply, View.readAt_apply, rdw, ld5 b h s d, qT_at]
attribute [local irreducible] Values.kT Values.vT Values.qT Values.kC Values.vC Values.a0 Values.l0 Values.a1 Values.l1 Values.a2 Values.l2 Values.outV in
theorem kRead3 (c : Dev nD) (b : Fin 2) (h : Fin 8) (d : Fin 64) (t : Fin 512) :
    (k0_pay3 (F := Ideal) ((klocM : Memref sig .tc .vmem S2x8x64x512 .bf16).view.readAt (Elt Ideal) (Rect.unit (s := S2x8x64x512) (k0_off6 (tr3 b h)) S1x1x64x512.size (k0_off6_inb (tr3 b h))).toLoadRect (Values.kT m ρ c)) (ix2 d t) : EReal) = Kv m ρ c (ix4 b t h d) := by
  rw [pay3_apply, View.readAt_apply, rdw, ld6 b h d t, kT_at]

attribute [local irreducible] Values.kT Values.vT Values.qT Values.kC Values.vC Values.a0 Values.l0 Values.a1 Values.l1 Values.a2 Values.l2 Values.outV in
theorem vRead3 (c : Dev nD) (b : Fin 2) (h : Fin 8) (d : Fin 64) (t : Fin 512) :
    (k0_pay4 (F := Ideal) ((vlocM : Memref sig .tc .vmem S2x8x64x512 .bf16).view.readAt (Elt Ideal) (Rect.unit (s := S2x8x64x512) (k0_off6 (tr3 b h)) S1x1x64x512.size (k0_off6_inb (tr3 b h))).toLoadRect (Values.vT m ρ c)) (ix2 d t) : EReal) = Vv m ρ c (ix4 b t h d) := by
  rw [pay4_apply, View.readAt_apply, rdw, ld6 b h d t, vT_at]

end Cert.KernelIdeal.BridgeRead0

end
-- ==== Proof.BridgeRead1.lean ====
/-
  What a trip of the pass over slot 0 reads: its query tile, slot 0's key and value tiles (peer 0's), and the
  accumulator tiles the first pass left.
-/
import proofs.«900413_g7700000000000414_dist_agattn_v7x_xyz2x4x4_z_b2_s512_h8_d64_bf16_1_alg».proof.Proof.BridgeVal

noncomputable section

namespace Cert.KernelIdeal.BridgeRead1

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.State Cert.KernelIdeal.ValCommon Cert.KernelIdeal.Offsets Cert.KernelIdeal.BridgeIdx Cert.KernelIdeal.PayloadIdeal Cert.KernelIdeal.BridgeVal
open Idealize.ShloMosaic.ValueIdx

variable (m : (ℓ : Loc nD τ sig) → Buf (Elt Ideal) ℓ) (ρ : Dev nD → PrngReg)
attribute [local irreducible] Values.kT Values.vT Values.qT Values.kC Values.vC Values.a0 Values.l0 Values.a1 Values.l1 Values.a2 Values.l2 Values.outV in
theorem qRead4 (c : Dev nD) (b : Fin 2) (h : Fin 8) (s : Fin 512) (d : Fin 64) :
    (k0_pay5 (F := Ideal) ((qtM : Memref sig .tc .vmem S2x8x512x64 .bf16).view.readAt (Elt Ideal) (Rect.unit (s := S2x8x512x64) (k0_off7 (tr4 b h)) S1x1x512x64.size (k0_off7_inb (tr4 b h))).toLoadRect (Values.qT m ρ c)) (ix2 s d) : EReal) = Qv m ρ c (ix4 b s h d) * sc := by
  rw [pay5_apply, View.readAt_apply, rdw, ld7 b h s d, qT_at]
attribute [local irreducible] Values.kT Values.vT Values.qT Values.kC Values.vC Values.a0 Values.l0 Values.a1 Values.l1 Values.a2 Values.l2 Values.outV in
theorem kRead4 (c : Dev nD) (b : Fin 2) (h : Fin 8) (d : Fin 64) (t : Fin 512) :
    (k0_pay6 (F := Ideal) ((kcomM : Memref sig .tc .vmem S3x2x8x64x512 .bf16).view.readAt (Elt Ideal) (Rect.unit (s := S3x2x8x64x512) (k0_off8 (tr4 b h)) S1x1x1x64x512.size (k0_off8_inb (tr4 b h))).toLoadRect (Values.kC m ρ c)) (ix2 d t) : EReal) = Kv m ρ (peer 0 c) (ix4 b t h d) := by
  rw [pay6_apply, View.readAt_apply, rdw, ld8 b h d t, kC_at0, kT_at]

attribute [local irreducible] Values.kT Values.vT Values.qT Values.kC Values.vC Values.a0 Values.l0 Values.a1 Values.l1 Values.a2 Values.l2 Values.outV in
theorem vRead4 (c : Dev nD) (b : Fin 2) (h : Fin 8) (d : Fin 64) (t : Fin 512) :
    (((vcomM : Memref sig .tc .vmem S3x2x8x64x512 .bf16).view.readAt (Elt Ideal) (Rect.unit (s := S3x2x8x64x512) (k0_off8 (tr4 b h)) S1x1x1x64x512.size (k0_off8_inb (tr4 b h))).toLoadRect (Values.vC m ρ c)) (ix5 0 0 0 d t) : EReal) = Vv m ρ (peer 0 c) (ix4 b t h d) := by
  rw [View.readAt_apply, rdw, ld8 b h d t, vC_at0, vT_at]
attribute [local irreducible] Values.kT Values.vT Values.qT Values.kC Values.vC Values.a0 Values.l0 Values.a1 Values.l1 Values.a2 Values.l2 Values.outV in
theorem aRead4 (c : Dev nD) (b : Fin 2) (h : Fin 8) (s : Fin 512) (d : Fin 64) :
    ((accM : Memref sig .tc .vmem S2x8x512x64 .f32).view.readAt (Elt Ideal) (Rect.unit (s := S2x8x512x64) (k0_off7 (tr4 b h)) S1x1x512x64.size (k0_off7_inb (tr4 b h))).toLoadRect (Values.a0 m ρ c)) (ix4 0 0 s d) = Values.a0 m ρ c (ix4 b h s d) := by
  rw [View.readAt_apply, rdw, ld7 b h s d]
attribute [local irreducible] Values.kT Values.vT Values.qT Values.kC Values.vC Values.a0 Values.l0 Values.a1 Values.l1 Values.a2 Values.l2 Values.outV in
theorem lRead4 (c : Dev nD) (b : Fin 2) (h : Fin 8) (s : Fin 512) (d : Fin 64) :
    ((lsumM : Memref sig .tc .vmem S2x8x512x64 .f32).view.readAt (Elt Ideal) (Rect.unit (s := S2x8x512x64) (k0_off7 (tr4 b h)) S1x1x512x64.size (k0_off7_inb (tr4 b h))).toLoadRect (Values.l0 m ρ c)) (ix4 0 0 s d) = Values.l0 m ρ c (ix4 b h s d) := by
  rw [View.readAt_apply, rdw, ld7 b h s d]

end Cert.KernelIdeal.BridgeRead1

end
-- ==== Proof.BridgeRead2.lean ====
/-
  What a trip of the pass over slot 1 reads (peer 1's key and value tiles; the accumulators after the pass over slot 0).
-/
import proofs.«900413_g7700000000000414_dist_agattn_v7x_xyz2x4x4_z_b2_s512_h8_d64_bf16_1_alg».proof.Proof.BridgeVal

noncomputable section

namespace Cert.KernelIdeal.BridgeRead2

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.State Cert.KernelIdeal.ValCommon Cert.KernelIdeal.Offsets Cert.KernelIdeal.BridgeIdx Cert.KernelIdeal.PayloadIdeal Cert.KernelIdeal.BridgeVal
open Idealize.ShloMosaic.ValueIdx

variable (m : (ℓ : Loc nD τ sig) → Buf (Elt Ideal) ℓ) (ρ : Dev nD → PrngReg)
attribute [local irreducible] Values.kT Values.vT Values.qT Values.kC Values.vC Values.a0 Values.l0 Values.a1 Values.l1 Values.a2 Values.l2 Values.outV in
theorem qRead5 (c : Dev nD) (b : Fin 2) (h : Fin 8) (s : Fin 512) (d : Fin 64) :
    (k0_pay7 (F := Ideal) ((qtM : Memref sig .tc .vmem S2x8x512x64 .bf16).view.readAt (Elt Ideal) (Rect.unit (s := S2x8x512x64) (k0_off9 (tr5 b h)) S1x1x512x64.size (k0_off9_inb (tr5 b h))).toLoadRect (Values.qT m ρ c)) (ix2 s d) : EReal) = Qv m ρ c (ix4 b s h d) * sc := by
  rw [pay7_apply, View.readAt_apply, rdw, ld9 b h s d, qT_at]
attribute [local irreducible] Values.kT Values.vT Values.qT Values.kC Values.vC Values.a0 Values.l0 Values.a1 Values.l1 Values.a2 Values.l2 Values.outV in
theorem kRead5 (c : Dev nD) (b : Fin 2) (h : Fin 8) (d : Fin 64) (t : Fin 512) :
    (k0_pay8 (F := Ideal) ((kcomM : Memref sig .tc .vmem S3x2x8x64x512 .bf16).view.readAt (Elt Ideal) (Rect.unit (s := S3x2x8x64x512) (k0_off10 (tr5 b h)) S1x1x1x64x512.size (k0_off10_inb (tr5 b h))).toLoadRect (Values.kC m ρ c)) (ix2 d t) : EReal) = Kv m ρ (peer 1 c) (ix4 b t h d) := by
  rw [pay8_apply, View.readAt_apply, rdw, ld10 b h d t, kC_at1, kT_at]

attribute [local irreducible] Values.kT Values.vT Values.qT Values.kC Values.vC Values.a0 Values.l0 Values.a1 Values.l1 Values.a2 Values.l2 Values.outV in
theorem vRead5 (c : Dev nD) (b : Fin 2) (h : Fin 8) (d : Fin 64) (t : Fin 512) :
    (((vcomM : Memref sig .tc .vmem S3x2x8x64x512 .bf16).view.readAt (Elt Ideal) (Rect.unit (s := S3x2x8x64x512) (k0_off10 (tr5 b h)) S1x1x1x64x512.size (k0_off10_inb (tr5 b h))).toLoadRect (Values.vC m ρ c)) (ix5 0 0 0 d t) : EReal) = Vv m ρ (peer 1 c) (ix4 b t h d) := by
  rw [View.readAt_apply, rdw, ld10 b h d t, vC_at1, vT_at]
attribute [local irreducible] Values.kT Values.vT Values.qT Values.kC Values.vC Values.a0 Values.l0 Values.a1 Values.l1 Values.a2 Values.l2 Values.outV in
theorem aRead5 (c : Dev nD) (b : Fin 2) (h : Fin 8) (s : Fin 512) (d : Fin 64) :
    ((accM : Memref sig .tc .vmem S2x8x512x64 .f32).view.readAt (Elt Ideal) (Rect.unit (s := S2x8x512x64) (k0_off9 (tr5 b h)) S1x1x512x64.size (k0_off9_inb (tr5 b h))).toLoadRect (Values.a1 m ρ c)) (ix4 0 0 s d) = Values.a1 m ρ c (ix4 b h s d) := by
  rw [View.readAt_apply, rdw, ld9 b h s d]
attribute [local irreducible] Values.kT Values.vT Values.qT Values.kC Values.vC Values.a0 Values.l0 Values.a1 Values.l1 Values.a2 Values.l2 Values.outV in
theorem lRead5 (c : Dev nD) (b : Fin 2) (h : Fin 8) (s : Fin 512) (d : Fin 64) :
    ((lsumM : Memref sig .tc .vmem S2x8x512x64 .f32).view.readAt (Elt Ideal) (Rect.unit (s := S2x8x512x64) (k0_off9 (tr5 b h)) S1x1x512x64.size (k0_off9_inb (tr5 b h))).toLoadRect (Values.l1 m ρ c)) (ix4 0 0 s d) = Values.l1 m ρ c (ix4 b h s d) := by
  rw [View.readAt_apply, rdw, ld9 b h s d]

end Cert.KernelIdeal.BridgeRead2

end
-- ==== Proof.BridgeRead3.lean ====
/-
  What a trip of the last pass reads (peer 2's key and value tiles; the accumulators after the pass over slot 1).
-/
import proofs.«900413_g7700000000000414_dist_agattn_v7x_xyz2x4x4_z_b2_s512_h8_d64_bf16_1_alg».proof.Proof.BridgeVal

noncomputable section

namespace Cert.KernelIdeal.BridgeRead3

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.State Cert.KernelIdeal.ValCommon Cert.KernelIdeal.Offsets Cert.KernelIdeal.BridgeIdx Cert.KernelIdeal.PayloadIdeal Cert.KernelIdeal.BridgeVal
open Idealize.ShloMosaic.ValueIdx

variable (m : (ℓ : Loc nD τ sig) → Buf (Elt Ideal) ℓ) (ρ : Dev nD → PrngReg)
attribute [local irreducible] Values.kT Values.vT Values.qT Values.kC Values.vC Values.a0 Values.l0 Values.a1 Values.l1 Values.a2 Values.l2 Values.outV in
theorem qRead6 (c : Dev nD) (b : Fin 2) (h : Fin 8) (s : Fin 512) (d : Fin 64) :
    (k0_pay9 (F := Ideal) ((qtM : Memref sig .tc .vmem S2x8x512x64 .bf16).view.readAt (Elt Ideal) (Rect.unit (s := S2x8x512x64) (k0_off11 (tr6 b h)) S1x1x512x64.size (k0_off11_inb (tr6 b h))).toLoadRect (Values.qT m ρ c)) (ix2 s d) : EReal) = Qv m ρ c (ix4 b s h d) * sc := by
  rw [pay9_apply, View.readAt_apply, rdw, ld11 b h s d, qT_at]
attribute [local irreducible] Values.kT Values.vT Values.qT Values.kC Values.vC Values.a0 Values.l0 Values.a1 Values.l1 Values.a2 Values.l2 Values.outV in
theorem kRead6 (c : Dev nD) (b : Fin 2) (h : Fin 8) (d : Fin 64) (t : Fin 512) :
    (k0_pay10 (F := Ideal) ((kcomM : Memref sig .tc .vmem S3x2x8x64x512 .bf16).view.readAt (Elt Ideal) (Rect.unit (s := S3x2x8x64x512) (k0_off12 (tr6 b h)) S1x1x1x64x512.size (k0_off12_inb (tr6 b h))).toLoadRect (Values.kC m ρ c)) (ix2 d t) : EReal) = Kv m ρ (peer 2 c) (ix4 b t h d) := by
  rw [pay10_apply, View.readAt_apply, rdw, ld12 b h d t, kC_at2, kT_at]

attribute [local irreducible] Values.kT Values.vT Values.qT Values.kC Values.vC Values.a0 Values.l0 Values.a1 Values.l1 Values.a2 Values.l2 Values.outV in
theorem vRead6 (c : Dev nD) (b : Fin 2) (h : Fin 8) (d : Fin 64) (t : Fin 512) :
    (((vcomM : Memref sig .tc .vmem S3x2x8x64x512 .bf16).view.readAt (Elt Ideal) (Rect.unit (s := S3x2x8x64x512) (k0_off12 (tr6 b h)) S1x1x1x64x512.size (k0_off12_inb (tr6 b h))).toLoadRect (Values.vC m ρ c)) (ix5 0 0 0 d t) : EReal) = Vv m ρ (peer 2 c) (ix4 b t h d) := by
  rw [View.readAt_apply, rdw, ld12 b h d t, vC_at2, vT_at]
attribute [local irreducible] Values.kT Values.vT Values.qT Values.kC Values.vC Values.a0 Values.l0 Values.a1 Values.l1 Values.a2 Values.l2 Values.outV in
theorem aRead6 (c : Dev nD) (b : Fin 2) (h : Fin 8) (s : Fin 512) (d : Fin 64) :
    ((accM : Memref sig .tc .vmem S2x8x512x64 .f32).view.readAt (Elt Ideal) (Rect.unit (s := S2x8x512x64) (k0_off11 (tr6 b h)) S1x1x512x64.size (k0_off11_inb (tr6 b h))).toLoadRect (Values.a2 m ρ c)) (ix4 0 0 s d) = Values.a2 m ρ c (ix4 b h s d) := by
  rw [View.readAt_apply, rdw, ld11 b h s d]
attribute [local irreducible] Values.kT Values.vT Values.qT Values.kC Values.vC Values.a0 Values.l0 Values.a1 Values.l1 Values.a2 Values.l2 Values.outV in
theorem lRead6 (c : Dev nD) (b : Fin 2) (h : Fin 8) (s : Fin 512) (d : Fin 64) :
    ((lsumM : Memref sig .tc .vmem S2x8x512x64 .f32).view.readAt (Elt Ideal) (Rect.unit (s := S2x8x512x64) (k0_off11 (tr6 b h)) S1x1x512x64.size (k0_off11_inb (tr6 b h))).toLoadRect (Values.l2 m ρ c)) (ix4 0 0 s d) = Values.l2 m ρ c (ix4 b h s d) := by
  rw [View.readAt_apply, rdw, ld11 b h s d]

end Cert.KernelIdeal.BridgeRead3

end
-- ==== Proof.BridgeAcc.lean ====
/-
  The accumulators after each pass, and the result.

  With w(s, t) the weight of query row s against key column t (see the first bridge module), over the keys of the
  device whose block the pass reads:
    after the pass over the device's own keys   acc = sum over t of w * V,                 lsum = sum over t of w;
    each later pass adds its own two sums;
    the last pass stores (acc + its sum) / (lsum + its sum).
-/
import proofs.«900413_g7700000000000414_dist_agattn_v7x_xyz2x4x4_z_b2_s512_h8_d64_bf16_1_alg».proof.Proof.BridgeRead0
import proofs.«900413_g7700000000000414_dist_agattn_v7x_xyz2x4x4_z_b2_s512_h8_d64_bf16_1_alg».proof.Proof.BridgeRead1
import proofs.«900413_g7700000000000414_dist_agattn_v7x_xyz2x4x4_z_b2_s512_h8_d64_bf16_1_alg».proof.Proof.BridgeRead2
import proofs.«900413_g7700000000000414_dist_agattn_v7x_xyz2x4x4_z_b2_s512_h8_d64_bf16_1_alg».proof.Proof.BridgeRead3

noncomputable section

namespace Cert.KernelIdeal.BridgeAcc

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.State Cert.KernelIdeal.ValCommon Cert.KernelIdeal.Offsets Cert.KernelIdeal.BridgeIdx Cert.KernelIdeal.PayloadIdeal Cert.KernelIdeal.BridgeVal
open Cert.KernelIdeal.BridgeRead0 Cert.KernelIdeal.BridgeRead1 Cert.KernelIdeal.BridgeRead2 Cert.KernelIdeal.BridgeRead3
open Idealize.ShloMosaic.ValueIdx

variable (m : (ℓ : Loc nD τ sig) → Buf (Elt Ideal) ℓ) (ρ : Dev nD → PrngReg)

/-- The weight of query row `s` of device `c` against key column `t` of device `p`, in the tile (b, h). -/
def wgt (c p : Dev nD) (b : Fin 2) (h : Fin 8) (s t : Fin 512) : EReal :=
  Ideal.exp (∑ d' : Fin 64, (Qv m ρ c (ix4 b s h d') * sc) * Kv m ρ p (ix4 b t h d'))

/-- The named accumulators and the result as functions into the extended reals. -/
abbrev a0v (c : Dev nD) : S2x8x512x64.Idx → EReal := Values.a0 m ρ c
abbrev l0v (c : Dev nD) : S2x8x512x64.Idx → EReal := Values.l0 m ρ c
abbrev a1v (c : Dev nD) : S2x8x512x64.Idx → EReal := Values.a1 m ρ c
abbrev l1v (c : Dev nD) : S2x8x512x64.Idx → EReal := Values.l1 m ρ c
abbrev a2v (c : Dev nD) : S2x8x512x64.Idx → EReal := Values.a2 m ρ c
abbrev l2v (c : Dev nD) : S2x8x512x64.Idx → EReal := Values.l2 m ρ c
abbrev outv (c : Dev nD) : S2x512x8x64.Idx → EReal := Values.outV m ρ c

attribute [local irreducible] Values.kT Values.vT Values.qT Values.kC Values.vC Values.a0 Values.l0 Values.a1 Values.l1 Values.a2 Values.l2 Values.outV in
theorem a0_at (c : Dev nD) (b : Fin 2) (h : Fin 8) (s : Fin 512) (d : Fin 64) :
    a0v m ρ c (ix4 b h s d) = ∑ t : Fin 512, wgt m ρ c c b h s t * Vv m ρ c (ix4 b t h d) := by
  have e := Tiles.a0_tile m ρ c (tr3 b h) (ix4 0 0 s d)
  rw [emb5 b h s d] at e
  show Values.a0 m ρ c (ix4 b h s d) = _
  rw [e]
  show k0_pay14 (F := Ideal) (k0_pay2 ((qtM : Memref sig .tc .vmem S2x8x512x64 .bf16).view.readAt (Elt Ideal) (Rect.unit (s := S2x8x512x64) (k0_off5 (tr3 b h)) S1x1x512x64.size (k0_off5_inb (tr3 b h))).toLoadRect (Values.qT m ρ c))) (k0_pay3 ((klocM : Memref sig .tc .vmem S2x8x64x512 .bf16).view.readAt (Elt Ideal) (Rect.unit (s := S2x8x64x512) (k0_off6 (tr3 b h)) S1x1x64x512.size (k0_off6_inb (tr3 b h))).toLoadRect (Values.kT m ρ c))) (k0_pay4 ((vlocM : Memref sig .tc .vmem S2x8x64x512 .bf16).view.readAt (Elt Ideal) (Rect.unit (s := S2x8x64x512) (k0_off6 (tr3 b h)) S1x1x64x512.size (k0_off6_inb (tr3 b h))).toLoadRect (Values.vT m ρ c))) (constant (F := Ideal) S512x512 .f32 0x00000000#32) (ix4 0 0 s d) = _
  rw [pay14_apply]
  refine Finset.sum_congr rfl fun t _ => ?_
  rw [pay13_zero_apply, vRead3]
  unfold wgt
  congr 2
  refine Finset.sum_congr rfl fun d' _ => ?_
  rw [qRead3, kRead3]

attribute [local irreducible] Values.kT Values.vT Values.qT Values.kC Values.vC Values.a0 Values.l0 Values.a1 Values.l1 Values.a2 Values.l2 Values.outV in
theorem l0_at (c : Dev nD) (b : Fin 2) (h : Fin 8) (s : Fin 512) (d : Fin 64) :
    l0v m ρ c (ix4 b h s d) = ∑ t : Fin 512, wgt m ρ c c b h s t := by
  have e := Tiles.l0_tile m ρ c (tr3 b h) (ix4 0 0 s d)
  rw [emb5 b h s d] at e
  show Values.l0 m ρ c (ix4 b h s d) = _
  rw [e]
  show k0_pay15 (F := Ideal) (k0_pay2 ((qtM : Memref sig .tc .vmem S2x8x512x64 .bf16).view.readAt (Elt Ideal) (Rect.unit (s := S2x8x512x64) (k0_off5 (tr3 b h)) S1x1x512x64.size (k0_off5_inb (tr3 b h))).toLoadRect (Values.qT m ρ c))) (k0_pay3 ((klocM : Memref sig .tc .vmem S2x8x64x512 .bf16).view.readAt (Elt Ideal) (Rect.unit (s := S2x8x64x512) (k0_off6 (tr3 b h)) S1x1x64x512.size (k0_off6_inb (tr3 b h))).toLoadRect (Values.kT m ρ c))) (constant (F := Ideal) S512x512 .f32 0x00000000#32) (ix4 0 0 s d) = _
  rw [pay15_apply]
  refine Finset.sum_congr rfl fun t _ => ?_
  rw [pay13_zero_apply]
  unfold wgt
  congr 1
  refine Finset.sum_congr rfl fun d' _ => ?_
  rw [qRead3, kRead3]

attribute [local irreducible] Values.kT Values.vT Values.qT Values.kC Values.vC Values.a0 Values.l0 Values.a1 Values.l1 Values.a2 Values.l2 Values.outV in
theorem a1_at (c : Dev nD) (b : Fin 2) (h : Fin 8) (s : Fin 512) (d : Fin 64) :
    a1v m ρ c (ix4 b h s d) = a0v m ρ c (ix4 b h s d) + ∑ t : Fin 512, wgt m ρ c (peer 0 c) b h s t * Vv m ρ (peer 0 c) (ix4 b t h d) := by
  have e := Tiles.a1_tile m ρ c (tr4 b h) (ix4 0 0 s d)
  rw [emb7 b h s d] at e
  show Values.a1 m ρ c (ix4 b h s d) = _
  rw [e]
  show k0_pay17 (F := Ideal) (k0_pay5 ((qtM : Memref sig .tc .vmem S2x8x512x64 .bf16).view.readAt (Elt Ideal) (Rect.unit (s := S2x8x512x64) (k0_off7 (tr4 b h)) S1x1x512x64.size (k0_off7_inb (tr4 b h))).toLoadRect (Values.qT m ρ c))) (k0_pay6 ((kcomM : Memref sig .tc .vmem S3x2x8x64x512 .bf16).view.readAt (Elt Ideal) (Rect.unit (s := S3x2x8x64x512) (k0_off8 (tr4 b h)) S1x1x1x64x512.size (k0_off8_inb (tr4 b h))).toLoadRect (Values.kC m ρ c))) ((vcomM : Memref sig .tc .vmem S3x2x8x64x512 .bf16).view.readAt (Elt Ideal) (Rect.unit (s := S3x2x8x64x512) (k0_off8 (tr4 b h)) S1x1x1x64x512.size (k0_off8_inb (tr4 b h))).toLoadRect (Values.vC m ρ c)) ((accM : Memref sig .tc .vmem S2x8x512x64 .f32).view.readAt (Elt Ideal) (Rect.unit (s := S2x8x512x64) (k0_off7 (tr4 b h)) S1x1x512x64.size (k0_off7_inb (tr4 b h))).toLoadRect (Values.a0 m ρ c)) (ix4 0 0 s d) = _
  rw [pay17_apply, aRead4]
  congr 1
  refine Finset.sum_congr rfl fun t _ => ?_
  rw [pay16_apply, vRead4]
  unfold wgt
  congr 2
  refine Finset.sum_congr rfl fun d' _ => ?_
  rw [qRead4, kRead4]

attribute [local irreducible] Values.kT Values.vT Values.qT Values.kC Values.vC Values.a0 Values.l0 Values.a1 Values.l1 Values.a2 Values.l2 Values.outV in
theorem l1_at (c : Dev nD) (b : Fin 2) (h : Fin 8) (s : Fin 512) (d : Fin 64) :
    l1v m ρ c (ix4 b h s d) = l0v m ρ c (ix4 b h s d) + ∑ t : Fin 512, wgt m ρ c (peer 0 c) b h s t := by
  have e := Tiles.l1_tile m ρ c (tr4 b h) (ix4 0 0 s d)
  rw [emb7 b h s d] at e
  show Values.l1 m ρ c (ix4 b h s d) = _
  rw [e]
  show k0_pay18 (F := Ideal) (k0_pay5 ((qtM : Memref sig .tc .vmem S2x8x512x64 .bf16).view.readAt (Elt Ideal) (Rect.unit (s := S2x8x512x64) (k0_off7 (tr4 b h)) S1x1x512x64.size (k0_off7_inb (tr4 b h))).toLoadRect (Values.qT m ρ c))) (k0_pay6 ((kcomM : Memref sig .tc .vmem S3x2x8x64x512 .bf16).view.readAt (Elt Ideal) (Rect.unit (s := S3x2x8x64x512) (k0_off8 (tr4 b h)) S1x1x1x64x512.size (k0_off8_inb (tr4 b h))).toLoadRect (Values.kC m ρ c))) ((lsumM : Memref sig .tc .vmem S2x8x512x64 .f32).view.readAt (Elt Ideal) (Rect.unit (s := S2x8x512x64) (k0_off7 (tr4 b h)) S1x1x512x64.size (k0_off7_inb (tr4 b h))).toLoadRect (Values.l0 m ρ c)) (ix4 0 0 s d) = _
  rw [pay18_apply, lRead4]
  congr 1
  refine Finset.sum_congr rfl fun t _ => ?_
  rw [pay16_apply]
  unfold wgt
  congr 1
  refine Finset.sum_congr rfl fun d' _ => ?_
  rw [qRead4, kRead4]

attribute [local irreducible] Values.kT Values.vT Values.qT Values.kC Values.vC Values.a0 Values.l0 Values.a1 Values.l1 Values.a2 Values.l2 Values.outV in
theorem a2_at (c : Dev nD) (b : Fin 2) (h : Fin 8) (s : Fin 512) (d : Fin 64) :
    a2v m ρ c (ix4 b h s d) = a1v m ρ c (ix4 b h s d) + ∑ t : Fin 512, wgt m ρ c (peer 1 c) b h s t * Vv m ρ (peer 1 c) (ix4 b t h d) := by
  have e := Tiles.a2_tile m ρ c (tr5 b h) (ix4 0 0 s d)
  rw [emb9 b h s d] at e
  show Values.a2 m ρ c (ix4 b h s d) = _
  rw [e]
  show k0_pay20 (F := Ideal) (k0_pay7 ((qtM : Memref sig .tc .vmem S2x8x512x64 .bf16).view.readAt (Elt Ideal) (Rect.unit (s := S2x8x512x64) (k0_off9 (tr5 b h)) S1x1x512x64.size (k0_off9_inb (tr5 b h))).toLoadRect (Values.qT m ρ c))) (k0_pay8 ((kcomM : Memref sig .tc .vmem S3x2x8x64x512 .bf16).view.readAt (Elt Ideal) (Rect.unit (s := S3x2x8x64x512) (k0_off10 (tr5 b h)) S1x1x1x64x512.size (k0_off10_inb (tr5 b h))).toLoadRect (Values.kC m ρ c))) ((vcomM : Memref sig .tc .vmem S3x2x8x64x512 .bf16).view.readAt (Elt Ideal) (Rect.unit (s := S3x2x8x64x512) (k0_off10 (tr5 b h)) S1x1x1x64x512.size (k0_off10_inb (tr5 b h))).toLoadRect (Values.vC m ρ c)) ((accM : Memref sig .tc .vmem S2x8x512x64 .f32).view.readAt (Elt Ideal) (Rect.unit (s := S2x8x512x64) (k0_off9 (tr5 b h)) S1x1x512x64.size (k0_off9_inb (tr5 b h))).toLoadRect (Values.a1 m ρ c)) (ix4 0 0 s d) = _
  rw [pay20_apply, aRead5]
  congr 1
  refine Finset.sum_congr rfl fun t _ => ?_
  rw [pay19_apply, vRead5]
  unfold wgt
  congr 2
  refine Finset.sum_congr rfl fun d' _ => ?_
  rw [qRead5, kRead5]

attribute [local irreducible] Values.kT Values.vT Values.qT Values.kC Values.vC Values.a0 Values.l0 Values.a1 Values.l1 Values.a2 Values.l2 Values.outV in
theorem l2_at (c : Dev nD) (b : Fin 2) (h : Fin 8) (s : Fin 512) (d : Fin 64) :
    l2v m ρ c (ix4 b h s d) = l1v m ρ c (ix4 b h s d) + ∑ t : Fin 512, wgt m ρ c (peer 1 c) b h s t := by
  have e := Tiles.l2_tile m ρ c (tr5 b h) (ix4 0 0 s d)
  rw [emb9 b h s d] at e
  show Values.l2 m ρ c (ix4 b h s d) = _
  rw [e]
  show k0_pay21 (F := Ideal) (k0_pay7 ((qtM : Memref sig .tc .vmem S2x8x512x64 .bf16).view.readAt (Elt Ideal) (Rect.unit (s := S2x8x512x64) (k0_off9 (tr5 b h)) S1x1x512x64.size (k0_off9_inb (tr5 b h))).toLoadRect (Values.qT m ρ c))) (k0_pay8 ((kcomM : Memref sig .tc .vmem S3x2x8x64x512 .bf16).view.readAt (Elt Ideal) (Rect.unit (s := S3x2x8x64x512) (k0_off10 (tr5 b h)) S1x1x1x64x512.size (k0_off10_inb (tr5 b h))).toLoadRect (Values.kC m ρ c))) ((lsumM : Memref sig .tc .vmem S2x8x512x64 .f32).view.readAt (Elt Ideal) (Rect.unit (s := S2x8x512x64) (k0_off9 (tr5 b h)) S1x1x512x64.size (k0_off9_inb (tr5 b h))).toLoadRect (Values.l1 m ρ c)) (ix4 0 0 s d) = _
  rw [pay21_apply, lRead5]
  congr 1
  refine Finset.sum_congr rfl fun t _ => ?_
  rw [pay19_apply]
  unfold wgt
  congr 1
  refine Finset.sum_congr rfl fun d' _ => ?_
  rw [qRead5, kRead5]

attribute [local irreducible] Values.kT Values.vT Values.qT Values.kC Values.vC Values.a0 Values.l0 Values.a1 Values.l1 Values.a2 Values.l2 Values.outV in
/-- The stored result: the two accumulators, each with the last pass's sum added, divided. -/
theorem out_at (c : Dev nD) (b : Fin 2) (h : Fin 8) (s : Fin 512) (d : Fin 64) :
    outv m ρ c (ix4 b s h d) = Ideal.div (a2v m ρ c (ix4 b h s d) + ∑ t : Fin 512, wgt m ρ c (peer 2 c) b h s t * Vv m ρ (peer 2 c) (ix4 b t h d)) (l2v m ρ c (ix4 b h s d) + ∑ t : Fin 512, wgt m ρ c (peer 2 c) b h s t) := by
  have e := Tiles.outV_tile m ρ c (tr6 b h) (ix4 0 s 0 d)
  rw [emb13 b h s d] at e
  show Values.outV m ρ c (ix4 b s h d) = _
  rw [e]
  show k0_pay22 (F := Ideal) (k0_pay9 ((qtM : Memref sig .tc .vmem S2x8x512x64 .bf16).view.readAt (Elt Ideal) (Rect.unit (s := S2x8x512x64) (k0_off11 (tr6 b h)) S1x1x512x64.size (k0_off11_inb (tr6 b h))).toLoadRect (Values.qT m ρ c))) (k0_pay10 ((kcomM : Memref sig .tc .vmem S3x2x8x64x512 .bf16).view.readAt (Elt Ideal) (Rect.unit (s := S3x2x8x64x512) (k0_off12 (tr6 b h)) S1x1x1x64x512.size (k0_off12_inb (tr6 b h))).toLoadRect (Values.kC m ρ c))) ((vcomM : Memref sig .tc .vmem S3x2x8x64x512 .bf16).view.readAt (Elt Ideal) (Rect.unit (s := S3x2x8x64x512) (k0_off12 (tr6 b h)) S1x1x1x64x512.size (k0_off12_inb (tr6 b h))).toLoadRect (Values.vC m ρ c)) ((accM : Memref sig .tc .vmem S2x8x512x64 .f32).view.readAt (Elt Ideal) (Rect.unit (s := S2x8x512x64) (k0_off11 (tr6 b h)) S1x1x512x64.size (k0_off11_inb (tr6 b h))).toLoadRect (Values.a2 m ρ c)) ((lsumM : Memref sig .tc .vmem S2x8x512x64 .f32).view.readAt (Elt Ideal) (Rect.unit (s := S2x8x512x64) (k0_off11 (tr6 b h)) S1x1x512x64.size (k0_off11_inb (tr6 b h))).toLoadRect (Values.l2 m ρ c)) (ix4 0 s 0 d) = _
  rw [pay22_apply, aRead6, lRead6]
  unfold wgt
  congr 2
  · refine Finset.sum_congr rfl fun t _ => ?_
    rw [vRead6]
    congr 2
    refine Finset.sum_congr rfl fun d' _ => ?_
    rw [qRead6, kRead6]
  · refine Finset.sum_congr rfl fun t _ => ?_
    congr 1
    refine Finset.sum_congr rfl fun d' _ => ?_
    rw [qRead6, kRead6]

end Cert.KernelIdeal.BridgeAcc

end
-- ==== Proof.SpecAttn.lean ====
/-
  The attention value both programs compute, as ONE function of the three whole arrays, index by index.

  Arrays are indexed (batch, position, head, feature) with extents (2, 2048, 8, 64). For a query at position
  `q`, batch `b`, head `h`, the score against key position `k` is
      s(q, k) = Σ_d (Q[b, q, h, d] · c) · K[b, k, h, d],        c the scale 1/8 = 64^(-1/2),
  and the result is the exp-weighted average of the value rows,
      out[b, q, h, d] = (Σ_k exp (s(q, k)) · V[b, k, h, d]) / (Σ_k exp (s(q, k))).
  No maximum is subtracted. The position axis is cut into four blocks of 512; a query in block `z = q / 512`
  takes the key positions block by block in the order z, z+1, z+2, z+3 (mod 4), and adds the four block sums
  from the left. `attn` is written in that blocked form; `attn_eq_full` says it is the sum over all 2048 key
  positions, which is only a re-indexing of a sum in a commutative monoid and needs no finiteness.
-/
import Idealize.ShloMosaic.PureOps.Ideal
import Idealize.ShloMosaic.Lib.ValueIdx

noncomputable section

open scoped BigOperators

namespace Cert.KernelIdeal.Spec

open Idealize.ShloMosaic Idealize.ShloMosaic.ValueIdx

/-- The scale 1/8, kept as the 32-bit word that denotes it. -/
abbrev scale : EReal := Ideal.ofBits .f32 0x3E000000#32

/-- The score of query position `q` against key position `k` (batch `b`, head `h`): the scale is applied to the
    query entry first, then the products are summed over the 64 features. -/
def score (Q K : (⟨4, ![2, 2048, 8, 64]⟩ : Shape).Idx → EReal) (b : Fin 2) (h : Fin 8) (q k : Fin 2048) : EReal :=
  ∑ d : Fin 64, (Q (ix4 b q h d) * scale) * K (ix4 b k h d)

/-- Key position `k'` of the block `t` steps after block `z`, cyclically among the four blocks of 512. -/
def keyPos (z t : Nat) (k' : Fin 512) : Fin 2048 := ⟨512 * ((z + t) % 4) + k'.val, by omega⟩

/-- One block's share of the numerator: the exp-weighted sum of the value entries over the block's 512 keys. -/
def numBlock (Q K V : (⟨4, ![2, 2048, 8, 64]⟩ : Shape).Idx → EReal) (b : Fin 2) (q : Fin 2048) (h : Fin 8) (d : Fin 64)
    (z t : Nat) : EReal :=
  ∑ k' : Fin 512, Ideal.exp (score Q K b h q (keyPos z t k')) * V (ix4 b (keyPos z t k') h d)

/-- One block's share of the denominator: the sum of the weights over the block's 512 keys. -/
def denBlock (Q K : (⟨4, ![2, 2048, 8, 64]⟩ : Shape).Idx → EReal) (b : Fin 2) (q : Fin 2048) (h : Fin 8)
    (z t : Nat) : EReal :=
  ∑ k' : Fin 512, Ideal.exp (score Q K b h q (keyPos z t k'))

/-- The result at coordinates (b, q, h, d): with `z = q / 512` the query's own block, the four block sums of the
    numerator and of the denominator, own block first, added from the left, then the quotient. -/
def attnAt (Q K V : (⟨4, ![2, 2048, 8, 64]⟩ : Shape).Idx → EReal) (b : Fin 2) (q : Fin 2048) (h : Fin 8) (d : Fin 64) : EReal :=
  Ideal.div
    (((numBlock Q K V b q h d (q.val / 512) 0 + numBlock Q K V b q h d (q.val / 512) 1)
        + numBlock Q K V b q h d (q.val / 512) 2) + numBlock Q K V b q h d (q.val / 512) 3)
    (((denBlock Q K b q h (q.val / 512) 0 + denBlock Q K b q h (q.val / 512) 1)
        + denBlock Q K b q h (q.val / 512) 2) + denBlock Q K b q h (q.val / 512) 3)

/-- THE SPECIFICATION: the result array as a function of the three whole arrays. -/
def attn (Q K V : (⟨4, ![2, 2048, 8, 64]⟩ : Shape).Idx → EReal) : (⟨4, ![2, 2048, 8, 64]⟩ : Shape).Idx → EReal :=
  fun i => attnAt Q K V (i 0) (i 1) (i 2) (i 3)

/-- At an index given by its coordinates the specification is `attnAt` of them. -/
theorem attn_ix4 (Q K V : (⟨4, ![2, 2048, 8, 64]⟩ : Shape).Idx → EReal) (b : Fin 2) (q : Fin 2048) (h : Fin 8) (d : Fin 64) :
    attn Q K V (ix4 b q h d) = attnAt Q K V b q h d := rfl

/-! ## The blocked sum is the sum over all key positions -/

/-- The 2048 key positions are four blocks of 512: position `512 c + k'` for block `c` and offset `k'`. -/
def posEquiv : Fin 4 × Fin 512 ≃ Fin 2048 where
  toFun p := ⟨512 * p.1.val + p.2.val, by have := p.1.isLt; have := p.2.isLt; omega⟩
  invFun k := (⟨k.val / 512, by have := k.isLt; omega⟩, ⟨k.val % 512, by omega⟩)
  left_inv p := by
    have h1 := p.1.isLt; have h2 := p.2.isLt
    refine Prod.ext (Fin.ext ?_) (Fin.ext ?_)
    · show (512 * p.1.val + p.2.val) / 512 = p.1.val; omega
    · show (512 * p.1.val + p.2.val) % 512 = p.2.val; omega
  right_inv k := by
    refine Fin.ext ?_
    show 512 * (k.val / 512) + k.val % 512 = k.val; omega

/-- The sum of `f` over block `c`: positions `512 c` … `512 c + 511`. -/
def blockSum {M : Type*} [AddCommMonoid M] (f : Fin 2048 → M) (c : Fin 4) : M :=
  ∑ k' : Fin 512, f ⟨512 * c.val + k'.val, by have := c.isLt; have := k'.isLt; omega⟩

/-- A sum over the 2048 positions is the sum over the four blocks of the block sums. -/
theorem sum_pos {M : Type*} [AddCommMonoid M] (f : Fin 2048 → M) : ∑ k, f k = ∑ c : Fin 4, blockSum f c := by
  rw [← Equiv.sum_comp posEquiv f, Fintype.sum_prod_type]
  rfl

/-- The block `t` steps after `z` is block `c` when `(z + t) % 4 = c`. -/
theorem sum_keyPos {M : Type*} [AddCommMonoid M] (f : Fin 2048 → M) (z t : Nat) (c : Fin 4) (e : (z + t) % 4 = c.val) :
    ∑ k' : Fin 512, f (keyPos z t k') = blockSum f c := by
  unfold blockSum
  refine Finset.sum_congr rfl fun k' _ => congrArg f (Fin.ext ?_)
  show 512 * ((z + t) % 4) + k'.val = 512 * c.val + k'.val
  rw [e]

/-- Taking the four blocks in the cyclic order z, z+1, z+2, z+3 and adding from the left gives the sum over all
    positions: the four block numbers are 0, 1, 2, 3 in a rotated order. -/
theorem sum_blocks {M : Type*} [AddCommMonoid M] (f : Fin 2048 → M) (z : Nat) :
    ((∑ k' : Fin 512, f (keyPos z 0 k') + ∑ k' : Fin 512, f (keyPos z 1 k'))
        + ∑ k' : Fin 512, f (keyPos z 2 k')) + ∑ k' : Fin 512, f (keyPos z 3 k') = ∑ k, f k := by
  rw [sum_pos f, Fin.sum_univ_four]
  have hz : z % 4 = 0 ∨ z % 4 = 1 ∨ z % 4 = 2 ∨ z % 4 = 3 := by omega
  rcases hz with h | h | h | h
  · rw [sum_keyPos f z 0 0 (by show _ = 0; omega), sum_keyPos f z 1 1 (by show _ = 1; omega),
      sum_keyPos f z 2 2 (by show _ = 2; omega), sum_keyPos f z 3 3 (by show _ = 3; omega)]
  · rw [sum_keyPos f z 0 1 (by show _ = 1; omega), sum_keyPos f z 1 2 (by show _ = 2; omega),
      sum_keyPos f z 2 3 (by show _ = 3; omega), sum_keyPos f z 3 0 (by show _ = 0; omega)]
    abel
  · rw [sum_keyPos f z 0 2 (by show _ = 2; omega), sum_keyPos f z 1 3 (by show _ = 3; omega),
      sum_keyPos f z 2 0 (by show _ = 0; omega), sum_keyPos f z 3 1 (by show _ = 1; omega)]
    abel
  · rw [sum_keyPos f z 0 3 (by show _ = 3; omega), sum_keyPos f z 1 0 (by show _ = 0; omega),
      sum_keyPos f z 2 1 (by show _ = 1; omega), sum_keyPos f z 3 2 (by show _ = 2; omega)]
    abel

/-- The specification in its unblocked form: numerator and denominator as sums over all 2048 key positions. -/
theorem attnAt_eq_full (Q K V : (⟨4, ![2, 2048, 8, 64]⟩ : Shape).Idx → EReal) (b : Fin 2) (q : Fin 2048) (h : Fin 8) (d : Fin 64) :
    attnAt Q K V b q h d
      = Ideal.div (∑ k : Fin 2048, Ideal.exp (score Q K b h q k) * V (ix4 b k h d))
          (∑ k : Fin 2048, Ideal.exp (score Q K b h q k)) := by
  unfold attnAt numBlock denBlock
  rw [sum_blocks (fun k => Ideal.exp (score Q K b h q k) * V (ix4 b k h d)) (q.val / 512),
    sum_blocks (fun k => Ideal.exp (score Q K b h q k)) (q.val / 512)]

/-- The same at an index of the result array. -/
theorem attn_eq_full (Q K V : (⟨4, ![2, 2048, 8, 64]⟩ : Shape).Idx → EReal) (i : (⟨4, ![2, 2048, 8, 64]⟩ : Shape).Idx) :
    attn Q K V i
      = Ideal.div (∑ k : Fin 2048, Ideal.exp (score Q K (i 0) (i 2) (i 1) k) * V (ix4 (i 0) k (i 2) (i 3)))
          (∑ k : Fin 2048, Ideal.exp (score Q K (i 0) (i 2) (i 1) k)) :=
  attnAt_eq_full Q K V (i 0) (i 1) (i 2) (i 3)

end Cert.KernelIdeal.Spec

end
-- ==== Proof.SpecBlock.lean ====
/-
  Where a device's block of a whole array lies. The mesh has axis sizes (2, 4, 4), devices numbered row-major,
  so device `c` has coordinate `c % 4` on the last axis. An array of extents (2, 2048, 8, 64) is cut along its
  position axis into four blocks of 512 by that last mesh axis and is not cut along the other three axes: the
  entry (b, q, h, d) of device `c`'s block is the entry (b, 512 · (c % 4) + q, h, d) of the whole array.
-/
import Idealize.ShloMosaic.Lib.Layout
import Idealize.ShloMosaic.Lib.ValueIdx

namespace Cert.KernelIdeal.Spec

open Idealize.ShloMosaic Idealize.ShloMosaic.ValueIdx

/-- The position in the whole array of position `q` of the block held by a device whose last mesh coordinate is
    `c % 4`. -/
def blockPos (c : Nat) (q : Fin 512) : Fin 2048 := ⟨512 * (c % 4) + q.val, by omega⟩

/-- The index in the whole array of index `i` of device `c`'s block, coordinate by coordinate. -/
theorem blockIdx_eq {n : Nat} (c : Fin n)
    (ht : Layout.TilesN ⟨4, ![2, 512, 8, 64]⟩ ⟨4, ![2, 2048, 8, 64]⟩
      (fun b => Layout.cutSize [2, 4, 4] ((![[], [2], [], []] : Fin 4 → List Nat) b)))
    (hm : ∀ b, ∀ i ∈ (![[], [2], [], []] : Fin 4 → List Nat) b, 0 < ([2, 4, 4] : List Nat).getD i 0)
    (b : Fin 2) (q : Fin 512) (h : Fin 8) (d : Fin 64) :
    ht.idx (Layout.meshBlock [2, 4, 4] ![[], [2], [], []] c hm) (ix4 b q h d) = ix4 b (blockPos c.val q) h d := by
  funext a
  refine Fin.ext ?_
  rw [Layout.TilesN.idx_val]
  match a with
  | ⟨0, _⟩ => show 0 * 2 + b.val = b.val; omega
  | ⟨1, _⟩ => show (c.val / 1 % 4 * 1 + 0) * 512 + q.val = 512 * (c.val % 4) + q.val; omega
  | ⟨2, _⟩ => show 0 * 8 + h.val = h.val; omega
  | ⟨3, _⟩ => show 0 * 64 + d.val = d.val; omega

/-- Device `c`'s block of a whole array `X`, read at (b, q, h, d): the whole array at (b, 512 · (c % 4) + q, h, d). -/
theorem blockN_ix4 {α : Type} {n : Nat} (c : Fin n) (X : (⟨4, ![2, 2048, 8, 64]⟩ : Shape).Idx → α)
    (b : Fin 2) (q : Fin 512) (h : Fin 8) (d : Fin 64) :
    (Layout.blockN ⟨4, ![2, 512, 8, 64]⟩ ⟨4, ![2, 2048, 8, 64]⟩ (Layout.meshBlock [2, 4, 4] ![[], [2], [], []] c) X)
        (ix4 b q h d)
      = X (ix4 b (blockPos c.val q) h d) := by
  rw [Layout.blockN_apply, blockIdx_eq]

/-- The same at any index of the block. -/
theorem blockN_read {α : Type} {n : Nat} (c : Fin n) (X : (⟨4, ![2, 2048, 8, 64]⟩ : Shape).Idx → α)
    (i : (⟨4, ![2, 512, 8, 64]⟩ : Shape).Idx) :
    (Layout.blockN ⟨4, ![2, 512, 8, 64]⟩ ⟨4, ![2, 2048, 8, 64]⟩ (Layout.meshBlock [2, 4, 4] ![[], [2], [], []] c) X) i
      = X (ix4 (i 0) (blockPos c.val (i 1)) (i 2) (i 3)) := by
  conv_lhs => rw [eq_ix4 i]
  exact blockN_ix4 c X (i 0) (i 1) (i 2) (i 3)

/-- Every position of the whole array lies in the block of the device numbered by its block: position `p` is
    position `p % 512` of the block of device `p / 512` (mesh coordinates (0, 0, p / 512)). -/
theorem blockPos_cover (p : Fin 2048) :
    blockPos (p.val / 512) ⟨p.val % 512, Nat.mod_lt _ (by decide)⟩ = p := by
  refine Fin.ext ?_
  show 512 * (p.val / 512 % 4) + p.val % 512 = p.val
  have := p.isLt
  omega

end Cert.KernelIdeal.Spec
-- ==== Proof.BridgeSpec.lean ====
/-
  The kernel computes the specification.

  Each device's staged blocks are its blocks of the whole arrays: entry (b, s, h, d) of device c's block is entry
  (b, 512 (c mod 4) + s, h, d) of the whole array. So the weight of the device's query row s against key column t of
  device p is exp of the score of the global positions 512 (c mod 4) + s and 512 (p mod 4) + t, and a pass's two sums
  are one block's share of the specification's numerator and denominator: the device's own block first, then the
  blocks of its three peers, whose position along the line is one, two and three steps further, cyclically. That is
  the specification's order, so the stored quotient is the specification's entry at the device's global position.
-/
import proofs.«900413_g7700000000000414_dist_agattn_v7x_xyz2x4x4_z_b2_s512_h8_d64_bf16_1_alg».proof.Proof.BridgeAcc
import proofs.«900413_g7700000000000414_dist_agattn_v7x_xyz2x4x4_z_b2_s512_h8_d64_bf16_1_alg».proof.Proof.SpecAttn
import proofs.«900413_g7700000000000414_dist_agattn_v7x_xyz2x4x4_z_b2_s512_h8_d64_bf16_1_alg».proof.Proof.SpecBlock
import proofs.«900413_g7700000000000414_dist_agattn_v7x_xyz2x4x4_z_b2_s512_h8_d64_bf16_1_alg».proof.Proof.Gen.ReferenceIdeal

noncomputable section

namespace Cert.KernelIdeal.BridgeSpec

open Cert.KernelIdeal Cert.KernelIdeal.Gen Cert.KernelIdeal.Mesh
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Cells Cert.KernelIdeal.State Cert.KernelIdeal.BridgeIdx Cert.KernelIdeal.BridgeVal Cert.KernelIdeal.BridgeAcc
open Idealize.ShloMosaic.ValueIdx
open Cert.KernelIdeal.Spec

variable (m : (ℓ : Loc nD τ sig) → Buf (Elt Ideal) ℓ) (ρ : Dev nD → PrngReg)
variable (m' : (ℓ : Loc Cert.ReferenceIdeal.nD Cert.ReferenceIdeal.τ Cert.ReferenceIdeal.sig) → Buf (Elt Ideal) ℓ)

/-- A peer's place along the line: one, two or three steps further, cyclically. -/
theorem peer_mod : ∀ (r : Fin 3) (c : Dev nD), (peer r c).val % 4 = (c.val % 4 + 1 + r.val) % 4 := by decide +kernel

/-- The staged blocks are the device's argument arrays, whole. -/
theorem Qst_eq (c : Dev nD) : Qst m ρ c = m ((c.tc : Thread nD τ).loc main_arg0) := by
  funext j
  show m ((c.tc : Thread nD τ).loc main_arg0) ((win0_0.blk (0 : Fin 1)).view.emb j) = m ((c.tc : Thread nD τ).loc main_arg0) j
  congr 1
  funext a; apply Fin.ext
  show win0_0.index (0 : Fin 1) a * S2x512x8x64.size a + 1 * (j a).val = (j a).val
  have h : win0_0.index (0 : Fin 1) a = 0 := rfl
  rw [h]; omega
theorem Kst_eq (c : Dev nD) : Kst m ρ c = m ((c.tc : Thread nD τ).loc main_arg1) := by
  funext j
  show m ((c.tc : Thread nD τ).loc main_arg1) ((win0_1.blk (0 : Fin 1)).view.emb j) = m ((c.tc : Thread nD τ).loc main_arg1) j
  congr 1
  funext a; apply Fin.ext
  show win0_1.index (0 : Fin 1) a * S2x512x8x64.size a + 1 * (j a).val = (j a).val
  have h : win0_1.index (0 : Fin 1) a = 0 := rfl
  rw [h]; omega
theorem Vst_eq (c : Dev nD) : Vst m ρ c = m ((c.tc : Thread nD τ).loc main_arg2) := by
  funext j
  show m ((c.tc : Thread nD τ).loc main_arg2) ((win0_2.blk (0 : Fin 1)).view.emb j) = m ((c.tc : Thread nD τ).loc main_arg2) j
  congr 1
  funext a; apply Fin.ext
  show win0_2.index (0 : Fin 1) a * S2x512x8x64.size a + 1 * (j a).val = (j a).val
  have h : win0_2.index (0 : Fin 1) a = 0 := rfl
  rw [h]; omega

/-- The reference's three whole arrays. -/
abbrev QW : (⟨4, ![2, 2048, 8, 64]⟩ : Shape).Idx → EReal := (m' (((0 : Dev Cert.ReferenceIdeal.nD).tc : Thread Cert.ReferenceIdeal.nD Cert.ReferenceIdeal.τ).loc Cert.ReferenceIdeal.main_arg0))
abbrev KW : (⟨4, ![2, 2048, 8, 64]⟩ : Shape).Idx → EReal := (m' (((0 : Dev Cert.ReferenceIdeal.nD).tc : Thread Cert.ReferenceIdeal.nD Cert.ReferenceIdeal.τ).loc Cert.ReferenceIdeal.main_arg1))
abbrev VW : (⟨4, ![2, 2048, 8, 64]⟩ : Shape).Idx → EReal := (m' (((0 : Dev Cert.ReferenceIdeal.nD).tc : Thread Cert.ReferenceIdeal.nD Cert.ReferenceIdeal.τ).loc Cert.ReferenceIdeal.main_arg2))

section Agree

variable (hagree : ∀ c : Dev nD,
      m ((c.tc : Thread nD τ).loc main_arg0) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg0))
      ∧ m ((c.tc : Thread nD τ).loc main_arg1) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread nD τ).loc main_arg2) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2)))

include hagree in
theorem Qv_eq (c : Dev nD) (b : Fin 2) (s : Fin 512) (h : Fin 8) (d : Fin 64) :
    Qv m ρ c (ix4 b s h d) = QW m' (ix4 b (blockPos c.val s) h d) := by
  show Qst m ρ c (ix4 b s h d) = _
  rw [Qst_eq, (hagree c).1, blockN_ix4]
include hagree in
theorem Kv_eq (c : Dev nD) (b : Fin 2) (s : Fin 512) (h : Fin 8) (d : Fin 64) :
    Kv m ρ c (ix4 b s h d) = KW m' (ix4 b (blockPos c.val s) h d) := by
  show Kst m ρ c (ix4 b s h d) = _
  rw [Kst_eq, (hagree c).2.1, blockN_ix4]
include hagree in
theorem Vv_eq (c : Dev nD) (b : Fin 2) (s : Fin 512) (h : Fin 8) (d : Fin 64) :
    Vv m ρ c (ix4 b s h d) = VW m' (ix4 b (blockPos c.val s) h d) := by
  show Vst m ρ c (ix4 b s h d) = _
  rw [Vst_eq, (hagree c).2.2, blockN_ix4]

include hagree in
/-- A weight is exp of the score of the two global positions. -/
theorem wgt_eq (c p : Dev nD) (b : Fin 2) (h : Fin 8) (s t : Fin 512) :
    wgt m ρ c p b h s t = Ideal.exp (score (QW m') (KW m') b h (blockPos c.val s) (blockPos p.val t)) := by
  unfold wgt score
  congr 1
  refine Finset.sum_congr rfl fun d' _ => ?_
  rw [Qv_eq m ρ m' hagree, Kv_eq m ρ m' hagree]

/-- The key positions of the block `tt` steps after the query's own block are the positions of the device `p` that
    sits there. -/
theorem keyPos_eq (c p : Dev nD) (s : Fin 512) (tt : ℕ) (hp : p.val % 4 = (c.val % 4 + tt) % 4) (k' : Fin 512) :
    keyPos ((blockPos c.val s).val / 512) tt k' = blockPos p.val k' := by
  apply Fin.ext
  show 512 * (((512 * (c.val % 4) + s.val) / 512 + tt) % 4) + k'.val = 512 * (p.val % 4) + k'.val
  have hs := s.isLt
  have e : (512 * (c.val % 4) + s.val) / 512 = c.val % 4 := by omega
  rw [e, hp]

include hagree in
theorem num_eq (c p : Dev nD) (b : Fin 2) (h : Fin 8) (s : Fin 512) (d : Fin 64) (tt : ℕ) (hp : p.val % 4 = (c.val % 4 + tt) % 4) :
    (∑ t : Fin 512, wgt m ρ c p b h s t * Vv m ρ p (ix4 b t h d))
      = numBlock (QW m') (KW m') (VW m') b (blockPos c.val s) h d ((blockPos c.val s).val / 512) tt := by
  unfold numBlock
  refine Finset.sum_congr rfl fun k' _ => ?_
  rw [wgt_eq m ρ m' hagree, Vv_eq m ρ m' hagree, keyPos_eq c p s tt hp k']
include hagree in
theorem den_eq (c p : Dev nD) (b : Fin 2) (h : Fin 8) (s : Fin 512) (tt : ℕ) (hp : p.val % 4 = (c.val % 4 + tt) % 4) :
    (∑ t : Fin 512, wgt m ρ c p b h s t)
      = denBlock (QW m') (KW m') b (blockPos c.val s) h ((blockPos c.val s).val / 512) tt := by
  unfold denBlock
  refine Finset.sum_congr rfl fun k' _ => ?_
  rw [wgt_eq m ρ m' hagree, keyPos_eq c p s tt hp k']

theorem hp0 (c : Dev nD) : c.val % 4 = (c.val % 4 + 0) % 4 := by omega
theorem hpr (r : Fin 3) (c : Dev nD) : (peer r c).val % 4 = (c.val % 4 + (r.val + 1)) % 4 := by
  rw [peer_mod]; congr 1; omega

include hagree in
/-- The result entry is the specification's entry at the device's global position. -/
theorem out_eq_attnAt (c : Dev nD) (b : Fin 2) (s : Fin 512) (h : Fin 8) (d : Fin 64) :
    outv m ρ c (ix4 b s h d) = attnAt (QW m') (KW m') (VW m') b (blockPos c.val s) h d := by
  rw [out_at, a2_at, a1_at, a0_at, l2_at, l1_at, l0_at]
  unfold attnAt
  rw [num_eq m ρ m' hagree c c b h s d 0 (hp0 c), num_eq m ρ m' hagree c (peer 0 c) b h s d 1 (hpr 0 c),
    num_eq m ρ m' hagree c (peer 1 c) b h s d 2 (hpr 1 c), num_eq m ρ m' hagree c (peer 2 c) b h s d 3 (hpr 2 c),
    den_eq m ρ m' hagree c c b h s 0 (hp0 c), den_eq m ρ m' hagree c (peer 0 c) b h s 1 (hpr 0 c),
    den_eq m ρ m' hagree c (peer 1 c) b h s 2 (hpr 1 c), den_eq m ρ m' hagree c (peer 2 c) b h s 3 (hpr 2 c)]

include hagree in
/-- Each device's result block is its block of the specification. -/
theorem outV_eq (c : Dev nD) :
    (Values.outV m ρ c : (⟨4, ![2, 512, 8, 64]⟩ : Shape).Idx → EReal) = Layout.blockN ⟨4, ![2, 512, 8, 64]⟩ ⟨4, ![2, 2048, 8, 64]⟩ (Layout.meshBlock [2, 4, 4] ![[], [2], [], []] c) (attn (QW m') (KW m') (VW m')) := by
  funext i
  obtain ⟨b, s, h, d, rfl⟩ : ∃ (b : Fin 2) (s : Fin 512) (h : Fin 8) (d : Fin 64), i = ix4 b s h d := ⟨i 0, i 1, i 2, i 3, eq_ix4 i⟩
  rw [blockN_ix4, attn_ix4]
  exact out_eq_attnAt m ρ m' hagree c b s h d

end Agree

end Cert.KernelIdeal.BridgeSpec

end
-- ==== Proof.SpecFinite.lean ====
/-
  From the precondition to real entries. The precondition function of three arrays of extents (2, 512, 8, 64)
  answers the one-bit conjunction of "every entry has absolute value below +∞", array by array. At the extended
  reals an entry `x` with `max x (-x) < ⊤` is neither `⊤` nor `⊥`, so it is a real number. Hence: where the function
  is all ones, every entry of each of the three arrays is a real.
-/
import proofs.«900413_g7700000000000414_dist_agattn_v7x_xyz2x4x4_z_b2_s512_h8_d64_bf16_1_alg».proof.Pre_finite_inputs_Kernel
import Idealize.ShloMosaic.Lib.ReduceAll
import Idealize.ShloMosaic.Lib.ValueIdx

namespace Cert.KernelIdeal.Spec

open Idealize.ShloMosaic Idealize.ShloMosaic.ValueIdx

/-- The word 0x7F800000 denotes +∞. -/
theorem ofBits_pinf : Ideal.ofBits .f32 0x7F800000#32 = (⊤ : EReal) := by
  simp [Ideal.ofBits, Ideal.ieee]

/-- An extended real whose absolute value compares below +∞ is a real number. -/
theorem real_of_abs_lt (x : EReal)
    (h : Ideal.cmp .olt (max x (-x)) (Ideal.ofBits .f32 0x7F800000#32) = 1#1) : ∃ r : ℝ, x = (r : EReal) := by
  rw [ofBits_pinf] at h
  have hlt : max x (-x) < ⊤ := by
    by_contra hn
    simp [Ideal.cmp, hn] at h
  induction x using EReal.rec with
  | bot => exact absurd hlt (by simp)
  | coe r => exact ⟨r, rfl⟩
  | top => exact absurd hlt (by simp)

/-- The scalar shape has one index. -/
instance : Subsingleton Cert.Pre_finite_inputs_Kernel.S_.Idx := ⟨fun a b => funext fun d => d.elim0⟩

section
variable [Cert.Pre_finite_inputs_Kernel.Facts]
open Cert.Pre_finite_inputs_Kernel Cert.Pre_finite_inputs_Kernel.Facts

/-- One array: where the conjunction over all entries of "absolute value below +∞" is one, every entry is a real. -/
theorem real_of_all (x : FVec Ideal S2x512x8x64 .f32)
    (e : Host.reduce IntOp.andi
        (cmpf .olt (Host.absf x) (broadcastInDim S2x512x8x64 ![] bcast_S_S2x512x8x64 (constant (F := Ideal) S_ .f32 0x7F800000#32)))
        (constantI S_ 1 1#1) reducesTo_S2x512x8x64_S_d0_1_2_3 h_S_ ix0 = 1#1)
    (i : S2x512x8x64.Idx) : ∃ r : ℝ, x i = (r : EReal) :=
  real_of_abs_lt (x i) (Host.reduce_andi_all _ _ _ _ ix0 e i)

/-- The three arrays: where the precondition function is all ones, every entry of each array is a real. -/
theorem real_of_pre (x0 x1 x2 : FVec Ideal S2x512x8x64 .f32)
    (h : Cert.Pre_finite_inputs_Kernel.fn (F := Ideal) x0 x1 x2 = fun _ => 1#1) :
    (∀ i, ∃ r : ℝ, x0 i = (r : EReal)) ∧ (∀ i, ∃ r : ℝ, x1 i = (r : EReal)) ∧ (∀ i, ∃ r : ℝ, x2 i = (r : EReal)) := by
  have h0 := congrFun h ix0
  dsimp only [Cert.Pre_finite_inputs_Kernel.fn] at h0
  obtain ⟨h01, h2⟩ := IntOp.andi_eq_one.mp h0
  obtain ⟨h0', h1⟩ := IntOp.andi_eq_one.mp h01
  exact ⟨real_of_all x0 h0', real_of_all x1 h1, real_of_all x2 h2⟩

end

end Cert.KernelIdeal.Spec
-- ==== Proof.SpecPre.lean ====
/-
  Every entry of the three whole arrays is a real number. Each device's three argument blocks satisfy the
  precondition, so all their entries are real; each device's block is its part of the whole array (position `q` of
  the block of device `c` is position 512 · (c % 4) + q of the whole); and every position `p` of the whole array is
  position `p % 512` of the block of device `p / 512`. So every entry of a whole array is an entry of some block.
-/
import proofs.«900413_g7700000000000414_dist_agattn_v7x_xyz2x4x4_z_b2_s512_h8_d64_bf16_1_alg».proof.Defs
import proofs.«900413_g7700000000000414_dist_agattn_v7x_xyz2x4x4_z_b2_s512_h8_d64_bf16_1_alg».proof.Proof.SpecFinite
import proofs.«900413_g7700000000000414_dist_agattn_v7x_xyz2x4x4_z_b2_s512_h8_d64_bf16_1_alg».proof.Proof.SpecBlock

namespace Cert.KernelIdeal.Spec

open Idealize.ShloMosaic Idealize.ShloMosaic.ValueIdx Idealize.SL.Sem

/-- If every entry of every device's block of `X` is a real, every entry of `X` is. -/
theorem real_of_blocks (X : (⟨4, ![2, 2048, 8, 64]⟩ : Shape).Idx → EReal)
    (hb : ∀ (c : Fin 32) (j : (⟨4, ![2, 512, 8, 64]⟩ : Shape).Idx), ∃ r : ℝ,
      (Layout.blockN ⟨4, ![2, 512, 8, 64]⟩ ⟨4, ![2, 2048, 8, 64]⟩ (Layout.meshBlock [2, 4, 4] ![[], [2], [], []] c) X) j = (r : EReal))
    (i : (⟨4, ![2, 2048, 8, 64]⟩ : Shape).Idx) : ∃ r : ℝ, X i = (r : EReal) := by
  obtain ⟨b, p, h, d, rfl⟩ : ∃ (b : Fin 2) (p : Fin 2048) (h : Fin 8) (d : Fin 64), i = ix4 b p h d :=
    ⟨i 0, i 1, i 2, i 3, eq_ix4 i⟩
  have hp := p.isLt
  obtain ⟨r, hr⟩ := hb ⟨p.val / 512, by omega⟩ (ix4 b ⟨p.val % 512, Nat.mod_lt _ (by decide)⟩ h d)
  rw [blockN_ix4] at hr
  have e : blockPos (⟨p.val / 512, by omega⟩ : Fin 32).val ⟨p.val % 512, Nat.mod_lt _ (by decide)⟩ = p :=
    blockPos_cover p
  rw [e] at hr
  exact ⟨r, hr⟩

/-- From the precondition on every device's blocks, and each block being its part of the whole array, every entry
    of the three whole arrays is a real number. -/
theorem whole_real [Cert.Pre_finite_inputs_Kernel.Facts]
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (hpre : Cert.Pre_KernelIdeal m)
    (hagree : ∀ c : Dev Cert.KernelIdeal.nD,
      m ((c.tc : Thread Cert.KernelIdeal.nD Cert.KernelIdeal.τ).loc Cert.KernelIdeal.main_arg0) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨4, ![2, 512, 8, 64]⟩ ⟨4, ![2, 2048, 8, 64]⟩ (Layout.meshBlock [2, 4, 4] ![[], [2], [], []] c) (m' (((0 : Dev Cert.ReferenceIdeal.nD).tc : Thread Cert.ReferenceIdeal.nD Cert.ReferenceIdeal.τ).loc Cert.ReferenceIdeal.main_arg2))) :
    (∀ i, ∃ r : ℝ, m' (((0 : Dev Cert.ReferenceIdeal.nD).tc : Thread Cert.ReferenceIdeal.nD Cert.ReferenceIdeal.τ).loc Cert.ReferenceIdeal.main_arg0) i = (r : EReal))
    ∧ (∀ i, ∃ r : ℝ, m' (((0 : Dev Cert.ReferenceIdeal.nD).tc : Thread Cert.ReferenceIdeal.nD Cert.ReferenceIdeal.τ).loc Cert.ReferenceIdeal.main_arg1) i = (r : EReal))
    ∧ (∀ i, ∃ r : ℝ, m' (((0 : Dev Cert.ReferenceIdeal.nD).tc : Thread Cert.ReferenceIdeal.nD Cert.ReferenceIdeal.τ).loc Cert.ReferenceIdeal.main_arg2) i = (r : EReal)) := by
  have hdev : ∀ c : Dev Cert.KernelIdeal.nD, _ := fun c => real_of_pre _ _ _ (hpre c)
  refine ⟨real_of_blocks _ fun c j => ?_, real_of_blocks _ fun c j => ?_, real_of_blocks _ fun c j => ?_⟩
  · rw [← (hagree c).1]; exact (hdev c).1 j
  · rw [← (hagree c).2.1]; exact (hdev c).2.1 j
  · rw [← (hagree c).2.2]; exact (hdev c).2.2 j

end Cert.KernelIdeal.Spec
-- ==== Proof.SpecAlgebra.lean ====
/-
  The algebra between the two arrangements of the attention value, over real witnesses.

  For real scores `s k`, real values `v k` and ANY real `m`,
      Σ_k v_k · (exp (s_k − m) / Σ_j exp (s_j − m)) = (Σ_k exp (s_k) · v_k) / (Σ_k exp (s_k)),
  because exp (s − m) = exp s / exp m and the common factor 1 / exp m cancels between numerator and denominator;
  both denominators are positive since the index set is nonempty. The extended reals enter only through the
  coercion of reals: sums, products, differences, exp and the quotient by a nonzero real all stay among the reals.
  A score scaled after the sum equals the score with the scale applied to the first factor: (Σ_d a_d b_d) c =
  Σ_d (a_d c) b_d. A maximum of real numbers over a nonempty finite set, folded from −∞, is a real number.
-/
import Idealize.ShloMosaic.PureOps.Ideal
import Idealize.ShloMosaic.PureOps.Ideal.Laws

noncomputable section

open scoped BigOperators

namespace Cert.KernelIdeal.Spec

open Idealize.ShloMosaic

/-- The coercion of reals into the extended reals goes through a finite sum. -/
theorem coe_sum {ι : Type*} (s : Finset ι) (f : ι → ℝ) : ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

/-- A sum of products of real entries, scaled by a real afterwards, is the sum with the scale on the first factor. -/
theorem score_law {δ : Type*} [Fintype δ] (a b : δ → ℝ) (c : ℝ) :
    (∑ d, (a d : EReal) * (b d : EReal)) * (c : EReal) = ∑ d, ((a d : EReal) * (c : EReal)) * (b d : EReal) := by
  have h1 : ∑ d, (a d : EReal) * (b d : EReal) = ((∑ d, a d * b d : ℝ) : EReal) := by
    rw [coe_sum]; exact Finset.sum_congr rfl fun d _ => (EReal.coe_mul _ _).symm
  have h2 : ∑ d, ((a d : EReal) * (c : EReal)) * (b d : EReal) = ((∑ d, a d * c * b d : ℝ) : EReal) := by
    rw [coe_sum]; exact Finset.sum_congr rfl fun d _ => by rw [EReal.coe_mul, EReal.coe_mul]
  rw [h1, h2, ← EReal.coe_mul, Finset.sum_mul]
  exact congrArg _ (Finset.sum_congr rfl fun d _ => by ring)

/-- The scaled score of real entries is a real. -/
theorem score_real {δ : Type*} [Fintype δ] (a b : δ → ℝ) (c : ℝ) :
    ∑ d, ((a d : EReal) * (c : EReal)) * (b d : EReal) = ((∑ d, a d * c * b d : ℝ) : EReal) := by
  rw [coe_sum]; exact Finset.sum_congr rfl fun d _ => by rw [EReal.coe_mul, EReal.coe_mul]

/-- THE LAW. Weights normalised after subtracting any real `m`, applied to the values, give the quotient of the
    unshifted weighted sum by the unshifted sum of weights. The left side is written as a reference computes it (the
    value first in each product, the denominator's sum started from zero), the right side as `attn`'s unblocked form. -/
theorem softmax_law {ι : Type*} [Fintype ι] [Nonempty ι] (s v : ι → ℝ) (m : ℝ) :
    ∑ k, (v k : EReal) * Ideal.div (Ideal.exp ((s k : EReal) - (m : EReal)))
        (0 + ∑ j, Ideal.exp ((s j : EReal) - (m : EReal)))
      = Ideal.div (∑ k, Ideal.exp (s k : EReal) * (v k : EReal)) (∑ k, Ideal.exp (s k : EReal)) := by
  have hE : ∀ k, Ideal.exp ((s k : EReal) - (m : EReal)) = ((Real.exp (s k - m) : ℝ) : EReal) := fun k => by
    rw [← EReal.coe_sub, Ideal.exp_coe]
  have hE' : ∀ k, Ideal.exp (s k : EReal) = ((Real.exp (s k) : ℝ) : EReal) := fun k => Ideal.exp_coe _
  have hT'pos : 0 < ∑ j, Real.exp (s j - m) := Finset.sum_pos (fun j _ => Real.exp_pos _) Finset.univ_nonempty
  have hTpos : 0 < ∑ j, Real.exp (s j) := Finset.sum_pos (fun j _ => Real.exp_pos _) Finset.univ_nonempty
  have hden' : (0 : EReal) + ∑ j, Ideal.exp ((s j : EReal) - (m : EReal)) = ((∑ j, Real.exp (s j - m) : ℝ) : EReal) := by
    rw [zero_add, coe_sum]; exact Finset.sum_congr rfl fun j _ => hE j
  have hden : ∑ k, Ideal.exp (s k : EReal) = ((∑ j, Real.exp (s j) : ℝ) : EReal) := by
    rw [coe_sum]; exact Finset.sum_congr rfl fun j _ => hE' j
  have hnum : ∑ k, Ideal.exp (s k : EReal) * (v k : EReal) = ((∑ k, Real.exp (s k) * v k : ℝ) : EReal) := by
    rw [coe_sum]; exact Finset.sum_congr rfl fun k _ => by rw [hE' k, EReal.coe_mul]
  have hterm : ∀ k, (v k : EReal) * Ideal.div (Ideal.exp ((s k : EReal) - (m : EReal)))
        ((∑ j, Real.exp (s j - m) : ℝ) : EReal)
      = ((v k * (Real.exp (s k - m) * (1 / ∑ j, Real.exp (s j - m))) : ℝ) : EReal) := fun k => by
    rw [Ideal.div_coe hT'pos.ne', hE k, ← EReal.coe_mul, ← EReal.coe_mul]
  rw [hden', hden, hnum, Ideal.div_coe hTpos.ne', ← EReal.coe_mul, Finset.sum_congr rfl fun k _ => hterm k, ← coe_sum]
  refine congrArg _ ?_
  have hsub : ∀ j, Real.exp (s j - m) = Real.exp (s j) / Real.exp m := fun j => Real.exp_sub _ _
  have hT' : ∑ j, Real.exp (s j - m) = (∑ j, Real.exp (s j)) / Real.exp m := by
    rw [Finset.sum_div]; exact Finset.sum_congr rfl fun j _ => hsub j
  rw [hT', Finset.sum_mul]
  refine Finset.sum_congr rfl fun k _ => ?_
  rw [hsub k]
  have hm := (Real.exp_pos m).ne'
  have hT := hTpos.ne'
  field_simp

/-- The word 0x3E000000 (the scale 1/8) denotes a real number: its exponent field is neither all ones nor zero. -/
theorem ofBits_scale_real : ∃ c : ℝ, Ideal.ofBits .f32 0x3E000000#32 = (c : EReal) := by
  unfold Ideal.ofBits Ideal.ieee
  simp only []
  rw [if_neg (by decide), if_neg (by decide)]
  exact ⟨_, rfl⟩

/-- The word 0xFF800000 denotes −∞. -/
theorem ofBits_ninf : Ideal.ofBits .f32 0xFF800000#32 = (⊥ : EReal) := by
  simp [Ideal.ofBits, Ideal.ieee]

/-- The maximum of two reals is a real. -/
theorem max_coe_coe (x y : ℝ) : ∃ r : ℝ, max (x : EReal) (y : EReal) = (r : EReal) := by
  rcases le_total x y with h | h
  · exact ⟨y, max_eq_right (EReal.coe_le_coe_iff.mpr h)⟩
  · exact ⟨x, max_eq_left (EReal.coe_le_coe_iff.mpr h)⟩

/-- A maximum of real numbers folded from −∞ over a finite set is −∞ when the set is empty and a real otherwise. -/
theorem fold_max_real {ι : Type*} (g : ι → EReal) (hg : ∀ k, ∃ r : ℝ, g k = (r : EReal)) (s : Finset ι) :
    (s = ∅ ∧ s.fold (FloatOps.maximumf (F := Ideal) (φ := .f32)) (⊥ : EReal) g = ⊥)
      ∨ ∃ r : ℝ, s.fold (FloatOps.maximumf (F := Ideal) (φ := .f32)) (⊥ : EReal) g = (r : EReal) := by
  classical
  induction s using Finset.induction_on with
  | empty => exact Or.inl ⟨rfl, Finset.fold_empty⟩
  | insert a s ha ih =>
    right
    rw [Finset.fold_insert ha]
    obtain ⟨ra, hra⟩ := hg a
    show ∃ r : ℝ, max (g a) (s.fold (FloatOps.maximumf (F := Ideal) (φ := .f32)) (⊥ : EReal) g) = (r : EReal)
    rcases ih with ⟨_, h⟩ | ⟨r', h⟩
    · rw [h, hra]; exact ⟨ra, max_eq_left bot_le⟩
    · rw [h, hra]; exact max_coe_coe ra r'

/-- Over a nonempty index type the maximum of real numbers folded from −∞ over all indices is a real. -/
theorem fold_max_univ_real {ι : Type*} [Fintype ι] [Nonempty ι] (g : ι → EReal) (hg : ∀ k, ∃ r : ℝ, g k = (r : EReal)) :
    ∃ r : ℝ, (Finset.univ : Finset ι).fold (FloatOps.maximumf (F := Ideal) (φ := .f32)) (⊥ : EReal) g = (r : EReal) := by
  rcases fold_max_real g hg Finset.univ with ⟨h, _⟩ | h
  · exact absurd h Finset.univ_nonempty.ne_empty
  · exact h

end Cert.KernelIdeal.Spec

end
-- ==== Proof.SpecRef.lean ====
/-
  The reference's result is the specification. Stage by stage, at explicit coordinates: the first contraction gives
  Σ_d Q[b,q,h,d] · K[b,k,h,d]; it is scaled by 1/8; a maximum m over the keys is taken (folded from −∞, so a real
  number when the entries are real); the weights are exp (S − m), their sum over the keys is taken from zero, each
  weight is divided by that sum, and the second contraction pairs V[b,k,h,d] with the normalised weight and sums over
  the keys. With every entry of Q, K, V a real number this is the quotient form of the specification: the law of the
  algebra module with s the scaled scores, v the value entries, and m the maximum.
-/
import proofs.«900413_g7700000000000414_dist_agattn_v7x_xyz2x4x4_z_b2_s512_h8_d64_bf16_1_alg».proof.Proof.Gen.ReferenceIdeal.Read
import proofs.«900413_g7700000000000414_dist_agattn_v7x_xyz2x4x4_z_b2_s512_h8_d64_bf16_1_alg».proof.Proof.SpecAttn
import proofs.«900413_g7700000000000414_dist_agattn_v7x_xyz2x4x4_z_b2_s512_h8_d64_bf16_1_alg».proof.Proof.SpecAlgebra

noncomputable section

open scoped BigOperators

namespace Cert.KernelIdeal.Spec

open Cert.ReferenceIdeal Cert.ReferenceIdeal.Gen Cert.ReferenceIdeal.Read Idealize.ShloMosaic Idealize.ShloMosaic.ValueIdx
open Idealize.ShloMosaic.TcCoe Idealize.SL.Sem Idealize.ShloMosaic.StableHlo

/-- The scaled product sums at (b, h, q, k): the contraction over the 64 features, then the scale. -/
theorem v2_at (Q K : (⟨4, ![2, 2048, 8, 64]⟩ : Shape).Idx → EReal) (b : Fin 2) (h : Fin 8) (q k : Fin 2048) :
    val_main_v2 (F := Ideal) Q K (ix4 b h q k) = (∑ d : Fin 64, Q (ix4 b q h d) * K (ix4 b k h d)) * scale := by
  rw [val_main_v2_apply, val_main_v0_apply, val_main_v1_apply, val_main_cst_apply]
  have el : ∀ d : Fin 64, lidx_main_v0 (ix4 b h q k) d = ix4 b q h d := fun d => funext fun a => Fin.ext (by
    match a with | ⟨0, _⟩ => rfl | ⟨1, _⟩ => rfl | ⟨2, _⟩ => rfl | ⟨3, _⟩ => rfl)
  have er : ∀ d : Fin 64, ridx_main_v0 (ix4 b h q k) d = ix4 b k h d := fun d => funext fun a => Fin.ext (by
    match a with | ⟨0, _⟩ => rfl | ⟨1, _⟩ => rfl | ⟨2, _⟩ => rfl | ⟨3, _⟩ => rfl)
  simp only [el, er]
  rfl

/-- With real entries and a real scale the scaled product sum at (b, h, q, k) is the real Σ_d Q·c·K. -/
theorem v2_real (Qr Kr : (⟨4, ![2, 2048, 8, 64]⟩ : Shape).Idx → ℝ) (c : ℝ) (hc : scale = (c : EReal))
    (b : Fin 2) (h : Fin 8) (q k : Fin 2048) :
    val_main_v2 (F := Ideal) (fun i => (Qr i : EReal)) (fun i => (Kr i : EReal)) (ix4 b h q k)
      = ((∑ d : Fin 64, Qr (ix4 b q h d) * c * Kr (ix4 b k h d) : ℝ) : EReal) := by
  rw [v2_at, hc]
  exact (score_law (fun d => Qr (ix4 b q h d)) (fun d => Kr (ix4 b k h d)) c).trans
    (score_real (fun d => Qr (ix4 b q h d)) (fun d => Kr (ix4 b k h d)) c)

/-- So it is a real at every index. -/
theorem v2_real_any (Qr Kr : (⟨4, ![2, 2048, 8, 64]⟩ : Shape).Idx → ℝ) (c : ℝ) (hc : scale = (c : EReal))
    (j : (⟨4, ![2, 8, 2048, 2048]⟩ : Shape).Idx) :
    ∃ r : ℝ, val_main_v2 (F := Ideal) (fun i => (Qr i : EReal)) (fun i => (Kr i : EReal)) j = (r : EReal) := by
  rw [eq_ix4 j]
  exact ⟨_, v2_real Qr Kr c hc (j 0) (j 1) (j 2) (j 3)⟩

/-- The maximum over the keys at (b, h, q) is a real number: a fold of `max` from −∞ over 2048 real numbers. -/
theorem v3_real (Qr Kr : (⟨4, ![2, 2048, 8, 64]⟩ : Shape).Idx → ℝ) (c : ℝ) (hc : scale = (c : EReal))
    (j : (⟨3, ![2, 8, 2048]⟩ : Shape).Idx) :
    ∃ mr : ℝ, val_main_v3 (F := Ideal) (fun i => (Qr i : EReal)) (fun i => (Kr i : EReal)) j = (mr : EReal) := by
  unfold val_main_v3
  rw [Host.reduce_eq_fold_single FloatOps.maximumf _ _ reducesTo_S2x8x2048x2048_S2x8x2048_d3
    (by decide : S2x8x2048x2048.Reduces [3] S2x8x2048) h_S_ j]
  have hinit : (val_main_cst_0 (F := Ideal)) (Shape.Idx.first h_S_) = (⊥ : EReal) := ofBits_ninf
  rw [hinit]
  haveI : Nonempty (Fin (S2x8x2048x2048.size 3)) := ⟨⟨0, by decide⟩⟩
  exact fold_max_univ_real _ fun k => v2_real_any Qr Kr c hc _

/-- The weight at (b, h, q, k): exp of the scaled product sum minus the maximum at (b, h, q). -/
theorem v7_at (Q K : (⟨4, ![2, 2048, 8, 64]⟩ : Shape).Idx → EReal) (b : Fin 2) (h : Fin 8) (q k : Fin 2048) :
    val_main_v7 (F := Ideal) Q K (ix4 b h q k)
      = Ideal.exp (val_main_v2 (F := Ideal) Q K (ix4 b h q k) - val_main_v3 (F := Ideal) Q K (ix3 b h q)) := by
  rw [val_main_v7_apply, val_main_v6_apply, val_main_v5_apply, val_main_v4_apply]
  have e : idx_main_v4 (idx_main_v5 (ix4 b h q k)) = ix3 b h q := funext fun a => Fin.ext (by
    match a with | ⟨0, _⟩ => rfl | ⟨1, _⟩ => rfl | ⟨2, _⟩ => rfl)
  rw [e]
  rfl

/-- The sum of the weights at (b, h, q), taken from zero. -/
theorem v8_at (Q K : (⟨4, ![2, 2048, 8, 64]⟩ : Shape).Idx → EReal) (b : Fin 2) (h : Fin 8) (q : Fin 2048) :
    val_main_v8 (F := Ideal) Q K (ix3 b h q) = 0 + ∑ k : Fin 2048, val_main_v7 (F := Ideal) Q K (ix4 b h q k) := by
  rw [val_main_v8_apply, val_main_cst_1_apply]
  have e : ∀ k : Fin 2048, idx_main_v8 (ix3 b h q) k = ix4 b h q k := fun k => funext fun a => Fin.ext (by
    match a with | ⟨0, _⟩ => rfl | ⟨1, _⟩ => rfl | ⟨2, _⟩ => rfl | ⟨3, _⟩ => rfl)
  simp only [e]
  rw [Ideal.ofBits_def, Ideal.ofBits_zero_f32]

/-- The normalised weight at (b, h, q, k). -/
theorem v11_at (Q K : (⟨4, ![2, 2048, 8, 64]⟩ : Shape).Idx → EReal) (b : Fin 2) (h : Fin 8) (q k : Fin 2048) :
    val_main_v11 (F := Ideal) Q K (ix4 b h q k)
      = Ideal.div (val_main_v7 (F := Ideal) Q K (ix4 b h q k)) (val_main_v8 (F := Ideal) Q K (ix3 b h q)) := by
  rw [val_main_v11_apply, val_main_v10_apply, val_main_v9_apply]
  have e : idx_main_v9 (idx_main_v10 (ix4 b h q k)) = ix3 b h q := funext fun a => Fin.ext (by
    match a with | ⟨0, _⟩ => rfl | ⟨1, _⟩ => rfl | ⟨2, _⟩ => rfl)
  rw [e]
  rfl

/-- The reference's result at (b, q, h, d): the value entries paired with the normalised weights, summed over keys. -/
theorem v13_at (Q K V : (⟨4, ![2, 2048, 8, 64]⟩ : Shape).Idx → EReal) (b : Fin 2) (q : Fin 2048) (h : Fin 8) (d : Fin 64) :
    val_main_v13 (F := Ideal) Q K V (ix4 b q h d)
      = ∑ k : Fin 2048, V (ix4 b k h d) * val_main_v11 (F := Ideal) Q K (ix4 b h q k) := by
  rw [val_main_v13_apply, val_main_v12_apply]
  have el : ∀ k : Fin 2048, lidx_main_v12 (idx_main_v13 (ix4 b q h d)) k = ix4 b k h d := fun k => funext fun a =>
    Fin.ext (by match a with | ⟨0, _⟩ => rfl | ⟨1, _⟩ => rfl | ⟨2, _⟩ => rfl | ⟨3, _⟩ => rfl)
  have er : ∀ k : Fin 2048, ridx_main_v12 (idx_main_v13 (ix4 b q h d)) k = ix4 b h q k := fun k => funext fun a =>
    Fin.ext (by match a with | ⟨0, _⟩ => rfl | ⟨1, _⟩ => rfl | ⟨2, _⟩ => rfl | ⟨3, _⟩ => rfl)
  simp only [el, er]

/-- THE REFERENCE IS THE SPECIFICATION: with every entry of the three whole arrays a real number, the reference's
    result array is `attn` of them. -/
theorem ref_eq_attn (Q K V : (⟨4, ![2, 2048, 8, 64]⟩ : Shape).Idx → EReal)
    (hQ : ∀ i, ∃ r : ℝ, Q i = (r : EReal)) (hK : ∀ i, ∃ r : ℝ, K i = (r : EReal)) (hV : ∀ i, ∃ r : ℝ, V i = (r : EReal)) :
    val_main_v13 (F := Ideal) Q K V = attn Q K V := by
  choose Qr hQr using hQ
  choose Kr hKr using hK
  choose Vr hVr using hV
  obtain rfl : Q = fun i => (Qr i : EReal) := funext hQr
  obtain rfl : K = fun i => (Kr i : EReal) := funext hKr
  obtain rfl : V = fun i => (Vr i : EReal) := funext hVr
  obtain ⟨c, hc⟩ : ∃ c : ℝ, scale = (c : EReal) := ofBits_scale_real
  funext i
  obtain ⟨b, q, h, d, rfl⟩ : ∃ (b : Fin 2) (q : Fin 2048) (h : Fin 8) (d : Fin 64), i = ix4 b q h d :=
    ⟨i 0, i 1, i 2, i 3, eq_ix4 i⟩
  obtain ⟨mr, hm⟩ := v3_real Qr Kr c hc (ix3 b h q)
  rw [attn_ix4, attnAt_eq_full, v13_at]
  have hw : ∀ j : Fin 2048,
      val_main_v7 (F := Ideal) (fun i => (Qr i : EReal)) (fun i => (Kr i : EReal)) (ix4 b h q j)
        = Ideal.exp (((∑ d : Fin 64, Qr (ix4 b q h d) * c * Kr (ix4 b j h d) : ℝ) : EReal) - (mr : EReal)) := fun j => by
    rw [v7_at, v2_real Qr Kr c hc, hm]
  have h11 : ∀ k : Fin 2048,
      val_main_v11 (F := Ideal) (fun i => (Qr i : EReal)) (fun i => (Kr i : EReal)) (ix4 b h q k)
        = Ideal.div (Ideal.exp (((∑ d : Fin 64, Qr (ix4 b q h d) * c * Kr (ix4 b k h d) : ℝ) : EReal) - (mr : EReal)))
            (0 + ∑ j : Fin 2048,
              Ideal.exp (((∑ d : Fin 64, Qr (ix4 b q h d) * c * Kr (ix4 b j h d) : ℝ) : EReal) - (mr : EReal))) := fun k => by
    rw [v11_at, v8_at]
    simp only [hw]
  have hs : ∀ k : Fin 2048, score (fun i => (Qr i : EReal)) (fun i => (Kr i : EReal)) b h q k
      = ((∑ d : Fin 64, Qr (ix4 b q h d) * c * Kr (ix4 b k h d) : ℝ) : EReal) := fun k => by
    unfold score
    rw [hc]
    exact score_real (fun d => Qr (ix4 b q h d)) (fun d => Kr (ix4 b k h d)) c
  simp only [h11, hs]
  exact softmax_law (fun k => ∑ d : Fin 64, Qr (ix4 b q h d) * c * Kr (ix4 b k h d)) (fun k => Vr (ix4 b k h d)) mr

/-- THE REFERENCE'S RUN, ITS RESULT NAMED BY THE SPECIFICATION: from any memory whose three argument arrays have only
    real entries, every weakly fair execution of the reference terminates with the result array equal to `attn` of
    the argument arrays as they were at launch, and the arguments unchanged. -/
theorem ref_run_attn (m : (ℓ : Loc Cert.ReferenceIdeal.nD Cert.ReferenceIdeal.τ Cert.ReferenceIdeal.sig) → Buf (Elt Ideal) ℓ)
    (ρ : Dev Cert.ReferenceIdeal.nD → PrngReg)
    (hQ : ∀ (c : Dev Cert.ReferenceIdeal.nD) i, ∃ r : ℝ,
      m ((c.tc : Thread Cert.ReferenceIdeal.nD Cert.ReferenceIdeal.τ).loc Cert.ReferenceIdeal.main_arg0) i = (r : EReal))
    (hK : ∀ (c : Dev Cert.ReferenceIdeal.nD) i, ∃ r : ℝ,
      m ((c.tc : Thread Cert.ReferenceIdeal.nD Cert.ReferenceIdeal.τ).loc Cert.ReferenceIdeal.main_arg1) i = (r : EReal))
    (hV : ∀ (c : Dev Cert.ReferenceIdeal.nD) i, ∃ r : ℝ,
      m ((c.tc : Thread Cert.ReferenceIdeal.nD Cert.ReferenceIdeal.τ).loc Cert.ReferenceIdeal.main_arg2) i = (r : EReal)) :
    θ_run (Cert.ReferenceIdeal.defs (F := Ideal)) (onTc (τ := Cert.ReferenceIdeal.τ) (Cert.ReferenceIdeal.main (F := Ideal))) ⟨m, fun _ => 0, ρ⟩
      fun r => ∀ c : Dev Cert.ReferenceIdeal.nD,
        r.2.mem ((c.tc : Thread Cert.ReferenceIdeal.nD Cert.ReferenceIdeal.τ).loc Cert.ReferenceIdeal.main_v13)
            = attn (m ((c.tc : Thread Cert.ReferenceIdeal.nD Cert.ReferenceIdeal.τ).loc Cert.ReferenceIdeal.main_arg0))
                (m ((c.tc : Thread Cert.ReferenceIdeal.nD Cert.ReferenceIdeal.τ).loc Cert.ReferenceIdeal.main_arg1))
                (m ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2)
            = m ((c.tc : Thread Cert.ReferenceIdeal.nD Cert.ReferenceIdeal.τ).loc Cert.ReferenceIdeal.main_arg2) :=
  (θ_run (Cert.ReferenceIdeal.defs (F := Ideal)) _ _).mono
    (fun _ h c => ⟨by rw [(h c).1, val_main_v13_eq, ref_eq_attn _ _ _ (hQ c) (hK c) (hV c)], (h c).2⟩)
    (Cert.ReferenceIdeal.Value.run (F := Ideal) m ρ)

/-- info: 'Cert.KernelIdeal.Spec.ref_eq_attn' depends on axioms: [propext, Classical.choice, Quot.sound] -/
#guard_msgs in #print axioms ref_eq_attn
/-- info: 'Cert.KernelIdeal.Spec.ref_run_attn' depends on axioms: [propext, Classical.choice, Quot.sound] -/
#guard_msgs in #print axioms ref_run_attn

end Cert.KernelIdeal.Spec

end
-- ==== Proof.lean ====
/- The proof of `Cert.Claim`: frame_Kernel, frame_KernelIdeal, frame_ReferenceIdeal, preserves_Kernel_KernelIdeal,
   algebraic_KernelIdeal_ReferenceIdeal.

   The kernel is a ring-free all-gather attention on a 2 x 4 x 4 mesh: the four devices of a z-line each hold a
   quarter of the positions; each sends its transposed key block and value block to the other three, and computes
   the attention of its queries against all four blocks, its own first, accumulating un-normalised sums and
   dividing at the end. One theorem, generic in the float instance, says that every fair execution ends without a
   fault, leaves each device's inputs unchanged and leaves its named result block in its result array
   (`LoopsAll.run`: the handshake and the twelve semaphores by a one-round schedule with levels, the six counted
   loops by their invariants). At the words it gives frame_Kernel, at the extended reals frame_KernelIdeal. The
   reference is one device computing softmax attention with the maximum subtracted; its run is its frame, and at
   the extended reals, with every input entry finite, it is the same function of the whole arrays as the kernel's
   result blocks put together: exp (s - m) / sum exp (s - m) = exp s / sum exp s for a finite maximum m, the scale
   0.125 is the same word on both sides, and the kernel's order of the four blocks is a rotation of the key
   positions. No operation of the kernel is rewritten by the idealization, so preserves is trivial. -/
import proofs.«900413_g7700000000000414_dist_agattn_v7x_xyz2x4x4_z_b2_s512_h8_d64_bf16_1_alg».proof.Defs
import proofs.«900413_g7700000000000414_dist_agattn_v7x_xyz2x4x4_z_b2_s512_h8_d64_bf16_1_alg».proof.Proof.Gen.Kernel
import proofs.«900413_g7700000000000414_dist_agattn_v7x_xyz2x4x4_z_b2_s512_h8_d64_bf16_1_alg».proof.Proof.Gen.KernelIdeal
import proofs.«900413_g7700000000000414_dist_agattn_v7x_xyz2x4x4_z_b2_s512_h8_d64_bf16_1_alg».proof.Proof.Gen.ReferenceIdeal
import proofs.«900413_g7700000000000414_dist_agattn_v7x_xyz2x4x4_z_b2_s512_h8_d64_bf16_1_alg».proof.Proof.Gen.ReferenceIdeal.Run
import proofs.«900413_g7700000000000414_dist_agattn_v7x_xyz2x4x4_z_b2_s512_h8_d64_bf16_1_alg».proof.Proof.Gen.ReferenceIdeal.Read
import proofs.«900413_g7700000000000414_dist_agattn_v7x_xyz2x4x4_z_b2_s512_h8_d64_bf16_1_alg».proof.Proof.Gen.Pre_finite_inputs_Kernel
import proofs.«900413_g7700000000000414_dist_agattn_v7x_xyz2x4x4_z_b2_s512_h8_d64_bf16_1_alg».proof.Proof.Gen.Pre_finite_inputs_ReferenceIdeal
import proofs.«900413_g7700000000000414_dist_agattn_v7x_xyz2x4x4_z_b2_s512_h8_d64_bf16_1_alg».proof.Proof.RefFrame
import proofs.«900413_g7700000000000414_dist_agattn_v7x_xyz2x4x4_z_b2_s512_h8_d64_bf16_1_alg».proof.Proof.LoopsAll
import proofs.«900413_g7700000000000414_dist_agattn_v7x_xyz2x4x4_z_b2_s512_h8_d64_bf16_1_alg».proof.Proof.Bits.LoopsAll
import proofs.«900413_g7700000000000414_dist_agattn_v7x_xyz2x4x4_z_b2_s512_h8_d64_bf16_1_alg».proof.Proof.BridgeSpec
import proofs.«900413_g7700000000000414_dist_agattn_v7x_xyz2x4x4_z_b2_s512_h8_d64_bf16_1_alg».proof.Proof.SpecPre
import proofs.«900413_g7700000000000414_dist_agattn_v7x_xyz2x4x4_z_b2_s512_h8_d64_bf16_1_alg».proof.Proof.SpecRef
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m g _ =>
  (θ_run (Cert.Kernel.defs (F := Bits)) _ _).mono (fun _ h c => (h c).2) (Cert.Kernel.LoopsAll.run (F := Bits) m g)

/-- The idealized kernel runs and leaves its arguments unchanged. -/
theorem frame_ki : Cert.frame_KernelIdeal := fun m g _ =>
  (θ_run (Cert.KernelIdeal.defs (F := Ideal)) _ _).mono (fun _ h c => (h c).2) (Cert.KernelIdeal.LoopsAll.run (F := Ideal) m g)

/-- The idealized kernel and the reference compute the same function of the whole arrays. -/
theorem algebraic : Cert.algebraic_KernelIdeal_ReferenceIdeal := by
  intro m g m' g' hpre hagree
  obtain ⟨hQ, hK, hV⟩ := Cert.KernelIdeal.Spec.whole_real m m' hpre hagree
  have href := Cert.KernelIdeal.Spec.ref_run_attn m' g'
    (fun c => by obtain rfl : c = 0 := Subsingleton.elim _ _; exact hQ)
    (fun c => by obtain rfl : c = 0 := Subsingleton.elim _ _; exact hK)
    (fun c => by obtain rfl : c = 0 := Subsingleton.elim _ _; exact hV)
  refine ⟨Cert.KernelIdeal.Spec.attn (Cert.KernelIdeal.BridgeSpec.QW m') (Cert.KernelIdeal.BridgeSpec.KW m') (Cert.KernelIdeal.BridgeSpec.VW m'), ?_, ?_⟩
  · exact (θ_run (Cert.KernelIdeal.defs (F := Ideal)) _ _).mono
      (fun _ h c => ⟨(h c).1.trans (Cert.KernelIdeal.BridgeSpec.outV_eq m g m' hagree c), (h c).2⟩)
      (Cert.KernelIdeal.LoopsAll.run (F := Ideal) m g)
  · exact (θ_run (Cert.ReferenceIdeal.defs (F := Ideal)) _ _).mono (fun _ h => h 0) href

theorem claim : Cert.Claim := ⟨Cert.Kernel.Gen.facts, Cert.KernelIdeal.Gen.facts, Cert.ReferenceIdeal.Gen.facts, Cert.Pre_finite_inputs_Kernel.Gen.facts, Cert.Pre_finite_inputs_ReferenceIdeal.Gen.facts,
  frame_k, frame_ki, Cert.Proof.Ref.frame_ri, Cert.Proof.Ref.preserves, algebraic⟩

/-- info: 'Cert.Proof.claim' depends on axioms: [propext, Classical.choice, Quot.sound] -/
#guard_msgs in #print axioms claim

end Cert.Proof

end
